-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S4x128 : Shape := ⟨2, ![4, 128]⟩
abbrev S128 : Shape := ⟨1, ![128]⟩
abbrev S_ : Shape := ⟨0, ![]⟩

class Facts : Prop where
  bcast_S_S4x128 : S_.BroadcastsInDim S4x128 (![] : Fin 0 → Fin S4x128.rank)
  reducesTo_S4x128_S_d0_1 : S4x128.ReducesTo [0, 1] S_
  h_S_ : 0 < S_.numel
  bcast_S_S128 : S_.BroadcastsInDim S128 (![] : Fin 0 → Fin S128.rank)
  reducesTo_S128_S_d0 : S128.ReducesTo [0] S_
  bcast_S_S4096x200 : S_.BroadcastsInDim S4096x200 (![] : Fin 0 → Fin S4096x200.rank)
  reducesTo_S4096x200_S_d0_1 : S4096x200.ReducesTo [0, 1] S_

variable [Facts]

def fn_part1 {F : FTy → Type} [FloatOps F] (main_arg0 : IVec S4096x200 32) (main_v13 : IVec S_ 1) (main_v15 : IVec S4096x200 1) (main_c_5 : IVec S_ 32) : IVec S_ 1 :=
  let main_v16 : IVec S4096x200 32 := broadcastInDim S4096x200 ![] bcast_S_S4096x200 main_c_5
  let main_v17 : IVec S4096x200 1 := cmpi .sle main_arg0 main_v16
  let main_v18 : IVec S4096x200 1 := andi main_v15 main_v17
  let main_c_6 : IVec S_ 1 := constantI S_ 1 1#1
  let main_v19 : IVec S_ 1 := (fun x v => Host.reduce IntOp.andi x v reducesTo_S4096x200_S_d0_1 h_S_) main_v18 main_c_6
  let main_v20 : IVec S_ 1 := andi main_v13 main_v19
  main_v20

def fn {F : FTy → Type} [FloatOps F] (main_arg0 : IVec S4096x200 32) (main_arg1 : FVec F S4x128 .f32) (main_arg2 : FVec F S128 .f32) (main_arg3 : FVec F S128 .f32) : IVec S_ 1 :=
  let main_v0 : FVec F S4x128 .f32 := Host.absf main_arg1
  let main_cst : FVec F S_ .f32 := constant S_ .f32 0x7F800000#32
  let main_v1 : FVec F S4x128 .f32 := broadcastInDim S4x128 ![] bcast_S_S4x128 main_cst
  let main_v2 : IVec S4x128 1 := cmpf .olt main_v0 main_v1
  let main_c : IVec S_ 1 := constantI S_ 1 1#1
  let main_v3 : IVec S_ 1 := (fun x v => Host.reduce IntOp.andi x v reducesTo_S4x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S4096x200 32 := broadcastInDim S4096x200 ![] bcast_S_S4096x200 main_c_4
  let main_v15 : IVec S4096x200 1 := cmpi .sge main_arg0 main_v14
  let main_c_5 : IVec S_ 32 := constantI S_ 32 3#32
  fn_part1 (F := F) main_arg0 main_v13 main_v15 main_c_5
-- ==== Kernel.lean ====
abbrev S4096x200 : Shape := ⟨2, ![4096, 200]⟩
abbrev S4x128 : Shape := ⟨2, ![4, 128]⟩
abbrev S128 : Shape := ⟨1, ![128]⟩
abbrev S1x128 : Shape := ⟨2, ![1, 128]⟩
abbrev S64x4x128 : Shape := ⟨3, ![64, 4, 128]⟩
abbrev S4 : Shape := ⟨1, ![4]⟩
abbrev S4x1 : Shape := ⟨2, ![4, 1]⟩
abbrev S1x4x128 : Shape := ⟨3, ![1, 4, 128]⟩
abbrev S256x128 : Shape := ⟨2, ![256, 128]⟩
abbrev S32x200x128 : Shape := ⟨3, ![32, 200, 128]⟩
abbrev S819200x128 : Shape := ⟨2, ![819200, 128]⟩
abbrev S200x128 : Shape := ⟨2, ![200, 128]⟩
abbrev S4x128x128 : Shape := ⟨3, ![4, 128, 128]⟩
abbrev S_ : Shape := ⟨0, ![]⟩
abbrev S16x128 : Shape := ⟨2, ![16, 128]⟩
abbrev S8x128 : Shape := ⟨2, ![8, 128]⟩
abbrev S1x8x128 : Shape := ⟨3, ![1, 8, 128]⟩
abbrev S192x128 : Shape := ⟨2, ![192, 128]⟩
abbrev S1x192x128 : Shape := ⟨3, ![1, 192, 128]⟩
abbrev S16 : Shape := ⟨1, ![16]⟩
abbrev S1x16 : Shape := ⟨2, ![1, 16]⟩
abbrev S1x128x128 : Shape := ⟨3, ![1, 128, 128]⟩
abbrev S128x128 : Shape := ⟨2, ![128, 128]⟩
abbrev S1 : Shape := ⟨1, ![1]⟩
abbrev S4096x200x128 : Shape := ⟨3, ![4096, 200, 128]⟩

abbrev nBuf : Table → Nat
  | .hbm => 11
  | .local .tc .vmem => 4
  | .shared => 1
  | .local .scVector .vmem => 2
  | _ => 0

abbrev bufTy : (tb : Table) → Fin (nBuf tb) → BufTy
  | .hbm, ⟨0, _⟩ => ⟨S4096x200, .i32⟩
  | .hbm, ⟨1, _⟩ => ⟨S4x128, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S64x4x128, .f32⟩
  | .hbm, ⟨7, _⟩ => ⟨S256x128, .f32⟩
  | .hbm, ⟨8, _⟩ => ⟨S32x200x128, .i32⟩
  | .hbm, ⟨9, _⟩ => ⟨S819200x128, .f32⟩
  | .hbm, ⟨10, _⟩ => ⟨S4096x200x128, .f32⟩
  | .local .tc .vmem, ⟨0, _⟩ => ⟨S4x128, .f32⟩
  | .local .tc .vmem, ⟨1, _⟩ => ⟨S1x128, .f32⟩
  | .local .tc .vmem, ⟨2, _⟩ => ⟨S1x128, .f32⟩
  | .local .tc .vmem, ⟨3, _⟩ => ⟨S64x4x128, .f32⟩
  | .shared, ⟨0, _⟩ => ⟨S256x128, .f32⟩
  | .local .scVector .vmem, ⟨0, _⟩ => ⟨S200x128, .i32⟩
  | .local .scVector .vmem, ⟨1, _⟩ => ⟨S4x128x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 15 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 5 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v4_scv : Ref sig .scVector := ⟨.hbm, 8, rfl⟩
abbrev main_v3_scv : Ref sig .scVector := ⟨.hbm, 7, rfl⟩
abbrev main_v5_scv : Ref sig .scVector := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch2 : Ref sig .scVector := ⟨.shared, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c16_i32_0 : BitVec 32 := 16#32
  let v4 : BitVec 32 := Scalar.muli arg1 c16_i32_0
  let c0_i32_326_r0 : BitVec 32 := 0#32
  ![v4.toNat, 0]
def k1_off2 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_328_r1 : BitVec 32 := 0#32
  let c0_i32_329_r1 : BitVec 32 := 0#32
  ![v1.toNat, 0, 0]
def k1_off3 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_1 : BitVec 32 := 8#32
  let c0_i32_2 : BitVec 32 := 0#32
  ![v1.toNat, 8, 0]
@[reducible] def k1_t1_loop : Scf.Loop 32 :=
  let c0_i32_227 : BitVec 32 := 0#32
  let c49_i32 : BitVec 32 := 49#32
  let v430 : BitVec 32 := Scalar.addi c0_i32_227 c49_i32
  let c1_i32_228 : BitVec 32 := 1#32
  ⟨c0_i32_227, v430, c1_i32_228⟩
def k1_off4 (k1_t1 : Fin k1_t1_loop.trips) (c0_i32_327 : BitVec 32) : Fin 2 → Nat :=
  let c0_i32_227 : BitVec 32 := 0#32
  let c1_i32_228 : BitVec 32 := 1#32
  let arg11 : BitVec 32 := Scf.iv c0_i32_227 c1_i32_228 k1_t1
  let c4_i32_326 : BitVec 32 := 4#32
  let v532 : BitVec 32 := Scalar.muli arg11 c4_i32_326
  let v533 : BitVec 32 := Scalar.addi v532 c0_i32_327
  let c4_i32_328 : BitVec 32 := 4#32
  let v534 : BitVec 32 := Scalar.addi v533 c4_i32_328
  let v535 : Index := Scalar.indexCast v534
  let c0_329 : Index := 0#32
  ![v535.toNat, 0]
def k1_off5 (k1_t1 : Fin k1_t1_loop.trips) (c0_i32_327 : BitVec 32) : Fin 2 → Nat :=
  let c0_i32_227 : BitVec 32 := 0#32
  let c1_i32_228 : BitVec 32 := 1#32
  let arg11 : BitVec 32 := Scf.iv c0_i32_227 c1_i32_228 k1_t1
  let c4_i32_326 : BitVec 32 := 4#32
  let v532 : BitVec 32 := Scalar.muli arg11 c4_i32_326
  let v533 : BitVec 32 := Scalar.addi v532 c0_i32_327
  let c4_i32_328 : BitVec 32 := 4#32
  let v534 : BitVec 32 := Scalar.addi v533 c4_i32_328
  let v547 : Index := Scalar.indexCast v534
  let c16_333 : Index := 16#32
  ![v547.toNat, 16]
def k1_off6 (k1_t1 : Fin k1_t1_loop.trips) (c0_i32_327 : BitVec 32) : Fin 2 → Nat :=
  let c0_i32_227 : BitVec 32 := 0#32
  let c1_i32_228 : BitVec 32 := 1#32
  let arg11 : BitVec 32 := Scf.iv c0_i32_227 c1_i32_228 k1_t1
  let c4_i32_326 : BitVec 32 := 4#32
  let v532 : BitVec 32 := Scalar.muli arg11 c4_i32_326
  let v533 : BitVec 32 := Scalar.addi v532 c0_i32_327
  let c4_i32_328 : BitVec 32 := 4#32
  let v534 : BitVec 32 := Scalar.addi v533 c4_i32_328
  let v559 : Index := Scalar.indexCast v534
  let c32_337 : Index := 32#32
  ![v559.toNat, 32]
def k1_off7 (k1_t1 : Fin k1_t1_loop.trips) (c0_i32_327 : BitVec 32) : Fin 2 → Nat :=
  let c0_i32_227 : BitVec 32 := 0#32
  let c1_i32_228 : BitVec 32 := 1#32
  let arg11 : BitVec 32 := Scf.iv c0_i32_227 c1_i32_228 k1_t1
  let c4_i32_326 : BitVec 32 := 4#32
  let v532 : BitVec 32 := Scalar.muli arg11 c4_i32_326
  let v533 : BitVec 32 := Scalar.addi v532 c0_i32_327
  let c4_i32_328 : BitVec 32 := 4#32
  let v534 : BitVec 32 := Scalar.addi v533 c4_i32_328
  let v571 : Index := Scalar.indexCast v534
  let c48_341 : Index := 48#32
  ![v571.toNat, 48]
def k1_off8 (k1_t1 : Fin k1_t1_loop.trips) (c0_i32_327 : BitVec 32) : Fin 2 → Nat :=
  let c0_i32_227 : BitVec 32 := 0#32
  let c1_i32_228 : BitVec 32 := 1#32
  let arg11 : BitVec 32 := Scf.iv c0_i32_227 c1_i32_228 k1_t1
  let c4_i32_326 : BitVec 32 := 4#32
  let v532 : BitVec 32 := Scalar.muli arg11 c4_i32_326
  let v533 : BitVec 32 := Scalar.addi v532 c0_i32_327
  let c4_i32_328 : BitVec 32 := 4#32
  let v534 : BitVec 32 := Scalar.addi v533 c4_i32_328
  let v583 : Index := Scalar.indexCast v534
  let c64_345 : Index := 64#32
  ![v583.toNat, 64]
def k1_off9 (k1_t1 : Fin k1_t1_loop.trips) (c0_i32_327 : BitVec 32) : Fin 2 → Nat :=
  let c0_i32_227 : BitVec 32 := 0#32
  let c1_i32_228 : BitVec 32 := 1#32
  let arg11 : BitVec 32 := Scf.iv c0_i32_227 c1_i32_228 k1_t1
  let c4_i32_326 : BitVec 32 := 4#32
  let v532 : BitVec 32 := Scalar.muli arg11 c4_i32_326
  let v533 : BitVec 32 := Scalar.addi v532 c0_i32_327
  let c4_i32_328 : BitVec 32 := 4#32
  let v534 : BitVec 32 := Scalar.addi v533 c4_i32_328
  let v595 : Index := Scalar.indexCast v534
  let c80_349 : Index := 80#32
  ![v595.toNat, 80]
def k1_off10 (k1_t1 : Fin k1_t1_loop.trips) (c0_i32_327 : BitVec 32) : Fin 2 → Nat :=
  let c0_i32_227 : BitVec 32 := 0#32
  let c1_i32_228 : BitVec 32 := 1#32
  let arg11 : BitVec 32 := Scf.iv c0_i32_227 c1_i32_228 k1_t1
  let c4_i32_326 : BitVec 32 := 4#32
  let v532 : BitVec 32 := Scalar.muli arg11 c4_i32_326
  let v533 : BitVec 32 := Scalar.addi v532 c0_i32_327
  let c4_i32_328 : BitVec 32 := 4#32
  let v534 : BitVec 32 := Scalar.addi v533 c4_i32_328
  let v607 : Index := Scalar.indexCast v534
  let c96_353 : Index := 96#32
  ![v607.toNat, 96]
def k1_off11 (k1_t1 : Fin k1_t1_loop.trips) (c0_i32_327 : BitVec 32) : Fin 2 → Nat :=
  let c0_i32_227 : BitVec 32 := 0#32
  let c1_i32_228 : BitVec 32 := 1#32
  let arg11 : BitVec 32 := Scf.iv c0_i32_227 c1_i32_228 k1_t1
  let c4_i32_326 : BitVec 32 := 4#32
  let v532 : BitVec 32 := Scalar.muli arg11 c4_i32_326
  let v533 : BitVec 32 := Scalar.addi v532 c0_i32_327
  let c4_i32_328 : BitVec 32 := 4#32
  let v534 : BitVec 32 := Scalar.addi v533 c4_i32_328
  let v619 : Index := Scalar.indexCast v534
  let c112_357 : Index := 112#32
  ![v619.toNat, 112]
def k1_off12 (k1_t1 : Fin k1_t1_loop.trips) (c0_i32_327 : BitVec 32) : Fin 2 → Nat :=
  let c0_i32_227 : BitVec 32 := 0#32
  let c1_i32_228 : BitVec 32 := 1#32
  let arg11 : BitVec 32 := Scf.iv c0_i32_227 c1_i32_228 k1_t1
  let c4_i32_326 : BitVec 32 := 4#32
  let v532 : BitVec 32 := Scalar.muli arg11 c4_i32_326
  let v533 : BitVec 32 := Scalar.addi v532 c0_i32_327
  let c0_i32_365 : BitVec 32 := 0#32
  ![v533.toNat, 0]
def k1_off13 (i : grid1.Coords) (k1_t1 : Fin k1_t1_loop.trips) (c0_i32_327 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_227 : BitVec 32 := 0#32
  let c1_i32_228 : BitVec 32 := 1#32
  let arg11 : BitVec 32 := Scf.iv c0_i32_227 c1_i32_228 k1_t1
  let c4_i32_326 : BitVec 32 := 4#32
  let v532 : BitVec 32 := Scalar.muli arg11 c4_i32_326
  let v533 : BitVec 32 := Scalar.addi v532 c0_i32_327
  let c128_i32_368 : BitVec 32 := 128#32
  let v638 : BitVec 32 := Scalar.muli v533 c128_i32_368
  let v639 : BitVec 32 := Scalar.addi v2 v638
  let c0_i32_373 : BitVec 32 := 0#32
  ![v639.toNat, 0]
def k1_off14 (k1_t1 : Fin k1_t1_loop.trips) (c0_i32_327 : BitVec 32) : Fin 2 → Nat :=
  let c0_i32_227 : BitVec 32 := 0#32
  let c1_i32_228 : BitVec 32 := 1#32
  let arg11 : BitVec 32 := Scf.iv c0_i32_227 c1_i32_228 k1_t1
  let c4_i32_326 : BitVec 32 := 4#32
  let v532 : BitVec 32 := Scalar.muli arg11 c4_i32_326
  let v533 : BitVec 32 := Scalar.addi v532 c0_i32_327
  let c4_i32_386 : BitVec 32 := 4#32
  let v658 : BitVec 32 := Scalar.addi v533 c4_i32_386
  let c0_i32_391 : BitVec 32 := 0#32
  ![v658.toNat, 0]
def k1_off15 (i : grid1.Coords) (c25088_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v439 : BitVec 32 := Scalar.addi v2 c25088_i32
  let c0_i32_241 : BitVec 32 := 0#32
  ![v439.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S128_S1x128 : S128.ShapeCasts S1x128
  inb_S4x128_S4x128_0_0 : ∀ a, (![0, 0] : Fin 2 → Nat) a + S4x128.size a ≤ S4x128.size a
  h_S4x128 : 0 < S4x128.numel
  reduces_S4x128_S4 : S4x128.Reduces [1] S4
  shapeCasts_S4_S4x1 : S4.ShapeCasts S4x1
  broadcasts_S4x1_S4x128 : S4x1.Broadcasts S4x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4x128 : S1x128.Broadcasts S4x128
  shapeCasts_S4x128_S1x4x128 : S4x128.ShapeCasts S1x4x128
  shapeCasts_S1x4x128_S1x4x128 : S1x4x128.ShapeCasts S1x4x128
  broadcasts_S1x4x128_S64x4x128 : S1x4x128.Broadcasts S64x4x128
  inb_S64x4x128_S64x4x128_0_0_0 : ∀ a, (![0, 0, 0] : Fin 3 → Nat) a + S64x4x128.size a ≤ S64x4x128.size a
  h_S64x4x128 : 0 < S64x4x128.numel
  shapeCasts_S64x4x128_S256x128 : S64x4x128.ShapeCasts S256x128
  shapeCasts_S4096x200_S32x200x128 : S4096x200.ShapeCasts S32x200x128
  inb_S200x128_S8x128_0_0 : ∀ a, (![0, 0] : Fin 2 → Nat) a + S8x128.size a ≤ S200x128.size a
  squeezes_S1x8x128_S8x128 : S1x8x128.Squeezes S8x128
  inb_S200x128_S192x128_8_0 : ∀ a, (![8, 0] : Fin 2 → Nat) a + S192x128.size a ≤ S200x128.size a
  squeezes_S1x192x128_S192x128 : S1x192x128.Squeezes S192x128
  iota_S16_d0_w32_scVector : S16.Iotas .scVector 32 [0]
  inb_S200x128_S1x16_0_0 : ∀ a, (![0, 0] : Fin 2 → Nat) a + S1x16.size a ≤ S200x128.size a
  h_S1x16 : 0 < S1x16.numel
  shapeCasts_S1x16_S16 : S1x16.ShapeCasts S16
  shapeCasts_S16_S1x16 : S16.ShapeCasts S1x16
  inb_S200x128_S1x16_0_16 : ∀ a, (![0, 16] : Fin 2 → Nat) a + S1x16.size a ≤ S200x128.size a
  inb_S200x128_S1x16_0_32 : ∀ a, (![0, 32] : Fin 2 → Nat) a + S1x16.size a ≤ S200x128.size a
  inb_S200x128_S1x16_0_48 : ∀ a, (![0, 48] : Fin 2 → Nat) a + S1x16.size a ≤ S200x128.size a
  inb_S200x128_S1x16_0_64 : ∀ a, (![0, 64] : Fin 2 → Nat) a + S1x16.size a ≤ S200x128.size a
  inb_S200x128_S1x16_0_80 : ∀ a, (![0, 80] : Fin 2 → Nat) a + S1x16.size a ≤ S200x128.size a
  inb_S200x128_S1x16_0_96 : ∀ a, (![0, 96] : Fin 2 → Nat) a + S1x16.size a ≤ S200x128.size a
  inb_S200x128_S1x16_0_112 : ∀ a, (![0, 112] : Fin 2 → Nat) a + S1x16.size a ≤ S200x128.size a
  inb_S4x128x128_S1x128x128_0_0_0 : ∀ a, (![0, 0, 0] : Fin 3 → Nat) a + S1x128x128.size a ≤ S4x128x128.size a
  squeezes_S1x128x128_S128x128 : S1x128x128.Squeezes S128x128
  inb_S200x128_S1x128_0_0 : ∀ a, (![0, 0] : Fin 2 → Nat) a + S1x128.size a ≤ S200x128.size a
  squeezes_S1x128_S128 : S1x128.Squeezes S128
  inb_S256x128_S256x128_0_0 : ∀ a, (![0, 0] : Fin 2 → Nat) a + S256x128.size a ≤ S256x128.size a
  inb_S4_S1_0 : ∀ a, (![0] : Fin 1 → Nat) a + S1.size a ≤ S4.size a
  squeezes_S1_S_ : S1.Squeezes S_
  gathers_S256x128_S128x128 : S256x128.Gathers 0 S128x128
  inb_S200x128_S1x16_1_0 : ∀ a, (![1, 0] : Fin 2 → Nat) a + S1x16.size a ≤ S200x128.size a
  inb_S200x128_S1x16_1_16 : ∀ a, (![1, 16] : Fin 2 → Nat) a + S1x16.size a ≤ S200x128.size a
  inb_S200x128_S1x16_1_32 : ∀ a, (![1, 32] : Fin 2 → Nat) a + S1x16.size a ≤ S200x128.size a
  inb_S200x128_S1x16_1_48 : ∀ a, (![1, 48] : Fin 2 → Nat) a + S1x16.size a ≤ S200x128.size a
  inb_S200x128_S1x16_1_64 : ∀ a, (![1, 64] : Fin 2 → Nat) a + S1x16.size a ≤ S200x128.size a
  inb_S200x128_S1x16_1_80 : ∀ a, (![1, 80] : Fin 2 → Nat) a + S1x16.size a ≤ S200x128.size a
  inb_S200x128_S1x16_1_96 : ∀ a, (![1, 96] : Fin 2 → Nat) a + S1x16.size a ≤ S200x128.size a
  inb_S200x128_S1x16_1_112 : ∀ a, (![1, 112] : Fin 2 → Nat) a + S1x16.size a ≤ S200x128.size a
  inb_S4x128x128_S1x128x128_1_0_0 : ∀ a, (![1, 0, 0] : Fin 3 → Nat) a + S1x128x128.size a ≤ S4x128x128.size a
  inb_S200x128_S1x128_1_0 : ∀ a, (![1, 0] : Fin 2 → Nat) a + S1x128.size a ≤ S200x128.size a
  inb_S4_S1_1 : ∀ a, (![1] : Fin 1 → Nat) a + S1.size a ≤ S4.size a
  inb_S200x128_S1x16_2_0 : ∀ a, (![2, 0] : Fin 2 → Nat) a + S1x16.size a ≤ S200x128.size a
  inb_S200x128_S1x16_2_16 : ∀ a, (![2, 16] : Fin 2 → Nat) a + S1x16.size a ≤ S200x128.size a
  inb_S200x128_S1x16_2_32 : ∀ a, (![2, 32] : Fin 2 → Nat) a + S1x16.size a ≤ S200x128.size a
  inb_S200x128_S1x16_2_48 : ∀ a, (![2, 48] : Fin 2 → Nat) a + S1x16.size a ≤ S200x128.size a
  inb_S200x128_S1x16_2_64 : ∀ a, (![2, 64] : Fin 2 → Nat) a + S1x16.size a ≤ S200x128.size a
  inb_S200x128_S1x16_2_80 : ∀ a, (![2, 80] : Fin 2 → Nat) a + S1x16.size a ≤ S200x128.size a
  inb_S200x128_S1x16_2_96 : ∀ a, (![2, 96] : Fin 2 → Nat) a + S1x16.size a ≤ S200x128.size a
  inb_S200x128_S1x16_2_112 : ∀ a, (![2, 112] : Fin 2 → Nat) a + S1x16.size a ≤ S200x128.size a
  inb_S4x128x128_S1x128x128_2_0_0 : ∀ a, (![2, 0, 0] : Fin 3 → Nat) a + S1x128x128.size a ≤ S4x128x128.size a
  inb_S200x128_S1x128_2_0 : ∀ a, (![2, 0] : Fin 2 → Nat) a + S1x128.size a ≤ S200x128.size a
  inb_S4_S1_2 : ∀ a, (![2] : Fin 1 → Nat) a + S1.size a ≤ S4.size a
  inb_S200x128_S1x16_3_0 : ∀ a, (![3, 0] : Fin 2 → Nat) a + S1x16.size a ≤ S200x128.size a
  inb_S200x128_S1x16_3_16 : ∀ a, (![3, 16] : Fin 2 → Nat) a + S1x16.size a ≤ S200x128.size a
  inb_S200x128_S1x16_3_32 : ∀ a, (![3, 32] : Fin 2 → Nat) a + S1x16.size a ≤ S200x128.size a
  inb_S200x128_S1x16_3_48 : ∀ a, (![3, 48] : Fin 2 → Nat) a + S1x16.size a ≤ S200x128.size a
  inb_S200x128_S1x16_3_64 : ∀ a, (![3, 64] : Fin 2 → Nat) a + S1x16.size a ≤ S200x128.size a
  inb_S200x128_S1x16_3_80 : ∀ a, (![3, 80] : Fin 2 → Nat) a + S1x16.size a ≤ S200x128.size a
  inb_S200x128_S1x16_3_96 : ∀ a, (![3, 96] : Fin 2 → Nat) a + S1x16.size a ≤ S200x128.size a
  inb_S200x128_S1x16_3_112 : ∀ a, (![3, 112] : Fin 2 → Nat) a + S1x16.size a ≤ S200x128.size a
  inb_S4x128x128_S1x128x128_3_0_0 : ∀ a, (![3, 0, 0] : Fin 3 → Nat) a + S1x128x128.size a ≤ S4x128x128.size a
  inb_S200x128_S1x128_3_0 : ∀ a, (![3, 0] : Fin 2 → Nat) a + S1x128.size a ≤ S200x128.size a
  inb_S4_S1_3 : ∀ a, (![3] : Fin 1 → Nat) a + S1.size a ≤ S4.size a
  inb_S200x128_S1x128_196_0 : ∀ a, (![196, 0] : Fin 2 → Nat) a + S1x128.size a ≤ S200x128.size a
  inb_S200x128_S1x128_197_0 : ∀ a, (![197, 0] : Fin 2 → Nat) a + S1x128.size a ≤ S200x128.size a
  inb_S200x128_S1x128_198_0 : ∀ a, (![198, 0] : Fin 2 → Nat) a + S1x128.size a ≤ S200x128.size a
  inb_S200x128_S1x128_199_0 : ∀ a, (![199, 0] : Fin 2 → Nat) a + S1x128.size a ≤ S200x128.size a
  shapeCasts_S819200x128_S4096x200x128 : S819200x128.ShapeCasts S4096x200x128
  hcc1_scratch3 : 4 + S4.numel ≤ 15
  hcc1_scratch4 : 8 + S4.numel ≤ 15
  hcc1_scratch5 : 12 + S_.numel ≤ 15
  hcc1_scoped0 : 13 + S_.numel ≤ 15
  hcc1_scoped1 : 14 + S_.numel ≤ 15
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hcore1 : grid1.bound 0 ≤ τ.nSC
  hsub1 : grid1.bound 1 ≤ τ.nSub
  k1_off1_inb : ∀ i : grid1.Coords, ∀ a, (k1_off1 i) a + S16x128.size a ≤ S256x128.size a
  k1_off2_inb : ∀ i : grid1.Coords, ∀ a, (k1_off2 i) a + S1x8x128.size a ≤ S32x200x128.size a
  k1_off3_inb : ∀ i : grid1.Coords, ∀ a, (k1_off3 i) a + S1x192x128.size a ≤ S32x200x128.size a
  k1_t1_ok : k1_t1_loop.OK
  k1_off4_inb : ∀ k1_t1 : Fin k1_t1_loop.trips, ∀ (r : Fin 4), ∀ a, (k1_off4 k1_t1 (BitVec.ofNat 32 r.val)) a + S1x16.size a ≤ S200x128.size a
  k1_off5_inb : ∀ k1_t1 : Fin k1_t1_loop.trips, ∀ (r : Fin 4), ∀ a, (k1_off5 k1_t1 (BitVec.ofNat 32 r.val)) a + S1x16.size a ≤ S200x128.size a
  k1_off6_inb : ∀ k1_t1 : Fin k1_t1_loop.trips, ∀ (r : Fin 4), ∀ a, (k1_off6 k1_t1 (BitVec.ofNat 32 r.val)) a + S1x16.size a ≤ S200x128.size a
  k1_off7_inb : ∀ k1_t1 : Fin k1_t1_loop.trips, ∀ (r : Fin 4), ∀ a, (k1_off7 k1_t1 (BitVec.ofNat 32 r.val)) a + S1x16.size a ≤ S200x128.size a
  k1_off8_inb : ∀ k1_t1 : Fin k1_t1_loop.trips, ∀ (r : Fin 4), ∀ a, (k1_off8 k1_t1 (BitVec.ofNat 32 r.val)) a + S1x16.size a ≤ S200x128.size a
  k1_off9_inb : ∀ k1_t1 : Fin k1_t1_loop.trips, ∀ (r : Fin 4), ∀ a, (k1_off9 k1_t1 (BitVec.ofNat 32 r.val)) a + S1x16.size a ≤ S200x128.size a
  k1_off10_inb : ∀ k1_t1 : Fin k1_t1_loop.trips, ∀ (r : Fin 4), ∀ a, (k1_off10 k1_t1 (BitVec.ofNat 32 r.val)) a + S1x16.size a ≤ S200x128.size a
  k1_off11_inb : ∀ k1_t1 : Fin k1_t1_loop.trips, ∀ (r : Fin 4), ∀ a, (k1_off11 k1_t1 (BitVec.ofNat 32 r.val)) a + S1x16.size a ≤ S200x128.size a
  k1_off12_inb : ∀ k1_t1 : Fin k1_t1_loop.trips, ∀ (r : Fin 4), ∀ a, (k1_off12 k1_t1 (BitVec.ofNat 32 r.val)) a + S1x128.size a ≤ S200x128.size a
  k1_off13_inb : ∀ (i : grid1.Coords) (k1_t1 : Fin k1_t1_loop.trips), ∀ (r : Fin 4), ∀ a, (k1_off13 i k1_t1 (BitVec.ofNat 32 r.val)) a + S128x128.size a ≤ S819200x128.size a
  k1_off14_inb : ∀ k1_t1 : Fin k1_t1_loop.trips, ∀ (r : Fin 4), ∀ a, (k1_off14 k1_t1 (BitVec.ofNat 32 r.val)) a + S1x128.size a ≤ S200x128.size a
  k1_off15_inb : ∀ i : grid1.Coords, ∀ (r : Fin 4), ∀ a, (k1_off15 i (BitVec.ofNat 32 (25088 + 128 * r.val))) a + S128x128.size a ≤ S819200x128.size a

variable [Facts₀]

abbrev cc1_scratch3 : DmaSems sig S4 := SemArray.consecutive 4 S4 hcc1_scratch3
abbrev cc1_scratch4 : DmaSems sig S4 := SemArray.consecutive 8 S4 hcc1_scratch4
abbrev cc1_scratch5 : DmaSems sig S_ := SemArray.consecutive 12 S_ hcc1_scratch5
abbrev cc1_scoped0 : DmaSems sig S_ := SemArray.consecutive 13 S_ hcc1_scoped0
abbrev cc1_scoped1 : DmaSems sig S_ := SemArray.consecutive 14 S_ hcc1_scoped1

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v2) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x200 : Shape := ⟨2, ![4096, 200]⟩
abbrev S4x128 : Shape := ⟨2, ![4, 128]⟩
abbrev S128 : Shape := ⟨1, ![128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩
abbrev S1x1x128 : Shape := ⟨3, ![1, 1, 128]⟩

abbrev nBuf : Space → Nat
  | .hbm => 56
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4x128, .f32⟩
  | .hbm, ⟨2, _⟩ => ⟨S128, .f32⟩
  | .hbm, ⟨3, _⟩ => ⟨S128, .f32⟩
  | .hbm, ⟨4, _⟩ => ⟨S_, .i32⟩
  | .hbm, ⟨5, _⟩ => ⟨S4096x200, .i32⟩
  | .hbm, ⟨6, _⟩ => ⟨S4096x200, .i1⟩
  | .hbm, ⟨7, _⟩ => ⟨S_, .i32⟩
  | .hbm, ⟨8, _⟩ => ⟨S4096x200, .i32⟩
  | .hbm, ⟨9, _⟩ => ⟨S4096x200, .i32⟩
  | .hbm, ⟨10, _⟩ => ⟨S4096x200, .i32⟩
  | .hbm, ⟨11, _⟩ => ⟨S4096x200x1, .i32⟩
  | .hbm, ⟨12, _⟩ => ⟨S1, .i32⟩
  | .hbm, ⟨13, _⟩ => ⟨S_, .i32⟩
  | .hbm, ⟨14, _⟩ => ⟨S4096x200x1, .i32⟩
  | .hbm, ⟨15, _⟩ => ⟨S4096x200x1, .i1⟩
  | .hbm, ⟨16, _⟩ => ⟨S1x1x1, .i32⟩
  | .hbm, ⟨17, _⟩ => ⟨S4096x200x1, .i32⟩
  | .hbm, ⟨18, _⟩ => ⟨S4096x200x1, .i1⟩
  | .hbm, ⟨19, _⟩ => ⟨S4096x200x1, .i1⟩
  | .hbm, ⟨20, _⟩ => ⟨S_, .i1⟩
  | .hbm, ⟨21, _⟩ => ⟨S4096x200, .i1⟩
  | .hbm, ⟨22, _⟩ => ⟨S4096x200x128, .f32⟩
  | .hbm, ⟨23, _⟩ => ⟨S4096x200x128, .i1⟩
  | .hbm, ⟨24, _⟩ => ⟨S_, .f32⟩
  | .hbm, ⟨25, _⟩ => ⟨S4096x200x128, .f32⟩
  | .hbm, ⟨26, _⟩ => ⟨S4096x200x128, .f32⟩
  | .hbm, ⟨27, _⟩ => ⟨S_, .f32⟩
  | .hbm, ⟨28, _⟩ => ⟨S4096x200, .f32⟩
  | .hbm, ⟨29, _⟩ => ⟨S4096x200x1, .f32⟩
  | .hbm, ⟨30, _⟩ => ⟨S_, .f32⟩
  | .hbm, ⟨31, _⟩ => ⟨S4096x200x1, .f32⟩
  | .hbm, ⟨32, _⟩ => ⟨S4096x200x1, .f32⟩
  | .hbm, ⟨33, _⟩ => ⟨S4096x200x128, .f32⟩
  | .hbm, ⟨34, _⟩ => ⟨S4096x200x128, .f32⟩
  | .hbm, ⟨35, _⟩ => ⟨S4096x200x128, .f32⟩
  | .hbm, ⟨36, _⟩ => ⟨S_, .f32⟩
  | .hbm, ⟨37, _⟩ => ⟨S4096x200, .f32⟩
  | .hbm, ⟨38, _⟩ => ⟨S4096x200x1, .f32⟩
  | .hbm, ⟨39, _⟩ => ⟨S_, .f32⟩
  | .hbm, ⟨40, _⟩ => ⟨S4096x200x1, .f32⟩
  | .hbm, ⟨41, _⟩ => ⟨S4096x200x1, .f32⟩
  | .hbm, ⟨42, _⟩ => ⟨S4096x200x128, .f32⟩
  | .hbm, ⟨43, _⟩ => ⟨S4096x200x128, .f32⟩
  | .hbm, ⟨44, _⟩ => ⟨S_, .f32⟩
  | .hbm, ⟨45, _⟩ => ⟨S4096x200x1, .f32⟩
  | .hbm, ⟨46, _⟩ => ⟨S4096x200x1, .f32⟩
  | .hbm, ⟨47, _⟩ => ⟨S4096x200x1, .f32⟩
  | .hbm, ⟨48, _⟩ => ⟨S4096x200x128, .f32⟩
  | .hbm, ⟨49, _⟩ => ⟨S4096x200x128, .f32⟩
  | .hbm, ⟨50, _⟩ => ⟨S1x1x128, .f32⟩
  | .hbm, ⟨51, _⟩ => ⟨S4096x200x128, .f32⟩
  | .hbm, ⟨52, _⟩ => ⟨S4096x200x128, .f32⟩
  | .hbm, ⟨53, _⟩ => ⟨S1x1x128, .f32⟩
  | .hbm, ⟨54, _⟩ => ⟨S4096x200x128, .f32⟩
  | .hbm, ⟨55, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_cst_0 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_3 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  reducesTo_S4096x200x128_S4096x200_d2 : S4096x200x128.ReducesTo [2] S4096x200
  bcast_S4096x200x1_S4096x200x128_0_1_2 : S4096x200x1.BroadcastsInDim S4096x200x128 (![0, 1, 2] : Fin 3 → Fin S4096x200x128.rank)
  bcast_S128_S1x1x128_2 : S128.BroadcastsInDim S1x1x128 (![2] : Fin 1 → Fin S1x1x128.rank)
  bcast_S1x1x128_S4096x200x128_0_1_2 : S1x1x128.BroadcastsInDim S4096x200x128 (![0, 1, 2] : Fin 3 → Fin S4096x200x128.rank)
  gather_S4x128_S4096x200x1_S4096x200x128_2_0_n_n_0_2_1128_wf : GatherDims.WF S4x128 S4096x200x1 S4096x200x128 [2] [0] [] [0] [] 2 ![1, 128]

variable [Facts₀]

def gather_S4x128_S4096x200x1_S4096x200x128_2_0_n_n_0_2_1128 : GatherDims S4x128 S4096x200x1 S4096x200x128 where
  offsetDims := [2]
  collapsedSliceDims := [0]
  operandBatchingDims := []
  startIndicesBatchingDims := []
  startIndexMap := [0]
  indexVectorDim := 2
  sliceSizes := ![1, 128]
  wf := gather_S4x128_S4096x200x1_S4096x200x128_2_0_n_n_0_2_1128_wf

class Facts : Prop extends Facts₀ where

variable [Facts]
-- ==== Proof.Common.lean ====
/-
  What the launch of the program carries, stated once for both readings of its floats.

  The program: on the TensorCore, the four rows of the table are normalised (mean removed, scaled by the reciprocal root
  of the variance plus ε, then by gamma, shifted by beta) and written 64 times over, giving a 256-row table whose row
  `4ρ + x` is normalised row `x`; the 819200 index words are re-laid as 32 slabs of 200 × 128. Then the 32 vector
  subcores (2 SparseCores × 16) each take slab `2s + c`: subcore `s` copies rows `16s … 16s+15` of the 256-row table
  into its SparseCore's shared memory, all sixteen meet at the subcore barrier, and each then, 128 indices at a time,
  adds `4ρ(r)` to the index in lane `r` (ρ(r) = r mod 16 + 16·((r div 16) mod 4) < 64, so the sum still names a copy of
  the same normalised row), gathers those rows of the shared table into one of four row buffers and copies the buffer
  out to its 128 rows of the result.

  Resources: the 256-row table in HBM is read by both SparseCores (a half share each, then block `s` of it to subcore
  `s`); each subcore's slab of indices and its 25600 result rows are its own; the shared memory of a SparseCore starts
  as sixteen blocks, one per subcore, and after the barrier is held by every subcore at a sixteenth share — the barrier's
  units carry the blocks: subcore `i`'s unit in subcore `j`'s round hands over a sixteenth share of block `i`.
-/
import proofs.«214982_g87402584473731_cont_9to1c4b_667_31_alg».proof.KernelIdeal
import proofs.«214982_g87402584473731_cont_9to1c4b_667_31_alg».proof.Proof.Gen.KernelIdeal
import proofs.«214982_g87402584473731_cont_9to1c4b_667_31_alg».proof.Proof.Gen.KernelIdeal.Skeleton
import proofs.«214982_g87402584473731_cont_9to1c4b_667_31_alg».proof.Proof.Gen.KernelIdeal.Launch
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.ValueIdx
import Idealize.ShloMosaic.Lib.Tactic

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the TensorCore pipeline's staging cells', the transfers' counters -/

abbrev UH : Type := URounds (GSem nD τ sig) ℕ
abbrev UB : Type := URounds (GSem nD τ sig) ℕ
abbrev UR : Type := URounds (GSem nD τ sig) Unit
abbrev UU : Type := UH × (UB × (UR × Counters))

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × (UR × Counters))).trans (Emb.inr : Emb (UB × (UR × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore pipeline's staging cells' rounds library: the left half of the right factor of the right factor. -/
def ER : Emb UR (MT nD τ sig (HIx 1) (Elt F) ℕ UU ℕ) :=
  (((Emb.inl : Emb UR (UR × Counters)).trans (Emb.inr : Emb (UR × Counters) (UB × (UR × Counters)))).trans (Emb.inr : Emb (UB × (UR × Counters)) UU)).trans
    (uEmb (nD := nD) (sig := sig) (Ix := HIx 1) (Val := Elt F) (Name := ℕ) (U := UU) (Lvl := ℕ)).toEmb
instance ER_landsIn : (ER : Emb UR 𝕄).LandsIn (upEmb : UEmb _ 𝕄) := by unfold ER; infer_instance
/-- The transfers' counters are found in the last factor. -/
example : CountersIn UU := inferInstance

/-! ## Shares: a share halved `n` times, leaf by leaf -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- SparseCore `c`'s half of the full share. -/
abbrev halfS (c : Fin 2) : PosShare TreeShare := leaf 1 fullShare c
/-- Subcore `i`'s sixteenth of the full share. -/
abbrev sixS (i : Fin 16) : PosShare TreeShare := leaf 4 fullShare i

/-! ## The launch memory, the arrays and what they hold -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5
abbrev v6Loc (d : Dev nD) : Loc nD τ sig := (SparseCore.T d).loc main_v6

/-- SparseCore `c`'s shared memory, as every subcore of it addresses it. -/
abbrev shRef (c : Fin τ.nSC) : DevRef τ sig := ⟨.shared, ⟨0, by decide⟩, c⟩
abbrev shLoc (d : Dev nD) (c : Fin τ.nSC) : Loc nD τ sig := (d, shRef c)

abbrev tV : Memref sig .scVector .hbm S256x128 .f32 := Memref.whole main_v3_scv
abbrev iV : Memref sig .scVector .hbm S32x200x128 .i32 := Memref.whole main_v4_scv
abbrev oV : Memref sig .scVector .hbm S819200x128 .f32 := Memref.whole main_v5_scv
abbrev shV : Memref sig .scVector .shared S256x128 .f32 := Memref.whole cc1_scratch2
abbrev ixV : Memref sig .scVector .vmem S200x128 .i32 := Memref.whole cc1_scratch0
abbrev rwV : Memref sig .scVector .vmem S4x128x128 .f32 := Memref.whole cc1_scratch1

/-- The 16 blocks of 16 rows of the 256-row table, the 32 slabs of the indices, the 32 slabs of 25600 result rows. -/
theorem tdiv : 16 ∣ S256x128.size 0 := ⟨16, rfl⟩
theorem idiv : 32 ∣ S32x200x128.size 0 := ⟨1, rfl⟩
theorem odiv : 32 ∣ S819200x128.size 0 := ⟨25600, rfl⟩
abbrev tblk (i : Fin 16) : Rect S256x128 := Rect.part (s := S256x128) (a₀ := 0) tdiv i
abbrev islab (w : Fin 32) : Rect S32x200x128 := Rect.part (s := S32x200x128) (a₀ := 0) idiv w
abbrev oslab (w : Fin 32) : Rect S819200x128 := Rect.part (s := S819200x128) (a₀ := 0) odiv w
abbrev tblkSet (i : Fin 16) : Finset S256x128.Idx := ((tV).view.slice (tblk i)).set
abbrev islabSet (w : Fin 32) : Finset S32x200x128.Idx := ((iV).view.slice (islab w)).set
abbrev oslabSet (w : Fin 32) : Finset S819200x128.Idx := ((oV).view.slice (oslab w)).set

/-- The slab subcore `i` of SparseCore `c` works on: `2 i + c`. -/
def wid (c : Fin 2) (i : Fin 16) : Fin 32 := ⟨2 * i.val + c.val, by omega⟩
/-- A SparseCore's slabs together. -/
def coreISet (c : Fin 2) : Finset S32x200x128.Idx := Finset.univ.biUnion fun i : Fin 16 => islabSet (wid c i)
def coreOSet (c : Fin 2) : Finset S819200x128.Idx := Finset.univ.biUnion fun i : Fin 16 => oslabSet (wid c i)

/-- The lane offset: lane `r` of a 128-index row adds `4 ρ(r)`, ρ(r) < 64. -/
def rho (r : Fin 128) : ℕ := r.val % 16 + 16 * ((r.val / 16) % 4)
/-- The row of the 256-row table that index word `x` in lane `r` names after the offset. -/
def gRow (x : BitVec 32) (r : Fin 128) : Fin 256 := ⟨(x.toNat + 4 * rho r) % 256, Nat.mod_lt _ (by decide)⟩

variable [FloatOps F]

/-- gamma and beta as rows, the normalised table written 64 times, the 256-row table, the indices in slabs. -/
def gRowV (d : Dev nD) : Vec F S1x128 .f32 := shapeCast S1x128 (m (a2Loc d) : Vec F S128 .f32) shapeCasts_S128_S1x128
def bRowV (d : Dev nD) : Vec F S1x128 .f32 := shapeCast S1x128 (m (a3Loc d) : Vec F S128 .f32) shapeCasts_S128_S1x128
def T2 (d : Dev nD) : Vec F S64x4x128 .f32 := k0_pay1 (m (a1Loc d) : Vec F S4x128 .f32) (gRowV m d) (bRowV m d)
def T3 (d : Dev nD) : Vec F S256x128 .f32 := shapeCast S256x128 (T2 m d) shapeCasts_S64x4x128_S256x128
def I4 (d : Dev nD) : Vec F S32x200x128 .i32 := shapeCast S32x200x128 (m (a0Loc d) : Vec F S4096x200 .i32) shapeCasts_S4096x200_S32x200x128

theorem o_w (j : S819200x128.Idx) : (j 0).val / 25600 < 32 := by
  have h : (j 0).val < 819200 := (j 0).isLt
  omega
theorem o_j (j : S819200x128.Idx) : (j 0).val % 25600 / 128 < 200 := by omega
theorem o_r (j : S819200x128.Idx) : (j 0).val % 128 < 128 := by omega
theorem o_l (j : S819200x128.Idx) : (j 1).val < 128 := (j 1).isLt

/-- The result: row `n = 25600 w + 128 t + r` is the row of the 256-row table that index `(w, t, r)` names in lane `r`. -/
def O5 (d : Dev nD) : Vec F S819200x128 .f32 := fun j =>
  T3 m d (ix2 (n0 := 256) (n1 := 128)
    (gRow ((I4 m d (ix3 (n0 := 32) (n1 := 200) (n2 := 128) ⟨_, o_w j⟩ ⟨_, o_j j⟩ ⟨_, o_r j⟩) : BitVec 32)) ⟨_, o_r j⟩) ⟨_, o_l j⟩)
/-- and re-laid as 4096 × 200 rows. -/
def O6 (d : Dev nD) : Vec F S4096x200x128 .f32 := shapeCast S4096x200x128 (O5 m d) shapeCasts_S819200x128_S4096x200x128

/-! ## The barrier cells -/

/-- Subcore `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Block `n` of SparseCore `c`'s shared memory at the 256-row table, at share `q`. -/
abbrev shBlkPts (d : Dev nD) (c : Fin τ.nSC) (n : Fin 16) (q : PosShare TreeShare) : sProp 𝕄 := shLoc d c ↦[tblkSet n]{q} T3 m d

/-- What subcore `n`'s unit in subcore `j`'s round hands over: subcore `j`'s sixteenth of block `n`, holding the table's rows. -/
def bPay (g : GSem nD τ sig) (n : ℕ) : sProp 𝕄 :=
  match g with
  | ((d, .scVector c j), _) => if h : n < 16 then shBlkPts m d c ⟨n, h⟩ (sixS (Fin.cast nSub_eq j)) else iprop(emp)
  | _ => iprop(emp)

/-- The barrier cells' schedule: one round on each, of one unit duty per subcore of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has subcore `(c, i)` owe for the barrier: a unit on every subcore's cell of its SparseCore, at the call's index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Subcore `(c, i)`'s barrier kit: every subcore's cell invariant of its SparseCore and that each has reached round 0,
    its own position at the origin of round 0, its duty token in every subcore's round 0, and the credit for the sixteen
    units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

/-- The call's core number and subcore number as plain numbers below 2 and 16. -/
abbrev c2 (c : Fin ((K (F := F)).nCore 0)) : Fin 2 := Fin.cast nCore_zero c
abbrev i16 (i : Fin ((K (F := F)).nSub 0)) : Fin 16 := Fin.cast nSub_zero i

/-- What the TensorCore hands SparseCore `c` at the start: its half of the 256-row table, its slabs of the indices, its
    slabs of the result at whatever they hold; and what comes back: the same, the result slabs at the gathered rows. -/
def stC (d : Dev nD) (c : Fin 2) : sProp 𝕄 :=
  iprop((v3Loc d ↦{halfS c} T3 m d) ∗ (v4Loc d ↦[coreISet c]{fullShare} I4 m d) ∗ (v5Loc d ↦[coreOSet c]{fullShare} m (v5Loc d)))
def dnC (d : Dev nD) (c : Fin 2) : sProp 𝕄 :=
  iprop((v3Loc d ↦{halfS c} T3 m d) ∗ (v4Loc d ↦[coreISet c]{fullShare} I4 m d) ∗ (v5Loc d ↦[coreOSet c]{fullShare} O5 m d))
/-- What the sequencer hands subcore `i` at go: block `i` of the table (at the SparseCore's half), slab `2i + c` of the
    indices and of the result, and block `i` of the shared memory at whatever it holds; and what comes back at taskDone:
    the same, the result slab at the gathered rows, and a sixteenth of the whole shared memory, holding the table. -/
def goC (d : Dev nD) (c : Fin 2) (cc : Fin τ.nSC) (i : Fin 16) : sProp 𝕄 :=
  iprop((v3Loc d ↦[tblkSet i]{halfS c} T3 m d) ∗ (v4Loc d ↦[islabSet (wid c i)]{fullShare} I4 m d)
    ∗ (v5Loc d ↦[oslabSet (wid c i)]{fullShare} m (v5Loc d)) ∗ ∃ f, shLoc d cc ↦[tblkSet i]{fullShare} f)
def tdC (d : Dev nD) (c : Fin 2) (cc : Fin τ.nSC) (i : Fin 16) : sProp 𝕄 :=
  iprop((v3Loc d ↦[tblkSet i]{halfS c} T3 m d) ∗ (v4Loc d ↦[islabSet (wid c i)]{fullShare} I4 m d)
    ∗ (v5Loc d ↦[oslabSet (wid c i)]{fullShare} O5 m d) ∗ (shLoc d cc ↦{sixS i} T3 m d))

def P : (K (F := F)).Pay (nD := nD) (Val := Elt F) (Name := ℕ) (U := UU) where
  st := fun q d c => match q with | 0 => stC m d (c2 c)
  dn := fun q d c => match q with | 0 => dnC m d (c2 c)
  go := fun q d c i => match q with | 0 => goC m d (c2 c) (coreOf c) (i16 i)
  td := fun q d c i => match q with | 0 => tdC m d (c2 c) (coreOf c) (i16 i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => (by unfold P stC; infer_instance)
  dn q d c := match q with
    | 0 => (by unfold P dnC; infer_instance)
  go q d c i := match q with
    | 0 => (by unfold P goC; infer_instance)
  td q d c i := match q with
    | 0 => (by unfold P tdC; infer_instance)

/-! ## What @main starts from, and what it leaves the claim -/

/-- What @main's proof starts from beyond what the launch deals every TensorCore: the pipeline's staging cells' ghost
    state and its duty tokens. -/
def G (d : Dev nD) : sProp 𝕄 :=
  iprop((bigSep Finset.univ fun p : Fin 1 => Pipeline.cellsGhost cfgs (ER (F := F)) p d)
    ∗ bigSep Finset.univ fun p : Fin 1 => Pipeline.toksInit cfgs (ER (F := F)) p d)

/-- What @main leaves: the four arguments as they were, the result at the gathered rows re-laid. -/
def FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ (v6Loc d ↦{fullShare} O6 m d))

def fq (d : Dev nD) (s' : Phys nD τ sig (Elt F)) : Prop :=
  s'.mem.mem (v6Loc d) = O6 m d ∧ s'.mem.mem (a0Loc d) = m (a0Loc d) ∧ s'.mem.mem (a1Loc d) = m (a1Loc d)
    ∧ s'.mem.mem (a2Loc d) = m (a2Loc d) ∧ s'.mem.mem (a3Loc d) = m (a3Loc d)

def QC : PUnit × MemSt nD τ sig (Elt F) → Prop := fun r => ∀ c : Dev nD,
  r.2.mem (v6Loc c) = O6 m c ∧ r.2.mem (a0Loc c) = m (a0Loc c) ∧ r.2.mem (a1Loc c) = m (a1Loc c)
    ∧ r.2.mem (a2Loc c) = m (a2Loc c) ∧ r.2.mem (a3Loc c) = m (a3Loc c)

end Cert.KernelIdeal.Hand

end
-- ==== Proof.TileSpec.lean ====
/-
  The statement of one vector subcore's task, fixed apart from its proof so that the launch can be assembled against it:
  from what the sequencer hands subcore `(c, s)` at go (block `s` of the 256-row table, slab `2s + c` of the indices and
  of the result, block `s` of the shared memory), its barrier kit and its own scoped storage, the task runs to what it
  hands back at taskDone (the result slab at the gathered rows, a sixteenth of the whole shared table).
-/
import proofs.«214982_g87402584473731_cont_9to1c4b_667_31_alg».proof.Proof.Common

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- Every index word of the launch memory is one of 0, 1, 2, 3. -/
def PreOK : Prop := ∀ (d : Dev nD) (j : S4096x200.Idx), ((m (a0Loc d) : Vec F S4096x200 .i32) j : BitVec 32).toNat < 4

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev cL (L : grid1.Coords) : Fin 2 := Fin.cast bound_zero (L 0)
abbrev jL (L : grid1.Coords) : Fin 16 := Fin.cast bound_one (L 1)

/-- The task's run, as a proposition. -/
def TileBodySpec : Prop :=
  ∀ (d : Dev nD) (L : grid1.Coords) (_ : (K (F := F)).Facts) (O : CellTallies nD τ sig (HIx 1)) (W : Waits sig (HIx 1)) (_ : ∀ g, O g none = 0)
    (_ : ∀ g ι, 0 < O g ι → 8 * (0 : Fin 1).val + 6 ≤ (K (F := F)).lev g ι),
    iprop(levAts (K (F := F)).L (K (F := F)).lev ∗ bkit m d (cV L) (jV L)
        ∗ goC m d (cL L) (cV L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__gather_body L iV (Memref.isWhole_whole _) tV (Memref.isWhole_whole _) oV (Memref.isWhole_whole _)
            ixV (Memref.isWhole_whole _) rwV (Memref.isWhole_whole _) shV (Memref.isWhole_whole _)
            cc1_scratch3 cc1_scratch4 cc1_scratch5 cc1_scoped0 cc1_scoped1)
          fun _ => iprop(tdC m d (cL L) (cV L) (jL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

end Cert.KernelIdeal.Hand

end
-- ==== Proof.Sets.lean ====
/-
  How the arrays split among the subcores.

  The 256-row table falls into 16 blocks of 16 rows; the index array into 32 slabs (one per subcore of the two
  SparseCores) and the result into 32 slabs of 25600 rows. Each family is pairwise disjoint and covers its array.
  Subcore `i` of SparseCore `c` takes slab `2 i + c`: the pairs `(c, i)` and the slab numbers correspond one to one,
  so the slabs of SparseCore 0 and those of SparseCore 1 are disjoint and together are everything. A points-to
  assertion over an array therefore splits into the two SparseCores' parts, each of those into its sixteen subcores'
  slabs; one over a 256-row table into its sixteen blocks; and a share halved `n` times into its `2 ^ n` leaves.
-/
import proofs.«214982_g87402584473731_cont_9to1c4b_667_31_alg».proof.Proof.Common

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The three families of parts -/

theorem tblkSet_eq (i : Fin 16) : tblkSet i = (tblk i).set := by
  show ((View.whole (main_v3_scv : Ref sig .scVector)).slice (tblk i)).set = _
  rw [View.set_slice]; exact Finset.map_refl
theorem islabSet_eq (w : Fin 32) : islabSet w = (islab w).set := by
  show ((View.whole (main_v4_scv : Ref sig .scVector)).slice (islab w)).set = _
  rw [View.set_slice]; exact Finset.map_refl
theorem oslabSet_eq (w : Fin 32) : oslabSet w = (oslab w).set := by
  show ((View.whole (main_v5_scv : Ref sig .scVector)).slice (oslab w)).set = _
  rw [View.set_slice]; exact Finset.map_refl

theorem c_tblk_disjoint : ∀ i ∈ (Finset.univ : Finset (Fin 16)), ∀ j ∈ (Finset.univ : Finset (Fin 16)), i ≠ j → Disjoint (tblkSet i) (tblkSet j) :=
  fun i _ j _ h => by rw [tblkSet_eq, tblkSet_eq]; exact Rect.part_disjoint tdiv h
theorem c_islab_disjoint : ∀ i ∈ (Finset.univ : Finset (Fin 32)), ∀ j ∈ (Finset.univ : Finset (Fin 32)), i ≠ j → Disjoint (islabSet i) (islabSet j) :=
  fun i _ j _ h => by rw [islabSet_eq, islabSet_eq]; exact Rect.part_disjoint idiv h
theorem c_oslab_disjoint : ∀ i ∈ (Finset.univ : Finset (Fin 32)), ∀ j ∈ (Finset.univ : Finset (Fin 32)), i ≠ j → Disjoint (oslabSet i) (oslabSet j) :=
  fun i _ j _ h => by rw [oslabSet_eq, oslabSet_eq]; exact Rect.part_disjoint odiv h

theorem c_tblk_cover : (Finset.univ : Finset (Fin 16)).biUnion tblkSet = Finset.univ :=
  (Finset.biUnion_congr rfl fun i _ => tblkSet_eq i).trans (Rect.biUnion_part tdiv)
theorem c_islab_cover : (Finset.univ : Finset (Fin 32)).biUnion islabSet = Finset.univ :=
  (Finset.biUnion_congr rfl fun i _ => islabSet_eq i).trans (Rect.biUnion_part idiv)
theorem c_oslab_cover : (Finset.univ : Finset (Fin 32)).biUnion oslabSet = Finset.univ :=
  (Finset.biUnion_congr rfl fun i _ => oslabSet_eq i).trans (Rect.biUnion_part odiv)

/-! ## Which slab a subcore takes -/

theorem c_wid_val (c : Fin 2) (i : Fin 16) : (wid c i).val = 2 * i.val + c.val := rfl

theorem c_wid_inj : Function.Injective (fun p : Fin 2 × Fin 16 => wid p.1 p.2) := by
  rintro ⟨c, i⟩ ⟨c', i'⟩ h
  have h' : 2 * i.val + c.val = 2 * i'.val + c'.val := congrArg Fin.val h
  have hc : c.val = c'.val := by omega
  have hi : i.val = i'.val := by omega
  exact Prod.ext (Fin.ext hc) (Fin.ext hi)

theorem c_wid_ne {c c' : Fin 2} {i i' : Fin 16} (h : c ≠ c' ∨ i ≠ i') : wid c i ≠ wid c' i' := by
  intro e
  have := c_wid_inj (a₁ := (c, i)) (a₂ := (c', i')) e
  rcases h with h | h
  · exact h (congrArg Prod.fst this)
  · exact h (congrArg Prod.snd this)

/-- Slab `w` is subcore `w / 2`'s of SparseCore `w % 2`. -/
theorem c_wid_surj (w : Fin 32) : wid ⟨w.val % 2, Nat.mod_lt _ (by decide)⟩ ⟨w.val / 2, by omega⟩ = w :=
  Fin.ext (by show 2 * (w.val / 2) + w.val % 2 = w.val; omega)

/-- One SparseCore's slabs are pairwise disjoint. -/
theorem c_coreI_slabs_disjoint (c : Fin 2) :
    ∀ i ∈ (Finset.univ : Finset (Fin 16)), ∀ j ∈ (Finset.univ : Finset (Fin 16)), i ≠ j → Disjoint (islabSet (wid c i)) (islabSet (wid c j)) :=
  fun i _ j _ h => c_islab_disjoint _ (Finset.mem_univ _) _ (Finset.mem_univ _) (c_wid_ne (Or.inr h))
theorem c_coreO_slabs_disjoint (c : Fin 2) :
    ∀ i ∈ (Finset.univ : Finset (Fin 16)), ∀ j ∈ (Finset.univ : Finset (Fin 16)), i ≠ j → Disjoint (oslabSet (wid c i)) (oslabSet (wid c j)) :=
  fun i _ j _ h => c_oslab_disjoint _ (Finset.mem_univ _) _ (Finset.mem_univ _) (c_wid_ne (Or.inr h))

/-- The two SparseCores' slabs are disjoint and together are the whole array. -/
theorem c_coreI_disjoint : Disjoint (coreISet 0) (coreISet 1) := by
  unfold coreISet
  rw [Finset.disjoint_biUnion_left]; intro i _
  rw [Finset.disjoint_biUnion_right]; intro j _
  exact c_islab_disjoint _ (Finset.mem_univ _) _ (Finset.mem_univ _) (c_wid_ne (Or.inl (by decide)))
theorem c_coreO_disjoint : Disjoint (coreOSet 0) (coreOSet 1) := by
  unfold coreOSet
  rw [Finset.disjoint_biUnion_left]; intro i _
  rw [Finset.disjoint_biUnion_right]; intro j _
  exact c_oslab_disjoint _ (Finset.mem_univ _) _ (Finset.mem_univ _) (c_wid_ne (Or.inl (by decide)))

theorem c_coreI_union : coreISet 0 ∪ coreISet 1 = Finset.univ := by
  refine Finset.eq_univ_of_forall fun x => ?_
  have hx : x ∈ (Finset.univ : Finset (Fin 32)).biUnion islabSet := by rw [c_islab_cover]; exact Finset.mem_univ x
  obtain ⟨w, -, hw⟩ := Finset.mem_biUnion.mp hx
  rw [← c_wid_surj w] at hw
  have hc : ∀ c : Fin 2, x ∈ islabSet (wid c ⟨w.val / 2, by omega⟩) → x ∈ coreISet c := fun c h =>
    Finset.mem_biUnion.mpr ⟨_, Finset.mem_univ _, h⟩
  rcases Nat.mod_two_eq_zero_or_one w.val with e | e
  · exact Finset.mem_union_left _ (hc 0 (by convert hw using 3; exact Fin.ext e.symm))
  · exact Finset.mem_union_right _ (hc 1 (by convert hw using 3; exact Fin.ext e.symm))
theorem c_coreO_union : coreOSet 0 ∪ coreOSet 1 = Finset.univ := by
  refine Finset.eq_univ_of_forall fun x => ?_
  have hx : x ∈ (Finset.univ : Finset (Fin 32)).biUnion oslabSet := by rw [c_oslab_cover]; exact Finset.mem_univ x
  obtain ⟨w, -, hw⟩ := Finset.mem_biUnion.mp hx
  rw [← c_wid_surj w] at hw
  have hc : ∀ c : Fin 2, x ∈ oslabSet (wid c ⟨w.val / 2, by omega⟩) → x ∈ coreOSet c := fun c h =>
    Finset.mem_biUnion.mpr ⟨_, Finset.mem_univ _, h⟩
  rcases Nat.mod_two_eq_zero_or_one w.val with e | e
  · exact Finset.mem_union_left _ (hc 0 (by convert hw using 3; exact Fin.ext e.symm))
  · exact Finset.mem_union_right _ (hc 1 (by convert hw using 3; exact Fin.ext e.symm))

/-! ## The points-to forms -/

variable (m : (ℓ : Loc nD τ sig) → Buf (Elt F) ℓ) (ρ : Dev nD → PrngReg)

/-- The index array: the two SparseCores' parts. -/
theorem iCore_split (d : Dev nD) (f : Buf (Elt F) (v4Loc d)) :
    (v4Loc d ↦{fullShare} f : sProp 𝕄) = iprop((v4Loc d ↦[coreISet 0]{fullShare} f) ∗ (v4Loc d ↦[coreISet 1]{fullShare} f)) := by
  have h : (v4Loc d ↦[coreISet 0 ∪ coreISet 1]{fullShare} f : sProp 𝕄)
      ⊣⊢ iprop((v4Loc d ↦[coreISet 0]{fullShare} f) ∗ (v4Loc d ↦[coreISet 1]{fullShare} f)) := pointsTo_union c_coreI_disjoint
  rw [c_coreI_union] at h
  exact BI.Entails.antisymm h.1 h.2
/-- The result array: the two SparseCores' parts. -/
theorem oCore_split (d : Dev nD) (f : Buf (Elt F) (v5Loc d)) :
    (v5Loc d ↦{fullShare} f : sProp 𝕄) = iprop((v5Loc d ↦[coreOSet 0]{fullShare} f) ∗ (v5Loc d ↦[coreOSet 1]{fullShare} f)) := by
  have h : (v5Loc d ↦[coreOSet 0 ∪ coreOSet 1]{fullShare} f : sProp 𝕄)
      ⊣⊢ iprop((v5Loc d ↦[coreOSet 0]{fullShare} f) ∗ (v5Loc d ↦[coreOSet 1]{fullShare} f)) := pointsTo_union c_coreO_disjoint
  rw [c_coreO_union] at h
  exact BI.Entails.antisymm h.1 h.2

/-- A SparseCore's part of the index array: its sixteen subcores' slabs. -/
theorem iSlabs_split (d : Dev nD) (c : Fin 2) (f : Buf (Elt F) (v4Loc d)) :
    (v4Loc d ↦[coreISet c]{fullShare} f : sProp 𝕄) = bigSep Finset.univ fun i : Fin 16 => v4Loc d ↦[islabSet (wid c i)]{fullShare} f := by
  unfold coreISet
  exact pointsTo_biUnion Finset.univ (ℓ := v4Loc d) (fun i : Fin 16 => islabSet (wid c i)) (c_coreI_slabs_disjoint c)
/-- A SparseCore's part of the result array: its sixteen subcores' slabs. -/
theorem oSlabs_split (d : Dev nD) (c : Fin 2) (f : Buf (Elt F) (v5Loc d)) :
    (v5Loc d ↦[coreOSet c]{fullShare} f : sProp 𝕄) = bigSep Finset.univ fun i : Fin 16 => v5Loc d ↦[oslabSet (wid c i)]{fullShare} f := by
  unfold coreOSet
  exact pointsTo_biUnion Finset.univ (ℓ := v5Loc d) (fun i : Fin 16 => oslabSet (wid c i)) (c_coreO_slabs_disjoint c)

/-- The 256-row table in HBM, at any share: its sixteen blocks. -/
theorem tBlks_split (d : Dev nD) (q : PosShare TreeShare) (f : Buf (Elt F) (v3Loc d)) :
    (v3Loc d ↦{q} f : sProp 𝕄) = bigSep Finset.univ fun i : Fin 16 => v3Loc d ↦[tblkSet i]{q} f := by
  rw [← pointsTo_biUnion Finset.univ (ℓ := v3Loc d) tblkSet c_tblk_disjoint, c_tblk_cover]; try rfl
/-- A SparseCore's shared memory, at any share: its sixteen blocks. -/
theorem shBlks_split (d : Dev nD) (c : Fin τ.nSC) (q : PosShare TreeShare) (f : Buf (Elt F) (shLoc d c)) :
    (shLoc d c ↦{q} f : sProp 𝕄) = bigSep Finset.univ fun i : Fin 16 => shLoc d c ↦[tblkSet i]{q} f := by
  rw [← pointsTo_biUnion Finset.univ (ℓ := shLoc d c) tblkSet c_tblk_disjoint, c_tblk_cover]; try rfl

/-! ## A share and its leaves -/

/-- The two halves of the leaves of depth `n + 1`. -/
def c_sumEquiv (n : ℕ) : Fin (2 ^ n) ⊕ Fin (2 ^ n) ≃ Fin (2 ^ (n + 1)) := finSumFinEquiv.trans (finCongr (by omega))

theorem c_sumEquiv_inl (n : ℕ) (i : Fin (2 ^ n)) : (c_sumEquiv n (Sum.inl i)).val = i.val := by simp [c_sumEquiv]
theorem c_sumEquiv_inr (n : ℕ) (i : Fin (2 ^ n)) : (c_sumEquiv n (Sum.inr i)).val = 2 ^ n + i.val := by simp [c_sumEquiv]; omega

theorem c_leaf_inl (n : ℕ) (q : PosShare TreeShare) (i : Fin (2 ^ n)) : leaf (n + 1) q (c_sumEquiv n (Sum.inl i)) = leaf n q.left i := by
  have h : (c_sumEquiv n (Sum.inl i)).val < 2 ^ n := by rw [c_sumEquiv_inl]; exact i.isLt
  have e : (⟨(c_sumEquiv n (Sum.inl i)).val, h⟩ : Fin (2 ^ n)) = i := Fin.ext (c_sumEquiv_inl n i)
  rw [leaf, dif_pos h, e]
theorem c_leaf_inr (n : ℕ) (q : PosShare TreeShare) (i : Fin (2 ^ n)) : leaf (n + 1) q (c_sumEquiv n (Sum.inr i)) = leaf n q.right i := by
  have h : ¬(c_sumEquiv n (Sum.inr i)).val < 2 ^ n := by rw [c_sumEquiv_inr]; omega
  have e : (⟨(c_sumEquiv n (Sum.inr i)).val - 2 ^ n, by have := (c_sumEquiv n (Sum.inr i)).isLt; omega⟩ : Fin (2 ^ n)) = i :=
    Fin.ext (by simp only [c_sumEquiv_inr]; omega)
  rw [leaf, dif_neg h, e]

/-- A points-to at a share is its leaves' at once. -/
theorem leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      leaves I f n q.left, leaves I f n q.right,
      bigSep_univ_equiv (c_sumEquiv n) (fun i : Fin (2 ^ (n + 1)) => (ℓ ↦[I]{leaf (n + 1) q i} f : sProp 𝕄)), bigSep_univ_sum]
    congr 1 <;> refine bigSep_congr fun i _ => ?_
    · rw [c_leaf_inl]
    · rw [c_leaf_inr]

end Cert.KernelIdeal.Hand

end
-- ==== Proof.Split.lean ====
/-
  How a SparseCore's operands split among its sixteen subcores, and how the results gather.

  Going in, the sequencer holds the SparseCore's half share of the 256-row table, its sixteen slabs of the indices and
  of the result, and, among its own buffers, the SparseCore's shared memory whole at some contents. The table's half
  share falls into its sixteen blocks, one per subcore; the slabs go to their subcores; the shared memory falls into
  sixteen blocks, block `i` for subcore `i` to fill. Coming back, each subcore returns its block of the table and its
  slabs, the result slab now at the gathered rows, and a sixteenth share of the whole shared memory at the table's
  rows: the blocks and slabs join again, and the sixteen sixteenths are the full share of the shared memory, which goes
  back among the sequencer's buffers.
-/
import proofs.«214982_g87402584473731_cont_9to1c4b_667_31_alg».proof.Proof.Common
import proofs.«214982_g87402584473731_cont_9to1c4b_667_31_alg».proof.Proof.Sets

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

omit [FloatOps F] in
/-- A family over the call's subcores is one over sixteen. -/
theorem c_bigSep_tasks (Φ : Fin 16 → sProp 𝕄) :
    (bigSep Finset.univ fun i : Fin ((K (F := F)).nSub 0) => Φ (i16 i)) = bigSep Finset.univ Φ :=
  bigSep_congr fun _ _ => congrArg Φ (Fin.ext rfl)

omit [FloatOps F] in
/-- The shared memory is among the sequencer's own buffers: it is it, at some contents, and the rest. -/
theorem c_ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
/-- The shared memory whole is its sixteen blocks, each at some contents. -/
theorem c_sh_blocks (d : Dev nD) (c : Fin τ.nSC) (f : Buf (Elt F) (shLoc d c)) :
    (shLoc d c ↦{fullShare} f : sProp 𝕄) ⊢ bigSep Finset.univ fun i : Fin 16 => iprop(∃ f, shLoc d c ↦[tblkSet i]{fullShare} f) := by
  rw [shBlks_split d c fullShare f]
  exact bigSep_mono fun i _ => BI.BIClass.exists_intro (Φ := fun g : Buf (Elt F) (shLoc d c) => (shLoc d c ↦[tblkSet i]{fullShare} g : sProp 𝕄)) f

/-- The sixteen sixteenths of the shared memory, at the table's rows, are it whole. -/
theorem c_sh_join (d : Dev nD) (c : Fin τ.nSC) :
    (bigSep Finset.univ fun i : Fin 16 => shLoc d c ↦{sixS i} T3 m d) ⊢ (shLoc d c ↦{fullShare} T3 m d : sProp 𝕄) :=
  Entails.of_eq (leaves (ℓ := shLoc d c) Finset.univ (T3 m d) 4 fullShare).symm

theorem vecSplit : (K (F := F)).VecSplit (P m) 0 := by
  intro d c
  show iprop(stC m d (c2 c) ∗ ownBufs (S d (coreOf c))) ⊢ |={Set.univ}=> iprop(
      (bigSep Finset.univ fun i : Fin ((K (F := F)).nSub 0) => goC m d (c2 c) (coreOf c) (i16 i))
      ∗ ((bigSep Finset.univ fun i : Fin ((K (F := F)).nSub 0) => tdC m d (c2 c) (coreOf c) (i16 i))
          -∗ iprop(dnC m d (c2 c) ∗ ownBufs (S d (coreOf c)))))
  rw [c_bigSep_tasks (F := F) (fun i => goC m d (c2 c) (coreOf c) i), c_bigSep_tasks (F := F) (fun i => tdC m d (c2 c) (coreOf c) i)]
  generalize c2 c = c'
  generalize coreOf c = cc
  unfold stC goC tdC dnC
  rw [bigSep_sep', bigSep_sep', bigSep_sep', bigSep_sep', bigSep_sep', bigSep_sep', c_ownBufs_S,
    tBlks_split d (halfS c') (T3 m d), iSlabs_split d c' (I4 m d), oSlabs_split d c' (m (v5Loc d)), oSlabs_split d c' (O5 m d)]
  iintro ⟨⟨Ht, Hi, Ho⟩, ⟨%fsh, Hsh⟩, Hrest⟩; imodintro
  isplitl [Ht Hi Ho Hsh]
  · isplitl [Ht]; · iexact Ht
    isplitl [Hi]; · iexact Hi
    isplitl [Ho]; · iexact Ho
    iapply (c_sh_blocks d cc fsh); iexact Hsh
  iintro ⟨Ht, Hi, Ho, Hsh⟩
  isplitl [Ht Hi Ho]
  · isplitl [Ht]; · iexact Ht
    isplitl [Hi]; · iexact Hi
    iexact Ho
  isplitl [Hsh]
  · iexists (T3 m d); iapply (c_sh_join m d cc); iexact Hsh
  iexact Hrest

end Cert.KernelIdeal.Hand

end
-- ==== Proof.LaunchElem.lean ====
/-
  The launch element of the ghost state.

  The ghost state is a product of three rounds libraries (the handshakes', the barrier cells', the TensorCore
  pipeline's staging cells') and the transfers' counters. At the launch its element is the three libraries' initial
  elements; it splits into the three. The barrier cells' library funds, for every subcore's barrier cell of every
  SparseCore, the round state at counter zero, that round 0 is reached, the owner's position at the origin and, for
  every pair of subcores of a SparseCore, the one's duty token in the other's round 0. The barrier semaphores, free
  at the launch, read zero: with the round states they allocate every cell's invariant. The credit for the units the
  subcores owe regroups, per barrier cell, as the sixteen units of its round. Each subcore is then dealt its kit. The
  staging cells' library funds what the TensorCore's proof starts from.
-/
import proofs.«214982_g87402584473731_cont_9to1c4b_667_31_alg».proof.Proof.Common

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The barrier cells and their launch tokens -/

abbrev c_DCI : Type := Dev nD × Fin τ.nSC × Fin τ.nSub
abbrev c_bcell₃ (x : c_DCI) : GSem nD τ sig := bcell x.1 x.2.1 x.2.2

/-- Every subcore's barrier cell. -/
def bCells : Finset (GSem nD τ sig) := Finset.univ.image c_bcell₃
/-- Subcore `i`'s token in subcore `j`'s cell, for every pair of subcores of a SparseCore. -/
def bToks : Finset (GSem nD τ sig × ℕ × ℕ) :=
  Finset.univ.image fun x : c_DCI × Fin (grid1.bound 1) => (bcell x.1.1 x.1.2.1 (x.2.castLE hsub1), 0, x.1.2.2.val)

/-- The launch element: the three libraries' initial elements, the counters' unit. -/
def u₀ : UU :=
  (initOf (K (F := F)).hsCells (K (F := F)).hsToks,
    (initOf bCells bToks, (initOf (Pipeline.cells cfgs Gen.cellOf_inj) (Pipeline.launchToks cfgs Gen.cellOf_inj), 1)))

omit [FloatOps F] in
theorem c_bcell₃_injective : Function.Injective (c_bcell₃ : c_DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The element is its three libraries' parts. -/
theorem c_ownU_split (a : UH) (b : UB) (r : UR) :
    (ownU ((a, (b, (r, 1))) : UU) : sProp 𝕄) ⊢ iprop(BI.own (EH a) ∗ BI.own (EB b) ∗ BI.own (ER r)) := by
  have h1 : (ownU ((a, (b, (r, 1))) : UU) : sProp 𝕄) ⊢ iprop(BI.own (EH a)
      ∗ BI.own ((uEmb (nD := nD) (sig := sig) (Ix := HIx 1) (Val := Elt F) (Name := ℕ) (U := UU) (Lvl := ℕ)).toEmb ((1, (b, (r, 1))) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, ((r, 1) : UR × Counters)))))
  have h2 : (BI.own ((uEmb (nD := nD) (sig := sig) (Ix := HIx 1) (Val := Elt F) (Name := ℕ) (U := UU) (Lvl := ℕ)).toEmb ((1, (b, (r, 1))) : UU)) : sProp 𝕄)
      ⊢ iprop(BI.own (EB b) ∗ BI.own (ER r)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op ((r, 1) : UR × Counters)))))
  iintro H
  ihave H' := h1 $$ H
  icases H' with ⟨HH, HX⟩
  isplitl [HH]; · iexact HH
  iapply h2; iexact HX

/-- Every barrier semaphore at zero, out of the free semaphores the launch hands over. -/
theorem c_sems_b : ((K (F := F)).freeSems0 : sProp 𝕄) ⊢ bigSep bCells fun g => semVal g 0 := by
  unfold SparseCore.Cfg.freeSems0 bCells
  rw [SparseCore.bigSep_image_of_injOn (fun a _ b _ e => c_bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem c_invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
/-- `n` single units on one cell at one index are `n` units there. -/
theorem c_sum_tallyAt_one (g : GSem nD τ sig) (ι : HIx 1) : ∀ n : ℕ, ∑ _j : Fin n, tallyAt g ι 1 = (tallyAt g ι n : CellTallies nD τ sig (HIx 1))
  | 0 => by rw [Finset.univ_eq_empty, Finset.sum_empty, tallyAt_zero]
  | n + 1 => by rw [Fin.sum_univ_castSucc, c_sum_tallyAt_one g ι n, tallyAt_add]

/-- What a subcore owes from the launch on: a unit on every subcore's cell of its SparseCore. -/
theorem c_oxFrom_V (d : Dev nD) (c : Fin τ.nSC) (i : Fin τ.nSub) : (P (F := F) m).oxFrom 0 (V d c i) = oxV d c := by
  rw [show (0 : ℕ) = (0 : Fin 1).val from rfl, (P m).oxFrom_step, (P m).oxFrom_end _ (n := (0 : Fin 1).val + 1) le_rfl, add_zero]; rfl

/-- The credit for the subcores' debts, regrouped: each subcore the sixteen units of its own cell. -/
theorem c_creds_b : ((P (F := F) m).oxCred : sProp 𝕄)
    ⊢ bigSep Finset.univ fun dci : c_DCI => cred (tallyAt (c_bcell₃ dci) (some 0) (grid1.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : c_DCI => (cred (tallyAt (c_bcell₃ dci) (some 0) (grid1.bound 1)) : sProp 𝕄))]
  refine bigSep_mono fun d _ => ?_
  rw [bigSep_univ_prod, bigSep_univ_prod (fun ci : Fin τ.nSC × Fin τ.nSub => (cred (tallyAt (c_bcell₃ (d, ci)) (some 0) (grid1.bound 1)) : sProp 𝕄))]
  refine bigSep_mono fun c _ => ?_
  dsimp only
  simp only [c_oxFrom_V]
  unfold oxV
  rw [SparseCore.Cfg.cred_finsum, bigSep_univ_comm]
  refine bigSep_mono fun j _ => ?_
  rw [← SparseCore.Cfg.cred_finsum, c_sum_tallyAt_one]; rfl

omit [FloatOps F] in
/-- A persistent resource beside a big separating conjunction goes to each conjunct. -/
theorem c_bigSep_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem c_toks_eq : (bigSep bToks fun x => (dutyTok EB x.1 x.2.1 x.2.2 : sProp 𝕄))
    = bigSep Finset.univ fun dci : c_DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem c_Px_T (d : Dev nD) : (bigSep Finset.univ fun q : Fin 1 => (P (F := F) m).x q (SparseCore.T d)) = iprop(emp) :=
  bigSep_univ_of_subsingleton (0 : Fin 1)
theorem c_Px_S (d : Dev nD) (c : Fin τ.nSC) : (bigSep Finset.univ fun q : Fin 1 => (P (F := F) m).x q (S d c)) = iprop(emp) :=
  bigSep_univ_of_subsingleton (0 : Fin 1)
theorem c_Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem c_bCells_eq (Φ : GSem nD τ sig → sProp 𝕄) : bigSep bCells Φ = bigSep Finset.univ fun x : c_DCI => Φ (c_bcell₃ x) := by
  unfold bCells; exact SparseCore.bigSep_image_of_injOn (fun a _ b _ e => c_bcell₃_injective e) Φ

/-- What every subcore is handed alike: every barrier cell's invariant, and that each has reached round 0. -/
abbrev c_shared : sProp 𝕄 :=
  iprop((∃ κ : GSem nD τ sig → ℕ, bigSep Finset.univ fun x : c_DCI => cellInv EB (bRd (F := F) m) (κ (c_bcell₃ x)) (c_bcell₃ x))
    ∗ bigSep Finset.univ fun x : c_DCI => reached EB (c_bcell₃ x) 0)
/-- What each subcore is handed of its own: its position, its tokens, its credit. -/
abbrev c_mine (dci : c_DCI) : sProp 𝕄 :=
  iprop(atPos EB (c_bcell₃ dci) 0 ∅ 0
    ∗ (bigSep Finset.univ fun j : Fin (grid1.bound 1) => dutyTok EB (bcell dci.1 dci.2.1 (j.castLE hsub1)) 0 dci.2.2.val)
    ∗ cred (tallyAt (c_bcell₃ dci) (some 0) (grid1.bound 1)))

/-- One subcore's kit out of those. -/
theorem c_kit_intro (dci : c_DCI) : iprop(c_shared (F := F) m ∗ c_mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (c_bigSep_frame (s := (Finset.univ : Finset (Fin (grid1.bound 1)))) (Φ := fun _ => iprop(emp))
      (R := bigSep Finset.univ fun x : c_DCI => cellInv EB (bRd (F := F) m) (κ (c_bcell₃ x)) (c_bcell₃ x)) fun j _ =>
        sep_elim_left.trans (bigSep_elim (Φ := fun x : c_DCI => (cellInv EB (bRd (F := F) m) (κ (c_bcell₃ x)) (c_bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (c_bigSep_frame (s := (Finset.univ : Finset (Fin (grid1.bound 1)))) (Φ := fun _ => iprop(emp))
      (R := bigSep Finset.univ fun x : c_DCI => reached EB (c_bcell₃ x) 0) fun j _ =>
        sep_elim_left.trans (bigSep_elim (Φ := fun x : c_DCI => (reached EB (c_bcell₃ x) 0 : sProp 𝕄))
          (i := (d, c, Fin.castLE hsub1 j)) (Finset.mem_univ _))))
    isplitl; · iexact Hr
    rw [bigSep_emp']; iempintro
  isplitl [Hat]; · iexact Hat
  iexact Hcred

/-- Each subcore its kit. -/
theorem c_kits_deal :
    iprop(c_shared (F := F) m ∗ (bigSep Finset.univ fun x : c_DCI => atPos EB (c_bcell₃ x) 0 ∅ 0)
        ∗ (bigSep Finset.univ fun dci : c_DCI => bigSep Finset.univ fun j : Fin (grid1.bound 1) => dutyTok EB (bcell dci.1 dci.2.1 (j.castLE hsub1)) 0 dci.2.2.val)
        ∗ (bigSep Finset.univ fun dci : c_DCI => cred (tallyAt (c_bcell₃ dci) (some 0) (grid1.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [c_Px_T, c_Px_S, c_Px_V, bigSep_emp']
  iintro ⟨#Hsh, Hat, Htok, Hcred⟩
  isplitr; · iempintro
  isplitr; · iempintro
  iapply (c_bigSep_frame (R := c_shared (F := F) m) (Φ := c_mine (F := F)) fun dci _ => c_kit_intro (F := F) m dci)
  isplitr; · iexact Hsh
  unfold c_mine
  rw [bigSep_sep', bigSep_sep']
  isplitl [Hat]; · iexact Hat
  isplitl [Htok]; · iexact Htok
  iexact Hcred

omit [FloatOps F] in
/-- The staging cells' library funds what the TensorCore's proof starts from, on every device. -/
theorem c_fund_G : BI.own ((ER (F := F)) (initOf (Pipeline.cells cfgs Gen.cellOf_inj) (Pipeline.launchToks cfgs Gen.cellOf_inj)))
    ⊢ iprop(|==> bigSep Finset.univ (G (F := F))) := by
  refine (Pipeline.fund_ghost cfgs (ER (F := F)) Gen.cellOf_inj).trans (BI.bupd_mono ?_)
  show _ ⊢ bigSep Finset.univ fun d : Dev nD => iprop((bigSep Finset.univ fun p : Fin 1 => Pipeline.cellsGhost cfgs (ER (F := F)) p d)
    ∗ bigSep Finset.univ fun p : Fin 1 => Pipeline.toksInit cfgs (ER (F := F)) p d)
  rw [bigSep_sep']

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ bigSep Finset.univ (G (F := F))
        ∗ (bigSep Finset.univ fun thr : Thread nD τ => bigSep Finset.univ fun q : Fin 1 => (P m).x q thr) : sProp 𝕄) := by
  unfold u₀
  iintro ⟨Hu, Hcred, Hfree⟩
  ihave H := (c_ownU_split _ _ _) $$ Hu
  icases H with ⟨HH, HB, HR⟩
  imod (Rounds.fund EB (bRd (F := F) m) bCells bToks) $$ HB with ⟨Hst, #Hr, Hat, Htok⟩
  imod (c_fund_G (F := F)) $$ HR with HG
  ihave Hsems := (c_sems_b (F := F)) $$ Hfree
  imod (c_invs_b (F := F) m) $$ [Hsems Hst] with ⟨%κ, #Hinv⟩
  · isplitl [Hsems] <;> iassumption
  ihave Hcred' := (c_creds_b m) $$ Hcred
  ihave Hinv' := (Entails.of_eq (c_bCells_eq (F := F) fun g => cellInv EB (bRd (F := F) m) (κ g) g)) $$ Hinv
  ihave Hr' := (Entails.of_eq (c_bCells_eq (F := F) fun g => reached EB g 0)) $$ Hr
  ihave Hat' := (Entails.of_eq (c_bCells_eq (F := F) fun g => atPos EB g 0 ∅ 0)) $$ Hat
  ihave Htok' := (Entails.of_eq (c_toks_eq (F := F))) $$ Htok
  imodintro
  isplitl [HH]; · iexact HH
  isplitl [HG]; · iexact HG
  iapply (c_kits_deal m)
  isplitr
  · isplitl; · iexists κ; iexact Hinv'
    iexact Hr'
  isplitl [Hat']; · iexact Hat'
  isplitl [Htok']; · iexact Htok'
  iexact Hcred'

end Cert.KernelIdeal.Hand

end
-- ==== Proof.Run.lean ====
/-
  The vector subcores' obligation, and the program's run.

  The body table's row for a vector subcore is the gather kernel at that subcore's coordinates on the whole arrays and
  its scratch; the launch theorem's obligation for the one call is the subcore's task at those coordinates. The run of
  the whole program follows from the launch theorem: the subcores' task, how a SparseCore's operands split among them,
  the launch element, the TensorCore's program and the reading of the final memory.
-/
import proofs.«214982_g87402584473731_cont_9to1c4b_667_31_alg».proof.Proof.Common
import proofs.«214982_g87402584473731_cont_9to1c4b_667_31_alg».proof.Proof.TileSpec
import proofs.«214982_g87402584473731_cont_9to1c4b_667_31_alg».proof.Proof.Split
import proofs.«214982_g87402584473731_cont_9to1c4b_667_31_alg».proof.Proof.LaunchElem

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The grid coordinates of a SparseCore number and a subcore number. -/
def c_coordsV (c : Fin (grid1.bound 0)) (s : Fin (grid1.bound 1)) : grid1.Coords :=
  fun | 0 => c | 1 => s | ⟨_ + 2, h⟩ => absurd h (Nat.not_lt.2 (Nat.le_add_left _ _))

/-- The body table at a vector subcore: the gather kernel at its coordinates, where the grid holds it. -/
theorem c_defs₀_vector (c : Fin τ.nSC) (s : Fin τ.nSub) :
    defs₀ (F := F) (.scVector c s) 1 ()
      = SparseCore.onTile hcore1 hsub1 (fun c s => cc1__gather_body (c_coordsV c s)
          iV (Memref.isWhole_whole _) tV (Memref.isWhole_whole _) oV (Memref.isWhole_whole _)
          ixV (Memref.isWhole_whole _) rwV (Memref.isWhole_whole _) shV (Memref.isWhole_whole _)
          cc1_scratch3 cc1_scratch4 cc1_scratch5 cc1_scoped0 cc1_scoped1) ⟨⟩ c s := rfl

set_option maxRecDepth 16384 in
theorem tileObl (hF : (K (F := F)).Facts) (ht : TileBodySpec m) : (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [c_defs₀_vector]; simp only [SparseCore.onTile, hci, and_self, ↓reduceDIte]
  exact ht d (c_coordsV ⟨_, hci.1⟩ ⟨_, hci.2⟩) hF O W hO hOlev

theorem run_main [∀ e, Nonempty (Elt F e)] (ht : TileBodySpec m)
    (hmain : ∀ (κ : GSem nD τ sig → ℕ) (d : Dev nD),
      iprop((K (F := F)).ctx EH (P m) κ (K (F := F)).lev ∗ (K (F := F)).tcSt EH d 0 ∗ (K (F := F)).tcRes m ρ d ∗ G (F := F) d)
        ⊢ wp frame (wpE ((K (F := F)).defs (D (F := F))) 𝒱 (T d) none) Set.univ (Cert.KernelIdeal.main (F := F) d)
            fun _ => iprop((K (F := F)).tcSt EH d 1 ∗ FIN m d))
    (hfin : ∀ d s', iprop(FIN m d ∗ SI s') ⊢ (⌜fq m d s'⌝ : sProp 𝕄)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts ht)
    (fun q _ => match q with | 0 => vecSplit m)
    m ρ Cert.KernelIdeal.main (G (F := F)) (FIN m) (u₀ (F := F)) (hu₀ m) hmain (fq m) hfin (QC m) (fun _ h => h)

end Cert.KernelIdeal.Hand

end
-- ==== Proof.Main.Body.lean ====
/-
  The TensorCore's pallas_call of @main: its body and its proof data.

  The body loads the 4 × 128 table and the two 1 × 128 rows from their staging buffers, normalises each row of the table
  (mean removed, scaled by the reciprocal root of the variance plus ε, then by gamma, shifted by beta) and stores the
  result 64 times over into the 64 × 4 × 128 staging buffer of the result: one store through the whole buffer, so what
  the buffer holds afterwards is the stored value, whatever it held. The call has no grid: one point, each window's
  block its whole array, so a fetched buffer holds the array and the one write-back leaves the array at the stored
  value.
-/
import proofs.«214982_g87402584473731_cont_9to1c4b_667_31_alg».proof.Proof.Common
import proofs.«214982_g87402584473731_cont_9to1c4b_667_31_alg».proof.Proof.Gen.KernelIdeal.Points
import Idealize.ShloMosaic.Lib.Pipeline.Regions
import Idealize.ShloMosaic.Lib.Pipeline.RegionsLoop
import Idealize.ShloMosaic.Lib.Pipeline.Value

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe
open Idealize.ShloMosaic.Pipeline (Dat Cfg Window BodyObligation cellOf)

variable {F : FTy → Type}

local notation "𝕄" => MT nD τ sig (HIx 1) (Elt F) ℕ UU ℕ

variable (m : (ℓ : Loc nD τ sig) → Buf (Elt F) ℓ) (ρ : Dev nD → PrngReg)

variable [FloatOps F]

/-- One unmasked store through the whole-shape rectangle at zero offsets leaves its payload. -/
theorem b_read_writes_unit_zero {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h; funext y
  have e := View.read_writes_cons_emb v f (Rect.whole S) w [] y
  rw [Rect.emb_whole_apply] at e
  exact e

theorem b_hz2 : (![0, 0] : Fin 2 → Nat) = fun _ => 0 := funext fun a => by fin_cases a <;> rfl
theorem b_hz3 : (![0, 0, 0] : Fin 3 → Nat) = fun _ => 0 := funext fun a => by fin_cases a <;> rfl

set_option maxHeartbeats 1000000 in
theorem b_lnRun (c : Dev nD) (E : Set ℕ) (arg0 : Memref sig .tc .vmem S4x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S64x4x128 .f32) (harg3 : arg3.IsWhole)
    (x0 : Vec F S4x128 .f32) (x1 : Vec F S1x128 .f32) (x2 : Vec F S1x128 .f32) (Q : PUnit → sProp 𝕄) :
    iprop(owns (c : Thread nD τ) arg0 fullShare x0 ∗ owns (c : Thread nD τ) arg1 fullShare x1 ∗ owns (c : Thread nD τ) arg2 fullShare x2
        ∗ (∃ y, owns (c : Thread nD τ) arg3 fullShare y)
        ∗ (iprop(owns (c : Thread nD τ) arg0 fullShare x0 ∗ owns (c : Thread nD τ) arg1 fullShare x1 ∗ owns (c : Thread nD τ) arg2 fullShare x2
            ∗ owns (c : Thread nD τ) arg3 fullShare (k0_pay1 x0 x1 x2)) -∗ Q ⟨⟩))
      ⊢ wp frame (wpE (defs₀ (F := F)) Variants.none (c : Thread nD τ) none) E (cc0__ln_body arg0 harg0 arg1 harg1 arg2 harg2 arg3 harg3) Q := by
  simp only [cc0__ln_body_eq_skeleton]; unfold cc0__ln_body_skel
  unfold owns
  iintro ⟨⟨%f0, %hf0, H0⟩, ⟨%f1, %hf1, H1⟩, ⟨%f2, %hf2, H2⟩, ⟨%y, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [b_read_writes_unit_zero _ _ b_hz3]
  simp only [View.readAt_eq_ld, View.ld_unit_zero (S := S4x128) b_hz2, View.ld_unit_zero (S := S1x128) b_hz2]

/-! ## A window over a whole array reads the array -/

theorem b_blk0 (d : Dev nD) (X : Buf (Elt F) (a1Loc d)) : ((cfg0.win 0).blk t0_0).view.read (Elt F) X = (X : Vec F S4x128 .f32) := by
  funext j
  rw [View.read_apply]
  show X (((cfg0.win 0).blk t0_0).view.emb j) = X j
  refine congrArg X ?_
  funext a; apply Fin.ext
  match a with
  | ⟨0, _⟩ => show 0 * 4 + 1 * (j 0).val = (j 0).val; omega
  | ⟨1, _⟩ => show 0 * 128 + 1 * (j 1).val = (j 1).val; omega

theorem b_blk1 (d : Dev nD) (X : Buf (Elt F) (v0Loc d)) : ((cfg0.win 1).blk t0_0).view.read (Elt F) X = (X : Vec F S1x128 .f32) := by
  funext j
  rw [View.read_apply]
  show X (((cfg0.win 1).blk t0_0).view.emb j) = X j
  refine congrArg X ?_
  funext a; apply Fin.ext
  match a with
  | ⟨0, _⟩ => show 0 * 1 + 1 * (j 0).val = (j 0).val; omega
  | ⟨1, _⟩ => show 0 * 128 + 1 * (j 1).val = (j 1).val; omega

theorem b_blk2 (d : Dev nD) (X : Buf (Elt F) (v1Loc d)) : ((cfg0.win 2).blk t0_0).view.read (Elt F) X = (X : Vec F S1x128 .f32) := by
  funext j
  rw [View.read_apply]
  show X (((cfg0.win 2).blk t0_0).view.emb j) = X j
  refine congrArg X ?_
  funext a; apply Fin.ext
  match a with
  | ⟨0, _⟩ => show 0 * 1 + 1 * (j 0).val = (j 0).val; omega
  | ⟨1, _⟩ => show 0 * 128 + 1 * (j 1).val = (j 1).val; omega

theorem b_blk3 (d : Dev nD) (X : Buf (Elt F) (v2Loc d)) : ((cfg0.win 3).blk t0_0).view.read (Elt F) X = (X : Vec F S64x4x128 .f32) := by
  funext j
  rw [View.read_apply]
  show X (((cfg0.win 3).blk t0_0).view.emb j) = X j
  refine congrArg X ?_
  funext a; apply Fin.ext
  match a with
  | ⟨0, _⟩ => show 0 * 64 + 1 * (j 0).val = (j 0).val; omega
  | ⟨1, _⟩ => show 0 * 4 + 1 * (j 1).val = (j 1).val; omega
  | ⟨2, _⟩ => show 0 * 128 + 1 * (j 2).val = (j 2).val; omega

/-! ## The normalised-table call: its proof data -/

theorem b_Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

/-- The pairs a TensorCore may have recorded before its first call: those at level 0. -/
def b_rec (d : Dev nD) : Set (SemLoc sig × HIx 1) := {p | (K (F := F)).lev ((SparseCore.T d : Thread nD τ), p.1) p.2 ≤ 8 * 0}

/-- Between the call's ends the body keeps nothing of its own: the scoped buffers no window stages. -/
abbrev b_Φ (d : Dev nD) : sProp 𝕄 := Pipeline.scopedRest (Ix := HIx 1) (Name := ℕ) (U := UU) (Lvl := ℕ) (Val := Elt F) spec0 d

/-- The proof data of the call on device `d`: the table and the two rows as the host left them, the result array as
    launched; after the body the three inputs' buffers as fetched and the result's at the normalised table written 64
    times; what the TensorCore owes the SparseCores throughout. -/
def b_dat (d : Dev nD) : Dat τ (Elt F) (HIx 1) ℕ UU ℕ cfg0 d where
  A w := match w with
    | ⟨0, _⟩ => m (a1Loc d)
    | ⟨1, _⟩ => gRowV m d
    | ⟨2, _⟩ => bRowV m d
    | ⟨3, _⟩ => m (v2Loc d)
  after w _ := match w with
    | ⟨0, _⟩ => (m (a1Loc d) : Vec F S4x128 .f32)
    | ⟨1, _⟩ => gRowV m d
    | ⟨2, _⟩ => bRowV m d
    | ⟨3, _⟩ => T2 m d
  Φ _ := b_Φ d
  q _ := fullShare
  owed _ := (K (F := F)).Otc d 0
  recorded _ := b_rec (F := F) d

theorem b_before0 (d : Dev nD) (x) : (b_dat m d).before 0 t0_0 x = (m (a1Loc d) : Vec F S4x128 .f32) := by
  unfold Dat.before; rw [if_pos (by decide)]; exact b_blk0 d (m (a1Loc d))
theorem b_before1 (d : Dev nD) (x) : (b_dat m d).before 1 t0_0 x = gRowV m d := by
  unfold Dat.before; rw [if_pos (by decide)]; exact b_blk1 d (gRowV m d)
theorem b_before2 (d : Dev nD) (x) : (b_dat m d).before 2 t0_0 x = bRowV m d := by
  unfold Dat.before; rw [if_pos (by decide)]; exact b_blk2 d (bRowV m d)

theorem b_after0 (d : Dev nD) (t : Fin cfg0.N) : (b_dat m d).after 0 t = (m (a1Loc d) : Vec F S4x128 .f32) := by dsimp only [b_dat]
theorem b_after1 (d : Dev nD) (t : Fin cfg0.N) : (b_dat m d).after 1 t = gRowV m d := by dsimp only [b_dat]
theorem b_after2 (d : Dev nD) (t : Fin cfg0.N) : (b_dat m d).after 2 t = bRowV m d := by dsimp only [b_dat]
theorem b_after3 (d : Dev nD) (t : Fin cfg0.N) : (b_dat m d).after 3 t = T2 m d := by dsimp only [b_dat]

/-- What the body is called with at the one point, -/
def b_bodyPre (d : Dev nD) : sProp 𝕄 :=
  iprop((b_dat m d).Φ (t0_0 : Fin cfg0.N).castSucc ∗ (b_dat m d).owesAt (none : HIx 1) (t0_0 : Fin cfg0.N).castSucc
    ∗ (∃ x, owns (d : Thread nD τ) (st0_0 t0_0) fullShare ((b_dat m d).before 0 t0_0 x))
    ∗ (∃ x, owns (d : Thread nD τ) (st0_1 t0_0) fullShare ((b_dat m d).before 1 t0_0 x))
    ∗ (∃ x, owns (d : Thread nD τ) (st0_2 t0_0) fullShare ((b_dat m d).before 2 t0_0 x))
    ∗ (∃ x, owns (d : Thread nD τ) (st0_3 t0_0) fullShare ((b_dat m d).before 3 t0_0 x)))

/-- and what it returns. -/
def b_bodyPost (d : Dev nD) : sProp 𝕄 :=
  iprop((b_dat m d).Φ (t0_0 : Fin cfg0.N).succ ∗ (b_dat m d).owesAt (none : HIx 1) (t0_0 : Fin cfg0.N).succ
    ∗ owns (d : Thread nD τ) (st0_0 t0_0) fullShare ((b_dat m d).after 0 t0_0)
    ∗ owns (d : Thread nD τ) (st0_1 t0_0) fullShare ((b_dat m d).after 1 t0_0)
    ∗ owns (d : Thread nD τ) (st0_2 t0_0) fullShare ((b_dat m d).after 2 t0_0)
    ∗ owns (d : Thread nD τ) (st0_3 t0_0) fullShare ((b_dat m d).after 3 t0_0))

theorem b_soundBody (d : Dev nD) :
    b_bodyPre m d ⊢ wp frame (wpE (defs₀ (F := F)) Variants.none (d : Thread nD τ) none) Set.univ (bodyAt0 t0_0) (fun _ => b_bodyPost m d) := by
  unfold b_bodyPre b_bodyPost bodyAt0
  simp only [b_before0, b_before1, b_before2]
  rw [show (b_dat m d).Φ (t0_0 : Fin cfg0.N).succ = (b_dat m d).Φ (t0_0 : Fin cfg0.N).castSucc from rfl,
    show (b_dat m d).owesAt (none : HIx 1) (t0_0 : Fin cfg0.N).succ = (b_dat m d).owesAt (none : HIx 1) (t0_0 : Fin cfg0.N).castSucc from rfl,
    b_after0, b_after1, b_after2, b_after3]
  iintro ⟨HΦ, Ho, ⟨%x0, H0⟩, ⟨%x1, H1⟩, ⟨%x2, H2⟩, ⟨%x3, H3⟩⟩
  iapply (b_lnRun d Set.univ _ _ _ _ _ _ _ _ (m (a1Loc d) : Vec F S4x128 .f32) (gRowV m d) (bRowV m d) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the one point. -/
theorem b_body (d : Dev nD) : BodyObligation (b_dat m d) (defs₀ (F := F)) 𝒱₀ (none : HIx 1) Set.univ := fun t => by
  obtain rfl := fin_N0 t
  rw [bigSep_W0, bigSep_W0]
  exact b_soundBody m d

end Cert.KernelIdeal.Hand
end
-- ==== Proof.Main.Region.lean ====
/-
  The TensorCore's pallas_call of @main as a region of the program.

  The call is run by the pipeline library's region rule at one point: the four arrays (the table, gamma and beta as rows,
  the result) enter at what the host left them, the three inputs are fetched into their staging buffers, the body runs,
  the result's buffer is written back; the result array then holds the normalised table written 64 times. While the call
  runs the TensorCore still owes every SparseCore its start signal; its own waits, on the staging buffers' cells, sit at
  level 0, strictly below those debts, so it may wait.
-/
import proofs.«214982_g87402584473731_cont_9to1c4b_667_31_alg».proof.Proof.Common
import proofs.«214982_g87402584473731_cont_9to1c4b_667_31_alg».proof.Proof.Gen.KernelIdeal.Points
import Idealize.ShloMosaic.Lib.Pipeline.Regions
import Idealize.ShloMosaic.Lib.Pipeline.RegionsLoop
import Idealize.ShloMosaic.Lib.Pipeline.Value
import proofs.«214982_g87402584473731_cont_9to1c4b_667_31_alg».proof.Proof.Main.Body

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe
open Idealize.ShloMosaic.StableHlo (held held_split held_sdiff_result wp_hlo_within)
open Idealize.ShloMosaic.Pipeline (Dat Cfg Window BodyObligation cellOf)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The call as a region of @main -/

abbrev b_adm : (p : Fin 1) → (pcfgs (F := F) p).Adm := fun q => (cfgs q).toPCfg_adm

/-- The one pipeline's proof data. -/
def b_pdats : (p : Fin 1) → (c : Dev nD) → Dat τ (Elt F) (HIx 1) ℕ UU ℕ (Pipeline.pin (pcfgs (F := F)) b_adm p) c
  | ⟨0, _⟩ => fun c => b_dat m c

/-- The four arrays of the call, held whole. -/
theorem b_arrays (d : Dev nD) (A : (w : Fin cfg0.W) → Buf (Elt F) ((cfg0.win w).arr.view.loc (d : Thread nD τ))) :
    ((b_dat m d).arrays A : sProp 𝕄) = iprop((a1Loc d ↦{fullShare} A 0) ∗ (v0Loc d ↦{fullShare} A 1) ∗ (v1Loc d ↦{fullShare} A 2) ∗ (v2Loc d ↦{fullShare} A 3)) := by
  unfold Dat.arrays
  rw [bigSep_W0, (b_dat m d).share_full (fun _ => rfl) 0, (b_dat m d).share_full (fun _ => rfl) 1, (b_dat m d).share_full (fun _ => rfl) 2,
    (b_dat m d).share_full (fun _ => rfl) 3]
  simp only [Memref.view_whole, View.set_whole]

/-- The result array after the call: the normalised table written 64 times. -/
theorem b_final (d : Dev nD) : (b_dat m d).arrAt 3 cfg0.N = T2 m d :=
  (b_dat m d).arrAt_eq_of_cover 3 (T2 m d) (fun t _ => by
      obtain rfl := fin_N0 t
      show (cfg0.win 3).cut (grid0.coords t0_0) ((b_dat m d).after 3 t0_0) = _
      rw [b_after3, b_blk3 d]
      rfl)
    (fun i => ⟨t0_0, flush0_3 t0_0, by
      show i ∈ ((View.whole main_v2).slice (win0_3.rect t0_0)).set
      rw [View.set_slice_whole, Rect.mem_set_unit]
      intro a
      match a with
      | ⟨0, _⟩ => show 0 * 64 ≤ (i 0).val ∧ (i 0).val < 0 * 64 + 64; have h : (i 0).val < 64 := (i 0).isLt; omega
      | ⟨1, _⟩ => show 0 * 4 ≤ (i 1).val ∧ (i 1).val < 0 * 4 + 4; have h : (i 1).val < 4 := (i 1).isLt; omega
      | ⟨2, _⟩ => show 0 * 128 ≤ (i 2).val ∧ (i 2).val < 0 * 128 + 128; have h : (i 2).val < 128 := (i 2).isLt; omega⟩)

/-- What the TensorCore owes the SparseCores before its first call, and that its recorded waits sit at level 0. -/
abbrev b_owes (c : Dev nD) : sProp 𝕄 :=
  iprop(∃ W, ⌜(K (F := F)).WBelow (SparseCore.T c) W (8 * 0)⌝ ∗ owes (SparseCore.T c) ((K (F := F)).Otc c 0) W)

set_option backward.isDefEq.respectTransparency.types false in
/-- The call over the TensorCore's state "the four arrays whole, and what it owes": entered with the result array as
    launched, left with it at the normalised table written 64 times; the kernel has no semaphore of its own and keeps
    nothing between the ends; its waits on the staging cells sit at level 0, below every start signal it owes. -/
def b_reg : Pipeline.RegionSeg (pcfgs (F := F)) b_adm (b_pdats m) (none : HIx 1) defs₀ 𝒱₀ (K (F := F)).L (K (F := F)).lev 0 where
  win := (winFacts0).to₀
  block_pos := block_pos0
  stage_whole := stage_whole0
  K := PEmpty
  osem k := k.elim
  ho := Pipeline.OwnSemFacts.none _
  hbody c := (b_body m c).loose
  hwaits c := Pipeline.cellsWaits_intro (Pipeline.pin (pcfgs (F := F)) b_adm) (b_pdats m) none 0 c
    (fun w s t => (K (F := F)).mayWait_none _ (b_Otc_none c 0))
  pre c := iprop((a1Loc c ↦{fullShare} m (a1Loc c)) ∗ (v0Loc c ↦{fullShare} gRowV m c) ∗ (v1Loc c ↦{fullShare} bRowV m c)
    ∗ (v2Loc c ↦{fullShare} m (v2Loc c)) ∗ b_owes (F := F) c)
  post c := iprop((a1Loc c ↦{fullShare} m (a1Loc c)) ∗ (v0Loc c ↦{fullShare} gRowV m c) ∗ (v1Loc c ↦{fullShare} bRowV m c)
    ∗ (v2Loc c ↦{fullShare} T2 m c) ∗ b_owes (F := F) c)
  X _ := iprop(emp)
  Y _ := iprop(emp)
  Z _ := iprop(emp)
  hentry c := by
    rw [Pipeline.ownSems0_none, show b_pdats m 0 c = b_dat m c from rfl, b_arrays]
    iintro ⟨⟨H0, H1, H2, H3, ⟨%W, %hW, HO⟩⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (b_pdats m 0 c).Φ 0 = b_Φ c from rfl]
    iintro ⟨-, -, Hr⟩; iexact Hr
  hout c := by
    rw [Pipeline.ownSems0_none, show (b_pdats m 0 c).Φ (Fin.last _) = b_Φ c from rfl]
    iintro Hr
    isplitr; · iempintro
    isplitr; · iempintro
    iexact Hr
  hexit c := by
    rw [show b_pdats m 0 c = b_dat m c from rfl, b_arrays, (b_dat m c).arrAt_in 0 rfl, (b_dat m c).arrAt_in 1 rfl, (b_dat m c).arrAt_in 2 rfl]
    rw [show (b_dat m c).arrAt 3 (Pipeline.pin (pcfgs (F := F)) b_adm 0).N = T2 m c from b_final m c]
    iintro ⟨⟨H0, H1, H2, H3⟩, HO, -, -⟩
    imodintro
    isplitl [H0]; · iexact H0
    isplitl [H1]; · iexact H1
    isplitl [H2]; · iexact H2
    isplitl [H3]; · iexact H3
    unfold Pipeline.Dat.owesAt Pipeline.owesWithin
    icases HO with ⟨%W, %hW, HO⟩
    iexists W; isplitr
    · ipureintro
      intro p hp
      rcases hW hp with h | ⟨w, s, rfl⟩
      · exact h
      · exact le_of_eq (SparseCore.Cfg.lev_none _ _)
    iexact HO

theorem b_reg_pre (c : Dev nD) : (b_reg m).pre c = iprop((a1Loc c ↦{fullShare} m (a1Loc c)) ∗ (v0Loc c ↦{fullShare} gRowV m c) ∗ (v1Loc c ↦{fullShare} bRowV m c)
    ∗ (v2Loc c ↦{fullShare} m (v2Loc c)) ∗ b_owes (F := F) c) := rfl
theorem b_reg_post (c : Dev nD) : (b_reg m).post c = iprop((a1Loc c ↦{fullShare} m (a1Loc c)) ∗ (v0Loc c ↦{fullShare} gRowV m c) ∗ (v1Loc c ↦{fullShare} bRowV m c)
    ∗ (v2Loc c ↦{fullShare} T2 m c) ∗ b_owes (F := F) c) := rfl

set_option backward.isDefEq.respectTransparency.types false in
/-- The TensorCore's pallas_call in @main: from the region boundary, the call's four arrays whole — the table, gamma and
    beta as rows, the result array as launched —, the staging cells' ghost state and the TensorCore's handshake state
    before its first SparseCore call, to the same with the result array at the normalised table written 64 times. -/
theorem b_region [∀ e, Nonempty (Elt F e)] (κ : GSem nD τ sig → ℕ) (d : Dev nD) (Φ : PUnit → sProp 𝕄) :
    iprop((K (F := F)).ctx EH (P m) κ ∗ (K (F := F)).tcSt EH d 0 ∗ boundary (SparseCore.T d) ∗ G (F := F) d
        ∗ (a1Loc d ↦{fullShare} m (a1Loc d)) ∗ (v0Loc d ↦{fullShare} gRowV m d) ∗ (v1Loc d ↦{fullShare} bRowV m d) ∗ (v2Loc d ↦{fullShare} m (v2Loc d))
        ∗ (((K (F := F)).tcSt EH d 0 ∗ boundary (SparseCore.T d)
            ∗ (a1Loc d ↦{fullShare} m (a1Loc d)) ∗ (v0Loc d ↦{fullShare} gRowV m d) ∗ (v1Loc d ↦{fullShare} bRowV m d) ∗ (v2Loc d ↦{fullShare} T2 m d)) -∗ Φ ⟨⟩))
      ⊢ wp frame (wpE ((K (F := F)).defs (D (F := F))) 𝒱 (SparseCore.T d) none) Set.univ
          (Prog.lift (.customCall (SparseCore.inner (Pipeline.entry 0)) ())) Φ := by
  unfold SparseCore.Cfg.tcSt G
  rw [show (Finset.univ : Finset (Fin 1)) = {0} from rfl, bigSep_singleton, bigSep_singleton]
  iintro ⟨#Hctx, ⟨HO, Hrest⟩, Hb, ⟨Hg, Ht⟩, H0, H1, H2, H3, Hk⟩
  ihave Hlev := (SparseCore.Cfg.ctx_levAts κ) $$ Hctx
  iapply ((K (F := F)).wp_liftProg (D (F := F)) 𝒱 (SparseCore.T d) Set.univ none (Prog.lift (.customCall (Pipeline.entry 0) ())) Φ)
  iapply (Pipeline.RegionSeg.wp (pcfgs (F := F)) b_adm (b_pdats m) (none : HIx 1) cellOf_inj ER defs₀ 𝒱₀ (K (F := F)).L (K (F := F)).lev (b_reg m) d none
    (fun _ h => nomatch h) (fun x => .ret x) Φ)
  isplitl [Hk Hrest]
  · iintro ⟨Hb, Hq⟩
    ihave Hp := (Entails.of_eq (b_reg_post m d)) $$ Hq
    icases Hp with ⟨H0, H1, H2, H3, HO⟩
    rw [wp_ret]
    imodintro
    iapply Hk
    isplitl [HO Hrest]
    · isplitl [HO]; · iexact HO
      iexact Hrest
    isplitl [Hb]; · iexact Hb
    isplitl [H0]; · iexact H0
    isplitl [H1]; · iexact H1
    isplitl [H2]; · iexact H2
    iexact H3
  isplitl [Hb]; · iexact Hb
  isplitl [H0 H1 H2 H3 HO]
  · rw [b_reg_pre]
    isplitl [H0]; · iexact H0
    isplitl [H1]; · iexact H1
    isplitl [H2]; · iexact H2
    isplitl [H3]; · iexact H3
    iexact HO
  isplitl [Hlev]; · iexact Hlev
  isplitl [Hg]; · iexact Hg
  iexact Ht

end Cert.KernelIdeal.Hand
end
-- ==== Proof.Main.lean ====
/-
  @main on the TensorCore, and what its final assertion says of the final memory.

  @main re-lays gamma and beta as rows, runs the pallas_call that normalises the four rows of the table and writes them 64
  times over, re-lays the result as the 256-row table and the indices as 32 slabs, starts the two SparseCores and waits
  for them, and re-lays the gathered rows as the 4096 × 200 × 128 result. Each re-laying is a StableHLO reshape over its
  two arrays. At the SparseCore call the 256-row table goes out in two half shares (both SparseCores read all of it),
  the index array and the result array each as the two SparseCores' sets of slabs (disjoint, together the whole array);
  the same come back, the result slabs at the gathered rows, and join again to the whole result array. The four argument
  arrays are read only, so the final memory holds them as launched, and the result at the gathered rows re-laid.
-/
import proofs.«214982_g87402584473731_cont_9to1c4b_667_31_alg».proof.Proof.Common
import proofs.«214982_g87402584473731_cont_9to1c4b_667_31_alg».proof.Proof.Gen.KernelIdeal.Points
import Idealize.ShloMosaic.Lib.Pipeline.Regions
import Idealize.ShloMosaic.Lib.Pipeline.RegionsLoop
import Idealize.ShloMosaic.Lib.Pipeline.Value
import proofs.«214982_g87402584473731_cont_9to1c4b_667_31_alg».proof.Proof.Main.Region
import proofs.«214982_g87402584473731_cont_9to1c4b_667_31_alg».proof.Proof.Sets

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe
open Idealize.ShloMosaic.StableHlo (held held_split held_sdiff_result wp_hlo_within)
open Idealize.ShloMosaic.Pipeline (Dat Cfg Window BodyObligation cellOf)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## A StableHLO reshape over its two arrays -/

/-- The two arrays of a reshape at given contents, every other buffer as launched. -/
def b_V2 (d : Dev nD) (x y : Ref sig .tc) (fx : Buf (Elt F) ((SparseCore.T d : Thread nD τ).loc x)) (fy : Buf (Elt F) ((SparseCore.T d : Thread nD τ).loc y)) :
    Valuation τ sig (Elt F) :=
  Function.update (Function.update (fun b => m (d, b)) (Proc.devRef .tc x) fx) (Proc.devRef .tc y) fy

/-- `reshape x y` at the head of a program, from the region boundary and the two arrays whole: the continuation runs
    with the boundary back, `x` as it was and `y` at `x`'s elements re-laid. -/
theorem b_wp_reshape {Λ : Labels} {defs : Defs nD τ sig (Elt F) Λ} (𝒱' : Variants) (bd : Option 𝒱'.V) (E : Set ℕ) (d : Dev nD) (x y : Ref sig .tc)
    (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hxy : x ≠ y)
    (fx : Buf (Elt F) ((SparseCore.T d : Thread nD τ).loc x)) (fy : Buf (Elt F) ((SparseCore.T d : Thread nD τ).loc y))
    {α : Type} (k : _ → Prog (TpuEff nD τ sig (Elt F) Λ (SparseCore.T d : Thread nD τ).2) α) (Q : α → sProp 𝕄) :
    iprop(boundary (SparseCore.T d) ∗ ((SparseCore.T d : Thread nD τ).loc x ↦{fullShare} fx) ∗ ((SparseCore.T d : Thread nD τ).loc y ↦{fullShare} fy)
        ∗ ((boundary (SparseCore.T d) ∗ ((SparseCore.T d : Thread nD τ).loc x ↦{fullShare} fx)
            ∗ ((SparseCore.T d : Thread nD τ).loc y ↦{fullShare} fun i => he ▸ shapeCast y.ty.shape fx hn i))
          -∗ wp frame (wpE defs 𝒱' (SparseCore.T d) bd) E (k ((StableHlo.reshape (τ := τ) (Val := Elt F) x y he hn hx hy).fn fun b => b_V2 m d x y fx fy b.1)) Q))
      ⊢ wp frame (wpE defs 𝒱' (SparseCore.T d) bd) E (hlo rfl (StableHlo.reshape (τ := τ) (Val := Elt F) x y he hn hx hy) k) Q := by
  have hne : (Proc.devRef .tc x : DevRef τ sig) ≠ Proc.devRef .tc y := StableHlo.devRef_ne_of_ne hxy
  have hVx : b_V2 m d x y fx fy (Proc.devRef .tc x) = fx := by
    unfold b_V2; rw [Function.update_of_ne hne, Function.update_self]
  have hVy : b_V2 m d x y fx fy (Proc.devRef .tc y) = fy := by
    unfold b_V2; rw [Function.update_self]
  have hpre : (held (SparseCore.T d) {(Proc.devRef .tc x : DevRef τ sig), (Proc.devRef .tc y : DevRef τ sig)} (b_V2 m d x y fx fy) : sProp 𝕄)
      = iprop(((SparseCore.T d : Thread nD τ).loc x ↦{fullShare} fx) ∗ ((SparseCore.T d : Thread nD τ).loc y ↦{fullShare} fy)) := by
    unfold held
    rw [SparseCore.bigSep_insert' (by rw [Finset.mem_singleton]; exact hne), bigSep_singleton, hVx, hVy]
  have hpost : (held (SparseCore.T d) {(Proc.devRef .tc x : DevRef τ sig), (Proc.devRef .tc y : DevRef τ sig)}
        ((StableHlo.reshape (τ := τ) (Val := Elt F) x y he hn hx hy).result (b_V2 m d x y fx fy)) : sProp 𝕄)
      = iprop(((SparseCore.T d : Thread nD τ).loc x ↦{fullShare} fx)
          ∗ ((SparseCore.T d : Thread nD τ).loc y ↦{fullShare} fun i => he ▸ shapeCast y.ty.shape fx hn i)) := by
    unfold held
    rw [SparseCore.bigSep_insert' (by rw [Finset.mem_singleton]; exact hne), bigSep_singleton,
      (StableHlo.reshape (τ := τ) (Val := Elt F) x y he hn hx hy).result_of_not_mem (b_V2 m d x y fx fy) (b := Proc.devRef .tc x)
        (show (Proc.devRef .tc x : DevRef τ sig) ∉ ({Proc.devRef .tc y} : Finset (DevRef τ sig)) by rw [Finset.mem_singleton]; exact hne),
      StableHlo.reshape_result x y he hn hx hy, hVx]
  iintro ⟨Hb, Hx, Hy, Hk⟩
  iapply (wp_hlo_within 𝒱' (SparseCore.T d) bd E (op := StableHlo.reshape (τ := τ) (Val := Elt F) x y he hn hx hy)
    (S := {(Proc.devRef .tc x : DevRef τ sig), (Proc.devRef .tc y : DevRef τ sig)}) (Finset.Subset.refl _) (V := b_V2 m d x y fx fy)) $$ [Hb Hx Hy]
  · isplitl [Hb]; · iexact Hb
    rw [hpre]
    isplitl [Hx]; · iexact Hx
    iexact Hy
  iintro ⟨Hb, Hh⟩
  ihave Hh' := (Entails.of_eq hpost) $$ Hh
  icases Hh' with ⟨Hx, Hy⟩
  iapply Hk
  isplitl [Hb]; · iexact Hb
  isplitl [Hx]; · iexact Hx
  iexact Hy

/-! ## What the SparseCore call takes and hands back -/

theorem b_half (d : Dev nD) (f : Buf (Elt F) (v3Loc d)) :
    (v3Loc d ↦{fullShare} f : sProp 𝕄) = iprop((v3Loc d ↦{halfS 0} f) ∗ (v3Loc d ↦{halfS 1} f)) := by
  rw [leaves Finset.univ f 1 fullShare]
  show bigSep (Finset.univ : Finset (Fin 2)) (fun i => (v3Loc d ↦{leaf 1 fullShare i} f : sProp 𝕄)) = _
  rw [show (Finset.univ : Finset (Fin 2)) = {0, 1} by decide, SparseCore.bigSep_insert' (by decide), bigSep_singleton]

theorem b_st0 (d : Dev nD) :
    iprop((v3Loc d ↦{fullShare} T3 m d) ∗ (v4Loc d ↦{fullShare} I4 m d) ∗ (v5Loc d ↦{fullShare} m (v5Loc d)))
      ⊢ (bigSep Finset.univ fun c : Fin ((K (F := F)).nCore 0) => (P m).st 0 d c : sProp 𝕄) := by
  show _ ⊢ (bigSep (Finset.univ : Finset (Fin 2)) fun c => stC m d c)
  rw [show (Finset.univ : Finset (Fin 2)) = {0, 1} by decide, SparseCore.bigSep_insert' (by decide), bigSep_singleton,
    b_half, iCore_split, oCore_split]
  unfold stC
  iintro ⟨⟨Ha, Ha'⟩, ⟨Hb, Hb'⟩, ⟨Hc, Hc'⟩⟩
  isplitl [Ha Hb Hc]
  · isplitl [Ha]; · iexact Ha
    isplitl [Hb]; · iexact Hb
    iexact Hc
  · isplitl [Ha']; · iexact Ha'
    isplitl [Hb']; · iexact Hb'
    iexact Hc'

theorem b_dn0 (d : Dev nD) :
    (bigSep Finset.univ fun c : Fin ((K (F := F)).nCore 0) => (P m).dn 0 d c : sProp 𝕄)
      ⊢ iprop((v3Loc d ↦{fullShare} T3 m d) ∗ (v4Loc d ↦{fullShare} I4 m d) ∗ (v5Loc d ↦{fullShare} O5 m d)) := by
  show (bigSep (Finset.univ : Finset (Fin 2)) fun c => dnC m d c) ⊢ _
  rw [show (Finset.univ : Finset (Fin 2)) = {0, 1} by decide, SparseCore.bigSep_insert' (by decide), bigSep_singleton,
    b_half, iCore_split, oCore_split]
  unfold dnC
  iintro ⟨⟨Ha, Hb, Hc⟩, ⟨Ha', Hb', Hc'⟩⟩
  isplitl [Ha Ha']
  · isplitl [Ha]; · iexact Ha
    iexact Ha'
  isplitl [Hb Hb']
  · isplitl [Hb]; · iexact Hb
    iexact Hb'
  · isplitl [Hc]; · iexact Hc
    iexact Hc'

/-! ## The TensorCore's arrays -/

omit [FloatOps F] in
theorem b_unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (v0Loc d ↦{fullShare} W main_v0) ∗ (v1Loc d ↦{fullShare} W main_v1) ∗ (v2Loc d ↦{fullShare} W main_v2)
      ∗ (v3Loc d ↦{fullShare} W main_v3) ∗ (v4Loc d ↦{fullShare} W main_v4) ∗ (v5Loc d ↦{fullShare} W main_v5) ∗ (v6Loc d ↦{fullShare} W main_v6)) := by
  unfold unscopedBufs
  rw [show (Finset.univ.filter fun b : Ref sig .tc => ¬ b.isScoped) = {main_arg0, main_arg1, main_arg2, main_arg3, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-! ## @main on the TensorCore -/

set_option backward.isDefEq.respectTransparency.types false in
/-- @main on device `d`'s TensorCore: gamma and beta re-laid as rows; the pallas_call, leaving the normalised table
    written 64 times; that re-laid as the 256-row table and the indices as 32 slabs; the SparseCore call, each SparseCore
    handed its half share of the table, its slabs of the indices and of the result, and handing them back with the result
    slabs at the gathered rows; the result re-laid. The four arguments are never written. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes FIN
  rw [b_unscopedBufs_eq]
  simp only [main, wp_bind, wp_pure]
  iintro ⟨#Hctx, Hst, ⟨Hb, ⟨A0, A1, A2, A3, V0, V1, V2, V3, V4, V5, V6⟩, -, -⟩, HG⟩
  -- gamma as a row
  iapply (b_wp_reshape m 𝒱 none Set.univ d main_arg2 main_v0 _ _ _ _ (by decide) (m (a2Loc d)) (m (v0Loc d)) _ _)
  isplitl [Hb]; · iexact Hb
  isplitl [A2]; · iexact A2
  isplitl [V0]; · iexact V0
  iintro ⟨Hb, A2, V0⟩
  rw [wp_ret]; imodintro
  -- beta as a row
  iapply (b_wp_reshape m 𝒱 none Set.univ d main_arg3 main_v1 _ _ _ _ (by decide) (m (a3Loc d)) (m (v1Loc d)) _ _)
  isplitl [Hb]; · iexact Hb
  isplitl [A3]; · iexact A3
  isplitl [V1]; · iexact V1
  iintro ⟨Hb, A3, V1⟩
  rw [wp_ret]; imodintro
  -- the pallas_call
  iapply (b_region m κ d _)
  isplitr; · iexact Hctx
  isplitl [Hst]; · iexact Hst
  isplitl [Hb]; · iexact Hb
  isplitl [HG]; · iexact HG
  isplitl [A1]; · iexact A1
  isplitl [V0]; · iexact V0
  isplitl [V1]; · iexact V1
  isplitl [V2]; · iexact V2
  iintro ⟨Hst, Hb, A1, V0, V1, V2⟩
  -- the 256-row table
  iapply (b_wp_reshape m 𝒱 none Set.univ d main_v2 main_v3 _ _ _ _ (by decide) (T2 m d) (m (v3Loc d)) _ _)
  isplitl [Hb]; · iexact Hb
  isplitl [V2]; · iexact V2
  isplitl [V3]; · iexact V3
  iintro ⟨Hb, V2, V3⟩
  rw [wp_ret]; imodintro
  -- the indices in slabs
  iapply (b_wp_reshape m 𝒱 none Set.univ d main_arg0 main_v4 _ _ _ _ (by decide) (m (a0Loc d)) (m (v4Loc d)) _ _)
  isplitl [Hb]; · iexact Hb
  isplitl [A0]; · iexact A0
  isplitl [V4]; · iexact V4
  iintro ⟨Hb, A0, V4⟩
  rw [wp_ret]; imodintro
  -- the SparseCore call
  iapply ((K (F := F)).wp_run (D (F := F)) 𝒱 (EH := EH) (P := P m) κ d 0)
  isplitr; · iexact Hctx
  isplitl [Hst]; · iexact Hst
  isplitl [V3 V4 V5]
  · iapply (b_st0 m d)
    isplitl [V3]; · iexact V3
    isplitl [V4]; · iexact V4
    iexact V5
  iintro ⟨Hst, Hdn⟩
  ihave Hdn' := (b_dn0 m d) $$ Hdn
  icases Hdn' with ⟨V3, V4, V5⟩
  -- the result re-laid
  iapply (b_wp_reshape m 𝒱 none Set.univ d main_v5 main_v6 _ _ _ _ (by decide) (O5 m d) (m (v6Loc d)) _ _)
  isplitl [Hb]; · iexact Hb
  isplitl [V5]; · iexact V5
  isplitl [V6]; · iexact V6
  iintro ⟨Hb, V5, V6⟩
  rw [wp_ret]; imodintro; imodintro
  isplitl [Hst]; · iexact Hst
  isplitl [A0]; · iexact A0
  isplitl [A1]; · iexact A1
  isplitl [A2]; · iexact A2
  isplitl [A3]; · iexact A3
  iexact V6

/-! ## What the final assertion says of the final memory -/

theorem hfin (d : Dev nD) (s' : Phys nD τ sig (Elt F)) : iprop(FIN m d ∗ SI s') ⊢ (⌜fq m d s'⌝ : sProp 𝕄) := by
  unfold FIN
  iintro ⟨⟨H0, H1, H2, H3, H6⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (SI_pointsTo_agree (st := s') (ℓ := v6Loc d) (I := Finset.univ) (q := fullShare) (f := O6 m d)) $$ [HSI H6]
  · isplitl [HSI] <;> iassumption
  icases H with %h6
  ipureintro
  exact ⟨funext fun i => h6 i (Finset.mem_univ i), funext fun i => h0 i (Finset.mem_univ i), funext fun i => h1 i (Finset.mem_univ i),
    funext fun i => h2 i (Finset.mem_univ i), funext fun i => h3 i (Finset.mem_univ i)⟩

end Cert.KernelIdeal.Hand
end
-- ==== Proof.KernelW.Common.lean ====
/-
  What the launch of the program carries, stated once for both readings of its floats.

  The program: on the TensorCore, the four rows of the table are normalised (mean removed, scaled by the reciprocal root
  of the variance plus ε, then by gamma, shifted by beta) and written 64 times over, giving a 256-row table whose row
  `4ρ + x` is normalised row `x`; the 819200 index words are re-laid as 32 slabs of 200 × 128. Then the 32 vector
  subcores (2 SparseCores × 16) each take slab `2s + c`: subcore `s` copies rows `16s … 16s+15` of the 256-row table
  into its SparseCore's shared memory, all sixteen meet at the subcore barrier, and each then, 128 indices at a time,
  adds `4ρ(r)` to the index in lane `r` (ρ(r) = r mod 16 + 16·((r div 16) mod 4) < 64, so the sum still names a copy of
  the same normalised row), gathers those rows of the shared table into one of four row buffers and copies the buffer
  out to its 128 rows of the result.

  Resources: the 256-row table in HBM is read by both SparseCores (a half share each, then block `s` of it to subcore
  `s`); each subcore's slab of indices and its 25600 result rows are its own; the shared memory of a SparseCore starts
  as sixteen blocks, one per subcore, and after the barrier is held by every subcore at a sixteenth share — the barrier's
  units carry the blocks: subcore `i`'s unit in subcore `j`'s round hands over a sixteenth share of block `i`.
-/
import proofs.«214982_g87402584473731_cont_9to1c4b_667_31_alg».proof.Kernel
import proofs.«214982_g87402584473731_cont_9to1c4b_667_31_alg».proof.Proof.Gen.Kernel
import proofs.«214982_g87402584473731_cont_9to1c4b_667_31_alg».proof.Proof.Gen.Kernel.Skeleton
import proofs.«214982_g87402584473731_cont_9to1c4b_667_31_alg».proof.Proof.Gen.Kernel.Launch
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.ValueIdx
import Idealize.ShloMosaic.Lib.Tactic

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the TensorCore pipeline's staging cells', the transfers' counters -/

abbrev UH : Type := URounds (GSem nD τ sig) ℕ
abbrev UB : Type := URounds (GSem nD τ sig) ℕ
abbrev UR : Type := URounds (GSem nD τ sig) Unit
abbrev UU : Type := UH × (UB × (UR × Counters))

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × (UR × Counters))).trans (Emb.inr : Emb (UB × (UR × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore pipeline's staging cells' rounds library: the left half of the right factor of the right factor. -/
def ER : Emb UR (MT nD τ sig (HIx 1) (Elt F) ℕ UU ℕ) :=
  (((Emb.inl : Emb UR (UR × Counters)).trans (Emb.inr : Emb (UR × Counters) (UB × (UR × Counters)))).trans (Emb.inr : Emb (UB × (UR × Counters)) UU)).trans
    (uEmb (nD := nD) (sig := sig) (Ix := HIx 1) (Val := Elt F) (Name := ℕ) (U := UU) (Lvl := ℕ)).toEmb
instance ER_landsIn : (ER : Emb UR 𝕄).LandsIn (upEmb : UEmb _ 𝕄) := by unfold ER; infer_instance
/-- The transfers' counters are found in the last factor. -/
example : CountersIn UU := inferInstance

/-! ## Shares: a share halved `n` times, leaf by leaf -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- SparseCore `c`'s half of the full share. -/
abbrev halfS (c : Fin 2) : PosShare TreeShare := leaf 1 fullShare c
/-- Subcore `i`'s sixteenth of the full share. -/
abbrev sixS (i : Fin 16) : PosShare TreeShare := leaf 4 fullShare i

/-! ## The launch memory, the arrays and what they hold -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5
abbrev v6Loc (d : Dev nD) : Loc nD τ sig := (SparseCore.T d).loc main_v6

/-- SparseCore `c`'s shared memory, as every subcore of it addresses it. -/
abbrev shRef (c : Fin τ.nSC) : DevRef τ sig := ⟨.shared, ⟨0, by decide⟩, c⟩
abbrev shLoc (d : Dev nD) (c : Fin τ.nSC) : Loc nD τ sig := (d, shRef c)

abbrev tV : Memref sig .scVector .hbm S256x128 .f32 := Memref.whole main_v3_scv
abbrev iV : Memref sig .scVector .hbm S32x200x128 .i32 := Memref.whole main_v4_scv
abbrev oV : Memref sig .scVector .hbm S819200x128 .f32 := Memref.whole main_v5_scv
abbrev shV : Memref sig .scVector .shared S256x128 .f32 := Memref.whole cc1_scratch2
abbrev ixV : Memref sig .scVector .vmem S200x128 .i32 := Memref.whole cc1_scratch0
abbrev rwV : Memref sig .scVector .vmem S4x128x128 .f32 := Memref.whole cc1_scratch1

/-- The 16 blocks of 16 rows of the 256-row table, the 32 slabs of the indices, the 32 slabs of 25600 result rows. -/
theorem tdiv : 16 ∣ S256x128.size 0 := ⟨16, rfl⟩
theorem idiv : 32 ∣ S32x200x128.size 0 := ⟨1, rfl⟩
theorem odiv : 32 ∣ S819200x128.size 0 := ⟨25600, rfl⟩
abbrev tblk (i : Fin 16) : Rect S256x128 := Rect.part (s := S256x128) (a₀ := 0) tdiv i
abbrev islab (w : Fin 32) : Rect S32x200x128 := Rect.part (s := S32x200x128) (a₀ := 0) idiv w
abbrev oslab (w : Fin 32) : Rect S819200x128 := Rect.part (s := S819200x128) (a₀ := 0) odiv w
abbrev tblkSet (i : Fin 16) : Finset S256x128.Idx := ((tV).view.slice (tblk i)).set
abbrev islabSet (w : Fin 32) : Finset S32x200x128.Idx := ((iV).view.slice (islab w)).set
abbrev oslabSet (w : Fin 32) : Finset S819200x128.Idx := ((oV).view.slice (oslab w)).set

/-- The slab subcore `i` of SparseCore `c` works on: `2 i + c`. -/
def wid (c : Fin 2) (i : Fin 16) : Fin 32 := ⟨2 * i.val + c.val, by omega⟩
/-- A SparseCore's slabs together. -/
def coreISet (c : Fin 2) : Finset S32x200x128.Idx := Finset.univ.biUnion fun i : Fin 16 => islabSet (wid c i)
def coreOSet (c : Fin 2) : Finset S819200x128.Idx := Finset.univ.biUnion fun i : Fin 16 => oslabSet (wid c i)

/-- The lane offset: lane `r` of a 128-index row adds `4 ρ(r)`, ρ(r) < 64. -/
def rho (r : Fin 128) : ℕ := r.val % 16 + 16 * ((r.val / 16) % 4)
/-- The row of the 256-row table that index word `x` in lane `r` names after the offset. -/
def gRow (x : BitVec 32) (r : Fin 128) : Fin 256 := ⟨(x.toNat + 4 * rho r) % 256, Nat.mod_lt _ (by decide)⟩

variable [FloatOps F]

/-- gamma and beta as rows, the normalised table written 64 times, the 256-row table, the indices in slabs. -/
def gRowV (d : Dev nD) : Vec F S1x128 .f32 := shapeCast S1x128 (m (a2Loc d) : Vec F S128 .f32) shapeCasts_S128_S1x128
def bRowV (d : Dev nD) : Vec F S1x128 .f32 := shapeCast S1x128 (m (a3Loc d) : Vec F S128 .f32) shapeCasts_S128_S1x128
def T2 (d : Dev nD) : Vec F S64x4x128 .f32 := k0_pay1 (m (a1Loc d) : Vec F S4x128 .f32) (gRowV m d) (bRowV m d)
def T3 (d : Dev nD) : Vec F S256x128 .f32 := shapeCast S256x128 (T2 m d) shapeCasts_S64x4x128_S256x128
def I4 (d : Dev nD) : Vec F S32x200x128 .i32 := shapeCast S32x200x128 (m (a0Loc d) : Vec F S4096x200 .i32) shapeCasts_S4096x200_S32x200x128

theorem o_w (j : S819200x128.Idx) : (j 0).val / 25600 < 32 := by
  have h : (j 0).val < 819200 := (j 0).isLt
  omega
theorem o_j (j : S819200x128.Idx) : (j 0).val % 25600 / 128 < 200 := by omega
theorem o_r (j : S819200x128.Idx) : (j 0).val % 128 < 128 := by omega
theorem o_l (j : S819200x128.Idx) : (j 1).val < 128 := (j 1).isLt

/-- The result: row `n = 25600 w + 128 t + r` is the row of the 256-row table that index `(w, t, r)` names in lane `r`. -/
def O5 (d : Dev nD) : Vec F S819200x128 .f32 := fun j =>
  T3 m d (ix2 (n0 := 256) (n1 := 128)
    (gRow ((I4 m d (ix3 (n0 := 32) (n1 := 200) (n2 := 128) ⟨_, o_w j⟩ ⟨_, o_j j⟩ ⟨_, o_r j⟩) : BitVec 32)) ⟨_, o_r j⟩) ⟨_, o_l j⟩)
/-- and re-laid as 4096 × 200 rows. -/
def O6 (d : Dev nD) : Vec F S4096x200x128 .f32 := shapeCast S4096x200x128 (O5 m d) shapeCasts_S819200x128_S4096x200x128

/-! ## The barrier cells -/

/-- Subcore `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Block `n` of SparseCore `c`'s shared memory at the 256-row table, at share `q`. -/
abbrev shBlkPts (d : Dev nD) (c : Fin τ.nSC) (n : Fin 16) (q : PosShare TreeShare) : sProp 𝕄 := shLoc d c ↦[tblkSet n]{q} T3 m d

/-- What subcore `n`'s unit in subcore `j`'s round hands over: subcore `j`'s sixteenth of block `n`, holding the table's rows. -/
def bPay (g : GSem nD τ sig) (n : ℕ) : sProp 𝕄 :=
  match g with
  | ((d, .scVector c j), _) => if h : n < 16 then shBlkPts m d c ⟨n, h⟩ (sixS (Fin.cast nSub_eq j)) else iprop(emp)
  | _ => iprop(emp)

/-- The barrier cells' schedule: one round on each, of one unit duty per subcore of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has subcore `(c, i)` owe for the barrier: a unit on every subcore's cell of its SparseCore, at the call's index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Subcore `(c, i)`'s barrier kit: every subcore's cell invariant of its SparseCore and that each has reached round 0,
    its own position at the origin of round 0, its duty token in every subcore's round 0, and the credit for the sixteen
    units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

/-- The call's core number and subcore number as plain numbers below 2 and 16. -/
abbrev c2 (c : Fin ((K (F := F)).nCore 0)) : Fin 2 := Fin.cast nCore_zero c
abbrev i16 (i : Fin ((K (F := F)).nSub 0)) : Fin 16 := Fin.cast nSub_zero i

/-- What the TensorCore hands SparseCore `c` at the start: its half of the 256-row table, its slabs of the indices, its
    slabs of the result at whatever they hold; and what comes back: the same, the result slabs at the gathered rows. -/
def stC (d : Dev nD) (c : Fin 2) : sProp 𝕄 :=
  iprop((v3Loc d ↦{halfS c} T3 m d) ∗ (v4Loc d ↦[coreISet c]{fullShare} I4 m d) ∗ (v5Loc d ↦[coreOSet c]{fullShare} m (v5Loc d)))
def dnC (d : Dev nD) (c : Fin 2) : sProp 𝕄 :=
  iprop((v3Loc d ↦{halfS c} T3 m d) ∗ (v4Loc d ↦[coreISet c]{fullShare} I4 m d) ∗ (v5Loc d ↦[coreOSet c]{fullShare} O5 m d))
/-- What the sequencer hands subcore `i` at go: block `i` of the table (at the SparseCore's half), slab `2i + c` of the
    indices and of the result, and block `i` of the shared memory at whatever it holds; and what comes back at taskDone:
    the same, the result slab at the gathered rows, and a sixteenth of the whole shared memory, holding the table. -/
def goC (d : Dev nD) (c : Fin 2) (cc : Fin τ.nSC) (i : Fin 16) : sProp 𝕄 :=
  iprop((v3Loc d ↦[tblkSet i]{halfS c} T3 m d) ∗ (v4Loc d ↦[islabSet (wid c i)]{fullShare} I4 m d)
    ∗ (v5Loc d ↦[oslabSet (wid c i)]{fullShare} m (v5Loc d)) ∗ ∃ f, shLoc d cc ↦[tblkSet i]{fullShare} f)
def tdC (d : Dev nD) (c : Fin 2) (cc : Fin τ.nSC) (i : Fin 16) : sProp 𝕄 :=
  iprop((v3Loc d ↦[tblkSet i]{halfS c} T3 m d) ∗ (v4Loc d ↦[islabSet (wid c i)]{fullShare} I4 m d)
    ∗ (v5Loc d ↦[oslabSet (wid c i)]{fullShare} O5 m d) ∗ (shLoc d cc ↦{sixS i} T3 m d))

def P : (K (F := F)).Pay (nD := nD) (Val := Elt F) (Name := ℕ) (U := UU) where
  st := fun q d c => match q with | 0 => stC m d (c2 c)
  dn := fun q d c => match q with | 0 => dnC m d (c2 c)
  go := fun q d c i => match q with | 0 => goC m d (c2 c) (coreOf c) (i16 i)
  td := fun q d c i => match q with | 0 => tdC m d (c2 c) (coreOf c) (i16 i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => (by unfold P stC; infer_instance)
  dn q d c := match q with
    | 0 => (by unfold P dnC; infer_instance)
  go q d c i := match q with
    | 0 => (by unfold P goC; infer_instance)
  td q d c i := match q with
    | 0 => (by unfold P tdC; infer_instance)

/-! ## What @main starts from, and what it leaves the claim -/

/-- What @main's proof starts from beyond what the launch deals every TensorCore: the pipeline's staging cells' ghost
    state and its duty tokens. -/
def G (d : Dev nD) : sProp 𝕄 :=
  iprop((bigSep Finset.univ fun p : Fin 1 => Pipeline.cellsGhost cfgs (ER (F := F)) p d)
    ∗ bigSep Finset.univ fun p : Fin 1 => Pipeline.toksInit cfgs (ER (F := F)) p d)

/-- What @main leaves: the four arguments as they were, the result at the gathered rows re-laid. -/
def FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ (v6Loc d ↦{fullShare} O6 m d))

def fq (d : Dev nD) (s' : Phys nD τ sig (Elt F)) : Prop :=
  s'.mem.mem (v6Loc d) = O6 m d ∧ s'.mem.mem (a0Loc d) = m (a0Loc d) ∧ s'.mem.mem (a1Loc d) = m (a1Loc d)
    ∧ s'.mem.mem (a2Loc d) = m (a2Loc d) ∧ s'.mem.mem (a3Loc d) = m (a3Loc d)

def QC : PUnit × MemSt nD τ sig (Elt F) → Prop := fun r => ∀ c : Dev nD,
  r.2.mem (v6Loc c) = O6 m c ∧ r.2.mem (a0Loc c) = m (a0Loc c) ∧ r.2.mem (a1Loc c) = m (a1Loc c)
    ∧ r.2.mem (a2Loc c) = m (a2Loc c) ∧ r.2.mem (a3Loc c) = m (a3Loc c)

end Cert.Kernel.Hand

end
-- ==== Proof.KernelW.TileSpec.lean ====
/-
  The statement of one vector subcore's task, fixed apart from its proof so that the launch can be assembled against it:
  from what the sequencer hands subcore `(c, s)` at go (block `s` of the 256-row table, slab `2s + c` of the indices and
  of the result, block `s` of the shared memory), its barrier kit and its own scoped storage, the task runs to what it
  hands back at taskDone (the result slab at the gathered rows, a sixteenth of the whole shared table).
-/
import proofs.«214982_g87402584473731_cont_9to1c4b_667_31_alg».proof.Proof.KernelW.Common

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- Every index word of the launch memory is one of 0, 1, 2, 3. -/
def PreOK : Prop := ∀ (d : Dev nD) (j : S4096x200.Idx), ((m (a0Loc d) : Vec F S4096x200 .i32) j : BitVec 32).toNat < 4

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev cL (L : grid1.Coords) : Fin 2 := Fin.cast bound_zero (L 0)
abbrev jL (L : grid1.Coords) : Fin 16 := Fin.cast bound_one (L 1)

/-- The task's run, as a proposition. -/
def TileBodySpec : Prop :=
  ∀ (d : Dev nD) (L : grid1.Coords) (_ : (K (F := F)).Facts) (O : CellTallies nD τ sig (HIx 1)) (W : Waits sig (HIx 1)) (_ : ∀ g, O g none = 0)
    (_ : ∀ g ι, 0 < O g ι → 8 * (0 : Fin 1).val + 6 ≤ (K (F := F)).lev g ι),
    iprop(levAts (K (F := F)).L (K (F := F)).lev ∗ bkit m d (cV L) (jV L)
        ∗ goC m d (cL L) (cV L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__gather_body L iV (Memref.isWhole_whole _) tV (Memref.isWhole_whole _) oV (Memref.isWhole_whole _)
            ixV (Memref.isWhole_whole _) rwV (Memref.isWhole_whole _) shV (Memref.isWhole_whole _)
            cc1_scratch3 cc1_scratch4 cc1_scratch5 cc1_scoped0 cc1_scoped1)
          fun _ => iprop(tdC m d (cL L) (cV L) (jL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

end Cert.Kernel.Hand

end
-- ==== Proof.KernelW.Sets.lean ====
/-
  How the arrays split among the subcores.

  The 256-row table falls into 16 blocks of 16 rows; the index array into 32 slabs (one per subcore of the two
  SparseCores) and the result into 32 slabs of 25600 rows. Each family is pairwise disjoint and covers its array.
  Subcore `i` of SparseCore `c` takes slab `2 i + c`: the pairs `(c, i)` and the slab numbers correspond one to one,
  so the slabs of SparseCore 0 and those of SparseCore 1 are disjoint and together are everything. A points-to
  assertion over an array therefore splits into the two SparseCores' parts, each of those into its sixteen subcores'
  slabs; one over a 256-row table into its sixteen blocks; and a share halved `n` times into its `2 ^ n` leaves.
-/
import proofs.«214982_g87402584473731_cont_9to1c4b_667_31_alg».proof.Proof.KernelW.Common

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The three families of parts -/

theorem tblkSet_eq (i : Fin 16) : tblkSet i = (tblk i).set := by
  show ((View.whole (main_v3_scv : Ref sig .scVector)).slice (tblk i)).set = _
  rw [View.set_slice]; exact Finset.map_refl
theorem islabSet_eq (w : Fin 32) : islabSet w = (islab w).set := by
  show ((View.whole (main_v4_scv : Ref sig .scVector)).slice (islab w)).set = _
  rw [View.set_slice]; exact Finset.map_refl
theorem oslabSet_eq (w : Fin 32) : oslabSet w = (oslab w).set := by
  show ((View.whole (main_v5_scv : Ref sig .scVector)).slice (oslab w)).set = _
  rw [View.set_slice]; exact Finset.map_refl

theorem c_tblk_disjoint : ∀ i ∈ (Finset.univ : Finset (Fin 16)), ∀ j ∈ (Finset.univ : Finset (Fin 16)), i ≠ j → Disjoint (tblkSet i) (tblkSet j) :=
  fun i _ j _ h => by rw [tblkSet_eq, tblkSet_eq]; exact Rect.part_disjoint tdiv h
theorem c_islab_disjoint : ∀ i ∈ (Finset.univ : Finset (Fin 32)), ∀ j ∈ (Finset.univ : Finset (Fin 32)), i ≠ j → Disjoint (islabSet i) (islabSet j) :=
  fun i _ j _ h => by rw [islabSet_eq, islabSet_eq]; exact Rect.part_disjoint idiv h
theorem c_oslab_disjoint : ∀ i ∈ (Finset.univ : Finset (Fin 32)), ∀ j ∈ (Finset.univ : Finset (Fin 32)), i ≠ j → Disjoint (oslabSet i) (oslabSet j) :=
  fun i _ j _ h => by rw [oslabSet_eq, oslabSet_eq]; exact Rect.part_disjoint odiv h

theorem c_tblk_cover : (Finset.univ : Finset (Fin 16)).biUnion tblkSet = Finset.univ :=
  (Finset.biUnion_congr rfl fun i _ => tblkSet_eq i).trans (Rect.biUnion_part tdiv)
theorem c_islab_cover : (Finset.univ : Finset (Fin 32)).biUnion islabSet = Finset.univ :=
  (Finset.biUnion_congr rfl fun i _ => islabSet_eq i).trans (Rect.biUnion_part idiv)
theorem c_oslab_cover : (Finset.univ : Finset (Fin 32)).biUnion oslabSet = Finset.univ :=
  (Finset.biUnion_congr rfl fun i _ => oslabSet_eq i).trans (Rect.biUnion_part odiv)

/-! ## Which slab a subcore takes -/

theorem c_wid_val (c : Fin 2) (i : Fin 16) : (wid c i).val = 2 * i.val + c.val := rfl

theorem c_wid_inj : Function.Injective (fun p : Fin 2 × Fin 16 => wid p.1 p.2) := by
  rintro ⟨c, i⟩ ⟨c', i'⟩ h
  have h' : 2 * i.val + c.val = 2 * i'.val + c'.val := congrArg Fin.val h
  have hc : c.val = c'.val := by omega
  have hi : i.val = i'.val := by omega
  exact Prod.ext (Fin.ext hc) (Fin.ext hi)

theorem c_wid_ne {c c' : Fin 2} {i i' : Fin 16} (h : c ≠ c' ∨ i ≠ i') : wid c i ≠ wid c' i' := by
  intro e
  have := c_wid_inj (a₁ := (c, i)) (a₂ := (c', i')) e
  rcases h with h | h
  · exact h (congrArg Prod.fst this)
  · exact h (congrArg Prod.snd this)

/-- Slab `w` is subcore `w / 2`'s of SparseCore `w % 2`. -/
theorem c_wid_surj (w : Fin 32) : wid ⟨w.val % 2, Nat.mod_lt _ (by decide)⟩ ⟨w.val / 2, by omega⟩ = w :=
  Fin.ext (by show 2 * (w.val / 2) + w.val % 2 = w.val; omega)

/-- One SparseCore's slabs are pairwise disjoint. -/
theorem c_coreI_slabs_disjoint (c : Fin 2) :
    ∀ i ∈ (Finset.univ : Finset (Fin 16)), ∀ j ∈ (Finset.univ : Finset (Fin 16)), i ≠ j → Disjoint (islabSet (wid c i)) (islabSet (wid c j)) :=
  fun i _ j _ h => c_islab_disjoint _ (Finset.mem_univ _) _ (Finset.mem_univ _) (c_wid_ne (Or.inr h))
theorem c_coreO_slabs_disjoint (c : Fin 2) :
    ∀ i ∈ (Finset.univ : Finset (Fin 16)), ∀ j ∈ (Finset.univ : Finset (Fin 16)), i ≠ j → Disjoint (oslabSet (wid c i)) (oslabSet (wid c j)) :=
  fun i _ j _ h => c_oslab_disjoint _ (Finset.mem_univ _) _ (Finset.mem_univ _) (c_wid_ne (Or.inr h))

/-- The two SparseCores' slabs are disjoint and together are the whole array. -/
theorem c_coreI_disjoint : Disjoint (coreISet 0) (coreISet 1) := by
  unfold coreISet
  rw [Finset.disjoint_biUnion_left]; intro i _
  rw [Finset.disjoint_biUnion_right]; intro j _
  exact c_islab_disjoint _ (Finset.mem_univ _) _ (Finset.mem_univ _) (c_wid_ne (Or.inl (by decide)))
theorem c_coreO_disjoint : Disjoint (coreOSet 0) (coreOSet 1) := by
  unfold coreOSet
  rw [Finset.disjoint_biUnion_left]; intro i _
  rw [Finset.disjoint_biUnion_right]; intro j _
  exact c_oslab_disjoint _ (Finset.mem_univ _) _ (Finset.mem_univ _) (c_wid_ne (Or.inl (by decide)))

theorem c_coreI_union : coreISet 0 ∪ coreISet 1 = Finset.univ := by
  refine Finset.eq_univ_of_forall fun x => ?_
  have hx : x ∈ (Finset.univ : Finset (Fin 32)).biUnion islabSet := by rw [c_islab_cover]; exact Finset.mem_univ x
  obtain ⟨w, -, hw⟩ := Finset.mem_biUnion.mp hx
  rw [← c_wid_surj w] at hw
  have hc : ∀ c : Fin 2, x ∈ islabSet (wid c ⟨w.val / 2, by omega⟩) → x ∈ coreISet c := fun c h =>
    Finset.mem_biUnion.mpr ⟨_, Finset.mem_univ _, h⟩
  rcases Nat.mod_two_eq_zero_or_one w.val with e | e
  · exact Finset.mem_union_left _ (hc 0 (by convert hw using 3; exact Fin.ext e.symm))
  · exact Finset.mem_union_right _ (hc 1 (by convert hw using 3; exact Fin.ext e.symm))
theorem c_coreO_union : coreOSet 0 ∪ coreOSet 1 = Finset.univ := by
  refine Finset.eq_univ_of_forall fun x => ?_
  have hx : x ∈ (Finset.univ : Finset (Fin 32)).biUnion oslabSet := by rw [c_oslab_cover]; exact Finset.mem_univ x
  obtain ⟨w, -, hw⟩ := Finset.mem_biUnion.mp hx
  rw [← c_wid_surj w] at hw
  have hc : ∀ c : Fin 2, x ∈ oslabSet (wid c ⟨w.val / 2, by omega⟩) → x ∈ coreOSet c := fun c h =>
    Finset.mem_biUnion.mpr ⟨_, Finset.mem_univ _, h⟩
  rcases Nat.mod_two_eq_zero_or_one w.val with e | e
  · exact Finset.mem_union_left _ (hc 0 (by convert hw using 3; exact Fin.ext e.symm))
  · exact Finset.mem_union_right _ (hc 1 (by convert hw using 3; exact Fin.ext e.symm))

/-! ## The points-to forms -/

variable (m : (ℓ : Loc nD τ sig) → Buf (Elt F) ℓ) (ρ : Dev nD → PrngReg)

/-- The index array: the two SparseCores' parts. -/
theorem iCore_split (d : Dev nD) (f : Buf (Elt F) (v4Loc d)) :
    (v4Loc d ↦{fullShare} f : sProp 𝕄) = iprop((v4Loc d ↦[coreISet 0]{fullShare} f) ∗ (v4Loc d ↦[coreISet 1]{fullShare} f)) := by
  have h : (v4Loc d ↦[coreISet 0 ∪ coreISet 1]{fullShare} f : sProp 𝕄)
      ⊣⊢ iprop((v4Loc d ↦[coreISet 0]{fullShare} f) ∗ (v4Loc d ↦[coreISet 1]{fullShare} f)) := pointsTo_union c_coreI_disjoint
  rw [c_coreI_union] at h
  exact BI.Entails.antisymm h.1 h.2
/-- The result array: the two SparseCores' parts. -/
theorem oCore_split (d : Dev nD) (f : Buf (Elt F) (v5Loc d)) :
    (v5Loc d ↦{fullShare} f : sProp 𝕄) = iprop((v5Loc d ↦[coreOSet 0]{fullShare} f) ∗ (v5Loc d ↦[coreOSet 1]{fullShare} f)) := by
  have h : (v5Loc d ↦[coreOSet 0 ∪ coreOSet 1]{fullShare} f : sProp 𝕄)
      ⊣⊢ iprop((v5Loc d ↦[coreOSet 0]{fullShare} f) ∗ (v5Loc d ↦[coreOSet 1]{fullShare} f)) := pointsTo_union c_coreO_disjoint
  rw [c_coreO_union] at h
  exact BI.Entails.antisymm h.1 h.2

/-- A SparseCore's part of the index array: its sixteen subcores' slabs. -/
theorem iSlabs_split (d : Dev nD) (c : Fin 2) (f : Buf (Elt F) (v4Loc d)) :
    (v4Loc d ↦[coreISet c]{fullShare} f : sProp 𝕄) = bigSep Finset.univ fun i : Fin 16 => v4Loc d ↦[islabSet (wid c i)]{fullShare} f := by
  unfold coreISet
  exact pointsTo_biUnion Finset.univ (ℓ := v4Loc d) (fun i : Fin 16 => islabSet (wid c i)) (c_coreI_slabs_disjoint c)
/-- A SparseCore's part of the result array: its sixteen subcores' slabs. -/
theorem oSlabs_split (d : Dev nD) (c : Fin 2) (f : Buf (Elt F) (v5Loc d)) :
    (v5Loc d ↦[coreOSet c]{fullShare} f : sProp 𝕄) = bigSep Finset.univ fun i : Fin 16 => v5Loc d ↦[oslabSet (wid c i)]{fullShare} f := by
  unfold coreOSet
  exact pointsTo_biUnion Finset.univ (ℓ := v5Loc d) (fun i : Fin 16 => oslabSet (wid c i)) (c_coreO_slabs_disjoint c)

/-- The 256-row table in HBM, at any share: its sixteen blocks. -/
theorem tBlks_split (d : Dev nD) (q : PosShare TreeShare) (f : Buf (Elt F) (v3Loc d)) :
    (v3Loc d ↦{q} f : sProp 𝕄) = bigSep Finset.univ fun i : Fin 16 => v3Loc d ↦[tblkSet i]{q} f := by
  rw [← pointsTo_biUnion Finset.univ (ℓ := v3Loc d) tblkSet c_tblk_disjoint, c_tblk_cover]; try rfl
/-- A SparseCore's shared memory, at any share: its sixteen blocks. -/
theorem shBlks_split (d : Dev nD) (c : Fin τ.nSC) (q : PosShare TreeShare) (f : Buf (Elt F) (shLoc d c)) :
    (shLoc d c ↦{q} f : sProp 𝕄) = bigSep Finset.univ fun i : Fin 16 => shLoc d c ↦[tblkSet i]{q} f := by
  rw [← pointsTo_biUnion Finset.univ (ℓ := shLoc d c) tblkSet c_tblk_disjoint, c_tblk_cover]; try rfl

/-! ## A share and its leaves -/

/-- The two halves of the leaves of depth `n + 1`. -/
def c_sumEquiv (n : ℕ) : Fin (2 ^ n) ⊕ Fin (2 ^ n) ≃ Fin (2 ^ (n + 1)) := finSumFinEquiv.trans (finCongr (by omega))

theorem c_sumEquiv_inl (n : ℕ) (i : Fin (2 ^ n)) : (c_sumEquiv n (Sum.inl i)).val = i.val := by simp [c_sumEquiv]
theorem c_sumEquiv_inr (n : ℕ) (i : Fin (2 ^ n)) : (c_sumEquiv n (Sum.inr i)).val = 2 ^ n + i.val := by simp [c_sumEquiv]; omega

theorem c_leaf_inl (n : ℕ) (q : PosShare TreeShare) (i : Fin (2 ^ n)) : leaf (n + 1) q (c_sumEquiv n (Sum.inl i)) = leaf n q.left i := by
  have h : (c_sumEquiv n (Sum.inl i)).val < 2 ^ n := by rw [c_sumEquiv_inl]; exact i.isLt
  have e : (⟨(c_sumEquiv n (Sum.inl i)).val, h⟩ : Fin (2 ^ n)) = i := Fin.ext (c_sumEquiv_inl n i)
  rw [leaf, dif_pos h, e]
theorem c_leaf_inr (n : ℕ) (q : PosShare TreeShare) (i : Fin (2 ^ n)) : leaf (n + 1) q (c_sumEquiv n (Sum.inr i)) = leaf n q.right i := by
  have h : ¬(c_sumEquiv n (Sum.inr i)).val < 2 ^ n := by rw [c_sumEquiv_inr]; omega
  have e : (⟨(c_sumEquiv n (Sum.inr i)).val - 2 ^ n, by have := (c_sumEquiv n (Sum.inr i)).isLt; omega⟩ : Fin (2 ^ n)) = i :=
    Fin.ext (by simp only [c_sumEquiv_inr]; omega)
  rw [leaf, dif_neg h, e]

/-- A points-to at a share is its leaves' at once. -/
theorem leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      leaves I f n q.left, leaves I f n q.right,
      bigSep_univ_equiv (c_sumEquiv n) (fun i : Fin (2 ^ (n + 1)) => (ℓ ↦[I]{leaf (n + 1) q i} f : sProp 𝕄)), bigSep_univ_sum]
    congr 1 <;> refine bigSep_congr fun i _ => ?_
    · rw [c_leaf_inl]
    · rw [c_leaf_inr]

end Cert.Kernel.Hand

end
-- ==== Proof.KernelW.Split.lean ====
/-
  How a SparseCore's operands split among its sixteen subcores, and how the results gather.

  Going in, the sequencer holds the SparseCore's half share of the 256-row table, its sixteen slabs of the indices and
  of the result, and, among its own buffers, the SparseCore's shared memory whole at some contents. The table's half
  share falls into its sixteen blocks, one per subcore; the slabs go to their subcores; the shared memory falls into
  sixteen blocks, block `i` for subcore `i` to fill. Coming back, each subcore returns its block of the table and its
  slabs, the result slab now at the gathered rows, and a sixteenth share of the whole shared memory at the table's
  rows: the blocks and slabs join again, and the sixteen sixteenths are the full share of the shared memory, which goes
  back among the sequencer's buffers.
-/
import proofs.«214982_g87402584473731_cont_9to1c4b_667_31_alg».proof.Proof.KernelW.Common
import proofs.«214982_g87402584473731_cont_9to1c4b_667_31_alg».proof.Proof.KernelW.Sets

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

omit [FloatOps F] in
/-- A family over the call's subcores is one over sixteen. -/
theorem c_bigSep_tasks (Φ : Fin 16 → sProp 𝕄) :
    (bigSep Finset.univ fun i : Fin ((K (F := F)).nSub 0) => Φ (i16 i)) = bigSep Finset.univ Φ :=
  bigSep_congr fun _ _ => congrArg Φ (Fin.ext rfl)

omit [FloatOps F] in
/-- The shared memory is among the sequencer's own buffers: it is it, at some contents, and the rest. -/
theorem c_ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
/-- The shared memory whole is its sixteen blocks, each at some contents. -/
theorem c_sh_blocks (d : Dev nD) (c : Fin τ.nSC) (f : Buf (Elt F) (shLoc d c)) :
    (shLoc d c ↦{fullShare} f : sProp 𝕄) ⊢ bigSep Finset.univ fun i : Fin 16 => iprop(∃ f, shLoc d c ↦[tblkSet i]{fullShare} f) := by
  rw [shBlks_split d c fullShare f]
  exact bigSep_mono fun i _ => BI.BIClass.exists_intro (Φ := fun g : Buf (Elt F) (shLoc d c) => (shLoc d c ↦[tblkSet i]{fullShare} g : sProp 𝕄)) f

/-- The sixteen sixteenths of the shared memory, at the table's rows, are it whole. -/
theorem c_sh_join (d : Dev nD) (c : Fin τ.nSC) :
    (bigSep Finset.univ fun i : Fin 16 => shLoc d c ↦{sixS i} T3 m d) ⊢ (shLoc d c ↦{fullShare} T3 m d : sProp 𝕄) :=
  Entails.of_eq (leaves (ℓ := shLoc d c) Finset.univ (T3 m d) 4 fullShare).symm

theorem vecSplit : (K (F := F)).VecSplit (P m) 0 := by
  intro d c
  show iprop(stC m d (c2 c) ∗ ownBufs (S d (coreOf c))) ⊢ |={Set.univ}=> iprop(
      (bigSep Finset.univ fun i : Fin ((K (F := F)).nSub 0) => goC m d (c2 c) (coreOf c) (i16 i))
      ∗ ((bigSep Finset.univ fun i : Fin ((K (F := F)).nSub 0) => tdC m d (c2 c) (coreOf c) (i16 i))
          -∗ iprop(dnC m d (c2 c) ∗ ownBufs (S d (coreOf c)))))
  rw [c_bigSep_tasks (F := F) (fun i => goC m d (c2 c) (coreOf c) i), c_bigSep_tasks (F := F) (fun i => tdC m d (c2 c) (coreOf c) i)]
  generalize c2 c = c'
  generalize coreOf c = cc
  unfold stC goC tdC dnC
  rw [bigSep_sep', bigSep_sep', bigSep_sep', bigSep_sep', bigSep_sep', bigSep_sep', c_ownBufs_S,
    tBlks_split d (halfS c') (T3 m d), iSlabs_split d c' (I4 m d), oSlabs_split d c' (m (v5Loc d)), oSlabs_split d c' (O5 m d)]
  iintro ⟨⟨Ht, Hi, Ho⟩, ⟨%fsh, Hsh⟩, Hrest⟩; imodintro
  isplitl [Ht Hi Ho Hsh]
  · isplitl [Ht]; · iexact Ht
    isplitl [Hi]; · iexact Hi
    isplitl [Ho]; · iexact Ho
    iapply (c_sh_blocks d cc fsh); iexact Hsh
  iintro ⟨Ht, Hi, Ho, Hsh⟩
  isplitl [Ht Hi Ho]
  · isplitl [Ht]; · iexact Ht
    isplitl [Hi]; · iexact Hi
    iexact Ho
  isplitl [Hsh]
  · iexists (T3 m d); iapply (c_sh_join m d cc); iexact Hsh
  iexact Hrest

end Cert.Kernel.Hand

end
-- ==== Proof.KernelW.LaunchElem.lean ====
/-
  The launch element of the ghost state.

  The ghost state is a product of three rounds libraries (the handshakes', the barrier cells', the TensorCore
  pipeline's staging cells') and the transfers' counters. At the launch its element is the three libraries' initial
  elements; it splits into the three. The barrier cells' library funds, for every subcore's barrier cell of every
  SparseCore, the round state at counter zero, that round 0 is reached, the owner's position at the origin and, for
  every pair of subcores of a SparseCore, the one's duty token in the other's round 0. The barrier semaphores, free
  at the launch, read zero: with the round states they allocate every cell's invariant. The credit for the units the
  subcores owe regroups, per barrier cell, as the sixteen units of its round. Each subcore is then dealt its kit. The
  staging cells' library funds what the TensorCore's proof starts from.
-/
import proofs.«214982_g87402584473731_cont_9to1c4b_667_31_alg».proof.Proof.KernelW.Common

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The barrier cells and their launch tokens -/

abbrev c_DCI : Type := Dev nD × Fin τ.nSC × Fin τ.nSub
abbrev c_bcell₃ (x : c_DCI) : GSem nD τ sig := bcell x.1 x.2.1 x.2.2

/-- Every subcore's barrier cell. -/
def bCells : Finset (GSem nD τ sig) := Finset.univ.image c_bcell₃
/-- Subcore `i`'s token in subcore `j`'s cell, for every pair of subcores of a SparseCore. -/
def bToks : Finset (GSem nD τ sig × ℕ × ℕ) :=
  Finset.univ.image fun x : c_DCI × Fin (grid1.bound 1) => (bcell x.1.1 x.1.2.1 (x.2.castLE hsub1), 0, x.1.2.2.val)

/-- The launch element: the three libraries' initial elements, the counters' unit. -/
def u₀ : UU :=
  (initOf (K (F := F)).hsCells (K (F := F)).hsToks,
    (initOf bCells bToks, (initOf (Pipeline.cells cfgs Gen.cellOf_inj) (Pipeline.launchToks cfgs Gen.cellOf_inj), 1)))

omit [FloatOps F] in
theorem c_bcell₃_injective : Function.Injective (c_bcell₃ : c_DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The element is its three libraries' parts. -/
theorem c_ownU_split (a : UH) (b : UB) (r : UR) :
    (ownU ((a, (b, (r, 1))) : UU) : sProp 𝕄) ⊢ iprop(BI.own (EH a) ∗ BI.own (EB b) ∗ BI.own (ER r)) := by
  have h1 : (ownU ((a, (b, (r, 1))) : UU) : sProp 𝕄) ⊢ iprop(BI.own (EH a)
      ∗ BI.own ((uEmb (nD := nD) (sig := sig) (Ix := HIx 1) (Val := Elt F) (Name := ℕ) (U := UU) (Lvl := ℕ)).toEmb ((1, (b, (r, 1))) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, ((r, 1) : UR × Counters)))))
  have h2 : (BI.own ((uEmb (nD := nD) (sig := sig) (Ix := HIx 1) (Val := Elt F) (Name := ℕ) (U := UU) (Lvl := ℕ)).toEmb ((1, (b, (r, 1))) : UU)) : sProp 𝕄)
      ⊢ iprop(BI.own (EB b) ∗ BI.own (ER r)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op ((r, 1) : UR × Counters)))))
  iintro H
  ihave H' := h1 $$ H
  icases H' with ⟨HH, HX⟩
  isplitl [HH]; · iexact HH
  iapply h2; iexact HX

/-- Every barrier semaphore at zero, out of the free semaphores the launch hands over. -/
theorem c_sems_b : ((K (F := F)).freeSems0 : sProp 𝕄) ⊢ bigSep bCells fun g => semVal g 0 := by
  unfold SparseCore.Cfg.freeSems0 bCells
  rw [SparseCore.bigSep_image_of_injOn (fun a _ b _ e => c_bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem c_invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
/-- `n` single units on one cell at one index are `n` units there. -/
theorem c_sum_tallyAt_one (g : GSem nD τ sig) (ι : HIx 1) : ∀ n : ℕ, ∑ _j : Fin n, tallyAt g ι 1 = (tallyAt g ι n : CellTallies nD τ sig (HIx 1))
  | 0 => by rw [Finset.univ_eq_empty, Finset.sum_empty, tallyAt_zero]
  | n + 1 => by rw [Fin.sum_univ_castSucc, c_sum_tallyAt_one g ι n, tallyAt_add]

/-- What a subcore owes from the launch on: a unit on every subcore's cell of its SparseCore. -/
theorem c_oxFrom_V (d : Dev nD) (c : Fin τ.nSC) (i : Fin τ.nSub) : (P (F := F) m).oxFrom 0 (V d c i) = oxV d c := by
  rw [show (0 : ℕ) = (0 : Fin 1).val from rfl, (P m).oxFrom_step, (P m).oxFrom_end _ (n := (0 : Fin 1).val + 1) le_rfl, add_zero]; rfl

/-- The credit for the subcores' debts, regrouped: each subcore the sixteen units of its own cell. -/
theorem c_creds_b : ((P (F := F) m).oxCred : sProp 𝕄)
    ⊢ bigSep Finset.univ fun dci : c_DCI => cred (tallyAt (c_bcell₃ dci) (some 0) (grid1.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : c_DCI => (cred (tallyAt (c_bcell₃ dci) (some 0) (grid1.bound 1)) : sProp 𝕄))]
  refine bigSep_mono fun d _ => ?_
  rw [bigSep_univ_prod, bigSep_univ_prod (fun ci : Fin τ.nSC × Fin τ.nSub => (cred (tallyAt (c_bcell₃ (d, ci)) (some 0) (grid1.bound 1)) : sProp 𝕄))]
  refine bigSep_mono fun c _ => ?_
  dsimp only
  simp only [c_oxFrom_V]
  unfold oxV
  rw [SparseCore.Cfg.cred_finsum, bigSep_univ_comm]
  refine bigSep_mono fun j _ => ?_
  rw [← SparseCore.Cfg.cred_finsum, c_sum_tallyAt_one]; rfl

omit [FloatOps F] in
/-- A persistent resource beside a big separating conjunction goes to each conjunct. -/
theorem c_bigSep_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem c_toks_eq : (bigSep bToks fun x => (dutyTok EB x.1 x.2.1 x.2.2 : sProp 𝕄))
    = bigSep Finset.univ fun dci : c_DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem c_Px_T (d : Dev nD) : (bigSep Finset.univ fun q : Fin 1 => (P (F := F) m).x q (SparseCore.T d)) = iprop(emp) :=
  bigSep_univ_of_subsingleton (0 : Fin 1)
theorem c_Px_S (d : Dev nD) (c : Fin τ.nSC) : (bigSep Finset.univ fun q : Fin 1 => (P (F := F) m).x q (S d c)) = iprop(emp) :=
  bigSep_univ_of_subsingleton (0 : Fin 1)
theorem c_Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem c_bCells_eq (Φ : GSem nD τ sig → sProp 𝕄) : bigSep bCells Φ = bigSep Finset.univ fun x : c_DCI => Φ (c_bcell₃ x) := by
  unfold bCells; exact SparseCore.bigSep_image_of_injOn (fun a _ b _ e => c_bcell₃_injective e) Φ

/-- What every subcore is handed alike: every barrier cell's invariant, and that each has reached round 0. -/
abbrev c_shared : sProp 𝕄 :=
  iprop((∃ κ : GSem nD τ sig → ℕ, bigSep Finset.univ fun x : c_DCI => cellInv EB (bRd (F := F) m) (κ (c_bcell₃ x)) (c_bcell₃ x))
    ∗ bigSep Finset.univ fun x : c_DCI => reached EB (c_bcell₃ x) 0)
/-- What each subcore is handed of its own: its position, its tokens, its credit. -/
abbrev c_mine (dci : c_DCI) : sProp 𝕄 :=
  iprop(atPos EB (c_bcell₃ dci) 0 ∅ 0
    ∗ (bigSep Finset.univ fun j : Fin (grid1.bound 1) => dutyTok EB (bcell dci.1 dci.2.1 (j.castLE hsub1)) 0 dci.2.2.val)
    ∗ cred (tallyAt (c_bcell₃ dci) (some 0) (grid1.bound 1)))

/-- One subcore's kit out of those. -/
theorem c_kit_intro (dci : c_DCI) : iprop(c_shared (F := F) m ∗ c_mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (c_bigSep_frame (s := (Finset.univ : Finset (Fin (grid1.bound 1)))) (Φ := fun _ => iprop(emp))
      (R := bigSep Finset.univ fun x : c_DCI => cellInv EB (bRd (F := F) m) (κ (c_bcell₃ x)) (c_bcell₃ x)) fun j _ =>
        sep_elim_left.trans (bigSep_elim (Φ := fun x : c_DCI => (cellInv EB (bRd (F := F) m) (κ (c_bcell₃ x)) (c_bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (c_bigSep_frame (s := (Finset.univ : Finset (Fin (grid1.bound 1)))) (Φ := fun _ => iprop(emp))
      (R := bigSep Finset.univ fun x : c_DCI => reached EB (c_bcell₃ x) 0) fun j _ =>
        sep_elim_left.trans (bigSep_elim (Φ := fun x : c_DCI => (reached EB (c_bcell₃ x) 0 : sProp 𝕄))
          (i := (d, c, Fin.castLE hsub1 j)) (Finset.mem_univ _))))
    isplitl; · iexact Hr
    rw [bigSep_emp']; iempintro
  isplitl [Hat]; · iexact Hat
  iexact Hcred

/-- Each subcore its kit. -/
theorem c_kits_deal :
    iprop(c_shared (F := F) m ∗ (bigSep Finset.univ fun x : c_DCI => atPos EB (c_bcell₃ x) 0 ∅ 0)
        ∗ (bigSep Finset.univ fun dci : c_DCI => bigSep Finset.univ fun j : Fin (grid1.bound 1) => dutyTok EB (bcell dci.1 dci.2.1 (j.castLE hsub1)) 0 dci.2.2.val)
        ∗ (bigSep Finset.univ fun dci : c_DCI => cred (tallyAt (c_bcell₃ dci) (some 0) (grid1.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [c_Px_T, c_Px_S, c_Px_V, bigSep_emp']
  iintro ⟨#Hsh, Hat, Htok, Hcred⟩
  isplitr; · iempintro
  isplitr; · iempintro
  iapply (c_bigSep_frame (R := c_shared (F := F) m) (Φ := c_mine (F := F)) fun dci _ => c_kit_intro (F := F) m dci)
  isplitr; · iexact Hsh
  unfold c_mine
  rw [bigSep_sep', bigSep_sep']
  isplitl [Hat]; · iexact Hat
  isplitl [Htok]; · iexact Htok
  iexact Hcred

omit [FloatOps F] in
/-- The staging cells' library funds what the TensorCore's proof starts from, on every device. -/
theorem c_fund_G : BI.own ((ER (F := F)) (initOf (Pipeline.cells cfgs Gen.cellOf_inj) (Pipeline.launchToks cfgs Gen.cellOf_inj)))
    ⊢ iprop(|==> bigSep Finset.univ (G (F := F))) := by
  refine (Pipeline.fund_ghost cfgs (ER (F := F)) Gen.cellOf_inj).trans (BI.bupd_mono ?_)
  show _ ⊢ bigSep Finset.univ fun d : Dev nD => iprop((bigSep Finset.univ fun p : Fin 1 => Pipeline.cellsGhost cfgs (ER (F := F)) p d)
    ∗ bigSep Finset.univ fun p : Fin 1 => Pipeline.toksInit cfgs (ER (F := F)) p d)
  rw [bigSep_sep']

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ bigSep Finset.univ (G (F := F))
        ∗ (bigSep Finset.univ fun thr : Thread nD τ => bigSep Finset.univ fun q : Fin 1 => (P m).x q thr) : sProp 𝕄) := by
  unfold u₀
  iintro ⟨Hu, Hcred, Hfree⟩
  ihave H := (c_ownU_split _ _ _) $$ Hu
  icases H with ⟨HH, HB, HR⟩
  imod (Rounds.fund EB (bRd (F := F) m) bCells bToks) $$ HB with ⟨Hst, #Hr, Hat, Htok⟩
  imod (c_fund_G (F := F)) $$ HR with HG
  ihave Hsems := (c_sems_b (F := F)) $$ Hfree
  imod (c_invs_b (F := F) m) $$ [Hsems Hst] with ⟨%κ, #Hinv⟩
  · isplitl [Hsems] <;> iassumption
  ihave Hcred' := (c_creds_b m) $$ Hcred
  ihave Hinv' := (Entails.of_eq (c_bCells_eq (F := F) fun g => cellInv EB (bRd (F := F) m) (κ g) g)) $$ Hinv
  ihave Hr' := (Entails.of_eq (c_bCells_eq (F := F) fun g => reached EB g 0)) $$ Hr
  ihave Hat' := (Entails.of_eq (c_bCells_eq (F := F) fun g => atPos EB g 0 ∅ 0)) $$ Hat
  ihave Htok' := (Entails.of_eq (c_toks_eq (F := F))) $$ Htok
  imodintro
  isplitl [HH]; · iexact HH
  isplitl [HG]; · iexact HG
  iapply (c_kits_deal m)
  isplitr
  · isplitl; · iexists κ; iexact Hinv'
    iexact Hr'
  isplitl [Hat']; · iexact Hat'
  isplitl [Htok']; · iexact Htok'
  iexact Hcred'

end Cert.Kernel.Hand

end
-- ==== Proof.KernelW.Run.lean ====
/-
  The vector subcores' obligation, and the program's run.

  The body table's row for a vector subcore is the gather kernel at that subcore's coordinates on the whole arrays and
  its scratch; the launch theorem's obligation for the one call is the subcore's task at those coordinates. The run of
  the whole program follows from the launch theorem: the subcores' task, how a SparseCore's operands split among them,
  the launch element, the TensorCore's program and the reading of the final memory.
-/
import proofs.«214982_g87402584473731_cont_9to1c4b_667_31_alg».proof.Proof.KernelW.Common
import proofs.«214982_g87402584473731_cont_9to1c4b_667_31_alg».proof.Proof.KernelW.TileSpec
import proofs.«214982_g87402584473731_cont_9to1c4b_667_31_alg».proof.Proof.KernelW.Split
import proofs.«214982_g87402584473731_cont_9to1c4b_667_31_alg».proof.Proof.KernelW.LaunchElem

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- The grid coordinates of a SparseCore number and a subcore number. -/
def c_coordsV (c : Fin (grid1.bound 0)) (s : Fin (grid1.bound 1)) : grid1.Coords :=
  fun | 0 => c | 1 => s | ⟨_ + 2, h⟩ => absurd h (Nat.not_lt.2 (Nat.le_add_left _ _))

/-- The body table at a vector subcore: the gather kernel at its coordinates, where the grid holds it. -/
theorem c_defs₀_vector (c : Fin τ.nSC) (s : Fin τ.nSub) :
    defs₀ (F := F) (.scVector c s) 1 ()
      = SparseCore.onTile hcore1 hsub1 (fun c s => cc1__gather_body (c_coordsV c s)
          iV (Memref.isWhole_whole _) tV (Memref.isWhole_whole _) oV (Memref.isWhole_whole _)
          ixV (Memref.isWhole_whole _) rwV (Memref.isWhole_whole _) shV (Memref.isWhole_whole _)
          cc1_scratch3 cc1_scratch4 cc1_scratch5 cc1_scoped0 cc1_scoped1) ⟨⟩ c s := rfl

set_option maxRecDepth 16384 in
theorem tileObl (hF : (K (F := F)).Facts) (ht : TileBodySpec m) : (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [c_defs₀_vector]; simp only [SparseCore.onTile, hci, and_self, ↓reduceDIte]
  exact ht d (c_coordsV ⟨_, hci.1⟩ ⟨_, hci.2⟩) hF O W hO hOlev

theorem run_main [∀ e, Nonempty (Elt F e)] (ht : TileBodySpec m)
    (hmain : ∀ (κ : GSem nD τ sig → ℕ) (d : Dev nD),
      iprop((K (F := F)).ctx EH (P m) κ (K (F := F)).lev ∗ (K (F := F)).tcSt EH d 0 ∗ (K (F := F)).tcRes m ρ d ∗ G (F := F) d)
        ⊢ wp frame (wpE ((K (F := F)).defs (D (F := F))) 𝒱 (T d) none) Set.univ (Cert.Kernel.main (F := F) d)
            fun _ => iprop((K (F := F)).tcSt EH d 1 ∗ FIN m d))
    (hfin : ∀ d s', iprop(FIN m d ∗ SI s') ⊢ (⌜fq m d s'⌝ : sProp 𝕄)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts ht)
    (fun q _ => match q with | 0 => vecSplit m)
    m ρ Cert.Kernel.main (G (F := F)) (FIN m) (u₀ (F := F)) (hu₀ m) hmain (fq m) hfin (QC m) (fun _ h => h)

end Cert.Kernel.Hand

end
-- ==== Proof.KernelW.Main.Body.lean ====
/-
  The TensorCore's pallas_call of @main: its body and its proof data.

  The body loads the 4 × 128 table and the two 1 × 128 rows from their staging buffers, normalises each row of the table
  (mean removed, scaled by the reciprocal root of the variance plus ε, then by gamma, shifted by beta) and stores the
  result 64 times over into the 64 × 4 × 128 staging buffer of the result: one store through the whole buffer, so what
  the buffer holds afterwards is the stored value, whatever it held. The call has no grid: one point, each window's
  block its whole array, so a fetched buffer holds the array and the one write-back leaves the array at the stored
  value.
-/
import proofs.«214982_g87402584473731_cont_9to1c4b_667_31_alg».proof.Proof.KernelW.Common
import proofs.«214982_g87402584473731_cont_9to1c4b_667_31_alg».proof.Proof.Gen.Kernel.Points
import Idealize.ShloMosaic.Lib.Pipeline.Regions
import Idealize.ShloMosaic.Lib.Pipeline.RegionsLoop
import Idealize.ShloMosaic.Lib.Pipeline.Value

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe
open Idealize.ShloMosaic.Pipeline (Dat Cfg Window BodyObligation cellOf)

variable {F : FTy → Type}

local notation "𝕄" => MT nD τ sig (HIx 1) (Elt F) ℕ UU ℕ

variable (m : (ℓ : Loc nD τ sig) → Buf (Elt F) ℓ) (ρ : Dev nD → PrngReg)

variable [FloatOps F]

/-- One unmasked store through the whole-shape rectangle at zero offsets leaves its payload. -/
theorem b_read_writes_unit_zero {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h; funext y
  have e := View.read_writes_cons_emb v f (Rect.whole S) w [] y
  rw [Rect.emb_whole_apply] at e
  exact e

theorem b_hz2 : (![0, 0] : Fin 2 → Nat) = fun _ => 0 := funext fun a => by fin_cases a <;> rfl
theorem b_hz3 : (![0, 0, 0] : Fin 3 → Nat) = fun _ => 0 := funext fun a => by fin_cases a <;> rfl

set_option maxHeartbeats 1000000 in
theorem b_lnRun (c : Dev nD) (E : Set ℕ) (arg0 : Memref sig .tc .vmem S4x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S64x4x128 .f32) (harg3 : arg3.IsWhole)
    (x0 : Vec F S4x128 .f32) (x1 : Vec F S1x128 .f32) (x2 : Vec F S1x128 .f32) (Q : PUnit → sProp 𝕄) :
    iprop(owns (c : Thread nD τ) arg0 fullShare x0 ∗ owns (c : Thread nD τ) arg1 fullShare x1 ∗ owns (c : Thread nD τ) arg2 fullShare x2
        ∗ (∃ y, owns (c : Thread nD τ) arg3 fullShare y)
        ∗ (iprop(owns (c : Thread nD τ) arg0 fullShare x0 ∗ owns (c : Thread nD τ) arg1 fullShare x1 ∗ owns (c : Thread nD τ) arg2 fullShare x2
            ∗ owns (c : Thread nD τ) arg3 fullShare (k0_pay1 x0 x1 x2)) -∗ Q ⟨⟩))
      ⊢ wp frame (wpE (defs₀ (F := F)) Variants.none (c : Thread nD τ) none) E (cc0__ln_body arg0 harg0 arg1 harg1 arg2 harg2 arg3 harg3) Q := by
  simp only [cc0__ln_body_eq_skeleton]; unfold cc0__ln_body_skel
  unfold owns
  iintro ⟨⟨%f0, %hf0, H0⟩, ⟨%f1, %hf1, H1⟩, ⟨%f2, %hf2, H2⟩, ⟨%y, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [b_read_writes_unit_zero _ _ b_hz3]
  simp only [View.readAt_eq_ld, View.ld_unit_zero (S := S4x128) b_hz2, View.ld_unit_zero (S := S1x128) b_hz2]

/-! ## A window over a whole array reads the array -/

theorem b_blk0 (d : Dev nD) (X : Buf (Elt F) (a1Loc d)) : ((cfg0.win 0).blk t0_0).view.read (Elt F) X = (X : Vec F S4x128 .f32) := by
  funext j
  rw [View.read_apply]
  show X (((cfg0.win 0).blk t0_0).view.emb j) = X j
  refine congrArg X ?_
  funext a; apply Fin.ext
  match a with
  | ⟨0, _⟩ => show 0 * 4 + 1 * (j 0).val = (j 0).val; omega
  | ⟨1, _⟩ => show 0 * 128 + 1 * (j 1).val = (j 1).val; omega

theorem b_blk1 (d : Dev nD) (X : Buf (Elt F) (v0Loc d)) : ((cfg0.win 1).blk t0_0).view.read (Elt F) X = (X : Vec F S1x128 .f32) := by
  funext j
  rw [View.read_apply]
  show X (((cfg0.win 1).blk t0_0).view.emb j) = X j
  refine congrArg X ?_
  funext a; apply Fin.ext
  match a with
  | ⟨0, _⟩ => show 0 * 1 + 1 * (j 0).val = (j 0).val; omega
  | ⟨1, _⟩ => show 0 * 128 + 1 * (j 1).val = (j 1).val; omega

theorem b_blk2 (d : Dev nD) (X : Buf (Elt F) (v1Loc d)) : ((cfg0.win 2).blk t0_0).view.read (Elt F) X = (X : Vec F S1x128 .f32) := by
  funext j
  rw [View.read_apply]
  show X (((cfg0.win 2).blk t0_0).view.emb j) = X j
  refine congrArg X ?_
  funext a; apply Fin.ext
  match a with
  | ⟨0, _⟩ => show 0 * 1 + 1 * (j 0).val = (j 0).val; omega
  | ⟨1, _⟩ => show 0 * 128 + 1 * (j 1).val = (j 1).val; omega

theorem b_blk3 (d : Dev nD) (X : Buf (Elt F) (v2Loc d)) : ((cfg0.win 3).blk t0_0).view.read (Elt F) X = (X : Vec F S64x4x128 .f32) := by
  funext j
  rw [View.read_apply]
  show X (((cfg0.win 3).blk t0_0).view.emb j) = X j
  refine congrArg X ?_
  funext a; apply Fin.ext
  match a with
  | ⟨0, _⟩ => show 0 * 64 + 1 * (j 0).val = (j 0).val; omega
  | ⟨1, _⟩ => show 0 * 4 + 1 * (j 1).val = (j 1).val; omega
  | ⟨2, _⟩ => show 0 * 128 + 1 * (j 2).val = (j 2).val; omega

/-! ## The normalised-table call: its proof data -/

theorem b_Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

/-- The pairs a TensorCore may have recorded before its first call: those at level 0. -/
def b_rec (d : Dev nD) : Set (SemLoc sig × HIx 1) := {p | (K (F := F)).lev ((SparseCore.T d : Thread nD τ), p.1) p.2 ≤ 8 * 0}

/-- Between the call's ends the body keeps nothing of its own: the scoped buffers no window stages. -/
abbrev b_Φ (d : Dev nD) : sProp 𝕄 := Pipeline.scopedRest (Ix := HIx 1) (Name := ℕ) (U := UU) (Lvl := ℕ) (Val := Elt F) spec0 d

/-- The proof data of the call on device `d`: the table and the two rows as the host left them, the result array as
    launched; after the body the three inputs' buffers as fetched and the result's at the normalised table written 64
    times; what the TensorCore owes the SparseCores throughout. -/
def b_dat (d : Dev nD) : Dat τ (Elt F) (HIx 1) ℕ UU ℕ cfg0 d where
  A w := match w with
    | ⟨0, _⟩ => m (a1Loc d)
    | ⟨1, _⟩ => gRowV m d
    | ⟨2, _⟩ => bRowV m d
    | ⟨3, _⟩ => m (v2Loc d)
  after w _ := match w with
    | ⟨0, _⟩ => (m (a1Loc d) : Vec F S4x128 .f32)
    | ⟨1, _⟩ => gRowV m d
    | ⟨2, _⟩ => bRowV m d
    | ⟨3, _⟩ => T2 m d
  Φ _ := b_Φ d
  q _ := fullShare
  owed _ := (K (F := F)).Otc d 0
  recorded _ := b_rec (F := F) d

theorem b_before0 (d : Dev nD) (x) : (b_dat m d).before 0 t0_0 x = (m (a1Loc d) : Vec F S4x128 .f32) := by
  unfold Dat.before; rw [if_pos (by decide)]; exact b_blk0 d (m (a1Loc d))
theorem b_before1 (d : Dev nD) (x) : (b_dat m d).before 1 t0_0 x = gRowV m d := by
  unfold Dat.before; rw [if_pos (by decide)]; exact b_blk1 d (gRowV m d)
theorem b_before2 (d : Dev nD) (x) : (b_dat m d).before 2 t0_0 x = bRowV m d := by
  unfold Dat.before; rw [if_pos (by decide)]; exact b_blk2 d (bRowV m d)

theorem b_after0 (d : Dev nD) (t : Fin cfg0.N) : (b_dat m d).after 0 t = (m (a1Loc d) : Vec F S4x128 .f32) := by dsimp only [b_dat]
theorem b_after1 (d : Dev nD) (t : Fin cfg0.N) : (b_dat m d).after 1 t = gRowV m d := by dsimp only [b_dat]
theorem b_after2 (d : Dev nD) (t : Fin cfg0.N) : (b_dat m d).after 2 t = bRowV m d := by dsimp only [b_dat]
theorem b_after3 (d : Dev nD) (t : Fin cfg0.N) : (b_dat m d).after 3 t = T2 m d := by dsimp only [b_dat]

/-- What the body is called with at the one point, -/
def b_bodyPre (d : Dev nD) : sProp 𝕄 :=
  iprop((b_dat m d).Φ (t0_0 : Fin cfg0.N).castSucc ∗ (b_dat m d).owesAt (none : HIx 1) (t0_0 : Fin cfg0.N).castSucc
    ∗ (∃ x, owns (d : Thread nD τ) (st0_0 t0_0) fullShare ((b_dat m d).before 0 t0_0 x))
    ∗ (∃ x, owns (d : Thread nD τ) (st0_1 t0_0) fullShare ((b_dat m d).before 1 t0_0 x))
    ∗ (∃ x, owns (d : Thread nD τ) (st0_2 t0_0) fullShare ((b_dat m d).before 2 t0_0 x))
    ∗ (∃ x, owns (d : Thread nD τ) (st0_3 t0_0) fullShare ((b_dat m d).before 3 t0_0 x)))

/-- and what it returns. -/
def b_bodyPost (d : Dev nD) : sProp 𝕄 :=
  iprop((b_dat m d).Φ (t0_0 : Fin cfg0.N).succ ∗ (b_dat m d).owesAt (none : HIx 1) (t0_0 : Fin cfg0.N).succ
    ∗ owns (d : Thread nD τ) (st0_0 t0_0) fullShare ((b_dat m d).after 0 t0_0)
    ∗ owns (d : Thread nD τ) (st0_1 t0_0) fullShare ((b_dat m d).after 1 t0_0)
    ∗ owns (d : Thread nD τ) (st0_2 t0_0) fullShare ((b_dat m d).after 2 t0_0)
    ∗ owns (d : Thread nD τ) (st0_3 t0_0) fullShare ((b_dat m d).after 3 t0_0))

theorem b_soundBody (d : Dev nD) :
    b_bodyPre m d ⊢ wp frame (wpE (defs₀ (F := F)) Variants.none (d : Thread nD τ) none) Set.univ (bodyAt0 t0_0) (fun _ => b_bodyPost m d) := by
  unfold b_bodyPre b_bodyPost bodyAt0
  simp only [b_before0, b_before1, b_before2]
  rw [show (b_dat m d).Φ (t0_0 : Fin cfg0.N).succ = (b_dat m d).Φ (t0_0 : Fin cfg0.N).castSucc from rfl,
    show (b_dat m d).owesAt (none : HIx 1) (t0_0 : Fin cfg0.N).succ = (b_dat m d).owesAt (none : HIx 1) (t0_0 : Fin cfg0.N).castSucc from rfl,
    b_after0, b_after1, b_after2, b_after3]
  iintro ⟨HΦ, Ho, ⟨%x0, H0⟩, ⟨%x1, H1⟩, ⟨%x2, H2⟩, ⟨%x3, H3⟩⟩
  iapply (b_lnRun d Set.univ _ _ _ _ _ _ _ _ (m (a1Loc d) : Vec F S4x128 .f32) (gRowV m d) (bRowV m d) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the one point. -/
theorem b_body (d : Dev nD) : BodyObligation (b_dat m d) (defs₀ (F := F)) 𝒱₀ (none : HIx 1) Set.univ := fun t => by
  obtain rfl := fin_N0 t
  rw [bigSep_W0, bigSep_W0]
  exact b_soundBody m d

end Cert.Kernel.Hand
end
-- ==== Proof.KernelW.Main.Region.lean ====
/-
  The TensorCore's pallas_call of @main as a region of the program.

  The call is run by the pipeline library's region rule at one point: the four arrays (the table, gamma and beta as rows,
  the result) enter at what the host left them, the three inputs are fetched into their staging buffers, the body runs,
  the result's buffer is written back; the result array then holds the normalised table written 64 times. While the call
  runs the TensorCore still owes every SparseCore its start signal; its own waits, on the staging buffers' cells, sit at
  level 0, strictly below those debts, so it may wait.
-/
import proofs.«214982_g87402584473731_cont_9to1c4b_667_31_alg».proof.Proof.KernelW.Common
import proofs.«214982_g87402584473731_cont_9to1c4b_667_31_alg».proof.Proof.Gen.Kernel.Points
import Idealize.ShloMosaic.Lib.Pipeline.Regions
import Idealize.ShloMosaic.Lib.Pipeline.RegionsLoop
import Idealize.ShloMosaic.Lib.Pipeline.Value
import proofs.«214982_g87402584473731_cont_9to1c4b_667_31_alg».proof.Proof.KernelW.Main.Body

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe
open Idealize.ShloMosaic.StableHlo (held held_split held_sdiff_result wp_hlo_within)
open Idealize.ShloMosaic.Pipeline (Dat Cfg Window BodyObligation cellOf)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The call as a region of @main -/

abbrev b_adm : (p : Fin 1) → (pcfgs (F := F) p).Adm := fun q => (cfgs q).toPCfg_adm

/-- The one pipeline's proof data. -/
def b_pdats : (p : Fin 1) → (c : Dev nD) → Dat τ (Elt F) (HIx 1) ℕ UU ℕ (Pipeline.pin (pcfgs (F := F)) b_adm p) c
  | ⟨0, _⟩ => fun c => b_dat m c

/-- The four arrays of the call, held whole. -/
theorem b_arrays (d : Dev nD) (A : (w : Fin cfg0.W) → Buf (Elt F) ((cfg0.win w).arr.view.loc (d : Thread nD τ))) :
    ((b_dat m d).arrays A : sProp 𝕄) = iprop((a1Loc d ↦{fullShare} A 0) ∗ (v0Loc d ↦{fullShare} A 1) ∗ (v1Loc d ↦{fullShare} A 2) ∗ (v2Loc d ↦{fullShare} A 3)) := by
  unfold Dat.arrays
  rw [bigSep_W0, (b_dat m d).share_full (fun _ => rfl) 0, (b_dat m d).share_full (fun _ => rfl) 1, (b_dat m d).share_full (fun _ => rfl) 2,
    (b_dat m d).share_full (fun _ => rfl) 3]
  simp only [Memref.view_whole, View.set_whole]

/-- The result array after the call: the normalised table written 64 times. -/
theorem b_final (d : Dev nD) : (b_dat m d).arrAt 3 cfg0.N = T2 m d :=
  (b_dat m d).arrAt_eq_of_cover 3 (T2 m d) (fun t _ => by
      obtain rfl := fin_N0 t
      show (cfg0.win 3).cut (grid0.coords t0_0) ((b_dat m d).after 3 t0_0) = _
      rw [b_after3, b_blk3 d]
      rfl)
    (fun i => ⟨t0_0, flush0_3 t0_0, by
      show i ∈ ((View.whole main_v2).slice (win0_3.rect t0_0)).set
      rw [View.set_slice_whole, Rect.mem_set_unit]
      intro a
      match a with
      | ⟨0, _⟩ => show 0 * 64 ≤ (i 0).val ∧ (i 0).val < 0 * 64 + 64; have h : (i 0).val < 64 := (i 0).isLt; omega
      | ⟨1, _⟩ => show 0 * 4 ≤ (i 1).val ∧ (i 1).val < 0 * 4 + 4; have h : (i 1).val < 4 := (i 1).isLt; omega
      | ⟨2, _⟩ => show 0 * 128 ≤ (i 2).val ∧ (i 2).val < 0 * 128 + 128; have h : (i 2).val < 128 := (i 2).isLt; omega⟩)

/-- What the TensorCore owes the SparseCores before its first call, and that its recorded waits sit at level 0. -/
abbrev b_owes (c : Dev nD) : sProp 𝕄 :=
  iprop(∃ W, ⌜(K (F := F)).WBelow (SparseCore.T c) W (8 * 0)⌝ ∗ owes (SparseCore.T c) ((K (F := F)).Otc c 0) W)

set_option backward.isDefEq.respectTransparency.types false in
/-- The call over the TensorCore's state "the four arrays whole, and what it owes": entered with the result array as
    launched, left with it at the normalised table written 64 times; the kernel has no semaphore of its own and keeps
    nothing between the ends; its waits on the staging cells sit at level 0, below every start signal it owes. -/
def b_reg : Pipeline.RegionSeg (pcfgs (F := F)) b_adm (b_pdats m) (none : HIx 1) defs₀ 𝒱₀ (K (F := F)).L (K (F := F)).lev 0 where
  win := (winFacts0).to₀
  block_pos := block_pos0
  stage_whole := stage_whole0
  K := PEmpty
  osem k := k.elim
  ho := Pipeline.OwnSemFacts.none _
  hbody c := (b_body m c).loose
  hwaits c := Pipeline.cellsWaits_intro (Pipeline.pin (pcfgs (F := F)) b_adm) (b_pdats m) none 0 c
    (fun w s t => (K (F := F)).mayWait_none _ (b_Otc_none c 0))
  pre c := iprop((a1Loc c ↦{fullShare} m (a1Loc c)) ∗ (v0Loc c ↦{fullShare} gRowV m c) ∗ (v1Loc c ↦{fullShare} bRowV m c)
    ∗ (v2Loc c ↦{fullShare} m (v2Loc c)) ∗ b_owes (F := F) c)
  post c := iprop((a1Loc c ↦{fullShare} m (a1Loc c)) ∗ (v0Loc c ↦{fullShare} gRowV m c) ∗ (v1Loc c ↦{fullShare} bRowV m c)
    ∗ (v2Loc c ↦{fullShare} T2 m c) ∗ b_owes (F := F) c)
  X _ := iprop(emp)
  Y _ := iprop(emp)
  Z _ := iprop(emp)
  hentry c := by
    rw [Pipeline.ownSems0_none, show b_pdats m 0 c = b_dat m c from rfl, b_arrays]
    iintro ⟨⟨H0, H1, H2, H3, ⟨%W, %hW, HO⟩⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (b_pdats m 0 c).Φ 0 = b_Φ c from rfl]
    iintro ⟨-, -, Hr⟩; iexact Hr
  hout c := by
    rw [Pipeline.ownSems0_none, show (b_pdats m 0 c).Φ (Fin.last _) = b_Φ c from rfl]
    iintro Hr
    isplitr; · iempintro
    isplitr; · iempintro
    iexact Hr
  hexit c := by
    rw [show b_pdats m 0 c = b_dat m c from rfl, b_arrays, (b_dat m c).arrAt_in 0 rfl, (b_dat m c).arrAt_in 1 rfl, (b_dat m c).arrAt_in 2 rfl]
    rw [show (b_dat m c).arrAt 3 (Pipeline.pin (pcfgs (F := F)) b_adm 0).N = T2 m c from b_final m c]
    iintro ⟨⟨H0, H1, H2, H3⟩, HO, -, -⟩
    imodintro
    isplitl [H0]; · iexact H0
    isplitl [H1]; · iexact H1
    isplitl [H2]; · iexact H2
    isplitl [H3]; · iexact H3
    unfold Pipeline.Dat.owesAt Pipeline.owesWithin
    icases HO with ⟨%W, %hW, HO⟩
    iexists W; isplitr
    · ipureintro
      intro p hp
      rcases hW hp with h | ⟨w, s, rfl⟩
      · exact h
      · exact le_of_eq (SparseCore.Cfg.lev_none _ _)
    iexact HO

theorem b_reg_pre (c : Dev nD) : (b_reg m).pre c = iprop((a1Loc c ↦{fullShare} m (a1Loc c)) ∗ (v0Loc c ↦{fullShare} gRowV m c) ∗ (v1Loc c ↦{fullShare} bRowV m c)
    ∗ (v2Loc c ↦{fullShare} m (v2Loc c)) ∗ b_owes (F := F) c) := rfl
theorem b_reg_post (c : Dev nD) : (b_reg m).post c = iprop((a1Loc c ↦{fullShare} m (a1Loc c)) ∗ (v0Loc c ↦{fullShare} gRowV m c) ∗ (v1Loc c ↦{fullShare} bRowV m c)
    ∗ (v2Loc c ↦{fullShare} T2 m c) ∗ b_owes (F := F) c) := rfl

set_option backward.isDefEq.respectTransparency.types false in
/-- The TensorCore's pallas_call in @main: from the region boundary, the call's four arrays whole — the table, gamma and
    beta as rows, the result array as launched —, the staging cells' ghost state and the TensorCore's handshake state
    before its first SparseCore call, to the same with the result array at the normalised table written 64 times. -/
theorem b_region [∀ e, Nonempty (Elt F e)] (κ : GSem nD τ sig → ℕ) (d : Dev nD) (Φ : PUnit → sProp 𝕄) :
    iprop((K (F := F)).ctx EH (P m) κ ∗ (K (F := F)).tcSt EH d 0 ∗ boundary (SparseCore.T d) ∗ G (F := F) d
        ∗ (a1Loc d ↦{fullShare} m (a1Loc d)) ∗ (v0Loc d ↦{fullShare} gRowV m d) ∗ (v1Loc d ↦{fullShare} bRowV m d) ∗ (v2Loc d ↦{fullShare} m (v2Loc d))
        ∗ (((K (F := F)).tcSt EH d 0 ∗ boundary (SparseCore.T d)
            ∗ (a1Loc d ↦{fullShare} m (a1Loc d)) ∗ (v0Loc d ↦{fullShare} gRowV m d) ∗ (v1Loc d ↦{fullShare} bRowV m d) ∗ (v2Loc d ↦{fullShare} T2 m d)) -∗ Φ ⟨⟩))
      ⊢ wp frame (wpE ((K (F := F)).defs (D (F := F))) 𝒱 (SparseCore.T d) none) Set.univ
          (Prog.lift (.customCall (SparseCore.inner (Pipeline.entry 0)) ())) Φ := by
  unfold SparseCore.Cfg.tcSt G
  rw [show (Finset.univ : Finset (Fin 1)) = {0} from rfl, bigSep_singleton, bigSep_singleton]
  iintro ⟨#Hctx, ⟨HO, Hrest⟩, Hb, ⟨Hg, Ht⟩, H0, H1, H2, H3, Hk⟩
  ihave Hlev := (SparseCore.Cfg.ctx_levAts κ) $$ Hctx
  iapply ((K (F := F)).wp_liftProg (D (F := F)) 𝒱 (SparseCore.T d) Set.univ none (Prog.lift (.customCall (Pipeline.entry 0) ())) Φ)
  iapply (Pipeline.RegionSeg.wp (pcfgs (F := F)) b_adm (b_pdats m) (none : HIx 1) cellOf_inj ER defs₀ 𝒱₀ (K (F := F)).L (K (F := F)).lev (b_reg m) d none
    (fun _ h => nomatch h) (fun x => .ret x) Φ)
  isplitl [Hk Hrest]
  · iintro ⟨Hb, Hq⟩
    ihave Hp := (Entails.of_eq (b_reg_post m d)) $$ Hq
    icases Hp with ⟨H0, H1, H2, H3, HO⟩
    rw [wp_ret]
    imodintro
    iapply Hk
    isplitl [HO Hrest]
    · isplitl [HO]; · iexact HO
      iexact Hrest
    isplitl [Hb]; · iexact Hb
    isplitl [H0]; · iexact H0
    isplitl [H1]; · iexact H1
    isplitl [H2]; · iexact H2
    iexact H3
  isplitl [Hb]; · iexact Hb
  isplitl [H0 H1 H2 H3 HO]
  · rw [b_reg_pre]
    isplitl [H0]; · iexact H0
    isplitl [H1]; · iexact H1
    isplitl [H2]; · iexact H2
    isplitl [H3]; · iexact H3
    iexact HO
  isplitl [Hlev]; · iexact Hlev
  isplitl [Hg]; · iexact Hg
  iexact Ht

end Cert.Kernel.Hand
end
-- ==== Proof.KernelW.Main.lean ====
/-
  @main on the TensorCore, and what its final assertion says of the final memory.

  @main re-lays gamma and beta as rows, runs the pallas_call that normalises the four rows of the table and writes them 64
  times over, re-lays the result as the 256-row table and the indices as 32 slabs, starts the two SparseCores and waits
  for them, and re-lays the gathered rows as the 4096 × 200 × 128 result. Each re-laying is a StableHLO reshape over its
  two arrays. At the SparseCore call the 256-row table goes out in two half shares (both SparseCores read all of it),
  the index array and the result array each as the two SparseCores' sets of slabs (disjoint, together the whole array);
  the same come back, the result slabs at the gathered rows, and join again to the whole result array. The four argument
  arrays are read only, so the final memory holds them as launched, and the result at the gathered rows re-laid.
-/
import proofs.«214982_g87402584473731_cont_9to1c4b_667_31_alg».proof.Proof.KernelW.Common
import proofs.«214982_g87402584473731_cont_9to1c4b_667_31_alg».proof.Proof.Gen.Kernel.Points
import Idealize.ShloMosaic.Lib.Pipeline.Regions
import Idealize.ShloMosaic.Lib.Pipeline.RegionsLoop
import Idealize.ShloMosaic.Lib.Pipeline.Value
import proofs.«214982_g87402584473731_cont_9to1c4b_667_31_alg».proof.Proof.KernelW.Main.Region
import proofs.«214982_g87402584473731_cont_9to1c4b_667_31_alg».proof.Proof.KernelW.Sets

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe
open Idealize.ShloMosaic.StableHlo (held held_split held_sdiff_result wp_hlo_within)
open Idealize.ShloMosaic.Pipeline (Dat Cfg Window BodyObligation cellOf)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## A StableHLO reshape over its two arrays -/

/-- The two arrays of a reshape at given contents, every other buffer as launched. -/
def b_V2 (d : Dev nD) (x y : Ref sig .tc) (fx : Buf (Elt F) ((SparseCore.T d : Thread nD τ).loc x)) (fy : Buf (Elt F) ((SparseCore.T d : Thread nD τ).loc y)) :
    Valuation τ sig (Elt F) :=
  Function.update (Function.update (fun b => m (d, b)) (Proc.devRef .tc x) fx) (Proc.devRef .tc y) fy

/-- `reshape x y` at the head of a program, from the region boundary and the two arrays whole: the continuation runs
    with the boundary back, `x` as it was and `y` at `x`'s elements re-laid. -/
theorem b_wp_reshape {Λ : Labels} {defs : Defs nD τ sig (Elt F) Λ} (𝒱' : Variants) (bd : Option 𝒱'.V) (E : Set ℕ) (d : Dev nD) (x y : Ref sig .tc)
    (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hxy : x ≠ y)
    (fx : Buf (Elt F) ((SparseCore.T d : Thread nD τ).loc x)) (fy : Buf (Elt F) ((SparseCore.T d : Thread nD τ).loc y))
    {α : Type} (k : _ → Prog (TpuEff nD τ sig (Elt F) Λ (SparseCore.T d : Thread nD τ).2) α) (Q : α → sProp 𝕄) :
    iprop(boundary (SparseCore.T d) ∗ ((SparseCore.T d : Thread nD τ).loc x ↦{fullShare} fx) ∗ ((SparseCore.T d : Thread nD τ).loc y ↦{fullShare} fy)
        ∗ ((boundary (SparseCore.T d) ∗ ((SparseCore.T d : Thread nD τ).loc x ↦{fullShare} fx)
            ∗ ((SparseCore.T d : Thread nD τ).loc y ↦{fullShare} fun i => he ▸ shapeCast y.ty.shape fx hn i))
          -∗ wp frame (wpE defs 𝒱' (SparseCore.T d) bd) E (k ((StableHlo.reshape (τ := τ) (Val := Elt F) x y he hn hx hy).fn fun b => b_V2 m d x y fx fy b.1)) Q))
      ⊢ wp frame (wpE defs 𝒱' (SparseCore.T d) bd) E (hlo rfl (StableHlo.reshape (τ := τ) (Val := Elt F) x y he hn hx hy) k) Q := by
  have hne : (Proc.devRef .tc x : DevRef τ sig) ≠ Proc.devRef .tc y := StableHlo.devRef_ne_of_ne hxy
  have hVx : b_V2 m d x y fx fy (Proc.devRef .tc x) = fx := by
    unfold b_V2; rw [Function.update_of_ne hne, Function.update_self]
  have hVy : b_V2 m d x y fx fy (Proc.devRef .tc y) = fy := by
    unfold b_V2; rw [Function.update_self]
  have hpre : (held (SparseCore.T d) {(Proc.devRef .tc x : DevRef τ sig), (Proc.devRef .tc y : DevRef τ sig)} (b_V2 m d x y fx fy) : sProp 𝕄)
      = iprop(((SparseCore.T d : Thread nD τ).loc x ↦{fullShare} fx) ∗ ((SparseCore.T d : Thread nD τ).loc y ↦{fullShare} fy)) := by
    unfold held
    rw [SparseCore.bigSep_insert' (by rw [Finset.mem_singleton]; exact hne), bigSep_singleton, hVx, hVy]
  have hpost : (held (SparseCore.T d) {(Proc.devRef .tc x : DevRef τ sig), (Proc.devRef .tc y : DevRef τ sig)}
        ((StableHlo.reshape (τ := τ) (Val := Elt F) x y he hn hx hy).result (b_V2 m d x y fx fy)) : sProp 𝕄)
      = iprop(((SparseCore.T d : Thread nD τ).loc x ↦{fullShare} fx)
          ∗ ((SparseCore.T d : Thread nD τ).loc y ↦{fullShare} fun i => he ▸ shapeCast y.ty.shape fx hn i)) := by
    unfold held
    rw [SparseCore.bigSep_insert' (by rw [Finset.mem_singleton]; exact hne), bigSep_singleton,
      (StableHlo.reshape (τ := τ) (Val := Elt F) x y he hn hx hy).result_of_not_mem (b_V2 m d x y fx fy) (b := Proc.devRef .tc x)
        (show (Proc.devRef .tc x : DevRef τ sig) ∉ ({Proc.devRef .tc y} : Finset (DevRef τ sig)) by rw [Finset.mem_singleton]; exact hne),
      StableHlo.reshape_result x y he hn hx hy, hVx]
  iintro ⟨Hb, Hx, Hy, Hk⟩
  iapply (wp_hlo_within 𝒱' (SparseCore.T d) bd E (op := StableHlo.reshape (τ := τ) (Val := Elt F) x y he hn hx hy)
    (S := {(Proc.devRef .tc x : DevRef τ sig), (Proc.devRef .tc y : DevRef τ sig)}) (Finset.Subset.refl _) (V := b_V2 m d x y fx fy)) $$ [Hb Hx Hy]
  · isplitl [Hb]; · iexact Hb
    rw [hpre]
    isplitl [Hx]; · iexact Hx
    iexact Hy
  iintro ⟨Hb, Hh⟩
  ihave Hh' := (Entails.of_eq hpost) $$ Hh
  icases Hh' with ⟨Hx, Hy⟩
  iapply Hk
  isplitl [Hb]; · iexact Hb
  isplitl [Hx]; · iexact Hx
  iexact Hy

/-! ## What the SparseCore call takes and hands back -/

theorem b_half (d : Dev nD) (f : Buf (Elt F) (v3Loc d)) :
    (v3Loc d ↦{fullShare} f : sProp 𝕄) = iprop((v3Loc d ↦{halfS 0} f) ∗ (v3Loc d ↦{halfS 1} f)) := by
  rw [leaves Finset.univ f 1 fullShare]
  show bigSep (Finset.univ : Finset (Fin 2)) (fun i => (v3Loc d ↦{leaf 1 fullShare i} f : sProp 𝕄)) = _
  rw [show (Finset.univ : Finset (Fin 2)) = {0, 1} by decide, SparseCore.bigSep_insert' (by decide), bigSep_singleton]

theorem b_st0 (d : Dev nD) :
    iprop((v3Loc d ↦{fullShare} T3 m d) ∗ (v4Loc d ↦{fullShare} I4 m d) ∗ (v5Loc d ↦{fullShare} m (v5Loc d)))
      ⊢ (bigSep Finset.univ fun c : Fin ((K (F := F)).nCore 0) => (P m).st 0 d c : sProp 𝕄) := by
  show _ ⊢ (bigSep (Finset.univ : Finset (Fin 2)) fun c => stC m d c)
  rw [show (Finset.univ : Finset (Fin 2)) = {0, 1} by decide, SparseCore.bigSep_insert' (by decide), bigSep_singleton,
    b_half, iCore_split, oCore_split]
  unfold stC
  iintro ⟨⟨Ha, Ha'⟩, ⟨Hb, Hb'⟩, ⟨Hc, Hc'⟩⟩
  isplitl [Ha Hb Hc]
  · isplitl [Ha]; · iexact Ha
    isplitl [Hb]; · iexact Hb
    iexact Hc
  · isplitl [Ha']; · iexact Ha'
    isplitl [Hb']; · iexact Hb'
    iexact Hc'

theorem b_dn0 (d : Dev nD) :
    (bigSep Finset.univ fun c : Fin ((K (F := F)).nCore 0) => (P m).dn 0 d c : sProp 𝕄)
      ⊢ iprop((v3Loc d ↦{fullShare} T3 m d) ∗ (v4Loc d ↦{fullShare} I4 m d) ∗ (v5Loc d ↦{fullShare} O5 m d)) := by
  show (bigSep (Finset.univ : Finset (Fin 2)) fun c => dnC m d c) ⊢ _
  rw [show (Finset.univ : Finset (Fin 2)) = {0, 1} by decide, SparseCore.bigSep_insert' (by decide), bigSep_singleton,
    b_half, iCore_split, oCore_split]
  unfold dnC
  iintro ⟨⟨Ha, Hb, Hc⟩, ⟨Ha', Hb', Hc'⟩⟩
  isplitl [Ha Ha']
  · isplitl [Ha]; · iexact Ha
    iexact Ha'
  isplitl [Hb Hb']
  · isplitl [Hb]; · iexact Hb
    iexact Hb'
  · isplitl [Hc]; · iexact Hc
    iexact Hc'

/-! ## The TensorCore's arrays -/

omit [FloatOps F] in
theorem b_unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (v0Loc d ↦{fullShare} W main_v0) ∗ (v1Loc d ↦{fullShare} W main_v1) ∗ (v2Loc d ↦{fullShare} W main_v2)
      ∗ (v3Loc d ↦{fullShare} W main_v3) ∗ (v4Loc d ↦{fullShare} W main_v4) ∗ (v5Loc d ↦{fullShare} W main_v5) ∗ (v6Loc d ↦{fullShare} W main_v6)) := by
  unfold unscopedBufs
  rw [show (Finset.univ.filter fun b : Ref sig .tc => ¬ b.isScoped) = {main_arg0, main_arg1, main_arg2, main_arg3, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-! ## @main on the TensorCore -/

set_option backward.isDefEq.respectTransparency.types false in
/-- @main on device `d`'s TensorCore: gamma and beta re-laid as rows; the pallas_call, leaving the normalised table
    written 64 times; that re-laid as the 256-row table and the indices as 32 slabs; the SparseCore call, each SparseCore
    handed its half share of the table, its slabs of the indices and of the result, and handing them back with the result
    slabs at the gathered rows; the result re-laid. The four arguments are never written. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes FIN
  rw [b_unscopedBufs_eq]
  simp only [main, wp_bind, wp_pure]
  iintro ⟨#Hctx, Hst, ⟨Hb, ⟨A0, A1, A2, A3, V0, V1, V2, V3, V4, V5, V6⟩, -, -⟩, HG⟩
  -- gamma as a row
  iapply (b_wp_reshape m 𝒱 none Set.univ d main_arg2 main_v0 _ _ _ _ (by decide) (m (a2Loc d)) (m (v0Loc d)) _ _)
  isplitl [Hb]; · iexact Hb
  isplitl [A2]; · iexact A2
  isplitl [V0]; · iexact V0
  iintro ⟨Hb, A2, V0⟩
  rw [wp_ret]; imodintro
  -- beta as a row
  iapply (b_wp_reshape m 𝒱 none Set.univ d main_arg3 main_v1 _ _ _ _ (by decide) (m (a3Loc d)) (m (v1Loc d)) _ _)
  isplitl [Hb]; · iexact Hb
  isplitl [A3]; · iexact A3
  isplitl [V1]; · iexact V1
  iintro ⟨Hb, A3, V1⟩
  rw [wp_ret]; imodintro
  -- the pallas_call
  iapply (b_region m κ d _)
  isplitr; · iexact Hctx
  isplitl [Hst]; · iexact Hst
  isplitl [Hb]; · iexact Hb
  isplitl [HG]; · iexact HG
  isplitl [A1]; · iexact A1
  isplitl [V0]; · iexact V0
  isplitl [V1]; · iexact V1
  isplitl [V2]; · iexact V2
  iintro ⟨Hst, Hb, A1, V0, V1, V2⟩
  -- the 256-row table
  iapply (b_wp_reshape m 𝒱 none Set.univ d main_v2 main_v3 _ _ _ _ (by decide) (T2 m d) (m (v3Loc d)) _ _)
  isplitl [Hb]; · iexact Hb
  isplitl [V2]; · iexact V2
  isplitl [V3]; · iexact V3
  iintro ⟨Hb, V2, V3⟩
  rw [wp_ret]; imodintro
  -- the indices in slabs
  iapply (b_wp_reshape m 𝒱 none Set.univ d main_arg0 main_v4 _ _ _ _ (by decide) (m (a0Loc d)) (m (v4Loc d)) _ _)
  isplitl [Hb]; · iexact Hb
  isplitl [A0]; · iexact A0
  isplitl [V4]; · iexact V4
  iintro ⟨Hb, A0, V4⟩
  rw [wp_ret]; imodintro
  -- the SparseCore call
  iapply ((K (F := F)).wp_run (D (F := F)) 𝒱 (EH := EH) (P := P m) κ d 0)
  isplitr; · iexact Hctx
  isplitl [Hst]; · iexact Hst
  isplitl [V3 V4 V5]
  · iapply (b_st0 m d)
    isplitl [V3]; · iexact V3
    isplitl [V4]; · iexact V4
    iexact V5
  iintro ⟨Hst, Hdn⟩
  ihave Hdn' := (b_dn0 m d) $$ Hdn
  icases Hdn' with ⟨V3, V4, V5⟩
  -- the result re-laid
  iapply (b_wp_reshape m 𝒱 none Set.univ d main_v5 main_v6 _ _ _ _ (by decide) (O5 m d) (m (v6Loc d)) _ _)
  isplitl [Hb]; · iexact Hb
  isplitl [V5]; · iexact V5
  isplitl [V6]; · iexact V6
  iintro ⟨Hb, V5, V6⟩
  rw [wp_ret]; imodintro; imodintro
  isplitl [Hst]; · iexact Hst
  isplitl [A0]; · iexact A0
  isplitl [A1]; · iexact A1
  isplitl [A2]; · iexact A2
  isplitl [A3]; · iexact A3
  iexact V6

/-! ## What the final assertion says of the final memory -/

theorem hfin (d : Dev nD) (s' : Phys nD τ sig (Elt F)) : iprop(FIN m d ∗ SI s') ⊢ (⌜fq m d s'⌝ : sProp 𝕄) := by
  unfold FIN
  iintro ⟨⟨H0, H1, H2, H3, H6⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (SI_pointsTo_agree (st := s') (ℓ := v6Loc d) (I := Finset.univ) (q := fullShare) (f := O6 m d)) $$ [HSI H6]
  · isplitl [HSI] <;> iassumption
  icases H with %h6
  ipureintro
  exact ⟨funext fun i => h6 i (Finset.mem_univ i), funext fun i => h0 i (Finset.mem_univ i), funext fun i => h1 i (Finset.mem_univ i),
    funext fun i => h2 i (Finset.mem_univ i), funext fun i => h3 i (Finset.mem_univ i)⟩

end Cert.Kernel.Hand
end
-- ==== Proof.PreFacts.lean ====
/-
  What the input-domain precondition says, element by element.

  The precondition is one bit: the conjunction of "every entry of the table has absolute value below +∞", the same
  for gamma and for beta, and "every index `x` has `0 ≤ x` and `x ≤ 3`, read signed". Each "every" is a reduction
  by `and` of the array of comparison bits from the bit 1, so the bit 1 at the end means the bit 1 at every entry.
  At the extended reals an absolute value below +∞ excludes both infinities, so the entry is a real; a 32-bit word
  that is at least 0 and at most 3 as a signed integer is one of the words 0, 1, 2, 3, so its unsigned value is below 4.
-/
import proofs.«214982_g87402584473731_cont_9to1c4b_667_31_alg».proof.Pre_input_domain
import Idealize.ShloMosaic.Lib.ReduceAll
import Idealize.ShloMosaic.Lib.ValueIdx
import Idealize.ShloMosaic.PureOps.Ideal.Laws

noncomputable section

namespace Cert.PreFacts

open Idealize.ShloMosaic Idealize.ShloMosaic.ValueIdx Cert.Pre_input_domain

/-- The scalar shape has one index. -/
instance : Subsingleton S_.Idx := ⟨fun a b => funext fun d => d.elim0⟩

/-- The precondition's four conjuncts, each at every index: the three comparisons of an absolute value with the word
    of +∞, and the index's two signed comparisons with 0 and with 3. -/
theorem parts [Cert.Pre_input_domain.Facts] {F : FTy → Type} [FloatOps F] {a0 : IVec S4096x200 32}
    {a1 : FVec F S4x128 .f32} {a2 a3 : FVec F S128 .f32}
    (h : Cert.Pre_input_domain.fn (F := F) a0 a1 a2 a3 = fun _ => 1#1) :
    (∀ i, FloatOps.cmpf .olt (FloatOps.hostAbsf (a1 i)) (FloatOps.ofBits (F := F) .f32 0x7F800000#32) = 1#1)
    ∧ (∀ i, FloatOps.cmpf .olt (FloatOps.hostAbsf (a2 i)) (FloatOps.ofBits (F := F) .f32 0x7F800000#32) = 1#1)
    ∧ (∀ i, FloatOps.cmpf .olt (FloatOps.hostAbsf (a3 i)) (FloatOps.ofBits (F := F) .f32 0x7F800000#32) = 1#1)
    ∧ (∀ i, IntOp.cmpi .sge (a0 i) 0#32 = 1#1 ∧ IntOp.cmpi .sle (a0 i) 3#32 = 1#1) := by
  have e := congrFun h ix0
  dsimp only [Cert.Pre_input_domain.fn, Cert.Pre_input_domain.fn_part1] at e
  obtain ⟨e13, e19⟩ := IntOp.andi_eq_one.1 e
  obtain ⟨e8, e12⟩ := IntOp.andi_eq_one.1 e13
  obtain ⟨e3, e7⟩ := IntOp.andi_eq_one.1 e8
  exact ⟨fun i => Host.reduce_andi_all _ _ _ _ _ e3 i, fun i => Host.reduce_andi_all _ _ _ _ _ e7 i,
    fun i => Host.reduce_andi_all _ _ _ _ _ e12 i, fun i => IntOp.andi_eq_one.1 (Host.reduce_andi_all _ _ _ _ _ e19 i)⟩

/-- The word 0x7F800000 is +∞. -/
theorem ofBits_inf : Ideal.ofBits .f32 0x7F800000#32 = ⊤ := by simp [Ideal.ofBits, Ideal.ieee]

/-- An extended real whose absolute value is below +∞ is a real. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_inf] at h'
  induction x using EReal.rec with
  | bot => exact absurd h' (by simp [Ideal.cmp])
  | coe r => exact ⟨r, rfl⟩
  | top => exact absurd h' (by simp [Ideal.cmp])

section Ideal
variable [Cert.Pre_input_domain.Facts] {a0 : IVec S4096x200 32} {a1 : FVec Ideal S4x128 .f32} {a2 a3 : FVec Ideal S128 .f32}

/-- Under the precondition every table entry is a real. -/
theorem fin_tbl (h : Cert.Pre_input_domain.fn (F := Ideal) a0 a1 a2 a3 = fun _ => 1#1) : ∀ i, ∃ r : ℝ, a1 i = (r : EReal) :=
  fun i => real_of_abs_lt _ ((parts h).1 i)

/-- Under the precondition every entry of gamma is a real. -/
theorem fin_gamma (h : Cert.Pre_input_domain.fn (F := Ideal) a0 a1 a2 a3 = fun _ => 1#1) : ∀ i, ∃ r : ℝ, a2 i = (r : EReal) :=
  fun i => real_of_abs_lt _ ((parts h).2.1 i)

/-- Under the precondition every entry of beta is a real. -/
theorem fin_beta (h : Cert.Pre_input_domain.fn (F := Ideal) a0 a1 a2 a3 = fun _ => 1#1) : ∀ i, ∃ r : ℝ, a3 i = (r : EReal) :=
  fun i => real_of_abs_lt _ ((parts h).2.2.1 i)

end Ideal

/-- A 32-bit word that is at least 0 and at most 3, read signed, has unsigned value below 4. -/
theorem toNat_lt4 (x : BitVec 32) (h0 : IntOp.cmpi .sge x 0#32 = 1#1) (h3 : IntOp.cmpi .sle x 3#32 = 1#1) : x.toNat < 4 := by
  have h0' := IntOp.cmpi_sge.1 h0
  have h3' := IntOp.cmpi_sle.1 h3
  have e := BitVec.toInt_eq_toNat_cond x
  have hx := x.isLt
  have z : (0#32 : BitVec 32).toInt = 0 := by decide
  have t : (3#32 : BitVec 32).toInt = 3 := by decide
  rw [z] at h0'
  rw [t] at h3'
  split at e <;> omega

/-- Under the precondition, at any float instance, every index word has unsigned value below 4. -/
theorem idx_lt4 [Cert.Pre_input_domain.Facts] {F : FTy → Type} [FloatOps F] {a0 : IVec S4096x200 32}
    {a1 : FVec F S4x128 .f32} {a2 a3 : FVec F S128 .f32}
    (h : Cert.Pre_input_domain.fn (F := F) a0 a1 a2 a3 = fun _ => 1#1) : ∀ i, (a0 i).toNat < 4 :=
  fun i => toNat_lt4 _ ((parts h).2.2.2 i).1 ((parts h).2.2.2 i).2

end Cert.PreFacts

end
-- ==== Proof.Spec.lean ====
/-
  The function both programs compute. Each of the 4096 × 200 positions holds an index into the four rows of the
  table; the result's row at that position is the indexed table row normalised over its 128 entries — the row's mean
  removed, the centred entry multiplied by the reciprocal root of the row's variance plus ε — then scaled entry by
  entry by gamma and shifted by beta. Stated once, over literal shapes, in the order of operations of the side that
  normalises the four table rows first; the other side (index first, normalise each of the 819200 rows after) is shown
  equal to it where the table is finite and every index is one of 0, 1, 2, 3.
-/
import Idealize.ShloMosaic.PureOps.Ideal
import Idealize.ShloMosaic.Lib.ValueIdx

noncomputable section

namespace Cert.Spec

open Idealize.ShloMosaic Idealize.ShloMosaic.ValueIdx

abbrev T4x128 : Shape := ⟨2, ![4, 128]⟩
abbrev T128 : Shape := ⟨1, ![128]⟩
abbrev T4096x200 : Shape := ⟨2, ![4096, 200]⟩
abbrev T4096x200x128 : Shape := ⟨3, ![4096, 200, 128]⟩

/-- The row length 128 and ε, as the words both programs carry. -/
def c128 : EReal := Ideal.ofBits .f32 0x43000000#32
def eps : EReal := Ideal.ofBits .f32 0x2B8CBCCC#32

/-- The mean of table row `k`: the sum of its 128 entries over 128. -/
def mean (tbl : FVec Ideal T4x128 .f32) (k : Fin 4) : EReal := Ideal.div (∑ l : Fin 128, tbl (ix2 k l)) c128

/-- Entry `l` of row `k` with the row's mean removed. -/
def cen (tbl : FVec Ideal T4x128 .f32) (k : Fin 4) (l : Fin 128) : EReal := tbl (ix2 k l) - mean tbl k

/-- The (biased) variance of row `k`: the mean of the squared centred entries. -/
def var (tbl : FVec Ideal T4x128 .f32) (k : Fin 4) : EReal := Ideal.div (∑ l : Fin 128, cen tbl k l * cen tbl k l) c128

/-- Entry `l` of the normalised, scaled and shifted row `k`. -/
def lnRow (tbl : FVec Ideal T4x128 .f32) (g b : FVec Ideal T128 .f32) (k : Fin 4) (l : Fin 128) : EReal :=
  cen tbl k l * Ideal.rsqrt (var tbl k + eps) * g (ix1 l) + b (ix1 l)

/-- The table row an index word names: its value modulo 4 (the value itself for the words 0, 1, 2, 3). -/
def rowOf (x : BitVec 32) : Fin 4 := ⟨x.toNat % 4, Nat.mod_lt _ (by decide)⟩

/-- The whole result: position `(p, q)`, entry `l`, is entry `l` of the normalised row that `idx (p, q)` names. -/
def out (idx : IVec T4096x200 32) (tbl : FVec Ideal T4x128 .f32) (g b : FVec Ideal T128 .f32) : FVec Ideal T4096x200x128 .f32 :=
  fun i => lnRow tbl g b (rowOf (idx (ix2 (n0 := 4096) (n1 := 200) ⟨(i 0).val, (i 0).isLt⟩ ⟨(i 1).val, (i 1).isLt⟩)))
    (⟨(i 2).val, (i 2).isLt⟩ : Fin 128)

theorem out_apply (idx : IVec T4096x200 32) (tbl : FVec Ideal T4x128 .f32) (g b : FVec Ideal T128 .f32)
    (p : Fin 4096) (q : Fin 200) (l : Fin 128) :
    out idx tbl g b (ix3 p q l) = lnRow tbl g b (rowOf (idx (ix2 p q))) l := rfl

end Cert.Spec

end
-- ==== Proof.KValue.lean ====
/-
  The program's result, read index by index, is the specification's function of the four arguments.

  The result array is the 819200 × 128 array of gathered rows re-laid as 4096 × 200 × 128: position `(p, q)` is row
  `n = 200 p + q`. Row `n` was gathered by the subcore that owns slab `w = n div 25600`, as lane `r = n mod 128` of its
  row `t = (n mod 25600) div 128` of indices, and the index array re-laid as 32 × 200 × 128 holds at `(w, t, r)` the
  word at flat position `n`, that is the index at `(p, q)`. The gathered row is row `(x + 4 ρ(r)) mod 256` of the
  256-row table, `x` the index word, `ρ(r) < 64`; with `x < 4` that is row `4 ρ(r) + x`, which in the table written
  64 times over is copy `ρ(r)` of normalised row `x`. Every copy is the same: normalised row `x` at entry `l` is the
  centred entry times the reciprocal root of the variance plus ε, times gamma, plus beta.
-/
import proofs.«214982_g87402584473731_cont_9to1c4b_667_31_alg».proof.Proof.Common
import proofs.«214982_g87402584473731_cont_9to1c4b_667_31_alg».proof.Proof.Spec
import Idealize.ShloMosaic.Lib.Pipeline.Value
import Idealize.ShloMosaic.PureOps.Ideal.Laws

noncomputable section

namespace Cert.KernelIdeal.Hand

open Cert.KernelIdeal Cert.KernelIdeal.Gen

open Idealize.ShloMosaic Idealize.ShloMosaic.ValueIdx
open Idealize.ShloMosaic.SparseCore (S V T)

/-! ## The layout operations at an index -/

/-- A 4-vector as a 4 × 1 column. -/
theorem c_col_apply (v : FVec Ideal S4 .f32) (x : Fin 4) : shapeCast S4x1 v shapeCasts_S4_S4x1 (ix2 x (0 : Fin 1)) = v (ix1 x) := by
  refine shapeCast_apply v shapeCasts_S4_S4x1 (ix2 x (0 : Fin 1)) (ix1 x) ?_
  rw [Shape.rowMajor_val_one, Shape.rowMajor_val_two]
  show x.val = x.val * 1 + 0
  omega

/-- The lane sum of a 4 × 128 array, as a column, at row `x`. -/
theorem c_rowsum_apply (v : FVec Ideal S4x128 .f32) (hφ : FTy.f32 = FTy.f32 ∨ FTy.f32 = FTy.bf16) (hacc : (0x00000000#32 : BitVec 32) = 0x00000000#32)
    (x : Fin 4) :
    shapeCast S4x1 (multiReduction (F := Ideal) .add [1] S4 v 0x00000000#32 reduces_S4x128_S4 hφ hacc) shapeCasts_S4_S4x1 (ix2 x (0 : Fin 1))
      = ∑ l : Fin 128, v (ix2 x l) := by
  rw [c_col_apply]
  refine (Ideal.multiReduction_add_single v 0x00000000#32 reduces_S4x128_S4 hφ hacc (ix1 x)).trans ?_
  refine Finset.sum_congr rfl fun l _ => congrArg v ?_
  funext a
  match a with
  | ⟨0, _⟩ => exact Fin.ext rfl
  | ⟨1, _⟩ => exact Fin.ext rfl

/-- A 4 × 1 column spread over 128 lanes. -/
theorem c_bcast_col (c : FVec Ideal S4x1 .f32) (x : Fin 4) (l : Fin 128) :
    broadcastTo S4x128 c broadcasts_S4x1_S4x128 (ix2 x l) = c (ix2 x (0 : Fin 1)) :=
  broadcastTo_apply c broadcasts_S4x1_S4x128 (ix2 x l) (ix2 x (0 : Fin 1)) (by
    intro a; match a with | ⟨0, _⟩ => rfl | ⟨1, _⟩ => rfl)

/-- A 1 × 128 row spread over 4 rows. -/
theorem c_bcast_row (g : FVec Ideal S1x128 .f32) (x : Fin 4) (l : Fin 128) :
    broadcastTo S4x128 (shapeCast S1x128 g shapeCasts_S1x128_S1x128) broadcasts_S1x128_S4x128 (ix2 x l) = g (ix2 (0 : Fin 1) l) := by
  rw [shapeCast_self]
  exact broadcastTo_apply g broadcasts_S1x128_S4x128 (ix2 x l) (ix2 (0 : Fin 1) l) (by
    intro a; match a with | ⟨0, _⟩ => rfl | ⟨1, _⟩ => rfl)

/-- A 4 × 128 array under a leading unit axis. -/
theorem c_lead_apply (v : FVec Ideal S4x128 .f32) (x : Fin 4) (l : Fin 128) :
    shapeCast S1x4x128 v shapeCasts_S4x128_S1x4x128 (ix3 (0 : Fin 1) x l) = v (ix2 x l) := by
  refine shapeCast_apply v shapeCasts_S4x128_S1x4x128 (ix3 (0 : Fin 1) x l) (ix2 x l) ?_
  rw [Shape.rowMajor_val_two, Shape.rowMajor_val_three]
  show x.val * 128 + l.val = (0 * 4 + x.val) * 128 + l.val
  omega

theorem c_rsqrt_apply {s : Shape} {φ : FTy} (a : FVec Ideal s φ) (i : s.Idx) : rsqrt a i = Ideal.rsqrt (a i) := rfl

/-! ## The normalised table, written 64 times over -/

/-- Copy `r` of the payload, row `x`, entry `l`: the normalised row, whatever the copy. -/
theorem c_pay1_apply (tbl : Vec Ideal S4x128 .f32) (g b : Vec Ideal S1x128 .f32) (r : Fin 64) (x : Fin 4) (l : Fin 128) :
    Gen.k0_pay1 (F := Ideal) tbl g b (ix3 r x l)
      = Cert.Spec.cen tbl x l * Ideal.rsqrt (Cert.Spec.var tbl x + Cert.Spec.eps) * g (ix2 (0 : Fin 1) l) + b (ix2 (0 : Fin 1) l) := by
  unfold Gen.k0_pay1
  rw [broadcastTo_apply _ _ (ix3 r x l) (ix3 (n0 := 1) 0 x l) (by intro a; match a with | ⟨0, _⟩ => rfl | ⟨1, _⟩ => rfl | ⟨2, _⟩ => rfl)]
  rw [shapeCast_self, c_lead_apply]
  simp only [addf_apply, mulf_apply, subf_apply, divf_apply, broadcast_apply, c_rsqrt_apply, c_bcast_col, c_bcast_row]
  rw [c_rowsum_apply, c_rowsum_apply]
  simp only [mulf_apply, subf_apply, divf_apply, broadcast_apply, c_bcast_col]
  rw [c_rowsum_apply]
  rfl

/-! ## The arrays of the launch memory at an index -/

variable (m : (ℓ : Loc nD τ sig) → Buf (Elt Ideal) ℓ) (d : Dev nD)

/-- gamma as a 1 × 128 row. -/
theorem c_gRow_apply (l : Fin 128) : gRowV (F := Ideal) m d (ix2 (0 : Fin 1) l) = (m (a2Loc d) : Vec Ideal S128 .f32) (ix1 l) := by
  unfold gRowV
  refine shapeCast_apply _ shapeCasts_S128_S1x128 (ix2 (0 : Fin 1) l) (ix1 l) ?_
  rw [Shape.rowMajor_val_one, Shape.rowMajor_val_two]
  show l.val = 0 * 128 + l.val
  omega
/-- beta as a 1 × 128 row. -/
theorem c_bRow_apply (l : Fin 128) : bRowV (F := Ideal) m d (ix2 (0 : Fin 1) l) = (m (a3Loc d) : Vec Ideal S128 .f32) (ix1 l) := by
  unfold bRowV
  refine shapeCast_apply _ shapeCasts_S128_S1x128 (ix2 (0 : Fin 1) l) (ix1 l) ?_
  rw [Shape.rowMajor_val_one, Shape.rowMajor_val_two]
  show l.val = 0 * 128 + l.val
  omega

/-- The normalised table written 64 times over: every copy of row `x` is the specification's row `x`. -/
theorem c_T2_apply (r : Fin 64) (x : Fin 4) (l : Fin 128) :
    T2 (F := Ideal) m d (ix3 r x l) = Cert.Spec.lnRow (m (a1Loc d)) (m (a2Loc d)) (m (a3Loc d)) x l := by
  unfold T2
  rw [c_pay1_apply, c_gRow_apply, c_bRow_apply]
  rfl

/-- The 256-row table: row `4 r + x` is copy `r` of row `x`. -/
theorem c_T3_apply (r : Fin 64) (x : Fin 4) (l : Fin 128) (h : 4 * r.val + x.val < 256) :
    T3 (F := Ideal) m d (ix2 (⟨4 * r.val + x.val, h⟩ : Fin 256) l) = T2 m d (ix3 r x l) := by
  unfold T3
  refine shapeCast_apply _ shapeCasts_S64x4x128_S256x128 (ix2 (⟨4 * r.val + x.val, h⟩ : Fin 256) l) (ix3 r x l) ?_
  rw [Shape.rowMajor_val_two, Shape.rowMajor_val_three]
  show (r.val * 4 + x.val) * 128 + l.val = (4 * r.val + x.val) * 128 + l.val
  omega

/-- The indices in slabs: slab `w`, row `t`, lane `r` holds the word at the same flat position of the 4096 × 200 array. -/
theorem c_I4_apply (w : Fin 32) (t : Fin 200) (r : Fin 128) (p : Fin 4096) (q : Fin 200)
    (h : (w.val * 200 + t.val) * 128 + r.val = p.val * 200 + q.val) :
    I4 (F := Ideal) m d (ix3 w t r) = (m (a0Loc d) : Vec Ideal S4096x200 .i32) (ix2 p q) := by
  unfold I4
  refine shapeCast_apply _ shapeCasts_S4096x200_S32x200x128 (ix3 w t r) (ix2 p q) ?_
  rw [Shape.rowMajor_val_two, Shape.rowMajor_val_three]
  show p.val * 200 + q.val = (w.val * 200 + t.val) * 128 + r.val
  omega

/-- The result re-laid: position `(p, q)` is row `200 p + q`. -/
theorem c_O6_apply (p : Fin 4096) (q : Fin 200) (l : Fin 128) (h : 200 * p.val + q.val < 819200) :
    O6 (F := Ideal) m d (ix3 p q l) = O5 m d (ix2 (⟨200 * p.val + q.val, h⟩ : Fin 819200) l) := by
  unfold O6
  refine shapeCast_apply _ shapeCasts_S819200x128_S4096x200x128 (ix3 p q l) (ix2 (⟨200 * p.val + q.val, h⟩ : Fin 819200) l) ?_
  rw [Shape.rowMajor_val_two, Shape.rowMajor_val_three]
  show (200 * p.val + q.val) * 128 + l.val = (p.val * 200 + q.val) * 128 + l.val
  omega

theorem c_kv_rho_lt (r : Fin 128) : rho r < 64 := by
  unfold rho
  have := r.isLt
  omega

/-- With an index word below 4, the gathered row is copy `ρ(r)` of the row the word names. -/
theorem c_gRow_eq (x : BitVec 32) (hx : x.toNat < 4) (r : Fin 128) (h : 4 * rho r + x.toNat < 256) :
    gRow x r = (⟨4 * rho r + x.toNat, h⟩ : Fin 256) := by
  refine Fin.ext ?_
  show (x.toNat + 4 * rho r) % 256 = 4 * rho r + x.toNat
  have := c_kv_rho_lt r
  omega

theorem c_rowOf_eq (x : BitVec 32) (hx : x.toNat < 4) : Cert.Spec.rowOf x = (⟨x.toNat, hx⟩ : Fin 4) :=
  Fin.ext (Nat.mod_eq_of_lt hx)

/-- Row `200 p + q` of the gathered rows is the specification's row for the index at `(p, q)`. -/
theorem c_O5_apply (hidx : ∀ j : S4096x200.Idx, ((m (a0Loc d) : Vec Ideal S4096x200 .i32) j : BitVec 32).toNat < 4)
    (p : Fin 4096) (q : Fin 200) (l : Fin 128) (h : 200 * p.val + q.val < 819200) :
    O5 (F := Ideal) m d (ix2 (⟨200 * p.val + q.val, h⟩ : Fin 819200) l)
      = Cert.Spec.lnRow (m (a1Loc d)) (m (a2Loc d)) (m (a3Loc d)) (Cert.Spec.rowOf ((m (a0Loc d) : Vec Ideal S4096x200 .i32) (ix2 p q))) l := by
  have hw : (200 * p.val + q.val) / 25600 < 32 := by omega
  have ht : (200 * p.val + q.val) % 25600 / 128 < 200 := by omega
  have hr : (200 * p.val + q.val) % 128 < 128 := by omega
  have hI : I4 (F := Ideal) m d (ix3 (⟨(200 * p.val + q.val) / 25600, hw⟩ : Fin 32) (⟨(200 * p.val + q.val) % 25600 / 128, ht⟩ : Fin 200)
      (⟨(200 * p.val + q.val) % 128, hr⟩ : Fin 128)) = (m (a0Loc d) : Vec Ideal S4096x200 .i32) (ix2 p q) :=
    c_I4_apply m d _ _ _ p q (by show ((200 * p.val + q.val) / 25600 * 200 + (200 * p.val + q.val) % 25600 / 128) * 128 + (200 * p.val + q.val) % 128 = p.val * 200 + q.val; omega)
  have hx := hidx (ix2 p q)
  show T3 (F := Ideal) m d (ix2 (gRow (I4 (F := Ideal) m d (ix3 (⟨(200 * p.val + q.val) / 25600, hw⟩ : Fin 32)
      (⟨(200 * p.val + q.val) % 25600 / 128, ht⟩ : Fin 200) (⟨(200 * p.val + q.val) % 128, hr⟩ : Fin 128)) : BitVec 32)
      (⟨(200 * p.val + q.val) % 128, hr⟩ : Fin 128)) l) = _
  rw [hI, c_rowOf_eq _ hx]
  have hrow : 4 * rho (⟨(200 * p.val + q.val) % 128, hr⟩ : Fin 128) + ((m (a0Loc d) : Vec Ideal S4096x200 .i32) (ix2 p q) : BitVec 32).toNat < 256 := by
    have := c_kv_rho_lt (⟨(200 * p.val + q.val) % 128, hr⟩ : Fin 128)
    omega
  rw [c_gRow_eq _ hx _ hrow]
  exact (c_T3_apply m d (⟨rho (⟨(200 * p.val + q.val) % 128, hr⟩ : Fin 128), c_kv_rho_lt _⟩ : Fin 64) (⟨_, hx⟩ : Fin 4) l hrow).trans
    (c_T2_apply m d _ _ l)

/-- The program's result is the specification's function of its four arguments, when every index word is one of 0, 1, 2, 3. -/
theorem O6_eq_spec (m : (ℓ : Loc nD τ sig) → Buf (Elt Ideal) ℓ) (d : Dev nD)
    (hidx : ∀ j : S4096x200.Idx, ((m (a0Loc d) : Vec Ideal S4096x200 .i32) j : BitVec 32).toNat < 4) :
    O6 (F := Ideal) m d = Cert.Spec.out (m (a0Loc d)) (m (a1Loc d)) (m (a2Loc d)) (m (a3Loc d)) := by
  funext i
  obtain ⟨p, q, l, rfl⟩ : ∃ (p : Fin 4096) (q : Fin 200) (l : Fin 128), i = ix3 p q l := ⟨i 0, i 1, i 2, eq_ix3 i⟩
  have h : 200 * p.val + q.val < 819200 := by omega
  rw [c_O6_apply m d p q l h, c_O5_apply m d hidx p q l h]
  rfl

end Cert.KernelIdeal.Hand
end
-- ==== Proof.RefOps.lean ====
/-
  The reference program run to its end, and what it leaves in its result.

  The program is a straight line of fifty-two array operations: first an index lookup (the rows of the 4 × 128 table
  named by the 4096 × 200 index array, with the index wrapped when negative and a fill value where the wrapped index
  is out of range: twenty-three operations), then the normalisation of every looked-up row over its 128 entries
  (the row's mean, the centred entries, their mean square, the division by the root of that plus ε, the scale by
  gamma and the shift by beta: twenty-nine operations). A straight line of array operations run in order leaves each
  buffer at the fold of the operations over the launch contents: the composition of the operations that wrote it,
  applied to the argument arrays.
-/
import proofs.«214982_g87402584473731_cont_9to1c4b_667_31_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The operations, in order -/

section Ops
variable {F : FTy → Type} [FloatOps F]

/-- The program's fifty-two operations in order: the lookup's twenty-three (the comparison with 0 and the sum with 4
    feed the select that wraps a negative index; the two comparisons with 0 and 3, their conjunction and its reduction
    over the unit axis are the in-range mask; the gather reads the table; the last select keeps the gathered entry
    where the mask is set and the fill value elsewhere), then the normalisation's twenty-nine. -/
abbrev ops : List (HloOp τ sig (Elt F)) :=
  [ nullary main_call0_c (constantI S_ 32 0#32),
    unary main_call0_c main_call0_v0 (broadcastInDim S4096x200 ![] bcast_S_S4096x200 : (⟨S_, .i32⟩ : BufTy).Contents (Elt F) → (⟨S4096x200, .i32⟩ : BufTy).Contents (Elt F)),
    binary main_arg0 main_call0_v0 main_call0_v1 (cmpi .slt : (⟨S4096x200, .i32⟩ : BufTy).Contents (Elt F) → (⟨S4096x200, .i32⟩ : BufTy).Contents (Elt F) → (⟨S4096x200, .i1⟩ : BufTy).Contents (Elt F)),
    nullary main_call0_c_0 (constantI S_ 32 4#32),
    unary main_call0_c_0 main_call0_v2 (broadcastInDim S4096x200 ![] bcast_S_S4096x200 : (⟨S_, .i32⟩ : BufTy).Contents (Elt F) → (⟨S4096x200, .i32⟩ : BufTy).Contents (Elt F)),
    binary main_arg0 main_call0_v2 main_call0_v3 (addi : (⟨S4096x200, .i32⟩ : BufTy).Contents (Elt F) → (⟨S4096x200, .i32⟩ : BufTy).Contents (Elt F) → (⟨S4096x200, .i32⟩ : BufTy).Contents (Elt F)),
    ternary main_call0_v1 main_call0_v3 main_arg0 main_call0_v4 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_call0_v4 main_call0_v5 (broadcastInDim S4096x200x1 ![0, 1] bcast_S4096x200_S4096x200x1_0_1 : (⟨S4096x200, .i32⟩ : BufTy).Contents (Elt F) → (⟨S4096x200x1, .i32⟩ : BufTy).Contents (Elt F)),
    nullary main_call0_c_1 (constantI S1 32 3#32),
    nullary main_call0_c_2 (constantI S_ 32 0#32),
    unary main_call0_c_2 main_call0_v6 (broadcastInDim S4096x200x1 ![] bcast_S_S4096x200x1 : (⟨S_, .i32⟩ : BufTy).Contents (Elt F) → (⟨S4096x200x1, .i32⟩ : BufTy).Contents (Elt F)),
    binary main_call0_v5 main_call0_v6 main_call0_v7 (cmpi .sge : (⟨S4096x200x1, .i32⟩ : BufTy).Contents (Elt F) → (⟨S4096x200x1, .i32⟩ : BufTy).Contents (Elt F) → (⟨S4096x200x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S4096x200x1 ![0, 1, 2] bcast_S1x1x1_S4096x200x1_0_1_2 : (⟨S1x1x1, .i32⟩ : BufTy).Contents (Elt F) → (⟨S4096x200x1, .i32⟩ : BufTy).Contents (Elt F)),
    binary main_call0_v5 main_call0_v9 main_call0_v10 (cmpi .sle : (⟨S4096x200x1, .i32⟩ : BufTy).Contents (Elt F) → (⟨S4096x200x1, .i32⟩ : BufTy).Contents (Elt F) → (⟨S4096x200x1, .i1⟩ : BufTy).Contents (Elt F)),
    binary main_call0_v7 main_call0_v10 main_call0_v11 (andi : (⟨S4096x200x1, .i1⟩ : BufTy).Contents (Elt F) → (⟨S4096x200x1, .i1⟩ : BufTy).Contents (Elt F) → (⟨S4096x200x1, .i1⟩ : BufTy).Contents (Elt F)),
    nullary main_call0_c_3 (constantI S_ 1 1#1),
    binary main_call0_v11 main_call0_c_3 main_call0_v12 ((fun x v => Host.reduce IntOp.andi x v reducesTo_S4096x200x1_S4096x200_d2 h_S_) : (⟨S4096x200x1, .i1⟩ : BufTy).Contents (Elt F) → (⟨S_, .i1⟩ : BufTy).Contents (Elt F) → (⟨S4096x200, .i1⟩ : BufTy).Contents (Elt F)),
    binary main_arg1 main_call0_v5 main_call0_v13 ((fun x i => Host.gather gather_S4x128_S4096x200x1_S4096x200x128_2_0_n_n_0_2_1128 x i) : (⟨S4x128, .f32⟩ : BufTy).Contents (Elt F) → (⟨S4096x200x1, .i32⟩ : BufTy).Contents (Elt F) → (⟨S4096x200x128, .f32⟩ : BufTy).Contents (Elt F)),
    unary main_call0_v12 main_call0_v14 (broadcastInDim S4096x200x128 ![0, 1] bcast_S4096x200_S4096x200x128_0_1 : (⟨S4096x200, .i1⟩ : BufTy).Contents (Elt F) → (⟨S4096x200x128, .i1⟩ : BufTy).Contents (Elt F)),
    nullary main_call0_cst (constant S_ .f32 0x7FC00000#32),
    unary main_call0_cst main_call0_v15 (broadcastInDim S4096x200x128 ![] bcast_S_S4096x200x128 : (⟨S_, .f32⟩ : BufTy).Contents (Elt F) → (⟨S4096x200x128, .f32⟩ : BufTy).Contents (Elt F)),
    ternary main_call0_v14 main_call0_v13 main_call0_v15 main_v0 (select : (⟨S4096x200x128, .i1⟩ : BufTy).Contents (Elt F) → (⟨S4096x200x128, .f32⟩ : BufTy).Contents (Elt F) → (⟨S4096x200x128, .f32⟩ : BufTy).Contents (Elt F) → (⟨S4096x200x128, .f32⟩ : BufTy).Contents (Elt F)),
    nullary main_cst (constant S_ .f32 0x00000000#32),
    binary main_v0 main_cst main_v1 ((fun x v => Host.reduceAdd x v reducesTo_S4096x200x128_S4096x200_d2 h_S_) : (⟨S4096x200x128, .f32⟩ : BufTy).Contents (Elt F) → (⟨S_, .f32⟩ : BufTy).Contents (Elt F) → (⟨S4096x200, .f32⟩ : BufTy).Contents (Elt F)),
    unary main_v1 main_v2 (broadcastInDim S4096x200x1 ![0, 1] bcast_S4096x200_S4096x200x1_0_1 : (⟨S4096x200, .f32⟩ : BufTy).Contents (Elt F) → (⟨S4096x200x1, .f32⟩ : BufTy).Contents (Elt F)),
    nullary main_cst_0 (constant S_ .f32 0x43000000#32),
    unary main_cst_0 main_v3 (broadcastInDim S4096x200x1 ![] bcast_S_S4096x200x1 : (⟨S_, .f32⟩ : BufTy).Contents (Elt F) → (⟨S4096x200x1, .f32⟩ : BufTy).Contents (Elt F)),
    binary main_v2 main_v3 main_v4 (Host.divf : (⟨S4096x200x1, .f32⟩ : BufTy).Contents (Elt F) → (⟨S4096x200x1, .f32⟩ : BufTy).Contents (Elt F) → (⟨S4096x200x1, .f32⟩ : BufTy).Contents (Elt F)),
    unary main_v4 main_v5 (broadcastInDim S4096x200x128 ![0, 1, 2] bcast_S4096x200x1_S4096x200x128_0_1_2 : (⟨S4096x200x1, .f32⟩ : BufTy).Contents (Elt F) → (⟨S4096x200x128, .f32⟩ : BufTy).Contents (Elt F)),
    binary main_v0 main_v5 main_v6 (subf : (⟨S4096x200x128, .f32⟩ : BufTy).Contents (Elt F) → (⟨S4096x200x128, .f32⟩ : BufTy).Contents (Elt F) → (⟨S4096x200x128, .f32⟩ : BufTy).Contents (Elt F)),
    binary main_v6 main_v6 main_v7 (mulf : (⟨S4096x200x128, .f32⟩ : BufTy).Contents (Elt F) → (⟨S4096x200x128, .f32⟩ : BufTy).Contents (Elt F) → (⟨S4096x200x128, .f32⟩ : BufTy).Contents (Elt F)),
    nullary main_cst_1 (constant S_ .f32 0x00000000#32),
    binary main_v7 main_cst_1 main_v8 ((fun x v => Host.reduceAdd x v reducesTo_S4096x200x128_S4096x200_d2 h_S_) : (⟨S4096x200x128, .f32⟩ : BufTy).Contents (Elt F) → (⟨S_, .f32⟩ : BufTy).Contents (Elt F) → (⟨S4096x200, .f32⟩ : BufTy).Contents (Elt F)),
    unary main_v8 main_v9 (broadcastInDim S4096x200x1 ![0, 1] bcast_S4096x200_S4096x200x1_0_1 : (⟨S4096x200, .f32⟩ : BufTy).Contents (Elt F) → (⟨S4096x200x1, .f32⟩ : BufTy).Contents (Elt F)),
    nullary main_cst_2 (constant S_ .f32 0x43000000#32),
    unary main_cst_2 main_v10 (broadcastInDim S4096x200x1 ![] bcast_S_S4096x200x1 : (⟨S_, .f32⟩ : BufTy).Contents (Elt F) → (⟨S4096x200x1, .f32⟩ : BufTy).Contents (Elt F)),
    binary main_v9 main_v10 main_v11 (Host.divf : (⟨S4096x200x1, .f32⟩ : BufTy).Contents (Elt F) → (⟨S4096x200x1, .f32⟩ : BufTy).Contents (Elt F) → (⟨S4096x200x1, .f32⟩ : BufTy).Contents (Elt F)),
    unary main_v4 main_v12 (broadcastInDim S4096x200x128 ![0, 1, 2] bcast_S4096x200x1_S4096x200x128_0_1_2 : (⟨S4096x200x1, .f32⟩ : BufTy).Contents (Elt F) → (⟨S4096x200x128, .f32⟩ : BufTy).Contents (Elt F)),
    binary main_v0 main_v12 main_v13 (subf : (⟨S4096x200x128, .f32⟩ : BufTy).Contents (Elt F) → (⟨S4096x200x128, .f32⟩ : BufTy).Contents (Elt F) → (⟨S4096x200x128, .f32⟩ : BufTy).Contents (Elt F)),
    nullary main_cst_3 (constant S_ .f32 0x2B8CBCCC#32),
    unary main_cst_3 main_v14 (broadcastInDim S4096x200x1 ![] bcast_S_S4096x200x1 : (⟨S_, .f32⟩ : BufTy).Contents (Elt F) → (⟨S4096x200x1, .f32⟩ : BufTy).Contents (Elt F)),
    binary main_v11 main_v14 main_v15 (addf : (⟨S4096x200x1, .f32⟩ : BufTy).Contents (Elt F) → (⟨S4096x200x1, .f32⟩ : BufTy).Contents (Elt F) → (⟨S4096x200x1, .f32⟩ : BufTy).Contents (Elt F)),
    unary main_v15 main_v16 (Host.sqrt : (⟨S4096x200x1, .f32⟩ : BufTy).Contents (Elt F) → (⟨S4096x200x1, .f32⟩ : BufTy).Contents (Elt F)),
    unary main_v16 main_v17 (broadcastInDim S4096x200x128 ![0, 1, 2] bcast_S4096x200x1_S4096x200x128_0_1_2 : (⟨S4096x200x1, .f32⟩ : BufTy).Contents (Elt F) → (⟨S4096x200x128, .f32⟩ : BufTy).Contents (Elt F)),
    binary main_v13 main_v17 main_v18 (Host.divf : (⟨S4096x200x128, .f32⟩ : BufTy).Contents (Elt F) → (⟨S4096x200x128, .f32⟩ : BufTy).Contents (Elt F) → (⟨S4096x200x128, .f32⟩ : BufTy).Contents (Elt F)),
    unary main_arg2 main_v19 (broadcastInDim S1x1x128 ![2] bcast_S128_S1x1x128_2 : (⟨S128, .f32⟩ : BufTy).Contents (Elt F) → (⟨S1x1x128, .f32⟩ : BufTy).Contents (Elt F)),
    unary main_v19 main_v20 (broadcastInDim S4096x200x128 ![0, 1, 2] bcast_S1x1x128_S4096x200x128_0_1_2 : (⟨S1x1x128, .f32⟩ : BufTy).Contents (Elt F) → (⟨S4096x200x128, .f32⟩ : BufTy).Contents (Elt F)),
    binary main_v18 main_v20 main_v21 (mulf : (⟨S4096x200x128, .f32⟩ : BufTy).Contents (Elt F) → (⟨S4096x200x128, .f32⟩ : BufTy).Contents (Elt F) → (⟨S4096x200x128, .f32⟩ : BufTy).Contents (Elt F)),
    unary main_arg3 main_v22 (broadcastInDim S1x1x128 ![2] bcast_S128_S1x1x128_2 : (⟨S128, .f32⟩ : BufTy).Contents (Elt F) → (⟨S1x1x128, .f32⟩ : BufTy).Contents (Elt F)),
    unary main_v22 main_v23 (broadcastInDim S4096x200x128 ![0, 1, 2] bcast_S1x1x128_S4096x200x128_0_1_2 : (⟨S1x1x128, .f32⟩ : BufTy).Contents (Elt F) → (⟨S4096x200x128, .f32⟩ : BufTy).Contents (Elt F)),
    binary main_v21 main_v23 main_v24 (addf : (⟨S4096x200x128, .f32⟩ : BufTy).Contents (Elt F) → (⟨S4096x200x128, .f32⟩ : BufTy).Contents (Elt F) → (⟨S4096x200x128, .f32⟩ : BufTy).Contents (Elt F)) ]

/-- The first eight: the wrapped index with its unit axis. -/
abbrev opsA : List (HloOp τ sig (Elt F)) :=
  [ nullary main_call0_c (constantI S_ 32 0#32),
    unary main_call0_c main_call0_v0 (broadcastInDim S4096x200 ![] bcast_S_S4096x200 : (⟨S_, .i32⟩ : BufTy).Contents (Elt F) → (⟨S4096x200, .i32⟩ : BufTy).Contents (Elt F)),
    binary main_arg0 main_call0_v0 main_call0_v1 (cmpi .slt : (⟨S4096x200, .i32⟩ : BufTy).Contents (Elt F) → (⟨S4096x200, .i32⟩ : BufTy).Contents (Elt F) → (⟨S4096x200, .i1⟩ : BufTy).Contents (Elt F)),
    nullary main_call0_c_0 (constantI S_ 32 4#32),
    unary main_call0_c_0 main_call0_v2 (broadcastInDim S4096x200 ![] bcast_S_S4096x200 : (⟨S_, .i32⟩ : BufTy).Contents (Elt F) → (⟨S4096x200, .i32⟩ : BufTy).Contents (Elt F)),
    binary main_arg0 main_call0_v2 main_call0_v3 (addi : (⟨S4096x200, .i32⟩ : BufTy).Contents (Elt F) → (⟨S4096x200, .i32⟩ : BufTy).Contents (Elt F) → (⟨S4096x200, .i32⟩ : BufTy).Contents (Elt F)),
    ternary main_call0_v1 main_call0_v3 main_arg0 main_call0_v4 (select : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)),
    unary main_call0_v4 main_call0_v5 (broadcastInDim S4096x200x1 ![0, 1] bcast_S4096x200_S4096x200x1_0_1 : (⟨S4096x200, .i32⟩ : BufTy).Contents (Elt F) → (⟨S4096x200x1, .i32⟩ : BufTy).Contents (Elt F)) ]

/-- The next fifteen: the mask, the gather and the select between the gathered entry and the fill value. -/
abbrev opsB : List (HloOp τ sig (Elt F)) :=
  [ nullary main_call0_c_1 (constantI S1 32 3#32),
    nullary main_call0_c_2 (constantI S_ 32 0#32),
    unary main_call0_c_2 main_call0_v6 (broadcastInDim S4096x200x1 ![] bcast_S_S4096x200x1 : (⟨S_, .i32⟩ : BufTy).Contents (Elt F) → (⟨S4096x200x1, .i32⟩ : BufTy).Contents (Elt F)),
    binary main_call0_v5 main_call0_v6 main_call0_v7 (cmpi .sge : (⟨S4096x200x1, .i32⟩ : BufTy).Contents (Elt F) → (⟨S4096x200x1, .i32⟩ : BufTy).Contents (Elt F) → (⟨S4096x200x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S4096x200x1 ![0, 1, 2] bcast_S1x1x1_S4096x200x1_0_1_2 : (⟨S1x1x1, .i32⟩ : BufTy).Contents (Elt F) → (⟨S4096x200x1, .i32⟩ : BufTy).Contents (Elt F)),
    binary main_call0_v5 main_call0_v9 main_call0_v10 (cmpi .sle : (⟨S4096x200x1, .i32⟩ : BufTy).Contents (Elt F) → (⟨S4096x200x1, .i32⟩ : BufTy).Contents (Elt F) → (⟨S4096x200x1, .i1⟩ : BufTy).Contents (Elt F)),
    binary main_call0_v7 main_call0_v10 main_call0_v11 (andi : (⟨S4096x200x1, .i1⟩ : BufTy).Contents (Elt F) → (⟨S4096x200x1, .i1⟩ : BufTy).Contents (Elt F) → (⟨S4096x200x1, .i1⟩ : BufTy).Contents (Elt F)),
    nullary main_call0_c_3 (constantI S_ 1 1#1),
    binary main_call0_v11 main_call0_c_3 main_call0_v12 ((fun x v => Host.reduce IntOp.andi x v reducesTo_S4096x200x1_S4096x200_d2 h_S_) : (⟨S4096x200x1, .i1⟩ : BufTy).Contents (Elt F) → (⟨S_, .i1⟩ : BufTy).Contents (Elt F) → (⟨S4096x200, .i1⟩ : BufTy).Contents (Elt F)),
    binary main_arg1 main_call0_v5 main_call0_v13 ((fun x i => Host.gather gather_S4x128_S4096x200x1_S4096x200x128_2_0_n_n_0_2_1128 x i) : (⟨S4x128, .f32⟩ : BufTy).Contents (Elt F) → (⟨S4096x200x1, .i32⟩ : BufTy).Contents (Elt F) → (⟨S4096x200x128, .f32⟩ : BufTy).Contents (Elt F)),
    unary main_call0_v12 main_call0_v14 (broadcastInDim S4096x200x128 ![0, 1] bcast_S4096x200_S4096x200x128_0_1 : (⟨S4096x200, .i1⟩ : BufTy).Contents (Elt F) → (⟨S4096x200x128, .i1⟩ : BufTy).Contents (Elt F)),
    nullary main_call0_cst (constant S_ .f32 0x7FC00000#32),
    unary main_call0_cst main_call0_v15 (broadcastInDim S4096x200x128 ![] bcast_S_S4096x200x128 : (⟨S_, .f32⟩ : BufTy).Contents (Elt F) → (⟨S4096x200x128, .f32⟩ : BufTy).Contents (Elt F)),
    ternary main_call0_v14 main_call0_v13 main_call0_v15 main_v0 (select : (⟨S4096x200x128, .i1⟩ : BufTy).Contents (Elt F) → (⟨S4096x200x128, .f32⟩ : BufTy).Contents (Elt F) → (⟨S4096x200x128, .f32⟩ : BufTy).Contents (Elt F) → (⟨S4096x200x128, .f32⟩ : BufTy).Contents (Elt F)) ]

/-- The last twenty-nine: the normalisation of the looked-up rows. -/
abbrev opsC : List (HloOp τ sig (Elt F)) :=
  [ nullary main_cst (constant S_ .f32 0x00000000#32),
    binary main_v0 main_cst main_v1 ((fun x v => Host.reduceAdd x v reducesTo_S4096x200x128_S4096x200_d2 h_S_) : (⟨S4096x200x128, .f32⟩ : BufTy).Contents (Elt F) → (⟨S_, .f32⟩ : BufTy).Contents (Elt F) → (⟨S4096x200, .f32⟩ : BufTy).Contents (Elt F)),
    unary main_v1 main_v2 (broadcastInDim S4096x200x1 ![0, 1] bcast_S4096x200_S4096x200x1_0_1 : (⟨S4096x200, .f32⟩ : BufTy).Contents (Elt F) → (⟨S4096x200x1, .f32⟩ : BufTy).Contents (Elt F)),
    nullary main_cst_0 (constant S_ .f32 0x43000000#32),
    unary main_cst_0 main_v3 (broadcastInDim S4096x200x1 ![] bcast_S_S4096x200x1 : (⟨S_, .f32⟩ : BufTy).Contents (Elt F) → (⟨S4096x200x1, .f32⟩ : BufTy).Contents (Elt F)),
    binary main_v2 main_v3 main_v4 (Host.divf : (⟨S4096x200x1, .f32⟩ : BufTy).Contents (Elt F) → (⟨S4096x200x1, .f32⟩ : BufTy).Contents (Elt F) → (⟨S4096x200x1, .f32⟩ : BufTy).Contents (Elt F)),
    unary main_v4 main_v5 (broadcastInDim S4096x200x128 ![0, 1, 2] bcast_S4096x200x1_S4096x200x128_0_1_2 : (⟨S4096x200x1, .f32⟩ : BufTy).Contents (Elt F) → (⟨S4096x200x128, .f32⟩ : BufTy).Contents (Elt F)),
    binary main_v0 main_v5 main_v6 (subf : (⟨S4096x200x128, .f32⟩ : BufTy).Contents (Elt F) → (⟨S4096x200x128, .f32⟩ : BufTy).Contents (Elt F) → (⟨S4096x200x128, .f32⟩ : BufTy).Contents (Elt F)),
    binary main_v6 main_v6 main_v7 (mulf : (⟨S4096x200x128, .f32⟩ : BufTy).Contents (Elt F) → (⟨S4096x200x128, .f32⟩ : BufTy).Contents (Elt F) → (⟨S4096x200x128, .f32⟩ : BufTy).Contents (Elt F)),
    nullary main_cst_1 (constant S_ .f32 0x00000000#32),
    binary main_v7 main_cst_1 main_v8 ((fun x v => Host.reduceAdd x v reducesTo_S4096x200x128_S4096x200_d2 h_S_) : (⟨S4096x200x128, .f32⟩ : BufTy).Contents (Elt F) → (⟨S_, .f32⟩ : BufTy).Contents (Elt F) → (⟨S4096x200, .f32⟩ : BufTy).Contents (Elt F)),
    unary main_v8 main_v9 (broadcastInDim S4096x200x1 ![0, 1] bcast_S4096x200_S4096x200x1_0_1 : (⟨S4096x200, .f32⟩ : BufTy).Contents (Elt F) → (⟨S4096x200x1, .f32⟩ : BufTy).Contents (Elt F)),
    nullary main_cst_2 (constant S_ .f32 0x43000000#32),
    unary main_cst_2 main_v10 (broadcastInDim S4096x200x1 ![] bcast_S_S4096x200x1 : (⟨S_, .f32⟩ : BufTy).Contents (Elt F) → (⟨S4096x200x1, .f32⟩ : BufTy).Contents (Elt F)),
    binary main_v9 main_v10 main_v11 (Host.divf : (⟨S4096x200x1, .f32⟩ : BufTy).Contents (Elt F) → (⟨S4096x200x1, .f32⟩ : BufTy).Contents (Elt F) → (⟨S4096x200x1, .f32⟩ : BufTy).Contents (Elt F)),
    unary main_v4 main_v12 (broadcastInDim S4096x200x128 ![0, 1, 2] bcast_S4096x200x1_S4096x200x128_0_1_2 : (⟨S4096x200x1, .f32⟩ : BufTy).Contents (Elt F) → (⟨S4096x200x128, .f32⟩ : BufTy).Contents (Elt F)),
    binary main_v0 main_v12 main_v13 (subf : (⟨S4096x200x128, .f32⟩ : BufTy).Contents (Elt F) → (⟨S4096x200x128, .f32⟩ : BufTy).Contents (Elt F) → (⟨S4096x200x128, .f32⟩ : BufTy).Contents (Elt F)),
    nullary main_cst_3 (constant S_ .f32 0x2B8CBCCC#32),
    unary main_cst_3 main_v14 (broadcastInDim S4096x200x1 ![] bcast_S_S4096x200x1 : (⟨S_, .f32⟩ : BufTy).Contents (Elt F) → (⟨S4096x200x1, .f32⟩ : BufTy).Contents (Elt F)),
    binary main_v11 main_v14 main_v15 (addf : (⟨S4096x200x1, .f32⟩ : BufTy).Contents (Elt F) → (⟨S4096x200x1, .f32⟩ : BufTy).Contents (Elt F) → (⟨S4096x200x1, .f32⟩ : BufTy).Contents (Elt F)),
    unary main_v15 main_v16 (Host.sqrt : (⟨S4096x200x1, .f32⟩ : BufTy).Contents (Elt F) → (⟨S4096x200x1, .f32⟩ : BufTy).Contents (Elt F)),
    unary main_v16 main_v17 (broadcastInDim S4096x200x128 ![0, 1, 2] bcast_S4096x200x1_S4096x200x128_0_1_2 : (⟨S4096x200x1, .f32⟩ : BufTy).Contents (Elt F) → (⟨S4096x200x128, .f32⟩ : BufTy).Contents (Elt F)),
    binary main_v13 main_v17 main_v18 (Host.divf : (⟨S4096x200x128, .f32⟩ : BufTy).Contents (Elt F) → (⟨S4096x200x128, .f32⟩ : BufTy).Contents (Elt F) → (⟨S4096x200x128, .f32⟩ : BufTy).Contents (Elt F)),
    unary main_arg2 main_v19 (broadcastInDim S1x1x128 ![2] bcast_S128_S1x1x128_2 : (⟨S128, .f32⟩ : BufTy).Contents (Elt F) → (⟨S1x1x128, .f32⟩ : BufTy).Contents (Elt F)),
    unary main_v19 main_v20 (broadcastInDim S4096x200x128 ![0, 1, 2] bcast_S1x1x128_S4096x200x128_0_1_2 : (⟨S1x1x128, .f32⟩ : BufTy).Contents (Elt F) → (⟨S4096x200x128, .f32⟩ : BufTy).Contents (Elt F)),
    binary main_v18 main_v20 main_v21 (mulf : (⟨S4096x200x128, .f32⟩ : BufTy).Contents (Elt F) → (⟨S4096x200x128, .f32⟩ : BufTy).Contents (Elt F) → (⟨S4096x200x128, .f32⟩ : BufTy).Contents (Elt F)),
    unary main_arg3 main_v22 (broadcastInDim S1x1x128 ![2] bcast_S128_S1x1x128_2 : (⟨S128, .f32⟩ : BufTy).Contents (Elt F) → (⟨S1x1x128, .f32⟩ : BufTy).Contents (Elt F)),
    unary main_v22 main_v23 (broadcastInDim S4096x200x128 ![0, 1, 2] bcast_S1x1x128_S4096x200x128_0_1_2 : (⟨S1x1x128, .f32⟩ : BufTy).Contents (Elt F) → (⟨S4096x200x128, .f32⟩ : BufTy).Contents (Elt F)),
    binary main_v21 main_v23 main_v24 (addf : (⟨S4096x200x128, .f32⟩ : BufTy).Contents (Elt F) → (⟨S4096x200x128, .f32⟩ : BufTy).Contents (Elt F) → (⟨S4096x200x128, .f32⟩ : BufTy).Contents (Elt F)) ]

/-- The line is its three stretches one after the other. -/
theorem ops_split : (ops : List (HloOp τ sig (Elt F))) = opsA ++ (opsB ++ opsC) := rfl

/-- The operations as the program spells them: the lookup's twenty-three over the typed references of its call record. -/
abbrev opsT : List (HloOp τ sig (Elt F)) :=
  [ TRef.nullary main_call0.c (constantI S_ 32 0#32),
    TRef.unary main_call0.c main_call0.v0 (broadcastInDim S4096x200 ![] bcast_S_S4096x200),
    TRef.binary (.of main_arg0 : TRef sig ⟨S4096x200, .i32⟩) main_call0.v0 main_call0.v1 (cmpi .slt),
    TRef.nullary main_call0.c_0 (constantI S_ 32 4#32),
    TRef.unary main_call0.c_0 main_call0.v2 (broadcastInDim S4096x200 ![] bcast_S_S4096x200),
    TRef.binary (.of main_arg0 : TRef sig ⟨S4096x200, .i32⟩) main_call0.v2 main_call0.v3 addi,
    TRef.ternary main_call0.v1 main_call0.v3 (.of main_arg0 : TRef sig ⟨S4096x200, .i32⟩) main_call0.call0.v0 select,
    TRef.unary main_call0.call0.v0 main_call0.v5 (broadcastInDim S4096x200x1 ![0, 1] bcast_S4096x200_S4096x200x1_0_1),
    TRef.nullary main_call0.c_1 (constantI S1 32 3#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1 : TRef sig ⟨S4x128, .f32⟩) main_call0.v5 main_call0.v13 (fun x i => Host.gather gather_S4x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select,
    nullary main_cst (constant S_ .f32 0x00000000#32),
    binary main_v0 main_cst main_v1 ((fun x v => Host.reduceAdd x v reducesTo_S4096x200x128_S4096x200_d2 h_S_) : (⟨S4096x200x128, .f32⟩ : BufTy).Contents (Elt F) → (⟨S_, .f32⟩ : BufTy).Contents (Elt F) → (⟨S4096x200, .f32⟩ : BufTy).Contents (Elt F)),
    unary main_v1 main_v2 (broadcastInDim S4096x200x1 ![0, 1] bcast_S4096x200_S4096x200x1_0_1 : (⟨S4096x200, .f32⟩ : BufTy).Contents (Elt F) → (⟨S4096x200x1, .f32⟩ : BufTy).Contents (Elt F)),
    nullary main_cst_0 (constant S_ .f32 0x43000000#32),
    unary main_cst_0 main_v3 (broadcastInDim S4096x200x1 ![] bcast_S_S4096x200x1 : (⟨S_, .f32⟩ : BufTy).Contents (Elt F) → (⟨S4096x200x1, .f32⟩ : BufTy).Contents (Elt F)),
    binary main_v2 main_v3 main_v4 (Host.divf : (⟨S4096x200x1, .f32⟩ : BufTy).Contents (Elt F) → (⟨S4096x200x1, .f32⟩ : BufTy).Contents (Elt F) → (⟨S4096x200x1, .f32⟩ : BufTy).Contents (Elt F)),
    unary main_v4 main_v5 (broadcastInDim S4096x200x128 ![0, 1, 2] bcast_S4096x200x1_S4096x200x128_0_1_2 : (⟨S4096x200x1, .f32⟩ : BufTy).Contents (Elt F) → (⟨S4096x200x128, .f32⟩ : BufTy).Contents (Elt F)),
    binary main_v0 main_v5 main_v6 (subf : (⟨S4096x200x128, .f32⟩ : BufTy).Contents (Elt F) → (⟨S4096x200x128, .f32⟩ : BufTy).Contents (Elt F) → (⟨S4096x200x128, .f32⟩ : BufTy).Contents (Elt F)),
    binary main_v6 main_v6 main_v7 (mulf : (⟨S4096x200x128, .f32⟩ : BufTy).Contents (Elt F) → (⟨S4096x200x128, .f32⟩ : BufTy).Contents (Elt F) → (⟨S4096x200x128, .f32⟩ : BufTy).Contents (Elt F)),
    nullary main_cst_1 (constant S_ .f32 0x00000000#32),
    binary main_v7 main_cst_1 main_v8 ((fun x v => Host.reduceAdd x v reducesTo_S4096x200x128_S4096x200_d2 h_S_) : (⟨S4096x200x128, .f32⟩ : BufTy).Contents (Elt F) → (⟨S_, .f32⟩ : BufTy).Contents (Elt F) → (⟨S4096x200, .f32⟩ : BufTy).Contents (Elt F)),
    unary main_v8 main_v9 (broadcastInDim S4096x200x1 ![0, 1] bcast_S4096x200_S4096x200x1_0_1 : (⟨S4096x200, .f32⟩ : BufTy).Contents (Elt F) → (⟨S4096x200x1, .f32⟩ : BufTy).Contents (Elt F)),
    nullary main_cst_2 (constant S_ .f32 0x43000000#32),
    unary main_cst_2 main_v10 (broadcastInDim S4096x200x1 ![] bcast_S_S4096x200x1 : (⟨S_, .f32⟩ : BufTy).Contents (Elt F) → (⟨S4096x200x1, .f32⟩ : BufTy).Contents (Elt F)),
    binary main_v9 main_v10 main_v11 (Host.divf : (⟨S4096x200x1, .f32⟩ : BufTy).Contents (Elt F) → (⟨S4096x200x1, .f32⟩ : BufTy).Contents (Elt F) → (⟨S4096x200x1, .f32⟩ : BufTy).Contents (Elt F)),
    unary main_v4 main_v12 (broadcastInDim S4096x200x128 ![0, 1, 2] bcast_S4096x200x1_S4096x200x128_0_1_2 : (⟨S4096x200x1, .f32⟩ : BufTy).Contents (Elt F) → (⟨S4096x200x128, .f32⟩ : BufTy).Contents (Elt F)),
    binary main_v0 main_v12 main_v13 (subf : (⟨S4096x200x128, .f32⟩ : BufTy).Contents (Elt F) → (⟨S4096x200x128, .f32⟩ : BufTy).Contents (Elt F) → (⟨S4096x200x128, .f32⟩ : BufTy).Contents (Elt F)),
    nullary main_cst_3 (constant S_ .f32 0x2B8CBCCC#32),
    unary main_cst_3 main_v14 (broadcastInDim S4096x200x1 ![] bcast_S_S4096x200x1 : (⟨S_, .f32⟩ : BufTy).Contents (Elt F) → (⟨S4096x200x1, .f32⟩ : BufTy).Contents (Elt F)),
    binary main_v11 main_v14 main_v15 (addf : (⟨S4096x200x1, .f32⟩ : BufTy).Contents (Elt F) → (⟨S4096x200x1, .f32⟩ : BufTy).Contents (Elt F) → (⟨S4096x200x1, .f32⟩ : BufTy).Contents (Elt F)),
    unary main_v15 main_v16 (Host.sqrt : (⟨S4096x200x1, .f32⟩ : BufTy).Contents (Elt F) → (⟨S4096x200x1, .f32⟩ : BufTy).Contents (Elt F)),
    unary main_v16 main_v17 (broadcastInDim S4096x200x128 ![0, 1, 2] bcast_S4096x200x1_S4096x200x128_0_1_2 : (⟨S4096x200x1, .f32⟩ : BufTy).Contents (Elt F) → (⟨S4096x200x128, .f32⟩ : BufTy).Contents (Elt F)),
    binary main_v13 main_v17 main_v18 (Host.divf : (⟨S4096x200x128, .f32⟩ : BufTy).Contents (Elt F) → (⟨S4096x200x128, .f32⟩ : BufTy).Contents (Elt F) → (⟨S4096x200x128, .f32⟩ : BufTy).Contents (Elt F)),
    unary main_arg2 main_v19 (broadcastInDim S1x1x128 ![2] bcast_S128_S1x1x128_2 : (⟨S128, .f32⟩ : BufTy).Contents (Elt F) → (⟨S1x1x128, .f32⟩ : BufTy).Contents (Elt F)),
    unary main_v19 main_v20 (broadcastInDim S4096x200x128 ![0, 1, 2] bcast_S1x1x128_S4096x200x128_0_1_2 : (⟨S1x1x128, .f32⟩ : BufTy).Contents (Elt F) → (⟨S4096x200x128, .f32⟩ : BufTy).Contents (Elt F)),
    binary main_v18 main_v20 main_v21 (mulf : (⟨S4096x200x128, .f32⟩ : BufTy).Contents (Elt F) → (⟨S4096x200x128, .f32⟩ : BufTy).Contents (Elt F) → (⟨S4096x200x128, .f32⟩ : BufTy).Contents (Elt F)),
    unary main_arg3 main_v22 (broadcastInDim S1x1x128 ![2] bcast_S128_S1x1x128_2 : (⟨S128, .f32⟩ : BufTy).Contents (Elt F) → (⟨S1x1x128, .f32⟩ : BufTy).Contents (Elt F)),
    unary main_v22 main_v23 (broadcastInDim S4096x200x128 ![0, 1, 2] bcast_S1x1x128_S4096x200x128_0_1_2 : (⟨S1x1x128, .f32⟩ : BufTy).Contents (Elt F) → (⟨S4096x200x128, .f32⟩ : BufTy).Contents (Elt F)),
    binary main_v21 main_v23 main_v24 (addf : (⟨S4096x200x128, .f32⟩ : BufTy).Contents (Elt F) → (⟨S4096x200x128, .f32⟩ : BufTy).Contents (Elt F) → (⟨S4096x200x128, .f32⟩ : BufTy).Contents (Elt F)) ]

/-! A typed reference built from a literal buffer carries that buffer's own type, so moving contents along the
    equation of the two types is the identity: each of the lookup's operations is the plain operation on its buffers. -/
theorem take_op0 (f : (⟨S_, .i32⟩ : BufTy).Contents (Elt F)) :
    (TRef.nullary main_call0.c f : HloOp τ sig (Elt F)) = nullary main_call0_c f := rfl
theorem take_op1 (f : (⟨S_, .i32⟩ : BufTy).Contents (Elt F) → (⟨S4096x200, .i32⟩ : BufTy).Contents (Elt F)) :
    (TRef.unary main_call0.c main_call0.v0 f : HloOp τ sig (Elt F)) = unary main_call0_c main_call0_v0 f := rfl
theorem take_op2 (f : (⟨S4096x200, .i32⟩ : BufTy).Contents (Elt F) → (⟨S4096x200, .i32⟩ : BufTy).Contents (Elt F) → (⟨S4096x200, .i1⟩ : BufTy).Contents (Elt F)) :
    (TRef.binary (.of main_arg0 : TRef sig ⟨S4096x200, .i32⟩) main_call0.v0 main_call0.v1 f : HloOp τ sig (Elt F)) = binary main_arg0 main_call0_v0 main_call0_v1 f := rfl
theorem take_op3 (f : (⟨S_, .i32⟩ : BufTy).Contents (Elt F)) :
    (TRef.nullary main_call0.c_0 f : HloOp τ sig (Elt F)) = nullary main_call0_c_0 f := rfl
theorem take_op4 (f : (⟨S_, .i32⟩ : BufTy).Contents (Elt F) → (⟨S4096x200, .i32⟩ : BufTy).Contents (Elt F)) :
    (TRef.unary main_call0.c_0 main_call0.v2 f : HloOp τ sig (Elt F)) = unary main_call0_c_0 main_call0_v2 f := rfl
theorem take_op5 (f : (⟨S4096x200, .i32⟩ : BufTy).Contents (Elt F) → (⟨S4096x200, .i32⟩ : BufTy).Contents (Elt F) → (⟨S4096x200, .i32⟩ : BufTy).Contents (Elt F)) :
    (TRef.binary (.of main_arg0 : TRef sig ⟨S4096x200, .i32⟩) main_call0.v2 main_call0.v3 f : HloOp τ sig (Elt F)) = binary main_arg0 main_call0_v2 main_call0_v3 f := rfl
theorem take_op6 (f : (⟨S4096x200, .i1⟩ : BufTy).Contents (Elt F) → (⟨S4096x200, .i32⟩ : BufTy).Contents (Elt F) → (⟨S4096x200, .i32⟩ : BufTy).Contents (Elt F) → (⟨S4096x200, .i32⟩ : BufTy).Contents (Elt F)) :
    (TRef.ternary main_call0.v1 main_call0.v3 (.of main_arg0 : TRef sig ⟨S4096x200, .i32⟩) main_call0.call0.v0 f : HloOp τ sig (Elt F)) = ternary main_call0_v1 main_call0_v3 main_arg0 main_call0_v4 f := rfl
theorem take_op7 (f : (⟨S4096x200, .i32⟩ : BufTy).Contents (Elt F) → (⟨S4096x200x1, .i32⟩ : BufTy).Contents (Elt F)) :
    (TRef.unary main_call0.call0.v0 main_call0.v5 f : HloOp τ sig (Elt F)) = unary main_call0_v4 main_call0_v5 f := rfl
theorem take_op8 (f : (⟨S1, .i32⟩ : BufTy).Contents (Elt F)) :
    (TRef.nullary main_call0.c_1 f : HloOp τ sig (Elt F)) = nullary main_call0_c_1 f := rfl
theorem take_op9 (f : (⟨S_, .i32⟩ : BufTy).Contents (Elt F)) :
    (TRef.nullary main_call0.c_2 f : HloOp τ sig (Elt F)) = nullary main_call0_c_2 f := rfl
theorem take_op10 (f : (⟨S_, .i32⟩ : BufTy).Contents (Elt F) → (⟨S4096x200x1, .i32⟩ : BufTy).Contents (Elt F)) :
    (TRef.unary main_call0.c_2 main_call0.v6 f : HloOp τ sig (Elt F)) = unary main_call0_c_2 main_call0_v6 f := rfl
theorem take_op11 (f : (⟨S4096x200x1, .i32⟩ : BufTy).Contents (Elt F) → (⟨S4096x200x1, .i32⟩ : BufTy).Contents (Elt F) → (⟨S4096x200x1, .i1⟩ : BufTy).Contents (Elt F)) :
    (TRef.binary main_call0.v5 main_call0.v6 main_call0.v7 f : HloOp τ sig (Elt F)) = binary main_call0_v5 main_call0_v6 main_call0_v7 f := rfl
theorem take_op12 (f : (⟨S1, .i32⟩ : BufTy).Contents (Elt F) → (⟨S1x1x1, .i32⟩ : BufTy).Contents (Elt F)) :
    (TRef.unary main_call0.c_1 main_call0.v8 f : HloOp τ sig (Elt F)) = unary main_call0_c_1 main_call0_v8 f := rfl
theorem take_op13 (f : (⟨S1x1x1, .i32⟩ : BufTy).Contents (Elt F) → (⟨S4096x200x1, .i32⟩ : BufTy).Contents (Elt F)) :
    (TRef.unary main_call0.v8 main_call0.v9 f : HloOp τ sig (Elt F)) = unary main_call0_v8 main_call0_v9 f := rfl
theorem take_op14 (f : (⟨S4096x200x1, .i32⟩ : BufTy).Contents (Elt F) → (⟨S4096x200x1, .i32⟩ : BufTy).Contents (Elt F) → (⟨S4096x200x1, .i1⟩ : BufTy).Contents (Elt F)) :
    (TRef.binary main_call0.v5 main_call0.v9 main_call0.v10 f : HloOp τ sig (Elt F)) = binary main_call0_v5 main_call0_v9 main_call0_v10 f := rfl
theorem take_op15 (f : (⟨S4096x200x1, .i1⟩ : BufTy).Contents (Elt F) → (⟨S4096x200x1, .i1⟩ : BufTy).Contents (Elt F) → (⟨S4096x200x1, .i1⟩ : BufTy).Contents (Elt F)) :
    (TRef.binary main_call0.v7 main_call0.v10 main_call0.v11 f : HloOp τ sig (Elt F)) = binary main_call0_v7 main_call0_v10 main_call0_v11 f := rfl
theorem take_op16 (f : (⟨S_, .i1⟩ : BufTy).Contents (Elt F)) :
    (TRef.nullary main_call0.c_3 f : HloOp τ sig (Elt F)) = nullary main_call0_c_3 f := rfl
theorem take_op17 (f : (⟨S4096x200x1, .i1⟩ : BufTy).Contents (Elt F) → (⟨S_, .i1⟩ : BufTy).Contents (Elt F) → (⟨S4096x200, .i1⟩ : BufTy).Contents (Elt F)) :
    (TRef.binary main_call0.v11 main_call0.c_3 main_call0.v12 f : HloOp τ sig (Elt F)) = binary main_call0_v11 main_call0_c_3 main_call0_v12 f := rfl
theorem take_op18 (f : (⟨S4x128, .f32⟩ : BufTy).Contents (Elt F) → (⟨S4096x200x1, .i32⟩ : BufTy).Contents (Elt F) → (⟨S4096x200x128, .f32⟩ : BufTy).Contents (Elt F)) :
    (TRef.binary (.of main_arg1 : TRef sig ⟨S4x128, .f32⟩) main_call0.v5 main_call0.v13 f : HloOp τ sig (Elt F)) = binary main_arg1 main_call0_v5 main_call0_v13 f := rfl
theorem take_op19 (f : (⟨S4096x200, .i1⟩ : BufTy).Contents (Elt F) → (⟨S4096x200x128, .i1⟩ : BufTy).Contents (Elt F)) :
    (TRef.unary main_call0.v12 main_call0.v14 f : HloOp τ sig (Elt F)) = unary main_call0_v12 main_call0_v14 f := rfl
theorem take_op20 (f : (⟨S_, .f32⟩ : BufTy).Contents (Elt F)) :
    (TRef.nullary main_call0.cst f : HloOp τ sig (Elt F)) = nullary main_call0_cst f := rfl
theorem take_op21 (f : (⟨S_, .f32⟩ : BufTy).Contents (Elt F) → (⟨S4096x200x128, .f32⟩ : BufTy).Contents (Elt F)) :
    (TRef.unary main_call0.cst main_call0.v15 f : HloOp τ sig (Elt F)) = unary main_call0_cst main_call0_v15 f := rfl
theorem take_op22 (f : (⟨S4096x200x128, .i1⟩ : BufTy).Contents (Elt F) → (⟨S4096x200x128, .f32⟩ : BufTy).Contents (Elt F) → (⟨S4096x200x128, .f32⟩ : BufTy).Contents (Elt F) → (⟨S4096x200x128, .f32⟩ : BufTy).Contents (Elt F)) :
    (TRef.ternary main_call0.v14 main_call0.v13 main_call0.v15 main_call0.v16 f : HloOp τ sig (Elt F)) = ternary main_call0_v14 main_call0_v13 main_call0_v15 main_v0 f := rfl

/-- So the two spellings are one list. -/
theorem opsT_eq : (opsT : List (HloOp τ sig (Elt F))) = ops := by
  unfold opsT ops
  rw [take_op0, take_op1, take_op2, take_op3, take_op4, take_op5, take_op6, take_op7, take_op8, take_op9, take_op10, take_op11, take_op12, take_op13, take_op14, take_op15, take_op16, take_op17, take_op18, take_op19, take_op20, take_op21, take_op22]

-- fifty-two binds re-associated: one level of recursion per operation
set_option maxRecDepth 1024 in
/-- The program is that straight line: the two outlined functions opened at their calls, sequencing re-associated. -/
theorem main_eqT (c : Dev nD) : main (F := F) c = seq opsT := by
  simp only [main, fn_take.body, fn_where.body, seq, bind_assoc, pure_bind]

theorem main_eq (c : Dev nD) : main (F := F) c = seq ops := (main_eqT c).trans (congrArg seq opsT_eq)

/-- No buffer and no semaphore of the program is scoped: all are whole-program arrays. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Every weakly fair execution of the program terminates, and each buffer ends at the fold of the operations over
    the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Ops

end Cert.ReferenceIdeal.RefValue

end
-- ==== Proof.RefRun.lean ====
/-
  What the reference program leaves in its result array, as one term of its four arguments.

  The straight line is read in three stretches. The first leaves the index array the lookup reads (a negative index
  wrapped by 4, a unit axis appended). The second, from whatever index array it finds, leaves the looked-up rows: the
  table's rows gathered at the indices where the index is in range, a fill value elsewhere. The third, from whatever
  rows it finds, leaves them normalised over their 128 entries, scaled by gamma and shifted by beta. `refTerm` is the
  three composed, and no operation writes an argument array.
-/
import proofs.«214982_g87402584473731_cont_9to1c4b_667_31_alg».proof.Proof.RefOps
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The result as one term of the argument arrays -/

/-- The index array the lookup reads: where an index is negative, 4 is added to it; then a unit axis is appended. -/
def takeIdx (a0 : IVec S4096x200 32) : IVec S4096x200x1 32 :=
  broadcastInDim S4096x200x1 ![0, 1] bcast_S4096x200_S4096x200x1_0_1
    (select (cmpi .slt a0 (broadcastInDim S4096x200 ![] bcast_S_S4096x200 (constantI S_ 32 0#32)))
      (addi a0 (broadcastInDim S4096x200 ![] bcast_S_S4096x200 (constantI S_ 32 4#32))) a0)

/-- The lookup's in-range mask over an index array: at each position, whether the index lies in `[0, 3]` read signed
    (the conjunction reduced over the unit axis), repeated along the row. -/
def maskOf (idx : IVec S4096x200x1 32) : IVec S4096x200x128 1 :=
  broadcastInDim S4096x200x128 ![0, 1] bcast_S4096x200_S4096x200x128_0_1
    (Host.reduce IntOp.andi
      (andi (cmpi .sge idx (broadcastInDim S4096x200x1 ![] bcast_S_S4096x200x1 (constantI S_ 32 0#32)))
        (cmpi .sle idx
          (broadcastInDim S4096x200x1 ![0, 1, 2] bcast_S1x1x1_S4096x200x1_0_1_2
            (broadcastInDim S1x1x1 ![2] bcast_S1_S1x1x1_2 (constantI S1 32 3#32)))))
      (constantI S_ 1 1#1) reducesTo_S4096x200x1_S4096x200_d2 h_S_)

/-- The rows looked up at an index array: the table gathered at the indices where the mask is set, the fill value
    (the word 0x7FC00000) elsewhere. -/
def takenOf (idx : IVec S4096x200x1 32) (a1 : FVec Ideal S4x128 .f32) : FVec Ideal S4096x200x128 .f32 :=
  select (maskOf idx) (Host.gather gather_S4x128_S4096x200x1_S4096x200x128_2_0_n_n_0_2_1128 a1 idx)
    (broadcastInDim S4096x200x128 ![] bcast_S_S4096x200x128 (constant (F := Ideal) S_ .f32 0x7FC00000#32))

/-- The looked-up rows of the program: at the wrapped indices. -/
def taken (a0 : IVec S4096x200 32) (a1 : FVec Ideal S4x128 .f32) : FVec Ideal S4096x200x128 .f32 :=
  takenOf (takeIdx a0) a1

/-- Each row's mean, kept as a unit last axis: the row's sum (from the zero word) over the word for 128. -/
def rowMean (t : FVec Ideal S4096x200x128 .f32) : FVec Ideal S4096x200x1 .f32 :=
  Host.divf (F := Ideal)
    (broadcastInDim S4096x200x1 ![0, 1] bcast_S4096x200_S4096x200x1_0_1
      (Host.reduceAdd (F := Ideal) t (constant (F := Ideal) S_ .f32 0x00000000#32) reducesTo_S4096x200x128_S4096x200_d2 h_S_))
    (broadcastInDim S4096x200x1 ![] bcast_S_S4096x200x1 (constant (F := Ideal) S_ .f32 0x43000000#32))

/-- Each entry with its row's mean removed. -/
def centred (t : FVec Ideal S4096x200x128 .f32) : FVec Ideal S4096x200x128 .f32 :=
  subf t (broadcastInDim S4096x200x128 ![0, 1, 2] bcast_S4096x200x1_S4096x200x128_0_1_2 (rowMean t))

/-- Each row's variance, kept as a unit last axis: the sum of the squared centred entries over the word for 128. -/
def rowVar (t : FVec Ideal S4096x200x128 .f32) : FVec Ideal S4096x200x1 .f32 :=
  Host.divf (F := Ideal)
    (broadcastInDim S4096x200x1 ![0, 1] bcast_S4096x200_S4096x200x1_0_1
      (Host.reduceAdd (F := Ideal) (mulf (centred t) (centred t)) (constant (F := Ideal) S_ .f32 0x00000000#32)
        reducesTo_S4096x200x128_S4096x200_d2 h_S_))
    (broadcastInDim S4096x200x1 ![] bcast_S_S4096x200x1 (constant (F := Ideal) S_ .f32 0x43000000#32))

/-- Each centred entry over the root of its row's variance plus ε. -/
def normed (t : FVec Ideal S4096x200x128 .f32) : FVec Ideal S4096x200x128 .f32 :=
  Host.divf (F := Ideal) (centred t)
    (broadcastInDim S4096x200x128 ![0, 1, 2] bcast_S4096x200x1_S4096x200x128_0_1_2
      (Host.sqrt (F := Ideal)
        (addf (rowVar t) (broadcastInDim S4096x200x1 ![] bcast_S_S4096x200x1 (constant (F := Ideal) S_ .f32 0x2B8CBCCC#32)))))

/-- An array of rows normalised, scaled entry by entry by `g` and shifted by `b` (each repeated over the positions). -/
def lnTerm (t : FVec Ideal S4096x200x128 .f32) (g b : FVec Ideal S128 .f32) : FVec Ideal S4096x200x128 .f32 :=
  addf
    (mulf (normed t)
      (broadcastInDim S4096x200x128 ![0, 1, 2] bcast_S1x1x128_S4096x200x128_0_1_2
        (broadcastInDim S1x1x128 ![2] bcast_S128_S1x1x128_2 g)))
    (broadcastInDim S4096x200x128 ![0, 1, 2] bcast_S1x1x128_S4096x200x128_0_1_2
      (broadcastInDim S1x1x128 ![2] bcast_S128_S1x1x128_2 b))

/-- The program's result as one term of its four arguments: the looked-up rows, normalised, scaled by gamma and
    shifted by beta. -/
def refTerm (a0 : IVec S4096x200 32) (a1 : FVec Ideal S4x128 .f32) (a2 a3 : FVec Ideal S128 .f32) :
    FVec Ideal S4096x200x128 .f32 :=
  lnTerm (taken a0 a1) a2 a3

/-! ## What the run leaves -/

/-- Running two stretches one after the other is running their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The first stretch leaves the wrapped index array: each operation's result read at the buffer it writes, every
    other buffer passed over. -/
theorem stageA (V : Valuation τ sig (Elt Ideal)) :
    after (opsA (F := Ideal)) V (main_call0_v5 : DevRef τ sig) = takeIdx (V (main_arg0 : DevRef τ sig)) := by
  after_results_simp
  rfl

/-- The second stretch leaves the rows looked up at whatever index array it finds. -/
theorem stageB (W : Valuation τ sig (Elt Ideal)) :
    after (opsB (F := Ideal)) W (main_v0 : DevRef τ sig)
      = takenOf (W (main_call0_v5 : DevRef τ sig)) (W (main_arg1 : DevRef τ sig)) := by
  after_results_simp
  rfl

/-- The third stretch leaves the normalisation of whatever rows it finds. -/
theorem stageC (W : Valuation τ sig (Elt Ideal)) :
    after (opsC (F := Ideal)) W (main_v24 : DevRef τ sig)
      = lnTerm (W (main_v0 : DevRef τ sig)) (W (main_arg2 : DevRef τ sig)) (W (main_arg3 : DevRef τ sig)) := by
  after_results_simp
  rfl

section Kept
variable {F : FTy → Type} [FloatOps F]

/-- No operation writes an argument array. -/
theorem keptA (V : Valuation τ sig (Elt F)) :
    after (opsA (F := F)) V (main_arg0 : DevRef τ sig) = V (main_arg0 : DevRef τ sig)
    ∧ after (opsA (F := F)) V (main_arg1 : DevRef τ sig) = V (main_arg1 : DevRef τ sig)
    ∧ after (opsA (F := F)) V (main_arg2 : DevRef τ sig) = V (main_arg2 : DevRef τ sig)
    ∧ after (opsA (F := F)) V (main_arg3 : DevRef τ sig) = V (main_arg3 : DevRef τ sig) := by
  refine ⟨?_, ?_, ?_, ?_⟩ <;> after_results_simp

theorem keptB (V : Valuation τ sig (Elt F)) :
    after (opsB (F := F)) V (main_arg0 : DevRef τ sig) = V (main_arg0 : DevRef τ sig)
    ∧ after (opsB (F := F)) V (main_arg1 : DevRef τ sig) = V (main_arg1 : DevRef τ sig)
    ∧ after (opsB (F := F)) V (main_arg2 : DevRef τ sig) = V (main_arg2 : DevRef τ sig)
    ∧ after (opsB (F := F)) V (main_arg3 : DevRef τ sig) = V (main_arg3 : DevRef τ sig) := by
  refine ⟨?_, ?_, ?_, ?_⟩ <;> after_results_simp

theorem keptC (V : Valuation τ sig (Elt F)) :
    after (opsC (F := F)) V (main_arg0 : DevRef τ sig) = V (main_arg0 : DevRef τ sig)
    ∧ after (opsC (F := F)) V (main_arg1 : DevRef τ sig) = V (main_arg1 : DevRef τ sig)
    ∧ after (opsC (F := F)) V (main_arg2 : DevRef τ sig) = V (main_arg2 : DevRef τ sig)
    ∧ after (opsC (F := F)) V (main_arg3 : DevRef τ sig) = V (main_arg3 : DevRef τ sig) := by
  refine ⟨?_, ?_, ?_, ?_⟩ <;> after_results_simp

/-- So the whole line leaves the four argument arrays as it found them. -/
theorem kept (V : Valuation τ sig (Elt F)) :
    after (ops (F := F)) V (main_arg0 : DevRef τ sig) = V (main_arg0 : DevRef τ sig)
    ∧ after (ops (F := F)) V (main_arg1 : DevRef τ sig) = V (main_arg1 : DevRef τ sig)
    ∧ after (ops (F := F)) V (main_arg2 : DevRef τ sig) = V (main_arg2 : DevRef τ sig)
    ∧ after (ops (F := F)) V (main_arg3 : DevRef τ sig) = V (main_arg3 : DevRef τ sig) := by
  rw [ops_split, after_append, after_append]
  obtain ⟨a0, a1, a2, a3⟩ := keptA V
  obtain ⟨b0, b1, b2, b3⟩ := keptB (after opsA V)
  obtain ⟨c0, c1, c2, c3⟩ := keptC (after opsB (after opsA V))
  exact ⟨c0.trans (b0.trans a0), c1.trans (b1.trans a1), c2.trans (b2.trans a2), c3.trans (b3.trans a3)⟩

end Kept

/-- The whole line leaves `refTerm` of the four arguments in the result array: the third stretch normalises what the
    second left, which is the lookup at what the first left. -/
theorem result_eq (V : Valuation τ sig (Elt Ideal)) :
    after (ops (F := Ideal)) V (main_v24 : DevRef τ sig)
      = refTerm (V (main_arg0 : DevRef τ sig)) (V (main_arg1 : DevRef τ sig)) (V (main_arg2 : DevRef τ sig))
          (V (main_arg3 : DevRef τ sig)) := by
  rw [ops_split, after_append, after_append, stageC, stageB, stageA, (keptB _).2.2.1, (keptB _).2.2.2, (keptA _).2.1,
    (keptA _).2.2.1, (keptA _).2.2.2]
  rfl

/-- At the extended reals, from any memory with zero counters: every weakly fair execution of the program terminates
    with the result array at `refTerm` of the four argument arrays and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v24).trans (result_eq _), (h c main_arg0).trans (kept _).1,
      (h c main_arg1).trans (kept _).2.1, (h c main_arg2).trans (kept _).2.2.1, (h c main_arg3).trans (kept _).2.2.2⟩)
    (run_fold m ρ)

end Cert.ReferenceIdeal.RefValue

end
-- ==== Proof.RowTake.lean ====
/-
  Words and sums the lookup and the normalisation meet.

  A 32-bit index word whose unsigned value is below 4 is non-negative and at most 3 read signed, so the lookup's
  wrap leaves it alone, its range tests hold, and its signed reading is its unsigned value. A reduction by `and`
  from the bit 1 over bits that are all 1 is 1. The gather of whole rows of a two-axis table at an array of row
  numbers reads, at position (p, q) and entry l, entry l of the row whose number is the start index at (p, q), read
  signed and clamped into the table.
-/
import Idealize.ShloMosaic.Lib.ValueIdx
import Idealize.ShloMosaic.Lib.ReduceAll
import Idealize.ShloMosaic.PureOps.Ideal.Laws

noncomputable section

namespace Cert.RowTake

open Idealize.ShloMosaic Idealize.ShloMosaic.ValueIdx

/-! ## Index words below 4 -/

section Words
variable {x : BitVec 32}

/-- Its signed reading is its unsigned value. -/
theorem toInt_of_lt4 (h : x.toNat < 4) : x.toInt = (x.toNat : Int) := by
  have e := BitVec.toInt_eq_toNat_cond x
  split at e <;> omega

/-- It is not negative … -/
theorem slt_zero_of_lt4 (h : x.toNat < 4) : IntOp.cmpi .slt x 0#32 = 0#1 :=
  eq_zero_of_ne_one fun e => by
    have := IntOp.cmpi_slt.1 e
    have z : (0#32 : BitVec 32).toInt = 0 := by decide
    rw [toInt_of_lt4 h, z] at this
    omega

/-- … it is at least 0 … -/
theorem sge_zero_of_lt4 (h : x.toNat < 4) : IntOp.cmpi .sge x 0#32 = 1#1 :=
  IntOp.cmpi_sge.2 (by
    have z : (0#32 : BitVec 32).toInt = 0 := by decide
    rw [toInt_of_lt4 h, z]; omega)

/-- … and at most 3. -/
theorem sle_three_of_lt4 (h : x.toNat < 4) : IntOp.cmpi .sle x 3#32 = 1#1 :=
  IntOp.cmpi_sle.2 (by
    have t : (3#32 : BitVec 32).toInt = 3 := by decide
    rw [toInt_of_lt4 h, t]; omega)

/-- Clamped into `[0, 3]` it is itself. -/
theorem clamp_of_lt4 (h : x.toNat < 4) : min x.toInt.toNat (4 - 1) = x.toNat := by
  rw [toInt_of_lt4 h]; omega

end Words

/-! ## A conjunction of ones -/

/-- A left fold by `and` from 1 over bits that are all 1 is 1. -/
theorem foldl_andi_of_all {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_of_all f l fun n hn => h n (List.mem_cons_of_mem _ hn)

/-- A reduction by `and` from the bit 1 of an array of ones is 1 everywhere. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_of_all x _ fun n _ => hx n

/-! ## Whole rows gathered by number -/

variable {α : Type}

/-- The dimension numbers of a gather of whole rows: operand `[N, K]`, start indices `[R, C, 1]`, result
    `[R, C, K]`; the start index names the row (axis 0, collapsed), the result's last axis runs along it. -/
abbrev rowTakeDims (N K R C : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- The gather read at `(p, q, l)`: entry `l` of the row the start index at `(p, q)` names, read signed and clamped
    into `[0, N − 1]`. On the row axis the operand coordinate is the clamped start (no batching, no offset: the axis
    is collapsed); on the entry axis there is no start and the offset is the result's last coordinate. -/
theorem gather_rows_apply {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (p : Fin R) (q : Fin C) (l : Fin K) :
    Host.gather (rowTakeDims N K R C wf) x idx (ix3 p q l)
      = x (ix2 ⟨min (idx (ix3 p q (0 : Fin 1))).toInt.toNat (N - 1), by omega⟩ l) := by
  unfold Host.gather
  congr 1
  funext a
  refine Fin.ext ?_
  match a with
  | ⟨0, _⟩ =>
    show (rowTakeDims N K R C wf).start (ix3 p q l) idx 0 + (rowTakeDims N K R C wf).batchCoord (ix3 p q l) 0
        + (rowTakeDims N K R C wf).offCoord (ix3 p q l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N K R C wf).startIndexMap from List.mem_singleton.mpr rfl)]
    have hsi : (rowTakeDims N K R C wf).siIdx (ix3 p q l) ⟨List.idxOf (0 : Fin 2) (rowTakeDims N K R C wf).startIndexMap,
        List.idxOf_lt_length_iff.2 (List.mem_singleton.mpr rfl)⟩ = ix3 p q (0 : Fin 1) := by
      funext b; refine Fin.ext ?_
      match b with
      | ⟨0, _⟩ => rfl
      | ⟨1, _⟩ => rfl
      | ⟨2, _⟩ => rfl
    rw [hsi]
    rfl
  | ⟨1, _⟩ =>
    show (rowTakeDims N K R C wf).start (ix3 p q l) idx 1 + (rowTakeDims N K R C wf).batchCoord (ix3 p q l) 1
        + (rowTakeDims N K R C wf).offCoord (ix3 p q l) 1 = l.val
    rw [GatherDims.batchCoord_eq_zero _ _ _ List.not_mem_nil]
    unfold GatherDims.start
    rw [dif_neg (show (1 : Fin 2) ∉ (rowTakeDims N K R C wf).startIndexMap from (by decide : (1 : Fin 2) ∉ ([0] : List (Fin 2))))]
    unfold GatherDims.offCoord
    rw [dif_pos (show (1 : Fin 2) ∈ (rowTakeDims N K R C wf).sKept from
      (GatherDims.mem_sKept _ _).mpr ⟨(by decide : (1 : Fin 2) ∉ ([0] : List (Fin 2))), List.not_mem_nil⟩)]
    simp only [rowTakeDims, List.getElem_singleton, Nat.zero_add]
    rfl

end Cert.RowTake

end
-- ==== Proof.RefRead.lean ====
/-
  The reference's result read at one entry.

  Position (p, q), entry l. The wrapped index at (p, q) is the index itself when the index word is one of 0, 1, 2, 3;
  its two range tests then hold, so the mask is set and the looked-up entry is entry l of the table row the index
  names. Of any array of rows: the mean at (p, q) is the sum of row (p, q) over the word for 128, the centred entry is
  the entry less that mean, the variance the sum of the squared centred entries over the same word, the normalised
  entry the centred entry over the root of variance plus ε; gamma and beta are read at l.
-/
import proofs.«214982_g87402584473731_cont_9to1c4b_667_31_alg».proof.Proof.RefRun
import proofs.«214982_g87402584473731_cont_9to1c4b_667_31_alg».proof.Proof.RowTake
import Idealize.ShloMosaic.Lib.Pipeline.Value

noncomputable section

namespace Cert.ReferenceIdeal.RefValue

open Cert.ReferenceIdeal Cert.ReferenceIdeal.Gen Idealize.ShloMosaic Idealize.ShloMosaic.ValueIdx Cert.RowTake
open scoped BigOperators

variable (p : Fin 4096) (q : Fin 200)

/-! ## The broadcasts at an index -/

section Broadcasts
variable {α : Type}

/-- An array over the positions, given a unit last axis, reads the position. -/
theorem bcast_unit_apply (X : S4096x200.Idx → α) (z : Fin 1) :
    broadcastInDim S4096x200x1 ![0, 1] bcast_S4096x200_S4096x200x1_0_1 X (ix3 p q z) = X (ix2 p q) :=
  broadcastInDim_apply _ _ _ _ (ix2 p q) (fun a => match a with | ⟨0, _⟩ => rfl | ⟨1, _⟩ => rfl)

/-- An array over the positions, repeated along the row, reads the position. -/
theorem bcast_pos_apply (X : S4096x200.Idx → α) (l : Fin 128) :
    broadcastInDim S4096x200x128 ![0, 1] bcast_S4096x200_S4096x200x128_0_1 X (ix3 p q l) = X (ix2 p q) :=
  broadcastInDim_apply _ _ _ _ (ix2 p q) (fun a => match a with | ⟨0, _⟩ => rfl | ⟨1, _⟩ => rfl)

/-- An array with a unit last axis, repeated along the row, reads its one entry at the position. -/
theorem bcast_row_apply (X : S4096x200x1.Idx → α) (l : Fin 128) :
    broadcastInDim S4096x200x128 ![0, 1, 2] bcast_S4096x200x1_S4096x200x128_0_1_2 X (ix3 p q l) = X (ix3 p q (0 : Fin 1)) :=
  broadcastInDim_apply _ _ _ _ (ix3 p q (0 : Fin 1)) (fun a => match a with | ⟨0, _⟩ => rfl | ⟨1, _⟩ => rfl | ⟨2, _⟩ => rfl)

/-- A vector over the row's entries, repeated over the positions, reads the entry. -/
theorem bcast_vec_apply (g : S128.Idx → α) (l : Fin 128) :
    broadcastInDim S4096x200x128 ![0, 1, 2] bcast_S1x1x128_S4096x200x128_0_1_2
      (broadcastInDim S1x1x128 ![2] bcast_S128_S1x1x128_2 g) (ix3 p q l) = g (ix1 l) :=
  (broadcastInDim_apply _ _ _ _ (ix3 (0 : Fin 1) (0 : Fin 1) l)
      (fun a => match a with | ⟨0, _⟩ => rfl | ⟨1, _⟩ => rfl | ⟨2, _⟩ => rfl)).trans
    (broadcastInDim_apply _ _ _ _ (ix1 l) (fun a => match a with | ⟨0, _⟩ => rfl))

end Broadcasts

/-! ## The lookup -/

section Take
variable (a0 : IVec S4096x200 32) (hidx : ∀ i, (a0 i).toNat < 4)
include hidx

/-- The wrapped index is the index: it is not negative, so the select keeps it. -/
theorem takeIdx_apply (z : Fin 1) : takeIdx a0 (ix3 p q z) = a0 (ix2 p q) := by
  unfold takeIdx
  rw [bcast_unit_apply]
  show Scalar.select (IntOp.cmpi .slt (a0 (ix2 p q)) 0#32) (IntOp.addi (a0 (ix2 p q)) 4#32) (a0 (ix2 p q)) = _
  rw [slt_zero_of_lt4 (hidx _), select_zero]

/-- So every wrapped index is below 4. -/
theorem takeIdx_lt4 (i : S4096x200x1.Idx) : (takeIdx a0 i).toNat < 4 := by
  obtain ⟨p, q, z, rfl⟩ : ∃ (p : Fin 4096) (q : Fin 200) (z : Fin 1), i = ix3 p q z := ⟨i 0, i 1, i 2, eq_ix3 i⟩
  rw [takeIdx_apply p q a0 hidx]
  exact hidx _

omit hidx in
/-- The mask over an index array whose every word is below 4 is set everywhere: both range tests hold at every
    entry, and a conjunction of ones is one. -/
theorem maskOf_apply (idx : IVec S4096x200x1 32) (h : ∀ i, (idx i).toNat < 4) (l : Fin 128) :
    maskOf idx (ix3 p q l) = 1#1 := by
  unfold maskOf
  rw [bcast_pos_apply]
  refine reduce_andi_of_all _ _ _ _ _ (fun i => ?_) rfl
  show IntOp.andi (IntOp.cmpi .sge (idx i) 0#32) (IntOp.cmpi .sle (idx i) 3#32) = 1#1
  rw [sge_zero_of_lt4 (h i), sle_three_of_lt4 (h i)]
  rfl

/-- The looked-up entry: entry `l` of the table row the index at `(p, q)` names. -/
theorem taken_apply (a1 : FVec Ideal S4x128 .f32) (l : Fin 128) :
    taken a0 a1 (ix3 p q l) = a1 (ix2 (⟨(a0 (ix2 p q)).toNat, hidx _⟩ : Fin 4) l) := by
  unfold taken takenOf
  rw [select_apply, maskOf_apply p q _ (takeIdx_lt4 a0 hidx), select_one]
  show Host.gather (rowTakeDims 4 128 4096 200 gather_S4x128_S4096x200x1_S4096x200x128_2_0_n_n_0_2_1128_wf) a1 (takeIdx a0)
      (ix3 p q l) = _
  rw [gather_rows_apply (by decide)]
  refine congrArg a1 (congrArg (fun k : Fin 4 => ix2 k l) (Fin.ext ?_))
  show min (takeIdx a0 (ix3 p q (0 : Fin 1))).toInt.toNat (4 - 1) = (a0 (ix2 p q)).toNat
  rw [takeIdx_apply p q a0 hidx]
  exact clamp_of_lt4 (hidx _)

end Take

/-! ## The normalisation of any array of rows -/

section Norm
variable (t : FVec Ideal S4096x200x128 .f32)

/-- The host's sum over the last axis from the zero word: the sum of the row. -/
theorem rowSum_apply :
    Host.reduceAdd (F := Ideal) t (constant (F := Ideal) S_ .f32 0x00000000#32) reducesTo_S4096x200x128_S4096x200_d2 h_S_
        (ix2 p q) = ∑ l : Fin 128, t (ix3 p q l) := by
  show Ideal.hostReduceAdd reducesTo_S4096x200x128_S4096x200_d2 t (Ideal.ofBits .f32 0x00000000#32) (ix2 p q) = _
  rw [Ideal.hostReduceAdd_single _ (by decide : S4096x200x128.Reduces [2] S4096x200), Ideal.ofBits_zero_f32, zero_add]
  exact Finset.sum_congr rfl fun l _ =>
    congrArg t (funext fun a => match a with | ⟨0, _⟩ => rfl | ⟨1, _⟩ => rfl | ⟨2, _⟩ => rfl)

theorem rowMean_apply (z : Fin 1) :
    rowMean t (ix3 p q z) = Ideal.div (∑ l : Fin 128, t (ix3 p q l)) (Ideal.ofBits .f32 0x43000000#32) :=
  congrArg₂ Ideal.div ((bcast_unit_apply p q _ z).trans (rowSum_apply p q t)) rfl

theorem centred_apply (l : Fin 128) :
    centred t (ix3 p q l) = t (ix3 p q l) - rowMean t (ix3 p q (0 : Fin 1)) := by
  show t (ix3 p q l) - broadcastInDim S4096x200x128 ![0, 1, 2] bcast_S4096x200x1_S4096x200x128_0_1_2 (rowMean t) (ix3 p q l) = _
  rw [bcast_row_apply]

theorem rowVar_apply (z : Fin 1) :
    rowVar t (ix3 p q z)
      = Ideal.div (∑ l : Fin 128, centred t (ix3 p q l) * centred t (ix3 p q l)) (Ideal.ofBits .f32 0x43000000#32) :=
  congrArg₂ Ideal.div ((bcast_unit_apply p q _ z).trans (rowSum_apply p q (mulf (centred t) (centred t)))) rfl

theorem normed_apply (l : Fin 128) :
    normed t (ix3 p q l)
      = Ideal.div (centred t (ix3 p q l))
          (Ideal.sqrt (rowVar t (ix3 p q (0 : Fin 1)) + Ideal.ofBits .f32 0x2B8CBCCC#32)) := by
  show Ideal.div (centred t (ix3 p q l))
      (broadcastInDim S4096x200x128 ![0, 1, 2] bcast_S4096x200x1_S4096x200x128_0_1_2
        (Host.sqrt (F := Ideal) (addf (rowVar t)
          (broadcastInDim S4096x200x1 ![] bcast_S_S4096x200x1 (constant (F := Ideal) S_ .f32 0x2B8CBCCC#32)))) (ix3 p q l)) = _
  rw [bcast_row_apply]
  rfl

theorem lnTerm_apply (g b : FVec Ideal S128 .f32) (l : Fin 128) :
    lnTerm t g b (ix3 p q l) = normed t (ix3 p q l) * g (ix1 l) + b (ix1 l) := by
  show normed t (ix3 p q l)
        * broadcastInDim S4096x200x128 ![0, 1, 2] bcast_S1x1x128_S4096x200x128_0_1_2
            (broadcastInDim S1x1x128 ![2] bcast_S128_S1x1x128_2 g) (ix3 p q l)
      + broadcastInDim S4096x200x128 ![0, 1, 2] bcast_S1x1x128_S4096x200x128_0_1_2
            (broadcastInDim S1x1x128 ![2] bcast_S128_S1x1x128_2 b) (ix3 p q l) = _
  rw [bcast_vec_apply, bcast_vec_apply]

end Norm

end Cert.ReferenceIdeal.RefValue

end
-- ==== Proof.LnMath.lean ====
/-
  The one law the two orders of operations differ by, and where it holds.

  The specification multiplies the centred entry by the reciprocal root of the row's variance plus ε; the program
  that normalises each looked-up row divides it by the root. Over the extended reals the two agree when variance
  plus ε is a positive real: the root is then a nonzero real, division by it is multiplication by its reciprocal,
  and the reciprocal root is that reciprocal — whatever the entry is. A row of reals has a real mean, real centred
  entries and a real variance that is not negative (a sum of squares over the positive word for 128), and ε is a
  positive real, so for a finite table the law holds at every row.
-/
import proofs.«214982_g87402584473731_cont_9to1c4b_667_31_alg».proof.Proof.Spec
import Idealize.ShloMosaic.PureOps.Ideal.Laws

noncomputable section

namespace Cert.LnMath

open Idealize.ShloMosaic Idealize.ShloMosaic.ValueIdx Cert.Spec
open scoped BigOperators

/-- The word for the row length is a positive real (it is 128 = 2²³ · 2⁻¹⁶). -/
theorem c128_real : ∃ c : ℝ, 0 < c ∧ c128 = (c : EReal) :=
  ⟨8388608 * (2 ^ 16)⁻¹, by positivity, by simp [c128, Ideal.ofBits, Ideal.ieee]⟩

/-- The word for ε is a positive real (9223372 · 2⁻⁶³, about 10⁻¹²). -/
theorem eps_real : ∃ e : ℝ, 0 < e ∧ eps = (e : EReal) :=
  ⟨9223372 * (2 ^ 63)⁻¹, by positivity, by simp [eps, Ideal.ofBits, Ideal.ieee]⟩

/-- A finite sum of reals, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Over a positive real, dividing by the root is multiplying by the reciprocal root, whatever is divided. -/
theorem div_sqrt_eq_mul_rsqrt (c : EReal) {v : ℝ} (hv : 0 < v) :
    Ideal.div c (Ideal.sqrt (v : EReal)) = c * Ideal.rsqrt (v : EReal) := by
  have hs : Real.sqrt v ≠ 0 := (Real.sqrt_pos.2 hv).ne'
  rw [Ideal.sqrt_coe, if_neg (not_lt.2 hv.le), Ideal.div_coe hs, Ideal.rsqrt_coe, if_neg (not_lt.2 hv.le), if_neg hv.ne', one_div]

/-- A row of a finite table has a real variance that is not negative. -/
theorem var_real (tbl : FVec Ideal T4x128 .f32) (k : Fin 4) (hfin : ∀ i, ∃ r : ℝ, tbl i = (r : EReal)) :
    ∃ v : ℝ, 0 ≤ v ∧ var tbl k = (v : EReal) := by
  obtain ⟨c, hc, ec⟩ := c128_real
  choose r hr using fun l : Fin 128 => hfin (ix2 k l)
  have hmean : mean tbl k = (((∑ l, r l) * (1 / c) : ℝ) : EReal) := by
    unfold mean
    simp only [hr]
    rw [coe_sum, ec, Ideal.div_coe hc.ne', ← EReal.coe_mul]
  have hcen : ∀ l, cen tbl k l = ((r l - (∑ l, r l) * (1 / c) : ℝ) : EReal) := fun l => by
    unfold cen
    rw [hr, hmean, ← EReal.coe_sub]
  refine ⟨(∑ l, (r l - (∑ l, r l) * (1 / c)) * (r l - (∑ l, r l) * (1 / c))) * (1 / c),
    mul_nonneg (Finset.sum_nonneg fun l _ => mul_self_nonneg _) (by positivity), ?_⟩
  unfold var
  simp only [hcen, ← EReal.coe_mul]
  rw [coe_sum, ec, Ideal.div_coe hc.ne', ← EReal.coe_mul]

/-- So its variance plus ε is a positive real. -/
theorem var_add_eps_pos (tbl : FVec Ideal T4x128 .f32) (k : Fin 4) (hfin : ∀ i, ∃ r : ℝ, tbl i = (r : EReal)) :
    ∃ w : ℝ, 0 < w ∧ var tbl k + eps = (w : EReal) := by
  obtain ⟨v, hv, ev⟩ := var_real tbl k hfin
  obtain ⟨e, he, ee⟩ := eps_real
  exact ⟨v + e, by positivity, by rw [ev, ee, ← EReal.coe_add]⟩

/-- The row normalised by DIVIDING by the root is the specification's row, for a finite table. -/
theorem div_form_eq_lnRow (tbl : FVec Ideal T4x128 .f32) (g b : FVec Ideal T128 .f32) (k : Fin 4) (l : Fin 128)
    (hfin : ∀ i, ∃ r : ℝ, tbl i = (r : EReal)) :
    Ideal.div (cen tbl k l) (Ideal.sqrt (var tbl k + eps)) * g (ix1 l) + b (ix1 l) = lnRow tbl g b k l := by
  obtain ⟨w, hw, e⟩ := var_add_eps_pos tbl k hfin
  unfold lnRow
  rw [e, div_sqrt_eq_mul_rsqrt _ hw]

end Cert.LnMath

end
-- ==== Proof.RefValue.lean ====
/-
  The reference computes the specification.

  At position (p, q) the index word is one of 0, 1, 2, 3, so the row the specification reads (the word modulo 4) is the
  row the lookup reads (the word itself), and every entry of the looked-up row (p, q) is the table's. The mean, the
  centred entries and the variance of that row are then the table row's, and the one difference left — dividing by the
  root of variance plus ε against multiplying by the reciprocal root — is no difference where the table is finite.
-/
import proofs.«214982_g87402584473731_cont_9to1c4b_667_31_alg».proof.Proof.Spec
import proofs.«214982_g87402584473731_cont_9to1c4b_667_31_alg».proof.Proof.RefRun
import proofs.«214982_g87402584473731_cont_9to1c4b_667_31_alg».proof.Proof.PreFacts
import proofs.«214982_g87402584473731_cont_9to1c4b_667_31_alg».proof.Proof.RefRead
import proofs.«214982_g87402584473731_cont_9to1c4b_667_31_alg».proof.Proof.LnMath

noncomputable section

namespace Cert.ReferenceIdeal.RefValue

open Cert.ReferenceIdeal Idealize.ShloMosaic Idealize.ShloMosaic.ValueIdx

/-- Where every index word is below 4 and the table is finite, the reference's result is the specification's. -/
theorem refTerm_eq_spec (a0 : IVec S4096x200 32) (a1 : FVec Ideal S4x128 .f32) (a2 a3 : FVec Ideal S128 .f32)
    (hidx : ∀ i, (a0 i).toNat < 4) (hfin : ∀ i, ∃ r : ℝ, a1 i = (r : EReal)) :
    refTerm a0 a1 a2 a3 = Cert.Spec.out a0 a1 a2 a3 := by
  funext i
  obtain ⟨p, q, l, rfl⟩ : ∃ (p : Fin 4096) (q : Fin 200) (l : Fin 128), i = ix3 p q l := ⟨i 0, i 1, i 2, eq_ix3 i⟩
  rw [Cert.Spec.out_apply]
  have hk : Cert.Spec.rowOf (a0 (ix2 p q)) = (⟨(a0 (ix2 p q)).toNat, hidx _⟩ : Fin 4) :=
    Fin.ext (Nat.mod_eq_of_lt (hidx _))
  rw [hk]
  have ht : ∀ l', taken a0 a1 (ix3 p q l') = a1 (ix2 (⟨(a0 (ix2 p q)).toNat, hidx _⟩ : Fin 4) l') :=
    fun l' => taken_apply p q a0 hidx a1 l'
  have hmean : rowMean (taken a0 a1) (ix3 p q (0 : Fin 1)) = Cert.Spec.mean a1 ⟨(a0 (ix2 p q)).toNat, hidx _⟩ := by
    rw [rowMean_apply]
    simp only [ht]
    rfl
  have hcen : ∀ l', centred (taken a0 a1) (ix3 p q l') = Cert.Spec.cen a1 ⟨(a0 (ix2 p q)).toNat, hidx _⟩ l' :=
    fun l' => by
      rw [centred_apply, ht, hmean]
      rfl
  have hvar : rowVar (taken a0 a1) (ix3 p q (0 : Fin 1)) = Cert.Spec.var a1 ⟨(a0 (ix2 p q)).toNat, hidx _⟩ := by
    rw [rowVar_apply]
    simp only [hcen]
    rfl
  show lnTerm (taken a0 a1) a2 a3 (ix3 p q l) = _
  rw [lnTerm_apply, normed_apply, hcen, hvar]
  exact Cert.LnMath.div_form_eq_lnRow a1 a2 a3 _ l hfin

end Cert.ReferenceIdeal.RefValue

end
-- ==== Proof.Assembly.lean ====
/-
  The certificate's claims from its pieces.

  Each kernel frame is the kernel program's run — every thread of the 35 terminates and the final memory holds the result
  at the gathered rows re-laid and the four arguments as launched — with the result's value dropped. The reference's frame
  is its run with the value dropped. The two idealised programs agree: under the input-domain precondition every index
  word is one of 0, 1, 2, 3 and every table entry is a real, so the kernel's result (the rows of the normalised table the
  offset indices name) and the reference's (each looked-up row normalised) are both the one specified function of the
  four arguments, and the arguments agree by hypothesis. The one piece taken as a hypothesis here is a vector subcore's
  task.
-/
import proofs.«214982_g87402584473731_cont_9to1c4b_667_31_alg».proof.Defs
import proofs.«214982_g87402584473731_cont_9to1c4b_667_31_alg».proof.Proof.Gen.Kernel
import proofs.«214982_g87402584473731_cont_9to1c4b_667_31_alg».proof.Proof.Gen.KernelIdeal
import proofs.«214982_g87402584473731_cont_9to1c4b_667_31_alg».proof.Proof.Gen.ReferenceIdeal
import proofs.«214982_g87402584473731_cont_9to1c4b_667_31_alg».proof.Proof.Gen.Pre_input_domain
import proofs.«214982_g87402584473731_cont_9to1c4b_667_31_alg».proof.Proof.Run
import proofs.«214982_g87402584473731_cont_9to1c4b_667_31_alg».proof.Proof.Main
import proofs.«214982_g87402584473731_cont_9to1c4b_667_31_alg».proof.Proof.KernelW.Run
import proofs.«214982_g87402584473731_cont_9to1c4b_667_31_alg».proof.Proof.KernelW.Main
import proofs.«214982_g87402584473731_cont_9to1c4b_667_31_alg».proof.Proof.PreFacts
import proofs.«214982_g87402584473731_cont_9to1c4b_667_31_alg».proof.Proof.KValue
import proofs.«214982_g87402584473731_cont_9to1c4b_667_31_alg».proof.Proof.RefRun
import proofs.«214982_g87402584473731_cont_9to1c4b_667_31_alg».proof.Proof.RefValue

noncomputable section

namespace Cert.Proof.Assembly

open Idealize.ShloMosaic Idealize.SL.Sem

/-- Under the precondition every index word of the launch memory is one of 0, 1, 2, 3 (word-level program). -/
theorem preOK_k (m : (ℓ : Loc Cert.Kernel.nD Cert.Kernel.τ Cert.Kernel.sig) → Buf (Elt Bits) ℓ) (h : Cert.Pre_Kernel m) :
    Cert.Kernel.Hand.PreOK (F := Bits) m :=
  fun d j => Cert.PreFacts.idx_lt4 (h d) j

/-- The same of the idealised program. -/
theorem preOK_ki (m : (ℓ : Loc Cert.KernelIdeal.nD Cert.KernelIdeal.τ Cert.KernelIdeal.sig) → Buf (Elt Ideal) ℓ) (h : Cert.Pre_KernelIdeal m) :
    Cert.KernelIdeal.Hand.PreOK (F := Ideal) m :=
  fun d j => Cert.PreFacts.idx_lt4 (h d) j

theorem frame_k (ht : ∀ m, Cert.Kernel.Hand.PreOK (F := Bits) m → Cert.Kernel.Hand.TileBodySpec (F := Bits) m) : Cert.frame_Kernel :=
  fun m g hpre => (θ_run _ _ _).mono (fun _ h c => ⟨(h c).2.1, (h c).2.2.1, (h c).2.2.2.1, (h c).2.2.2.2⟩)
    (Cert.Kernel.Hand.run_main (F := Bits) m g (ht m (preOK_k m hpre)) (Cert.Kernel.Hand.hmain m g) (Cert.Kernel.Hand.hfin m))

theorem frame_ki (ht : ∀ m, Cert.KernelIdeal.Hand.PreOK (F := Ideal) m → Cert.KernelIdeal.Hand.TileBodySpec (F := Ideal) m) : Cert.frame_KernelIdeal :=
  fun m g hpre => (θ_run _ _ _).mono (fun _ h c => ⟨(h c).2.1, (h c).2.2.1, (h c).2.2.2.1, (h c).2.2.2.2⟩)
    (Cert.KernelIdeal.Hand.run_main (F := Ideal) m g (ht m (preOK_ki m hpre)) (Cert.KernelIdeal.Hand.hmain m g) (Cert.KernelIdeal.Hand.hfin m))

theorem frame_ri : Cert.frame_ReferenceIdeal :=
  fun m g _ => (θ_run _ _ _).mono (fun _ h c => (h c).2) (Cert.ReferenceIdeal.RefValue.run m g)

theorem preserves : Cert.preserves_Kernel_KernelIdeal := trivial

/-- The two idealised programs agree, given that the reference's term is the specified function where every index word
    is one of 0, 1, 2, 3 and the table is finite. -/
theorem algebraic_of
    (hspec : ∀ (a0 : IVec Cert.ReferenceIdeal.S4096x200 32) (a1 : FVec Ideal Cert.ReferenceIdeal.S4x128 .f32) (a2 a3 : FVec Ideal Cert.ReferenceIdeal.S128 .f32),
      (∀ i, (a0 i).toNat < 4) → (∀ i, ∃ r : ℝ, a1 i = (r : EReal)) →
        Cert.ReferenceIdeal.RefValue.refTerm a0 a1 a2 a3 = Cert.Spec.out a0 a1 a2 a3)
    (ht : ∀ m, Cert.KernelIdeal.Hand.PreOK (F := Ideal) m → Cert.KernelIdeal.Hand.TileBodySpec (F := Ideal) m) :
    Cert.algebraic_KernelIdeal_ReferenceIdeal := by
  intro m g m' g' hpre hagree
  refine ⟨fun c => Cert.KernelIdeal.Hand.O6 (F := Ideal) m c, ?_, ?_⟩
  · exact (θ_run _ _ _).mono (fun _ h c => h c)
      (Cert.KernelIdeal.Hand.run_main (F := Ideal) m g (ht m (preOK_ki m hpre)) (Cert.KernelIdeal.Hand.hmain m g) (Cert.KernelIdeal.Hand.hfin m))
  · refine (θ_run _ _ _).mono (fun r h c => ⟨?_, (h c).2⟩) (Cert.ReferenceIdeal.RefValue.run m' g')
    obtain ⟨e0, e1, e2, e3⟩ := hagree c
    refine (h c).1.trans ?_
    rw [e0, e1, e2, e3, hspec _ _ _ _ (Cert.PreFacts.idx_lt4 (hpre c)) (Cert.PreFacts.fin_tbl (hpre c))]
    exact (Cert.KernelIdeal.Hand.O6_eq_spec m c (preOK_ki m hpre c)).symm

theorem algebraic (ht : ∀ m, Cert.KernelIdeal.Hand.PreOK (F := Ideal) m → Cert.KernelIdeal.Hand.TileBodySpec (F := Ideal) m) :
    Cert.algebraic_KernelIdeal_ReferenceIdeal :=
  algebraic_of Cert.ReferenceIdeal.RefValue.refTerm_eq_spec ht

end Cert.Proof.Assembly

end
-- ==== Proof.Pieces.lean ====
/-
  How a subcore's buffers fall into the pieces its transfers move: the 200 × 128 index scratch into its first 8 rows
  and its other 192 (the second fetch is still in flight while the first rows are already being worked on); a slab of
  the index array likewise.
-/
import proofs.«214982_g87402584473731_cont_9to1c4b_667_31_alg».proof.Proof.Common
import proofs.«214982_g87402584473731_cont_9to1c4b_667_31_alg».proof.Proof.Sets

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- Membership in a unit-stride rectangle of a rank-2 shape, axis by axis. -/
theorem mem_unit2 {A B : Nat} {off size : Fin 2 → Nat} {inb} {i : (⟨2, ![A, B]⟩ : Shape).Idx} :
    i ∈ (Rect.unit (s := ⟨2, ![A, B]⟩) off size inb).set
      ↔ (off 0 ≤ (i 0).val ∧ (i 0).val < off 0 + size 0) ∧ (off 1 ≤ (i 1).val ∧ (i 1).val < off 1 + size 1) := by
  rw [Rect.mem_set_unit]
  exact ⟨fun h => ⟨h 0, h 1⟩, fun h a => match a with | 0 => h.1 | 1 => h.2⟩

/-- and of a rank-3 shape. -/
theorem mem_unit3 {A B C : Nat} {off size : Fin 3 → Nat} {inb} {i : (⟨3, ![A, B, C]⟩ : Shape).Idx} :
    i ∈ (Rect.unit (s := ⟨3, ![A, B, C]⟩) off size inb).set
      ↔ (off 0 ≤ (i 0).val ∧ (i 0).val < off 0 + size 0) ∧ (off 1 ≤ (i 1).val ∧ (i 1).val < off 1 + size 1)
        ∧ (off 2 ≤ (i 2).val ∧ (i 2).val < off 2 + size 2) := by
  rw [Rect.mem_set_unit]
  exact ⟨fun h => ⟨h 0, h 1, h 2⟩, fun h a => match a with | 0 => h.1 | 1 => h.2.1 | 2 => h.2.2⟩

/-! ## The index scratch: rows 0 … 7 and rows 8 … 199 -/

abbrev ixHdR : Rect S200x128 := Rect.unit (s := S200x128) ![0, 0] S8x128.size inb_S200x128_S8x128_0_0
abbrev ixTlR : Rect S200x128 := Rect.unit (s := S200x128) ![8, 0] S192x128.size inb_S200x128_S192x128_8_0
abbrev ixHd : Memref sig .scVector .vmem S8x128 .i32 := (ixV).slice ixHdR (fun _ => rfl)
abbrev ixTl : Memref sig .scVector .vmem S192x128 .i32 := (ixV).slice ixTlR (fun _ => rfl)

theorem ix_hd_tl : (Finset.univ : Finset S200x128.Idx) = ixHdR.set ∪ ixTlR.set ∧ Disjoint ixHdR.set ixTlR.set := by
  constructor
  · ext i
    simp only [Finset.mem_univ, Finset.mem_union, true_iff]
    have h0 : (i 0).val < 200 := (i 0).isLt
    have h1 : (i 1).val < 128 := (i 1).isLt
    by_cases h : (i 0).val < 8
    · left; rw [mem_unit2]; simp; omega
    · right; rw [mem_unit2]; simp; omega
  · rw [Finset.disjoint_left]
    intro i hi hj
    rw [mem_unit2] at hi hj
    simp at hi hj
    omega

theorem set_ixHd : (ixHd).view.set = ixHdR.set := View.set_slice_whole _ _
theorem set_ixTl : (ixTl).view.set = ixTlR.set := View.set_slice_whole _ _

section
variable (d : Dev nD) (c : Fin τ.nSC) (i : Fin τ.nSub)

/-- The index scratch whole is its first 8 rows and its other 192, each as the task's slice addresses it. -/
theorem pts_ix_split (f : Buf (Elt F) ((V d c i).loc cc1_scratch0)) :
    ((V d c i).loc cc1_scratch0 ↦{fullShare} f : sProp 𝕄)
      ⊣⊢ iprop(((ixHd).view.loc (V d c i) ↦[(ixHd).view.set]{fullShare} f) ∗ ((ixTl).view.loc (V d c i) ↦[(ixTl).view.set]{fullShare} f)) := by
  rw [set_ixHd, set_ixTl]
  show ((V d c i).loc cc1_scratch0 ↦[Finset.univ]{fullShare} f : sProp 𝕄) ⊣⊢ _
  rw [ix_hd_tl.1]
  exact pointsTo_union ix_hd_tl.2
end

/-! ## A slab of the index array: its first 8 rows and its other 192 -/

section
variable (L : grid1.Coords)

abbrev ihdK : Rect S32x200x128 := Rect.unit (s := S32x200x128) (k1_off2 L) S1x8x128.size (k1_off2_inb L)
abbrev itlK : Rect S32x200x128 := Rect.unit (s := S32x200x128) (k1_off3 L) S1x192x128.size (k1_off3_inb L)
abbrev iHd : Memref sig .scVector .hbm S8x128 .i32 := ((iV).slice (ihdK L) (fun _ => rfl)).squeeze S8x128 squeezes_S1x8x128_S8x128
abbrev iTl : Memref sig .scVector .hbm S192x128 .i32 := ((iV).slice (itlK L) (fun _ => rfl)).squeeze S192x128 squeezes_S1x192x128_S192x128

theorem set_iHd : (iHd L).view.set = (ihdK L).set := by
  show (((iV).view.slice (ihdK L)).reshape S8x128 squeezes_S1x8x128_S8x128.numel_eq).set = _
  rw [View.set_reshape]; exact View.set_slice_whole _ _
theorem set_iTl : (iTl L).view.set = (itlK L).set := by
  show (((iV).view.slice (itlK L)).reshape S192x128 squeezes_S1x192x128_S192x128.numel_eq).set = _
  rw [View.set_reshape]; exact View.set_slice_whole _ _

/-- Slab `w` is the indices whose first coordinate is `w`. -/
theorem mem_islab (w : Fin 32) (j : S32x200x128.Idx) : j ∈ (islab w).set ↔ (j 0).val = w.val := by
  have h1 : (j 1).val < 200 := (j 1).isLt
  have h2 : (j 2).val < 128 := (j 2).isLt
  constructor
  · intro h
    have := (Rect.mem_set_unit.mp h) 0
    simp [Shape.partIx, Shape.partSize] at this
    omega
  · intro h
    refine Rect.mem_set_unit.mpr fun a => ?_
    match a with
    | 0 => simp [Shape.partIx, Shape.partSize]; omega
    | 1 => simp [Shape.partIx, Shape.partSize]; omega
    | 2 => simp [Shape.partIx, Shape.partSize]; omega

theorem islab_hd_tl (c : Fin 2) (i : Fin 16) (hc : c.val = (L 0).val) (hi : i.val = (L 1).val) :
    islabSet (wid c i) = (iHd L).view.set ∪ (iTl L).view.set ∧ Disjoint (iHd L).view.set (iTl L).view.set := by
  rw [islabSet_eq, set_iHd, set_iTl]
  have hw : (wid c i).val = 2 * (L 1).val + (L 0).val := by simp [wid, hc, hi]
  constructor
  · ext j
    have h1 : (j 1).val < 200 := (j 1).isLt
    have h2 : (j 2).val < 128 := (j 2).isLt
    rw [mem_islab, Finset.mem_union, mem_unit3, mem_unit3, k1_off2_eq, k1_off3_eq, hw]
    simp
    omega
  · rw [Finset.disjoint_left]
    intro j h h'
    rw [mem_unit3, k1_off2_eq] at h
    rw [mem_unit3, k1_off3_eq] at h'
    simp at h h'
    omega

end

/-! ## The four row buffers -/

abbrev rwR0 : Rect S4x128x128 := Rect.unit (s := S4x128x128) ![0, 0, 0] S1x128x128.size inb_S4x128x128_S1x128x128_0_0_0
abbrev rwR1 : Rect S4x128x128 := Rect.unit (s := S4x128x128) ![1, 0, 0] S1x128x128.size inb_S4x128x128_S1x128x128_1_0_0
abbrev rwR2 : Rect S4x128x128 := Rect.unit (s := S4x128x128) ![2, 0, 0] S1x128x128.size inb_S4x128x128_S1x128x128_2_0_0
abbrev rwR3 : Rect S4x128x128 := Rect.unit (s := S4x128x128) ![3, 0, 0] S1x128x128.size inb_S4x128x128_S1x128x128_3_0_0
abbrev rwS0 : Memref sig .scVector .vmem S128x128 .f32 := ((rwV).slice rwR0 (fun _ => rfl)).squeeze S128x128 squeezes_S1x128x128_S128x128
abbrev rwS1 : Memref sig .scVector .vmem S128x128 .f32 := ((rwV).slice rwR1 (fun _ => rfl)).squeeze S128x128 squeezes_S1x128x128_S128x128
abbrev rwS2 : Memref sig .scVector .vmem S128x128 .f32 := ((rwV).slice rwR2 (fun _ => rfl)).squeeze S128x128 squeezes_S1x128x128_S128x128
abbrev rwS3 : Memref sig .scVector .vmem S128x128 .f32 := ((rwV).slice rwR3 (fun _ => rfl)).squeeze S128x128 squeezes_S1x128x128_S128x128

theorem set_rwS0 : (rwS0).view.set = rwR0.set := by
  show (((rwV).view.slice rwR0).reshape S128x128 squeezes_S1x128x128_S128x128.numel_eq).set = _
  rw [View.set_reshape]; exact View.set_slice_whole _ _
theorem set_rwS1 : (rwS1).view.set = rwR1.set := by
  show (((rwV).view.slice rwR1).reshape S128x128 squeezes_S1x128x128_S128x128.numel_eq).set = _
  rw [View.set_reshape]; exact View.set_slice_whole _ _
theorem set_rwS2 : (rwS2).view.set = rwR2.set := by
  show (((rwV).view.slice rwR2).reshape S128x128 squeezes_S1x128x128_S128x128.numel_eq).set = _
  rw [View.set_reshape]; exact View.set_slice_whole _ _
theorem set_rwS3 : (rwS3).view.set = rwR3.set := by
  show (((rwV).view.slice rwR3).reshape S128x128 squeezes_S1x128x128_S128x128.numel_eq).set = _
  rw [View.set_reshape]; exact View.set_slice_whole _ _

theorem mem_rwR (b : Nat) (inb) (j : S4x128x128.Idx) :
    j ∈ (Rect.unit (s := S4x128x128) ![b, 0, 0] S1x128x128.size inb).set ↔ (j 0).val = b := by
  have h1 : (j 1).val < 128 := (j 1).isLt
  have h2 : (j 2).val < 128 := (j 2).isLt
  rw [mem_unit3]; simp; omega

theorem rw_slots : (Finset.univ : Finset S4x128x128.Idx) = rwR0.set ∪ (rwR1.set ∪ (rwR2.set ∪ rwR3.set))
    ∧ Disjoint rwR0.set (rwR1.set ∪ (rwR2.set ∪ rwR3.set)) ∧ Disjoint rwR1.set (rwR2.set ∪ rwR3.set) ∧ Disjoint rwR2.set rwR3.set := by
  refine ⟨?_, ?_, ?_, ?_⟩
  · ext j
    have h0 : (j 0).val < 4 := (j 0).isLt
    simp only [Finset.mem_univ, Finset.mem_union, mem_rwR, true_iff]
    omega
  all_goals
    rw [Finset.disjoint_left]
    intro j h h'
    simp only [Finset.mem_union, mem_rwR] at h h'
    omega

section
variable (d : Dev nD) (c : Fin τ.nSC) (i : Fin τ.nSub)

/-- The row-buffer scratch whole is its four buffers, each as the task's slice addresses it. -/
theorem pts_rw_split (f : Buf (Elt F) ((V d c i).loc cc1_scratch1)) :
    ((V d c i).loc cc1_scratch1 ↦{fullShare} f : sProp 𝕄)
      ⊣⊢ iprop(((rwS0).view.loc (V d c i) ↦[(rwS0).view.set]{fullShare} f) ∗ ((rwS1).view.loc (V d c i) ↦[(rwS1).view.set]{fullShare} f)
        ∗ ((rwS2).view.loc (V d c i) ↦[(rwS2).view.set]{fullShare} f) ∗ ((rwS3).view.loc (V d c i) ↦[(rwS3).view.set]{fullShare} f)) := by
  rw [set_rwS0, set_rwS1, set_rwS2, set_rwS3]
  show ((V d c i).loc cc1_scratch1 ↦[Finset.univ]{fullShare} f : sProp 𝕄) ⊣⊢ _
  rw [rw_slots.1]
  constructor
  · iintro H
    ihave H := (pointsTo_union rw_slots.2.1).1 $$ H
    icases H with ⟨H0, H⟩
    ihave H := (pointsTo_union rw_slots.2.2.1).1 $$ H
    icases H with ⟨H1, H⟩
    ihave H := (pointsTo_union rw_slots.2.2.2).1 $$ H
    icases H with ⟨H2, H3⟩
    isplitl [H0]; · iexact H0
    isplitl [H1]; · iexact H1
    isplitl [H2]; · iexact H2
    iexact H3
  · iintro ⟨H0, H1, H2, H3⟩
    iapply (pointsTo_union rw_slots.2.1).2
    isplitl [H0]; · iexact H0
    iapply (pointsTo_union rw_slots.2.2.1).2
    isplitl [H1]; · iexact H1
    iapply (pointsTo_union rw_slots.2.2.2).2
    isplitl [H2]; · iexact H2
    iexact H3
end

end Cert.KernelIdeal.Hand

end
-- ==== Proof.TileLemmas.lean ====
/-
  Lemmas for one vector subcore's task (the task itself is in Tile.lean). Subcore `s` of SparseCore `c` works on slab `w = 2s + c`: it copies block `s` (rows
  16s … 16s+15) of the 256-row table into its SparseCore's shared memory, fetches the first 8 of its 200 rows of indices
  and starts the fetch of the other 192, meets the other fifteen subcores at the barrier — handing each a sixteenth of its
  block and receiving a sixteenth of every block, so that from then on it reads the whole shared table —, and then, row
  of 128 indices by row, adds the lane offsets, gathers the 128 named table rows into one of four row buffers and copies
  the buffer out to rows 25600 w + 128 t … of the result.
-/
import proofs.«214982_g87402584473731_cont_9to1c4b_667_31_alg».proof.Proof.TileSpec
import proofs.«214982_g87402584473731_cont_9to1c4b_667_31_alg».proof.Proof.Sets
import proofs.«214982_g87402584473731_cont_9to1c4b_667_31_alg».proof.Proof.Pieces

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Tile

variable (d : Dev nD) (L : grid1.Coords)

/-! ### Block `s` of the table and of the shared memory, as the task slices them -/

abbrev tblkK (L : grid1.Coords) : Rect S256x128 := Rect.unit (s := S256x128) (k1_off1 L) S16x128.size (k1_off1_inb L)
abbrev tSlK (L : grid1.Coords) : Memref sig .scVector .hbm S16x128 .f32 := (tV).slice (tblkK L) (fun _ => rfl)
abbrev shSlK (L : grid1.Coords) : Memref sig .scVector .shared S16x128 .f32 := (shV).slice (tblkK L) (fun _ => rfl)

omit [FloatOps F] in
theorem tblkK_eq : tblkK L = tblk (jL L) := by
  unfold tblkK tblk Rect.part Rect.block
  congr 1 <;> funext a
  · rw [k1_off1_eq]
    match a with
    | 0 => simp [Shape.partIx, Shape.partSize, Nat.mul_comm]
    | 1 => simp [Shape.partIx, Shape.partSize]
  · match a with
    | 0 => simp [Shape.partSize]
    | 1 => simp [Shape.partSize]

omit [FloatOps F] in
theorem set_tSlK : (tSlK L).view.set = tblkSet (jL L) := by
  show ((tV).view.slice (tblkK L)).set = ((tV).view.slice (tblk (jL L))).set
  exact tblkK_eq L ▸ rfl
omit [FloatOps F] in
theorem set_shSlK : (shSlK L).view.set = tblkSet (jL L) := by
  show ((shV).view.slice (tblkK L)).set = ((tV).view.slice (tblk (jL L))).set
  exact tblkK_eq L ▸ rfl

omit [FloatOps F] in
theorem pts_tSlK (q : PosShare TreeShare) (f : Buf (Elt F) (v3Loc d)) :
    ((tSlK L).view.loc (V d (cV L) (jV L)) ↦[(tSlK L).view.set]{q} f : sProp 𝕄) = v3Loc d ↦[tblkSet (jL L)]{q} f := by
  rw [set_tSlK]
omit [FloatOps F] in
theorem pts_shSlK (q : PosShare TreeShare) (f : Buf (Elt F) (shLoc d (cV L))) :
    ((shSlK L).view.loc (V d (cV L) (jV L)) ↦[(shSlK L).view.set]{q} f : sProp 𝕄) = shLoc d (cV L) ↦[tblkSet (jL L)]{q} f := by
  rw [set_shSlK]; rfl

/-! ### The subcore's own semaphores and buffers -/

abbrev cS0 (d : Dev nD) (c : Fin τ.nSC) (i : Fin τ.nSub) : GSem nD τ sig := (V d c i, .dma cc1_scoped0.sem)
abbrev cS1 (d : Dev nD) (c : Fin τ.nSC) (i : Fin τ.nSub) : GSem nD τ sig := (V d c i, .dma cc1_scoped1.sem)

/-- The subcore's DMA semaphore number `k`. -/
abbrev dcell (d : Dev nD) (c : Fin τ.nSC) (i : Fin τ.nSub) (k : Fin 15) : GSem nD τ sig := (V d c i, .dma k)

/-- The eleven DMA semaphores of the task: the four gather semaphores (4 … 7), the four write-out semaphores (8 … 11),
    the index fetch's (12), the two of its first copies (13, 14). -/
def myK : Finset (Fin 15) := {4, 5, 6, 7, 8, 9, 10, 11, 12, 13, 14}
def myCells (d : Dev nD) (c : Fin τ.nSC) (i : Fin τ.nSub) : Finset (GSem nD τ sig) := myK.image (dcell d c i)

omit [FloatOps F] in
theorem myK_scoped : ∀ k ∈ myK, (SemLoc.dma k : SemLoc sig).isScoped .scVector = true := by decide

omit [FloatOps F] in
theorem myCells_sub (d : Dev nD) (c : Fin τ.nSC) (i : Fin τ.nSub) : myCells d c i ⊆ ownCells (V d c i) := by
  intro g hg
  obtain ⟨k, hk, rfl⟩ := Finset.mem_image.mp hg
  exact (mem_ownCells (g := dcell d c i k)).mpr ⟨rfl, myK_scoped k hk⟩

omit [FloatOps F] in
theorem ownSems0_V :
    (ownSems0 (V d (cV L) (jV L)) : sProp 𝕄)
      = iprop((bigSep myK fun k => semVal (dcell d (cV L) (jV L) k) 0)
          ∗ bigSep (ownCells (V d (cV L) (jV L)) \ myCells d (cV L) (jV L)) fun g => semVal g 0) := by
  unfold SparseCore.Cfg.ownSems0
  rw [SparseCore.bigSep_sdiff_split' (myCells_sub d (cV L) (jV L)),
    show (bigSep (myCells d (cV L) (jV L)) fun g => (semVal g 0 : sProp 𝕄)) = bigSep myK fun k => semVal (dcell d (cV L) (jV L) k) 0 from
      SparseCore.bigSep_image_of_injOn (fun a _ b _ e => by simpa [dcell] using e) _]

omit [FloatOps F] in
theorem myK_chain (Φ : Fin 15 → sProp 𝕄) :
    bigSep myK Φ = iprop(Φ 4 ∗ Φ 5 ∗ Φ 6 ∗ Φ 7 ∗ Φ 8 ∗ Φ 9 ∗ Φ 10 ∗ Φ 11 ∗ Φ 12 ∗ Φ 13 ∗ Φ 14) := by
  unfold myK
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The two scratch buffers are among the subcore's own: the index rows, the four row buffers, and the rest. -/
abbrev ixRef (L : grid1.Coords) : DevRef τ sig := (Proc.scVector (cV L) (jV L)).devRef cc1_scratch0
abbrev rwRef (L : grid1.Coords) : DevRef τ sig := (Proc.scVector (cV L) (jV L)).devRef cc1_scratch1
omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase (ixRef L)).erase (rwRef L))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ixRef L) rfl),
    SparseCore.bigSep_erase' (Finset.mem_erase.mpr ⟨by simp [ixRef, rwRef, Proc.devRef],
      SparseCore.Cfg.mem_ownRefs_of_owner (p := Proc.scVector (cV L) (jV L)) (b := rwRef L) rfl⟩)]

omit [FloatOps F] in
theorem pts_rwV (f : Buf (Elt F) ((V d (cV L) (jV L)).loc cc1_scratch1)) :
    ((rwV).view.loc (V d (cV L) (jV L)) ↦[(rwV).view.set]{fullShare} f : sProp 𝕄) = (V d (cV L) (jV L)).loc cc1_scratch1 ↦{fullShare} f := by
  simp only [Memref.view_whole, View.set_whole]

omit [FloatOps F] in
theorem pts_islab (f : Buf (Elt F) (v4Loc d)) :
    (v4Loc d ↦[islabSet (wid (cL L) (jL L))]{fullShare} f : sProp 𝕄)
      ⊣⊢ iprop(((iHd L).view.loc (V d (cV L) (jV L)) ↦[(iHd L).view.set]{fullShare} f) ∗ ((iTl L).view.loc (V d (cV L) (jV L)) ↦[(iTl L).view.set]{fullShare} f)) := by
  rw [(islab_hd_tl L (cL L) (jL L) rfl rfl).1]
  exact pointsTo_union (islab_hd_tl L (cL L) (jL L) rfl rfl).2

/-! ### The barrier's hand-over -/

/-- What the first copy landed in the shared block is the table's rows. -/
theorem sh_landed (q : PosShare TreeShare) (fsh : Buf (Elt F) (shLoc d (cV L))) :
    ((shSlK L).view.loc (V d (cV L) (jV L)) ↦[(shSlK L).view.set]{q}
        (shSlK L).view.writes (Elt F) fsh [⟨Rect.whole S16x128, ReadAs.same.apply (View.read (Elt F) (tSlK L).view (T3 m d))⟩] : sProp 𝕄)
      = (shSlK L).view.loc (V d (cV L) (jV L)) ↦[(shSlK L).view.set]{q} (T3 m d : Buf (Elt F) (shLoc d (cV L))) :=
  pointsTo_congr fun i hi => by
    obtain ⟨x, -, rfl⟩ := Finset.mem_map.mp hi
    have hx : ((shSlK L).view.slice (Rect.whole S16x128)).emb x = (shSlK L).view.emb x := by
      rw [View.emb_slice]
      show (shSlK L).view.emb ((Rect.whole S16x128).emb x) = _
      rw [Rect.emb_whole_apply]
    rw [View.writes_singleton]
    conv_lhs => rw [← hx]
    rw [View.write_emb_of_mem _ _ (Finset.mem_univ x)]
    rfl

/-- Before the barrier, the subcore's block of the shared memory, holding the table's rows, is what its sixteen units hand
    over: a sixteenth of the block to every subcore's round. -/
theorem pays_intro : (shLoc d (cV L) ↦[tblkSet (jL L)]{fullShare} T3 m d : sProp 𝕄)
    ⊢ (bigSep Finset.univ fun j : Fin (grid1.bound 1) => (bRd (F := F) m).payload (bcell d (cV L) (j.castLE hsub1)) 0 (jV L).val : sProp 𝕄) := by
  rw [leaves (ℓ := shLoc d (cV L)) (tblkSet (jL L)) (T3 m d) 4 fullShare]
  refine Entails.of_eq ?_
  show (bigSep (Finset.univ : Finset (Fin (grid1.bound 1))) fun j => (shLoc d (cV L) ↦[tblkSet (jL L)]{leaf 4 fullShare j} T3 m d : sProp 𝕄)) = _
  refine bigSep_congr fun j _ => ?_
  show _ = bPay m (bcell d (cV L) (j.castLE hsub1)) (jV L).val
  unfold bPay; dsimp only
  rw [dif_pos (show (jV L).val < 16 from (jV L).isLt)]
  rfl

/-- After it, what the subcore's own round collected is its sixteenth of the whole shared memory, holding the table. -/
theorem pays_elim : (bigSep ((bRd (F := F) m).duties (bcell d (cV L) (jV L)) 0 \ ∅) fun n => (bRd (F := F) m).payload (bcell d (cV L) (jV L)) 0 n)
    ⊢ (shLoc d (cV L) ↦{sixS (jL L)} T3 m d : sProp 𝕄) := by
  rw [Finset.sdiff_empty, bRd_duties₀, SparseCore.bigSep_image_of_injOn (fun a _ b _ e => Fin.val_injective e),
    shBlks_split d (cV L) (sixS (jL L)) (T3 m d)]
  refine Entails.of_eq ?_
  show _ = (bigSep (Finset.univ : Finset (Fin τ.nSub)) fun n => (shLoc d (cV L) ↦[tblkSet (Fin.cast nSub_eq n)]{sixS (jL L)} T3 m d : sProp 𝕄))
  refine bigSep_congr fun n _ => ?_
  show bPay m (bcell d (cV L) (jV L)) n.val = _
  unfold bPay; dsimp only
  rw [dif_pos (show n.val < 16 from n.isLt)]
  rfl

omit [FloatOps F] in
theorem pts_shV (q : PosShare TreeShare) (f : Buf (Elt F) (shLoc d (cV L))) :
    ((shV).view.loc (V d (cV L) (jV L)) ↦[(shV).view.set]{q} f : sProp 𝕄) = shLoc d (cV L) ↦{q} f := by
  simp only [Memref.view_whole, View.set_whole]; rfl

/-! ### One row of the index scratch, as a gather's offset list addresses it -/

abbrev ixRow0R : Rect S200x128 := Rect.unit (s := S200x128) ![0, 0] S1x128.size inb_S200x128_S1x128_0_0
abbrev ixRow1R : Rect S200x128 := Rect.unit (s := S200x128) ![1, 0] S1x128.size inb_S200x128_S1x128_1_0
abbrev ixRow2R : Rect S200x128 := Rect.unit (s := S200x128) ![2, 0] S1x128.size inb_S200x128_S1x128_2_0
abbrev ixRow3R : Rect S200x128 := Rect.unit (s := S200x128) ![3, 0] S1x128.size inb_S200x128_S1x128_3_0
abbrev ixRow0 : Memref sig .scVector .vmem S128 .i32 := ((ixV).slice ixRow0R (fun _ => rfl)).squeeze S128 squeezes_S1x128_S128
abbrev ixRow1 : Memref sig .scVector .vmem S128 .i32 := ((ixV).slice ixRow1R (fun _ => rfl)).squeeze S128 squeezes_S1x128_S128
abbrev ixRow2 : Memref sig .scVector .vmem S128 .i32 := ((ixV).slice ixRow2R (fun _ => rfl)).squeeze S128 squeezes_S1x128_S128
abbrev ixRow3 : Memref sig .scVector .vmem S128 .i32 := ((ixV).slice ixRow3R (fun _ => rfl)).squeeze S128 squeezes_S1x128_S128

omit [FloatOps F] in
theorem set_ixRow (off : Fin 2 → Nat) (inb) :
    (((ixV).slice (Rect.unit (s := S200x128) off S1x128.size inb) (fun _ => rfl)).squeeze S128 squeezes_S1x128_S128).view.set
      = (Rect.unit (s := S200x128) off S1x128.size inb).set := by
  show (((ixV).view.slice (Rect.unit (s := S200x128) off S1x128.size inb)).reshape S128 squeezes_S1x128_S128.numel_eq).set = _
  rw [View.set_reshape]; exact View.set_slice_whole _ _

omit [FloatOps F] in
theorem ixRow_sub_hd (t : Nat) (ht : t < 8) (inb) : (Rect.unit (s := S200x128) ![t, 0] S1x128.size inb).set ⊆ (ixHd).view.set := by
  rw [set_ixHd]
  intro i hi
  rw [mem_unit2] at hi ⊢
  simp at hi ⊢
  omega

/-- Carving a row of the first eight out of what holds them: the row, as its offset list addresses it, and the rest. -/
theorem carve_row (t : Nat) (ht : t < 8) (inb) (S : Finset S200x128.Idx)
    (hS : (Rect.unit (s := S200x128) ![t, 0] S1x128.size inb).set ⊆ S) (g : Buf (Elt F) ((V d (cV L) (jV L)).loc cc1_scratch0)) :
    ((ixHd).view.loc (V d (cV L) (jV L)) ↦[S]{fullShare} g : sProp 𝕄)
      ⊣⊢ iprop(((((ixV).slice (Rect.unit (s := S200x128) ![t, 0] S1x128.size inb) (fun _ => rfl)).squeeze S128 squeezes_S1x128_S128).view.loc (V d (cV L) (jV L))
            ↦[(((ixV).slice (Rect.unit (s := S200x128) ![t, 0] S1x128.size inb) (fun _ => rfl)).squeeze S128 squeezes_S1x128_S128).view.set]{fullShare} g)
          ∗ ((ixHd).view.loc (V d (cV L) (jV L)) ↦[S \ (Rect.unit (s := S200x128) ![t, 0] S1x128.size inb).set]{fullShare} g)) := by
  rw [set_ixRow]
  exact pointsTo_split_subset hS

end Tile

end Cert.KernelIdeal.Hand

end
-- ==== Proof.Blocks.lean ====
/-
  The pieces of a subcore's result slab and of its index scratch.

  Slab `w` of the result is rows `25600 w … 25600 w + 25599`; the subcore writes it 128 rows at a time, block `t`
  (`t < 200`) being rows `25600 w + 128 t … + 127`. After `n` blocks the rows done are the first `128 n` of the slab:
  nothing at `n = 0`, the whole slab at `n = 200`, and block `n` is disjoint from what is done and lies in what is left.
  The program names block `4 k + r` through its loop counter `k` and slot `r`, and the last four blocks by constants.
  The index scratch is 200 rows of 128 words; its rows 0 … 7 arrive first and rows 8 … 199 after; a row is rewritten in
  eight chunks of sixteen columns.
-/
import proofs.«214982_g87402584473731_cont_9to1c4b_667_31_alg».proof.Proof.Common
import proofs.«214982_g87402584473731_cont_9to1c4b_667_31_alg».proof.Proof.Sets
import proofs.«214982_g87402584473731_cont_9to1c4b_667_31_alg».proof.Proof.Pieces
import proofs.«214982_g87402584473731_cont_9to1c4b_667_31_alg».proof.Proof.TileSpec

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Two unit-stride rectangles at equal offsets are the same rectangle. -/
theorem c_unit_congr {s : Shape} {off off' : Fin s.rank → Nat} (h : off = off') (size : Fin s.rank → Nat) (inb inb') :
    Rect.unit (s := s) off size inb = Rect.unit (s := s) off' size inb' := by
  subst h; rfl

theorem c_trips_lt (k : Fin k1_t1_loop.trips) : k.val < 49 := lt_of_lt_of_le k.isLt k1_t1_abs.2.1

/-! ## The result slab -/

theorem c_oblk_inb (w : Fin 32) (t : Fin 200) : ∀ a, (![25600 * w.val + 128 * t.val, 0] : Fin 2 → Nat) a + S128x128.size a ≤ S819200x128.size a := by
  intro a
  have hw := w.isLt
  have ht := t.isLt
  match a with
  | 0 => show 25600 * w.val + 128 * t.val + 128 ≤ 819200; omega
  | 1 => show 0 + 128 ≤ 128; omega

/-- Block `t` of slab `w`: 128 rows. -/
def oblkR (w : Fin 32) (t : Fin 200) : Rect S819200x128 :=
  Rect.unit (s := S819200x128) ![25600 * w.val + 128 * t.val, 0] S128x128.size (c_oblk_inb w t)

/-- The first `128 n` rows of slab `w`. -/
def odoneSet (w : Fin 32) (n : Nat) : Finset S819200x128.Idx :=
  Finset.univ.filter fun j => 25600 * w.val ≤ (j 0).val ∧ (j 0).val < 25600 * w.val + 128 * n

theorem mem_oblk (w : Fin 32) (t : Fin 200) (j : S819200x128.Idx) :
    j ∈ (oblkR w t).set ↔ 25600 * w.val + 128 * t.val ≤ (j 0).val ∧ (j 0).val < 25600 * w.val + 128 * t.val + 128 := by
  have h1 : (j 1).val < 128 := (j 1).isLt
  unfold oblkR
  rw [mem_unit2]
  show ((25600 * w.val + 128 * t.val ≤ (j 0).val ∧ (j 0).val < 25600 * w.val + 128 * t.val + 128) ∧ (0 ≤ (j 1).val ∧ (j 1).val < 0 + 128)) ↔ _
  omega

theorem mem_odone (w : Fin 32) (n : Nat) (j : S819200x128.Idx) :
    j ∈ odoneSet w n ↔ 25600 * w.val ≤ (j 0).val ∧ (j 0).val < 25600 * w.val + 128 * n := by
  unfold odoneSet; rw [Finset.mem_filter]; exact ⟨fun h => h.2, fun h => ⟨Finset.mem_univ _, h⟩⟩

/-- Slab `w` is the rows `25600 w … 25600 w + 25599`. -/
theorem mem_oslab (w : Fin 32) (j : S819200x128.Idx) :
    j ∈ oslabSet w ↔ 25600 * w.val ≤ (j 0).val ∧ (j 0).val < 25600 * w.val + 25600 := by
  have h1 : (j 1).val < 128 := (j 1).isLt
  rw [oslabSet_eq]
  constructor
  · intro h
    have := (Rect.mem_set_unit.mp h) 0
    simp [Shape.partIx, Shape.partSize] at this
    omega
  · intro h
    refine Rect.mem_set_unit.mpr fun a => ?_
    match a with
    | 0 => simp [Shape.partIx, Shape.partSize]; omega
    | 1 => simp [Shape.partIx, Shape.partSize]; omega

theorem oblk_sub_oslab (w : Fin 32) (t : Fin 200) : (oblkR w t).set ⊆ oslabSet w := by
  intro j hj
  have ht := t.isLt
  rw [mem_oblk] at hj
  rw [mem_oslab]
  omega

theorem odone_zero (w : Fin 32) : odoneSet w 0 = ∅ := by
  ext j
  rw [mem_odone]
  simp only [Finset.notMem_empty, iff_false]
  omega

theorem odone_all (w : Fin 32) : odoneSet w 200 = oslabSet w := by
  ext j
  rw [mem_odone, mem_oslab]

theorem odone_succ (w : Fin 32) (n : Fin 200) : odoneSet w (n.val + 1) = odoneSet w n.val ∪ (oblkR w n).set := by
  ext j
  rw [Finset.mem_union, mem_odone, mem_odone, mem_oblk]
  omega

theorem odone_disjoint (w : Fin 32) (n : Fin 200) : Disjoint (odoneSet w n.val) (oblkR w n).set := by
  rw [Finset.disjoint_left]
  intro j h h'
  rw [mem_odone] at h
  rw [mem_oblk] at h'
  omega

theorem oblk_sub_rest (w : Fin 32) (n : Fin 200) : (oblkR w n).set ⊆ oslabSet w \ odoneSet w n.val := by
  intro j hj
  rw [Finset.mem_sdiff]
  refine ⟨oblk_sub_oslab w n hj, fun h => ?_⟩
  rw [mem_odone] at h
  rw [mem_oblk] at hj
  omega

theorem odone_sub_oslab (w : Fin 32) (n : Nat) (hn : n ≤ 200) : odoneSet w n ⊆ oslabSet w := by
  intro j hj
  rw [mem_odone] at hj
  rw [mem_oslab]
  omega

/-- What is left after `n` blocks is block `n` and what is left after `n + 1`. -/
theorem orest_succ (w : Fin 32) (n : Fin 200) :
    oslabSet w \ odoneSet w n.val = (oblkR w n).set ∪ (oslabSet w \ odoneSet w (n.val + 1))
      ∧ Disjoint (oblkR w n).set (oslabSet w \ odoneSet w (n.val + 1)) := by
  constructor
  · ext j
    rw [Finset.mem_union, Finset.mem_sdiff, Finset.mem_sdiff, mem_oslab, mem_odone, mem_odone, mem_oblk]
    have hn := n.isLt
    omega
  · rw [Finset.disjoint_left]
    intro j h h'
    rw [Finset.mem_sdiff, mem_odone] at h'
    rw [mem_oblk] at h
    omega

/-! ### The program's spelling of a block -/

section
variable (L : grid1.Coords)

theorem c_wid_L : (wid (cL L) (jL L)).val = 2 * (L 1).val + (L 0).val := rfl

theorem c_blk_lt (k : Fin k1_t1_loop.trips) (r : Fin 4) : 4 * k.val + r.val < 200 := by
  have := c_trips_lt k
  have := r.isLt
  omega
theorem c_last_lt (r : Fin 4) : 196 + r.val < 200 := by
  have := r.isLt
  omega

/-- The block the loop's trip `k`, slot `r`, copies out: block `4 k + r` of the subcore's slab. -/
theorem oblk_off13 (k : Fin k1_t1_loop.trips) (r : Fin 4) :
    Rect.unit (s := S819200x128) (k1_off13 L k (BitVec.ofNat 32 r.val)) S128x128.size (k1_off13_inb L k r)
      = oblkR (wid (cL L) (jL L)) ⟨4 * k.val + r.val, c_blk_lt k r⟩ := by
  unfold oblkR
  refine c_unit_congr ?_ _ _ _
  rw [k1_off13_eq L k r]
  funext a
  match a with
  | 0 => show 51200 * (L 1).val + 25600 * (L 0).val + 512 * k.val + 128 * r.val = 25600 * (2 * (L 1).val + (L 0).val) + 128 * (4 * k.val + r.val); omega
  | 1 => rfl

/-- The last four blocks, after the loop: blocks 196 … 199. -/
theorem oblk_off15 (r : Fin 4) :
    Rect.unit (s := S819200x128) (k1_off15 L (BitVec.ofNat 32 (25088 + 128 * r.val))) S128x128.size (k1_off15_inb L r)
      = oblkR (wid (cL L) (jL L)) ⟨196 + r.val, c_last_lt r⟩ := by
  unfold oblkR
  refine c_unit_congr ?_ _ _ _
  rw [k1_off15_eq L r]
  funext a
  match a with
  | 0 => show 51200 * (L 1).val + 25600 * (L 0).val + 128 * r.val + 25088 = 25600 * (2 * (L 1).val + (L 0).val) + 128 * (196 + r.val); omega
  | 1 => rfl

/-- The same in the program's own literals. -/
theorem oblk_off13_0 (k : Fin k1_t1_loop.trips) : Rect.unit (s := S819200x128) (k1_off13 L k 0#32) S128x128.size (k1_off13_inb L k 0)
    = oblkR (wid (cL L) (jL L)) ⟨4 * k.val + 0, c_blk_lt k 0⟩ := oblk_off13 L k 0
theorem oblk_off13_1 (k : Fin k1_t1_loop.trips) : Rect.unit (s := S819200x128) (k1_off13 L k 1#32) S128x128.size (k1_off13_inb L k 1)
    = oblkR (wid (cL L) (jL L)) ⟨4 * k.val + 1, c_blk_lt k 1⟩ := oblk_off13 L k 1
theorem oblk_off13_2 (k : Fin k1_t1_loop.trips) : Rect.unit (s := S819200x128) (k1_off13 L k 2#32) S128x128.size (k1_off13_inb L k 2)
    = oblkR (wid (cL L) (jL L)) ⟨4 * k.val + 2, c_blk_lt k 2⟩ := oblk_off13 L k 2
theorem oblk_off13_3 (k : Fin k1_t1_loop.trips) : Rect.unit (s := S819200x128) (k1_off13 L k 3#32) S128x128.size (k1_off13_inb L k 3)
    = oblkR (wid (cL L) (jL L)) ⟨4 * k.val + 3, c_blk_lt k 3⟩ := oblk_off13 L k 3
theorem oblk_off15_0 : Rect.unit (s := S819200x128) (k1_off15 L 25088#32) S128x128.size (k1_off15_inb L 0)
    = oblkR (wid (cL L) (jL L)) ⟨196 + 0, c_last_lt 0⟩ := oblk_off15 L 0
theorem oblk_off15_1 : Rect.unit (s := S819200x128) (k1_off15 L 25216#32) S128x128.size (k1_off15_inb L 1)
    = oblkR (wid (cL L) (jL L)) ⟨196 + 1, c_last_lt 1⟩ := oblk_off15 L 1
theorem oblk_off15_2 : Rect.unit (s := S819200x128) (k1_off15 L 25344#32) S128x128.size (k1_off15_inb L 2)
    = oblkR (wid (cL L) (jL L)) ⟨196 + 2, c_last_lt 2⟩ := oblk_off15 L 2
theorem oblk_off15_3 : Rect.unit (s := S819200x128) (k1_off15 L 25472#32) S128x128.size (k1_off15_inb L 3)
    = oblkR (wid (cL L) (jL L)) ⟨196 + 3, c_last_lt 3⟩ := oblk_off15 L 3

end

/-! ### Points-to forms -/

section
variable (d : Dev nD)

/-- What is left of the slab after `n` blocks, at any contents: block `n` and what is left after it. -/
theorem pts_orest_succ (w : Fin 32) (n : Fin 200) (q : PosShare TreeShare) (f : Buf (Elt F) (v5Loc d)) :
    (v5Loc d ↦[oslabSet w \ odoneSet w n.val]{q} f : sProp 𝕄)
      ⊣⊢ iprop((v5Loc d ↦[(oblkR w n).set]{q} f) ∗ (v5Loc d ↦[oslabSet w \ odoneSet w (n.val + 1)]{q} f)) := by
  rw [(orest_succ w n).1]
  exact pointsTo_union (orest_succ w n).2

/-- What is done after `n + 1` blocks: what was done after `n`, and block `n`. -/
theorem pts_odone_succ (w : Fin 32) (n : Fin 200) (q : PosShare TreeShare) (f : Buf (Elt F) (v5Loc d)) :
    (v5Loc d ↦[odoneSet w (n.val + 1)]{q} f : sProp 𝕄)
      ⊣⊢ iprop((v5Loc d ↦[odoneSet w n.val]{q} f) ∗ (v5Loc d ↦[(oblkR w n).set]{q} f)) := by
  rw [odone_succ w n]
  exact pointsTo_union (odone_disjoint w n)

end

/-! ## The index scratch -/

theorem c_ixrow_inb (t : Fin 200) : ∀ a, (![t.val, 0] : Fin 2 → Nat) a + S1x128.size a ≤ S200x128.size a := by
  intro a
  have ht := t.isLt
  match a with
  | 0 => show t.val + 1 ≤ 200; omega
  | 1 => show 0 + 128 ≤ 128; omega

/-- Row `t` of the index scratch. -/
def ixRowR (t : Fin 200) : Rect S200x128 := Rect.unit (s := S200x128) ![t.val, 0] S1x128.size (c_ixrow_inb t)

theorem mem_ixRow (t : Fin 200) (j : S200x128.Idx) : j ∈ (ixRowR t).set ↔ (j 0).val = t.val := by
  have h1 : (j 1).val < 128 := (j 1).isLt
  unfold ixRowR
  rw [mem_unit2]
  show ((t.val ≤ (j 0).val ∧ (j 0).val < t.val + 1) ∧ (0 ≤ (j 1).val ∧ (j 1).val < 0 + 128)) ↔ _
  omega

theorem mem_ixHd (j : S200x128.Idx) : j ∈ ixHdR.set ↔ (j 0).val < 8 := by
  have h1 : (j 1).val < 128 := (j 1).isLt
  rw [mem_unit2]
  show ((0 ≤ (j 0).val ∧ (j 0).val < 0 + 8) ∧ (0 ≤ (j 1).val ∧ (j 1).val < 0 + 128)) ↔ _
  omega

theorem mem_ixTl (j : S200x128.Idx) : j ∈ ixTlR.set ↔ 8 ≤ (j 0).val := by
  have h0 : (j 0).val < 200 := (j 0).isLt
  have h1 : (j 1).val < 128 := (j 1).isLt
  rw [mem_unit2]
  show ((8 ≤ (j 0).val ∧ (j 0).val < 8 + 192) ∧ (0 ≤ (j 1).val ∧ (j 1).val < 0 + 128)) ↔ _
  omega

theorem ixRows_disjoint : ∀ t ∈ (Finset.univ : Finset (Fin 200)), ∀ t' ∈ (Finset.univ : Finset (Fin 200)), t ≠ t' → Disjoint (ixRowR t).set (ixRowR t').set := by
  intro t _ t' _ h
  rw [Finset.disjoint_left]
  intro j hj hj'
  rw [mem_ixRow] at hj hj'
  exact h (Fin.ext (hj.symm.trans hj'))

/-- The rows that arrive first are rows 0 … 7; -/
theorem ixHd_rows : ixHdR.set = (Finset.univ.filter fun t : Fin 200 => t.val < 8).biUnion fun t => (ixRowR t).set := by
  ext j
  rw [mem_ixHd, Finset.mem_biUnion]
  constructor
  · intro h
    exact ⟨⟨(j 0).val, (j 0).isLt⟩, Finset.mem_filter.mpr ⟨Finset.mem_univ _, h⟩, (mem_ixRow _ j).mpr rfl⟩
  · rintro ⟨t, ht, hj⟩
    rw [mem_ixRow] at hj
    have := (Finset.mem_filter.mp ht).2
    omega

/-- the rest are rows 8 … 199. -/
theorem ixTl_rows : ixTlR.set = (Finset.univ.filter fun t : Fin 200 => 8 ≤ t.val).biUnion fun t => (ixRowR t).set := by
  ext j
  rw [mem_ixTl, Finset.mem_biUnion]
  constructor
  · intro h
    exact ⟨⟨(j 0).val, (j 0).isLt⟩, Finset.mem_filter.mpr ⟨Finset.mem_univ _, h⟩, (mem_ixRow _ j).mpr rfl⟩
  · rintro ⟨t, ht, hj⟩
    rw [mem_ixRow] at hj
    have := (Finset.mem_filter.mp ht).2
    omega

/-! ### The program's spelling of a row and of a chunk -/

theorem c_row4_lt (k : Fin k1_t1_loop.trips) (r : Fin 4) : 4 * k.val + r.val + 4 < 200 := by
  have := c_trips_lt k
  have := r.isLt
  omega

/-- The row the loop's trip `k`, slot `r`, gathers by next: row `4 k + r + 4`. -/
theorem ixRow_off14 (k : Fin k1_t1_loop.trips) (r : Fin 4) :
    Rect.unit (s := S200x128) (k1_off14 k (BitVec.ofNat 32 r.val)) S1x128.size (k1_off14_inb k r) = ixRowR ⟨4 * k.val + r.val + 4, c_row4_lt k r⟩ := by
  unfold ixRowR
  refine c_unit_congr ?_ _ _ _
  rw [k1_off14_eq k r]

/-- The row it has just gathered by: row `4 k + r`. -/
theorem ixRow_off12 (k : Fin k1_t1_loop.trips) (r : Fin 4) :
    Rect.unit (s := S200x128) (k1_off12 k (BitVec.ofNat 32 r.val)) S1x128.size (k1_off12_inb k r) = ixRowR ⟨4 * k.val + r.val, c_blk_lt k r⟩ := by
  unfold ixRowR
  refine c_unit_congr ?_ _ _ _
  rw [k1_off12_eq k r]

/-- Chunk `c` of row `t`: columns `16 c … 16 c + 15`. -/
theorem mem_chunk (t c : Nat) (inb) (j : S200x128.Idx) :
    j ∈ (Rect.unit (s := S200x128) ![t, 16 * c] S1x16.size inb).set ↔ (j 0).val = t ∧ 16 * c ≤ (j 1).val ∧ (j 1).val < 16 * c + 16 := by
  rw [mem_unit2]
  show ((t ≤ (j 0).val ∧ (j 0).val < t + 1) ∧ (16 * c ≤ (j 1).val ∧ (j 1).val < 16 * c + 16)) ↔ _
  omega

/-- Chunk 0 of the row the loop's trip `k`, slot `r`, rewrites: row `4 k + r + 4`, columns 0…15. -/
theorem mem_chunk_off4 (k : Fin k1_t1_loop.trips) (r : Fin 4) (j : S200x128.Idx) :
    j ∈ (Rect.unit (s := S200x128) (k1_off4 k (BitVec.ofNat 32 r.val)) S1x16.size (k1_off4_inb k r)).set
      ↔ (j 0).val = 4 * k.val + r.val + 4 ∧ 0 ≤ (j 1).val ∧ (j 1).val < 0 + 16 := by
  rw [mem_unit2, k1_off4_eq k r]
  show ((4 * k.val + r.val + 4 ≤ (j 0).val ∧ (j 0).val < 4 * k.val + r.val + 4 + 1) ∧ (0 ≤ (j 1).val ∧ (j 1).val < 0 + 16)) ↔ _
  omega
theorem chunk_off4_sub_row (k : Fin k1_t1_loop.trips) (r : Fin 4) :
    (Rect.unit (s := S200x128) (k1_off4 k (BitVec.ofNat 32 r.val)) S1x16.size (k1_off4_inb k r)).set ⊆ (ixRowR ⟨4 * k.val + r.val + 4, c_row4_lt k r⟩).set :=
  fun j hj => (mem_ixRow _ j).mpr ((mem_chunk_off4 k r j).mp hj).1
/-- Chunk 1 of the row the loop's trip `k`, slot `r`, rewrites: row `4 k + r + 4`, columns 16…31. -/
theorem mem_chunk_off5 (k : Fin k1_t1_loop.trips) (r : Fin 4) (j : S200x128.Idx) :
    j ∈ (Rect.unit (s := S200x128) (k1_off5 k (BitVec.ofNat 32 r.val)) S1x16.size (k1_off5_inb k r)).set
      ↔ (j 0).val = 4 * k.val + r.val + 4 ∧ 16 ≤ (j 1).val ∧ (j 1).val < 16 + 16 := by
  rw [mem_unit2, k1_off5_eq k r]
  show ((4 * k.val + r.val + 4 ≤ (j 0).val ∧ (j 0).val < 4 * k.val + r.val + 4 + 1) ∧ (16 ≤ (j 1).val ∧ (j 1).val < 16 + 16)) ↔ _
  omega
theorem chunk_off5_sub_row (k : Fin k1_t1_loop.trips) (r : Fin 4) :
    (Rect.unit (s := S200x128) (k1_off5 k (BitVec.ofNat 32 r.val)) S1x16.size (k1_off5_inb k r)).set ⊆ (ixRowR ⟨4 * k.val + r.val + 4, c_row4_lt k r⟩).set :=
  fun j hj => (mem_ixRow _ j).mpr ((mem_chunk_off5 k r j).mp hj).1
/-- Chunk 2 of the row the loop's trip `k`, slot `r`, rewrites: row `4 k + r + 4`, columns 32…47. -/
theorem mem_chunk_off6 (k : Fin k1_t1_loop.trips) (r : Fin 4) (j : S200x128.Idx) :
    j ∈ (Rect.unit (s := S200x128) (k1_off6 k (BitVec.ofNat 32 r.val)) S1x16.size (k1_off6_inb k r)).set
      ↔ (j 0).val = 4 * k.val + r.val + 4 ∧ 32 ≤ (j 1).val ∧ (j 1).val < 32 + 16 := by
  rw [mem_unit2, k1_off6_eq k r]
  show ((4 * k.val + r.val + 4 ≤ (j 0).val ∧ (j 0).val < 4 * k.val + r.val + 4 + 1) ∧ (32 ≤ (j 1).val ∧ (j 1).val < 32 + 16)) ↔ _
  omega
theorem chunk_off6_sub_row (k : Fin k1_t1_loop.trips) (r : Fin 4) :
    (Rect.unit (s := S200x128) (k1_off6 k (BitVec.ofNat 32 r.val)) S1x16.size (k1_off6_inb k r)).set ⊆ (ixRowR ⟨4 * k.val + r.val + 4, c_row4_lt k r⟩).set :=
  fun j hj => (mem_ixRow _ j).mpr ((mem_chunk_off6 k r j).mp hj).1
/-- Chunk 3 of the row the loop's trip `k`, slot `r`, rewrites: row `4 k + r + 4`, columns 48…63. -/
theorem mem_chunk_off7 (k : Fin k1_t1_loop.trips) (r : Fin 4) (j : S200x128.Idx) :
    j ∈ (Rect.unit (s := S200x128) (k1_off7 k (BitVec.ofNat 32 r.val)) S1x16.size (k1_off7_inb k r)).set
      ↔ (j 0).val = 4 * k.val + r.val + 4 ∧ 48 ≤ (j 1).val ∧ (j 1).val < 48 + 16 := by
  rw [mem_unit2, k1_off7_eq k r]
  show ((4 * k.val + r.val + 4 ≤ (j 0).val ∧ (j 0).val < 4 * k.val + r.val + 4 + 1) ∧ (48 ≤ (j 1).val ∧ (j 1).val < 48 + 16)) ↔ _
  omega
theorem chunk_off7_sub_row (k : Fin k1_t1_loop.trips) (r : Fin 4) :
    (Rect.unit (s := S200x128) (k1_off7 k (BitVec.ofNat 32 r.val)) S1x16.size (k1_off7_inb k r)).set ⊆ (ixRowR ⟨4 * k.val + r.val + 4, c_row4_lt k r⟩).set :=
  fun j hj => (mem_ixRow _ j).mpr ((mem_chunk_off7 k r j).mp hj).1
/-- Chunk 4 of the row the loop's trip `k`, slot `r`, rewrites: row `4 k + r + 4`, columns 64…79. -/
theorem mem_chunk_off8 (k : Fin k1_t1_loop.trips) (r : Fin 4) (j : S200x128.Idx) :
    j ∈ (Rect.unit (s := S200x128) (k1_off8 k (BitVec.ofNat 32 r.val)) S1x16.size (k1_off8_inb k r)).set
      ↔ (j 0).val = 4 * k.val + r.val + 4 ∧ 64 ≤ (j 1).val ∧ (j 1).val < 64 + 16 := by
  rw [mem_unit2, k1_off8_eq k r]
  show ((4 * k.val + r.val + 4 ≤ (j 0).val ∧ (j 0).val < 4 * k.val + r.val + 4 + 1) ∧ (64 ≤ (j 1).val ∧ (j 1).val < 64 + 16)) ↔ _
  omega
theorem chunk_off8_sub_row (k : Fin k1_t1_loop.trips) (r : Fin 4) :
    (Rect.unit (s := S200x128) (k1_off8 k (BitVec.ofNat 32 r.val)) S1x16.size (k1_off8_inb k r)).set ⊆ (ixRowR ⟨4 * k.val + r.val + 4, c_row4_lt k r⟩).set :=
  fun j hj => (mem_ixRow _ j).mpr ((mem_chunk_off8 k r j).mp hj).1
/-- Chunk 5 of the row the loop's trip `k`, slot `r`, rewrites: row `4 k + r + 4`, columns 80…95. -/
theorem mem_chunk_off9 (k : Fin k1_t1_loop.trips) (r : Fin 4) (j : S200x128.Idx) :
    j ∈ (Rect.unit (s := S200x128) (k1_off9 k (BitVec.ofNat 32 r.val)) S1x16.size (k1_off9_inb k r)).set
      ↔ (j 0).val = 4 * k.val + r.val + 4 ∧ 80 ≤ (j 1).val ∧ (j 1).val < 80 + 16 := by
  rw [mem_unit2, k1_off9_eq k r]
  show ((4 * k.val + r.val + 4 ≤ (j 0).val ∧ (j 0).val < 4 * k.val + r.val + 4 + 1) ∧ (80 ≤ (j 1).val ∧ (j 1).val < 80 + 16)) ↔ _
  omega
theorem chunk_off9_sub_row (k : Fin k1_t1_loop.trips) (r : Fin 4) :
    (Rect.unit (s := S200x128) (k1_off9 k (BitVec.ofNat 32 r.val)) S1x16.size (k1_off9_inb k r)).set ⊆ (ixRowR ⟨4 * k.val + r.val + 4, c_row4_lt k r⟩).set :=
  fun j hj => (mem_ixRow _ j).mpr ((mem_chunk_off9 k r j).mp hj).1
/-- Chunk 6 of the row the loop's trip `k`, slot `r`, rewrites: row `4 k + r + 4`, columns 96…111. -/
theorem mem_chunk_off10 (k : Fin k1_t1_loop.trips) (r : Fin 4) (j : S200x128.Idx) :
    j ∈ (Rect.unit (s := S200x128) (k1_off10 k (BitVec.ofNat 32 r.val)) S1x16.size (k1_off10_inb k r)).set
      ↔ (j 0).val = 4 * k.val + r.val + 4 ∧ 96 ≤ (j 1).val ∧ (j 1).val < 96 + 16 := by
  rw [mem_unit2, k1_off10_eq k r]
  show ((4 * k.val + r.val + 4 ≤ (j 0).val ∧ (j 0).val < 4 * k.val + r.val + 4 + 1) ∧ (96 ≤ (j 1).val ∧ (j 1).val < 96 + 16)) ↔ _
  omega
theorem chunk_off10_sub_row (k : Fin k1_t1_loop.trips) (r : Fin 4) :
    (Rect.unit (s := S200x128) (k1_off10 k (BitVec.ofNat 32 r.val)) S1x16.size (k1_off10_inb k r)).set ⊆ (ixRowR ⟨4 * k.val + r.val + 4, c_row4_lt k r⟩).set :=
  fun j hj => (mem_ixRow _ j).mpr ((mem_chunk_off10 k r j).mp hj).1
/-- Chunk 7 of the row the loop's trip `k`, slot `r`, rewrites: row `4 k + r + 4`, columns 112…127. -/
theorem mem_chunk_off11 (k : Fin k1_t1_loop.trips) (r : Fin 4) (j : S200x128.Idx) :
    j ∈ (Rect.unit (s := S200x128) (k1_off11 k (BitVec.ofNat 32 r.val)) S1x16.size (k1_off11_inb k r)).set
      ↔ (j 0).val = 4 * k.val + r.val + 4 ∧ 112 ≤ (j 1).val ∧ (j 1).val < 112 + 16 := by
  rw [mem_unit2, k1_off11_eq k r]
  show ((4 * k.val + r.val + 4 ≤ (j 0).val ∧ (j 0).val < 4 * k.val + r.val + 4 + 1) ∧ (112 ≤ (j 1).val ∧ (j 1).val < 112 + 16)) ↔ _
  omega
theorem chunk_off11_sub_row (k : Fin k1_t1_loop.trips) (r : Fin 4) :
    (Rect.unit (s := S200x128) (k1_off11 k (BitVec.ofNat 32 r.val)) S1x16.size (k1_off11_inb k r)).set ⊆ (ixRowR ⟨4 * k.val + r.val + 4, c_row4_lt k r⟩).set :=
  fun j hj => (mem_ixRow _ j).mpr ((mem_chunk_off11 k r j).mp hj).1

/-! ### Points-to forms -/

section
variable (d : Dev nD) (c : Fin τ.nSC) (i : Fin τ.nSub)

/-- The rows that arrive later, row by row. -/
theorem pts_ixTl_rows (q : PosShare TreeShare) (f : Buf (Elt F) ((V d c i).loc cc1_scratch0)) :
    ((V d c i).loc cc1_scratch0 ↦[ixTlR.set]{q} f : sProp 𝕄)
      = bigSep (Finset.univ.filter fun t : Fin 200 => 8 ≤ t.val) fun t => (V d c i).loc cc1_scratch0 ↦[(ixRowR t).set]{q} f := by
  rw [ixTl_rows]
  exact pointsTo_biUnion _ (ℓ := (V d c i).loc cc1_scratch0) (fun t : Fin 200 => (ixRowR t).set)
    (fun t _ t' _ h => ixRows_disjoint t (Finset.mem_univ _) t' (Finset.mem_univ _) h)

/-- The rows that arrive first, row by row. -/
theorem pts_ixHd_rows (q : PosShare TreeShare) (f : Buf (Elt F) ((V d c i).loc cc1_scratch0)) :
    ((V d c i).loc cc1_scratch0 ↦[ixHdR.set]{q} f : sProp 𝕄)
      = bigSep (Finset.univ.filter fun t : Fin 200 => t.val < 8) fun t => (V d c i).loc cc1_scratch0 ↦[(ixRowR t).set]{q} f := by
  rw [ixHd_rows]
  exact pointsTo_biUnion _ (ℓ := (V d c i).loc cc1_scratch0) (fun t : Fin 200 => (ixRowR t).set)
    (fun t _ t' _ h => ixRows_disjoint t (Finset.mem_univ _) t' (Finset.mem_univ _) h)

end

end Cert.KernelIdeal.Hand

end
-- ==== Proof.TileLemmas2.lean ====
/-
  More lemmas for one vector subcore's task: chunks inside rows, the shared table's share in four. Subcore `s` of SparseCore `c` works on slab `w = 2s + c`: it copies block `s` (rows
  16s … 16s+15) of the 256-row table into its SparseCore's shared memory, fetches the first 8 of its 200 rows of indices
  and starts the fetch of the other 192, meets the other fifteen subcores at the barrier — handing each a sixteenth of its
  block and receiving a sixteenth of every block, so that from then on it reads the whole shared table —, and then, row
  of 128 indices by row, adds the lane offsets, gathers the 128 named table rows into one of four row buffers and copies
  the buffer out to rows 25600 w + 128 t … of the result.
-/
import proofs.«214982_g87402584473731_cont_9to1c4b_667_31_alg».proof.Proof.TileLemmas
import proofs.«214982_g87402584473731_cont_9to1c4b_667_31_alg».proof.Proof.Blocks

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Tile

variable (d : Dev nD) (L : grid1.Coords)

/-- A 16-lane chunk of row `t` lies in the row, as the row's offset-list memref holds it. -/
theorem chunk_sub_row (t col : Nat) (inbc) (inbr) (hcol : col + 16 ≤ 128) :
    ((ixV).access (Rect.unit (s := S200x128) ![t, col] S1x16.size inbc)).set
      ⊆ (((ixV).slice (Rect.unit (s := S200x128) ![t, 0] S1x128.size inbr) (fun _ => rfl)).squeeze S128 squeezes_S1x128_S128).view.set := by
  rw [set_ixRow]
  show ((ixV).view.slice (Rect.unit (s := S200x128) ![t, col] S1x16.size inbc)).set ⊆ _
  rw [View.set_slice_whole]
  intro i hi
  rw [mem_unit2] at hi ⊢
  simp at hi ⊢
  omega

/-- Rows 0 … 3 carved out of the first eight, each as its offset-list memref holds it; rows 4 … 7 remain. -/
theorem carve_rows4 (g : Buf (Elt F) ((V d (cV L) (jV L)).loc cc1_scratch0)) :
    ((ixHd).view.loc (V d (cV L) (jV L)) ↦[(ixHd).view.set]{fullShare} g : sProp 𝕄)
      ⊣⊢ iprop(((ixRow0).view.loc (V d (cV L) (jV L)) ↦[(ixRow0).view.set]{fullShare} g) ∗ ((ixRow1).view.loc (V d (cV L) (jV L)) ↦[(ixRow1).view.set]{fullShare} g)
          ∗ ((ixRow2).view.loc (V d (cV L) (jV L)) ↦[(ixRow2).view.set]{fullShare} g) ∗ ((ixRow3).view.loc (V d (cV L) (jV L)) ↦[(ixRow3).view.set]{fullShare} g)
          ∗ ((ixHd).view.loc (V d (cV L) (jV L)) ↦[((((ixHd).view.set \ ixRow0R.set) \ ixRow1R.set) \ ixRow2R.set) \ ixRow3R.set]{fullShare} g)) := by
  have s0 : ixRow0R.set ⊆ (ixHd).view.set := ixRow_sub_hd 0 (by decide) _
  have s1 : ixRow1R.set ⊆ (ixHd).view.set \ ixRow0R.set := by
    intro i hi; rw [Finset.mem_sdiff]; refine ⟨ixRow_sub_hd 1 (by decide) _ hi, fun h0 => ?_⟩
    rw [mem_unit2] at hi h0; simp at hi h0; omega
  have s2 : ixRow2R.set ⊆ ((ixHd).view.set \ ixRow0R.set) \ ixRow1R.set := by
    intro i hi; rw [Finset.mem_sdiff, Finset.mem_sdiff]
    refine ⟨⟨ixRow_sub_hd 2 (by decide) _ hi, fun h0 => ?_⟩, fun h1 => ?_⟩
    · rw [mem_unit2] at hi h0; simp at hi h0; omega
    · rw [mem_unit2] at hi h1; simp at hi h1; omega
  have s3 : ixRow3R.set ⊆ (((ixHd).view.set \ ixRow0R.set) \ ixRow1R.set) \ ixRow2R.set := by
    intro i hi; rw [Finset.mem_sdiff, Finset.mem_sdiff, Finset.mem_sdiff]
    refine ⟨⟨⟨ixRow_sub_hd 3 (by decide) _ hi, fun h0 => ?_⟩, fun h1 => ?_⟩, fun h2 => ?_⟩
    · rw [mem_unit2] at hi h0; simp at hi h0; omega
    · rw [mem_unit2] at hi h1; simp at hi h1; omega
    · rw [mem_unit2] at hi h2; simp at hi h2; omega
  constructor
  · iintro H
    ihave H := (carve_row (F := F) d L 0 (by decide) inb_S200x128_S1x128_0_0 _ s0 g).1 $$ H
    icases H with ⟨H0, H⟩
    ihave H := (carve_row (F := F) d L 1 (by decide) inb_S200x128_S1x128_1_0 _ s1 g).1 $$ H
    icases H with ⟨H1, H⟩
    ihave H := (carve_row (F := F) d L 2 (by decide) inb_S200x128_S1x128_2_0 _ s2 g).1 $$ H
    icases H with ⟨H2, H⟩
    ihave H := (carve_row (F := F) d L 3 (by decide) inb_S200x128_S1x128_3_0 _ s3 g).1 $$ H
    icases H with ⟨H3, H⟩
    isplitl [H0]; · iexact H0
    isplitl [H1]; · iexact H1
    isplitl [H2]; · iexact H2
    isplitl [H3]; · iexact H3
    iexact H
  · iintro ⟨H0, H1, H2, H3, H⟩
    iapply (carve_row (F := F) d L 0 (by decide) inb_S200x128_S1x128_0_0 _ s0 g).2
    isplitl [H0]; · iexact H0
    iapply (carve_row (F := F) d L 1 (by decide) inb_S200x128_S1x128_1_0 _ s1 g).2
    isplitl [H1]; · iexact H1
    iapply (carve_row (F := F) d L 2 (by decide) inb_S200x128_S1x128_2_0 _ s2 g).2
    isplitl [H2]; · iexact H2
    iapply (carve_row (F := F) d L 3 (by decide) inb_S200x128_S1x128_3_0 _ s3 g).2
    isplitl [H3]; · iexact H3
    iexact H

/-- The shared table's sixteenth in four, one share per gather that may be outstanding. -/
abbrev gshare (L : grid1.Coords) (b : Fin 4) : PosShare TreeShare := leaf 2 (sixS (jL L)) b
theorem sh_four (f : Buf (Elt F) (shLoc d (cV L))) :
    ((shV).view.loc (V d (cV L) (jV L)) ↦[(shV).view.set]{sixS (jL L)} f : sProp 𝕄)
      = iprop(((shV).view.loc (V d (cV L) (jV L)) ↦[(shV).view.set]{gshare L 0} f) ∗ ((shV).view.loc (V d (cV L) (jV L)) ↦[(shV).view.set]{gshare L 1} f)
          ∗ ((shV).view.loc (V d (cV L) (jV L)) ↦[(shV).view.set]{gshare L 2} f) ∗ ((shV).view.loc (V d (cV L) (jV L)) ↦[(shV).view.set]{gshare L 3} f)) := by
  rw [leaves (ℓ := (shV).view.loc (V d (cV L) (jV L))) (shV).view.set f 2 (sixS (jL L))]
  exact bigSep_univ_eq_bigSepL [(0 : Fin 4), (1 : Fin 4), (2 : Fin 4), (3 : Fin 4)] (by decide) (by decide) _

end Tile

end Cert.KernelIdeal.Hand

end
-- ==== Proof.Chunks.lean ====
/-
  What each store of sixteen index words writes.

  Every row of 128 index words is rewritten in eight chunks of sixteen lanes. Chunk `c` is loaded, and stored back
  with `4 · lane + 64 · (c mod 4)` added to the word in each lane: the lane numbers 0…15 times four, plus a constant
  that depends on the chunk. All sixty-four stored values are this one function of the loaded chunk, whichever way
  the program's text is cut. Over a whole row, lane `l` of chunk `c` is column `16 c + l`, and the amount added at
  column `j` is `4 ρ(j)`, `ρ(j) = j mod 16 + 16 · ((j div 16) mod 4) < 64`: an index word below 4 becomes a row number
  below 256 of the table written 64 times over, naming a copy of the same row.
-/
import proofs.«214982_g87402584473731_cont_9to1c4b_667_31_alg».proof.Proof.Common
import Idealize.ShloMosaic.Lib.Pipeline.Value

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- What chunk `c` adds, lane by lane. -/
def laneOff (c : Nat) : IVec S1x16 32 := fun y => BitVec.ofNat 32 (4 * (y 1).val + 64 * (c % 4))

variable [FloatOps F]

/-- The lane numbers 0…15. -/
abbrev c_iota : IVec S16 32 := iota .scVector S16 32 [0] iota_S16_d0_w32_scVector

/-- The stored value in general: the loaded chunk as sixteen words, plus four times the lane numbers plus a constant,
    as a 1 × 16 row again. -/
def c_fix (K : BitVec 32) (v11 : IVec S16 32) (vload : Vec F S1x16 .i32) : IVec S1x16 32 :=
  shapeCast S1x16 (addi (shapeCast S16 vload shapeCasts_S1x16_S16) (addi (muli v11 (broadcast S16 4#32)) (broadcast S16 K))) shapeCasts_S16_S1x16

omit [FloatOps F] in
theorem c_lane_arith (x : BitVec 32) (j c : ℕ) (hj : j < 16) :
    x + (BitVec.ofNat 32 (0 * 16 + j) * 4#32 + BitVec.ofNat 32 (64 * (c % 4))) = x + BitVec.ofNat 32 (4 * j + 64 * (c % 4)) := by
  congr 1
  apply BitVec.eq_of_toNat_eq
  simp only [BitVec.toNat_add, BitVec.toNat_mul, BitVec.toNat_ofNat, Nat.reducePow, Nat.reduceMod]
  omega

omit [FloatOps F] in
/-- Sixteen words as a 1 × 16 row, at lane `j`. -/
theorem c_unrow_apply (w : IVec S16 32) (j : Fin 16) : shapeCast S1x16 w shapeCasts_S16_S1x16 (ix2 (0 : Fin 1) j) = w (ix1 j) := by
  refine shapeCast_apply w shapeCasts_S16_S1x16 (ix2 (0 : Fin 1) j) (ix1 j) ?_
  rw [Shape.rowMajor_val_one, Shape.rowMajor_val_two]
  show j.val = 0 * 16 + j.val
  omega

omit [FloatOps F] in
/-- A 1 × 16 row as sixteen words, at lane `j`. -/
theorem c_row_apply (vload : Vec F S1x16 .i32) (j : Fin 16) : shapeCast S16 vload shapeCasts_S1x16_S16 (ix1 j) = vload (ix2 (0 : Fin 1) j) := by
  refine shapeCast_apply vload shapeCasts_S1x16_S16 (ix1 j) (ix2 (0 : Fin 1) j) ?_
  rw [Shape.rowMajor_val_one, Shape.rowMajor_val_two]
  show 0 * 16 + j.val = j.val
  omega

theorem c_fix_eq (c : ℕ) (vload : Vec F S1x16 .i32) :
    c_fix (F := F) (BitVec.ofNat 32 (64 * (c % 4))) c_iota vload = fun y => (vload y : BitVec 32) + laneOff c y := by
  funext y
  obtain ⟨a, j, rfl⟩ : ∃ (a : Fin 1) (j : Fin 16), y = ix2 a j := ⟨y 0, y 1, eq_ix2 y⟩
  obtain rfl : a = 0 := Subsingleton.elim _ _
  unfold c_fix
  rw [c_unrow_apply]
  show IntOp.addi (shapeCast S16 vload shapeCasts_S1x16_S16 (ix1 j))
      (IntOp.addi (IntOp.muli (BitVec.ofNat 32 (0 * 16 + j.val)) 4#32) (BitVec.ofNat 32 (64 * (c % 4)))) = _
  rw [c_row_apply]
  exact c_lane_arith _ _ c j.isLt

/-! ## The sixty-four stores -/

/-- Chunk 0 (columns 0…15), the loop body's row 0 of four. -/
theorem c_store_k1_pay1 (vload : Vec F S1x16 .i32) :
    k1_pay1 (F := F) c_iota vload = fun y => (vload y : BitVec 32) + laneOff 0 y := c_fix_eq 0 vload
/-- Chunk 1 (columns 16…31), the loop body's row 0 of four. -/
theorem c_store_k1_pay2 (vload : Vec F S1x16 .i32) :
    k1_pay2 (F := F) c_iota vload = fun y => (vload y : BitVec 32) + laneOff 1 y := c_fix_eq 1 vload
/-- Chunk 2 (columns 32…47), the loop body's row 0 of four. -/
theorem c_store_k1_pay3 (vload : Vec F S1x16 .i32) :
    k1_pay3 (F := F) c_iota vload = fun y => (vload y : BitVec 32) + laneOff 2 y := c_fix_eq 2 vload
/-- Chunk 3 (columns 48…63), the loop body's row 0 of four. -/
theorem c_store_k1_pay4 (vload : Vec F S1x16 .i32) :
    k1_pay4 (F := F) c_iota vload = fun y => (vload y : BitVec 32) + laneOff 3 y := c_fix_eq 3 vload
/-- Chunk 4 (columns 64…79), the loop body's row 0 of four. -/
theorem c_store_k1_pay5 (vload : Vec F S1x16 .i32) :
    k1_pay5 (F := F) c_iota vload = fun y => (vload y : BitVec 32) + laneOff 4 y := c_fix_eq 4 vload
/-- Chunk 5 (columns 80…95), the loop body's row 0 of four. -/
theorem c_store_k1_pay6 (vload : Vec F S1x16 .i32) :
    k1_pay6 (F := F) c_iota vload = fun y => (vload y : BitVec 32) + laneOff 5 y := c_fix_eq 5 vload
/-- Chunk 6 (columns 96…111), the loop body's row 0 of four. -/
theorem c_store_k1_pay8 (vload : Vec F S1x16 .i32) :
    k1_pay8 (k1_pay7 (F := F) c_iota vload) = fun y => (vload y : BitVec 32) + laneOff 6 y := c_fix_eq 6 vload
/-- Chunk 7 (columns 112…127), the loop body's row 0 of four. -/
theorem c_store_k1_pay9 (vload : Vec F S1x16 .i32) :
    k1_pay9 (F := F) c_iota vload = fun y => (vload y : BitVec 32) + laneOff 7 y := c_fix_eq 7 vload
/-- Chunk 0 (columns 0…15), the loop body's row 1 of four. -/
theorem c_store_k1_pay10 (vload : Vec F S1x16 .i32) :
    k1_pay10 (F := F) c_iota vload = fun y => (vload y : BitVec 32) + laneOff 0 y := c_fix_eq 0 vload
/-- Chunk 1 (columns 16…31), the loop body's row 1 of four. -/
theorem c_store_k1_pay12 (vload : Vec F S1x16 .i32) :
    k1_pay12 c_iota (k1_pay11 (F := F) vload) = fun y => (vload y : BitVec 32) + laneOff 1 y := c_fix_eq 1 vload
/-- Chunk 2 (columns 32…47), the loop body's row 1 of four. -/
theorem c_store_k1_pay13 (vload : Vec F S1x16 .i32) :
    k1_pay13 (F := F) c_iota vload = fun y => (vload y : BitVec 32) + laneOff 2 y := c_fix_eq 2 vload
/-- Chunk 3 (columns 48…63), the loop body's row 1 of four. -/
theorem c_store_k1_pay14 (vload : Vec F S1x16 .i32) :
    k1_pay14 (F := F) c_iota vload = fun y => (vload y : BitVec 32) + laneOff 3 y := c_fix_eq 3 vload
/-- Chunk 4 (columns 64…79), the loop body's row 1 of four. -/
theorem c_store_k1_pay16 (vload : Vec F S1x16 .i32) :
    k1_pay16 (k1_pay15 (F := F) c_iota vload) = fun y => (vload y : BitVec 32) + laneOff 4 y := c_fix_eq 4 vload
/-- Chunk 5 (columns 80…95), the loop body's row 1 of four. -/
theorem c_store_k1_pay17 (vload : Vec F S1x16 .i32) :
    k1_pay17 (F := F) c_iota vload = fun y => (vload y : BitVec 32) + laneOff 5 y := c_fix_eq 5 vload
/-- Chunk 6 (columns 96…111), the loop body's row 1 of four. -/
theorem c_store_k1_pay18 (vload : Vec F S1x16 .i32) :
    k1_pay18 (F := F) c_iota vload = fun y => (vload y : BitVec 32) + laneOff 6 y := c_fix_eq 6 vload
/-- Chunk 7 (columns 112…127), the loop body's row 1 of four. -/
theorem c_store_k1_pay19 (vload : Vec F S1x16 .i32) :
    k1_pay19 (F := F) c_iota vload = fun y => (vload y : BitVec 32) + laneOff 7 y := c_fix_eq 7 vload
/-- Chunk 0 (columns 0…15), the loop body's row 2 of four. -/
theorem c_store_k1_pay20 (vload : Vec F S1x16 .i32) :
    k1_pay20 (F := F) c_iota vload = fun y => (vload y : BitVec 32) + laneOff 0 y := c_fix_eq 0 vload
/-- Chunk 1 (columns 16…31), the loop body's row 2 of four. -/
theorem c_store_k1_pay21 (vload : Vec F S1x16 .i32) :
    k1_pay21 (F := F) c_iota vload = fun y => (vload y : BitVec 32) + laneOff 1 y := c_fix_eq 1 vload
/-- Chunk 2 (columns 32…47), the loop body's row 2 of four. -/
theorem c_store_k1_pay23 (vload : Vec F S1x16 .i32) :
    k1_pay23 (k1_pay22 (F := F) c_iota vload) = fun y => (vload y : BitVec 32) + laneOff 2 y := c_fix_eq 2 vload
/-- Chunk 3 (columns 48…63), the loop body's row 2 of four. -/
theorem c_store_k1_pay24 (vload : Vec F S1x16 .i32) :
    k1_pay24 (F := F) c_iota vload = fun y => (vload y : BitVec 32) + laneOff 3 y := c_fix_eq 3 vload
/-- Chunk 4 (columns 64…79), the loop body's row 2 of four. -/
theorem c_store_k1_pay25 (vload : Vec F S1x16 .i32) :
    k1_pay25 (F := F) c_iota vload = fun y => (vload y : BitVec 32) + laneOff 4 y := c_fix_eq 4 vload
/-- Chunk 5 (columns 80…95), the loop body's row 2 of four. -/
theorem c_store_k1_pay26 (vload : Vec F S1x16 .i32) :
    k1_pay26 (F := F) c_iota vload = fun y => (vload y : BitVec 32) + laneOff 5 y := c_fix_eq 5 vload
/-- Chunk 6 (columns 96…111), the loop body's row 2 of four. -/
theorem c_store_k1_pay29 (vload : Vec F S1x16 .i32) :
    k1_pay29 (k1_pay27 (F := F) vload) (k1_pay28 c_iota) = fun y => (vload y : BitVec 32) + laneOff 6 y := c_fix_eq 6 vload
/-- Chunk 7 (columns 112…127), the loop body's row 2 of four. -/
theorem c_store_k1_pay30 (vload : Vec F S1x16 .i32) :
    k1_pay30 (F := F) c_iota vload = fun y => (vload y : BitVec 32) + laneOff 7 y := c_fix_eq 7 vload
/-- Chunk 0 (columns 0…15), the loop body's row 3 of four. -/
theorem c_store_k1_pay31 (vload : Vec F S1x16 .i32) :
    k1_pay31 (F := F) c_iota vload = fun y => (vload y : BitVec 32) + laneOff 0 y := c_fix_eq 0 vload
/-- Chunk 1 (columns 16…31), the loop body's row 3 of four. -/
theorem c_store_k1_pay32 (vload : Vec F S1x16 .i32) :
    k1_pay32 (F := F) c_iota vload = fun y => (vload y : BitVec 32) + laneOff 1 y := c_fix_eq 1 vload
/-- Chunk 2 (columns 32…47), the loop body's row 3 of four. -/
theorem c_store_k1_pay33 (vload : Vec F S1x16 .i32) :
    k1_pay33 (F := F) c_iota vload = fun y => (vload y : BitVec 32) + laneOff 2 y := c_fix_eq 2 vload
/-- Chunk 3 (columns 48…63), the loop body's row 3 of four. -/
theorem c_store_k1_pay34 (vload : Vec F S1x16 .i32) :
    k1_pay34 (F := F) c_iota vload = fun y => (vload y : BitVec 32) + laneOff 3 y := c_fix_eq 3 vload
/-- Chunk 4 (columns 64…79), the loop body's row 3 of four. -/
theorem c_store_k1_pay38 (vload : Vec F S1x16 .i32) :
    k1_pay38 (k1_pay35 (F := F) vload) (k1_pay36 c_iota) (k1_pay37) = fun y => (vload y : BitVec 32) + laneOff 4 y := c_fix_eq 4 vload
/-- Chunk 5 (columns 80…95), the loop body's row 3 of four. -/
theorem c_store_k1_pay39 (vload : Vec F S1x16 .i32) :
    k1_pay39 (F := F) c_iota vload = fun y => (vload y : BitVec 32) + laneOff 5 y := c_fix_eq 5 vload
/-- Chunk 6 (columns 96…111), the loop body's row 3 of four. -/
theorem c_store_k1_pay40 (vload : Vec F S1x16 .i32) :
    k1_pay40 (F := F) c_iota vload = fun y => (vload y : BitVec 32) + laneOff 6 y := c_fix_eq 6 vload
/-- Chunk 7 (columns 112…127), the loop body's row 3 of four. -/
theorem c_store_k1_pay41 (vload : Vec F S1x16 .i32) :
    k1_pay41 (F := F) c_iota vload = fun y => (vload y : BitVec 32) + laneOff 7 y := c_fix_eq 7 vload
/-- Chunk 0 (columns 0…15), row 0 before the loop. -/
theorem c_store_k1_pay42 (vload : Vec F S1x16 .i32) :
    k1_pay42 (F := F) vload = fun y => (vload y : BitVec 32) + laneOff 0 y := c_fix_eq 0 vload
/-- Chunk 1 (columns 16…31), row 0 before the loop. -/
theorem c_store_k1_pay43 (vload : Vec F S1x16 .i32) :
    k1_pay43 (F := F) vload = fun y => (vload y : BitVec 32) + laneOff 1 y := c_fix_eq 1 vload
/-- Chunk 2 (columns 32…47), row 0 before the loop. -/
theorem c_store_k1_pay45 (vload : Vec F S1x16 .i32) :
    k1_pay45 (k1_pay44 (F := F) vload) = fun y => (vload y : BitVec 32) + laneOff 2 y := c_fix_eq 2 vload
/-- Chunk 3 (columns 48…63), row 0 before the loop. -/
theorem c_store_k1_pay46 (vload : Vec F S1x16 .i32) :
    k1_pay46 (F := F) c_iota vload = fun y => (vload y : BitVec 32) + laneOff 3 y := c_fix_eq 3 vload
/-- Chunk 4 (columns 64…79), row 0 before the loop. -/
theorem c_store_k1_pay47 (vload : Vec F S1x16 .i32) :
    k1_pay47 (F := F) c_iota vload = fun y => (vload y : BitVec 32) + laneOff 4 y := c_fix_eq 4 vload
/-- Chunk 5 (columns 80…95), row 0 before the loop. -/
theorem c_store_k1_pay49 (vload : Vec F S1x16 .i32) :
    k1_pay49 (k1_pay48 (F := F) c_iota vload) = fun y => (vload y : BitVec 32) + laneOff 5 y := c_fix_eq 5 vload
/-- Chunk 6 (columns 96…111), row 0 before the loop. -/
theorem c_store_k1_pay50 (vload : Vec F S1x16 .i32) :
    k1_pay50 (F := F) c_iota vload = fun y => (vload y : BitVec 32) + laneOff 6 y := c_fix_eq 6 vload
/-- Chunk 7 (columns 112…127), row 0 before the loop. -/
theorem c_store_k1_pay51 (vload : Vec F S1x16 .i32) :
    k1_pay51 (F := F) c_iota vload = fun y => (vload y : BitVec 32) + laneOff 7 y := c_fix_eq 7 vload
/-- Chunk 0 (columns 0…15), row 1 before the loop. -/
theorem c_store_k1_pay52 (vload : Vec F S1x16 .i32) :
    k1_pay52 (F := F) c_iota vload = fun y => (vload y : BitVec 32) + laneOff 0 y := c_fix_eq 0 vload
/-- Chunk 1 (columns 16…31), row 1 before the loop. -/
theorem c_store_k1_pay53 (vload : Vec F S1x16 .i32) :
    k1_pay53 (F := F) c_iota vload = fun y => (vload y : BitVec 32) + laneOff 1 y := c_fix_eq 1 vload
/-- Chunk 2 (columns 32…47), row 1 before the loop. -/
theorem c_store_k1_pay54 (vload : Vec F S1x16 .i32) :
    k1_pay54 (F := F) c_iota vload = fun y => (vload y : BitVec 32) + laneOff 2 y := c_fix_eq 2 vload
/-- Chunk 3 (columns 48…63), row 1 before the loop. -/
theorem c_store_k1_pay56 (vload : Vec F S1x16 .i32) :
    k1_pay56 c_iota (k1_pay55 (F := F) vload) 4#32 = fun y => (vload y : BitVec 32) + laneOff 3 y := c_fix_eq 3 vload
/-- Chunk 4 (columns 64…79), row 1 before the loop. -/
theorem c_store_k1_pay57 (vload : Vec F S1x16 .i32) :
    k1_pay57 (F := F) c_iota vload = fun y => (vload y : BitVec 32) + laneOff 4 y := c_fix_eq 4 vload
/-- Chunk 5 (columns 80…95), row 1 before the loop. -/
theorem c_store_k1_pay58 (vload : Vec F S1x16 .i32) :
    k1_pay58 (F := F) c_iota vload = fun y => (vload y : BitVec 32) + laneOff 5 y := c_fix_eq 5 vload
/-- Chunk 6 (columns 96…111), row 1 before the loop. -/
theorem c_store_k1_pay61 (vload : Vec F S1x16 .i32) :
    k1_pay61 (k1_pay59 (F := F) vload) (k1_pay60 c_iota) 128#32 = fun y => (vload y : BitVec 32) + laneOff 6 y := c_fix_eq 6 vload
/-- Chunk 7 (columns 112…127), row 1 before the loop. -/
theorem c_store_k1_pay62 (vload : Vec F S1x16 .i32) :
    k1_pay62 (F := F) c_iota vload = fun y => (vload y : BitVec 32) + laneOff 7 y := c_fix_eq 7 vload
/-- Chunk 0 (columns 0…15), row 2 before the loop. -/
theorem c_store_k1_pay64 (vload : Vec F S1x16 .i32) :
    k1_pay64 (k1_pay63 (F := F) c_iota vload) = fun y => (vload y : BitVec 32) + laneOff 0 y := c_fix_eq 0 vload
/-- Chunk 1 (columns 16…31), row 2 before the loop. -/
theorem c_store_k1_pay65 (vload : Vec F S1x16 .i32) :
    k1_pay65 (F := F) c_iota vload = fun y => (vload y : BitVec 32) + laneOff 1 y := c_fix_eq 1 vload
/-- Chunk 2 (columns 32…47), row 2 before the loop. -/
theorem c_store_k1_pay66 (vload : Vec F S1x16 .i32) :
    k1_pay66 (F := F) c_iota vload = fun y => (vload y : BitVec 32) + laneOff 2 y := c_fix_eq 2 vload
/-- Chunk 3 (columns 48…63), row 2 before the loop. -/
theorem c_store_k1_pay67 (vload : Vec F S1x16 .i32) :
    k1_pay67 (F := F) c_iota vload = fun y => (vload y : BitVec 32) + laneOff 3 y := c_fix_eq 3 vload
/-- Chunk 4 (columns 64…79), row 2 before the loop. -/
theorem c_store_k1_pay68 (vload : Vec F S1x16 .i32) :
    k1_pay68 (F := F) c_iota vload = fun y => (vload y : BitVec 32) + laneOff 4 y := c_fix_eq 4 vload
/-- Chunk 5 (columns 80…95), row 2 before the loop. -/
theorem c_store_k1_pay69 (vload : Vec F S1x16 .i32) :
    k1_pay69 (F := F) c_iota vload = fun y => (vload y : BitVec 32) + laneOff 5 y := c_fix_eq 5 vload
/-- Chunk 6 (columns 96…111), row 2 before the loop. -/
theorem c_store_k1_pay70 (vload : Vec F S1x16 .i32) :
    k1_pay70 (F := F) c_iota vload = fun y => (vload y : BitVec 32) + laneOff 6 y := c_fix_eq 6 vload
/-- Chunk 7 (columns 112…127), row 2 before the loop. -/
theorem c_store_k1_pay71 (vload : Vec F S1x16 .i32) :
    k1_pay71 (F := F) c_iota vload = fun y => (vload y : BitVec 32) + laneOff 7 y := c_fix_eq 7 vload
/-- Chunk 0 (columns 0…15), row 3 before the loop. -/
theorem c_store_k1_pay72 (vload : Vec F S1x16 .i32) :
    k1_pay72 (F := F) c_iota vload = fun y => (vload y : BitVec 32) + laneOff 0 y := c_fix_eq 0 vload
/-- Chunk 1 (columns 16…31), row 3 before the loop. -/
theorem c_store_k1_pay75 (vload : Vec F S1x16 .i32) :
    k1_pay75 (k1_pay73 (F := F) vload) (k1_pay74 c_iota) = fun y => (vload y : BitVec 32) + laneOff 1 y := c_fix_eq 1 vload
/-- Chunk 2 (columns 32…47), row 3 before the loop. -/
theorem c_store_k1_pay76 (vload : Vec F S1x16 .i32) :
    k1_pay76 (F := F) c_iota vload = fun y => (vload y : BitVec 32) + laneOff 2 y := c_fix_eq 2 vload
/-- Chunk 3 (columns 48…63), row 3 before the loop. -/
theorem c_store_k1_pay77 (vload : Vec F S1x16 .i32) :
    k1_pay77 (F := F) c_iota vload = fun y => (vload y : BitVec 32) + laneOff 3 y := c_fix_eq 3 vload
/-- Chunk 4 (columns 64…79), row 3 before the loop. -/
theorem c_store_k1_pay80 (vload : Vec F S1x16 .i32) :
    k1_pay80 (k1_pay78 (F := F) vload) (k1_pay79 c_iota) = fun y => (vload y : BitVec 32) + laneOff 4 y := c_fix_eq 4 vload
/-- Chunk 5 (columns 80…95), row 3 before the loop. -/
theorem c_store_k1_pay81 (vload : Vec F S1x16 .i32) :
    k1_pay81 (F := F) c_iota vload = fun y => (vload y : BitVec 32) + laneOff 5 y := c_fix_eq 5 vload
/-- Chunk 6 (columns 96…111), row 3 before the loop. -/
theorem c_store_k1_pay82 (vload : Vec F S1x16 .i32) :
    k1_pay82 (F := F) c_iota vload = fun y => (vload y : BitVec 32) + laneOff 6 y := c_fix_eq 6 vload
/-- Chunk 7 (columns 112…127), row 3 before the loop. -/
theorem c_store_k1_pay84 (vload : Vec F S1x16 .i32) :
    k1_pay84 (k1_pay83 (F := F) c_iota vload) = fun y => (vload y : BitVec 32) + laneOff 7 y := c_fix_eq 7 vload

/-! ## A whole row -/

omit [FloatOps F] in
theorem c_rho_lt (l : Fin 128) : rho l < 64 := by
  unfold rho
  have := l.isLt
  omega

omit [FloatOps F] in
/-- Column `l` is lane `l mod 16` of chunk `l div 16`, and what that chunk adds there is `4 ρ(l)`. -/
theorem c_laneOff_col (l : Fin 128) :
    laneOff (l.val / 16) (ix2 (0 : Fin 1) (⟨l.val % 16, Nat.mod_lt _ (by decide)⟩ : Fin 16)) = BitVec.ofNat 32 (4 * rho l) := by
  show BitVec.ofNat 32 (4 * (l.val % 16) + 64 * (l.val / 16 % 4)) = BitVec.ofNat 32 (4 * (l.val % 16 + 16 * (l.val / 16 % 4)))
  congr 1
  omega

omit [FloatOps F] in
/-- A row rewritten chunk by chunk is the row with `4 ρ(l)` added at every column `l`. -/
theorem c_row_fixed (r : Fin 128 → BitVec 32) :
    (fun l : Fin 128 => r l + laneOff (l.val / 16) (ix2 (0 : Fin 1) (⟨l.val % 16, Nat.mod_lt _ (by decide)⟩ : Fin 16)))
      = fun l => r l + BitVec.ofNat 32 (4 * rho l) :=
  funext fun l => by rw [c_laneOff_col]

omit [FloatOps F] in
/-- An index word below 4 with `4 ρ(l)` added: no wrap, the sum below 256, and the row it names. -/
theorem c_fixed_toNat (x : BitVec 32) (l : Fin 128) (hx : x.toNat < 4) :
    (x + BitVec.ofNat 32 (4 * rho l)).toNat = x.toNat + 4 * rho l ∧ x.toNat + 4 * rho l < 256 := by
  have h := c_rho_lt l
  refine ⟨?_, by omega⟩
  simp only [BitVec.toNat_add, BitVec.toNat_ofNat, Nat.reducePow]
  omega

omit [FloatOps F] in
theorem c_gRow_fixed (x : BitVec 32) (l : Fin 128) (h : x.toNat + 4 * rho l < 256) :
    gRow x l = (⟨x.toNat + 4 * rho l, h⟩ : Fin 256) :=
  Fin.ext (Nat.mod_eq_of_lt h)

omit [FloatOps F] in
/-- The three together, for a row whose word at `l` is below 4. -/
theorem c_row_fixed_spec (r : Fin 128 → BitVec 32) (l : Fin 128) (hx : (r l).toNat < 4) :
    (r l + BitVec.ofNat 32 (4 * rho l)).toNat = (r l).toNat + 4 * rho l ∧
      ∃ h : (r l).toNat + 4 * rho l < 256, gRow (r l) l = (⟨(r l).toNat + 4 * rho l, h⟩ : Fin 256) :=
  ⟨(c_fixed_toNat (r l) l hx).1, (c_fixed_toNat (r l) l hx).2, c_gRow_fixed (r l) l (c_fixed_toNat (r l) l hx).2⟩

end Cert.KernelIdeal.Hand

end
-- ==== Proof.FixRow.lean ====
/-
  One row of the index scratch rewritten, as one closed form.

  A row of 128 index words is rewritten by eight stores of sixteen lanes each: store `c` writes columns
  `16 c … 16 c + 15` of row `t` with what a load of the same sixteen words read, plus `4 · lane + 64 · (c mod 4)`.
  A store through a rectangle changes exactly the words of the rectangle, and the eight rectangles are the eight
  disjoint stretches of the row, so after the eighth store every word `(t, j)` of the row holds what it held before
  the first plus `4 ρ(j)`, `ρ(j) = j mod 16 + 16 · ((j div 16) mod 4)`, and every other word of the scratch is as it was.
-/
import proofs.«214982_g87402584473731_cont_9to1c4b_667_31_alg».proof.Proof.Common
import proofs.«214982_g87402584473731_cont_9to1c4b_667_31_alg».proof.Proof.Chunks
import proofs.«214982_g87402584473731_cont_9to1c4b_667_31_alg».proof.Proof.Pieces

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## One store of sixteen words -/

section Chunk
variable (t col : Nat) (h : ∀ a, (![t, col] : Fin 2 → Nat) a + S1x16.size a ≤ S200x128.size a)
  (g : (ixV).view.ty.Contents (Elt F)) (p : IVec S1x16 32)

/-- Where the chunk's lane `x` sits in the scratch: row `t`, column `col + x`. -/
theorem a_chunk_emb (x : S1x16.Idx) (a : Fin 2) :
    ((Rect.unit (s := S200x128) ![t, col] S1x16.size h).emb x a : Nat) = (![t, col] : Fin 2 → Nat) a + 1 * (x a).val := rfl

/-- The store writes its payload at the chunk's words … -/
theorem a_write_hit (x : S1x16.Idx) :
    View.write (Elt F) ((ixV).access (Rect.unit (s := S200x128) ![t, col] S1x16.size h)) g p Finset.univ
        ((Rect.unit (s := S200x128) ![t, col] S1x16.size h).emb x) = p x :=
  View.write_emb_of_mem (v := (ixV).access (Rect.unit (s := S200x128) ![t, col] S1x16.size h)) (Val := Elt F) g p
    (M := Finset.univ) (x := x) (Finset.mem_univ _)

/-- … and leaves every other word of the scratch as it was. -/
theorem a_write_miss (i : S200x128.Idx) (hi : i ∉ (Rect.unit (s := S200x128) ![t, col] S1x16.size h).set) :
    View.write (Elt F) ((ixV).access (Rect.unit (s := S200x128) ![t, col] S1x16.size h)) g p Finset.univ i = g i :=
  View.write_of_not_mem (v := (ixV).access (Rect.unit (s := S200x128) ![t, col] S1x16.size h)) (Val := Elt F) g p Finset.univ
    (i := i) (by
      rw [View.setOn_univ]
      show i ∉ ((View.whole cc1_scratch0).slice (Rect.unit (s := S200x128) ![t, col] S1x16.size h)).set
      rw [View.set_slice_whole]; exact hi)

/-- A load of the chunk reads the scratch at the chunk's words. -/
theorem a_read_chunk (x : S1x16.Idx) :
    (View.readAt (Elt F) (ixV).view (Rect.unit (s := S200x128) ![t, col] S1x16.size h).toLoadRect g x : BitVec 32)
      = g ((Rect.unit (s := S200x128) ![t, col] S1x16.size h).emb x) := rfl

end Chunk

/-! ## The eight stores of a row -/

/-- What the scratch holds after the first `c` stores of row `t`: the row's first `16 c` words with their lane
    offsets added, everything else as at the start. -/
def a_Inv (t : Nat) (g0 : S200x128.Idx → BitVec 32) (c : Nat) (g : S200x128.Idx → BitVec 32) : Prop :=
  ∀ i : S200x128.Idx, g i = if (i 0).val = t ∧ (i 1).val < 16 * c then g0 i + BitVec.ofNat 32 (4 * rho ⟨(i 1).val, (i 1).isLt⟩) else g0 i

theorem a_inv_zero (t : Nat) (g0 : S200x128.Idx → BitVec 32) : a_Inv t g0 0 g0 :=
  fun i => (if_neg (fun h => absurd h.2 (by omega))).symm

/-- Store `c` carries the invariant on: its sixteen words are columns `16 c … 16 c + 15` of row `t`, untouched so
    far; lane `x` is column `16 c + x`, where `4 x + 64 (c mod 4) = 4 ρ(16 c + x)`. -/
theorem a_inv_step (t c : Nat) (h : ∀ a, (![t, 16 * c] : Fin 2 → Nat) a + S1x16.size a ≤ S200x128.size a)
    (g0 g g' : S200x128.Idx → BitVec 32) (p : IVec S1x16 32) (hinv : a_Inv t g0 c g)
    (e : g' = View.write (Elt F) ((ixV).access (Rect.unit (s := S200x128) ![t, 16 * c] S1x16.size h)) g p Finset.univ)
    (q : p = fun y => (View.readAt (Elt F) (ixV).view (Rect.unit (s := S200x128) ![t, 16 * c] S1x16.size h).toLoadRect g y : BitVec 32)
        + laneOff c y) :
    a_Inv t g0 (c + 1) g' := by
  intro i
  subst e
  by_cases hi : i ∈ (Rect.unit (s := S200x128) ![t, 16 * c] S1x16.size h).set
  · obtain ⟨x, -, rfl⟩ := Finset.mem_map.mp ((Rect.map_emb_univ _).symm ▸ hi)
    have e0 : ((Rect.unit (s := S200x128) ![t, 16 * c] S1x16.size h).emb x 0).val = t + 1 * (x 0).val := rfl
    have e1 : ((Rect.unit (s := S200x128) ![t, 16 * c] S1x16.size h).emb x 1).val = 16 * c + 1 * (x 1).val := rfl
    have hx0 : (x 0).val < 1 := (x 0).isLt
    have hx1 : (x 1).val < 16 := (x 1).isLt
    rw [a_write_hit, q, if_pos ⟨by omega, by omega⟩]
    show g ((Rect.unit (s := S200x128) ![t, 16 * c] S1x16.size h).emb x) + laneOff c x = _
    rw [hinv _, if_neg (fun hh => absurd hh.2 (by omega))]
    congr 1
    show BitVec.ofNat 32 (4 * (x 1).val + 64 * (c % 4))
      = BitVec.ofNat 32 (4 * (((Rect.unit (s := S200x128) ![t, 16 * c] S1x16.size h).emb x 1).val % 16
          + 16 * (((Rect.unit (s := S200x128) ![t, 16 * c] S1x16.size h).emb x 1).val / 16 % 4)))
    congr 1
    omega
  · rw [a_write_miss t (16 * c) h g p i hi, hinv i]
    have hi' := hi
    rw [mem_unit2] at hi'
    simp at hi'
    have h1 : (i 1).val < 128 := (i 1).isLt
    by_cases hr : (i 0).val = t
    · have hc : ¬(16 * c ≤ (i 1).val ∧ (i 1).val < 16 * c + 16) := fun hh => by
        have := hi' (by omega) (by omega) hh.1
        omega
      by_cases hlt : (i 1).val < 16 * c
      · rw [if_pos ⟨hr, hlt⟩, if_pos ⟨hr, by omega⟩]
      · rw [if_neg (fun hh => hlt hh.2), if_neg (fun hh => by have := hh.2; omega)]
    · rw [if_neg (fun hh => hr hh.1), if_neg (fun hh => hr hh.1)]

/-- THE ROW FIX-UP IN CLOSED FORM: after the eight stores, row `t` holds its words plus `4 ρ` of the column, and every
    other word of the scratch is as before the first store. -/
theorem fix_row_chain (t : Nat) (ht : t < 200)
    (h0 : ∀ a, (![t, 0] : Fin 2 → Nat) a + S1x16.size a ≤ S200x128.size a)
    (h1 : ∀ a, (![t, 16] : Fin 2 → Nat) a + S1x16.size a ≤ S200x128.size a)
    (h2 : ∀ a, (![t, 32] : Fin 2 → Nat) a + S1x16.size a ≤ S200x128.size a)
    (h3 : ∀ a, (![t, 48] : Fin 2 → Nat) a + S1x16.size a ≤ S200x128.size a)
    (h4 : ∀ a, (![t, 64] : Fin 2 → Nat) a + S1x16.size a ≤ S200x128.size a)
    (h5 : ∀ a, (![t, 80] : Fin 2 → Nat) a + S1x16.size a ≤ S200x128.size a)
    (h6 : ∀ a, (![t, 96] : Fin 2 → Nat) a + S1x16.size a ≤ S200x128.size a)
    (h7 : ∀ a, (![t, 112] : Fin 2 → Nat) a + S1x16.size a ≤ S200x128.size a)
    (g0 g1 g2 g3 g4 g5 g6 g7 g8 : S200x128.Idx → BitVec 32) (p0 p1 p2 p3 p4 p5 p6 p7 : IVec S1x16 32)
    (e1 : g1 = View.write (Elt F) ((ixV).access (Rect.unit (s := S200x128) ![t, 0] S1x16.size h0)) g0 p0 Finset.univ)
    (e2 : g2 = View.write (Elt F) ((ixV).access (Rect.unit (s := S200x128) ![t, 16] S1x16.size h1)) g1 p1 Finset.univ)
    (e3 : g3 = View.write (Elt F) ((ixV).access (Rect.unit (s := S200x128) ![t, 32] S1x16.size h2)) g2 p2 Finset.univ)
    (e4 : g4 = View.write (Elt F) ((ixV).access (Rect.unit (s := S200x128) ![t, 48] S1x16.size h3)) g3 p3 Finset.univ)
    (e5 : g5 = View.write (Elt F) ((ixV).access (Rect.unit (s := S200x128) ![t, 64] S1x16.size h4)) g4 p4 Finset.univ)
    (e6 : g6 = View.write (Elt F) ((ixV).access (Rect.unit (s := S200x128) ![t, 80] S1x16.size h5)) g5 p5 Finset.univ)
    (e7 : g7 = View.write (Elt F) ((ixV).access (Rect.unit (s := S200x128) ![t, 96] S1x16.size h6)) g6 p6 Finset.univ)
    (e8 : g8 = View.write (Elt F) ((ixV).access (Rect.unit (s := S200x128) ![t, 112] S1x16.size h7)) g7 p7 Finset.univ)
    (q0 : p0 = fun y => (View.readAt (Elt F) (ixV).view (Rect.unit (s := S200x128) ![t, 0] S1x16.size h0).toLoadRect g0 y : BitVec 32) + laneOff 0 y)
    (q1 : p1 = fun y => (View.readAt (Elt F) (ixV).view (Rect.unit (s := S200x128) ![t, 16] S1x16.size h1).toLoadRect g1 y : BitVec 32) + laneOff 1 y)
    (q2 : p2 = fun y => (View.readAt (Elt F) (ixV).view (Rect.unit (s := S200x128) ![t, 32] S1x16.size h2).toLoadRect g2 y : BitVec 32) + laneOff 2 y)
    (q3 : p3 = fun y => (View.readAt (Elt F) (ixV).view (Rect.unit (s := S200x128) ![t, 48] S1x16.size h3).toLoadRect g3 y : BitVec 32) + laneOff 3 y)
    (q4 : p4 = fun y => (View.readAt (Elt F) (ixV).view (Rect.unit (s := S200x128) ![t, 64] S1x16.size h4).toLoadRect g4 y : BitVec 32) + laneOff 4 y)
    (q5 : p5 = fun y => (View.readAt (Elt F) (ixV).view (Rect.unit (s := S200x128) ![t, 80] S1x16.size h5).toLoadRect g5 y : BitVec 32) + laneOff 5 y)
    (q6 : p6 = fun y => (View.readAt (Elt F) (ixV).view (Rect.unit (s := S200x128) ![t, 96] S1x16.size h6).toLoadRect g6 y : BitVec 32) + laneOff 6 y)
    (q7 : p7 = fun y => (View.readAt (Elt F) (ixV).view (Rect.unit (s := S200x128) ![t, 112] S1x16.size h7).toLoadRect g7 y : BitVec 32) + laneOff 7 y) :
    ∀ i : S200x128.Idx, g8 i = if (i 0).val = t then g0 i + BitVec.ofNat 32 (4 * rho ⟨(i 1).val, (i 1).isLt⟩) else g0 i := by
  have i1 := a_inv_step (F := F) t 0 h0 g0 g0 g1 p0 (a_inv_zero t g0) e1 q0
  have i2 := a_inv_step (F := F) t 1 h1 g0 g1 g2 p1 i1 e2 q1
  have i3 := a_inv_step (F := F) t 2 h2 g0 g2 g3 p2 i2 e3 q2
  have i4 := a_inv_step (F := F) t 3 h3 g0 g3 g4 p3 i3 e4 q3
  have i5 := a_inv_step (F := F) t 4 h4 g0 g4 g5 p4 i4 e5 q4
  have i6 := a_inv_step (F := F) t 5 h5 g0 g5 g6 p5 i5 e6 q5
  have i7 := a_inv_step (F := F) t 6 h6 g0 g6 g7 p6 i6 e7 q6
  have i8 := a_inv_step (F := F) t 7 h7 g0 g7 g8 p7 i7 e8 q7
  intro i
  have hl : (i 1).val < 128 := (i 1).isLt
  rw [i8 i]
  by_cases hr : (i 0).val = t
  · rw [if_pos ⟨hr, by omega⟩, if_pos hr]
  · rw [if_neg (fun hh => hr hh.1), if_neg hr]

/-! ## The rewritten row, as a gather's offset list reads it -/

section Row
variable (t : Nat) (ht : t < 200) (inb : ∀ a, (![t, 0] : Fin 2 → Nat) a + S1x128.size a ≤ S200x128.size a)

/-- Entry `x` of the row memref (row `t` sliced out and its unit axis dropped) is word `(t, x)` of the scratch. -/
theorem a_row_emb (x : S128.Idx) :
    (((ixV).slice (Rect.unit (s := S200x128) ![t, 0] S1x128.size inb) (fun _ => rfl)).squeeze S128 squeezes_S1x128_S128).view.emb x
      = (ix2 (⟨t, ht⟩ : Fin 200) (⟨(x 0).val, (x 0).isLt⟩ : Fin 128) : S200x128.Idx) := by
  show (Rect.unit (s := S200x128) ![t, 0] S1x128.size inb).emb (Shape.reshapeEquiv squeezes_S1x128_S128.numel_eq x) = _
  rw [Shape.reshapeEquiv_eq_of_rowMajor squeezes_S1x128_S128.numel_eq
    (y := (ix2 (0 : Fin 1) (⟨(x 0).val, (x 0).isLt⟩ : Fin 128) : S1x128.Idx)) (by
      rw [Shape.rowMajor_val_two, Shape.rowMajor_val_one]
      show 0 * 128 + (x 0).val = (x 0).val
      omega)]
  funext a
  refine Fin.ext ?_
  match a with
  | ⟨0, _⟩ => show t + 1 * 0 = t; omega
  | ⟨1, _⟩ => show 0 + 1 * (x 0).val = (x 0).val; omega

variable (g0 g8 : S200x128.Idx → BitVec 32)
  (hc : ∀ i : S200x128.Idx, g8 i = if (i 0).val = t then g0 i + BitVec.ofNat 32 (4 * rho ⟨(i 1).val, (i 1).isLt⟩) else g0 i)
include hc

/-- Read through the row memref, the rewritten scratch gives the row's old words plus `4 ρ` of the column. -/
theorem fixed_read (x : S128.Idx) :
    (View.read (Elt F) (((ixV).slice (Rect.unit (s := S200x128) ![t, 0] S1x128.size inb) (fun _ => rfl)).squeeze S128
        squeezes_S1x128_S128).view g8 x : BitVec 32)
      = g0 (ix2 (⟨t, ht⟩ : Fin 200) (⟨(x 0).val, (x 0).isLt⟩ : Fin 128)) + BitVec.ofNat 32 (4 * rho ⟨(x 0).val, (x 0).isLt⟩) := by
  show g8 ((((ixV).slice (Rect.unit (s := S200x128) ![t, 0] S1x128.size inb) (fun _ => rfl)).squeeze S128
      squeezes_S1x128_S128).view.emb x) = _
  rw [a_row_emb t ht inb x, hc, if_pos rfl]

/-- Where the row's old words are index words below 4, every offset the gather reads is below 256. -/
theorem fixed_hin (h4 : ∀ l : Fin 128, (g0 (ix2 (⟨t, ht⟩ : Fin 200) l)).toNat < 4) (x : S128.Idx) :
    (View.read (Elt F) (((ixV).slice (Rect.unit (s := S200x128) ![t, 0] S1x128.size inb) (fun _ => rfl)).squeeze S128
        squeezes_S1x128_S128).view g8 x : BitVec 32).toNat < 256 := by
  rw [fixed_read (F := F) t ht inb g0 g8 hc x]
  have h := c_fixed_toNat (g0 (ix2 (⟨t, ht⟩ : Fin 200) (⟨(x 0).val, (x 0).isLt⟩ : Fin 128))) ⟨(x 0).val, (x 0).isLt⟩ (h4 _)
  rw [h.1]
  exact h.2

end Row

/-! ## What the two fetches landed -/

section Base
variable [FloatOps F] (m : (ℓ : Loc nD τ sig) → Buf (Elt F) ℓ) (d : Dev nD) (L : grid1.Coords)

/-- The first fetch lands rows 0 … 7 of the subcore's slab of indices (slab `2 i + c` for subcore `i` of SparseCore `c`) in
    rows 0 … 7 of the scratch. -/
theorem base_read_hd (c : Fin 2) (i : Fin 16) (hc : c.val = (L 0).val) (hi : i.val = (L 1).val)
    (f : (ixHd).view.ty.Contents (Elt F)) (t : Fin 8) (l : Fin 128) :
    ((ixHd).view.writes (Elt F) f [⟨Rect.whole S8x128, ReadAs.same.apply (View.read (Elt F) (iHd L).view (I4 m d))⟩]
        (ix2 (⟨t.val, by omega⟩ : Fin 200) l : S200x128.Idx) : BitVec 32)
      = I4 m d (ix3 (wid c i) (⟨t.val, by omega⟩ : Fin 200) l) := by
  rw [View.writes_singleton]
  have hx : (ix2 (⟨t.val, by omega⟩ : Fin 200) l : S200x128.Idx)
      = ((ixHd).view.slice (Rect.whole S8x128)).emb (ix2 t l : S8x128.Idx) := by
    funext a
    refine Fin.ext ?_
    match a with
    | ⟨0, _⟩ => show t.val = 0 + 1 * (0 + 1 * t.val); omega
    | ⟨1, _⟩ => show l.val = 0 + 1 * (0 + 1 * l.val); omega
  rw [hx, View.write_emb_of_mem _ _ (Finset.mem_univ _)]
  show I4 m d ((iHd L).view.emb (ix2 t l : S8x128.Idx)) = _
  refine congrArg (I4 m d) ?_
  show (ihdK L).emb (Shape.reshapeEquiv squeezes_S1x8x128_S8x128.numel_eq (ix2 t l : S8x128.Idx)) = _
  rw [Shape.reshapeEquiv_eq_of_rowMajor squeezes_S1x8x128_S8x128.numel_eq (y := (ix3 (0 : Fin 1) t l : S1x8x128.Idx)) (by
      rw [Shape.rowMajor_val_three, Shape.rowMajor_val_two]
      show (0 * 8 + t.val) * 128 + l.val = t.val * 128 + l.val
      omega)]
  funext a
  refine Fin.ext ?_
  have hk := k1_off2_eq L
  match a with
  | ⟨0, _⟩ =>
    show k1_off2 L 0 + 1 * 0 = 2 * i.val + c.val
    rw [hk]; show 2 * (L 1).val + (L 0).val + 1 * 0 = _; omega
  | ⟨1, _⟩ =>
    show k1_off2 L 1 + 1 * t.val = t.val
    rw [hk]; show 0 + 1 * t.val = _; omega
  | ⟨2, _⟩ =>
    show k1_off2 L 2 + 1 * l.val = l.val
    rw [hk]; show 0 + 1 * l.val = _; omega

/-- The second fetch lands rows 8 … 199 of the slab in rows 8 … 199 of the scratch. -/
theorem base_read_tl (c : Fin 2) (i : Fin 16) (hc : c.val = (L 0).val) (hi : i.val = (L 1).val)
    (f : (ixTl).view.ty.Contents (Elt F)) (t : Nat) (h8 : 8 ≤ t) (ht : t < 200) (l : Fin 128) :
    ((ixTl).view.writes (Elt F) f [⟨Rect.whole S192x128, ReadAs.same.apply (View.read (Elt F) (iTl L).view (I4 m d))⟩]
        (ix2 (⟨t, ht⟩ : Fin 200) l : S200x128.Idx) : BitVec 32)
      = I4 m d (ix3 (wid c i) (⟨t, ht⟩ : Fin 200) l) := by
  rw [View.writes_singleton]
  have hx : (ix2 (⟨t, ht⟩ : Fin 200) l : S200x128.Idx)
      = ((ixTl).view.slice (Rect.whole S192x128)).emb (ix2 (⟨t - 8, by omega⟩ : Fin 192) l : S192x128.Idx) := by
    funext a
    refine Fin.ext ?_
    match a with
    | ⟨0, _⟩ => show t = 8 + 1 * (0 + 1 * (t - 8)); omega
    | ⟨1, _⟩ => show l.val = 0 + 1 * (0 + 1 * l.val); omega
  rw [hx, View.write_emb_of_mem _ _ (Finset.mem_univ _)]
  show I4 m d ((iTl L).view.emb (ix2 (⟨t - 8, by omega⟩ : Fin 192) l : S192x128.Idx)) = _
  refine congrArg (I4 m d) ?_
  show (itlK L).emb (Shape.reshapeEquiv squeezes_S1x192x128_S192x128.numel_eq (ix2 (⟨t - 8, by omega⟩ : Fin 192) l : S192x128.Idx)) = _
  rw [Shape.reshapeEquiv_eq_of_rowMajor squeezes_S1x192x128_S192x128.numel_eq
    (y := (ix3 (0 : Fin 1) (⟨t - 8, by omega⟩ : Fin 192) l : S1x192x128.Idx)) (by
      rw [Shape.rowMajor_val_three, Shape.rowMajor_val_two]
      show (0 * 192 + (t - 8)) * 128 + l.val = (t - 8) * 128 + l.val
      omega)]
  funext a
  refine Fin.ext ?_
  have hk := k1_off3_eq L
  match a with
  | ⟨0, _⟩ =>
    show k1_off3 L 0 + 1 * 0 = 2 * i.val + c.val
    rw [hk]; show 2 * (L 1).val + (L 0).val + 1 * 0 = _; omega
  | ⟨1, _⟩ =>
    show k1_off3 L 1 + 1 * (t - 8) = t
    rw [hk]; show 8 + 1 * (t - 8) = _; omega
  | ⟨2, _⟩ =>
    show k1_off3 L 2 + 1 * l.val = l.val
    rw [hk]; show 0 + 1 * l.val = _; omega

end Base

end Cert.KernelIdeal.Hand

end
-- ==== Proof.TileLemmas3.lean ====
/-
  More lemmas for one vector subcore's task: the index words' range. Subcore `s` of SparseCore `c` works on slab `w = 2s + c`: it copies block `s` (rows
  16s … 16s+15) of the 256-row table into its SparseCore's shared memory, fetches the first 8 of its 200 rows of indices
  and starts the fetch of the other 192, meets the other fifteen subcores at the barrier — handing each a sixteenth of its
  block and receiving a sixteenth of every block, so that from then on it reads the whole shared table —, and then, row
  of 128 indices by row, adds the lane offsets, gathers the 128 named table rows into one of four row buffers and copies
  the buffer out to rows 25600 w + 128 t … of the result.
-/
import proofs.«214982_g87402584473731_cont_9to1c4b_667_31_alg».proof.Proof.TileLemmas2
import proofs.«214982_g87402584473731_cont_9to1c4b_667_31_alg».proof.Proof.FixRow

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Tile

variable (d : Dev nD) (L : grid1.Coords)

/-- Under the precondition every word of the re-laid index array is one of 0, 1, 2, 3: re-laying moves words, it changes none. -/
theorem I4_lt4 (hpre : PreOK m) (j : S32x200x128.Idx) : ((I4 m d j : Elt F .i32) : BitVec 32).toNat < 4 := by
  unfold I4 shapeCast
  exact hpre d _

/-- What the first eight rows of the index scratch hold once the head fetch has landed (over whatever was there). -/
abbrev G0hd (L : grid1.Coords) (f : Buf (Elt F) ((V d (cV L) (jV L)).loc cc1_scratch0)) : Buf (Elt F) ((V d (cV L) (jV L)).loc cc1_scratch0) :=
  (ixHd).view.writes (Elt F) f [⟨Rect.whole S8x128, ReadAs.same.apply (View.read (Elt F) (iHd L).view (I4 m d))⟩]

end Tile

end Cert.KernelIdeal.Hand

end
-- ==== Proof.TileLemmas4.lean ====
/-
  More lemmas for one vector subcore's task: rows 4 … 7 of the index scratch, set aside under one name while rows 0 … 3 are worked on. Subcore `s` of SparseCore `c` works on slab `w = 2s + c`: it copies block `s` (rows
  16s … 16s+15) of the 256-row table into its SparseCore's shared memory, fetches the first 8 of its 200 rows of indices
  and starts the fetch of the other 192, meets the other fifteen subcores at the barrier — handing each a sixteenth of its
  block and receiving a sixteenth of every block, so that from then on it reads the whole shared table —, and then, row
  of 128 indices by row, adds the lane offsets, gathers the 128 named table rows into one of four row buffers and copies
  the buffer out to rows 25600 w + 128 t … of the result.
-/
import proofs.«214982_g87402584473731_cont_9to1c4b_667_31_alg».proof.Proof.TileLemmas3

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Tile

variable (d : Dev nD) (L : grid1.Coords)

/-- Rows 4 … 7 of the index scratch as the head fetch landed them: what is left of the first eight rows once rows 0 … 3 are
    held apart. -/
def hdRest (fixb : Buf (Elt F) ((V d (cV L) (jV L)).loc cc1_scratch0)) : sProp 𝕄 :=
  (ixHd).view.loc (V d (cV L) (jV L)) ↦[((((ixHd).view.set \ ixRow0R.set) \ ixRow1R.set) \ ixRow2R.set) \ ixRow3R.set]{fullShare} G0hd m d L fixb

theorem hdRest_eq (fixb : Buf (Elt F) ((V d (cV L) (jV L)).loc cc1_scratch0)) :
    hdRest m d L fixb
      = ((ixHd).view.loc (V d (cV L) (jV L)) ↦[((((ixHd).view.set \ ixRow0R.set) \ ixRow1R.set) \ ixRow2R.set) \ ixRow3R.set]{fullShare} G0hd m d L fixb : sProp 𝕄) := rfl

/-- The same words under one name. -/
def G0hdO (fixb : Buf (Elt F) ((V d (cV L) (jV L)).loc cc1_scratch0)) : Buf (Elt F) ((V d (cV L) (jV L)).loc cc1_scratch0) := G0hd m d L fixb
theorem G0hdO_eq (fixb : Buf (Elt F) ((V d (cV L) (jV L)).loc cc1_scratch0)) : G0hdO m d L fixb = G0hd m d L fixb := rfl

theorem pts_G0hdO (fixb : Buf (Elt F) ((V d (cV L) (jV L)).loc cc1_scratch0)) :
    ((ixHd).view.loc (V d (cV L) (jV L)) ↦[(ixHd).view.set]{fullShare} G0hd m d L fixb : sProp 𝕄)
      = ((ixHd).view.loc (V d (cV L) (jV L)) ↦[(ixHd).view.set]{fullShare} G0hdO m d L fixb) := rfl

end Tile

end Cert.KernelIdeal.Hand

end
-- ==== Proof.LoopInv.lean ====
/-
  The gather loop of a vector subcore's task: what holds between its trips.

  A trip handles four rows of 128 indices, one per row buffer (slot). For slot `b` of trip `n` the gather by row `4n + b`
  of the index scratch is already in flight; the trip adds the lane offsets to row `4n + b + 4`, waits for the gather,
  copies the row buffer out to block `4n + b` of the subcore's result slab, waits for that copy, and starts the gather by
  the row just fixed. So between trips: four gathers in flight, by rows `4n … 4n + 3`; the rows below `4n` spent; the rows
  from `4n + 4` on as fetched; the first `4n` blocks of the slab written.
-/
import proofs.«214982_g87402584473731_cont_9to1c4b_667_31_alg».proof.Proof.TileLemmas
import proofs.«214982_g87402584473731_cont_9to1c4b_667_31_alg».proof.Proof.TileLemmas2
import proofs.«214982_g87402584473731_cont_9to1c4b_667_31_alg».proof.Proof.Blocks
import proofs.«214982_g87402584473731_cont_9to1c4b_667_31_alg».proof.Proof.Chunks

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Loop

variable (d : Dev nD) (L : grid1.Coords)

/-! ## The gather loop's invariant: its vocabulary -/

/-- The whole shared table, as every gather slices it. -/
abbrev b_shW : Memref sig .scVector .shared S256x128 .f32 := (shV).slice (Rect.unit (s := S256x128) ![0, 0] S256x128.size inb_S256x128_S256x128_0_0) (fun _ => rfl)
/-- Row `t` of the index scratch as a gather's offset list addresses it. -/
abbrev b_rowM (t : Fin 200) : Memref sig .scVector .vmem S128 .i32 := ((ixV).slice (ixRowR t) (fun _ => rfl)).squeeze S128 squeezes_S1x128_S128
/-- A row number below 200 (any number, folded). -/
def b_row (t : Nat) : Fin 200 := ⟨t % 200, Nat.mod_lt _ (by decide)⟩

/-- The index scratch as the two fetches land it: row `t`, lane `r` holds index `(w, t, r)` of the subcore's slab `w`. -/
def b_G0 : Buf (Elt F) ((V d (cV L) (jV L)).loc cc1_scratch0) := fun j =>
  (I4 m d (ix3 (n0 := 32) (n1 := 200) (n2 := 128) (wid (cL L) (jL L)) ⟨(j 0).val, (j 0).isLt⟩ ⟨(j 1).val, (j 1).isLt⟩) : BitVec 32)
/-- The same with every row's lane offsets added: lane `r` holds the index plus `4 ρ(r)`. -/
def b_FX : Buf (Elt F) ((V d (cV L) (jV L)).loc cc1_scratch0) := fun j =>
  BitVec.add (b_G0 m d L j) (BitVec.ofNat 32 (4 * rho ⟨(j 1).val, (j 1).isLt⟩))

/-- What the gather by list row `t` (at the words `FX`) writes into a row buffer: at `(r, l)` the shared table's row named by word `r`. -/
def b_pay (FX : Buf (Elt F) ((V d (cV L) (jV L)).loc cc1_scratch0))
    (hfx : ∀ (t : Fin 200) x, (View.read (Elt F) (b_rowM t).view FX x : BitVec 32).toNat < 256) (t : Fin 200) : S128x128.Idx → Elt F .f32 :=
  SparseCore.gatherPayload gathers_S256x128_S128x128 (View.read (Elt F) (b_shW).view (T3 m d : Buf (Elt F) (shLoc d (cV L))))
    (SparseCore.rows (View.read (Elt F) (b_rowM t).view FX) rfl (hfx t))

/-- Gather flight of slot 0, its offset list row `t` of the index scratch. -/
abbrev b_fl0 (FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256) (t : Fin 200) : sProp 𝕄 :=
  Transfers.Flight countersEmb (V d (cV L) (jV L)) (SemLoc.dma (⟨4, by decide⟩ : DmaSem sig)) (default : HIx 1) 524288
    iprop((((rwS0).view.loc (V d (cV L) (jV L)) ↦[(rwS0).view.set]{fullShare} (rwS0).view.writes (Elt F) frw [⟨Rect.whole S128x128, b_pay (m := m) d L FX hfx t⟩])
        ∗ ((b_rowM t).view.loc (V d (cV L) (jV L)) ↦[(b_rowM t).view.set]{fullShare} FX))
      ∗ ((b_shW).view.loc (V d (cV L) (jV L)) ↦[(b_shW).view.set]{gshare L 0} T3 m d))

/-- Gather flight of slot 1, its offset list row `t` of the index scratch. -/
abbrev b_fl1 (FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256) (t : Fin 200) : sProp 𝕄 :=
  Transfers.Flight countersEmb (V d (cV L) (jV L)) (SemLoc.dma (⟨5, by decide⟩ : DmaSem sig)) (default : HIx 1) 524288
    iprop((((rwS1).view.loc (V d (cV L) (jV L)) ↦[(rwS1).view.set]{fullShare} (rwS1).view.writes (Elt F) frw [⟨Rect.whole S128x128, b_pay (m := m) d L FX hfx t⟩])
        ∗ ((b_rowM t).view.loc (V d (cV L) (jV L)) ↦[(b_rowM t).view.set]{fullShare} FX))
      ∗ ((b_shW).view.loc (V d (cV L) (jV L)) ↦[(b_shW).view.set]{gshare L 1} T3 m d))

/-- Gather flight of slot 2, its offset list row `t` of the index scratch. -/
abbrev b_fl2 (FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256) (t : Fin 200) : sProp 𝕄 :=
  Transfers.Flight countersEmb (V d (cV L) (jV L)) (SemLoc.dma (⟨6, by decide⟩ : DmaSem sig)) (default : HIx 1) 524288
    iprop((((rwS2).view.loc (V d (cV L) (jV L)) ↦[(rwS2).view.set]{fullShare} (rwS2).view.writes (Elt F) frw [⟨Rect.whole S128x128, b_pay (m := m) d L FX hfx t⟩])
        ∗ ((b_rowM t).view.loc (V d (cV L) (jV L)) ↦[(b_rowM t).view.set]{fullShare} FX))
      ∗ ((b_shW).view.loc (V d (cV L) (jV L)) ↦[(b_shW).view.set]{gshare L 2} T3 m d))

/-- Gather flight of slot 3, its offset list row `t` of the index scratch. -/
abbrev b_fl3 (FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256) (t : Fin 200) : sProp 𝕄 :=
  Transfers.Flight countersEmb (V d (cV L) (jV L)) (SemLoc.dma (⟨7, by decide⟩ : DmaSem sig)) (default : HIx 1) 524288
    iprop((((rwS3).view.loc (V d (cV L) (jV L)) ↦[(rwS3).view.set]{fullShare} (rwS3).view.writes (Elt F) frw [⟨Rect.whole S128x128, b_pay (m := m) d L FX hfx t⟩])
        ∗ ((b_rowM t).view.loc (V d (cV L) (jV L)) ↦[(b_rowM t).view.set]{fullShare} FX))
      ∗ ((b_shW).view.loc (V d (cV L) (jV L)) ↦[(b_shW).view.set]{gshare L 3} T3 m d))

/-- Before trip `n` of the gather loop (`n` = 0 … 49; the carried word is not read): the waits' evidence and what the
    subcore owes; the four gathers in flight, slot `b`'s by list row `4n + b` at the fixed words `FX`, each with a quarter
    of the subcore's sixteenth of the shared table; the four write-out semaphores at zero; the index scratch's rows below
    `4n` (their gathers done) at `FX` and its rows from `4n + 4` on at the landed words `G0`; the result slab's first `4n`
    blocks at the gathered rows and the rest as launched; and whatever else the task holds across the loop (`R`). -/
def b_inv (O : CellTallies nD τ sig (HIx 1)) (W : Waits sig (HIx 1)) (G0 FX : Buf (Elt F) ((V d (cV L) (jV L)).loc cc1_scratch0))
    (frw : Buf (Elt F) ((V d (cV L) (jV L)).loc cc1_scratch1))
    (hfx : ∀ (t : Fin 200) x, (View.read (Elt F) (b_rowM t).view FX x : BitVec 32).toNat < 256) (R : sProp 𝕄) (n : Nat) (_ : BitVec 32) : sProp 𝕄 :=
  iprop(Transfers.MayWaits (V d (cV L) (jV L)) (default : HIx 1) O
    ∗ (∃ W', ⌜∀ p ∈ W', p ∈ W ∨ p.2 = none ∨ p.2 = some (0 : Fin 1)⌝ ∗ owes (V d (cV L) (jV L)) O W')
    ∗ b_fl0 m d L FX frw hfx (b_row (4 * n + 0)) ∗ b_fl1 m d L FX frw hfx (b_row (4 * n + 1))
    ∗ b_fl2 m d L FX frw hfx (b_row (4 * n + 2)) ∗ b_fl3 m d L FX frw hfx (b_row (4 * n + 3))
    ∗ semVal (dcell d (cV L) (jV L) 8) 0 ∗ semVal (dcell d (cV L) (jV L) 9) 0 ∗ semVal (dcell d (cV L) (jV L) 10) 0 ∗ semVal (dcell d (cV L) (jV L) 11) 0
    ∗ (bigSep (Finset.range (4 * n)) fun t => (V d (cV L) (jV L)).loc cc1_scratch0 ↦[(ixRowR (b_row t)).set]{fullShare} FX)
    ∗ (bigSep ((Finset.range 200).filter fun t => 4 * n + 4 ≤ t) fun t => (V d (cV L) (jV L)).loc cc1_scratch0 ↦[(ixRowR (b_row t)).set]{fullShare} G0)
    ∗ (v5Loc d ↦[odoneSet (wid (cL L) (jL L)) (4 * n)]{fullShare} O5 m d)
    ∗ (v5Loc d ↦[oslabSet (wid (cL L) (jL L)) \ odoneSet (wid (cL L) (jL L)) (4 * n)]{fullShare} m (v5Loc d))
    ∗ R)

end Loop

end Cert.KernelIdeal.Hand

end
-- ==== Proof.Gathered.lean ====
/-
  What a gathered row buffer holds, and what the result block it is copied to holds.

  Row `t` of slab `w`, once rewritten, holds at lane `r` the index word `x` of `(w, t, r)` plus `4 ρ(r)`. The indirect
  gather reads that list and fills row `r` of the row buffer with row `x + 4 ρ(r)` of the shared 256-row table: the
  row the result's row `25600 w + 128 t + r` is defined to be (the word is below 4, so the sum is below 256 and is
  the row number taken modulo 256). The copy-out then moves the buffer, read whole, to the 128 rows of block `t` of
  slab `w` of the result, whose row `r` is row `25600 w + 128 t + r` of the result array.
-/
import proofs.«214982_g87402584473731_cont_9to1c4b_667_31_alg».proof.Proof.Common
import proofs.«214982_g87402584473731_cont_9to1c4b_667_31_alg».proof.Proof.Chunks
import proofs.«214982_g87402584473731_cont_9to1c4b_667_31_alg».proof.Proof.Blocks
import proofs.«214982_g87402584473731_cont_9to1c4b_667_31_alg».proof.Proof.Pieces
import Idealize.ShloMosaic.Lib.SparseCore.Stream

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (d : Dev nD)

/-! ## The result's row `25600 w + 128 t + r` -/

theorem a_row_lt (w : Fin 32) (t : Fin 200) (r : Fin 128) : 25600 * w.val + 128 * t.val + r.val < 819200 := by
  have := w.isLt; have := t.isLt; have := r.isLt; omega

/-- It is the row of the 256-row table that index word `(w, t, r)` names in lane `r`. -/
theorem a_O5_at (w : Fin 32) (t : Fin 200) (r l : Fin 128) :
    O5 m d (ix2 (⟨25600 * w.val + 128 * t.val + r.val, a_row_lt w t r⟩ : Fin 819200) l)
      = T3 m d (ix2 (gRow (I4 m d (ix3 w t r) : BitVec 32) r) l) := by
  have hw := w.isLt; have ht := t.isLt; have hr := r.isLt
  have eA : (⟨(25600 * w.val + 128 * t.val + r.val) / 25600, by omega⟩ : Fin 32) = w := Fin.ext (by show _ / 25600 = w.val; omega)
  have eB : (⟨(25600 * w.val + 128 * t.val + r.val) % 25600 / 128, by omega⟩ : Fin 200) = t := Fin.ext (by show _ % 25600 / 128 = t.val; omega)
  have eC : (⟨(25600 * w.val + 128 * t.val + r.val) % 128, by omega⟩ : Fin 128) = r := Fin.ext (by show _ % 128 = r.val; omega)
  unfold O5
  show T3 m d (ix2 (gRow (I4 m d (ix3 (⟨(25600 * w.val + 128 * t.val + r.val) / 25600, _⟩ : Fin 32)
      (⟨(25600 * w.val + 128 * t.val + r.val) % 25600 / 128, _⟩ : Fin 200) (⟨(25600 * w.val + 128 * t.val + r.val) % 128, _⟩ : Fin 128)) : BitVec 32)
      (⟨(25600 * w.val + 128 * t.val + r.val) % 128, _⟩ : Fin 128)) (⟨l.val, _⟩ : Fin 128)) = _
  rw [eA, eB, eC]

/-! ## The gather's payload -/

/-- Entry `k` of a 128-word list, in row-major order, is its word at `k`. -/
theorem a_list_at (k : Fin S128.numel) : ((S128.rowMajor.symm k) 0).val = k.val := by
  have h := Shape.rowMajor_val_one (d := ![128]) (S128.rowMajor.symm k)
  rw [← h]
  exact congrArg Fin.val (S128.rowMajor.apply_symm_apply k)

/-- THE GATHERED BUFFER: where the offset list at lane `r` is index word `(w, t, r)` plus `4 ρ(r)` and the index words
    are below 4, the gather of the shared table's rows at that list is rows `25600 w + 128 t … + 127` of the result. -/
theorem gathered_eq (w : Fin 32) (t : Fin 200) (idx : S128.Idx → Elt F .i32)
    (hn : S128.numel = S128x128.size (gathers_S256x128_S128x128).axis')
    (hin : ∀ x, (idx x : BitVec 32).toNat < S256x128.size (gathers_S256x128_S128x128).axis)
    (hfo : ∀ x : S128.Idx, (idx x : BitVec 32)
        = (I4 m d (ix3 w t (⟨(x 0).val, (x 0).isLt⟩ : Fin 128)) : BitVec 32) + BitVec.ofNat 32 (4 * rho ⟨(x 0).val, (x 0).isLt⟩))
    (h4 : ∀ l : Fin 128, (I4 m d (ix3 w t l) : BitVec 32).toNat < 4) :
    SparseCore.gatherPayload gathers_S256x128_S128x128
        (View.read (Elt F) ((shV).slice (Rect.unit (s := S256x128) ![0, 0] S256x128.size inb_S256x128_S256x128_0_0) (fun _ => rfl)).view (T3 m d))
        (SparseCore.rows idx hn hin)
      = fun x : S128x128.Idx => O5 m d (ix2 (⟨25600 * w.val + 128 * t.val + (x 0).val, a_row_lt w t ⟨(x 0).val, (x 0).isLt⟩⟩ : Fin 819200)
          (⟨(x 1).val, (x 1).isLt⟩ : Fin 128)) := by
  funext x
  rw [a_O5_at m d w t ⟨(x 0).val, (x 0).isLt⟩ ⟨(x 1).val, (x 1).isLt⟩]
  have hx4 := h4 ⟨(x 0).val, (x 0).isLt⟩
  have hfix := c_fixed_toNat (I4 m d (ix3 w t (⟨(x 0).val, (x 0).isLt⟩ : Fin 128)) : BitVec 32) ⟨(x 0).val, (x 0).isLt⟩ hx4
  rw [c_gRow_fixed _ _ hfix.2]
  show T3 m d (((shV).slice (Rect.unit (s := S256x128) ![0, 0] S256x128.size inb_S256x128_S256x128_0_0) (fun _ => rfl)).view.emb
      ((gathers_S256x128_S128x128).idx (SparseCore.rows idx hn hin) x)) = _
  refine congrArg (T3 m d) (funext fun b => Fin.ext ?_)
  match b with
  | ⟨0, _⟩ =>
    show 0 + 1 * (idx (S128.rowMajor.symm (Fin.cast hn.symm (x 0))) : BitVec 32).toNat = _
    have hk : ((S128.rowMajor.symm (Fin.cast hn.symm (x 0))) 0).val = (x 0).val := a_list_at _
    have e : (⟨((S128.rowMajor.symm (Fin.cast hn.symm (x 0))) 0).val, ((S128.rowMajor.symm (Fin.cast hn.symm (x 0))) 0).isLt⟩ : Fin 128)
        = ⟨(x 0).val, (x 0).isLt⟩ := Fin.ext hk
    have hy := hfo (S128.rowMajor.symm (Fin.cast hn.symm (x 0)))
    rw [e] at hy
    rw [hy]
    have h1 := hfix.1
    show 0 + 1 * ((I4 m d (ix3 w t (⟨(x 0).val, (x 0).isLt⟩ : Fin 128)) : BitVec 32) + BitVec.ofNat 32 (4 * rho ⟨(x 0).val, (x 0).isLt⟩)).toNat
      = (I4 m d (ix3 w t (⟨(x 0).val, (x 0).isLt⟩ : Fin 128)) : BitVec 32).toNat + 4 * rho ⟨(x 0).val, (x 0).isLt⟩
    omega
  | ⟨1, _⟩ =>
    show 0 + 1 * (x 1).val = (x 1).val
    omega

/-! ## The copy-out -/

section Landed
variable (w : Fin 32) (t : Fin 200)

/-- Element `x` of block `t` of slab `w` is row `25600 w + 128 t + x₀`, column `x₁` of the result array. -/
theorem a_oblk_emb (x : S128x128.Idx) :
    ((oV).slice (oblkR w t) (fun _ => rfl)).view.emb x
      = (ix2 (⟨25600 * w.val + 128 * t.val + (x 0).val, a_row_lt w t ⟨(x 0).val, (x 0).isLt⟩⟩ : Fin 819200)
          (⟨(x 1).val, (x 1).isLt⟩ : Fin 128) : S819200x128.Idx) := by
  funext a
  refine Fin.ext ?_
  match a with
  | ⟨0, _⟩ => show 25600 * w.val + 128 * t.val + 1 * (x 0).val = 25600 * w.val + 128 * t.val + (x 0).val; omega
  | ⟨1, _⟩ => show 0 + 1 * (x 1).val = (x 1).val; omega

/-- A row buffer written whole reads back what was written, whatever it held before. -/
theorem a_buffer_read (rw : Memref sig .scVector .vmem S128x128 .f32) (frw : rw.view.ty.Contents (Elt F)) (P : S128x128.Idx → Elt F .f32) :
    View.read (Elt F) rw.view (rw.view.writes (Elt F) frw [⟨Rect.whole S128x128, P⟩]) = P :=
  funext fun x =>
    (congrArg (View.read (Elt F) rw.view (rw.view.writes (Elt F) frw [⟨Rect.whole S128x128, P⟩])) (Rect.emb_whole_apply S128x128 x).symm).trans
      (View.read_writes_cons_emb rw.view frw (Rect.whole S128x128) P [] x)

/-- The block written whole with a payload that is the result's rows `25600 w + 128 t … + 127` holds the result there,
    whatever it held before. -/
theorem block_landed_of (c : Fin τ.nSC) (j : Fin τ.nSub) (Q : S128x128.Idx → Elt F .f32)
    (hQ : Q = fun x : S128x128.Idx => O5 m d (ix2 (⟨25600 * w.val + 128 * t.val + (x 0).val, a_row_lt w t ⟨(x 0).val, (x 0).isLt⟩⟩ : Fin 819200)
        (⟨(x 1).val, (x 1).isLt⟩ : Fin 128)))
    (fprev : Buf (Elt F) (((oV).slice (oblkR w t) (fun _ => rfl)).view.loc (V d c j))) (q : PosShare TreeShare) :
    ((((oV).slice (oblkR w t) (fun _ => rfl)).view.loc (V d c j) ↦[((oV).slice (oblkR w t) (fun _ => rfl)).view.set]{q}
        ((oV).slice (oblkR w t) (fun _ => rfl)).view.writes (Elt F) fprev [⟨Rect.whole S128x128, Q⟩]) : sProp 𝕄)
      = (((oV).slice (oblkR w t) (fun _ => rfl)).view.loc (V d c j) ↦[((oV).slice (oblkR w t) (fun _ => rfl)).view.set]{q}
          (O5 m d : Buf (Elt F) (((oV).slice (oblkR w t) (fun _ => rfl)).view.loc (V d c j)))) :=
  pointsTo_congr fun i hi => by
    obtain ⟨x, -, rfl⟩ := Finset.mem_map.mp hi
    have hx : (((oV).slice (oblkR w t) (fun _ => rfl)).view.slice (Rect.whole S128x128)).emb x
        = ((oV).slice (oblkR w t) (fun _ => rfl)).view.emb x :=
      congrArg ((oV).slice (oblkR w t) (fun _ => rfl)).view.emb (Rect.emb_whole_apply S128x128 x)
    have hw := View.write_emb_of_mem (v := ((oV).slice (oblkR w t) (fun _ => rfl)).view.slice (Rect.whole S128x128)) (Val := Elt F) fprev
      Q (M := Finset.univ) (x := x) (Finset.mem_univ x)
    rw [hx] at hw
    refine hw.trans ?_
    show Q x = O5 m d (((oV).slice (oblkR w t) (fun _ => rfl)).view.emb x)
    rw [hQ]
    exact congrArg (O5 m d) (a_oblk_emb w t x).symm

/-- THE BLOCK LANDED: a row buffer holding rows `25600 w + 128 t … + 127` of the result, read whole and copied to block
    `t` of slab `w`, leaves that block holding the result there, whatever the block and the buffer held before. -/
theorem block_landed (c : Fin τ.nSC) (j : Fin τ.nSub) (rw : Memref sig .scVector .vmem S128x128 .f32)
    (frw : rw.view.ty.Contents (Elt F)) (P : S128x128.Idx → Elt F .f32)
    (hP : P = fun x : S128x128.Idx => O5 m d (ix2 (⟨25600 * w.val + 128 * t.val + (x 0).val, a_row_lt w t ⟨(x 0).val, (x 0).isLt⟩⟩ : Fin 819200)
        (⟨(x 1).val, (x 1).isLt⟩ : Fin 128)))
    (fprev : Buf (Elt F) (((oV).slice (oblkR w t) (fun _ => rfl)).view.loc (V d c j))) (q : PosShare TreeShare) :
    ((((oV).slice (oblkR w t) (fun _ => rfl)).view.loc (V d c j) ↦[((oV).slice (oblkR w t) (fun _ => rfl)).view.set]{q}
        ((oV).slice (oblkR w t) (fun _ => rfl)).view.writes (Elt F) fprev
          [⟨Rect.whole S128x128, ReadAs.same.apply (View.read (Elt F) rw.view (rw.view.writes (Elt F) frw [⟨Rect.whole S128x128, P⟩]))⟩]) : sProp 𝕄)
      = (((oV).slice (oblkR w t) (fun _ => rfl)).view.loc (V d c j) ↦[((oV).slice (oblkR w t) (fun _ => rfl)).view.set]{q}
          (O5 m d : Buf (Elt F) (((oV).slice (oblkR w t) (fun _ => rfl)).view.loc (V d c j)))) :=
  block_landed_of m d w t c j _ ((a_buffer_read rw frw P).trans hP) fprev q

/-- The block's location and element set, as the result array's. -/
theorem a_oblk_loc (c : Fin τ.nSC) (j : Fin τ.nSub) : ((oV).slice (oblkR w t) (fun _ => rfl)).view.loc (V d c j) = v5Loc d := rfl

theorem a_oblk_set : ((oV).slice (oblkR w t) (fun _ => rfl)).view.set = (oblkR w t).set := by
  show ((View.whole (main_v5_scv : Ref sig .scVector)).slice (oblkR w t)).set = _
  rw [View.set_slice]; exact Finset.map_refl

theorem a_pts_oblk (c : Fin τ.nSC) (j : Fin τ.nSub) (q : PosShare TreeShare) (f : Buf (Elt F) (v5Loc d)) :
    ((((oV).slice (oblkR w t) (fun _ => rfl)).view.loc (V d c j) ↦[((oV).slice (oblkR w t) (fun _ => rfl)).view.set]{q} f) : sProp 𝕄)
      = (v5Loc d ↦[(oblkR w t).set]{q} f) := by
  rw [a_oblk_set]

/-- `block_landed` with the block named as elements of the result array. -/
theorem block_landed_v5 (c : Fin τ.nSC) (j : Fin τ.nSub) (rw : Memref sig .scVector .vmem S128x128 .f32)
    (frw : rw.view.ty.Contents (Elt F)) (P : S128x128.Idx → Elt F .f32)
    (hP : P = fun x : S128x128.Idx => O5 m d (ix2 (⟨25600 * w.val + 128 * t.val + (x 0).val, a_row_lt w t ⟨(x 0).val, (x 0).isLt⟩⟩ : Fin 819200)
        (⟨(x 1).val, (x 1).isLt⟩ : Fin 128)))
    (fprev : Buf (Elt F) (((oV).slice (oblkR w t) (fun _ => rfl)).view.loc (V d c j))) (q : PosShare TreeShare) :
    ((((oV).slice (oblkR w t) (fun _ => rfl)).view.loc (V d c j) ↦[((oV).slice (oblkR w t) (fun _ => rfl)).view.set]{q}
        ((oV).slice (oblkR w t) (fun _ => rfl)).view.writes (Elt F) fprev
          [⟨Rect.whole S128x128, ReadAs.same.apply (View.read (Elt F) rw.view (rw.view.writes (Elt F) frw [⟨Rect.whole S128x128, P⟩]))⟩]) : sProp 𝕄)
      = (v5Loc d ↦[(oblkR w t).set]{q} O5 m d) :=
  (block_landed m d w t c j rw frw P hP fprev q).trans (a_pts_oblk d w t c j q (O5 m d))

end Landed

end Cert.KernelIdeal.Hand

end
-- ==== Proof.Inv0.lean ====
/-
  The loop's invariant before its first trip, piece by piece.

  When the prologue ends, the four gathers by rows 0 … 3 of the index scratch are in flight, each delivering its row
  buffer written with the gather's payload, its offset list's row and a quarter share of the shared table. The rows'
  words were rewritten by the eight stores of a row fix-up, so row `b` holds the landed index words plus `4 ρ` of the
  column: the words the invariant names. Rows 4 … 7 (of the first fetch) and 8 … 199 (of the second) hold the landed
  index words, row by row.
-/
import proofs.«214982_g87402584473731_cont_9to1c4b_667_31_alg».proof.Proof.LoopInv
import proofs.«214982_g87402584473731_cont_9to1c4b_667_31_alg».proof.Proof.FixRow
import proofs.«214982_g87402584473731_cont_9to1c4b_667_31_alg».proof.Proof.Gathered
import proofs.«214982_g87402584473731_cont_9to1c4b_667_31_alg».proof.Proof.TileLemmas3
import proofs.«214982_g87402584473731_cont_9to1c4b_667_31_alg».proof.Proof.Blocks

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Inv0

variable (d : Dev nD) (L : grid1.Coords)

/-- Row `tb` rewritten: `g8` is `g0` with `4 ρ` of the column added along row `tb` (what the eight stores of a row
    fix-up leave: the conclusion of the row's closed form). -/
abbrev a_fixedAt (tb : Nat) (g0 g8 : S200x128.Idx → BitVec 32) : Prop :=
  ∀ i : S200x128.Idx, g8 i = if (i 0).val = tb then g0 i + BitVec.ofNat 32 (4 * rho ⟨(i 1).val, (i 1).isLt⟩) else g0 i

/-! ## The landed words -/

/-- In rows 0 … 7 the first fetch's landing is the index words of the subcore's slab. -/
theorem a_G0hd_eq (fixb : Buf (Elt F) ((V d (cV L) (jV L)).loc cc1_scratch0)) (i : S200x128.Idx) (h : (i 0).val < 8) :
    (G0hd m d L fixb i : BitVec 32) = b_G0 m d L i := by
  have e : (ix2 (⟨(i 0).val, by omega⟩ : Fin 200) (⟨(i 1).val, (i 1).isLt⟩ : Fin 128) : S200x128.Idx) = i := by
    funext a
    match a with
    | ⟨0, _⟩ => rfl
    | ⟨1, _⟩ => rfl
  have hb := base_read_hd m d L (cL L) (jL L) rfl rfl fixb ⟨(i 0).val, h⟩ ⟨(i 1).val, (i 1).isLt⟩
  rw [e] at hb
  exact hb

/-- The rows a list memref and a payload depend on only through what the list reads. -/
theorem a_rows_congr {idx idx' : S128.Idx → Elt F .i32} (e : idx = idx')
    (hn hn' : S128.numel = S128x128.size (gathers_S256x128_S128x128).axis')
    (hin : ∀ x, (idx x : BitVec 32).toNat < S256x128.size (gathers_S256x128_S128x128).axis)
    (hin' : ∀ x, (idx' x : BitVec 32).toNat < S256x128.size (gathers_S256x128_S128x128).axis) :
    SparseCore.rows idx hn hin = SparseCore.rows idx' hn' hin' := by
  subst e; rfl

/-! ## A gather in flight by one of rows 0 … 7, restated at the invariant's words -/

/-- On row `t` (one of the first eight) the rewritten scratch holds the invariant's fixed words. -/
theorem a_g8_eq_FX (fixb : Buf (Elt F) ((V d (cV L) (jV L)).loc cc1_scratch0)) (t : Fin 200) (ht : t.val < 8)
    (g8 : S200x128.Idx → BitVec 32) (hc : a_fixedAt t.val (G0hd m d L fixb) g8) (i : S200x128.Idx) (hi : i ∈ (ixRowR t).set) :
    g8 i = b_FX m d L i := by
  have h0 : (i 0).val = t.val := (mem_ixRow t i).mp hi
  rw [hc i, if_pos h0, a_G0hd_eq m d L fixb i (by omega)]
  rfl

/-- The elements a row's list memref addresses are the row's. -/
theorem a_rowM_set (t : Fin 200) : (b_rowM t).view.set = (ixRowR t).set := set_ixRow _ _

/-- The list's row memref, read over the rewritten scratch, reads the invariant's fixed words. -/
theorem a_read_row_eq (fixb : Buf (Elt F) ((V d (cV L) (jV L)).loc cc1_scratch0)) (t : Fin 200) (ht : t.val < 8)
    (g8 : S200x128.Idx → BitVec 32) (hc : a_fixedAt t.val (G0hd m d L fixb) g8) :
    View.read (Elt F) (b_rowM t).view g8 = View.read (Elt F) (b_rowM t).view (b_FX m d L) := by
  funext x
  show g8 ((b_rowM t).view.emb x) = b_FX m d L ((b_rowM t).view.emb x)
  refine a_g8_eq_FX m d L fixb t ht g8 hc _ ?_
  have hm : (b_rowM t).view.emb x ∈ (b_rowM t).view.set := Finset.mem_map_of_mem _ (Finset.mem_univ x)
  rw [a_rowM_set] at hm
  exact hm

/-- A gather in flight by list row `t` (one of the first eight) over the rewritten scratch delivers what the invariant's
    flight by row `t` delivers: the same payload (the list reads the same words), the list's row at the fixed words, the
    shared table's share. -/
theorem a_flight0 (rw : Memref sig .scVector .vmem S128x128 .f32) (sem : DmaSem sig) (q : PosShare TreeShare)
    (fixb : Buf (Elt F) ((V d (cV L) (jV L)).loc cc1_scratch0)) (frw : rw.view.ty.Contents (Elt F))
    (t : Fin 200) (ht : t.val < 8) (g8 : S200x128.Idx → BitVec 32) (hc : a_fixedAt t.val (G0hd m d L fixb) g8)
    (hn : S128.numel = S128x128.size (gathers_S256x128_S128x128).axis')
    (hin : ∀ x, (View.read (Elt F) (b_rowM t).view g8 x : BitVec 32).toNat < 256)
    (hfx : ∀ (t : Fin 200) x, (View.read (Elt F) (b_rowM t).view (b_FX m d L) x : BitVec 32).toNat < 256) :
    (Transfers.Flight countersEmb (V d (cV L) (jV L)) (SemLoc.dma sem) (default : HIx 1) 524288
        iprop(((rw.view.loc (V d (cV L) (jV L)) ↦[rw.view.set]{fullShare} rw.view.writes (Elt F) frw [⟨Rect.whole S128x128,
              SparseCore.gatherPayload gathers_S256x128_S128x128 (View.read (Elt F) (b_shW).view (T3 m d : Buf (Elt F) (shLoc d (cV L))))
                (SparseCore.rows (View.read (Elt F) (b_rowM t).view g8) hn hin)⟩])
            ∗ ((b_rowM t).view.loc (V d (cV L) (jV L)) ↦[(b_rowM t).view.set]{fullShare} g8))
          ∗ ((shV).view.loc (V d (cV L) (jV L)) ↦[(b_shW).view.set]{q} T3 m d)) : sProp 𝕄)
      ⊢ Transfers.Flight countersEmb (V d (cV L) (jV L)) (SemLoc.dma sem) (default : HIx 1) 524288
        iprop(((rw.view.loc (V d (cV L) (jV L)) ↦[rw.view.set]{fullShare} rw.view.writes (Elt F) frw [⟨Rect.whole S128x128, b_pay (m := m) d L (b_FX m d L) hfx t⟩])
            ∗ ((b_rowM t).view.loc (V d (cV L) (jV L)) ↦[(b_rowM t).view.set]{fullShare} b_FX m d L))
          ∗ ((b_shW).view.loc (V d (cV L) (jV L)) ↦[(b_shW).view.set]{q} T3 m d)) := by
  refine Transfers.Flight_mono _ _ (Entails.of_eq ?_)
  have hp : SparseCore.gatherPayload gathers_S256x128_S128x128 (View.read (Elt F) (b_shW).view (T3 m d : Buf (Elt F) (shLoc d (cV L))))
        (SparseCore.rows (View.read (Elt F) (b_rowM t).view g8) hn hin) = b_pay (m := m) d L (b_FX m d L) hfx t := by
    unfold b_pay
    rw [a_rows_congr (a_read_row_eq m d L fixb t ht g8 hc) hn rfl hin (hfx t)]
  have hl : ((b_rowM t).view.loc (V d (cV L) (jV L)) ↦[(b_rowM t).view.set]{fullShare} (g8 : Buf (Elt F) ((V d (cV L) (jV L)).loc cc1_scratch0)) : sProp 𝕄)
      = ((b_rowM t).view.loc (V d (cV L) (jV L)) ↦[(b_rowM t).view.set]{fullShare} b_FX m d L) :=
    pointsTo_congr fun i hi => by
      rw [a_rowM_set] at hi
      exact a_g8_eq_FX m d L fixb t ht g8 hc i hi
  rw [hp, hl]

/-- Slot 0: the gather by row 0, in flight when the prologue ends, is the invariant's flight of slot 0 before the first trip. -/
theorem flight0_0 (fixb : Buf (Elt F) ((V d (cV L) (jV L)).loc cc1_scratch0)) (frw : Buf (Elt F) ((V d (cV L) (jV L)).loc cc1_scratch1))
    (g8 : Buf (Elt F) ((V d (cV L) (jV L)).loc cc1_scratch0)) (hc : a_fixedAt 0 (G0hd m d L fixb) g8)
    (hn : S128.numel = S128x128.size (gathers_S256x128_S128x128).axis')
    (hin : ∀ x, (View.read (Elt F) (ixRow0).view g8 x : BitVec 32).toNat < 256)
    (hfx : ∀ (t : Fin 200) x, (View.read (Elt F) (b_rowM t).view (b_FX m d L) x : BitVec 32).toNat < 256) :
    (Transfers.Flight countersEmb (V d (cV L) (jV L)) (SemLoc.dma (⟨4, by decide⟩ : DmaSem sig)) (default : HIx 1) 524288
        iprop((((rwS0).view.loc (V d (cV L) (jV L)) ↦[(rwS0).view.set]{fullShare} (rwS0).view.writes (Elt F) frw [⟨Rect.whole S128x128,
              SparseCore.gatherPayload gathers_S256x128_S128x128 (View.read (Elt F) (b_shW).view (T3 m d : Buf (Elt F) (shLoc d (cV L))))
                (SparseCore.rows (View.read (Elt F) (ixRow0).view g8) hn hin)⟩])
            ∗ ((ixRow0).view.loc (V d (cV L) (jV L)) ↦[(ixRow0).view.set]{fullShare} g8))
          ∗ ((shV).view.loc (V d (cV L) (jV L)) ↦[(b_shW).view.set]{gshare L 0} T3 m d)) : sProp 𝕄)
      ⊢ b_fl0 m d L (b_FX m d L) frw hfx (b_row (4 * 0 + 0)) :=
  a_flight0 m d L rwS0 ⟨4, by decide⟩ (gshare L 0) fixb frw (b_row (4 * 0 + 0)) (by decide) g8 hc hn hin hfx

/-- Slot 1: the gather by row 1, in flight when the prologue ends, is the invariant's flight of slot 1 before the first trip. -/
theorem flight0_1 (fixb : Buf (Elt F) ((V d (cV L) (jV L)).loc cc1_scratch0)) (frw : Buf (Elt F) ((V d (cV L) (jV L)).loc cc1_scratch1))
    (g8 : Buf (Elt F) ((V d (cV L) (jV L)).loc cc1_scratch0)) (hc : a_fixedAt 1 (G0hd m d L fixb) g8)
    (hn : S128.numel = S128x128.size (gathers_S256x128_S128x128).axis')
    (hin : ∀ x, (View.read (Elt F) (ixRow1).view g8 x : BitVec 32).toNat < 256)
    (hfx : ∀ (t : Fin 200) x, (View.read (Elt F) (b_rowM t).view (b_FX m d L) x : BitVec 32).toNat < 256) :
    (Transfers.Flight countersEmb (V d (cV L) (jV L)) (SemLoc.dma (⟨5, by decide⟩ : DmaSem sig)) (default : HIx 1) 524288
        iprop((((rwS1).view.loc (V d (cV L) (jV L)) ↦[(rwS1).view.set]{fullShare} (rwS1).view.writes (Elt F) frw [⟨Rect.whole S128x128,
              SparseCore.gatherPayload gathers_S256x128_S128x128 (View.read (Elt F) (b_shW).view (T3 m d : Buf (Elt F) (shLoc d (cV L))))
                (SparseCore.rows (View.read (Elt F) (ixRow1).view g8) hn hin)⟩])
            ∗ ((ixRow1).view.loc (V d (cV L) (jV L)) ↦[(ixRow1).view.set]{fullShare} g8))
          ∗ ((shV).view.loc (V d (cV L) (jV L)) ↦[(b_shW).view.set]{gshare L 1} T3 m d)) : sProp 𝕄)
      ⊢ b_fl1 m d L (b_FX m d L) frw hfx (b_row (4 * 0 + 1)) :=
  a_flight0 m d L rwS1 ⟨5, by decide⟩ (gshare L 1) fixb frw (b_row (4 * 0 + 1)) (by decide) g8 hc hn hin hfx

/-- Slot 2: the gather by row 2, in flight when the prologue ends, is the invariant's flight of slot 2 before the first trip. -/
theorem flight0_2 (fixb : Buf (Elt F) ((V d (cV L) (jV L)).loc cc1_scratch0)) (frw : Buf (Elt F) ((V d (cV L) (jV L)).loc cc1_scratch1))
    (g8 : Buf (Elt F) ((V d (cV L) (jV L)).loc cc1_scratch0)) (hc : a_fixedAt 2 (G0hd m d L fixb) g8)
    (hn : S128.numel = S128x128.size (gathers_S256x128_S128x128).axis')
    (hin : ∀ x, (View.read (Elt F) (ixRow2).view g8 x : BitVec 32).toNat < 256)
    (hfx : ∀ (t : Fin 200) x, (View.read (Elt F) (b_rowM t).view (b_FX m d L) x : BitVec 32).toNat < 256) :
    (Transfers.Flight countersEmb (V d (cV L) (jV L)) (SemLoc.dma (⟨6, by decide⟩ : DmaSem sig)) (default : HIx 1) 524288
        iprop((((rwS2).view.loc (V d (cV L) (jV L)) ↦[(rwS2).view.set]{fullShare} (rwS2).view.writes (Elt F) frw [⟨Rect.whole S128x128,
              SparseCore.gatherPayload gathers_S256x128_S128x128 (View.read (Elt F) (b_shW).view (T3 m d : Buf (Elt F) (shLoc d (cV L))))
                (SparseCore.rows (View.read (Elt F) (ixRow2).view g8) hn hin)⟩])
            ∗ ((ixRow2).view.loc (V d (cV L) (jV L)) ↦[(ixRow2).view.set]{fullShare} g8))
          ∗ ((shV).view.loc (V d (cV L) (jV L)) ↦[(b_shW).view.set]{gshare L 2} T3 m d)) : sProp 𝕄)
      ⊢ b_fl2 m d L (b_FX m d L) frw hfx (b_row (4 * 0 + 2)) :=
  a_flight0 m d L rwS2 ⟨6, by decide⟩ (gshare L 2) fixb frw (b_row (4 * 0 + 2)) (by decide) g8 hc hn hin hfx

/-- Slot 3: the gather by row 3, in flight when the prologue ends, is the invariant's flight of slot 3 before the first trip. -/
theorem flight0_3 (fixb : Buf (Elt F) ((V d (cV L) (jV L)).loc cc1_scratch0)) (frw : Buf (Elt F) ((V d (cV L) (jV L)).loc cc1_scratch1))
    (g8 : Buf (Elt F) ((V d (cV L) (jV L)).loc cc1_scratch0)) (hc : a_fixedAt 3 (G0hd m d L fixb) g8)
    (hn : S128.numel = S128x128.size (gathers_S256x128_S128x128).axis')
    (hin : ∀ x, (View.read (Elt F) (ixRow3).view g8 x : BitVec 32).toNat < 256)
    (hfx : ∀ (t : Fin 200) x, (View.read (Elt F) (b_rowM t).view (b_FX m d L) x : BitVec 32).toNat < 256) :
    (Transfers.Flight countersEmb (V d (cV L) (jV L)) (SemLoc.dma (⟨7, by decide⟩ : DmaSem sig)) (default : HIx 1) 524288
        iprop((((rwS3).view.loc (V d (cV L) (jV L)) ↦[(rwS3).view.set]{fullShare} (rwS3).view.writes (Elt F) frw [⟨Rect.whole S128x128,
              SparseCore.gatherPayload gathers_S256x128_S128x128 (View.read (Elt F) (b_shW).view (T3 m d : Buf (Elt F) (shLoc d (cV L))))
                (SparseCore.rows (View.read (Elt F) (ixRow3).view g8) hn hin)⟩])
            ∗ ((ixRow3).view.loc (V d (cV L) (jV L)) ↦[(ixRow3).view.set]{fullShare} g8))
          ∗ ((shV).view.loc (V d (cV L) (jV L)) ↦[(b_shW).view.set]{gshare L 3} T3 m d)) : sProp 𝕄)
      ⊢ b_fl3 m d L (b_FX m d L) frw hfx (b_row (4 * 0 + 3)) :=
  a_flight0 m d L rwS3 ⟨7, by decide⟩ (gshare L 3) fixb frw (b_row (4 * 0 + 3)) (by decide) g8 hc hn hin hfx

/-! ## The fixed words are table rows -/

/-- (I1) Every fixed word is below 256: an index word below 4 plus `4 ρ` of its column, `ρ < 64`. -/
theorem FX_hfx (hpre : PreOK m) :
    ∀ (t : Fin 200) x, (View.read (Elt F) (b_rowM t).view (b_FX m d L) x : BitVec 32).toNat < 256 := by
  intro t x
  have h := c_fixed_toNat (b_G0 m d L ((b_rowM t).view.emb x) : BitVec 32)
    ⟨(((b_rowM t).view.emb x) 1).val, (((b_rowM t).view.emb x) 1).isLt⟩ (by unfold b_G0; exact I4_lt4 m d hpre _)
  exact lt_of_eq_of_lt h.1 h.2

/-! ## The rows not yet worked on -/

/-- A row number below 200, folded, is itself. -/
theorem a_row_val (t : Nat) (ht : t < 200) : (b_row t).val = t := Nat.mod_eq_of_lt ht

/-- What is left of the first eight rows once rows 0 … 3 are carved out, with the last 192: the rows from 4 on. -/
theorem a_rest_rows :
    (((((ixHd).view.set \ ixRow0R.set) \ ixRow1R.set) \ ixRow2R.set) \ ixRow3R.set) ∪ (ixTl).view.set
      = ((Finset.range 200).filter fun t => 4 * 0 + 4 ≤ t).biUnion fun t => (ixRowR (b_row t)).set := by
  ext i
  have h0 : (i 0).val < 200 := (i 0).isLt
  rw [Finset.mem_union, Finset.mem_sdiff, Finset.mem_sdiff, Finset.mem_sdiff, Finset.mem_sdiff, set_ixHd, set_ixTl, mem_ixHd, mem_ixTl,
    Finset.mem_biUnion]
  have r0 : i ∈ ixRow0R.set ↔ (i 0).val = 0 := by rw [mem_unit2]; simp; omega
  have r1 : i ∈ ixRow1R.set ↔ (i 0).val = 1 := by rw [mem_unit2]; simp; omega
  have r2 : i ∈ ixRow2R.set ↔ (i 0).val = 2 := by rw [mem_unit2]; simp; omega
  have r3 : i ∈ ixRow3R.set ↔ (i 0).val = 3 := by rw [mem_unit2]; simp; omega
  rw [r0, r1, r2, r3]
  constructor
  · intro h
    refine ⟨(i 0).val, Finset.mem_filter.mpr ⟨Finset.mem_range.mpr h0, by omega⟩, (mem_ixRow _ i).mpr ?_⟩
    rw [a_row_val _ h0]
  · rintro ⟨t, ht, hi⟩
    have ht' := Finset.mem_filter.mp ht
    have htl : t < 200 := Finset.mem_range.mp ht'.1
    rw [mem_ixRow, a_row_val _ htl] at hi
    have := ht'.2
    omega

theorem a_rest_disjoint :
    Disjoint (((((ixHd).view.set \ ixRow0R.set) \ ixRow1R.set) \ ixRow2R.set) \ ixRow3R.set) (ixTl).view.set := by
  rw [Finset.disjoint_left]
  intro i hi ht
  have hh : i ∈ (ixHd).view.set := (Finset.mem_sdiff.mp (Finset.mem_sdiff.mp (Finset.mem_sdiff.mp (Finset.mem_sdiff.mp hi).1).1).1).1
  rw [set_ixHd, mem_ixHd] at hh
  rw [set_ixTl, mem_ixTl] at ht
  omega

/-- In rows 8 … 199 the second fetch's landing is the index words of the subcore's slab. -/
theorem a_G0tl_eq (f : (ixTl).view.ty.Contents (Elt F)) (i : S200x128.Idx) (h : 8 ≤ (i 0).val) :
    ((ixTl).view.writes (Elt F) f [⟨Rect.whole S192x128, ReadAs.same.apply (View.read (Elt F) (iTl L).view (I4 m d))⟩] i : BitVec 32)
      = b_G0 m d L i := by
  have e : (ix2 (⟨(i 0).val, (i 0).isLt⟩ : Fin 200) (⟨(i 1).val, (i 1).isLt⟩ : Fin 128) : S200x128.Idx) = i := by
    funext a
    match a with
    | ⟨0, _⟩ => rfl
    | ⟨1, _⟩ => rfl
  have hb := base_read_tl m d L (cL L) (jL L) rfl rfl f (i 0).val h (i 0).isLt ⟨(i 1).val, (i 1).isLt⟩
  rw [e] at hb
  exact hb

/-- (I2) When the prologue ends, what it holds of the index scratch beyond rows 0 … 3 — the rest of the first fetch's
    rows and the second fetch's — is rows 4 … 199 at the landed index words, row by row. -/
theorem inv0_rows (fixb : Buf (Elt F) ((V d (cV L) (jV L)).loc cc1_scratch0)) :
    (iprop(((ixHd).view.loc (V d (cV L) (jV L)) ↦[((((ixHd).view.set \ ixRow0R.set) \ ixRow1R.set) \ ixRow2R.set) \ ixRow3R.set]{fullShare} G0hd m d L fixb)
        ∗ ((ixTl).view.loc (V d (cV L) (jV L)) ↦[(ixTl).view.set]{fullShare}
            (ixTl).view.writes (Elt F) (ixTl).view.junk [⟨Rect.whole S192x128, ReadAs.same.apply (View.read (Elt F) (iTl L).view (I4 m d))⟩])) : sProp 𝕄)
      ⊢ (bigSep ((Finset.range 200).filter fun t => 4 * 0 + 4 ≤ t) fun t =>
          (V d (cV L) (jV L)).loc cc1_scratch0 ↦[(ixRowR (b_row t)).set]{fullShare} b_G0 m d L : sProp 𝕄) := by
  have hh : ((ixHd).view.loc (V d (cV L) (jV L)) ↦[((((ixHd).view.set \ ixRow0R.set) \ ixRow1R.set) \ ixRow2R.set) \ ixRow3R.set]{fullShare}
        G0hd m d L fixb : sProp 𝕄)
      = ((V d (cV L) (jV L)).loc cc1_scratch0 ↦[((((ixHd).view.set \ ixRow0R.set) \ ixRow1R.set) \ ixRow2R.set) \ ixRow3R.set]{fullShare} b_G0 m d L) :=
    pointsTo_congr fun i hi => by
      have hm : i ∈ (ixHd).view.set := (Finset.mem_sdiff.mp (Finset.mem_sdiff.mp (Finset.mem_sdiff.mp (Finset.mem_sdiff.mp hi).1).1).1).1
      rw [set_ixHd, mem_ixHd] at hm
      exact a_G0hd_eq m d L fixb i hm
  have ht : ((ixTl).view.loc (V d (cV L) (jV L)) ↦[(ixTl).view.set]{fullShare}
        (ixTl).view.writes (Elt F) (ixTl).view.junk [⟨Rect.whole S192x128, ReadAs.same.apply (View.read (Elt F) (iTl L).view (I4 m d))⟩] : sProp 𝕄)
      = ((V d (cV L) (jV L)).loc cc1_scratch0 ↦[(ixTl).view.set]{fullShare} b_G0 m d L) :=
    pointsTo_congr fun i hi => by
      rw [set_ixTl, mem_ixTl] at hi
      exact a_G0tl_eq m d L _ i hi
  rw [hh, ht, ← pointsTo_biUnion _ _ (fun t ht t' ht' hne => ixRows_disjoint _ (Finset.mem_univ _) _ (Finset.mem_univ _) (fun e => hne (by
      have h1 := Finset.mem_range.mp (Finset.mem_filter.mp ht).1
      have h2 := Finset.mem_range.mp (Finset.mem_filter.mp ht').1
      have := congrArg Fin.val e
      rw [a_row_val _ h1, a_row_val _ h2] at this
      exact this))), ← a_rest_rows]
  exact (pointsTo_union a_rest_disjoint).2

end Inv0

end Cert.KernelIdeal.Hand

end
-- ==== Proof.Epilogue.lean ====
/-
  The end of a subcore's task: from the loop's exit to the last wait.

  When the loop ends, rows 0 … 195 of the subcore's 200 have been written out, and four gathers are in flight, one per
  row buffer, for rows 196 … 199. For each slot in turn the subcore waits for the gather, copies the row buffer out to
  its block of the result (blocks 196 … 199 of the slab) and waits for that copy. Afterwards it holds again the four row
  buffers, the four offset lists and the four shares of the shared table the gathers read; the four blocks hold the
  result's rows, provided what each gather left in its row buffer is those rows; and all eight semaphores are back at
  zero.
-/
import proofs.«214982_g87402584473731_cont_9to1c4b_667_31_alg».proof.Proof.TileLemmas
import proofs.«214982_g87402584473731_cont_9to1c4b_667_31_alg».proof.Proof.Blocks

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Epi

variable (d : Dev nD) (L : grid1.Coords)

/-- The slab's base row as the program computes it. -/
abbrev c_v2 (L : grid1.Coords) : BitVec 32 :=
  Scalar.muli (Scalar.addi (Scalar.muli (BitVec.ofNat 32 (L 1).val) 2#32) (BitVec.ofNat 32 (L 0).val)) 25600#32

local notation "c_shG" => (Memref.slice shV (Rect.unit (s := S256x128) ![0, 0] S256x128.size inb_S256x128_S256x128_0_0) (fun _ => rfl))

/-- The last four blocks of the result slab, as the program slices them. -/
local notation "c_oB0" L => (Memref.slice oV (Rect.unit (s := S819200x128) (k1_off15 L 25088#32) S128x128.size (k1_off15_inb L 0)) (fun _ => rfl))
local notation "c_oB1" L => (Memref.slice oV (Rect.unit (s := S819200x128) (k1_off15 L 25216#32) S128x128.size (k1_off15_inb L 1)) (fun _ => rfl))
local notation "c_oB2" L => (Memref.slice oV (Rect.unit (s := S819200x128) (k1_off15 L 25344#32) S128x128.size (k1_off15_inb L 2)) (fun _ => rfl))
local notation "c_oB3" L => (Memref.slice oV (Rect.unit (s := S819200x128) (k1_off15 L 25472#32) S128x128.size (k1_off15_inb L 3)) (fun _ => rfl))

/-- From the loop's exit to the end. -/
def c_epiProg (L : grid1.Coords) : Prog (TpuEff nD τ sig (Elt F) Λ₀ (.scVector ((L 0).castLE hcore1) ((L 1).castLE hsub1))) PUnit := do
  SparseCore.waitIndirectGather ((cc1_scratch3.slice (Rect.unit (s := S4) ![0] S1.size inb_S4_S1_0)).squeeze S_ squeezes_S1_S_).sem c_shG rwS0
    (View.wordExact_bits rfl) ((View.wordExact_bits rfl).reshape _ _)
  k1_part28 L iV (Memref.isWhole_whole _) tV (Memref.isWhole_whole _) oV (Memref.isWhole_whole _) ixV (Memref.isWhole_whole _) rwV (Memref.isWhole_whole _)
    shV (Memref.isWhole_whole _) cc1_scratch3 cc1_scratch4 cc1_scratch5 cc1_scoped0 cc1_scoped1 (c_v2 L) 25088#32
  k1_part29 L iV (Memref.isWhole_whole _) tV (Memref.isWhole_whole _) oV (Memref.isWhole_whole _) ixV (Memref.isWhole_whole _) rwV (Memref.isWhole_whole _)
    shV (Memref.isWhole_whole _) cc1_scratch3 cc1_scratch4 cc1_scratch5 cc1_scoped0 cc1_scoped1 (c_v2 L)
  k1_part30 L iV (Memref.isWhole_whole _) tV (Memref.isWhole_whole _) oV (Memref.isWhole_whole _) ixV (Memref.isWhole_whole _) rwV (Memref.isWhole_whole _)
    shV (Memref.isWhole_whole _) cc1_scratch3 cc1_scratch4 cc1_scratch5 cc1_scoped0 cc1_scoped1 (c_v2 L)
  Prog.lift (.waitDma2 ((cc1_scratch4.slice (Rect.unit (s := S4) ![3] S1.size inb_S4_S1_3)).squeeze S_ squeezes_S1_S_).sem rwS3 (c_oB3 L)
    ((View.wordExact_bits rfl).reshape _ _) (View.wordExact_bits rfl))
  pure ⟨⟩

/-- A gather in flight on semaphore `k`: when it lands, the row buffer at the gathered rows, the offset list, and the share of the
    shared table it read (held through the gather's own view of the shared memory). -/
abbrev c_gFlight (k : Fin 15) (dst : Memref sig .scVector .vmem S128x128 .f32) (G : Buf (Elt F) (dst.view.loc (V d (cV L) (jV L))))
    (lst : Memref sig .scVector .vmem S128 .i32) (l : Buf (Elt F) (lst.view.loc (V d (cV L) (jV L)))) (q : PosShare TreeShare) : sProp 𝕄 :=
  Transfers.Flight countersEmb (V d (cV L) (jV L)) (SemLoc.dma k) (default : HIx 1) 524288
    iprop(((dst.view.loc (V d (cV L) (jV L)) ↦[dst.view.set]{fullShare} G) ∗ (lst.view.loc (V d (cV L) (jV L)) ↦[lst.view.set]{fullShare} l))
      ∗ ((c_shG).view.loc (V d (cV L) (jV L)) ↦[(c_shG).view.set]{q} (T3 m d : Buf (Elt F) (shLoc d (cV L)))))

/-- A block of the result written whole with a payload holds, element by element, what the payload says, whatever it held before. -/
theorem c_blk_landed (off : Fin 2 → Nat) (inb : ∀ a, off a + S128x128.size a ≤ S819200x128.size a) (c : Fin τ.nSC) (j : Fin τ.nSub)
    (Q : S128x128.Idx → Elt F .f32) (f' : Buf (Elt F) (v5Loc d))
    (hQ : ∀ x : S128x128.Idx, Q x = f' ((Memref.slice oV (Rect.unit (s := S819200x128) off S128x128.size inb) (fun _ => rfl)).view.emb x))
    (fprev : Buf (Elt F) ((Memref.slice oV (Rect.unit (s := S819200x128) off S128x128.size inb) (fun _ => rfl)).view.loc (V d c j))) (q : PosShare TreeShare) :
    (((Memref.slice oV (Rect.unit (s := S819200x128) off S128x128.size inb) (fun _ => rfl)).view.loc (V d c j)
        ↦[(Memref.slice oV (Rect.unit (s := S819200x128) off S128x128.size inb) (fun _ => rfl)).view.set]{q}
        (Memref.slice oV (Rect.unit (s := S819200x128) off S128x128.size inb) (fun _ => rfl)).view.writes (Elt F) fprev [⟨Rect.whole S128x128, Q⟩]) : sProp 𝕄)
      = ((Memref.slice oV (Rect.unit (s := S819200x128) off S128x128.size inb) (fun _ => rfl)).view.loc (V d c j)
          ↦[(Memref.slice oV (Rect.unit (s := S819200x128) off S128x128.size inb) (fun _ => rfl)).view.set]{q}
          (f' : Buf (Elt F) ((Memref.slice oV (Rect.unit (s := S819200x128) off S128x128.size inb) (fun _ => rfl)).view.loc (V d c j)))) :=
  pointsTo_congr fun i hi => by
    obtain ⟨x, -, rfl⟩ := Finset.mem_map.mp hi
    have hx : ((Memref.slice oV (Rect.unit (s := S819200x128) off S128x128.size inb) (fun _ => rfl)).view.slice (Rect.whole S128x128)).emb x
        = (Memref.slice oV (Rect.unit (s := S819200x128) off S128x128.size inb) (fun _ => rfl)).view.emb x :=
      congrArg (Memref.slice oV (Rect.unit (s := S819200x128) off S128x128.size inb) (fun _ => rfl)).view.emb (Rect.emb_whole_apply S128x128 x)
    have hw := View.write_emb_of_mem (v := (Memref.slice oV (Rect.unit (s := S819200x128) off S128x128.size inb) (fun _ => rfl)).view.slice (Rect.whole S128x128))
      (Val := Elt F) fprev Q (M := Finset.univ) (x := x) (Finset.mem_univ x)
    rw [hx] at hw
    exact hw.trans (hQ x)

set_option maxHeartbeats 4000000 in
theorem c_epilogue' (O : CellTallies nD τ sig (HIx 1)) (W : Waits sig (HIx 1))
    (G0 G1 G2 G3 : Buf (Elt F) ((V d (cV L) (jV L)).loc cc1_scratch1)) (lst0 lst1 lst2 lst3 : Memref sig .scVector .vmem S128 .i32)
    (l0 : Buf (Elt F) (lst0.view.loc (V d (cV L) (jV L)))) (l1 : Buf (Elt F) (lst1.view.loc (V d (cV L) (jV L))))
    (l2 : Buf (Elt F) (lst2.view.loc (V d (cV L) (jV L)))) (l3 : Buf (Elt F) (lst3.view.loc (V d (cV L) (jV L))))
    (q0 q1 q2 q3 : PosShare TreeShare) (fo : Buf (Elt F) (v5Loc d))
    (hv0 : ∀ x : S128x128.Idx, ReadAs.same.apply (View.read (Elt F) (rwS0).view G0) x = (O5 m d : Buf (Elt F) (v5Loc d)) ((c_oB0 L).view.emb x))
    (hv1 : ∀ x : S128x128.Idx, ReadAs.same.apply (View.read (Elt F) (rwS1).view G1) x = (O5 m d : Buf (Elt F) (v5Loc d)) ((c_oB1 L).view.emb x))
    (hv2 : ∀ x : S128x128.Idx, ReadAs.same.apply (View.read (Elt F) (rwS2).view G2) x = (O5 m d : Buf (Elt F) (v5Loc d)) ((c_oB2 L).view.emb x))
    (hv3 : ∀ x : S128x128.Idx, ReadAs.same.apply (View.read (Elt F) (rwS3).view G3) x = (O5 m d : Buf (Elt F) (v5Loc d)) ((c_oB3 L).view.emb x)) :
    iprop(Transfers.MayWaits (V d (cV L) (jV L)) (default : HIx 1) O
        ∗ c_gFlight (F := F) m d L 4 rwS0 G0 lst0 l0 q0 ∗ c_gFlight (F := F) m d L 5 rwS1 G1 lst1 l1 q1 ∗ c_gFlight (F := F) m d L 6 rwS2 G2 lst2 l2 q2 ∗ c_gFlight (F := F) m d L 7 rwS3 G3 lst3 l3 q3
        ∗ semVal (dcell d (cV L) (jV L) 8) 0 ∗ semVal (dcell d (cV L) (jV L) 9) 0 ∗ semVal (dcell d (cV L) (jV L) 10) 0 ∗ semVal (dcell d (cV L) (jV L) 11) 0
        ∗ ((c_oB0 L).view.loc (V d (cV L) (jV L)) ↦[(c_oB0 L).view.set]{fullShare} fo)
        ∗ ((c_oB1 L).view.loc (V d (cV L) (jV L)) ↦[(c_oB1 L).view.set]{fullShare} fo)
        ∗ ((c_oB2 L).view.loc (V d (cV L) (jV L)) ↦[(c_oB2 L).view.set]{fullShare} fo)
        ∗ ((c_oB3 L).view.loc (V d (cV L) (jV L)) ↦[(c_oB3 L).view.set]{fullShare} fo)
        ∗ owes (V d (cV L) (jV L)) O W)
      ⊢ wp frame (wpE (defs₀ (F := F)) 𝒱₀ (V d (cV L) (jV L)) none) Set.univ (c_epiProg (F := F) L) fun _ =>
          iprop(((rwS0).view.loc (V d (cV L) (jV L)) ↦[(rwS0).view.set]{fullShare} G0) ∗ ((rwS1).view.loc (V d (cV L) (jV L)) ↦[(rwS1).view.set]{fullShare} G1)
            ∗ ((rwS2).view.loc (V d (cV L) (jV L)) ↦[(rwS2).view.set]{fullShare} G2) ∗ ((rwS3).view.loc (V d (cV L) (jV L)) ↦[(rwS3).view.set]{fullShare} G3)
            ∗ (lst0.view.loc (V d (cV L) (jV L)) ↦[lst0.view.set]{fullShare} l0) ∗ (lst1.view.loc (V d (cV L) (jV L)) ↦[lst1.view.set]{fullShare} l1)
            ∗ (lst2.view.loc (V d (cV L) (jV L)) ↦[lst2.view.set]{fullShare} l2) ∗ (lst3.view.loc (V d (cV L) (jV L)) ↦[lst3.view.set]{fullShare} l3)
            ∗ ((c_shG).view.loc (V d (cV L) (jV L)) ↦[(c_shG).view.set]{q0} (T3 m d : Buf (Elt F) (shLoc d (cV L))))
            ∗ ((c_shG).view.loc (V d (cV L) (jV L)) ↦[(c_shG).view.set]{q1} (T3 m d : Buf (Elt F) (shLoc d (cV L))))
            ∗ ((c_shG).view.loc (V d (cV L) (jV L)) ↦[(c_shG).view.set]{q2} (T3 m d : Buf (Elt F) (shLoc d (cV L))))
            ∗ ((c_shG).view.loc (V d (cV L) (jV L)) ↦[(c_shG).view.set]{q3} (T3 m d : Buf (Elt F) (shLoc d (cV L))))
            ∗ ((c_oB0 L).view.loc (V d (cV L) (jV L)) ↦[(c_oB0 L).view.set]{fullShare} (O5 m d : Buf (Elt F) (v5Loc d)))
            ∗ ((c_oB1 L).view.loc (V d (cV L) (jV L)) ↦[(c_oB1 L).view.set]{fullShare} (O5 m d : Buf (Elt F) (v5Loc d)))
            ∗ ((c_oB2 L).view.loc (V d (cV L) (jV L)) ↦[(c_oB2 L).view.set]{fullShare} (O5 m d : Buf (Elt F) (v5Loc d)))
            ∗ ((c_oB3 L).view.loc (V d (cV L) (jV L)) ↦[(c_oB3 L).view.set]{fullShare} (O5 m d : Buf (Elt F) (v5Loc d)))
            ∗ semVal (dcell d (cV L) (jV L) 4) 0 ∗ semVal (dcell d (cV L) (jV L) 5) 0 ∗ semVal (dcell d (cV L) (jV L) 6) 0 ∗ semVal (dcell d (cV L) (jV L) 7) 0
            ∗ semVal (dcell d (cV L) (jV L) 8) 0 ∗ semVal (dcell d (cV L) (jV L) 9) 0 ∗ semVal (dcell d (cV L) (jV L) 10) 0 ∗ semVal (dcell d (cV L) (jV L) 11) 0
            ∗ ∃ W', ⌜∀ p ∈ W', p ∈ W ∨ p.2 = none⌝ ∗ owes (V d (cV L) (jV L)) O W') := by
  unfold c_epiProg
  rw [k1_part28_eq_skeleton, k1_part29_eq_skeleton, k1_part30_eq_skeleton]; unfold k1_part28_skel k1_part29_skel k1_part30_skel
  unfold c_gFlight
  iintro ⟨#Hmw2, Hf4, Hf5, Hf6, Hf7, Hs8, Hs9, Hs10, Hs11, Hb0, Hb1, Hb2, Hb3, HO⟩
  sl_exec
  icases Hf4_dst with ⟨Hrw0, Hl0⟩
  sl_exec
  icases Hf5_dst with ⟨Hrw1, Hl1⟩
  sl_exec
  icases Hf6_dst with ⟨Hrw2, Hl2⟩
  sl_exec
  icases Hf7_dst with ⟨Hrw3, Hl3⟩
  sl_exec
  sl_unfold_run_names
  sl_step
  isplitl [Hrw0]; · iexact Hrw0
  isplitl [Hrw1]; · iexact Hrw1
  isplitl [Hrw2]; · iexact Hrw2
  isplitl [Hrw3]; · iexact Hrw3
  isplitl [Hl0]; · iexact Hl0
  isplitl [Hl1]; · iexact Hl1
  isplitl [Hl2]; · iexact Hl2
  isplitl [Hl3]; · iexact Hl3
  isplitl [Hf4_src]; · iexact Hf4_src
  isplitl [Hf5_src]; · iexact Hf5_src
  isplitl [Hf6_src]; · iexact Hf6_src
  isplitl [Hf7_src]; · iexact Hf7_src
  isplitl [Hb0]; · iapply (Entails.of_eq (c_blk_landed (F := F) d (k1_off15 L 25088#32) (k1_off15_inb L 0) (cV L) (jV L) _ (O5 m d) hv0 fo fullShare)); iexact Hb0
  isplitl [Hb1]; · iapply (Entails.of_eq (c_blk_landed (F := F) d (k1_off15 L 25216#32) (k1_off15_inb L 1) (cV L) (jV L) _ (O5 m d) hv1 fo fullShare)); iexact Hb1
  isplitl [Hb2]; · iapply (Entails.of_eq (c_blk_landed (F := F) d (k1_off15 L 25344#32) (k1_off15_inb L 2) (cV L) (jV L) _ (O5 m d) hv2 fo fullShare)); iexact Hb2
  isplitl [Hb3]; · iapply (Entails.of_eq (c_blk_landed (F := F) d (k1_off15 L 25472#32) (k1_off15_inb L 3) (cV L) (jV L) _ (O5 m d) hv3 fo fullShare)); iexact Hb3
  isplitl [Hf4]; · iexact Hf4
  isplitl [Hf5]; · iexact Hf5
  isplitl [Hf6]; · iexact Hf6
  isplitl [Hf7]; · iexact Hf7
  isplitl [Hs8]; · iexact Hs8
  isplitl [Hs9]; · iexact Hs9
  isplitl [Hs10]; · iexact Hs10
  isplitl [Hs11]; · iexact Hs11
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The same from the levels: the waits' evidence is theirs. -/
theorem c_epilogue (O : CellTallies nD τ sig (HIx 1)) (W : Waits sig (HIx 1)) (hO : ∀ g, O g none = 0)
    (G0 G1 G2 G3 : Buf (Elt F) ((V d (cV L) (jV L)).loc cc1_scratch1)) (lst0 lst1 lst2 lst3 : Memref sig .scVector .vmem S128 .i32)
    (l0 : Buf (Elt F) (lst0.view.loc (V d (cV L) (jV L)))) (l1 : Buf (Elt F) (lst1.view.loc (V d (cV L) (jV L))))
    (l2 : Buf (Elt F) (lst2.view.loc (V d (cV L) (jV L)))) (l3 : Buf (Elt F) (lst3.view.loc (V d (cV L) (jV L))))
    (q0 q1 q2 q3 : PosShare TreeShare) (fo : Buf (Elt F) (v5Loc d))
    (hv0 : ∀ x : S128x128.Idx, ReadAs.same.apply (View.read (Elt F) (rwS0).view G0) x = (O5 m d : Buf (Elt F) (v5Loc d)) ((c_oB0 L).view.emb x))
    (hv1 : ∀ x : S128x128.Idx, ReadAs.same.apply (View.read (Elt F) (rwS1).view G1) x = (O5 m d : Buf (Elt F) (v5Loc d)) ((c_oB1 L).view.emb x))
    (hv2 : ∀ x : S128x128.Idx, ReadAs.same.apply (View.read (Elt F) (rwS2).view G2) x = (O5 m d : Buf (Elt F) (v5Loc d)) ((c_oB2 L).view.emb x))
    (hv3 : ∀ x : S128x128.Idx, ReadAs.same.apply (View.read (Elt F) (rwS3).view G3) x = (O5 m d : Buf (Elt F) (v5Loc d)) ((c_oB3 L).view.emb x)) :
    iprop(levAts (K (F := F)).L (K (F := F)).lev
        ∗ c_gFlight (F := F) m d L 4 rwS0 G0 lst0 l0 q0 ∗ c_gFlight (F := F) m d L 5 rwS1 G1 lst1 l1 q1 ∗ c_gFlight (F := F) m d L 6 rwS2 G2 lst2 l2 q2 ∗ c_gFlight (F := F) m d L 7 rwS3 G3 lst3 l3 q3
        ∗ semVal (dcell d (cV L) (jV L) 8) 0 ∗ semVal (dcell d (cV L) (jV L) 9) 0 ∗ semVal (dcell d (cV L) (jV L) 10) 0 ∗ semVal (dcell d (cV L) (jV L) 11) 0
        ∗ ((c_oB0 L).view.loc (V d (cV L) (jV L)) ↦[(c_oB0 L).view.set]{fullShare} fo)
        ∗ ((c_oB1 L).view.loc (V d (cV L) (jV L)) ↦[(c_oB1 L).view.set]{fullShare} fo)
        ∗ ((c_oB2 L).view.loc (V d (cV L) (jV L)) ↦[(c_oB2 L).view.set]{fullShare} fo)
        ∗ ((c_oB3 L).view.loc (V d (cV L) (jV L)) ↦[(c_oB3 L).view.set]{fullShare} fo)
        ∗ owes (V d (cV L) (jV L)) O W)
      ⊢ wp frame (wpE (defs₀ (F := F)) 𝒱₀ (V d (cV L) (jV L)) none) Set.univ (c_epiProg (F := F) L) fun _ =>
          iprop(((rwS0).view.loc (V d (cV L) (jV L)) ↦[(rwS0).view.set]{fullShare} G0) ∗ ((rwS1).view.loc (V d (cV L) (jV L)) ↦[(rwS1).view.set]{fullShare} G1)
            ∗ ((rwS2).view.loc (V d (cV L) (jV L)) ↦[(rwS2).view.set]{fullShare} G2) ∗ ((rwS3).view.loc (V d (cV L) (jV L)) ↦[(rwS3).view.set]{fullShare} G3)
            ∗ (lst0.view.loc (V d (cV L) (jV L)) ↦[lst0.view.set]{fullShare} l0) ∗ (lst1.view.loc (V d (cV L) (jV L)) ↦[lst1.view.set]{fullShare} l1)
            ∗ (lst2.view.loc (V d (cV L) (jV L)) ↦[lst2.view.set]{fullShare} l2) ∗ (lst3.view.loc (V d (cV L) (jV L)) ↦[lst3.view.set]{fullShare} l3)
            ∗ ((c_shG).view.loc (V d (cV L) (jV L)) ↦[(c_shG).view.set]{q0} (T3 m d : Buf (Elt F) (shLoc d (cV L))))
            ∗ ((c_shG).view.loc (V d (cV L) (jV L)) ↦[(c_shG).view.set]{q1} (T3 m d : Buf (Elt F) (shLoc d (cV L))))
            ∗ ((c_shG).view.loc (V d (cV L) (jV L)) ↦[(c_shG).view.set]{q2} (T3 m d : Buf (Elt F) (shLoc d (cV L))))
            ∗ ((c_shG).view.loc (V d (cV L) (jV L)) ↦[(c_shG).view.set]{q3} (T3 m d : Buf (Elt F) (shLoc d (cV L))))
            ∗ ((c_oB0 L).view.loc (V d (cV L) (jV L)) ↦[(c_oB0 L).view.set]{fullShare} (O5 m d : Buf (Elt F) (v5Loc d)))
            ∗ ((c_oB1 L).view.loc (V d (cV L) (jV L)) ↦[(c_oB1 L).view.set]{fullShare} (O5 m d : Buf (Elt F) (v5Loc d)))
            ∗ ((c_oB2 L).view.loc (V d (cV L) (jV L)) ↦[(c_oB2 L).view.set]{fullShare} (O5 m d : Buf (Elt F) (v5Loc d)))
            ∗ ((c_oB3 L).view.loc (V d (cV L) (jV L)) ↦[(c_oB3 L).view.set]{fullShare} (O5 m d : Buf (Elt F) (v5Loc d)))
            ∗ semVal (dcell d (cV L) (jV L) 4) 0 ∗ semVal (dcell d (cV L) (jV L) 5) 0 ∗ semVal (dcell d (cV L) (jV L) 6) 0 ∗ semVal (dcell d (cV L) (jV L) 7) 0
            ∗ semVal (dcell d (cV L) (jV L) 8) 0 ∗ semVal (dcell d (cV L) (jV L) 9) 0 ∗ semVal (dcell d (cV L) (jV L) 10) 0 ∗ semVal (dcell d (cV L) (jV L) 11) 0
            ∗ ∃ W', ⌜∀ p ∈ W', p ∈ W ∨ p.2 = none⌝ ∗ owes (V d (cV L) (jV L)) O W') := by
  iintro ⟨#Hlv, H⟩
  ihave Hmw2 := (show levAts (K (F := F)).L (K (F := F)).lev ⊢ Transfers.MayWaits (V d (cV L) (jV L)) (default : HIx 1) O from
    (K (F := F)).mayWaits_none (thr := V d (cV L) (jV L)) hO) $$ Hlv
  iapply (c_epilogue' (F := F) m d L O W G0 G1 G2 G3 lst0 lst1 lst2 lst3 l0 l1 l2 l3 q0 q1 q2 q3 fo hv0 hv1 hv2 hv3)
  isplitr; · iexact Hmw2
  iexact H

end Epi

end Cert.KernelIdeal.Hand

end
-- ==== Proof.Reasm.lean ====
/-
  Putting a subcore's buffers back together at the end of its task.

  The four row buffers, each holding whatever its last gather left, are the row-buffer scratch whole at some
  contents; the 200 rows of the index scratch (or its first 8 rows and its other 192), each piece at contents of its
  own, are the index scratch whole at some contents; the result slab is what is done and what is left; a share is
  its four quarters.
-/
import proofs.«214982_g87402584473731_cont_9to1c4b_667_31_alg».proof.Proof.TileLemmas
import proofs.«214982_g87402584473731_cont_9to1c4b_667_31_alg».proof.Proof.Blocks

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Epi

variable (d : Dev nD) (L : grid1.Coords)

/-! ## The four row buffers back to one scratch -/

section
variable (c : Fin τ.nSC) (i : Fin τ.nSub)

omit [FloatOps F] in
/-- The four row buffers, each at contents of its own, are the row-buffer scratch whole at some contents. -/
theorem c_rw_join (G0 G1 G2 G3 : Buf (Elt F) ((V d c i).loc cc1_scratch1)) :
    iprop(((rwS0).view.loc (V d c i) ↦[(rwS0).view.set]{fullShare} G0) ∗ ((rwS1).view.loc (V d c i) ↦[(rwS1).view.set]{fullShare} G1)
        ∗ ((rwS2).view.loc (V d c i) ↦[(rwS2).view.set]{fullShare} G2) ∗ ((rwS3).view.loc (V d c i) ↦[(rwS3).view.set]{fullShare} G3))
      ⊢ (iprop(∃ f, (V d c i).loc cc1_scratch1 ↦{fullShare} f) : sProp 𝕄) := by
  rw [set_rwS0, set_rwS1, set_rwS2, set_rwS3]
  show iprop(((V d c i).loc cc1_scratch1 ↦[rwR0.set]{fullShare} G0) ∗ ((V d c i).loc cc1_scratch1 ↦[rwR1.set]{fullShare} G1)
        ∗ ((V d c i).loc cc1_scratch1 ↦[rwR2.set]{fullShare} G2) ∗ ((V d c i).loc cc1_scratch1 ↦[rwR3.set]{fullShare} G3)) ⊢ _
  iintro ⟨H0, H1, H2, H3⟩
  ihave H23 := (pointsTo_join (ℓ := (V d c i).loc cc1_scratch1) rw_slots.2.2.2) $$ [H2 H3]
  · isplitl [H2] <;> iassumption
  ihave H123 := (pointsTo_join (ℓ := (V d c i).loc cc1_scratch1) rw_slots.2.2.1) $$ [H1 H23]
  · isplitl [H1] <;> iassumption
  ihave H := (pointsTo_join (ℓ := (V d c i).loc cc1_scratch1) rw_slots.2.1) $$ [H0 H123]
  · isplitl [H0] <;> iassumption
  iexists _
  show _ ⊢ ((V d c i).loc cc1_scratch1 ↦[Finset.univ]{fullShare} _ : sProp 𝕄)
  rw [rw_slots.1]

omit [FloatOps F] in
theorem c_ixRows_cover : (Finset.univ : Finset (Fin 200)).biUnion (fun t => (ixRowR t).set) = (Finset.univ : Finset S200x128.Idx) := by
  refine Finset.eq_univ_of_forall fun j => ?_
  exact Finset.mem_biUnion.mpr ⟨⟨(j 0).val, (j 0).isLt⟩, Finset.mem_univ _, (mem_ixRow _ j).mpr rfl⟩

omit [FloatOps F] in
/-- The 200 rows of the index scratch, each at contents of its own, are the scratch whole at some contents. -/
theorem c_ix_join_rows (g : Fin 200 → Buf (Elt F) ((V d c i).loc cc1_scratch0)) :
    (bigSep Finset.univ fun t : Fin 200 => (V d c i).loc cc1_scratch0 ↦[(ixRowR t).set]{fullShare} g t)
      ⊢ (iprop(∃ f, (V d c i).loc cc1_scratch0 ↦{fullShare} f) : sProp 𝕄) := by
  iintro H
  ihave H' := (pointsTo_biUnion_join (ℓ := (V d c i).loc cc1_scratch0) (q := fullShare) (Val := Elt F) Finset.univ (fun t : Fin 200 => (ixRowR t).set) g (g ⟨0, by decide⟩)
    ixRows_disjoint) $$ H
  icases H' with ⟨%f, -, Hf⟩
  rw [c_ixRows_cover]
  iexists f; iexact Hf

omit [FloatOps F] in
/-- Head and tail of the index scratch, each at contents of its own, are the scratch whole at some contents. -/
theorem c_ix_join_hd_tl (gh gt : Buf (Elt F) ((V d c i).loc cc1_scratch0)) :
    iprop(((ixHd).view.loc (V d c i) ↦[(ixHd).view.set]{fullShare} gh) ∗ ((ixTl).view.loc (V d c i) ↦[(ixTl).view.set]{fullShare} gt))
      ⊢ (iprop(∃ f, (V d c i).loc cc1_scratch0 ↦{fullShare} f) : sProp 𝕄) := by
  rw [set_ixHd, set_ixTl]
  show iprop(((V d c i).loc cc1_scratch0 ↦[ixHdR.set]{fullShare} gh) ∗ ((V d c i).loc cc1_scratch0 ↦[ixTlR.set]{fullShare} gt)) ⊢ _
  iintro H
  ihave H' := (pointsTo_join (ℓ := (V d c i).loc cc1_scratch0) ix_hd_tl.2) $$ H
  iexists _
  show _ ⊢ ((V d c i).loc cc1_scratch0 ↦[Finset.univ]{fullShare} _ : sProp 𝕄)
  rw [ix_hd_tl.1]

end

/-! ## The result slab: what is done and what is left -/

omit [FloatOps F] in
theorem c_pts_done_rest (w : Fin 32) (n : Nat) (hn : n ≤ 200) (q : PosShare TreeShare) (f : Buf (Elt F) (v5Loc d)) :
    (v5Loc d ↦[oslabSet w]{q} f : sProp 𝕄) ⊣⊢ iprop((v5Loc d ↦[odoneSet w n]{q} f) ∗ (v5Loc d ↦[oslabSet w \ odoneSet w n]{q} f)) :=
  pointsTo_split_subset (odone_sub_oslab w n hn)

omit [FloatOps F] in
/-- After all 200 blocks nothing is left. -/
theorem c_orest_all (w : Fin 32) : oslabSet w \ odoneSet w 200 = ∅ := by
  rw [odone_all]; exact Finset.sdiff_self _

/-! ## A share in quarters -/

omit [FloatOps F] in
/-- A points-to at a share is its four quarters'. -/
theorem c_pts_quarters {ℓ : Loc nD τ sig} (I : Finset (Idx ℓ)) (q : PosShare TreeShare) (f : Buf (Elt F) ℓ) :
    (ℓ ↦[I]{q} f : sProp 𝕄) ⊣⊢ iprop((ℓ ↦[I]{q.left.left} f) ∗ (ℓ ↦[I]{q.left.right} f) ∗ (ℓ ↦[I]{q.right.left} f) ∗ (ℓ ↦[I]{q.right.right} f)) := by
  constructor
  · iintro H
    ihave H := (pointsTo_share (PosShare.mem_left_op_right q)).1 $$ H
    icases H with ⟨Hl, Hr⟩
    ihave Hl := (pointsTo_share (PosShare.mem_left_op_right q.left)).1 $$ Hl
    icases Hl with ⟨Hll, Hlr⟩
    ihave Hr := (pointsTo_share (PosShare.mem_left_op_right q.right)).1 $$ Hr
    icases Hr with ⟨Hrl, Hrr⟩
    isplitl [Hll]; · iexact Hll
    isplitl [Hlr]; · iexact Hlr
    isplitl [Hrl]; · iexact Hrl
    iexact Hrr
  · iintro ⟨Hll, Hlr, Hrl, Hrr⟩
    iapply (pointsTo_share (PosShare.mem_left_op_right q)).2
    isplitl [Hll Hlr]
    · iapply (pointsTo_share (PosShare.mem_left_op_right q.left)).2
      isplitl [Hll] <;> iassumption
    · iapply (pointsTo_share (PosShare.mem_left_op_right q.right)).2
      isplitl [Hrl] <;> iassumption

end Epi

end Cert.KernelIdeal.Hand

end
-- ==== Proof.PostLoop.lean ====
/-
  From the loop's exit to the end of a subcore's task.

  When the loop ends the subcore holds: four gathers in flight, by the fixed rows 196 … 199 of its index scratch, one per
  row buffer, each with a quarter of its sixteenth of the shared table; rows 0 … 195 of the index scratch, spent; the
  first 196 blocks of its result slab written and the last four as launched; and, untouched by the loop, its block of
  the table, its slab of the indices, the rest of its buffers and semaphores. The last four blocks are waited for,
  copied out and waited for again; what each gather left in its row buffer is the result's rows of that block. Then
  everything is put back together: the result slab from its 200 blocks, the index scratch from its 200 rows, the row
  buffers from the four slots, the sixteenth of the shared table from its quarters, the index slab from its two pieces.
-/
import proofs.«214982_g87402584473731_cont_9to1c4b_667_31_alg».proof.Proof.Epilogue
import proofs.«214982_g87402584473731_cont_9to1c4b_667_31_alg».proof.Proof.Reasm
import proofs.«214982_g87402584473731_cont_9to1c4b_667_31_alg».proof.Proof.LoopInv
import proofs.«214982_g87402584473731_cont_9to1c4b_667_31_alg».proof.Proof.Gathered
import proofs.«214982_g87402584473731_cont_9to1c4b_667_31_alg».proof.Proof.Inv0

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section PostLoop

variable (d : Dev nD) (L : grid1.Coords)

local notation "c_shG" => (Memref.slice shV (Rect.unit (s := S256x128) ![0, 0] S256x128.size inb_S256x128_S256x128_0_0) (fun _ => rfl))
local notation "c_oB0" L => (Memref.slice oV (Rect.unit (s := S819200x128) (k1_off15 L 25088#32) S128x128.size (k1_off15_inb L 0)) (fun _ => rfl))
local notation "c_oB1" L => (Memref.slice oV (Rect.unit (s := S819200x128) (k1_off15 L 25216#32) S128x128.size (k1_off15_inb L 1)) (fun _ => rfl))
local notation "c_oB2" L => (Memref.slice oV (Rect.unit (s := S819200x128) (k1_off15 L 25344#32) S128x128.size (k1_off15_inb L 2)) (fun _ => rfl))
local notation "c_oB3" L => (Memref.slice oV (Rect.unit (s := S819200x128) (k1_off15 L 25472#32) S128x128.size (k1_off15_inb L 3)) (fun _ => rfl))
local notation "c_w" L => (wid (cL L) (jL L))

/-! ## The index scratch: the rows below `n` -/

omit [FloatOps F] in
theorem c_b_row_val (t : Nat) (ht : t < 200) : (b_row t).val = t := Nat.mod_eq_of_lt ht

/-- The rows below `n` of the index scratch. -/
def c_ixBelow (n : Nat) : Finset S200x128.Idx := Finset.univ.filter fun j => (j 0).val < n

omit [FloatOps F] in
theorem c_mem_ixBelow (n : Nat) (j : S200x128.Idx) : j ∈ c_ixBelow n ↔ (j 0).val < n := by
  unfold c_ixBelow; rw [Finset.mem_filter]; exact ⟨fun h => h.2, fun h => ⟨Finset.mem_univ _, h⟩⟩

omit [FloatOps F] in
theorem c_ixBelow_zero : c_ixBelow 0 = ∅ := by
  ext j; rw [c_mem_ixBelow]; simp

omit [FloatOps F] in
theorem c_ixBelow_all : c_ixBelow 200 = Finset.univ := by
  ext j; rw [c_mem_ixBelow]; have h : (j 0).val < 200 := (j 0).isLt; simp only [Finset.mem_univ, iff_true]; exact h

omit [FloatOps F] in
theorem c_ixBelow_succ (n : Nat) (hn : n < 200) :
    c_ixBelow (n + 1) = c_ixBelow n ∪ (ixRowR (b_row n)).set ∧ Disjoint (c_ixBelow n) (ixRowR (b_row n)).set := by
  have hv := c_b_row_val n hn
  constructor
  · ext j
    rw [Finset.mem_union, c_mem_ixBelow, c_mem_ixBelow, mem_ixRow, hv]
    omega
  · rw [Finset.disjoint_left]
    intro j h h'
    rw [c_mem_ixBelow] at h
    rw [mem_ixRow, hv] at h'
    omega

section
variable (c : Fin τ.nSC) (i : Fin τ.nSub)

omit [FloatOps F] in
theorem c_pts_below_succ (n : Nat) (hn : n < 200) (q : PosShare TreeShare) (f : Buf (Elt F) ((V d c i).loc cc1_scratch0)) :
    ((V d c i).loc cc1_scratch0 ↦[c_ixBelow (n + 1)]{q} f : sProp 𝕄)
      ⊣⊢ iprop(((V d c i).loc cc1_scratch0 ↦[c_ixBelow n]{q} f) ∗ ((V d c i).loc cc1_scratch0 ↦[(ixRowR (b_row n)).set]{q} f)) := by
  rw [(c_ixBelow_succ n hn).1]
  exact pointsTo_union (c_ixBelow_succ n hn).2

omit [FloatOps F] in
/-- The first `n` rows, each held by its own elements at one contents, are the rows below `n` at that contents. -/
theorem c_rows_below (q : PosShare TreeShare) (f : Buf (Elt F) ((V d c i).loc cc1_scratch0)) :
    ∀ n : Nat, n ≤ 200 → (bigSep (Finset.range n) fun t => ((V d c i).loc cc1_scratch0 ↦[(ixRowR (b_row t)).set]{q} f : sProp 𝕄))
      ⊢ ((V d c i).loc cc1_scratch0 ↦[c_ixBelow n]{q} f : sProp 𝕄)
  | 0, _ => by
    rw [Finset.range_zero, bigSep_empty, c_ixBelow_zero, pointsTo_empty]
    exact BI.Entails.refl _
  | n + 1, hn => by
    rw [Finset.range_add_one, SparseCore.bigSep_insert' Finset.notMem_range_self]
    iintro ⟨Hn, Hrest⟩
    iapply (c_pts_below_succ (F := F) d c i n (by omega) q f).2
    isplitl [Hrest]
    · iapply (c_rows_below q f n (by omega)); iexact Hrest
    · iexact Hn

omit [FloatOps F] in
/-- A row as a gather's offset list holds it is the row by its own elements. -/
theorem c_pts_rowM (t : Fin 200) (q : PosShare TreeShare) (f : Buf (Elt F) ((V d c i).loc cc1_scratch0)) :
    ((b_rowM t).view.loc (V d c i) ↦[(b_rowM t).view.set]{q} f : sProp 𝕄) = ((V d c i).loc cc1_scratch0 ↦[(ixRowR t).set]{q} f) := by
  rw [show (b_rowM t).view.set = (ixRowR t).set from set_ixRow ![t.val, 0] (c_ixrow_inb t)]

end

/-! ## The shared table through the gathers' view of it -/

omit [FloatOps F] in
theorem c_shW_set : (b_shW).view.set = (shV).view.set := by
  rw [show (shV).view.set = Finset.univ from by simp only [Memref.view_whole, View.set_whole]]
  rw [show (b_shW).view.set = (Rect.unit (s := S256x128) ![0, 0] S256x128.size inb_S256x128_S256x128_0_0).set from View.set_slice_whole _ _]
  ext j
  have h0 : (j 0).val < 256 := (j 0).isLt
  have h1 : (j 1).val < 128 := (j 1).isLt
  rw [mem_unit2]
  simp only [Finset.mem_univ, iff_true]
  show (0 ≤ (j 0).val ∧ (j 0).val < 0 + 256) ∧ (0 ≤ (j 1).val ∧ (j 1).val < 0 + 128)
  omega

omit [FloatOps F] in
theorem c_pts_shW (q : PosShare TreeShare) (f : Buf (Elt F) (shLoc d (cV L))) :
    ((b_shW).view.loc (V d (cV L) (jV L)) ↦[(b_shW).view.set]{q} f : sProp 𝕄) = ((shV).view.loc (V d (cV L) (jV L)) ↦[(shV).view.set]{q} f) := by
  rw [c_shW_set]

/-! ## The last four blocks, and what the gathers left for them -/

omit [FloatOps F] in
theorem c_off15 (r : Fin 4) : k1_off15 L (BitVec.ofNat 32 (25088 + 128 * r.val)) = ![25600 * (c_w L).val + 128 * (196 + r.val), 0] := by
  rw [k1_off15_eq L r]
  funext a
  match a with
  | 0 => show 51200 * (L 1).val + 25600 * (L 0).val + 128 * r.val + 25088 = 25600 * (2 * (L 1).val + (L 0).val) + 128 * (196 + r.val); omega
  | 1 => rfl

omit [FloatOps F] in
theorem c_emb_off (off off' : Fin 2 → Nat) (h : off = off') (inb inb') (x : S128x128.Idx) :
    (Memref.slice oV (Rect.unit (s := S819200x128) off S128x128.size inb) (fun _ => rfl)).view.emb x
      = (Memref.slice oV (Rect.unit (s := S819200x128) off' S128x128.size inb') (fun _ => rfl)).view.emb x := by
  subst h; rfl

/-- What a gather by the fixed list row `t` left in a row buffer is the result's rows of block `t`. -/
theorem c_val_at (FX : Buf (Elt F) ((V d (cV L) (jV L)).loc cc1_scratch0))
    (hfx : ∀ (t : Fin 200) x, (View.read (Elt F) (b_rowM t).view FX x : BitVec 32).toNat < 256)
    (hFX : ∀ (t : Fin 200) (x : S128.Idx), (View.read (Elt F) (b_rowM t).view FX x : BitVec 32)
        = (I4 m d (ix3 (c_w L) t (⟨(x 0).val, (x 0).isLt⟩ : Fin 128)) : BitVec 32) + BitVec.ofNat 32 (4 * rho ⟨(x 0).val, (x 0).isLt⟩))
    (h4 : ∀ (t : Fin 200) (l : Fin 128), (I4 m d (ix3 (c_w L) t l) : BitVec 32).toNat < 4)
    (t : Fin 200) (rw : Memref sig .scVector .vmem S128x128 .f32) (frw : rw.view.ty.Contents (Elt F)) (x : S128x128.Idx) :
    ReadAs.same.apply (View.read (Elt F) rw.view (rw.view.writes (Elt F) frw [⟨Rect.whole S128x128, b_pay (m := m) d L FX hfx t⟩])) x
      = (O5 m d : Buf (Elt F) (v5Loc d)) (((oV).slice (oblkR (c_w L) t) (fun _ => rfl)).view.emb x) := by
  rw [a_buffer_read]
  show b_pay (m := m) d L FX hfx t x = _
  unfold b_pay
  rw [gathered_eq m d (c_w L) t (View.read (Elt F) (b_rowM t).view FX) rfl (hfx t) (hFX t) (h4 t), a_oblk_emb]

/-! ## The result slab's last four blocks -/

omit [FloatOps F] in
theorem c_last4 (w : Fin 32) :
    oslabSet w \ odoneSet w 196 = (oblkR w ⟨196, by decide⟩).set ∪ ((oblkR w ⟨197, by decide⟩).set ∪ ((oblkR w ⟨198, by decide⟩).set ∪ (oblkR w ⟨199, by decide⟩).set))
      ∧ Disjoint (oblkR w ⟨196, by decide⟩).set ((oblkR w ⟨197, by decide⟩).set ∪ ((oblkR w ⟨198, by decide⟩).set ∪ (oblkR w ⟨199, by decide⟩).set))
      ∧ Disjoint (oblkR w ⟨197, by decide⟩).set ((oblkR w ⟨198, by decide⟩).set ∪ (oblkR w ⟨199, by decide⟩).set)
      ∧ Disjoint (oblkR w ⟨198, by decide⟩).set (oblkR w ⟨199, by decide⟩).set := by
  refine ⟨?_, ?_, ?_, ?_⟩
  · ext j
    simp only [Finset.mem_sdiff, Finset.mem_union, mem_oslab, mem_odone, mem_oblk]
    omega
  all_goals
    rw [Finset.disjoint_left]
    intro j h h'
    simp only [Finset.mem_union, mem_oblk] at h h'
    omega

omit [FloatOps F] in
theorem c_pts_last4 (w : Fin 32) (q : PosShare TreeShare) (f : Buf (Elt F) (v5Loc d)) :
    (v5Loc d ↦[oslabSet w \ odoneSet w 196]{q} f : sProp 𝕄)
      ⊣⊢ iprop((v5Loc d ↦[(oblkR w ⟨196, by decide⟩).set]{q} f) ∗ (v5Loc d ↦[(oblkR w ⟨197, by decide⟩).set]{q} f)
        ∗ (v5Loc d ↦[(oblkR w ⟨198, by decide⟩).set]{q} f) ∗ (v5Loc d ↦[(oblkR w ⟨199, by decide⟩).set]{q} f)) := by
  rw [(c_last4 w).1]
  constructor
  · iintro H
    ihave Ha := (pointsTo_union (ℓ := v5Loc d) (c_last4 w).2.1).1 $$ H
    icases Ha with ⟨H0, Ha⟩
    ihave Hb := (pointsTo_union (ℓ := v5Loc d) (c_last4 w).2.2.1).1 $$ Ha
    icases Hb with ⟨H1, Hb⟩
    ihave Hc := (pointsTo_union (ℓ := v5Loc d) (c_last4 w).2.2.2).1 $$ Hb
    icases Hc with ⟨H2, H3⟩
    isplitl [H0]; · iexact H0
    isplitl [H1]; · iexact H1
    isplitl [H2]; · iexact H2
    iexact H3
  · iintro ⟨H0, H1, H2, H3⟩
    iapply (pointsTo_union (ℓ := v5Loc d) (c_last4 w).2.1).2
    isplitl [H0]; · iexact H0
    iapply (pointsTo_union (ℓ := v5Loc d) (c_last4 w).2.2.1).2
    isplitl [H1]; · iexact H1
    iapply (pointsTo_union (ℓ := v5Loc d) (c_last4 w).2.2.2).2
    isplitl [H2]; · iexact H2
    iexact H3

omit [FloatOps F] in
theorem c_pts_oB0 (q : PosShare TreeShare) (f : Buf (Elt F) (v5Loc d)) :
    ((c_oB0 L).view.loc (V d (cV L) (jV L)) ↦[(c_oB0 L).view.set]{q} f : sProp 𝕄) = (v5Loc d ↦[(oblkR (c_w L) ⟨196, by decide⟩).set]{q} f) := by
  rw [show (c_oB0 L).view.set = (oblkR (c_w L) ⟨196, by decide⟩).set from (View.set_slice_whole _ _).trans (congrArg (fun R : Rect S819200x128 => R.set) (oblk_off15_0 L))]
omit [FloatOps F] in
theorem c_pts_oB1 (q : PosShare TreeShare) (f : Buf (Elt F) (v5Loc d)) :
    ((c_oB1 L).view.loc (V d (cV L) (jV L)) ↦[(c_oB1 L).view.set]{q} f : sProp 𝕄) = (v5Loc d ↦[(oblkR (c_w L) ⟨197, by decide⟩).set]{q} f) := by
  rw [show (c_oB1 L).view.set = (oblkR (c_w L) ⟨197, by decide⟩).set from (View.set_slice_whole _ _).trans (congrArg (fun R : Rect S819200x128 => R.set) (oblk_off15_1 L))]
omit [FloatOps F] in
theorem c_pts_oB2 (q : PosShare TreeShare) (f : Buf (Elt F) (v5Loc d)) :
    ((c_oB2 L).view.loc (V d (cV L) (jV L)) ↦[(c_oB2 L).view.set]{q} f : sProp 𝕄) = (v5Loc d ↦[(oblkR (c_w L) ⟨198, by decide⟩).set]{q} f) := by
  rw [show (c_oB2 L).view.set = (oblkR (c_w L) ⟨198, by decide⟩).set from (View.set_slice_whole _ _).trans (congrArg (fun R : Rect S819200x128 => R.set) (oblk_off15_2 L))]
omit [FloatOps F] in
theorem c_pts_oB3 (q : PosShare TreeShare) (f : Buf (Elt F) (v5Loc d)) :
    ((c_oB3 L).view.loc (V d (cV L) (jV L)) ↦[(c_oB3 L).view.set]{q} f : sProp 𝕄) = (v5Loc d ↦[(oblkR (c_w L) ⟨199, by decide⟩).set]{q} f) := by
  rw [show (c_oB3 L).view.set = (oblkR (c_w L) ⟨199, by decide⟩).set from (View.set_slice_whole _ _).trans (congrArg (fun R : Rect S819200x128 => R.set) (oblk_off15_3 L))]

section
variable (c : Fin τ.nSC) (i : Fin τ.nSub)
omit [FloatOps F] in
/-- The rows below 196 and rows 196 … 199, at one contents, are the index scratch whole. -/
theorem c_ix_all (f : Buf (Elt F) ((V d c i).loc cc1_scratch0)) :
    iprop(((V d c i).loc cc1_scratch0 ↦[c_ixBelow 196]{fullShare} f) ∗ ((V d c i).loc cc1_scratch0 ↦[(ixRowR (b_row 196)).set]{fullShare} f)
        ∗ ((V d c i).loc cc1_scratch0 ↦[(ixRowR (b_row 197)).set]{fullShare} f) ∗ ((V d c i).loc cc1_scratch0 ↦[(ixRowR (b_row 198)).set]{fullShare} f)
        ∗ ((V d c i).loc cc1_scratch0 ↦[(ixRowR (b_row 199)).set]{fullShare} f))
      ⊢ ((V d c i).loc cc1_scratch0 ↦{fullShare} f : sProp 𝕄) := by
  iintro ⟨H, H0, H1, H2, H3⟩
  ihave Ha := (c_pts_below_succ (F := F) d c i 196 (by decide) fullShare f).2 $$ [H H0]
  · isplitl [H] <;> iassumption
  ihave Hb := (c_pts_below_succ (F := F) d c i 197 (by decide) fullShare f).2 $$ [Ha H1]
  · isplitl [Ha] <;> iassumption
  ihave Hc := (c_pts_below_succ (F := F) d c i 198 (by decide) fullShare f).2 $$ [Hb H2]
  · isplitl [Hb] <;> iassumption
  ihave Hd := (c_pts_below_succ (F := F) d c i 199 (by decide) fullShare f).2 $$ [Hc H3]
  · isplitl [Hc] <;> iassumption
  show _ ⊢ ((V d c i).loc cc1_scratch0 ↦[Finset.univ]{fullShare} f : sProp 𝕄)
  rw [← c_ixBelow_all]
end

/-! ## From the loop's exit to the task's postcondition -/

/-- What the task holds across the loop and the loop does not touch. -/
def c_untouched : sProp 𝕄 :=
  iprop((bigSep (((ownRefs (τ := τ) (.scVector (cV L) (jV L))).erase (ixRef L)).erase (rwRef L)) fun b => iprop(∃ f, ((d, b) : Loc nD τ sig) ↦{fullShare} f))
    ∗ (bigSep (ownCells (V d (cV L) (jV L)) \ myCells d (cV L) (jV L)) fun g => semVal g 0)
    ∗ semVal (dcell d (cV L) (jV L) 12) 0 ∗ semVal (dcell d (cV L) (jV L) 13) 0 ∗ semVal (dcell d (cV L) (jV L) 14) 0
    ∗ ((tSlK L).view.loc (V d (cV L) (jV L)) ↦[(tSlK L).view.set]{halfS (cL L)} (T3 m d : Buf (Elt F) (v3Loc d)))
    ∗ ((iHd L).view.loc (V d (cV L) (jV L)) ↦[(iHd L).view.set]{fullShare} (I4 m d : Buf (Elt F) (v4Loc d)))
    ∗ ((iTl L).view.loc (V d (cV L) (jV L)) ↦[(iTl L).view.set]{fullShare} (I4 m d : Buf (Elt F) (v4Loc d))))

set_option maxHeartbeats 4000000 in
theorem c_postLoop (O : CellTallies nD τ sig (HIx 1)) (W W₀ : Waits sig (HIx 1))
    (hW₀ : ∀ p ∈ W₀, p ∈ W ∨ p.2 = none ∨ p.2 = some (0 : Fin 1))
    (G0 FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256)
    (hFX : ∀ (t : Fin 200) (x : S128.Idx), (View.read (Elt F) (b_rowM t).view FX x : BitVec 32)
        = (I4 m d (ix3 (c_w L) t (⟨(x 0).val, (x 0).isLt⟩ : Fin 128)) : BitVec 32) + BitVec.ofNat 32 (4 * rho ⟨(x 0).val, (x 0).isLt⟩))
    (h4 : ∀ (t : Fin 200) (l : Fin 128), (I4 m d (ix3 (c_w L) t l) : BitVec 32).toNat < 4)
    (R : sProp 𝕄) (v : BitVec 32) :
    iprop(b_inv (F := F) m d L O W₀ G0 FX frw hfx R 49 v ∗ c_untouched (F := F) m d L)
      ⊢ wp frame (wpE (defs₀ (F := F)) 𝒱₀ (V d (cV L) (jV L)) none) Set.univ (c_epiProg (F := F) L) fun _ =>
          iprop(tdC m d (cL L) (cV L) (jL L)
            ∗ ((∃ f, (V d (cV L) (jV L)).loc cc1_scratch0 ↦{fullShare} f) ∗ (∃ f, (V d (cV L) (jV L)).loc cc1_scratch1 ↦{fullShare} f)
                ∗ bigSep (((ownRefs (τ := τ) (.scVector (cV L) (jV L))).erase (ixRef L)).erase (rwRef L)) fun b => iprop(∃ f, ((d, b) : Loc nD τ sig) ↦{fullShare} f))
            ∗ ((semVal (dcell d (cV L) (jV L) 4) 0 ∗ semVal (dcell d (cV L) (jV L) 5) 0 ∗ semVal (dcell d (cV L) (jV L) 6) 0 ∗ semVal (dcell d (cV L) (jV L) 7) 0
                  ∗ semVal (dcell d (cV L) (jV L) 8) 0 ∗ semVal (dcell d (cV L) (jV L) 9) 0 ∗ semVal (dcell d (cV L) (jV L) 10) 0 ∗ semVal (dcell d (cV L) (jV L) 11) 0
                  ∗ semVal (dcell d (cV L) (jV L) 12) 0 ∗ semVal (dcell d (cV L) (jV L) 13) 0 ∗ semVal (dcell d (cV L) (jV L) 14) 0)
                ∗ bigSep (ownCells (V d (cV L) (jV L)) \ myCells d (cV L) (jV L)) fun g => semVal g 0)
            ∗ ∃ W', ⌜∀ p ∈ W', p ∈ W ∨ p.2 = none ∨ p.2 = some (0 : Fin 1)⌝ ∗ owes (V d (cV L) (jV L)) O W') := by
  unfold b_inv c_untouched tdC
  simp only [Nat.reduceMul, Nat.reduceAdd]
  iintro ⟨⟨#Hmw, ⟨%W', %hW', HO⟩, Hf0, Hf1, Hf2, Hf3, Hs8, Hs9, Hs10, Hs11, Hrows, -, Hdone, Hrest, -⟩, Hbufs, Hsems, Hs12, Hs13, Hs14, Ht', Hihd, Hitl⟩
  -- the last four blocks out of what is left of the slab, each as the program slices it
  ihave H := (c_pts_last4 (F := F) d (c_w L) fullShare (m (v5Loc d))).1 $$ Hrest
  icases H with ⟨Hb0, Hb1, Hb2, Hb3⟩
  ihave Hb0 := (Entails.of_eq (c_pts_oB0 (F := F) d L fullShare (m (v5Loc d))).symm) $$ Hb0
  ihave Hb1 := (Entails.of_eq (c_pts_oB1 (F := F) d L fullShare (m (v5Loc d))).symm) $$ Hb1
  ihave Hb2 := (Entails.of_eq (c_pts_oB2 (F := F) d L fullShare (m (v5Loc d))).symm) $$ Hb2
  ihave Hb3 := (Entails.of_eq (c_pts_oB3 (F := F) d L fullShare (m (v5Loc d))).symm) $$ Hb3
  iapply (wp_wand_r frame _ Set.univ)
  isplitl [Hf0 Hf1 Hf2 Hf3 Hs8 Hs9 Hs10 Hs11 Hb0 Hb1 Hb2 Hb3 HO]
  · iapply (c_epilogue' (F := F) m d L O W'
      ((rwS0).view.writes (Elt F) frw [⟨Rect.whole S128x128, b_pay (m := m) d L FX hfx (b_row 196)⟩])
      ((rwS1).view.writes (Elt F) frw [⟨Rect.whole S128x128, b_pay (m := m) d L FX hfx (b_row 197)⟩])
      ((rwS2).view.writes (Elt F) frw [⟨Rect.whole S128x128, b_pay (m := m) d L FX hfx (b_row 198)⟩])
      ((rwS3).view.writes (Elt F) frw [⟨Rect.whole S128x128, b_pay (m := m) d L FX hfx (b_row 199)⟩])
      (b_rowM (b_row 196)) (b_rowM (b_row 197)) (b_rowM (b_row 198)) (b_rowM (b_row 199)) FX FX FX FX
      (gshare L 0) (gshare L 1) (gshare L 2) (gshare L 3) (m (v5Loc d))
      (fun x => (c_val_at (F := F) m d L FX hfx hFX h4 (b_row 196) rwS0 frw x).trans
        (congrArg (O5 m d) (c_emb_off _ _ (c_off15 L 0).symm _ _ x)))
      (fun x => (c_val_at (F := F) m d L FX hfx hFX h4 (b_row 197) rwS1 frw x).trans
        (congrArg (O5 m d) (c_emb_off _ _ (c_off15 L 1).symm _ _ x)))
      (fun x => (c_val_at (F := F) m d L FX hfx hFX h4 (b_row 198) rwS2 frw x).trans
        (congrArg (O5 m d) (c_emb_off _ _ (c_off15 L 2).symm _ _ x)))
      (fun x => (c_val_at (F := F) m d L FX hfx hFX h4 (b_row 199) rwS3 frw x).trans
        (congrArg (O5 m d) (c_emb_off _ _ (c_off15 L 3).symm _ _ x))))
    isplitr; · iexact Hmw
    isplitl [Hf0]; · iexact Hf0
    isplitl [Hf1]; · iexact Hf1
    isplitl [Hf2]; · iexact Hf2
    isplitl [Hf3]; · iexact Hf3
    isplitl [Hs8]; · iexact Hs8
    isplitl [Hs9]; · iexact Hs9
    isplitl [Hs10]; · iexact Hs10
    isplitl [Hs11]; · iexact Hs11
    isplitl [Hb0]; · iexact Hb0
    isplitl [Hb1]; · iexact Hb1
    isplitl [Hb2]; · iexact Hb2
    isplitl [Hb3]; · iexact Hb3
    iexact HO
  iintro %x ⟨Hrw0, Hrw1, Hrw2, Hrw3, Hl0, Hl1, Hl2, Hl3, Hq0, Hq1, Hq2, Hq3, Hb0, Hb1, Hb2, Hb3, Hs4, Hs5, Hs6, Hs7, Hs8, Hs9, Hs10, Hs11, %W'', %hW'', HO⟩
  isplitl [Ht' Hihd Hitl Hdone Hb0 Hb1 Hb2 Hb3 Hq0 Hq1 Hq2 Hq3]
  · -- what the sequencer gets back
    isplitl [Ht']; · iapply (Entails.of_eq (pts_tSlK (F := F) d L _ _)); iexact Ht'
    isplitl [Hihd Hitl]
    · iapply (pts_islab (F := F) d L _).2
      isplitl [Hihd] <;> iassumption
    isplitl [Hdone Hb0 Hb1 Hb2 Hb3]
    · iapply (c_pts_done_rest (F := F) d (c_w L) 196 (by decide) fullShare (O5 m d)).2
      isplitl [Hdone]; · iexact Hdone
      iapply (c_pts_last4 (F := F) d (c_w L) fullShare (O5 m d)).2
      isplitl [Hb0]; · iapply (Entails.of_eq (c_pts_oB0 (F := F) d L fullShare (O5 m d))); iexact Hb0
      isplitl [Hb1]; · iapply (Entails.of_eq (c_pts_oB1 (F := F) d L fullShare (O5 m d))); iexact Hb1
      isplitl [Hb2]; · iapply (Entails.of_eq (c_pts_oB2 (F := F) d L fullShare (O5 m d))); iexact Hb2
      iapply (Entails.of_eq (c_pts_oB3 (F := F) d L fullShare (O5 m d))); iexact Hb3
    · iapply (Entails.of_eq (pts_shV (F := F) d L _ _))
      iapply (Entails.of_eq (sh_four (F := F) d L (T3 m d)).symm)
      isplitl [Hq0]; · iapply (Entails.of_eq (c_pts_shW (F := F) d L _ _)); iexact Hq0
      isplitl [Hq1]; · iapply (Entails.of_eq (c_pts_shW (F := F) d L _ _)); iexact Hq1
      isplitl [Hq2]; · iapply (Entails.of_eq (c_pts_shW (F := F) d L _ _)); iexact Hq2
      iapply (Entails.of_eq (c_pts_shW (F := F) d L _ _)); iexact Hq3
  isplitl [Hrows Hl0 Hl1 Hl2 Hl3 Hrw0 Hrw1 Hrw2 Hrw3 Hbufs]
  · -- the subcore's own buffers, whole again
    isplitl [Hrows Hl0 Hl1 Hl2 Hl3]
    · iexists FX
      iapply (c_ix_all (F := F) d (cV L) (jV L) FX)
      isplitl [Hrows]; · iapply (c_rows_below (F := F) d (cV L) (jV L) fullShare FX 196 (by decide)); iexact Hrows
      isplitl [Hl0]; · iapply (Entails.of_eq (c_pts_rowM (F := F) d (cV L) (jV L) _ _ _)); iexact Hl0
      isplitl [Hl1]; · iapply (Entails.of_eq (c_pts_rowM (F := F) d (cV L) (jV L) _ _ _)); iexact Hl1
      isplitl [Hl2]; · iapply (Entails.of_eq (c_pts_rowM (F := F) d (cV L) (jV L) _ _ _)); iexact Hl2
      iapply (Entails.of_eq (c_pts_rowM (F := F) d (cV L) (jV L) _ _ _)); iexact Hl3
    isplitl [Hrw0 Hrw1 Hrw2 Hrw3]
    · iapply (c_rw_join (F := F) d (cV L) (jV L) _ _ _ _)
      isplitl [Hrw0]; · iexact Hrw0
      isplitl [Hrw1]; · iexact Hrw1
      isplitl [Hrw2]; · iexact Hrw2
      iexact Hrw3
    iexact Hbufs
  isplitl [Hs4 Hs5 Hs6 Hs7 Hs8 Hs9 Hs10 Hs11 Hs12 Hs13 Hs14 Hsems]
  · isplitl [Hs4 Hs5 Hs6 Hs7 Hs8 Hs9 Hs10 Hs11 Hs12 Hs13 Hs14]
    · isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      iexact Hs14
    iexact Hsems
  iexists W''; isplitr
  swap; · iexact HO
  ipureintro; intro p hp
  rcases hW'' p hp with h | h
  · rcases hW' p h with h | h
    · exact hW₀ p h
    · exact .inr h
  · exact .inr (.inl h)

/-- Every fixed word, as a gather's offset list reads it: the index word of its place plus `4 ρ` of its lane. -/
theorem c_hFX (t : Fin 200) (x : S128.Idx) :
    (View.read (Elt F) (b_rowM t).view (b_FX m d L) x : BitVec 32)
      = (I4 m d (ix3 (c_w L) t (⟨(x 0).val, (x 0).isLt⟩ : Fin 128)) : BitVec 32) + BitVec.ofNat 32 (4 * rho ⟨(x 0).val, (x 0).isLt⟩) := by
  show b_FX m d L ((b_rowM t).view.emb x) = _
  have e : (b_rowM t).view.emb x = (ix2 (⟨t.val, t.isLt⟩ : Fin 200) (⟨(x 0).val, (x 0).isLt⟩ : Fin 128) : S200x128.Idx) :=
    a_row_emb t.val t.isLt (c_ixrow_inb t) x
  rw [e]
  rfl

/-- The same at the loop's own words: the index scratch as fetched, and with every row's lane offsets added. -/
theorem c_postLoop' (hpre : PreOK m) (O : CellTallies nD τ sig (HIx 1)) (W : Waits sig (HIx 1))
    (frw : Buf (Elt F) ((V d (cV L) (jV L)).loc cc1_scratch1)) (v : BitVec 32) :
    iprop(b_inv (F := F) m d L O W (b_G0 m d L) (b_FX m d L) frw (FX_hfx m d L hpre) iprop(emp) 49 v ∗ c_untouched (F := F) m d L)
      ⊢ wp frame (wpE (defs₀ (F := F)) 𝒱₀ (V d (cV L) (jV L)) none) Set.univ (c_epiProg (F := F) L) fun _ =>
          iprop(tdC m d (cL L) (cV L) (jL L)
            ∗ ((∃ f, (V d (cV L) (jV L)).loc cc1_scratch0 ↦{fullShare} f) ∗ (∃ f, (V d (cV L) (jV L)).loc cc1_scratch1 ↦{fullShare} f)
                ∗ bigSep (((ownRefs (τ := τ) (.scVector (cV L) (jV L))).erase (ixRef L)).erase (rwRef L)) fun b => iprop(∃ f, ((d, b) : Loc nD τ sig) ↦{fullShare} f))
            ∗ ((semVal (dcell d (cV L) (jV L) 4) 0 ∗ semVal (dcell d (cV L) (jV L) 5) 0 ∗ semVal (dcell d (cV L) (jV L) 6) 0 ∗ semVal (dcell d (cV L) (jV L) 7) 0
                  ∗ semVal (dcell d (cV L) (jV L) 8) 0 ∗ semVal (dcell d (cV L) (jV L) 9) 0 ∗ semVal (dcell d (cV L) (jV L) 10) 0 ∗ semVal (dcell d (cV L) (jV L) 11) 0
                  ∗ semVal (dcell d (cV L) (jV L) 12) 0 ∗ semVal (dcell d (cV L) (jV L) 13) 0 ∗ semVal (dcell d (cV L) (jV L) 14) 0)
                ∗ bigSep (ownCells (V d (cV L) (jV L)) \ myCells d (cV L) (jV L)) fun g => semVal g 0)
            ∗ ∃ W', ⌜∀ p ∈ W', p ∈ W ∨ p.2 = none ∨ p.2 = some (0 : Fin 1)⌝ ∗ owes (V d (cV L) (jV L)) O W') :=
  c_postLoop (F := F) m d L O W W (fun _ h => .inl h) (b_G0 m d L) (b_FX m d L) frw (FX_hfx m d L hpre) (c_hFX (F := F) m d L)
    (fun t l => I4_lt4 m d hpre (ix3 _ t l)) iprop(emp) v

end PostLoop

end Cert.KernelIdeal.Hand

end
-- ==== Proof.LoopLemmas.lean ====
/-
  The gather loop: the pieces one trip works on, in the two spellings they take.

  The invariant names rows of the index scratch and blocks of the result slab as sets of elements of their buffers; the
  program addresses the same rows and blocks through memrefs sliced at the loop counter's offsets. This module states
  the equations between the two, the four-at-a-time splittings of the families the invariant carries (rows not yet
  fixed, rows spent, blocks written, blocks left), and how what the run leaves of a gather and of a written block is
  what the invariant says of them: a buffer written whole holds what was written whatever it held, so earlier writes
  drop out.
-/
import proofs.«214982_g87402584473731_cont_9to1c4b_667_31_alg».proof.Proof.TileLemmas
import proofs.«214982_g87402584473731_cont_9to1c4b_667_31_alg».proof.Proof.TileLemmas2
import proofs.«214982_g87402584473731_cont_9to1c4b_667_31_alg».proof.Proof.Blocks
import proofs.«214982_g87402584473731_cont_9to1c4b_667_31_alg».proof.Proof.Chunks
import proofs.«214982_g87402584473731_cont_9to1c4b_667_31_alg».proof.Proof.LoopInv
import proofs.«214982_g87402584473731_cont_9to1c4b_667_31_alg».proof.Proof.Gathered

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Loop

variable (d : Dev nD) (L : grid1.Coords)

abbrev b_rowN0 (k : Fin k1_t1_loop.trips) : Memref sig .scVector .vmem S128 .i32 :=
  ((ixV).slice (Rect.unit (s := S200x128) (k1_off14 k 0#32) S1x128.size (k1_off14_inb k 0)) (fun _ => rfl)).squeeze S128 squeezes_S1x128_S128
abbrev b_oblk0 (L : grid1.Coords) (k : Fin k1_t1_loop.trips) : Memref sig .scVector .hbm S128x128 .f32 :=
  (oV).slice (Rect.unit (s := S819200x128) (k1_off13 L k 0#32) S128x128.size (k1_off13_inb L k 0)) (fun _ => rfl)

abbrev b_rowN1 (k : Fin k1_t1_loop.trips) : Memref sig .scVector .vmem S128 .i32 :=
  ((ixV).slice (Rect.unit (s := S200x128) (k1_off14 k 1#32) S1x128.size (k1_off14_inb k 1)) (fun _ => rfl)).squeeze S128 squeezes_S1x128_S128
abbrev b_oblk1 (L : grid1.Coords) (k : Fin k1_t1_loop.trips) : Memref sig .scVector .hbm S128x128 .f32 :=
  (oV).slice (Rect.unit (s := S819200x128) (k1_off13 L k 1#32) S128x128.size (k1_off13_inb L k 1)) (fun _ => rfl)

abbrev b_rowN2 (k : Fin k1_t1_loop.trips) : Memref sig .scVector .vmem S128 .i32 :=
  ((ixV).slice (Rect.unit (s := S200x128) (k1_off14 k 2#32) S1x128.size (k1_off14_inb k 2)) (fun _ => rfl)).squeeze S128 squeezes_S1x128_S128
abbrev b_oblk2 (L : grid1.Coords) (k : Fin k1_t1_loop.trips) : Memref sig .scVector .hbm S128x128 .f32 :=
  (oV).slice (Rect.unit (s := S819200x128) (k1_off13 L k 2#32) S128x128.size (k1_off13_inb L k 2)) (fun _ => rfl)

abbrev b_rowN3 (k : Fin k1_t1_loop.trips) : Memref sig .scVector .vmem S128 .i32 :=
  ((ixV).slice (Rect.unit (s := S200x128) (k1_off14 k 3#32) S1x128.size (k1_off14_inb k 3)) (fun _ => rfl)).squeeze S128 squeezes_S1x128_S128
abbrev b_oblk3 (L : grid1.Coords) (k : Fin k1_t1_loop.trips) : Memref sig .scVector .hbm S128x128 .f32 :=
  (oV).slice (Rect.unit (s := S819200x128) (k1_off13 L k 3#32) S128x128.size (k1_off13_inb L k 3)) (fun _ => rfl)

omit [FloatOps F] in
/-- A 16-lane chunk of a row lies in the row, whatever spells the two offsets. -/
theorem b_chunk_sub {off offr : Fin 2 → Nat} (t col : Nat) (e0 : off = ![t, col]) (er : offr = ![t, 0]) (hcol : col + 16 ≤ 128) (inbc) (inbr) :
    ((ixV).access (Rect.unit (s := S200x128) off S1x16.size inbc)).set
      ⊆ (((ixV).slice (Rect.unit (s := S200x128) offr S1x128.size inbr) (fun _ => rfl)).squeeze S128 squeezes_S1x128_S128).view.set := by
  subst e0 er; exact chunk_sub_row t col _ _ hcol

omit [FloatOps F] in
theorem b_set_rowM (t : Fin 200) : (b_rowM t).view.set = (ixRowR t).set := by
  show (((ixV).slice (Rect.unit (s := S200x128) ![t.val, 0] S1x128.size (c_ixrow_inb t)) (fun _ => rfl)).squeeze S128 squeezes_S1x128_S128).view.set = _
  exact (set_ixRow _ _).trans rfl
omit [FloatOps F] in
theorem b_pts_rowM (t : Fin 200) (q : PosShare TreeShare) (f : Buf (Elt F) ((V d (cV L) (jV L)).loc cc1_scratch0)) :
    ((b_rowM t).view.loc (V d (cV L) (jV L)) ↦[(b_rowM t).view.set]{q} f : sProp 𝕄)
      = ((V d (cV L) (jV L)).loc cc1_scratch0 ↦[(ixRowR t).set]{q} f) := by
  rw [b_set_rowM]
omit [FloatOps F] in
/-- Two spellings of one row of the index scratch as an offset list. -/
theorem b_row_congr {off off' : Fin 2 → Nat} (h : off = off') (inb) (inb') :
    (((ixV).slice (Rect.unit (s := S200x128) off S1x128.size inb) (fun _ => rfl)).squeeze S128 squeezes_S1x128_S128)
      = (((ixV).slice (Rect.unit (s := S200x128) off' S1x128.size inb') (fun _ => rfl)).squeeze S128 squeezes_S1x128_S128) := by
  subst h; rfl

omit [FloatOps F] in
theorem b_set_oblk0 (k : Fin k1_t1_loop.trips) : (b_oblk0 L k).view.set = (oblkR (wid (cL L) (jL L)) ⟨4 * k.val + 0, c_blk_lt k 0⟩).set := by
  show ((oV).view.slice (Rect.unit (s := S819200x128) (k1_off13 L k 0#32) S128x128.size (k1_off13_inb L k 0))).set = _
  rw [View.set_slice_whole, oblk_off13_0]
omit [FloatOps F] in
theorem b_pts_oblk0 (k : Fin k1_t1_loop.trips) (q : PosShare TreeShare) (f : Buf (Elt F) (v5Loc d)) :
    ((b_oblk0 L k).view.loc (V d (cV L) (jV L)) ↦[(b_oblk0 L k).view.set]{q} f : sProp 𝕄)
      = (v5Loc d ↦[(oblkR (wid (cL L) (jL L)) ⟨4 * k.val + 0, c_blk_lt k 0⟩).set]{q} f) := by
  rw [b_set_oblk0]
omit [FloatOps F] in
theorem b_set_rowN0 (k : Fin k1_t1_loop.trips) : (b_rowN0 k).view.set = (ixRowR ⟨4 * k.val + 0 + 4, c_row4_lt k 0⟩).set := by
  show (((ixV).slice (Rect.unit (s := S200x128) (k1_off14 k 0#32) S1x128.size (k1_off14_inb k 0)) (fun _ => rfl)).squeeze S128 squeezes_S1x128_S128).view.set = _
  rw [set_ixRow]; exact congrArg (fun R : Rect S200x128 => R.set) (ixRow_off14 k 0)
omit [FloatOps F] in
theorem b_pts_rowN0 (k : Fin k1_t1_loop.trips) (q : PosShare TreeShare) (f : Buf (Elt F) ((V d (cV L) (jV L)).loc cc1_scratch0)) :
    ((b_rowN0 k).view.loc (V d (cV L) (jV L)) ↦[(b_rowN0 k).view.set]{q} f : sProp 𝕄)
      = ((V d (cV L) (jV L)).loc cc1_scratch0 ↦[(ixRowR ⟨4 * k.val + 0 + 4, c_row4_lt k 0⟩).set]{q} f) := by
  rw [b_set_rowN0]

omit [FloatOps F] in
theorem b_set_oblk1 (k : Fin k1_t1_loop.trips) : (b_oblk1 L k).view.set = (oblkR (wid (cL L) (jL L)) ⟨4 * k.val + 1, c_blk_lt k 1⟩).set := by
  show ((oV).view.slice (Rect.unit (s := S819200x128) (k1_off13 L k 1#32) S128x128.size (k1_off13_inb L k 1))).set = _
  rw [View.set_slice_whole, oblk_off13_1]
omit [FloatOps F] in
theorem b_pts_oblk1 (k : Fin k1_t1_loop.trips) (q : PosShare TreeShare) (f : Buf (Elt F) (v5Loc d)) :
    ((b_oblk1 L k).view.loc (V d (cV L) (jV L)) ↦[(b_oblk1 L k).view.set]{q} f : sProp 𝕄)
      = (v5Loc d ↦[(oblkR (wid (cL L) (jL L)) ⟨4 * k.val + 1, c_blk_lt k 1⟩).set]{q} f) := by
  rw [b_set_oblk1]
omit [FloatOps F] in
theorem b_set_rowN1 (k : Fin k1_t1_loop.trips) : (b_rowN1 k).view.set = (ixRowR ⟨4 * k.val + 1 + 4, c_row4_lt k 1⟩).set := by
  show (((ixV).slice (Rect.unit (s := S200x128) (k1_off14 k 1#32) S1x128.size (k1_off14_inb k 1)) (fun _ => rfl)).squeeze S128 squeezes_S1x128_S128).view.set = _
  rw [set_ixRow]; exact congrArg (fun R : Rect S200x128 => R.set) (ixRow_off14 k 1)
omit [FloatOps F] in
theorem b_pts_rowN1 (k : Fin k1_t1_loop.trips) (q : PosShare TreeShare) (f : Buf (Elt F) ((V d (cV L) (jV L)).loc cc1_scratch0)) :
    ((b_rowN1 k).view.loc (V d (cV L) (jV L)) ↦[(b_rowN1 k).view.set]{q} f : sProp 𝕄)
      = ((V d (cV L) (jV L)).loc cc1_scratch0 ↦[(ixRowR ⟨4 * k.val + 1 + 4, c_row4_lt k 1⟩).set]{q} f) := by
  rw [b_set_rowN1]

omit [FloatOps F] in
theorem b_set_oblk2 (k : Fin k1_t1_loop.trips) : (b_oblk2 L k).view.set = (oblkR (wid (cL L) (jL L)) ⟨4 * k.val + 2, c_blk_lt k 2⟩).set := by
  show ((oV).view.slice (Rect.unit (s := S819200x128) (k1_off13 L k 2#32) S128x128.size (k1_off13_inb L k 2))).set = _
  rw [View.set_slice_whole, oblk_off13_2]
omit [FloatOps F] in
theorem b_pts_oblk2 (k : Fin k1_t1_loop.trips) (q : PosShare TreeShare) (f : Buf (Elt F) (v5Loc d)) :
    ((b_oblk2 L k).view.loc (V d (cV L) (jV L)) ↦[(b_oblk2 L k).view.set]{q} f : sProp 𝕄)
      = (v5Loc d ↦[(oblkR (wid (cL L) (jL L)) ⟨4 * k.val + 2, c_blk_lt k 2⟩).set]{q} f) := by
  rw [b_set_oblk2]
omit [FloatOps F] in
theorem b_set_rowN2 (k : Fin k1_t1_loop.trips) : (b_rowN2 k).view.set = (ixRowR ⟨4 * k.val + 2 + 4, c_row4_lt k 2⟩).set := by
  show (((ixV).slice (Rect.unit (s := S200x128) (k1_off14 k 2#32) S1x128.size (k1_off14_inb k 2)) (fun _ => rfl)).squeeze S128 squeezes_S1x128_S128).view.set = _
  rw [set_ixRow]; exact congrArg (fun R : Rect S200x128 => R.set) (ixRow_off14 k 2)
omit [FloatOps F] in
theorem b_pts_rowN2 (k : Fin k1_t1_loop.trips) (q : PosShare TreeShare) (f : Buf (Elt F) ((V d (cV L) (jV L)).loc cc1_scratch0)) :
    ((b_rowN2 k).view.loc (V d (cV L) (jV L)) ↦[(b_rowN2 k).view.set]{q} f : sProp 𝕄)
      = ((V d (cV L) (jV L)).loc cc1_scratch0 ↦[(ixRowR ⟨4 * k.val + 2 + 4, c_row4_lt k 2⟩).set]{q} f) := by
  rw [b_set_rowN2]

omit [FloatOps F] in
theorem b_set_oblk3 (k : Fin k1_t1_loop.trips) : (b_oblk3 L k).view.set = (oblkR (wid (cL L) (jL L)) ⟨4 * k.val + 3, c_blk_lt k 3⟩).set := by
  show ((oV).view.slice (Rect.unit (s := S819200x128) (k1_off13 L k 3#32) S128x128.size (k1_off13_inb L k 3))).set = _
  rw [View.set_slice_whole, oblk_off13_3]
omit [FloatOps F] in
theorem b_pts_oblk3 (k : Fin k1_t1_loop.trips) (q : PosShare TreeShare) (f : Buf (Elt F) (v5Loc d)) :
    ((b_oblk3 L k).view.loc (V d (cV L) (jV L)) ↦[(b_oblk3 L k).view.set]{q} f : sProp 𝕄)
      = (v5Loc d ↦[(oblkR (wid (cL L) (jL L)) ⟨4 * k.val + 3, c_blk_lt k 3⟩).set]{q} f) := by
  rw [b_set_oblk3]
omit [FloatOps F] in
theorem b_set_rowN3 (k : Fin k1_t1_loop.trips) : (b_rowN3 k).view.set = (ixRowR ⟨4 * k.val + 3 + 4, c_row4_lt k 3⟩).set := by
  show (((ixV).slice (Rect.unit (s := S200x128) (k1_off14 k 3#32) S1x128.size (k1_off14_inb k 3)) (fun _ => rfl)).squeeze S128 squeezes_S1x128_S128).view.set = _
  rw [set_ixRow]; exact congrArg (fun R : Rect S200x128 => R.set) (ixRow_off14 k 3)
omit [FloatOps F] in
theorem b_pts_rowN3 (k : Fin k1_t1_loop.trips) (q : PosShare TreeShare) (f : Buf (Elt F) ((V d (cV L) (jV L)).loc cc1_scratch0)) :
    ((b_rowN3 k).view.loc (V d (cV L) (jV L)) ↦[(b_rowN3 k).view.set]{q} f : sProp 𝕄)
      = ((V d (cV L) (jV L)).loc cc1_scratch0 ↦[(ixRowR ⟨4 * k.val + 3 + 4, c_row4_lt k 3⟩).set]{q} f) := by
  rw [b_set_rowN3]

omit [FloatOps F] in
theorem b_rowN0_eq (k : Fin k1_t1_loop.trips) : b_rowN0 k = b_rowM ⟨4 * k.val + 0 + 4, c_row4_lt k 0⟩ :=
  b_row_congr (k1_off14_eq k 0) _ _

omit [FloatOps F] in
theorem b_rowN1_eq (k : Fin k1_t1_loop.trips) : b_rowN1 k = b_rowM ⟨4 * k.val + 1 + 4, c_row4_lt k 1⟩ :=
  b_row_congr (k1_off14_eq k 1) _ _

omit [FloatOps F] in
theorem b_rowN2_eq (k : Fin k1_t1_loop.trips) : b_rowN2 k = b_rowM ⟨4 * k.val + 2 + 4, c_row4_lt k 2⟩ :=
  b_row_congr (k1_off14_eq k 2) _ _

omit [FloatOps F] in
theorem b_rowN3_eq (k : Fin k1_t1_loop.trips) : b_rowN3 k = b_rowM ⟨4 * k.val + 3 + 4, c_row4_lt k 3⟩ :=
  b_row_congr (k1_off14_eq k 3) _ _

/-! ## Families over row numbers, four at a time -/

omit [FloatOps F] in
theorem b_row_of_lt {t : Nat} (h : t < 200) : b_row t = ⟨t, h⟩ := Fin.ext (Nat.mod_eq_of_lt h)

omit [FloatOps F] in
theorem b_filter_step (a : Nat) (ha : a < 200) :
    (Finset.range 200).filter (fun t => a ≤ t) = insert a ((Finset.range 200).filter fun t => a + 1 ≤ t) := by
  ext t
  simp only [Finset.mem_filter, Finset.mem_range, Finset.mem_insert]
  omega

omit [FloatOps F] in
theorem b_take1 (Φ : Nat → sProp 𝕄) (a : Nat) (ha : a < 200) :
    bigSep ((Finset.range 200).filter fun t => a ≤ t) Φ = iprop(Φ a ∗ bigSep ((Finset.range 200).filter fun t => a + 1 ≤ t) Φ) := by
  rw [b_filter_step a ha, SparseCore.bigSep_insert' (by simp)]

omit [FloatOps F] in
theorem b_take4 (Φ : Nat → sProp 𝕄) (a : Nat) (ha : a + 3 < 200) :
    bigSep ((Finset.range 200).filter fun t => a ≤ t) Φ
      = iprop(Φ a ∗ Φ (a + 1) ∗ Φ (a + 2) ∗ Φ (a + 3) ∗ bigSep ((Finset.range 200).filter fun t => a + 4 ≤ t) Φ) := by
  rw [b_take1 Φ a (by omega), b_take1 Φ (a + 1) (by omega), b_take1 Φ (a + 2) (by omega), b_take1 Φ (a + 3) (by omega)]

omit [FloatOps F] in
theorem b_put4 (Φ : Nat → sProp 𝕄) (n : Nat) :
    bigSep (Finset.range (n + 4)) Φ = iprop(Φ (n + 3) ∗ Φ (n + 2) ∗ Φ (n + 1) ∗ Φ n ∗ bigSep (Finset.range n) Φ) := by
  rw [show n + 4 = (n + 3) + 1 from rfl, Finset.range_add_one, SparseCore.bigSep_insert' Finset.notMem_range_self,
    show n + 3 = (n + 2) + 1 from rfl, Finset.range_add_one, SparseCore.bigSep_insert' Finset.notMem_range_self,
    show n + 2 = (n + 1) + 1 from rfl, Finset.range_add_one, SparseCore.bigSep_insert' Finset.notMem_range_self,
    Finset.range_add_one, SparseCore.bigSep_insert' Finset.notMem_range_self]

/-! ## Four blocks of the result slab at a time -/

omit [FloatOps F] in
theorem b_rest4 (k : Fin k1_t1_loop.trips) (q : PosShare TreeShare) (f : Buf (Elt F) (v5Loc d)) :
    (v5Loc d ↦[oslabSet (wid (cL L) (jL L)) \ odoneSet (wid (cL L) (jL L)) (4 * k.val)]{q} f : sProp 𝕄)
      ⊣⊢ iprop((v5Loc d ↦[(oblkR (wid (cL L) (jL L)) ⟨4 * k.val + 0, c_blk_lt k 0⟩).set]{q} f)
          ∗ (v5Loc d ↦[(oblkR (wid (cL L) (jL L)) ⟨4 * k.val + 1, c_blk_lt k 1⟩).set]{q} f)
          ∗ (v5Loc d ↦[(oblkR (wid (cL L) (jL L)) ⟨4 * k.val + 2, c_blk_lt k 2⟩).set]{q} f)
          ∗ (v5Loc d ↦[(oblkR (wid (cL L) (jL L)) ⟨4 * k.val + 3, c_blk_lt k 3⟩).set]{q} f)
          ∗ (v5Loc d ↦[oslabSet (wid (cL L) (jL L)) \ odoneSet (wid (cL L) (jL L)) (4 * k.val + 4)]{q} f)) := by
  have s0 := pts_orest_succ (F := F) d (wid (cL L) (jL L)) ⟨4 * k.val + 0, c_blk_lt k 0⟩ q f
  have s1 := pts_orest_succ (F := F) d (wid (cL L) (jL L)) ⟨4 * k.val + 1, c_blk_lt k 1⟩ q f
  have s2 := pts_orest_succ (F := F) d (wid (cL L) (jL L)) ⟨4 * k.val + 2, c_blk_lt k 2⟩ q f
  have s3 := pts_orest_succ (F := F) d (wid (cL L) (jL L)) ⟨4 * k.val + 3, c_blk_lt k 3⟩ q f
  constructor
  · iintro H
    ihave H := s0.1 $$ H
    icases H with ⟨B0, H⟩
    ihave H := s1.1 $$ H
    icases H with ⟨B1, H⟩
    ihave H := s2.1 $$ H
    icases H with ⟨B2, H⟩
    ihave H := s3.1 $$ H
    icases H with ⟨B3, H⟩
    isplitl [B0]; · iexact B0
    isplitl [B1]; · iexact B1
    isplitl [B2]; · iexact B2
    isplitl [B3]; · iexact B3
    iexact H
  · iintro ⟨B0, B1, B2, B3, H⟩
    iapply s0.2
    isplitl [B0]; · iexact B0
    iapply s1.2
    isplitl [B1]; · iexact B1
    iapply s2.2
    isplitl [B2]; · iexact B2
    iapply s3.2
    isplitl [B3]; · iexact B3
    iexact H

omit [FloatOps F] in
theorem b_done4 (k : Fin k1_t1_loop.trips) (q : PosShare TreeShare) (f : Buf (Elt F) (v5Loc d)) :
    iprop((v5Loc d ↦[odoneSet (wid (cL L) (jL L)) (4 * k.val)]{q} f)
          ∗ (v5Loc d ↦[(oblkR (wid (cL L) (jL L)) ⟨4 * k.val + 0, c_blk_lt k 0⟩).set]{q} f)
          ∗ (v5Loc d ↦[(oblkR (wid (cL L) (jL L)) ⟨4 * k.val + 1, c_blk_lt k 1⟩).set]{q} f)
          ∗ (v5Loc d ↦[(oblkR (wid (cL L) (jL L)) ⟨4 * k.val + 2, c_blk_lt k 2⟩).set]{q} f)
          ∗ (v5Loc d ↦[(oblkR (wid (cL L) (jL L)) ⟨4 * k.val + 3, c_blk_lt k 3⟩).set]{q} f))
      ⊢ (v5Loc d ↦[odoneSet (wid (cL L) (jL L)) (4 * k.val + 4)]{q} f : sProp 𝕄) := by
  have s0 := pts_odone_succ (F := F) d (wid (cL L) (jL L)) ⟨4 * k.val + 0, c_blk_lt k 0⟩ q f
  have s1 := pts_odone_succ (F := F) d (wid (cL L) (jL L)) ⟨4 * k.val + 1, c_blk_lt k 1⟩ q f
  have s2 := pts_odone_succ (F := F) d (wid (cL L) (jL L)) ⟨4 * k.val + 2, c_blk_lt k 2⟩ q f
  have s3 := pts_odone_succ (F := F) d (wid (cL L) (jL L)) ⟨4 * k.val + 3, c_blk_lt k 3⟩ q f
  iintro ⟨H, B0, B1, B2, B3⟩
  iapply s3.2
  isplitr [B3]; swap; · iexact B3
  iapply s2.2
  isplitr [B2]; swap; · iexact B2
  iapply s1.2
  isplitr [B1]; swap; · iexact B1
  iapply s0.2
  isplitl [H]; · iexact H
  iexact B0

/-! ## Restating what the run leaves -/

omit [FloatOps F] in
/-- After a store through the whole shape, LAST, a view's elements read the same whatever came before. -/
theorem b_writes_whole_cover {sig' : RefSig} {κ : Kind} {sp : Space} {S' : Shape} {e : EltTy} {Val : EltTy → Type}
    (v : View sig' κ sp S' e) (f f' : v.ty.Contents Val) (p : S'.Idx → Val e) (Lw Lw' : List (View.Piece Val S' e)) :
    ∀ i ∈ v.set, v.writes Val f ((⟨Rect.whole S', p⟩ : View.Piece Val S' e) :: Lw) i = v.writes Val f' ((⟨Rect.whole S', p⟩ : View.Piece Val S' e) :: Lw') i := by
  intro i hi
  obtain ⟨x, -, rfl⟩ := Finset.mem_map.mp hi
  have hx : (v.slice (Rect.whole S')).emb x = v.emb x := by
    rw [View.emb_slice]
    show v.emb ((Rect.whole S').emb x) = _
    rw [Rect.emb_whole_apply]
  rw [View.writes_cons, View.writes_cons]
  conv_lhs => rw [← hx]
  conv_rhs => rw [← hx]
  rw [View.write_emb_of_mem _ _ (Finset.mem_univ x), View.write_emb_of_mem _ _ (Finset.mem_univ x)]

omit [FloatOps F] in
theorem b_off13_0 (k : Fin k1_t1_loop.trips) :
    k1_off13 L k 0#32 = ![25600 * (wid (cL L) (jL L)).val + 128 * (4 * k.val + 0), 0] := by
  rw [show k1_off13 L k 0#32 = _ from k1_off13_eq L k 0]
  funext a
  match a with
  | 0 => show 51200 * (L 1).val + 25600 * (L 0).val + 512 * k.val + 128 * 0 = 25600 * (2 * (L 1).val + (L 0).val) + 128 * (4 * k.val + 0); omega
  | 1 => rfl

omit [FloatOps F] in
theorem b_off13_1 (k : Fin k1_t1_loop.trips) :
    k1_off13 L k 1#32 = ![25600 * (wid (cL L) (jL L)).val + 128 * (4 * k.val + 1), 0] := by
  rw [show k1_off13 L k 1#32 = _ from k1_off13_eq L k 1]
  funext a
  match a with
  | 0 => show 51200 * (L 1).val + 25600 * (L 0).val + 512 * k.val + 128 * 1 = 25600 * (2 * (L 1).val + (L 0).val) + 128 * (4 * k.val + 1); omega
  | 1 => rfl

omit [FloatOps F] in
theorem b_off13_2 (k : Fin k1_t1_loop.trips) :
    k1_off13 L k 2#32 = ![25600 * (wid (cL L) (jL L)).val + 128 * (4 * k.val + 2), 0] := by
  rw [show k1_off13 L k 2#32 = _ from k1_off13_eq L k 2]
  funext a
  match a with
  | 0 => show 51200 * (L 1).val + 25600 * (L 0).val + 512 * k.val + 128 * 2 = 25600 * (2 * (L 1).val + (L 0).val) + 128 * (4 * k.val + 2); omega
  | 1 => rfl

omit [FloatOps F] in
theorem b_off13_3 (k : Fin k1_t1_loop.trips) :
    k1_off13 L k 3#32 = ![25600 * (wid (cL L) (jL L)).val + 128 * (4 * k.val + 3), 0] := by
  rw [show k1_off13 L k 3#32 = _ from k1_off13_eq L k 3]
  funext a
  match a with
  | 0 => show 51200 * (L 1).val + 25600 * (L 0).val + 512 * k.val + 128 * 3 = 25600 * (2 * (L 1).val + (L 0).val) + 128 * (4 * k.val + 3); omega
  | 1 => rfl

/-- A block of the slab written whole from a row buffer that a gather wrote whole holds the result's rows there. -/
theorem b_blk_landed (w : Fin 32) (t : Fin 200) (off : Fin 2 → Nat) (inb : ∀ a, off a + S128x128.size a ≤ S819200x128.size a)
    (e : off = ![25600 * w.val + 128 * t.val, 0])
    (rw : Memref sig .scVector .vmem S128x128 .f32) (frw : rw.view.ty.Contents (Elt F)) (P : S128x128.Idx → Elt F .f32)
    (hP : P = fun x : S128x128.Idx => O5 m d (ix2 (⟨25600 * w.val + 128 * t.val + (x 0).val, a_row_lt w t ⟨(x 0).val, (x 0).isLt⟩⟩ : Fin 819200)
        (⟨(x 1).val, (x 1).isLt⟩ : Fin 128)))
    (c : Fin τ.nSC) (j : Fin τ.nSub)
    (fprev : Buf (Elt F) (((oV).slice (Rect.unit (s := S819200x128) off S128x128.size inb) (fun _ => rfl)).view.loc (V d c j))) (q : PosShare TreeShare) :
    (((((oV).slice (Rect.unit (s := S819200x128) off S128x128.size inb) (fun _ => rfl)).view.loc (V d c j)
        ↦[((oV).slice (Rect.unit (s := S819200x128) off S128x128.size inb) (fun _ => rfl)).view.set]{q}
        ((oV).slice (Rect.unit (s := S819200x128) off S128x128.size inb) (fun _ => rfl)).view.writes (Elt F) fprev
          [⟨Rect.whole S128x128, ReadAs.same.apply (View.read (Elt F) rw.view (rw.view.writes (Elt F) frw [⟨Rect.whole S128x128, P⟩]))⟩])) : sProp 𝕄)
      = (v5Loc d ↦[(oblkR w t).set]{q} O5 m d) := by
  subst e
  exact block_landed_v5 m d w t c j rw frw P hP fprev q

/-- Slot 0's gather as the run leaves it — the row buffer's earlier writes still listed, the list spelt by the loop's
    offsets — is the flight the invariant names. -/
theorem b_fl0_restate (FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256) (t : Fin 200)
    (off : Fin 2 → Nat) (inb : ∀ a, off a + S1x128.size a ≤ S200x128.size a) (e : off = ![t.val, 0])
    (hin : ∀ x, (View.read (Elt F) (((ixV).slice (Rect.unit (s := S200x128) off S1x128.size inb) (fun _ => rfl)).squeeze S128 squeezes_S1x128_S128).view FX x : BitVec 32).toNat < 256)
    (pold : S128x128.Idx → Elt F .f32) :
    Transfers.Flight countersEmb (V d (cV L) (jV L)) (SemLoc.dma (⟨4, by decide⟩ : DmaSem sig)) (default : HIx 1) 524288
        iprop((((rwS0).view.loc (V d (cV L) (jV L)) ↦[(rwS0).view.set]{fullShare} (rwS0).view.writes (Elt F) frw
              [⟨Rect.whole S128x128, SparseCore.gatherPayload gathers_S256x128_S128x128 (View.read (Elt F) (b_shW).view (T3 m d : Buf (Elt F) (shLoc d (cV L))))
                  (SparseCore.rows (View.read (Elt F) (((ixV).slice (Rect.unit (s := S200x128) off S1x128.size inb) (fun _ => rfl)).squeeze S128 squeezes_S1x128_S128).view FX) rfl hin)⟩,
                ⟨Rect.whole S128x128, pold⟩])
            ∗ ((((ixV).slice (Rect.unit (s := S200x128) off S1x128.size inb) (fun _ => rfl)).squeeze S128 squeezes_S1x128_S128).view.loc (V d (cV L) (jV L))
                ↦[(((ixV).slice (Rect.unit (s := S200x128) off S1x128.size inb) (fun _ => rfl)).squeeze S128 squeezes_S1x128_S128).view.set]{fullShare} FX))
          ∗ ((b_shW).view.loc (V d (cV L) (jV L)) ↦[(b_shW).view.set]{gshare L 0} T3 m d))
      ⊢ b_fl0 m d L FX frw hfx t := by
  subst e
  have hc : (((rwS0).view.loc (V d (cV L) (jV L)) ↦[(rwS0).view.set]{fullShare} (rwS0).view.writes (Elt F) frw
        [⟨Rect.whole S128x128, b_pay (m := m) d L FX hfx t⟩, ⟨Rect.whole S128x128, pold⟩]) : sProp 𝕄)
      = ((rwS0).view.loc (V d (cV L) (jV L)) ↦[(rwS0).view.set]{fullShare} (rwS0).view.writes (Elt F) frw [⟨Rect.whole S128x128, b_pay (m := m) d L FX hfx t⟩]) :=
    pointsTo_congr (b_writes_whole_cover (rwS0).view frw frw (b_pay (m := m) d L FX hfx t) [⟨Rect.whole S128x128, pold⟩] [])
  refine Transfers.Flight_mono countersEmb _ ?_
  iintro ⟨⟨Hd, Hl⟩, Hs⟩
  isplitl [Hd Hl]
  · isplitl [Hd]
    · iapply (Entails.of_eq hc)
      iexact Hd
    · iexact Hl
  · iexact Hs

/-- Slot 1's gather as the run leaves it — the row buffer's earlier writes still listed, the list spelt by the loop's
    offsets — is the flight the invariant names. -/
theorem b_fl1_restate (FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256) (t : Fin 200)
    (off : Fin 2 → Nat) (inb : ∀ a, off a + S1x128.size a ≤ S200x128.size a) (e : off = ![t.val, 0])
    (hin : ∀ x, (View.read (Elt F) (((ixV).slice (Rect.unit (s := S200x128) off S1x128.size inb) (fun _ => rfl)).squeeze S128 squeezes_S1x128_S128).view FX x : BitVec 32).toNat < 256)
    (pold : S128x128.Idx → Elt F .f32) :
    Transfers.Flight countersEmb (V d (cV L) (jV L)) (SemLoc.dma (⟨5, by decide⟩ : DmaSem sig)) (default : HIx 1) 524288
        iprop((((rwS1).view.loc (V d (cV L) (jV L)) ↦[(rwS1).view.set]{fullShare} (rwS1).view.writes (Elt F) frw
              [⟨Rect.whole S128x128, SparseCore.gatherPayload gathers_S256x128_S128x128 (View.read (Elt F) (b_shW).view (T3 m d : Buf (Elt F) (shLoc d (cV L))))
                  (SparseCore.rows (View.read (Elt F) (((ixV).slice (Rect.unit (s := S200x128) off S1x128.size inb) (fun _ => rfl)).squeeze S128 squeezes_S1x128_S128).view FX) rfl hin)⟩,
                ⟨Rect.whole S128x128, pold⟩])
            ∗ ((((ixV).slice (Rect.unit (s := S200x128) off S1x128.size inb) (fun _ => rfl)).squeeze S128 squeezes_S1x128_S128).view.loc (V d (cV L) (jV L))
                ↦[(((ixV).slice (Rect.unit (s := S200x128) off S1x128.size inb) (fun _ => rfl)).squeeze S128 squeezes_S1x128_S128).view.set]{fullShare} FX))
          ∗ ((b_shW).view.loc (V d (cV L) (jV L)) ↦[(b_shW).view.set]{gshare L 1} T3 m d))
      ⊢ b_fl1 m d L FX frw hfx t := by
  subst e
  have hc : (((rwS1).view.loc (V d (cV L) (jV L)) ↦[(rwS1).view.set]{fullShare} (rwS1).view.writes (Elt F) frw
        [⟨Rect.whole S128x128, b_pay (m := m) d L FX hfx t⟩, ⟨Rect.whole S128x128, pold⟩]) : sProp 𝕄)
      = ((rwS1).view.loc (V d (cV L) (jV L)) ↦[(rwS1).view.set]{fullShare} (rwS1).view.writes (Elt F) frw [⟨Rect.whole S128x128, b_pay (m := m) d L FX hfx t⟩]) :=
    pointsTo_congr (b_writes_whole_cover (rwS1).view frw frw (b_pay (m := m) d L FX hfx t) [⟨Rect.whole S128x128, pold⟩] [])
  refine Transfers.Flight_mono countersEmb _ ?_
  iintro ⟨⟨Hd, Hl⟩, Hs⟩
  isplitl [Hd Hl]
  · isplitl [Hd]
    · iapply (Entails.of_eq hc)
      iexact Hd
    · iexact Hl
  · iexact Hs

/-- Slot 2's gather as the run leaves it — the row buffer's earlier writes still listed, the list spelt by the loop's
    offsets — is the flight the invariant names. -/
theorem b_fl2_restate (FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256) (t : Fin 200)
    (off : Fin 2 → Nat) (inb : ∀ a, off a + S1x128.size a ≤ S200x128.size a) (e : off = ![t.val, 0])
    (hin : ∀ x, (View.read (Elt F) (((ixV).slice (Rect.unit (s := S200x128) off S1x128.size inb) (fun _ => rfl)).squeeze S128 squeezes_S1x128_S128).view FX x : BitVec 32).toNat < 256)
    (pold : S128x128.Idx → Elt F .f32) :
    Transfers.Flight countersEmb (V d (cV L) (jV L)) (SemLoc.dma (⟨6, by decide⟩ : DmaSem sig)) (default : HIx 1) 524288
        iprop((((rwS2).view.loc (V d (cV L) (jV L)) ↦[(rwS2).view.set]{fullShare} (rwS2).view.writes (Elt F) frw
              [⟨Rect.whole S128x128, SparseCore.gatherPayload gathers_S256x128_S128x128 (View.read (Elt F) (b_shW).view (T3 m d : Buf (Elt F) (shLoc d (cV L))))
                  (SparseCore.rows (View.read (Elt F) (((ixV).slice (Rect.unit (s := S200x128) off S1x128.size inb) (fun _ => rfl)).squeeze S128 squeezes_S1x128_S128).view FX) rfl hin)⟩,
                ⟨Rect.whole S128x128, pold⟩])
            ∗ ((((ixV).slice (Rect.unit (s := S200x128) off S1x128.size inb) (fun _ => rfl)).squeeze S128 squeezes_S1x128_S128).view.loc (V d (cV L) (jV L))
                ↦[(((ixV).slice (Rect.unit (s := S200x128) off S1x128.size inb) (fun _ => rfl)).squeeze S128 squeezes_S1x128_S128).view.set]{fullShare} FX))
          ∗ ((b_shW).view.loc (V d (cV L) (jV L)) ↦[(b_shW).view.set]{gshare L 2} T3 m d))
      ⊢ b_fl2 m d L FX frw hfx t := by
  subst e
  have hc : (((rwS2).view.loc (V d (cV L) (jV L)) ↦[(rwS2).view.set]{fullShare} (rwS2).view.writes (Elt F) frw
        [⟨Rect.whole S128x128, b_pay (m := m) d L FX hfx t⟩, ⟨Rect.whole S128x128, pold⟩]) : sProp 𝕄)
      = ((rwS2).view.loc (V d (cV L) (jV L)) ↦[(rwS2).view.set]{fullShare} (rwS2).view.writes (Elt F) frw [⟨Rect.whole S128x128, b_pay (m := m) d L FX hfx t⟩]) :=
    pointsTo_congr (b_writes_whole_cover (rwS2).view frw frw (b_pay (m := m) d L FX hfx t) [⟨Rect.whole S128x128, pold⟩] [])
  refine Transfers.Flight_mono countersEmb _ ?_
  iintro ⟨⟨Hd, Hl⟩, Hs⟩
  isplitl [Hd Hl]
  · isplitl [Hd]
    · iapply (Entails.of_eq hc)
      iexact Hd
    · iexact Hl
  · iexact Hs

/-- Slot 3's gather as the run leaves it — the row buffer's earlier writes still listed, the list spelt by the loop's
    offsets — is the flight the invariant names. -/
theorem b_fl3_restate (FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256) (t : Fin 200)
    (off : Fin 2 → Nat) (inb : ∀ a, off a + S1x128.size a ≤ S200x128.size a) (e : off = ![t.val, 0])
    (hin : ∀ x, (View.read (Elt F) (((ixV).slice (Rect.unit (s := S200x128) off S1x128.size inb) (fun _ => rfl)).squeeze S128 squeezes_S1x128_S128).view FX x : BitVec 32).toNat < 256)
    (pold : S128x128.Idx → Elt F .f32) :
    Transfers.Flight countersEmb (V d (cV L) (jV L)) (SemLoc.dma (⟨7, by decide⟩ : DmaSem sig)) (default : HIx 1) 524288
        iprop((((rwS3).view.loc (V d (cV L) (jV L)) ↦[(rwS3).view.set]{fullShare} (rwS3).view.writes (Elt F) frw
              [⟨Rect.whole S128x128, SparseCore.gatherPayload gathers_S256x128_S128x128 (View.read (Elt F) (b_shW).view (T3 m d : Buf (Elt F) (shLoc d (cV L))))
                  (SparseCore.rows (View.read (Elt F) (((ixV).slice (Rect.unit (s := S200x128) off S1x128.size inb) (fun _ => rfl)).squeeze S128 squeezes_S1x128_S128).view FX) rfl hin)⟩,
                ⟨Rect.whole S128x128, pold⟩])
            ∗ ((((ixV).slice (Rect.unit (s := S200x128) off S1x128.size inb) (fun _ => rfl)).squeeze S128 squeezes_S1x128_S128).view.loc (V d (cV L) (jV L))
                ↦[(((ixV).slice (Rect.unit (s := S200x128) off S1x128.size inb) (fun _ => rfl)).squeeze S128 squeezes_S1x128_S128).view.set]{fullShare} FX))
          ∗ ((b_shW).view.loc (V d (cV L) (jV L)) ↦[(b_shW).view.set]{gshare L 3} T3 m d))
      ⊢ b_fl3 m d L FX frw hfx t := by
  subst e
  have hc : (((rwS3).view.loc (V d (cV L) (jV L)) ↦[(rwS3).view.set]{fullShare} (rwS3).view.writes (Elt F) frw
        [⟨Rect.whole S128x128, b_pay (m := m) d L FX hfx t⟩, ⟨Rect.whole S128x128, pold⟩]) : sProp 𝕄)
      = ((rwS3).view.loc (V d (cV L) (jV L)) ↦[(rwS3).view.set]{fullShare} (rwS3).view.writes (Elt F) frw [⟨Rect.whole S128x128, b_pay (m := m) d L FX hfx t⟩]) :=
    pointsTo_congr (b_writes_whole_cover (rwS3).view frw frw (b_pay (m := m) d L FX hfx t) [⟨Rect.whole S128x128, pold⟩] [])
  refine Transfers.Flight_mono countersEmb _ ?_
  iintro ⟨⟨Hd, Hl⟩, Hs⟩
  isplitl [Hd Hl]
  · isplitl [Hd]
    · iapply (Entails.of_eq hc)
      iexact Hd
    · iexact Hl
  · iexact Hs

omit [FloatOps F] in
/-- The offsets in range for a row's list, whatever spells the row's offsets. -/
theorem b_hin_off (FX : Buf (Elt F) ((V d (cV L) (jV L)).loc cc1_scratch0))
    (hfx : ∀ (t : Fin 200) x, (View.read (Elt F) (b_rowM t).view FX x : BitVec 32).toNat < 256) (t : Fin 200)
    (off : Fin 2 → Nat) (inb : ∀ a, off a + S1x128.size a ≤ S200x128.size a) (e : off = ![t.val, 0]) :
    ∀ x, (View.read (Elt F) (((ixV).slice (Rect.unit (s := S200x128) off S1x128.size inb) (fun _ => rfl)).squeeze S128 squeezes_S1x128_S128).view FX x : BitVec 32).toNat < 256 := by
  subst e; exact hfx t

/-! ## What a trip works on, what it leaves, what it does not touch -/

/-- Out of the invariant before trip `k`: the four gathers in flight (lists rows `4k … 4k+3`), the write-out semaphores,
    the four rows to fix (`4k+4 … 4k+7`) as landed, the four blocks to write (`4k … 4k+3`) as launched. -/
def b_pre (O : CellTallies nD τ sig (HIx 1)) (W : Waits sig (HIx 1)) (G0 FX : Buf (Elt F) ((V d (cV L) (jV L)).loc cc1_scratch0))
    (frw : Buf (Elt F) ((V d (cV L) (jV L)).loc cc1_scratch1))
    (hfx : ∀ (t : Fin 200) x, (View.read (Elt F) (b_rowM t).view FX x : BitVec 32).toNat < 256) (k : Fin k1_t1_loop.trips) : sProp 𝕄 :=
  iprop(Transfers.MayWaits (V d (cV L) (jV L)) (default : HIx 1) O
    ∗ (∃ W', ⌜∀ p ∈ W', p ∈ W ∨ p.2 = none ∨ p.2 = some (0 : Fin 1)⌝ ∗ owes (V d (cV L) (jV L)) O W')
    ∗ b_fl0 m d L FX frw hfx ⟨4 * k.val + 0, c_blk_lt k 0⟩ ∗ b_fl1 m d L FX frw hfx ⟨4 * k.val + 1, c_blk_lt k 1⟩
    ∗ b_fl2 m d L FX frw hfx ⟨4 * k.val + 2, c_blk_lt k 2⟩ ∗ b_fl3 m d L FX frw hfx ⟨4 * k.val + 3, c_blk_lt k 3⟩
    ∗ semVal (dcell d (cV L) (jV L) 8) 0 ∗ semVal (dcell d (cV L) (jV L) 9) 0 ∗ semVal (dcell d (cV L) (jV L) 10) 0 ∗ semVal (dcell d (cV L) (jV L) 11) 0
    ∗ ((V d (cV L) (jV L)).loc cc1_scratch0 ↦[(ixRowR ⟨4 * k.val + 0 + 4, c_row4_lt k 0⟩).set]{fullShare} G0)
    ∗ ((V d (cV L) (jV L)).loc cc1_scratch0 ↦[(ixRowR ⟨4 * k.val + 1 + 4, c_row4_lt k 1⟩).set]{fullShare} G0)
    ∗ ((V d (cV L) (jV L)).loc cc1_scratch0 ↦[(ixRowR ⟨4 * k.val + 2 + 4, c_row4_lt k 2⟩).set]{fullShare} G0)
    ∗ ((V d (cV L) (jV L)).loc cc1_scratch0 ↦[(ixRowR ⟨4 * k.val + 3 + 4, c_row4_lt k 3⟩).set]{fullShare} G0)
    ∗ (v5Loc d ↦[(oblkR (wid (cL L) (jL L)) ⟨4 * k.val + 0, c_blk_lt k 0⟩).set]{fullShare} m (v5Loc d))
    ∗ (v5Loc d ↦[(oblkR (wid (cL L) (jL L)) ⟨4 * k.val + 1, c_blk_lt k 1⟩).set]{fullShare} m (v5Loc d))
    ∗ (v5Loc d ↦[(oblkR (wid (cL L) (jL L)) ⟨4 * k.val + 2, c_blk_lt k 2⟩).set]{fullShare} m (v5Loc d))
    ∗ (v5Loc d ↦[(oblkR (wid (cL L) (jL L)) ⟨4 * k.val + 3, c_blk_lt k 3⟩).set]{fullShare} m (v5Loc d)))

/-- After trip `k`: the next four gathers in flight (lists rows `4k+4 … 4k+7`), the write-out semaphores back at zero,
    the four spent rows at the fixed words, the four blocks at the gathered rows. -/
def b_post (O : CellTallies nD τ sig (HIx 1)) (W : Waits sig (HIx 1)) (FX : Buf (Elt F) ((V d (cV L) (jV L)).loc cc1_scratch0))
    (frw : Buf (Elt F) ((V d (cV L) (jV L)).loc cc1_scratch1))
    (hfx : ∀ (t : Fin 200) x, (View.read (Elt F) (b_rowM t).view FX x : BitVec 32).toNat < 256) (k : Fin k1_t1_loop.trips) : sProp 𝕄 :=
  iprop(Transfers.MayWaits (V d (cV L) (jV L)) (default : HIx 1) O
    ∗ (∃ W', ⌜∀ p ∈ W', p ∈ W ∨ p.2 = none ∨ p.2 = some (0 : Fin 1)⌝ ∗ owes (V d (cV L) (jV L)) O W')
    ∗ b_fl0 m d L FX frw hfx ⟨4 * k.val + 0 + 4, c_row4_lt k 0⟩ ∗ b_fl1 m d L FX frw hfx ⟨4 * k.val + 1 + 4, c_row4_lt k 1⟩
    ∗ b_fl2 m d L FX frw hfx ⟨4 * k.val + 2 + 4, c_row4_lt k 2⟩ ∗ b_fl3 m d L FX frw hfx ⟨4 * k.val + 3 + 4, c_row4_lt k 3⟩
    ∗ semVal (dcell d (cV L) (jV L) 8) 0 ∗ semVal (dcell d (cV L) (jV L) 9) 0 ∗ semVal (dcell d (cV L) (jV L) 10) 0 ∗ semVal (dcell d (cV L) (jV L) 11) 0
    ∗ ((V d (cV L) (jV L)).loc cc1_scratch0 ↦[(ixRowR ⟨4 * k.val + 0, c_blk_lt k 0⟩).set]{fullShare} FX)
    ∗ ((V d (cV L) (jV L)).loc cc1_scratch0 ↦[(ixRowR ⟨4 * k.val + 1, c_blk_lt k 1⟩).set]{fullShare} FX)
    ∗ ((V d (cV L) (jV L)).loc cc1_scratch0 ↦[(ixRowR ⟨4 * k.val + 2, c_blk_lt k 2⟩).set]{fullShare} FX)
    ∗ ((V d (cV L) (jV L)).loc cc1_scratch0 ↦[(ixRowR ⟨4 * k.val + 3, c_blk_lt k 3⟩).set]{fullShare} FX)
    ∗ (v5Loc d ↦[(oblkR (wid (cL L) (jL L)) ⟨4 * k.val + 0, c_blk_lt k 0⟩).set]{fullShare} O5 m d)
    ∗ (v5Loc d ↦[(oblkR (wid (cL L) (jL L)) ⟨4 * k.val + 1, c_blk_lt k 1⟩).set]{fullShare} O5 m d)
    ∗ (v5Loc d ↦[(oblkR (wid (cL L) (jL L)) ⟨4 * k.val + 2, c_blk_lt k 2⟩).set]{fullShare} O5 m d)
    ∗ (v5Loc d ↦[(oblkR (wid (cL L) (jL L)) ⟨4 * k.val + 3, c_blk_lt k 3⟩).set]{fullShare} O5 m d))

end Loop

end Cert.KernelIdeal.Hand

end
-- ==== Proof.FixRowLoop.lean ====
/-
  The row fix-up in the loop's spelling.

  Inside the gather loop, trip `k` rewrites for each of its four slots `r` the row `4 k + r + 4` of the index scratch;
  the program computes each store's offsets from the loop counter, and they are the literals `(4 k + r + 4, 16 c)`.
  So the row's closed form holds with the rectangles spelt by the computed offsets, and on the row — as the next
  gather's offset list addresses it — the rewritten scratch holds the loop invariant's fixed words.
-/
import proofs.«214982_g87402584473731_cont_9to1c4b_667_31_alg».proof.Proof.FixRow
import proofs.«214982_g87402584473731_cont_9to1c4b_667_31_alg».proof.Proof.Blocks
import proofs.«214982_g87402584473731_cont_9to1c4b_667_31_alg».proof.Proof.TileLemmas

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The row's closed form with each store's rectangle spelt by any offsets that ARE the literals `(t, 16 c)`. -/
theorem a_fix_row_chain_offs (t : Nat) (ht : t < 200) (o0 o1 o2 o3 o4 o5 o6 o7 : Fin 2 → Nat)
    (ho0 : o0 = ![t, 0])
    (ho1 : o1 = ![t, 16])
    (ho2 : o2 = ![t, 32])
    (ho3 : o3 = ![t, 48])
    (ho4 : o4 = ![t, 64])
    (ho5 : o5 = ![t, 80])
    (ho6 : o6 = ![t, 96])
    (ho7 : o7 = ![t, 112])
    (hb0 : ∀ a, o0 a + S1x16.size a ≤ S200x128.size a)
    (hb1 : ∀ a, o1 a + S1x16.size a ≤ S200x128.size a)
    (hb2 : ∀ a, o2 a + S1x16.size a ≤ S200x128.size a)
    (hb3 : ∀ a, o3 a + S1x16.size a ≤ S200x128.size a)
    (hb4 : ∀ a, o4 a + S1x16.size a ≤ S200x128.size a)
    (hb5 : ∀ a, o5 a + S1x16.size a ≤ S200x128.size a)
    (hb6 : ∀ a, o6 a + S1x16.size a ≤ S200x128.size a)
    (hb7 : ∀ a, o7 a + S1x16.size a ≤ S200x128.size a)
    (g0 g1 g2 g3 g4 g5 g6 g7 g8 : S200x128.Idx → BitVec 32) (p0 p1 p2 p3 p4 p5 p6 p7 : IVec S1x16 32)
    (e1 : g1 = View.write (Elt F) ((ixV).access (Rect.unit (s := S200x128) o0 S1x16.size hb0)) g0 p0 Finset.univ)
    (e2 : g2 = View.write (Elt F) ((ixV).access (Rect.unit (s := S200x128) o1 S1x16.size hb1)) g1 p1 Finset.univ)
    (e3 : g3 = View.write (Elt F) ((ixV).access (Rect.unit (s := S200x128) o2 S1x16.size hb2)) g2 p2 Finset.univ)
    (e4 : g4 = View.write (Elt F) ((ixV).access (Rect.unit (s := S200x128) o3 S1x16.size hb3)) g3 p3 Finset.univ)
    (e5 : g5 = View.write (Elt F) ((ixV).access (Rect.unit (s := S200x128) o4 S1x16.size hb4)) g4 p4 Finset.univ)
    (e6 : g6 = View.write (Elt F) ((ixV).access (Rect.unit (s := S200x128) o5 S1x16.size hb5)) g5 p5 Finset.univ)
    (e7 : g7 = View.write (Elt F) ((ixV).access (Rect.unit (s := S200x128) o6 S1x16.size hb6)) g6 p6 Finset.univ)
    (e8 : g8 = View.write (Elt F) ((ixV).access (Rect.unit (s := S200x128) o7 S1x16.size hb7)) g7 p7 Finset.univ)
    (q0 : p0 = fun y => (View.readAt (Elt F) (ixV).view (Rect.unit (s := S200x128) o0 S1x16.size hb0).toLoadRect g0 y : BitVec 32) + laneOff 0 y)
    (q1 : p1 = fun y => (View.readAt (Elt F) (ixV).view (Rect.unit (s := S200x128) o1 S1x16.size hb1).toLoadRect g1 y : BitVec 32) + laneOff 1 y)
    (q2 : p2 = fun y => (View.readAt (Elt F) (ixV).view (Rect.unit (s := S200x128) o2 S1x16.size hb2).toLoadRect g2 y : BitVec 32) + laneOff 2 y)
    (q3 : p3 = fun y => (View.readAt (Elt F) (ixV).view (Rect.unit (s := S200x128) o3 S1x16.size hb3).toLoadRect g3 y : BitVec 32) + laneOff 3 y)
    (q4 : p4 = fun y => (View.readAt (Elt F) (ixV).view (Rect.unit (s := S200x128) o4 S1x16.size hb4).toLoadRect g4 y : BitVec 32) + laneOff 4 y)
    (q5 : p5 = fun y => (View.readAt (Elt F) (ixV).view (Rect.unit (s := S200x128) o5 S1x16.size hb5).toLoadRect g5 y : BitVec 32) + laneOff 5 y)
    (q6 : p6 = fun y => (View.readAt (Elt F) (ixV).view (Rect.unit (s := S200x128) o6 S1x16.size hb6).toLoadRect g6 y : BitVec 32) + laneOff 6 y)
    (q7 : p7 = fun y => (View.readAt (Elt F) (ixV).view (Rect.unit (s := S200x128) o7 S1x16.size hb7).toLoadRect g7 y : BitVec 32) + laneOff 7 y) :
    ∀ i : S200x128.Idx, g8 i = if (i 0).val = t then g0 i + BitVec.ofNat 32 (4 * rho ⟨(i 1).val, (i 1).isLt⟩) else g0 i := by
  subst ho0 ho1 ho2 ho3 ho4 ho5 ho6 ho7
  exact fix_row_chain (F := F) t ht hb0 hb1 hb2 hb3 hb4 hb5 hb6 hb7 g0 g1 g2 g3 g4 g5 g6 g7 g8 p0 p1 p2 p3 p4 p5 p6 p7
    e1 e2 e3 e4 e5 e6 e7 e8 q0 q1 q2 q3 q4 q5 q6 q7

/-- THE ROW FIX-UP OF TRIP `k`, SLOT `r`, in the program's spelling: after its eight stores, row `4 k + r + 4` holds
    its words plus `4 ρ` of the column, every other word as before. -/
theorem fix_row_chain_off (k : Fin k1_t1_loop.trips) (r : Fin 4)
    (g0 g1 g2 g3 g4 g5 g6 g7 g8 : S200x128.Idx → BitVec 32) (p0 p1 p2 p3 p4 p5 p6 p7 : IVec S1x16 32)
    (e1 : g1 = View.write (Elt F) ((ixV).access (Rect.unit (s := S200x128) (k1_off4 k (BitVec.ofNat 32 r.val)) S1x16.size (k1_off4_inb k r))) g0 p0 Finset.univ)
    (e2 : g2 = View.write (Elt F) ((ixV).access (Rect.unit (s := S200x128) (k1_off5 k (BitVec.ofNat 32 r.val)) S1x16.size (k1_off5_inb k r))) g1 p1 Finset.univ)
    (e3 : g3 = View.write (Elt F) ((ixV).access (Rect.unit (s := S200x128) (k1_off6 k (BitVec.ofNat 32 r.val)) S1x16.size (k1_off6_inb k r))) g2 p2 Finset.univ)
    (e4 : g4 = View.write (Elt F) ((ixV).access (Rect.unit (s := S200x128) (k1_off7 k (BitVec.ofNat 32 r.val)) S1x16.size (k1_off7_inb k r))) g3 p3 Finset.univ)
    (e5 : g5 = View.write (Elt F) ((ixV).access (Rect.unit (s := S200x128) (k1_off8 k (BitVec.ofNat 32 r.val)) S1x16.size (k1_off8_inb k r))) g4 p4 Finset.univ)
    (e6 : g6 = View.write (Elt F) ((ixV).access (Rect.unit (s := S200x128) (k1_off9 k (BitVec.ofNat 32 r.val)) S1x16.size (k1_off9_inb k r))) g5 p5 Finset.univ)
    (e7 : g7 = View.write (Elt F) ((ixV).access (Rect.unit (s := S200x128) (k1_off10 k (BitVec.ofNat 32 r.val)) S1x16.size (k1_off10_inb k r))) g6 p6 Finset.univ)
    (e8 : g8 = View.write (Elt F) ((ixV).access (Rect.unit (s := S200x128) (k1_off11 k (BitVec.ofNat 32 r.val)) S1x16.size (k1_off11_inb k r))) g7 p7 Finset.univ)
    (q0 : p0 = fun y => (View.readAt (Elt F) (ixV).view (Rect.unit (s := S200x128) (k1_off4 k (BitVec.ofNat 32 r.val)) S1x16.size (k1_off4_inb k r)).toLoadRect g0 y : BitVec 32) + laneOff 0 y)
    (q1 : p1 = fun y => (View.readAt (Elt F) (ixV).view (Rect.unit (s := S200x128) (k1_off5 k (BitVec.ofNat 32 r.val)) S1x16.size (k1_off5_inb k r)).toLoadRect g1 y : BitVec 32) + laneOff 1 y)
    (q2 : p2 = fun y => (View.readAt (Elt F) (ixV).view (Rect.unit (s := S200x128) (k1_off6 k (BitVec.ofNat 32 r.val)) S1x16.size (k1_off6_inb k r)).toLoadRect g2 y : BitVec 32) + laneOff 2 y)
    (q3 : p3 = fun y => (View.readAt (Elt F) (ixV).view (Rect.unit (s := S200x128) (k1_off7 k (BitVec.ofNat 32 r.val)) S1x16.size (k1_off7_inb k r)).toLoadRect g3 y : BitVec 32) + laneOff 3 y)
    (q4 : p4 = fun y => (View.readAt (Elt F) (ixV).view (Rect.unit (s := S200x128) (k1_off8 k (BitVec.ofNat 32 r.val)) S1x16.size (k1_off8_inb k r)).toLoadRect g4 y : BitVec 32) + laneOff 4 y)
    (q5 : p5 = fun y => (View.readAt (Elt F) (ixV).view (Rect.unit (s := S200x128) (k1_off9 k (BitVec.ofNat 32 r.val)) S1x16.size (k1_off9_inb k r)).toLoadRect g5 y : BitVec 32) + laneOff 5 y)
    (q6 : p6 = fun y => (View.readAt (Elt F) (ixV).view (Rect.unit (s := S200x128) (k1_off10 k (BitVec.ofNat 32 r.val)) S1x16.size (k1_off10_inb k r)).toLoadRect g6 y : BitVec 32) + laneOff 6 y)
    (q7 : p7 = fun y => (View.readAt (Elt F) (ixV).view (Rect.unit (s := S200x128) (k1_off11 k (BitVec.ofNat 32 r.val)) S1x16.size (k1_off11_inb k r)).toLoadRect g7 y : BitVec 32) + laneOff 7 y) :
    ∀ i : S200x128.Idx, g8 i = if (i 0).val = 4 * k.val + r.val + 4 then g0 i + BitVec.ofNat 32 (4 * rho ⟨(i 1).val, (i 1).isLt⟩) else g0 i :=
  a_fix_row_chain_offs (F := F) (4 * k.val + r.val + 4) (c_row4_lt k r)
    (k1_off4 k (BitVec.ofNat 32 r.val)) (k1_off5 k (BitVec.ofNat 32 r.val)) (k1_off6 k (BitVec.ofNat 32 r.val)) (k1_off7 k (BitVec.ofNat 32 r.val)) (k1_off8 k (BitVec.ofNat 32 r.val)) (k1_off9 k (BitVec.ofNat 32 r.val)) (k1_off10 k (BitVec.ofNat 32 r.val)) (k1_off11 k (BitVec.ofNat 32 r.val))
    (k1_off4_eq k r) (k1_off5_eq k r) (k1_off6_eq k r) (k1_off7_eq k r) (k1_off8_eq k r) (k1_off9_eq k r) (k1_off10_eq k r) (k1_off11_eq k r)
    (k1_off4_inb k r) (k1_off5_inb k r) (k1_off6_inb k r) (k1_off7_inb k r) (k1_off8_inb k r) (k1_off9_inb k r) (k1_off10_inb k r) (k1_off11_inb k r)
    g0 g1 g2 g3 g4 g5 g6 g7 g8 p0 p1 p2 p3 p4 p5 p6 p7 e1 e2 e3 e4 e5 e6 e7 e8 q0 q1 q2 q3 q4 q5 q6 q7

/-- On the rewritten row, as the slot's next gather addresses it, the scratch holds the fixed words. -/
theorem fixed_on_row_off (k : Fin k1_t1_loop.trips) (r : Fin 4) (G0 FX g8 : S200x128.Idx → BitVec 32)
    (hFG : ∀ i : S200x128.Idx, FX i = BitVec.add (G0 i) (BitVec.ofNat 32 (4 * rho ⟨(i 1).val, (i 1).isLt⟩)))
    (hc : ∀ i : S200x128.Idx, g8 i = if (i 0).val = 4 * k.val + r.val + 4 then G0 i + BitVec.ofNat 32 (4 * rho ⟨(i 1).val, (i 1).isLt⟩) else G0 i) :
    ∀ i ∈ (((ixV).slice (Rect.unit (s := S200x128) (k1_off14 k (BitVec.ofNat 32 r.val)) S1x128.size (k1_off14_inb k r)) (fun _ => rfl)).squeeze S128
        squeezes_S1x128_S128).view.set, g8 i = FX i := by
  intro (i : S200x128.Idx) hi
  rw [set_ixRow] at hi
  have hi' : i ∈ (ixRowR ⟨4 * k.val + r.val + 4, c_row4_lt k r⟩).set := (congrArg (fun R : Rect S200x128 => i ∈ R.set) (ixRow_off14 k r)).mp hi
  rw [mem_ixRow] at hi'
  rw [hc i, if_pos hi', hFG i]
  rfl

/-- The two together: from the eight stores of trip `k`, slot `r`, over the landed words `G0`, to the fixed words on the row. -/
theorem fix_row_loop (k : Fin k1_t1_loop.trips) (r : Fin 4) (G0 FX : S200x128.Idx → BitVec 32)
    (hFG : ∀ i : S200x128.Idx, FX i = BitVec.add (G0 i) (BitVec.ofNat 32 (4 * rho ⟨(i 1).val, (i 1).isLt⟩)))
    (g1 g2 g3 g4 g5 g6 g7 g8 : S200x128.Idx → BitVec 32) (p0 p1 p2 p3 p4 p5 p6 p7 : IVec S1x16 32)
    (e1 : g1 = View.write (Elt F) ((ixV).access (Rect.unit (s := S200x128) (k1_off4 k (BitVec.ofNat 32 r.val)) S1x16.size (k1_off4_inb k r))) G0 p0 Finset.univ)
    (e2 : g2 = View.write (Elt F) ((ixV).access (Rect.unit (s := S200x128) (k1_off5 k (BitVec.ofNat 32 r.val)) S1x16.size (k1_off5_inb k r))) g1 p1 Finset.univ)
    (e3 : g3 = View.write (Elt F) ((ixV).access (Rect.unit (s := S200x128) (k1_off6 k (BitVec.ofNat 32 r.val)) S1x16.size (k1_off6_inb k r))) g2 p2 Finset.univ)
    (e4 : g4 = View.write (Elt F) ((ixV).access (Rect.unit (s := S200x128) (k1_off7 k (BitVec.ofNat 32 r.val)) S1x16.size (k1_off7_inb k r))) g3 p3 Finset.univ)
    (e5 : g5 = View.write (Elt F) ((ixV).access (Rect.unit (s := S200x128) (k1_off8 k (BitVec.ofNat 32 r.val)) S1x16.size (k1_off8_inb k r))) g4 p4 Finset.univ)
    (e6 : g6 = View.write (Elt F) ((ixV).access (Rect.unit (s := S200x128) (k1_off9 k (BitVec.ofNat 32 r.val)) S1x16.size (k1_off9_inb k r))) g5 p5 Finset.univ)
    (e7 : g7 = View.write (Elt F) ((ixV).access (Rect.unit (s := S200x128) (k1_off10 k (BitVec.ofNat 32 r.val)) S1x16.size (k1_off10_inb k r))) g6 p6 Finset.univ)
    (e8 : g8 = View.write (Elt F) ((ixV).access (Rect.unit (s := S200x128) (k1_off11 k (BitVec.ofNat 32 r.val)) S1x16.size (k1_off11_inb k r))) g7 p7 Finset.univ)
    (q0 : p0 = fun y => (View.readAt (Elt F) (ixV).view (Rect.unit (s := S200x128) (k1_off4 k (BitVec.ofNat 32 r.val)) S1x16.size (k1_off4_inb k r)).toLoadRect G0 y : BitVec 32) + laneOff 0 y)
    (q1 : p1 = fun y => (View.readAt (Elt F) (ixV).view (Rect.unit (s := S200x128) (k1_off5 k (BitVec.ofNat 32 r.val)) S1x16.size (k1_off5_inb k r)).toLoadRect g1 y : BitVec 32) + laneOff 1 y)
    (q2 : p2 = fun y => (View.readAt (Elt F) (ixV).view (Rect.unit (s := S200x128) (k1_off6 k (BitVec.ofNat 32 r.val)) S1x16.size (k1_off6_inb k r)).toLoadRect g2 y : BitVec 32) + laneOff 2 y)
    (q3 : p3 = fun y => (View.readAt (Elt F) (ixV).view (Rect.unit (s := S200x128) (k1_off7 k (BitVec.ofNat 32 r.val)) S1x16.size (k1_off7_inb k r)).toLoadRect g3 y : BitVec 32) + laneOff 3 y)
    (q4 : p4 = fun y => (View.readAt (Elt F) (ixV).view (Rect.unit (s := S200x128) (k1_off8 k (BitVec.ofNat 32 r.val)) S1x16.size (k1_off8_inb k r)).toLoadRect g4 y : BitVec 32) + laneOff 4 y)
    (q5 : p5 = fun y => (View.readAt (Elt F) (ixV).view (Rect.unit (s := S200x128) (k1_off9 k (BitVec.ofNat 32 r.val)) S1x16.size (k1_off9_inb k r)).toLoadRect g5 y : BitVec 32) + laneOff 5 y)
    (q6 : p6 = fun y => (View.readAt (Elt F) (ixV).view (Rect.unit (s := S200x128) (k1_off10 k (BitVec.ofNat 32 r.val)) S1x16.size (k1_off10_inb k r)).toLoadRect g6 y : BitVec 32) + laneOff 6 y)
    (q7 : p7 = fun y => (View.readAt (Elt F) (ixV).view (Rect.unit (s := S200x128) (k1_off11 k (BitVec.ofNat 32 r.val)) S1x16.size (k1_off11_inb k r)).toLoadRect g7 y : BitVec 32) + laneOff 7 y) :
    ∀ i ∈ (((ixV).slice (Rect.unit (s := S200x128) (k1_off14 k (BitVec.ofNat 32 r.val)) S1x128.size (k1_off14_inb k r)) (fun _ => rfl)).squeeze S128
        squeezes_S1x128_S128).view.set, g8 i = FX i :=
  fixed_on_row_off k r G0 FX g8 hFG
    (fix_row_chain_off (F := F) k r G0 g1 g2 g3 g4 g5 g6 g7 g8 p0 p1 p2 p3 p4 p5 p6 p7 e1 e2 e3 e4 e5 e6 e7 e8 q0 q1 q2 q3 q4 q5 q6 q7)

end Cert.KernelIdeal.Hand

end
-- ==== Proof.Loop.lean ====
/-
  One trip of the gather loop of a vector subcore's task.

  For each of the four row buffers in turn the trip adds the lane offsets to the next row of indices for that buffer
  (eight chunks of sixteen words: load, add, store), waits for the buffer's gather (which was started a trip earlier, or
  before the loop), copies the buffer out to its block of the result slab and waits for the copy, and starts the buffer's
  next gather with the row just fixed as its offset list. The gathered rows are the rows of the 256-row table that the
  fixed index words name, which is what the result holds at that block; the row buffer is written whole by each gather,
  so what it held before drops out. The trip is first run on exactly the pieces it works on (four flights, four rows,
  four blocks, four semaphores); the invariant before the trip opens into those pieces and what the trip does not touch,
  and what the trip leaves closes with the untouched part into the invariant before the next trip.
-/
import proofs.«214982_g87402584473731_cont_9to1c4b_667_31_alg».proof.Proof.TileLemmas
import proofs.«214982_g87402584473731_cont_9to1c4b_667_31_alg».proof.Proof.TileLemmas2
import proofs.«214982_g87402584473731_cont_9to1c4b_667_31_alg».proof.Proof.Blocks
import proofs.«214982_g87402584473731_cont_9to1c4b_667_31_alg».proof.Proof.Chunks
import proofs.«214982_g87402584473731_cont_9to1c4b_667_31_alg».proof.Proof.LoopInv
import proofs.«214982_g87402584473731_cont_9to1c4b_667_31_alg».proof.Proof.Gathered
import proofs.«214982_g87402584473731_cont_9to1c4b_667_31_alg».proof.Proof.LoopLemmas
import proofs.«214982_g87402584473731_cont_9to1c4b_667_31_alg».proof.Proof.FixRowLoop

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Loop

variable (d : Dev nD) (L : grid1.Coords)

omit [FloatOps F] in
theorem b_row_val_eq {t : Nat} {s : Fin 200} (h : t = s.val) : b_row t = s :=
  Fin.ext (by show t % 200 = s.val; rw [h]; exact Nat.mod_eq_of_lt s.isLt)

/-- What a trip does not touch: the rows spent before it, the rows beyond the four it fixes, the blocks written before
    it, the blocks beyond the four it writes, and the rest of what the task holds. -/
def b_frame (G0 FX : Buf (Elt F) ((V d (cV L) (jV L)).loc cc1_scratch0)) (R : sProp 𝕄) (k : Fin k1_t1_loop.trips) : sProp 𝕄 :=
  iprop((bigSep (Finset.range (4 * k.val)) fun t => (V d (cV L) (jV L)).loc cc1_scratch0 ↦[(ixRowR (b_row t)).set]{fullShare} FX)
    ∗ (bigSep ((Finset.range 200).filter fun t => 4 * k.val + 4 + 4 ≤ t) fun t => (V d (cV L) (jV L)).loc cc1_scratch0 ↦[(ixRowR (b_row t)).set]{fullShare} G0)
    ∗ (v5Loc d ↦[odoneSet (wid (cL L) (jL L)) (4 * k.val)]{fullShare} O5 m d)
    ∗ (v5Loc d ↦[oslabSet (wid (cL L) (jL L)) \ odoneSet (wid (cL L) (jL L)) (4 * k.val + 4)]{fullShare} m (v5Loc d))
    ∗ R)

theorem b_inv_open (O : CellTallies nD τ sig (HIx 1)) (W : Waits sig (HIx 1)) (G0 FX : Buf (Elt F) ((V d (cV L) (jV L)).loc cc1_scratch0))
    (frw : Buf (Elt F) ((V d (cV L) (jV L)).loc cc1_scratch1))
    (hfx : ∀ (t : Fin 200) x, (View.read (Elt F) (b_rowM t).view FX x : BitVec 32).toNat < 256) (R : sProp 𝕄)
    (k : Fin k1_t1_loop.trips) (c : BitVec 32) :
    b_inv m d L O W G0 FX frw hfx R k.val c ⊢ iprop(b_pre m d L O W G0 FX frw hfx k ∗ b_frame m d L G0 FX R k) := by
  have hk := c_trips_lt k
  unfold b_inv b_pre b_frame
  rw [b_take4 _ (4 * k.val + 4) (by omega)]
  beta_reduce
  rw [b_row_val_eq (t := 4 * k.val + 0) (s := ⟨4 * k.val + 0, c_blk_lt k 0⟩) rfl,
    b_row_val_eq (t := 4 * k.val + 1) (s := ⟨4 * k.val + 1, c_blk_lt k 1⟩) rfl,
    b_row_val_eq (t := 4 * k.val + 2) (s := ⟨4 * k.val + 2, c_blk_lt k 2⟩) rfl,
    b_row_val_eq (t := 4 * k.val + 3) (s := ⟨4 * k.val + 3, c_blk_lt k 3⟩) rfl,
    b_row_val_eq (t := 4 * k.val + 4) (s := ⟨4 * k.val + 0 + 4, c_row4_lt k 0⟩) (by show _ = 4 * k.val + 0 + 4; omega),
    b_row_val_eq (t := 4 * k.val + 4 + 1) (s := ⟨4 * k.val + 1 + 4, c_row4_lt k 1⟩) (by show _ = 4 * k.val + 1 + 4; omega),
    b_row_val_eq (t := 4 * k.val + 4 + 2) (s := ⟨4 * k.val + 2 + 4, c_row4_lt k 2⟩) (by show _ = 4 * k.val + 2 + 4; omega),
    b_row_val_eq (t := 4 * k.val + 4 + 3) (s := ⟨4 * k.val + 3 + 4, c_row4_lt k 3⟩) (by show _ = 4 * k.val + 3 + 4; omega)]
  iintro ⟨#Hmw, HO, Hf0, Hf1, Hf2, Hf3, Hs8, Hs9, Hs10, Hs11, Hjunk, ⟨Hn0, Hn1, Hn2, Hn3, Hfut⟩, Hdone, Hrest, HR⟩
  ihave Hr := (b_rest4 (F := F) d L k fullShare (m (v5Loc d))).1 $$ Hrest
  icases Hr with ⟨Hb0, Hb1, Hb2, Hb3, Hrest⟩
  isplitl [HO Hf0 Hf1 Hf2 Hf3 Hs8 Hs9 Hs10 Hs11 Hn0 Hn1 Hn2 Hn3 Hb0 Hb1 Hb2 Hb3]
  · isplitr; · iexact Hmw
    isplitl [HO]; · iexact HO
    isplitl [Hf0]; · iexact Hf0
    isplitl [Hf1]; · iexact Hf1
    isplitl [Hf2]; · iexact Hf2
    isplitl [Hf3]; · iexact Hf3
    isplitl [Hs8]; · iexact Hs8
    isplitl [Hs9]; · iexact Hs9
    isplitl [Hs10]; · iexact Hs10
    isplitl [Hs11]; · iexact Hs11
    isplitl [Hn0]; · iexact Hn0
    isplitl [Hn1]; · iexact Hn1
    isplitl [Hn2]; · iexact Hn2
    isplitl [Hn3]; · iexact Hn3
    isplitl [Hb0]; · iexact Hb0
    isplitl [Hb1]; · iexact Hb1
    isplitl [Hb2]; · iexact Hb2
    iexact Hb3
  · isplitl [Hjunk]; · iexact Hjunk
    isplitl [Hfut]; · iexact Hfut
    isplitl [Hdone]; · iexact Hdone
    isplitl [Hrest]; · iexact Hrest
    iexact HR

theorem b_inv_close (O : CellTallies nD τ sig (HIx 1)) (W : Waits sig (HIx 1)) (G0 FX : Buf (Elt F) ((V d (cV L) (jV L)).loc cc1_scratch0))
    (frw : Buf (Elt F) ((V d (cV L) (jV L)).loc cc1_scratch1))
    (hfx : ∀ (t : Fin 200) x, (View.read (Elt F) (b_rowM t).view FX x : BitVec 32).toNat < 256) (R : sProp 𝕄)
    (k : Fin k1_t1_loop.trips) (c : BitVec 32) :
    iprop(b_post m d L O W FX frw hfx k ∗ b_frame m d L G0 FX R k) ⊢ b_inv m d L O W G0 FX frw hfx R (k.val + 1) c := by
  have hk := c_trips_lt k
  unfold b_inv b_post b_frame
  rw [show 4 * (k.val + 1) = 4 * k.val + 4 from by omega, b_put4 _ (4 * k.val)]
  beta_reduce
  rw [b_row_val_eq (t := 4 * k.val + 4 + 0) (s := ⟨4 * k.val + 0 + 4, c_row4_lt k 0⟩) (by show _ = 4 * k.val + 0 + 4; omega),
    b_row_val_eq (t := 4 * k.val + 4 + 1) (s := ⟨4 * k.val + 1 + 4, c_row4_lt k 1⟩) (by show _ = 4 * k.val + 1 + 4; omega),
    b_row_val_eq (t := 4 * k.val + 4 + 2) (s := ⟨4 * k.val + 2 + 4, c_row4_lt k 2⟩) (by show _ = 4 * k.val + 2 + 4; omega),
    b_row_val_eq (t := 4 * k.val + 4 + 3) (s := ⟨4 * k.val + 3 + 4, c_row4_lt k 3⟩) (by show _ = 4 * k.val + 3 + 4; omega),
    b_row_val_eq (t := 4 * k.val + 3) (s := ⟨4 * k.val + 3, c_blk_lt k 3⟩) rfl,
    b_row_val_eq (t := 4 * k.val + 2) (s := ⟨4 * k.val + 2, c_blk_lt k 2⟩) rfl,
    b_row_val_eq (t := 4 * k.val + 1) (s := ⟨4 * k.val + 1, c_blk_lt k 1⟩) rfl,
    b_row_val_eq (t := 4 * k.val) (s := ⟨4 * k.val + 0, c_blk_lt k 0⟩) rfl]
  iintro ⟨⟨#Hmw, HO, Hf0, Hf1, Hf2, Hf3, Hs8, Hs9, Hs10, Hs11, Hr0, Hr1, Hr2, Hr3, Hb0, Hb1, Hb2, Hb3⟩, Hjunk, Hfut, Hdone, Hrest, HR⟩
  isplitr; · iexact Hmw
  isplitl [HO]; · iexact HO
  isplitl [Hf0]; · iexact Hf0
  isplitl [Hf1]; · iexact Hf1
  isplitl [Hf2]; · iexact Hf2
  isplitl [Hf3]; · iexact Hf3
  isplitl [Hs8]; · iexact Hs8
  isplitl [Hs9]; · iexact Hs9
  isplitl [Hs10]; · iexact Hs10
  isplitl [Hs11]; · iexact Hs11
  isplitl [Hr0 Hr1 Hr2 Hr3 Hjunk]
  · isplitl [Hr3]; · iexact Hr3
    isplitl [Hr2]; · iexact Hr2
    isplitl [Hr1]; · iexact Hr1
    isplitl [Hr0]; · iexact Hr0
    iexact Hjunk
  isplitl [Hfut]; · iexact Hfut
  isplitl [Hdone Hb0 Hb1 Hb2 Hb3]
  · iapply (b_done4 (F := F) d L k fullShare (O5 m d))
    isplitl [Hdone]; · iexact Hdone
    isplitl [Hb0]; · iexact Hb0
    isplitl [Hb1]; · iexact Hb1
    isplitl [Hb2]; · iexact Hb2
    iexact Hb3
  isplitl [Hrest]; · iexact Hrest
  iexact HR

set_option maxHeartbeats 4000000 in
/-- One trip of the gather loop on the pieces it works on. -/
theorem b_trip_core (O : CellTallies nD τ sig (HIx 1)) (W : Waits sig (HIx 1)) (G0 FX : Buf (Elt F) ((V d (cV L) (jV L)).loc cc1_scratch0))
    (frw : Buf (Elt F) ((V d (cV L) (jV L)).loc cc1_scratch1))
    (hfx : ∀ (t : Fin 200) x, (View.read (Elt F) (b_rowM t).view FX x : BitVec 32).toNat < 256)
    (hpay : ∀ t : Fin 200, b_pay (m := m) d L FX hfx t = fun x : S128x128.Idx =>
      O5 m d (ix2 (⟨25600 * (wid (cL L) (jL L)).val + 128 * t.val + (x 0).val, a_row_lt (wid (cL L) (jL L)) t ⟨(x 0).val, (x 0).isLt⟩⟩ : Fin 819200) (⟨(x 1).val, (x 1).isLt⟩ : Fin 128)))
    (hFG : ∀ i, FX i = BitVec.add (G0 i) (BitVec.ofNat 32 (4 * rho ⟨(i 1).val, (i 1).isLt⟩)))
    (k : Fin k1_t1_loop.trips) (v2 : BitVec 32) (v11 v412 : IVec S16 32) (hv11 : v11 = c_iota) (arg12 : BitVec 32) :
    b_pre m d L O W G0 FX frw hfx k
      ⊢ wp frame (wpE (defs₀ (F := F)) 𝒱₀ (V d (cV L) (jV L)) none) Set.univ
          (k1_t1_body L iV (Memref.isWhole_whole _) tV (Memref.isWhole_whole _) oV (Memref.isWhole_whole _)
            ixV (Memref.isWhole_whole _) rwV (Memref.isWhole_whole _) shV (Memref.isWhole_whole _)
            cc1_scratch3 cc1_scratch4 cc1_scratch5 cc1_scoped0 cc1_scoped1 v2 v11 v412 k arg12)
          fun _ => b_post m d L O W FX frw hfx k := by
  unfold k1_t1_body
  simp only [k1_part1_eq_skeleton]; unfold k1_part1_skel
  unfold b_pre b_fl0 b_fl1 b_fl2 b_fl3
  iintro ⟨#Hmw, ⟨%W', %hW', HO⟩, Hf0, Hf1, Hf2, Hf3, Hs8, Hs9, Hs10, Hs11, Hn0, Hn1, Hn2, Hn3, Hb0, Hb1, Hb2, Hb3⟩
  ihave Hn0 := (Entails.of_eq (b_pts_rowN0 (F := F) d L k fullShare G0).symm) $$ Hn0
  ihave Hn1 := (Entails.of_eq (b_pts_rowN1 (F := F) d L k fullShare G0).symm) $$ Hn1
  ihave Hn2 := (Entails.of_eq (b_pts_rowN2 (F := F) d L k fullShare G0).symm) $$ Hn2
  ihave Hn3 := (Entails.of_eq (b_pts_rowN3 (F := F) d L k fullShare G0).symm) $$ Hn3
  ihave Hb0 := (Entails.of_eq (b_pts_oblk0 (F := F) d L k fullShare (m (v5Loc d))).symm) $$ Hb0
  ihave Hb1 := (Entails.of_eq (b_pts_oblk1 (F := F) d L k fullShare (m (v5Loc d))).symm) $$ Hb1
  ihave Hb2 := (Entails.of_eq (b_pts_oblk2 (F := F) d L k fullShare (m (v5Loc d))).symm) $$ Hb2
  ihave Hb3 := (Entails.of_eq (b_pts_oblk3 (F := F) d L k fullShare (m (v5Loc d))).symm) $$ Hb3
  have hc0_4 : ((ixV).access (Rect.unit (s := S200x128) (k1_off4 k 0#32) S1x16.size (k1_off4_inb k 0))).set ⊆ (b_rowN0 k).view.set :=
    b_chunk_sub (4 * k.val + 0 + 4) 0 (k1_off4_eq k 0) (k1_off14_eq k 0) (by decide) _ _
  have hc0_5 : ((ixV).access (Rect.unit (s := S200x128) (k1_off5 k 0#32) S1x16.size (k1_off5_inb k 0))).set ⊆ (b_rowN0 k).view.set :=
    b_chunk_sub (4 * k.val + 0 + 4) 16 (k1_off5_eq k 0) (k1_off14_eq k 0) (by decide) _ _
  have hc0_6 : ((ixV).access (Rect.unit (s := S200x128) (k1_off6 k 0#32) S1x16.size (k1_off6_inb k 0))).set ⊆ (b_rowN0 k).view.set :=
    b_chunk_sub (4 * k.val + 0 + 4) 32 (k1_off6_eq k 0) (k1_off14_eq k 0) (by decide) _ _
  have hc0_7 : ((ixV).access (Rect.unit (s := S200x128) (k1_off7 k 0#32) S1x16.size (k1_off7_inb k 0))).set ⊆ (b_rowN0 k).view.set :=
    b_chunk_sub (4 * k.val + 0 + 4) 48 (k1_off7_eq k 0) (k1_off14_eq k 0) (by decide) _ _
  have hc0_8 : ((ixV).access (Rect.unit (s := S200x128) (k1_off8 k 0#32) S1x16.size (k1_off8_inb k 0))).set ⊆ (b_rowN0 k).view.set :=
    b_chunk_sub (4 * k.val + 0 + 4) 64 (k1_off8_eq k 0) (k1_off14_eq k 0) (by decide) _ _
  have hc0_9 : ((ixV).access (Rect.unit (s := S200x128) (k1_off9 k 0#32) S1x16.size (k1_off9_inb k 0))).set ⊆ (b_rowN0 k).view.set :=
    b_chunk_sub (4 * k.val + 0 + 4) 80 (k1_off9_eq k 0) (k1_off14_eq k 0) (by decide) _ _
  have hc0_10 : ((ixV).access (Rect.unit (s := S200x128) (k1_off10 k 0#32) S1x16.size (k1_off10_inb k 0))).set ⊆ (b_rowN0 k).view.set :=
    b_chunk_sub (4 * k.val + 0 + 4) 96 (k1_off10_eq k 0) (k1_off14_eq k 0) (by decide) _ _
  have hc0_11 : ((ixV).access (Rect.unit (s := S200x128) (k1_off11 k 0#32) S1x16.size (k1_off11_inb k 0))).set ⊆ (b_rowN0 k).view.set :=
    b_chunk_sub (4 * k.val + 0 + 4) 112 (k1_off11_eq k 0) (k1_off14_eq k 0) (by decide) _ _
  have hc1_4 : ((ixV).access (Rect.unit (s := S200x128) (k1_off4 k 1#32) S1x16.size (k1_off4_inb k 1))).set ⊆ (b_rowN1 k).view.set :=
    b_chunk_sub (4 * k.val + 1 + 4) 0 (k1_off4_eq k 1) (k1_off14_eq k 1) (by decide) _ _
  have hc1_5 : ((ixV).access (Rect.unit (s := S200x128) (k1_off5 k 1#32) S1x16.size (k1_off5_inb k 1))).set ⊆ (b_rowN1 k).view.set :=
    b_chunk_sub (4 * k.val + 1 + 4) 16 (k1_off5_eq k 1) (k1_off14_eq k 1) (by decide) _ _
  have hc1_6 : ((ixV).access (Rect.unit (s := S200x128) (k1_off6 k 1#32) S1x16.size (k1_off6_inb k 1))).set ⊆ (b_rowN1 k).view.set :=
    b_chunk_sub (4 * k.val + 1 + 4) 32 (k1_off6_eq k 1) (k1_off14_eq k 1) (by decide) _ _
  have hc1_7 : ((ixV).access (Rect.unit (s := S200x128) (k1_off7 k 1#32) S1x16.size (k1_off7_inb k 1))).set ⊆ (b_rowN1 k).view.set :=
    b_chunk_sub (4 * k.val + 1 + 4) 48 (k1_off7_eq k 1) (k1_off14_eq k 1) (by decide) _ _
  have hc1_8 : ((ixV).access (Rect.unit (s := S200x128) (k1_off8 k 1#32) S1x16.size (k1_off8_inb k 1))).set ⊆ (b_rowN1 k).view.set :=
    b_chunk_sub (4 * k.val + 1 + 4) 64 (k1_off8_eq k 1) (k1_off14_eq k 1) (by decide) _ _
  have hc1_9 : ((ixV).access (Rect.unit (s := S200x128) (k1_off9 k 1#32) S1x16.size (k1_off9_inb k 1))).set ⊆ (b_rowN1 k).view.set :=
    b_chunk_sub (4 * k.val + 1 + 4) 80 (k1_off9_eq k 1) (k1_off14_eq k 1) (by decide) _ _
  have hc1_10 : ((ixV).access (Rect.unit (s := S200x128) (k1_off10 k 1#32) S1x16.size (k1_off10_inb k 1))).set ⊆ (b_rowN1 k).view.set :=
    b_chunk_sub (4 * k.val + 1 + 4) 96 (k1_off10_eq k 1) (k1_off14_eq k 1) (by decide) _ _
  have hc1_11 : ((ixV).access (Rect.unit (s := S200x128) (k1_off11 k 1#32) S1x16.size (k1_off11_inb k 1))).set ⊆ (b_rowN1 k).view.set :=
    b_chunk_sub (4 * k.val + 1 + 4) 112 (k1_off11_eq k 1) (k1_off14_eq k 1) (by decide) _ _
  have hc2_4 : ((ixV).access (Rect.unit (s := S200x128) (k1_off4 k 2#32) S1x16.size (k1_off4_inb k 2))).set ⊆ (b_rowN2 k).view.set :=
    b_chunk_sub (4 * k.val + 2 + 4) 0 (k1_off4_eq k 2) (k1_off14_eq k 2) (by decide) _ _
  have hc2_5 : ((ixV).access (Rect.unit (s := S200x128) (k1_off5 k 2#32) S1x16.size (k1_off5_inb k 2))).set ⊆ (b_rowN2 k).view.set :=
    b_chunk_sub (4 * k.val + 2 + 4) 16 (k1_off5_eq k 2) (k1_off14_eq k 2) (by decide) _ _
  have hc2_6 : ((ixV).access (Rect.unit (s := S200x128) (k1_off6 k 2#32) S1x16.size (k1_off6_inb k 2))).set ⊆ (b_rowN2 k).view.set :=
    b_chunk_sub (4 * k.val + 2 + 4) 32 (k1_off6_eq k 2) (k1_off14_eq k 2) (by decide) _ _
  have hc2_7 : ((ixV).access (Rect.unit (s := S200x128) (k1_off7 k 2#32) S1x16.size (k1_off7_inb k 2))).set ⊆ (b_rowN2 k).view.set :=
    b_chunk_sub (4 * k.val + 2 + 4) 48 (k1_off7_eq k 2) (k1_off14_eq k 2) (by decide) _ _
  have hc2_8 : ((ixV).access (Rect.unit (s := S200x128) (k1_off8 k 2#32) S1x16.size (k1_off8_inb k 2))).set ⊆ (b_rowN2 k).view.set :=
    b_chunk_sub (4 * k.val + 2 + 4) 64 (k1_off8_eq k 2) (k1_off14_eq k 2) (by decide) _ _
  have hc2_9 : ((ixV).access (Rect.unit (s := S200x128) (k1_off9 k 2#32) S1x16.size (k1_off9_inb k 2))).set ⊆ (b_rowN2 k).view.set :=
    b_chunk_sub (4 * k.val + 2 + 4) 80 (k1_off9_eq k 2) (k1_off14_eq k 2) (by decide) _ _
  have hc2_10 : ((ixV).access (Rect.unit (s := S200x128) (k1_off10 k 2#32) S1x16.size (k1_off10_inb k 2))).set ⊆ (b_rowN2 k).view.set :=
    b_chunk_sub (4 * k.val + 2 + 4) 96 (k1_off10_eq k 2) (k1_off14_eq k 2) (by decide) _ _
  have hc2_11 : ((ixV).access (Rect.unit (s := S200x128) (k1_off11 k 2#32) S1x16.size (k1_off11_inb k 2))).set ⊆ (b_rowN2 k).view.set :=
    b_chunk_sub (4 * k.val + 2 + 4) 112 (k1_off11_eq k 2) (k1_off14_eq k 2) (by decide) _ _
  have hc3_4 : ((ixV).access (Rect.unit (s := S200x128) (k1_off4 k 3#32) S1x16.size (k1_off4_inb k 3))).set ⊆ (b_rowN3 k).view.set :=
    b_chunk_sub (4 * k.val + 3 + 4) 0 (k1_off4_eq k 3) (k1_off14_eq k 3) (by decide) _ _
  have hc3_5 : ((ixV).access (Rect.unit (s := S200x128) (k1_off5 k 3#32) S1x16.size (k1_off5_inb k 3))).set ⊆ (b_rowN3 k).view.set :=
    b_chunk_sub (4 * k.val + 3 + 4) 16 (k1_off5_eq k 3) (k1_off14_eq k 3) (by decide) _ _
  have hc3_6 : ((ixV).access (Rect.unit (s := S200x128) (k1_off6 k 3#32) S1x16.size (k1_off6_inb k 3))).set ⊆ (b_rowN3 k).view.set :=
    b_chunk_sub (4 * k.val + 3 + 4) 32 (k1_off6_eq k 3) (k1_off14_eq k 3) (by decide) _ _
  have hc3_7 : ((ixV).access (Rect.unit (s := S200x128) (k1_off7 k 3#32) S1x16.size (k1_off7_inb k 3))).set ⊆ (b_rowN3 k).view.set :=
    b_chunk_sub (4 * k.val + 3 + 4) 48 (k1_off7_eq k 3) (k1_off14_eq k 3) (by decide) _ _
  have hc3_8 : ((ixV).access (Rect.unit (s := S200x128) (k1_off8 k 3#32) S1x16.size (k1_off8_inb k 3))).set ⊆ (b_rowN3 k).view.set :=
    b_chunk_sub (4 * k.val + 3 + 4) 64 (k1_off8_eq k 3) (k1_off14_eq k 3) (by decide) _ _
  have hc3_9 : ((ixV).access (Rect.unit (s := S200x128) (k1_off9 k 3#32) S1x16.size (k1_off9_inb k 3))).set ⊆ (b_rowN3 k).view.set :=
    b_chunk_sub (4 * k.val + 3 + 4) 80 (k1_off9_eq k 3) (k1_off14_eq k 3) (by decide) _ _
  have hc3_10 : ((ixV).access (Rect.unit (s := S200x128) (k1_off10 k 3#32) S1x16.size (k1_off10_inb k 3))).set ⊆ (b_rowN3 k).view.set :=
    b_chunk_sub (4 * k.val + 3 + 4) 96 (k1_off10_eq k 3) (k1_off14_eq k 3) (by decide) _ _
  have hc3_11 : ((ixV).access (Rect.unit (s := S200x128) (k1_off11 k 3#32) S1x16.size (k1_off11_inb k 3))).set ⊆ (b_rowN3 k).view.set :=
    b_chunk_sub (4 * k.val + 3 + 4) 112 (k1_off11_eq k 3) (k1_off14_eq k 3) (by decide) _ _

  -- slot 0: the row fixed, the gather waited
  sl_exec
  icases Hf0_dst with ⟨Hrw0, Hrd0⟩
  -- the row buffer copied out, the copy waited
  sl_exec
  -- the row just fixed holds the fixed words
  have hfix0 : ∀ i ∈ (b_rowN0 k).view.set, (b_trip_core.sl.Hn0_w8 d L G0 k v11) i = FX i := by
    sl_unfold_run_names
    subst hv11
    exact fix_row_loop (F := F) k 0 G0 FX hFG _ _ _ _ _ _ _ _ _ _ _ _ _ _ _ _ rfl rfl rfl rfl rfl rfl rfl rfl
      (c_store_k1_pay1 _) (c_store_k1_pay2 _) (c_store_k1_pay3 _) (c_store_k1_pay4 _) (c_store_k1_pay5 _) (c_store_k1_pay6 _) (c_store_k1_pay8 _) (c_store_k1_pay9 _)
  ihave Hn0 := (show ((b_rowN0 k).view.loc (V d (cV L) (jV L)) ↦[(b_rowN0 k).view.set]{fullShare} _ : sProp 𝕄)
      ⊢ ((b_rowN0 k).view.loc (V d (cV L) (jV L)) ↦[(b_rowN0 k).view.set]{fullShare} FX) from Entails.of_eq (pointsTo_congr hfix0)) $$ Hn0
  -- the next gather, by that row
  have hin0 : ∀ x, (View.read (Elt F) (b_rowN0 k).view FX x : BitVec 32).toNat < 256 :=
    b_hin_off d L FX hfx ⟨4 * k.val + 0 + 4, c_row4_lt k 0⟩ _ _ (k1_off14_eq k 0)

  -- slot 1: the row fixed, the gather waited
  sl_exec
  icases Hf1_dst with ⟨Hrw1, Hrd1⟩
  -- the row buffer copied out, the copy waited
  sl_exec
  -- the row just fixed holds the fixed words
  have hfix1 : ∀ i ∈ (b_rowN1 k).view.set, (b_trip_core.sl.Hn1_w8 d L G0 k v11) i = FX i := by
    sl_unfold_run_names
    subst hv11
    exact fix_row_loop (F := F) k 1 G0 FX hFG _ _ _ _ _ _ _ _ _ _ _ _ _ _ _ _ rfl rfl rfl rfl rfl rfl rfl rfl
      (c_store_k1_pay10 _) (c_store_k1_pay12 _) (c_store_k1_pay13 _) (c_store_k1_pay14 _) (c_store_k1_pay16 _) (c_store_k1_pay17 _) (c_store_k1_pay18 _) (c_store_k1_pay19 _)
  ihave Hn1 := (show ((b_rowN1 k).view.loc (V d (cV L) (jV L)) ↦[(b_rowN1 k).view.set]{fullShare} _ : sProp 𝕄)
      ⊢ ((b_rowN1 k).view.loc (V d (cV L) (jV L)) ↦[(b_rowN1 k).view.set]{fullShare} FX) from Entails.of_eq (pointsTo_congr hfix1)) $$ Hn1
  -- the next gather, by that row
  have hin1 : ∀ x, (View.read (Elt F) (b_rowN1 k).view FX x : BitVec 32).toNat < 256 :=
    b_hin_off d L FX hfx ⟨4 * k.val + 1 + 4, c_row4_lt k 1⟩ _ _ (k1_off14_eq k 1)

  -- slot 2: the row fixed, the gather waited
  sl_exec
  icases Hf2_dst with ⟨Hrw2, Hrd2⟩
  -- the row buffer copied out, the copy waited
  sl_exec
  -- the row just fixed holds the fixed words
  have hfix2 : ∀ i ∈ (b_rowN2 k).view.set, (b_trip_core.sl.Hn2_w8 d L G0 k v11) i = FX i := by
    sl_unfold_run_names
    subst hv11
    exact fix_row_loop (F := F) k 2 G0 FX hFG _ _ _ _ _ _ _ _ _ _ _ _ _ _ _ _ rfl rfl rfl rfl rfl rfl rfl rfl
      (c_store_k1_pay20 _) (c_store_k1_pay21 _) (c_store_k1_pay23 _) (c_store_k1_pay24 _) (c_store_k1_pay25 _) (c_store_k1_pay26 _) (c_store_k1_pay29 _) (c_store_k1_pay30 _)
  ihave Hn2 := (show ((b_rowN2 k).view.loc (V d (cV L) (jV L)) ↦[(b_rowN2 k).view.set]{fullShare} _ : sProp 𝕄)
      ⊢ ((b_rowN2 k).view.loc (V d (cV L) (jV L)) ↦[(b_rowN2 k).view.set]{fullShare} FX) from Entails.of_eq (pointsTo_congr hfix2)) $$ Hn2
  -- the next gather, by that row
  have hin2 : ∀ x, (View.read (Elt F) (b_rowN2 k).view FX x : BitVec 32).toNat < 256 :=
    b_hin_off d L FX hfx ⟨4 * k.val + 2 + 4, c_row4_lt k 2⟩ _ _ (k1_off14_eq k 2)

  -- slot 3: the row fixed, the gather waited
  sl_exec
  icases Hf3_dst with ⟨Hrw3, Hrd3⟩
  -- the row buffer copied out, the copy waited
  sl_exec
  -- the row just fixed holds the fixed words
  have hfix3 : ∀ i ∈ (b_rowN3 k).view.set, (b_trip_core.sl.Hn3_w8 d L G0 k v11) i = FX i := by
    sl_unfold_run_names
    subst hv11
    exact fix_row_loop (F := F) k 3 G0 FX hFG _ _ _ _ _ _ _ _ _ _ _ _ _ _ _ _ rfl rfl rfl rfl rfl rfl rfl rfl
      (c_store_k1_pay31 _) (c_store_k1_pay32 _) (c_store_k1_pay33 _) (c_store_k1_pay34 _) (c_store_k1_pay38 _) (c_store_k1_pay39 _) (c_store_k1_pay40 _) (c_store_k1_pay41 _)
  ihave Hn3 := (show ((b_rowN3 k).view.loc (V d (cV L) (jV L)) ↦[(b_rowN3 k).view.set]{fullShare} _ : sProp 𝕄)
      ⊢ ((b_rowN3 k).view.loc (V d (cV L) (jV L)) ↦[(b_rowN3 k).view.set]{fullShare} FX) from Entails.of_eq (pointsTo_congr hfix3)) $$ Hn3
  -- the next gather, by that row
  have hin3 : ∀ x, (View.read (Elt F) (b_rowN3 k).view FX x : BitVec 32).toNat < 256 :=
    b_hin_off d L FX hfx ⟨4 * k.val + 3 + 4, c_row4_lt k 3⟩ _ _ (k1_off14_eq k 3)

  sl_exec
  sl_step
  unfold b_post
  isplitr; · iexact Hmw
  isplitl [HO]
  · iexists _; isplitr
    swap; · iexact HO
    ipureintro
    intro p hp
    repeat (rcases Finset.mem_insert.mp hp with rfl | hp; · exact Or.inr (Or.inl rfl))
    exact hW' p hp

  isplitl [Hf0]
  · iapply (b_fl0_restate m d L FX frw hfx ⟨4 * k.val + 0 + 4, c_row4_lt k 0⟩ _ _ (k1_off14_eq k 0) hin0 _)
    iexact Hf0
  isplitl [Hf1]
  · iapply (b_fl1_restate m d L FX frw hfx ⟨4 * k.val + 1 + 4, c_row4_lt k 1⟩ _ _ (k1_off14_eq k 1) hin1 _)
    iexact Hf1
  isplitl [Hf2]
  · iapply (b_fl2_restate m d L FX frw hfx ⟨4 * k.val + 2 + 4, c_row4_lt k 2⟩ _ _ (k1_off14_eq k 2) hin2 _)
    iexact Hf2
  isplitl [Hf3]
  · iapply (b_fl3_restate m d L FX frw hfx ⟨4 * k.val + 3 + 4, c_row4_lt k 3⟩ _ _ (k1_off14_eq k 3) hin3 _)
    iexact Hf3
  isplitl [Hs8]; · iexact Hs8
  isplitl [Hs9]; · iexact Hs9
  isplitl [Hs10]; · iexact Hs10
  isplitl [Hs11]; · iexact Hs11
  isplitl [Hrd0]; · iapply (Entails.of_eq (b_pts_rowM (F := F) d L ⟨4 * k.val + 0, c_blk_lt k 0⟩ fullShare FX)); iexact Hrd0
  isplitl [Hrd1]; · iapply (Entails.of_eq (b_pts_rowM (F := F) d L ⟨4 * k.val + 1, c_blk_lt k 1⟩ fullShare FX)); iexact Hrd1
  isplitl [Hrd2]; · iapply (Entails.of_eq (b_pts_rowM (F := F) d L ⟨4 * k.val + 2, c_blk_lt k 2⟩ fullShare FX)); iexact Hrd2
  isplitl [Hrd3]; · iapply (Entails.of_eq (b_pts_rowM (F := F) d L ⟨4 * k.val + 3, c_blk_lt k 3⟩ fullShare FX)); iexact Hrd3
  isplitl [Hb0]
  · iapply (Entails.of_eq (b_blk_landed m d (wid (cL L) (jL L)) ⟨4 * k.val + 0, c_blk_lt k 0⟩ _ _ (b_off13_0 L k) rwS0 frw _ (hpay _) (cV L) (jV L) _ fullShare)); iexact Hb0
  isplitl [Hb1]
  · iapply (Entails.of_eq (b_blk_landed m d (wid (cL L) (jL L)) ⟨4 * k.val + 1, c_blk_lt k 1⟩ _ _ (b_off13_1 L k) rwS1 frw _ (hpay _) (cV L) (jV L) _ fullShare)); iexact Hb1
  isplitl [Hb2]
  · iapply (Entails.of_eq (b_blk_landed m d (wid (cL L) (jL L)) ⟨4 * k.val + 2, c_blk_lt k 2⟩ _ _ (b_off13_2 L k) rwS2 frw _ (hpay _) (cV L) (jV L) _ fullShare)); iexact Hb2
  iapply (Entails.of_eq (b_blk_landed m d (wid (cL L) (jL L)) ⟨4 * k.val + 3, c_blk_lt k 3⟩ _ _ (b_off13_3 L k) rwS3 frw _ (hpay _) (cV L) (jV L) _ fullShare)); iexact Hb3

/-- **One trip of the gather loop**: from the invariant before trip `k` to the invariant before trip `k + 1`. -/
theorem b_trip (O : CellTallies nD τ sig (HIx 1)) (W : Waits sig (HIx 1)) (G0 FX : Buf (Elt F) ((V d (cV L) (jV L)).loc cc1_scratch0))
    (frw : Buf (Elt F) ((V d (cV L) (jV L)).loc cc1_scratch1))
    (hfx : ∀ (t : Fin 200) x, (View.read (Elt F) (b_rowM t).view FX x : BitVec 32).toNat < 256)
    (hpay : ∀ t : Fin 200, b_pay (m := m) d L FX hfx t = fun x : S128x128.Idx =>
      O5 m d (ix2 (⟨25600 * (wid (cL L) (jL L)).val + 128 * t.val + (x 0).val, a_row_lt (wid (cL L) (jL L)) t ⟨(x 0).val, (x 0).isLt⟩⟩ : Fin 819200) (⟨(x 1).val, (x 1).isLt⟩ : Fin 128)))
    (hFG : ∀ i, FX i = BitVec.add (G0 i) (BitVec.ofNat 32 (4 * rho ⟨(i 1).val, (i 1).isLt⟩)))
    (R : sProp 𝕄) (k : Fin k1_t1_loop.trips) (v2 : BitVec 32) (v11 v412 : IVec S16 32) (hv11 : v11 = c_iota) (arg12 : BitVec 32) :
    b_inv m d L O W G0 FX frw hfx R k.val arg12
      ⊢ wp frame (wpE (defs₀ (F := F)) 𝒱₀ (V d (cV L) (jV L)) none) Set.univ
          (k1_t1_body L iV (Memref.isWhole_whole _) tV (Memref.isWhole_whole _) oV (Memref.isWhole_whole _)
            ixV (Memref.isWhole_whole _) rwV (Memref.isWhole_whole _) shV (Memref.isWhole_whole _)
            cc1_scratch3 cc1_scratch4 cc1_scratch5 cc1_scoped0 cc1_scoped1 v2 v11 v412 k arg12)
          fun c => b_inv m d L O W G0 FX frw hfx R (k.val + 1) c :=
  (b_inv_open m d L O W G0 FX frw hfx R k arg12).trans
    ((sep_mono (b_trip_core m d L O W G0 FX frw hfx hpay hFG k v2 v11 v412 hv11 arg12) .rfl).trans
      ((wp_frame_r Idealize.ShloMosaic.frame _ Set.univ).trans
        (wp_mono Idealize.ShloMosaic.frame _ Set.univ fun c => b_inv_close m d L O W G0 FX frw hfx R k c)))

end Loop

end Cert.KernelIdeal.Hand

end
-- ==== Proof.Tile.lean ====
/-
  One vector subcore's task. Subcore `s` of SparseCore `c` works on slab `w = 2s + c`: it copies block `s` (rows
  16s … 16s+15) of the 256-row table into its SparseCore's shared memory, fetches the first 8 of its 200 rows of indices
  and starts the fetch of the other 192, meets the other fifteen subcores at the barrier — handing each a sixteenth of its
  block and receiving a sixteenth of every block, so that from then on it reads the whole shared table —, and then, row
  of 128 indices by row, adds the lane offsets, gathers the 128 named table rows into one of four row buffers and copies
  the buffer out to rows 25600 w + 128 t … of the result.
-/
import proofs.«214982_g87402584473731_cont_9to1c4b_667_31_alg».proof.Proof.TileLemmas4
import proofs.«214982_g87402584473731_cont_9to1c4b_667_31_alg».proof.Proof.LoopInv
import proofs.«214982_g87402584473731_cont_9to1c4b_667_31_alg».proof.Proof.Inv0
import proofs.«214982_g87402584473731_cont_9to1c4b_667_31_alg».proof.Proof.PostLoop
import proofs.«214982_g87402584473731_cont_9to1c4b_667_31_alg».proof.Proof.Loop

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Tile

variable (d : Dev nD) (L : grid1.Coords)

set_option maxHeartbeats 4000000 in
theorem tile_body (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goC m d (cL L) (cV L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__gather_body L iV (Memref.isWhole_whole _) tV (Memref.isWhole_whole _) oV (Memref.isWhole_whole _)
            ixV (Memref.isWhole_whole _) rwV (Memref.isWhole_whole _) shV (Memref.isWhole_whole _)
            cc1_scratch3 cc1_scratch4 cc1_scratch5 cc1_scoped0 cc1_scoped1)
          fun _ => iprop(tdC m d (cL L) (cV L) (jL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1__gather_body_eq_skeleton]; unfold cc1__gather_body_skel
  simp only [k1_part15_eq_skeleton]; unfold k1_part15_skel
  simp only [k1_part16_eq_skeleton]; unfold k1_part16_skel
  rw [(K (F := F)).scopedBufs_V hF d (cV L) (jV L), SparseCore.Cfg.scopedSems0_V (Val := Elt F) d (cV L) (jV L), ownSems0_V, myK_chain, ownBufs_V]
  unfold bkit goC
  iintro ⟨#Hlv, ⟨⟨%κ, #Hinv⟩, Htoks, #Hrch, Hat, Hcred⟩, ⟨Ht, Hi, Ho, %fsh, Hsh⟩, ⟨⟨%fixb, Hix⟩, ⟨%frw, Hrw⟩, Hbufs⟩, ⟨⟨Hs4, Hs5, Hs6, Hs7, Hs8, Hs9, Hs10, Hs11, Hs12, Hs13, Hs14⟩, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tSlK (F := F) d L _ _).symm) $$ Ht
  ihave Hsh' := (Entails.of_eq (pts_shSlK (F := F) d L _ _).symm) $$ Hsh
  ihave Hi' := (pts_islab (F := F) d L _).1 $$ Hi
  icases Hi' with ⟨Hihd, Hitl⟩
  ihave Hix' := (pts_ix_split (F := F) d (cV L) (jV L) _).1 $$ Hix
  icases Hix' with ⟨Hixh, Hixt⟩
  ihave Hrw' := (Entails.of_eq (pts_rwV (F := F) d L _).symm) $$ Hrw
  sl_exec
  -- the barrier: a sixteenth of the block to every subcore's round, a sixteenth of every block from the subcore's own
  sl_unfold_run_names
  ihave Hsh2 := (Entails.of_eq (sh_landed (F := F) m d L _ _)) $$ Hsh'
  ihave Hsh3 := (Entails.of_eq (pts_shSlK (F := F) d L _ _)) $$ Hsh2
  ihave Hpays := (pays_intro (F := F) m d L) $$ Hsh3
  rw [wp_bind]
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hshw := (pays_elim (F := F) m d L) $$ Hgot
  -- past the barrier: the shared table whole at a sixteenth, split for the four gathers; the four row buffers apart;
  -- rows 0 … 3 of the index scratch apart, each as its gather's offset list addresses it
  ihave Hshw' := (Entails.of_eq (pts_shV (F := F) d L _ _).symm) $$ Hshw
  ihave Hsh4 := (Entails.of_eq (sh_four (F := F) d L _)) $$ Hshw'
  icases Hsh4 with ⟨Hsh0, Hsh1, Hsh2, Hsh3⟩
  ihave Hrw2 := (Entails.of_eq (pts_rwV (F := F) d L _)) $$ Hrw'
  ihave Hrw3 := (pts_rw_split (F := F) d (cV L) (jV L) _).1 $$ Hrw2
  icases Hrw3 with ⟨Hrw0, Hrw1, Hrw2, Hrw3⟩
  ihave Hixh := (Entails.of_eq (pts_G0hdO (F := F) m d L fixb)) $$ Hixh
  ihave Hr4 := (carve_rows4 (F := F) d L (G0hdO m d L fixb)).1 $$ Hixh
  icases Hr4 with ⟨Hrow0, Hrow1, Hrow2, Hrow3, Hixh⟩
  have hc0_0 := chunk_sub_row 0 0 inb_S200x128_S1x16_0_0 inb_S200x128_S1x128_0_0 (by decide)
  have hc0_1 := chunk_sub_row 0 16 inb_S200x128_S1x16_0_16 inb_S200x128_S1x128_0_0 (by decide)
  have hc0_2 := chunk_sub_row 0 32 inb_S200x128_S1x16_0_32 inb_S200x128_S1x128_0_0 (by decide)
  have hc0_3 := chunk_sub_row 0 48 inb_S200x128_S1x16_0_48 inb_S200x128_S1x128_0_0 (by decide)
  have hc0_4 := chunk_sub_row 0 64 inb_S200x128_S1x16_0_64 inb_S200x128_S1x128_0_0 (by decide)
  have hc0_5 := chunk_sub_row 0 80 inb_S200x128_S1x16_0_80 inb_S200x128_S1x128_0_0 (by decide)
  have hc0_6 := chunk_sub_row 0 96 inb_S200x128_S1x16_0_96 inb_S200x128_S1x128_0_0 (by decide)
  have hc0_7 := chunk_sub_row 0 112 inb_S200x128_S1x16_0_112 inb_S200x128_S1x128_0_0 (by decide)
  have hc1_0 := chunk_sub_row 1 0 inb_S200x128_S1x16_1_0 inb_S200x128_S1x128_1_0 (by decide)
  have hc1_1 := chunk_sub_row 1 16 inb_S200x128_S1x16_1_16 inb_S200x128_S1x128_1_0 (by decide)
  have hc1_2 := chunk_sub_row 1 32 inb_S200x128_S1x16_1_32 inb_S200x128_S1x128_1_0 (by decide)
  have hc1_3 := chunk_sub_row 1 48 inb_S200x128_S1x16_1_48 inb_S200x128_S1x128_1_0 (by decide)
  have hc1_4 := chunk_sub_row 1 64 inb_S200x128_S1x16_1_64 inb_S200x128_S1x128_1_0 (by decide)
  have hc1_5 := chunk_sub_row 1 80 inb_S200x128_S1x16_1_80 inb_S200x128_S1x128_1_0 (by decide)
  have hc1_6 := chunk_sub_row 1 96 inb_S200x128_S1x16_1_96 inb_S200x128_S1x128_1_0 (by decide)
  have hc1_7 := chunk_sub_row 1 112 inb_S200x128_S1x16_1_112 inb_S200x128_S1x128_1_0 (by decide)
  have hc2_0 := chunk_sub_row 2 0 inb_S200x128_S1x16_2_0 inb_S200x128_S1x128_2_0 (by decide)
  have hc2_1 := chunk_sub_row 2 16 inb_S200x128_S1x16_2_16 inb_S200x128_S1x128_2_0 (by decide)
  have hc2_2 := chunk_sub_row 2 32 inb_S200x128_S1x16_2_32 inb_S200x128_S1x128_2_0 (by decide)
  have hc2_3 := chunk_sub_row 2 48 inb_S200x128_S1x16_2_48 inb_S200x128_S1x128_2_0 (by decide)
  have hc2_4 := chunk_sub_row 2 64 inb_S200x128_S1x16_2_64 inb_S200x128_S1x128_2_0 (by decide)
  have hc2_5 := chunk_sub_row 2 80 inb_S200x128_S1x16_2_80 inb_S200x128_S1x128_2_0 (by decide)
  have hc2_6 := chunk_sub_row 2 96 inb_S200x128_S1x16_2_96 inb_S200x128_S1x128_2_0 (by decide)
  have hc2_7 := chunk_sub_row 2 112 inb_S200x128_S1x16_2_112 inb_S200x128_S1x128_2_0 (by decide)
  have hc3_0 := chunk_sub_row 3 0 inb_S200x128_S1x16_3_0 inb_S200x128_S1x128_3_0 (by decide)
  have hc3_1 := chunk_sub_row 3 16 inb_S200x128_S1x16_3_16 inb_S200x128_S1x128_3_0 (by decide)
  have hc3_2 := chunk_sub_row 3 32 inb_S200x128_S1x16_3_32 inb_S200x128_S1x128_3_0 (by decide)
  have hc3_3 := chunk_sub_row 3 48 inb_S200x128_S1x16_3_48 inb_S200x128_S1x128_3_0 (by decide)
  have hc3_4 := chunk_sub_row 3 64 inb_S200x128_S1x16_3_64 inb_S200x128_S1x128_3_0 (by decide)
  have hc3_5 := chunk_sub_row 3 80 inb_S200x128_S1x16_3_80 inb_S200x128_S1x128_3_0 (by decide)
  have hc3_6 := chunk_sub_row 3 96 inb_S200x128_S1x16_3_96 inb_S200x128_S1x128_3_0 (by decide)
  have hc3_7 := chunk_sub_row 3 112 inb_S200x128_S1x16_3_112 inb_S200x128_S1x128_3_0 (by decide)
  sl_exec
  have hch0 := fix_row_chain (F := F) 0 (by decide) inb_S200x128_S1x16_0_0 inb_S200x128_S1x16_0_16 inb_S200x128_S1x16_0_32 inb_S200x128_S1x16_0_48 inb_S200x128_S1x16_0_64 inb_S200x128_S1x16_0_80 inb_S200x128_S1x16_0_96 inb_S200x128_S1x16_0_112
      (G0hdO m d L fixb) (tile_body.sl.Hrow0_w1 m d L fixb) (tile_body.sl.Hrow0_w2 m d L fixb) (tile_body.sl.Hrow0_w3 m d L fixb) (tile_body.sl.Hrow0_w4 m d L fixb) (tile_body.sl.Hrow0_w5 m d L fixb) (tile_body.sl.Hrow0_w6 m d L fixb) (tile_body.sl.Hrow0_w7 m d L fixb) (tile_body.sl.Hrow0_w8 m d L fixb) _ _ _ _ _ _ _ _ rfl rfl rfl rfl rfl rfl rfl rfl
      (c_store_k1_pay42 _) (c_store_k1_pay43 _) (c_store_k1_pay45 _) (c_store_k1_pay46 _) (c_store_k1_pay47 _) (c_store_k1_pay49 _) (c_store_k1_pay50 _) (c_store_k1_pay51 _)
  have hin0 : ∀ x, (View.read (Elt F) (ixRow0).view (tile_body.sl.Hrow0_w8 m d L fixb) x).toNat < 256 :=
    fixed_hin (F := F) 0 (by decide) inb_S200x128_S1x128_0_0 _ _ hch0 (fun l => by
      rw [show ((G0hdO m d L fixb) (ix2 (⟨0, by decide⟩ : Fin 200) l) : BitVec 32) = _ from base_read_hd (F := F) m d L (cL L) (jL L) rfl rfl fixb ⟨0, by decide⟩ l]
      exact I4_lt4 (F := F) m d hpre _)
  sl_exec
  have hch1 := fix_row_chain (F := F) 1 (by decide) inb_S200x128_S1x16_1_0 inb_S200x128_S1x16_1_16 inb_S200x128_S1x16_1_32 inb_S200x128_S1x16_1_48 inb_S200x128_S1x16_1_64 inb_S200x128_S1x16_1_80 inb_S200x128_S1x16_1_96 inb_S200x128_S1x16_1_112
      (G0hdO m d L fixb) (tile_body.sl.Hrow1_w1 m d L fixb) (tile_body.sl.Hrow1_w2 m d L fixb) (tile_body.sl.Hrow1_w3 m d L fixb) (tile_body.sl.Hrow1_w4 m d L fixb) (tile_body.sl.Hrow1_w5 m d L fixb) (tile_body.sl.Hrow1_w6 m d L fixb) (tile_body.sl.Hrow1_w7 m d L fixb) (tile_body.sl.Hrow1_w8 m d L fixb) _ _ _ _ _ _ _ _ rfl rfl rfl rfl rfl rfl rfl rfl
      (c_store_k1_pay52 _) (c_store_k1_pay53 _) (c_store_k1_pay54 _) (c_store_k1_pay56 _) (c_store_k1_pay57 _) (c_store_k1_pay58 _) (c_store_k1_pay61 _) (c_store_k1_pay62 _)
  have hin1 : ∀ x, (View.read (Elt F) (ixRow1).view (tile_body.sl.Hrow1_w8 m d L fixb) x).toNat < 256 :=
    fixed_hin (F := F) 1 (by decide) inb_S200x128_S1x128_1_0 _ _ hch1 (fun l => by
      rw [show ((G0hdO m d L fixb) (ix2 (⟨1, by decide⟩ : Fin 200) l) : BitVec 32) = _ from base_read_hd (F := F) m d L (cL L) (jL L) rfl rfl fixb ⟨1, by decide⟩ l]
      exact I4_lt4 (F := F) m d hpre _)
  sl_exec
  have hch2 := fix_row_chain (F := F) 2 (by decide) inb_S200x128_S1x16_2_0 inb_S200x128_S1x16_2_16 inb_S200x128_S1x16_2_32 inb_S200x128_S1x16_2_48 inb_S200x128_S1x16_2_64 inb_S200x128_S1x16_2_80 inb_S200x128_S1x16_2_96 inb_S200x128_S1x16_2_112
      (G0hdO m d L fixb) (tile_body.sl.Hrow2_w1 m d L fixb) (tile_body.sl.Hrow2_w2 m d L fixb) (tile_body.sl.Hrow2_w3 m d L fixb) (tile_body.sl.Hrow2_w4 m d L fixb) (tile_body.sl.Hrow2_w5 m d L fixb) (tile_body.sl.Hrow2_w6 m d L fixb) (tile_body.sl.Hrow2_w7 m d L fixb) (tile_body.sl.Hrow2_w8 m d L fixb) _ _ _ _ _ _ _ _ rfl rfl rfl rfl rfl rfl rfl rfl
      (c_store_k1_pay64 _) (c_store_k1_pay65 _) (c_store_k1_pay66 _) (c_store_k1_pay67 _) (c_store_k1_pay68 _) (c_store_k1_pay69 _) (c_store_k1_pay70 _) (c_store_k1_pay71 _)
  have hin2 : ∀ x, (View.read (Elt F) (ixRow2).view (tile_body.sl.Hrow2_w8 m d L fixb) x).toNat < 256 :=
    fixed_hin (F := F) 2 (by decide) inb_S200x128_S1x128_2_0 _ _ hch2 (fun l => by
      rw [show ((G0hdO m d L fixb) (ix2 (⟨2, by decide⟩ : Fin 200) l) : BitVec 32) = _ from base_read_hd (F := F) m d L (cL L) (jL L) rfl rfl fixb ⟨2, by decide⟩ l]
      exact I4_lt4 (F := F) m d hpre _)
  sl_exec
  have hch3 := fix_row_chain (F := F) 3 (by decide) inb_S200x128_S1x16_3_0 inb_S200x128_S1x16_3_16 inb_S200x128_S1x16_3_32 inb_S200x128_S1x16_3_48 inb_S200x128_S1x16_3_64 inb_S200x128_S1x16_3_80 inb_S200x128_S1x16_3_96 inb_S200x128_S1x16_3_112
      (G0hdO m d L fixb) (tile_body.sl.Hrow3_w1 m d L fixb) (tile_body.sl.Hrow3_w2 m d L fixb) (tile_body.sl.Hrow3_w3 m d L fixb) (tile_body.sl.Hrow3_w4 m d L fixb) (tile_body.sl.Hrow3_w5 m d L fixb) (tile_body.sl.Hrow3_w6 m d L fixb) (tile_body.sl.Hrow3_w7 m d L fixb) (tile_body.sl.Hrow3_w8 m d L fixb) _ _ _ _ _ _ _ _ rfl rfl rfl rfl rfl rfl rfl rfl
      (c_store_k1_pay72 _) (c_store_k1_pay75 _) (c_store_k1_pay76 _) (c_store_k1_pay77 _) (c_store_k1_pay80 _) (c_store_k1_pay81 _) (c_store_k1_pay82 _) (c_store_k1_pay84 _)
  have hin3 : ∀ x, (View.read (Elt F) (ixRow3).view (tile_body.sl.Hrow3_w8 m d L fixb) x).toNat < 256 :=
    fixed_hin (F := F) 3 (by decide) inb_S200x128_S1x128_3_0 _ _ hch3 (fun l => by
      rw [show ((G0hdO m d L fixb) (ix2 (⟨3, by decide⟩ : Fin 200) l) : BitVec 32) = _ from base_read_hd (F := F) m d L (cL L) (jL L) rfl rfl fixb ⟨3, by decide⟩ l]
      exact I4_lt4 (F := F) m d hpre _)
  sl_exec
  -- the gather loop, at the invariant of LoopInv.lean
  have hfx := FX_hfx (F := F) m d L hpre
  sl_for (b_inv m d L O W (b_G0 m d L) (b_FX m d L) frw hfx iprop(emp)) $$ [Hmw2 HO Hs4 Hs5 Hs6 Hs7 Hs8 Hs9 Hs10 Hs11 Hixh Hixt Ho]
  case region =>
    intro k x
    exact b_trip (F := F) m d L O W (b_G0 m d L) (b_FX m d L) frw hfx
      (fun t => gathered_eq (F := F) m d (wid (cL L) (jL L)) t (View.read (Elt F) (b_rowM t).view (b_FX m d L)) rfl (hfx t)
        (c_hFX (F := F) m d L t) (fun l => I4_lt4 (F := F) m d hpre _))
      (fun _ => rfl) iprop(emp) k _ _ c_iota rfl x
  · -- the invariant holds at the loop's entry
    unfold b_inv
    isplitr; · iexact Hmw2
    isplitl [HO]
    · iexists _; isplitr
      swap; · iexact HO
      ipureintro; intro p hp
      rcases Finset.mem_insert.mp hp with hp | hp; · exact .inr (.inl (hp ▸ rfl))
      rcases Finset.mem_insert.mp hp with hp | hp; · exact .inr (.inr (hp ▸ rfl))
      rcases Finset.mem_insert.mp hp with hp | hp; · exact .inr (.inl (hp ▸ rfl))
      rcases Finset.mem_insert.mp hp with hp | hp; · exact .inr (.inl (hp ▸ rfl))
      exact .inl hp
    isplitl [Hs4]; · iapply (flight0_0 (F := F) m d L fixb frw _ hch0 _ hin0 hfx); iexact Hs4
    isplitl [Hs5]; · iapply (flight0_1 (F := F) m d L fixb frw _ hch1 _ hin1 hfx); iexact Hs5
    isplitl [Hs6]; · iapply (flight0_2 (F := F) m d L fixb frw _ hch2 _ hin2 hfx); iexact Hs6
    isplitl [Hs7]; · iapply (flight0_3 (F := F) m d L fixb frw _ hch3 _ hin3 hfx); iexact Hs7
    isplitl [Hs8]; · iexact Hs8
    isplitl [Hs9]; · iexact Hs9
    isplitl [Hs10]; · iexact Hs10
    isplitl [Hs11]; · iexact Hs11
    isplitr
    · rw [Nat.mul_zero, Finset.range_zero, bigSep_empty]; iempintro
    isplitl [Hixh Hixt]
    · iapply (inv0_rows (F := F) m d L fixb)
      isplitl [Hixh]; · iexact Hixh
      iexact Hixt
    isplitr
    · rw [Nat.mul_zero, odone_zero, pointsTo_empty]; iempintro
    isplitl [Ho]
    · rw [Nat.mul_zero, odone_zero, Finset.sdiff_empty]; iexact Ho
    iempintro
  iintro %x HI
  -- past the loop: the last four gathers' waits and write-outs, then everything handed back
  rw [← wp_bind]
  iapply (c_postLoop' (F := F) m d L hpre O W frw x)
  unfold c_untouched
  isplitl [HI]; · iexact HI
  isplitl [Hbufs]; · iexact Hbufs
  isplitl [Hsems]; · iexact Hsems
  isplitl [Hs12]; · iexact Hs12
  isplitl [Hs13]; · iexact Hs13
  isplitl [Hs14]; · iexact Hs14
  isplitl [Ht']; · iexact Ht'
  isplitl [Hihd]; · iexact Hihd
  iexact Hitl

end Tile

/-- One vector subcore's task, for every device, subcore and what the launch has it owe. -/
theorem tileBody (hpre : PreOK m) : TileBodySpec m :=
  fun d L hF O W hO hOlev => tile_body m d L hF hpre O W hO hOlev

end Cert.KernelIdeal.Hand

end
-- ==== Proof.KernelW.Pieces.lean ====
/-
  How a subcore's buffers fall into the pieces its transfers move: the 200 × 128 index scratch into its first 8 rows
  and its other 192 (the second fetch is still in flight while the first rows are already being worked on); a slab of
  the index array likewise.
-/
import proofs.«214982_g87402584473731_cont_9to1c4b_667_31_alg».proof.Proof.KernelW.Common
import proofs.«214982_g87402584473731_cont_9to1c4b_667_31_alg».proof.Proof.KernelW.Sets

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- Membership in a unit-stride rectangle of a rank-2 shape, axis by axis. -/
theorem mem_unit2 {A B : Nat} {off size : Fin 2 → Nat} {inb} {i : (⟨2, ![A, B]⟩ : Shape).Idx} :
    i ∈ (Rect.unit (s := ⟨2, ![A, B]⟩) off size inb).set
      ↔ (off 0 ≤ (i 0).val ∧ (i 0).val < off 0 + size 0) ∧ (off 1 ≤ (i 1).val ∧ (i 1).val < off 1 + size 1) := by
  rw [Rect.mem_set_unit]
  exact ⟨fun h => ⟨h 0, h 1⟩, fun h a => match a with | 0 => h.1 | 1 => h.2⟩

/-- and of a rank-3 shape. -/
theorem mem_unit3 {A B C : Nat} {off size : Fin 3 → Nat} {inb} {i : (⟨3, ![A, B, C]⟩ : Shape).Idx} :
    i ∈ (Rect.unit (s := ⟨3, ![A, B, C]⟩) off size inb).set
      ↔ (off 0 ≤ (i 0).val ∧ (i 0).val < off 0 + size 0) ∧ (off 1 ≤ (i 1).val ∧ (i 1).val < off 1 + size 1)
        ∧ (off 2 ≤ (i 2).val ∧ (i 2).val < off 2 + size 2) := by
  rw [Rect.mem_set_unit]
  exact ⟨fun h => ⟨h 0, h 1, h 2⟩, fun h a => match a with | 0 => h.1 | 1 => h.2.1 | 2 => h.2.2⟩

/-! ## The index scratch: rows 0 … 7 and rows 8 … 199 -/

abbrev ixHdR : Rect S200x128 := Rect.unit (s := S200x128) ![0, 0] S8x128.size inb_S200x128_S8x128_0_0
abbrev ixTlR : Rect S200x128 := Rect.unit (s := S200x128) ![8, 0] S192x128.size inb_S200x128_S192x128_8_0
abbrev ixHd : Memref sig .scVector .vmem S8x128 .i32 := (ixV).slice ixHdR (fun _ => rfl)
abbrev ixTl : Memref sig .scVector .vmem S192x128 .i32 := (ixV).slice ixTlR (fun _ => rfl)

theorem ix_hd_tl : (Finset.univ : Finset S200x128.Idx) = ixHdR.set ∪ ixTlR.set ∧ Disjoint ixHdR.set ixTlR.set := by
  constructor
  · ext i
    simp only [Finset.mem_univ, Finset.mem_union, true_iff]
    have h0 : (i 0).val < 200 := (i 0).isLt
    have h1 : (i 1).val < 128 := (i 1).isLt
    by_cases h : (i 0).val < 8
    · left; rw [mem_unit2]; simp; omega
    · right; rw [mem_unit2]; simp; omega
  · rw [Finset.disjoint_left]
    intro i hi hj
    rw [mem_unit2] at hi hj
    simp at hi hj
    omega

theorem set_ixHd : (ixHd).view.set = ixHdR.set := View.set_slice_whole _ _
theorem set_ixTl : (ixTl).view.set = ixTlR.set := View.set_slice_whole _ _

section
variable (d : Dev nD) (c : Fin τ.nSC) (i : Fin τ.nSub)

/-- The index scratch whole is its first 8 rows and its other 192, each as the task's slice addresses it. -/
theorem pts_ix_split (f : Buf (Elt F) ((V d c i).loc cc1_scratch0)) :
    ((V d c i).loc cc1_scratch0 ↦{fullShare} f : sProp 𝕄)
      ⊣⊢ iprop(((ixHd).view.loc (V d c i) ↦[(ixHd).view.set]{fullShare} f) ∗ ((ixTl).view.loc (V d c i) ↦[(ixTl).view.set]{fullShare} f)) := by
  rw [set_ixHd, set_ixTl]
  show ((V d c i).loc cc1_scratch0 ↦[Finset.univ]{fullShare} f : sProp 𝕄) ⊣⊢ _
  rw [ix_hd_tl.1]
  exact pointsTo_union ix_hd_tl.2
end

/-! ## A slab of the index array: its first 8 rows and its other 192 -/

section
variable (L : grid1.Coords)

abbrev ihdK : Rect S32x200x128 := Rect.unit (s := S32x200x128) (k1_off2 L) S1x8x128.size (k1_off2_inb L)
abbrev itlK : Rect S32x200x128 := Rect.unit (s := S32x200x128) (k1_off3 L) S1x192x128.size (k1_off3_inb L)
abbrev iHd : Memref sig .scVector .hbm S8x128 .i32 := ((iV).slice (ihdK L) (fun _ => rfl)).squeeze S8x128 squeezes_S1x8x128_S8x128
abbrev iTl : Memref sig .scVector .hbm S192x128 .i32 := ((iV).slice (itlK L) (fun _ => rfl)).squeeze S192x128 squeezes_S1x192x128_S192x128

theorem set_iHd : (iHd L).view.set = (ihdK L).set := by
  show (((iV).view.slice (ihdK L)).reshape S8x128 squeezes_S1x8x128_S8x128.numel_eq).set = _
  rw [View.set_reshape]; exact View.set_slice_whole _ _
theorem set_iTl : (iTl L).view.set = (itlK L).set := by
  show (((iV).view.slice (itlK L)).reshape S192x128 squeezes_S1x192x128_S192x128.numel_eq).set = _
  rw [View.set_reshape]; exact View.set_slice_whole _ _

/-- Slab `w` is the indices whose first coordinate is `w`. -/
theorem mem_islab (w : Fin 32) (j : S32x200x128.Idx) : j ∈ (islab w).set ↔ (j 0).val = w.val := by
  have h1 : (j 1).val < 200 := (j 1).isLt
  have h2 : (j 2).val < 128 := (j 2).isLt
  constructor
  · intro h
    have := (Rect.mem_set_unit.mp h) 0
    simp [Shape.partIx, Shape.partSize] at this
    omega
  · intro h
    refine Rect.mem_set_unit.mpr fun a => ?_
    match a with
    | 0 => simp [Shape.partIx, Shape.partSize]; omega
    | 1 => simp [Shape.partIx, Shape.partSize]; omega
    | 2 => simp [Shape.partIx, Shape.partSize]; omega

theorem islab_hd_tl (c : Fin 2) (i : Fin 16) (hc : c.val = (L 0).val) (hi : i.val = (L 1).val) :
    islabSet (wid c i) = (iHd L).view.set ∪ (iTl L).view.set ∧ Disjoint (iHd L).view.set (iTl L).view.set := by
  rw [islabSet_eq, set_iHd, set_iTl]
  have hw : (wid c i).val = 2 * (L 1).val + (L 0).val := by simp [wid, hc, hi]
  constructor
  · ext j
    have h1 : (j 1).val < 200 := (j 1).isLt
    have h2 : (j 2).val < 128 := (j 2).isLt
    rw [mem_islab, Finset.mem_union, mem_unit3, mem_unit3, k1_off2_eq, k1_off3_eq, hw]
    simp
    omega
  · rw [Finset.disjoint_left]
    intro j h h'
    rw [mem_unit3, k1_off2_eq] at h
    rw [mem_unit3, k1_off3_eq] at h'
    simp at h h'
    omega

end

/-! ## The four row buffers -/

abbrev rwR0 : Rect S4x128x128 := Rect.unit (s := S4x128x128) ![0, 0, 0] S1x128x128.size inb_S4x128x128_S1x128x128_0_0_0
abbrev rwR1 : Rect S4x128x128 := Rect.unit (s := S4x128x128) ![1, 0, 0] S1x128x128.size inb_S4x128x128_S1x128x128_1_0_0
abbrev rwR2 : Rect S4x128x128 := Rect.unit (s := S4x128x128) ![2, 0, 0] S1x128x128.size inb_S4x128x128_S1x128x128_2_0_0
abbrev rwR3 : Rect S4x128x128 := Rect.unit (s := S4x128x128) ![3, 0, 0] S1x128x128.size inb_S4x128x128_S1x128x128_3_0_0
abbrev rwS0 : Memref sig .scVector .vmem S128x128 .f32 := ((rwV).slice rwR0 (fun _ => rfl)).squeeze S128x128 squeezes_S1x128x128_S128x128
abbrev rwS1 : Memref sig .scVector .vmem S128x128 .f32 := ((rwV).slice rwR1 (fun _ => rfl)).squeeze S128x128 squeezes_S1x128x128_S128x128
abbrev rwS2 : Memref sig .scVector .vmem S128x128 .f32 := ((rwV).slice rwR2 (fun _ => rfl)).squeeze S128x128 squeezes_S1x128x128_S128x128
abbrev rwS3 : Memref sig .scVector .vmem S128x128 .f32 := ((rwV).slice rwR3 (fun _ => rfl)).squeeze S128x128 squeezes_S1x128x128_S128x128

theorem set_rwS0 : (rwS0).view.set = rwR0.set := by
  show (((rwV).view.slice rwR0).reshape S128x128 squeezes_S1x128x128_S128x128.numel_eq).set = _
  rw [View.set_reshape]; exact View.set_slice_whole _ _
theorem set_rwS1 : (rwS1).view.set = rwR1.set := by
  show (((rwV).view.slice rwR1).reshape S128x128 squeezes_S1x128x128_S128x128.numel_eq).set = _
  rw [View.set_reshape]; exact View.set_slice_whole _ _
theorem set_rwS2 : (rwS2).view.set = rwR2.set := by
  show (((rwV).view.slice rwR2).reshape S128x128 squeezes_S1x128x128_S128x128.numel_eq).set = _
  rw [View.set_reshape]; exact View.set_slice_whole _ _
theorem set_rwS3 : (rwS3).view.set = rwR3.set := by
  show (((rwV).view.slice rwR3).reshape S128x128 squeezes_S1x128x128_S128x128.numel_eq).set = _
  rw [View.set_reshape]; exact View.set_slice_whole _ _

theorem mem_rwR (b : Nat) (inb) (j : S4x128x128.Idx) :
    j ∈ (Rect.unit (s := S4x128x128) ![b, 0, 0] S1x128x128.size inb).set ↔ (j 0).val = b := by
  have h1 : (j 1).val < 128 := (j 1).isLt
  have h2 : (j 2).val < 128 := (j 2).isLt
  rw [mem_unit3]; simp; omega

theorem rw_slots : (Finset.univ : Finset S4x128x128.Idx) = rwR0.set ∪ (rwR1.set ∪ (rwR2.set ∪ rwR3.set))
    ∧ Disjoint rwR0.set (rwR1.set ∪ (rwR2.set ∪ rwR3.set)) ∧ Disjoint rwR1.set (rwR2.set ∪ rwR3.set) ∧ Disjoint rwR2.set rwR3.set := by
  refine ⟨?_, ?_, ?_, ?_⟩
  · ext j
    have h0 : (j 0).val < 4 := (j 0).isLt
    simp only [Finset.mem_univ, Finset.mem_union, mem_rwR, true_iff]
    omega
  all_goals
    rw [Finset.disjoint_left]
    intro j h h'
    simp only [Finset.mem_union, mem_rwR] at h h'
    omega

section
variable (d : Dev nD) (c : Fin τ.nSC) (i : Fin τ.nSub)

/-- The row-buffer scratch whole is its four buffers, each as the task's slice addresses it. -/
theorem pts_rw_split (f : Buf (Elt F) ((V d c i).loc cc1_scratch1)) :
    ((V d c i).loc cc1_scratch1 ↦{fullShare} f : sProp 𝕄)
      ⊣⊢ iprop(((rwS0).view.loc (V d c i) ↦[(rwS0).view.set]{fullShare} f) ∗ ((rwS1).view.loc (V d c i) ↦[(rwS1).view.set]{fullShare} f)
        ∗ ((rwS2).view.loc (V d c i) ↦[(rwS2).view.set]{fullShare} f) ∗ ((rwS3).view.loc (V d c i) ↦[(rwS3).view.set]{fullShare} f)) := by
  rw [set_rwS0, set_rwS1, set_rwS2, set_rwS3]
  show ((V d c i).loc cc1_scratch1 ↦[Finset.univ]{fullShare} f : sProp 𝕄) ⊣⊢ _
  rw [rw_slots.1]
  constructor
  · iintro H
    ihave H := (pointsTo_union rw_slots.2.1).1 $$ H
    icases H with ⟨H0, H⟩
    ihave H := (pointsTo_union rw_slots.2.2.1).1 $$ H
    icases H with ⟨H1, H⟩
    ihave H := (pointsTo_union rw_slots.2.2.2).1 $$ H
    icases H with ⟨H2, H3⟩
    isplitl [H0]; · iexact H0
    isplitl [H1]; · iexact H1
    isplitl [H2]; · iexact H2
    iexact H3
  · iintro ⟨H0, H1, H2, H3⟩
    iapply (pointsTo_union rw_slots.2.1).2
    isplitl [H0]; · iexact H0
    iapply (pointsTo_union rw_slots.2.2.1).2
    isplitl [H1]; · iexact H1
    iapply (pointsTo_union rw_slots.2.2.2).2
    isplitl [H2]; · iexact H2
    iexact H3
end

end Cert.Kernel.Hand

end
-- ==== Proof.KernelW.TileLemmas.lean ====
/-
  Lemmas for one vector subcore's task (the task itself is in Tile.lean). Subcore `s` of SparseCore `c` works on slab `w = 2s + c`: it copies block `s` (rows
  16s … 16s+15) of the 256-row table into its SparseCore's shared memory, fetches the first 8 of its 200 rows of indices
  and starts the fetch of the other 192, meets the other fifteen subcores at the barrier — handing each a sixteenth of its
  block and receiving a sixteenth of every block, so that from then on it reads the whole shared table —, and then, row
  of 128 indices by row, adds the lane offsets, gathers the 128 named table rows into one of four row buffers and copies
  the buffer out to rows 25600 w + 128 t … of the result.
-/
import proofs.«214982_g87402584473731_cont_9to1c4b_667_31_alg».proof.Proof.KernelW.TileSpec
import proofs.«214982_g87402584473731_cont_9to1c4b_667_31_alg».proof.Proof.KernelW.Sets
import proofs.«214982_g87402584473731_cont_9to1c4b_667_31_alg».proof.Proof.KernelW.Pieces

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Tile

variable (d : Dev nD) (L : grid1.Coords)

/-! ### Block `s` of the table and of the shared memory, as the task slices them -/

abbrev tblkK (L : grid1.Coords) : Rect S256x128 := Rect.unit (s := S256x128) (k1_off1 L) S16x128.size (k1_off1_inb L)
abbrev tSlK (L : grid1.Coords) : Memref sig .scVector .hbm S16x128 .f32 := (tV).slice (tblkK L) (fun _ => rfl)
abbrev shSlK (L : grid1.Coords) : Memref sig .scVector .shared S16x128 .f32 := (shV).slice (tblkK L) (fun _ => rfl)

omit [FloatOps F] in
theorem tblkK_eq : tblkK L = tblk (jL L) := by
  unfold tblkK tblk Rect.part Rect.block
  congr 1 <;> funext a
  · rw [k1_off1_eq]
    match a with
    | 0 => simp [Shape.partIx, Shape.partSize, Nat.mul_comm]
    | 1 => simp [Shape.partIx, Shape.partSize]
  · match a with
    | 0 => simp [Shape.partSize]
    | 1 => simp [Shape.partSize]

omit [FloatOps F] in
theorem set_tSlK : (tSlK L).view.set = tblkSet (jL L) := by
  show ((tV).view.slice (tblkK L)).set = ((tV).view.slice (tblk (jL L))).set
  exact tblkK_eq L ▸ rfl
omit [FloatOps F] in
theorem set_shSlK : (shSlK L).view.set = tblkSet (jL L) := by
  show ((shV).view.slice (tblkK L)).set = ((tV).view.slice (tblk (jL L))).set
  exact tblkK_eq L ▸ rfl

omit [FloatOps F] in
theorem pts_tSlK (q : PosShare TreeShare) (f : Buf (Elt F) (v3Loc d)) :
    ((tSlK L).view.loc (V d (cV L) (jV L)) ↦[(tSlK L).view.set]{q} f : sProp 𝕄) = v3Loc d ↦[tblkSet (jL L)]{q} f := by
  rw [set_tSlK]
omit [FloatOps F] in
theorem pts_shSlK (q : PosShare TreeShare) (f : Buf (Elt F) (shLoc d (cV L))) :
    ((shSlK L).view.loc (V d (cV L) (jV L)) ↦[(shSlK L).view.set]{q} f : sProp 𝕄) = shLoc d (cV L) ↦[tblkSet (jL L)]{q} f := by
  rw [set_shSlK]; rfl

/-! ### The subcore's own semaphores and buffers -/

abbrev cS0 (d : Dev nD) (c : Fin τ.nSC) (i : Fin τ.nSub) : GSem nD τ sig := (V d c i, .dma cc1_scoped0.sem)
abbrev cS1 (d : Dev nD) (c : Fin τ.nSC) (i : Fin τ.nSub) : GSem nD τ sig := (V d c i, .dma cc1_scoped1.sem)

/-- The subcore's DMA semaphore number `k`. -/
abbrev dcell (d : Dev nD) (c : Fin τ.nSC) (i : Fin τ.nSub) (k : Fin 15) : GSem nD τ sig := (V d c i, .dma k)

/-- The eleven DMA semaphores of the task: the four gather semaphores (4 … 7), the four write-out semaphores (8 … 11),
    the index fetch's (12), the two of its first copies (13, 14). -/
def myK : Finset (Fin 15) := {4, 5, 6, 7, 8, 9, 10, 11, 12, 13, 14}
def myCells (d : Dev nD) (c : Fin τ.nSC) (i : Fin τ.nSub) : Finset (GSem nD τ sig) := myK.image (dcell d c i)

omit [FloatOps F] in
theorem myK_scoped : ∀ k ∈ myK, (SemLoc.dma k : SemLoc sig).isScoped .scVector = true := by decide

omit [FloatOps F] in
theorem myCells_sub (d : Dev nD) (c : Fin τ.nSC) (i : Fin τ.nSub) : myCells d c i ⊆ ownCells (V d c i) := by
  intro g hg
  obtain ⟨k, hk, rfl⟩ := Finset.mem_image.mp hg
  exact (mem_ownCells (g := dcell d c i k)).mpr ⟨rfl, myK_scoped k hk⟩

omit [FloatOps F] in
theorem ownSems0_V :
    (ownSems0 (V d (cV L) (jV L)) : sProp 𝕄)
      = iprop((bigSep myK fun k => semVal (dcell d (cV L) (jV L) k) 0)
          ∗ bigSep (ownCells (V d (cV L) (jV L)) \ myCells d (cV L) (jV L)) fun g => semVal g 0) := by
  unfold SparseCore.Cfg.ownSems0
  rw [SparseCore.bigSep_sdiff_split' (myCells_sub d (cV L) (jV L)),
    show (bigSep (myCells d (cV L) (jV L)) fun g => (semVal g 0 : sProp 𝕄)) = bigSep myK fun k => semVal (dcell d (cV L) (jV L) k) 0 from
      SparseCore.bigSep_image_of_injOn (fun a _ b _ e => by simpa [dcell] using e) _]

omit [FloatOps F] in
theorem myK_chain (Φ : Fin 15 → sProp 𝕄) :
    bigSep myK Φ = iprop(Φ 4 ∗ Φ 5 ∗ Φ 6 ∗ Φ 7 ∗ Φ 8 ∗ Φ 9 ∗ Φ 10 ∗ Φ 11 ∗ Φ 12 ∗ Φ 13 ∗ Φ 14) := by
  unfold myK
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The two scratch buffers are among the subcore's own: the index rows, the four row buffers, and the rest. -/
abbrev ixRef (L : grid1.Coords) : DevRef τ sig := (Proc.scVector (cV L) (jV L)).devRef cc1_scratch0
abbrev rwRef (L : grid1.Coords) : DevRef τ sig := (Proc.scVector (cV L) (jV L)).devRef cc1_scratch1
omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase (ixRef L)).erase (rwRef L))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ixRef L) rfl),
    SparseCore.bigSep_erase' (Finset.mem_erase.mpr ⟨by simp [ixRef, rwRef, Proc.devRef],
      SparseCore.Cfg.mem_ownRefs_of_owner (p := Proc.scVector (cV L) (jV L)) (b := rwRef L) rfl⟩)]

omit [FloatOps F] in
theorem pts_rwV (f : Buf (Elt F) ((V d (cV L) (jV L)).loc cc1_scratch1)) :
    ((rwV).view.loc (V d (cV L) (jV L)) ↦[(rwV).view.set]{fullShare} f : sProp 𝕄) = (V d (cV L) (jV L)).loc cc1_scratch1 ↦{fullShare} f := by
  simp only [Memref.view_whole, View.set_whole]

omit [FloatOps F] in
theorem pts_islab (f : Buf (Elt F) (v4Loc d)) :
    (v4Loc d ↦[islabSet (wid (cL L) (jL L))]{fullShare} f : sProp 𝕄)
      ⊣⊢ iprop(((iHd L).view.loc (V d (cV L) (jV L)) ↦[(iHd L).view.set]{fullShare} f) ∗ ((iTl L).view.loc (V d (cV L) (jV L)) ↦[(iTl L).view.set]{fullShare} f)) := by
  rw [(islab_hd_tl L (cL L) (jL L) rfl rfl).1]
  exact pointsTo_union (islab_hd_tl L (cL L) (jL L) rfl rfl).2

/-! ### The barrier's hand-over -/

/-- What the first copy landed in the shared block is the table's rows. -/
theorem sh_landed (q : PosShare TreeShare) (fsh : Buf (Elt F) (shLoc d (cV L))) :
    ((shSlK L).view.loc (V d (cV L) (jV L)) ↦[(shSlK L).view.set]{q}
        (shSlK L).view.writes (Elt F) fsh [⟨Rect.whole S16x128, ReadAs.same.apply (View.read (Elt F) (tSlK L).view (T3 m d))⟩] : sProp 𝕄)
      = (shSlK L).view.loc (V d (cV L) (jV L)) ↦[(shSlK L).view.set]{q} (T3 m d : Buf (Elt F) (shLoc d (cV L))) :=
  pointsTo_congr fun i hi => by
    obtain ⟨x, -, rfl⟩ := Finset.mem_map.mp hi
    have hx : ((shSlK L).view.slice (Rect.whole S16x128)).emb x = (shSlK L).view.emb x := by
      rw [View.emb_slice]
      show (shSlK L).view.emb ((Rect.whole S16x128).emb x) = _
      rw [Rect.emb_whole_apply]
    rw [View.writes_singleton]
    conv_lhs => rw [← hx]
    rw [View.write_emb_of_mem _ _ (Finset.mem_univ x)]
    rfl

/-- Before the barrier, the subcore's block of the shared memory, holding the table's rows, is what its sixteen units hand
    over: a sixteenth of the block to every subcore's round. -/
theorem pays_intro : (shLoc d (cV L) ↦[tblkSet (jL L)]{fullShare} T3 m d : sProp 𝕄)
    ⊢ (bigSep Finset.univ fun j : Fin (grid1.bound 1) => (bRd (F := F) m).payload (bcell d (cV L) (j.castLE hsub1)) 0 (jV L).val : sProp 𝕄) := by
  rw [leaves (ℓ := shLoc d (cV L)) (tblkSet (jL L)) (T3 m d) 4 fullShare]
  refine Entails.of_eq ?_
  show (bigSep (Finset.univ : Finset (Fin (grid1.bound 1))) fun j => (shLoc d (cV L) ↦[tblkSet (jL L)]{leaf 4 fullShare j} T3 m d : sProp 𝕄)) = _
  refine bigSep_congr fun j _ => ?_
  show _ = bPay m (bcell d (cV L) (j.castLE hsub1)) (jV L).val
  unfold bPay; dsimp only
  rw [dif_pos (show (jV L).val < 16 from (jV L).isLt)]
  rfl

/-- After it, what the subcore's own round collected is its sixteenth of the whole shared memory, holding the table. -/
theorem pays_elim : (bigSep ((bRd (F := F) m).duties (bcell d (cV L) (jV L)) 0 \ ∅) fun n => (bRd (F := F) m).payload (bcell d (cV L) (jV L)) 0 n)
    ⊢ (shLoc d (cV L) ↦{sixS (jL L)} T3 m d : sProp 𝕄) := by
  rw [Finset.sdiff_empty, bRd_duties₀, SparseCore.bigSep_image_of_injOn (fun a _ b _ e => Fin.val_injective e),
    shBlks_split d (cV L) (sixS (jL L)) (T3 m d)]
  refine Entails.of_eq ?_
  show _ = (bigSep (Finset.univ : Finset (Fin τ.nSub)) fun n => (shLoc d (cV L) ↦[tblkSet (Fin.cast nSub_eq n)]{sixS (jL L)} T3 m d : sProp 𝕄))
  refine bigSep_congr fun n _ => ?_
  show bPay m (bcell d (cV L) (jV L)) n.val = _
  unfold bPay; dsimp only
  rw [dif_pos (show n.val < 16 from n.isLt)]
  rfl

omit [FloatOps F] in
theorem pts_shV (q : PosShare TreeShare) (f : Buf (Elt F) (shLoc d (cV L))) :
    ((shV).view.loc (V d (cV L) (jV L)) ↦[(shV).view.set]{q} f : sProp 𝕄) = shLoc d (cV L) ↦{q} f := by
  simp only [Memref.view_whole, View.set_whole]; rfl

/-! ### One row of the index scratch, as a gather's offset list addresses it -/

abbrev ixRow0R : Rect S200x128 := Rect.unit (s := S200x128) ![0, 0] S1x128.size inb_S200x128_S1x128_0_0
abbrev ixRow1R : Rect S200x128 := Rect.unit (s := S200x128) ![1, 0] S1x128.size inb_S200x128_S1x128_1_0
abbrev ixRow2R : Rect S200x128 := Rect.unit (s := S200x128) ![2, 0] S1x128.size inb_S200x128_S1x128_2_0
abbrev ixRow3R : Rect S200x128 := Rect.unit (s := S200x128) ![3, 0] S1x128.size inb_S200x128_S1x128_3_0
abbrev ixRow0 : Memref sig .scVector .vmem S128 .i32 := ((ixV).slice ixRow0R (fun _ => rfl)).squeeze S128 squeezes_S1x128_S128
abbrev ixRow1 : Memref sig .scVector .vmem S128 .i32 := ((ixV).slice ixRow1R (fun _ => rfl)).squeeze S128 squeezes_S1x128_S128
abbrev ixRow2 : Memref sig .scVector .vmem S128 .i32 := ((ixV).slice ixRow2R (fun _ => rfl)).squeeze S128 squeezes_S1x128_S128
abbrev ixRow3 : Memref sig .scVector .vmem S128 .i32 := ((ixV).slice ixRow3R (fun _ => rfl)).squeeze S128 squeezes_S1x128_S128

omit [FloatOps F] in
theorem set_ixRow (off : Fin 2 → Nat) (inb) :
    (((ixV).slice (Rect.unit (s := S200x128) off S1x128.size inb) (fun _ => rfl)).squeeze S128 squeezes_S1x128_S128).view.set
      = (Rect.unit (s := S200x128) off S1x128.size inb).set := by
  show (((ixV).view.slice (Rect.unit (s := S200x128) off S1x128.size inb)).reshape S128 squeezes_S1x128_S128.numel_eq).set = _
  rw [View.set_reshape]; exact View.set_slice_whole _ _

omit [FloatOps F] in
theorem ixRow_sub_hd (t : Nat) (ht : t < 8) (inb) : (Rect.unit (s := S200x128) ![t, 0] S1x128.size inb).set ⊆ (ixHd).view.set := by
  rw [set_ixHd]
  intro i hi
  rw [mem_unit2] at hi ⊢
  simp at hi ⊢
  omega

/-- Carving a row of the first eight out of what holds them: the row, as its offset list addresses it, and the rest. -/
theorem carve_row (t : Nat) (ht : t < 8) (inb) (S : Finset S200x128.Idx)
    (hS : (Rect.unit (s := S200x128) ![t, 0] S1x128.size inb).set ⊆ S) (g : Buf (Elt F) ((V d (cV L) (jV L)).loc cc1_scratch0)) :
    ((ixHd).view.loc (V d (cV L) (jV L)) ↦[S]{fullShare} g : sProp 𝕄)
      ⊣⊢ iprop(((((ixV).slice (Rect.unit (s := S200x128) ![t, 0] S1x128.size inb) (fun _ => rfl)).squeeze S128 squeezes_S1x128_S128).view.loc (V d (cV L) (jV L))
            ↦[(((ixV).slice (Rect.unit (s := S200x128) ![t, 0] S1x128.size inb) (fun _ => rfl)).squeeze S128 squeezes_S1x128_S128).view.set]{fullShare} g)
          ∗ ((ixHd).view.loc (V d (cV L) (jV L)) ↦[S \ (Rect.unit (s := S200x128) ![t, 0] S1x128.size inb).set]{fullShare} g)) := by
  rw [set_ixRow]
  exact pointsTo_split_subset hS

end Tile

end Cert.Kernel.Hand

end
-- ==== Proof.KernelW.Blocks.lean ====
/-
  The pieces of a subcore's result slab and of its index scratch.

  Slab `w` of the result is rows `25600 w … 25600 w + 25599`; the subcore writes it 128 rows at a time, block `t`
  (`t < 200`) being rows `25600 w + 128 t … + 127`. After `n` blocks the rows done are the first `128 n` of the slab:
  nothing at `n = 0`, the whole slab at `n = 200`, and block `n` is disjoint from what is done and lies in what is left.
  The program names block `4 k + r` through its loop counter `k` and slot `r`, and the last four blocks by constants.
  The index scratch is 200 rows of 128 words; its rows 0 … 7 arrive first and rows 8 … 199 after; a row is rewritten in
  eight chunks of sixteen columns.
-/
import proofs.«214982_g87402584473731_cont_9to1c4b_667_31_alg».proof.Proof.KernelW.Common
import proofs.«214982_g87402584473731_cont_9to1c4b_667_31_alg».proof.Proof.KernelW.Sets
import proofs.«214982_g87402584473731_cont_9to1c4b_667_31_alg».proof.Proof.KernelW.Pieces
import proofs.«214982_g87402584473731_cont_9to1c4b_667_31_alg».proof.Proof.KernelW.TileSpec

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Two unit-stride rectangles at equal offsets are the same rectangle. -/
theorem c_unit_congr {s : Shape} {off off' : Fin s.rank → Nat} (h : off = off') (size : Fin s.rank → Nat) (inb inb') :
    Rect.unit (s := s) off size inb = Rect.unit (s := s) off' size inb' := by
  subst h; rfl

theorem c_trips_lt (k : Fin k1_t1_loop.trips) : k.val < 49 := lt_of_lt_of_le k.isLt k1_t1_abs.2.1

/-! ## The result slab -/

theorem c_oblk_inb (w : Fin 32) (t : Fin 200) : ∀ a, (![25600 * w.val + 128 * t.val, 0] : Fin 2 → Nat) a + S128x128.size a ≤ S819200x128.size a := by
  intro a
  have hw := w.isLt
  have ht := t.isLt
  match a with
  | 0 => show 25600 * w.val + 128 * t.val + 128 ≤ 819200; omega
  | 1 => show 0 + 128 ≤ 128; omega

/-- Block `t` of slab `w`: 128 rows. -/
def oblkR (w : Fin 32) (t : Fin 200) : Rect S819200x128 :=
  Rect.unit (s := S819200x128) ![25600 * w.val + 128 * t.val, 0] S128x128.size (c_oblk_inb w t)

/-- The first `128 n` rows of slab `w`. -/
def odoneSet (w : Fin 32) (n : Nat) : Finset S819200x128.Idx :=
  Finset.univ.filter fun j => 25600 * w.val ≤ (j 0).val ∧ (j 0).val < 25600 * w.val + 128 * n

theorem mem_oblk (w : Fin 32) (t : Fin 200) (j : S819200x128.Idx) :
    j ∈ (oblkR w t).set ↔ 25600 * w.val + 128 * t.val ≤ (j 0).val ∧ (j 0).val < 25600 * w.val + 128 * t.val + 128 := by
  have h1 : (j 1).val < 128 := (j 1).isLt
  unfold oblkR
  rw [mem_unit2]
  show ((25600 * w.val + 128 * t.val ≤ (j 0).val ∧ (j 0).val < 25600 * w.val + 128 * t.val + 128) ∧ (0 ≤ (j 1).val ∧ (j 1).val < 0 + 128)) ↔ _
  omega

theorem mem_odone (w : Fin 32) (n : Nat) (j : S819200x128.Idx) :
    j ∈ odoneSet w n ↔ 25600 * w.val ≤ (j 0).val ∧ (j 0).val < 25600 * w.val + 128 * n := by
  unfold odoneSet; rw [Finset.mem_filter]; exact ⟨fun h => h.2, fun h => ⟨Finset.mem_univ _, h⟩⟩

/-- Slab `w` is the rows `25600 w … 25600 w + 25599`. -/
theorem mem_oslab (w : Fin 32) (j : S819200x128.Idx) :
    j ∈ oslabSet w ↔ 25600 * w.val ≤ (j 0).val ∧ (j 0).val < 25600 * w.val + 25600 := by
  have h1 : (j 1).val < 128 := (j 1).isLt
  rw [oslabSet_eq]
  constructor
  · intro h
    have := (Rect.mem_set_unit.mp h) 0
    simp [Shape.partIx, Shape.partSize] at this
    omega
  · intro h
    refine Rect.mem_set_unit.mpr fun a => ?_
    match a with
    | 0 => simp [Shape.partIx, Shape.partSize]; omega
    | 1 => simp [Shape.partIx, Shape.partSize]; omega

theorem oblk_sub_oslab (w : Fin 32) (t : Fin 200) : (oblkR w t).set ⊆ oslabSet w := by
  intro j hj
  have ht := t.isLt
  rw [mem_oblk] at hj
  rw [mem_oslab]
  omega

theorem odone_zero (w : Fin 32) : odoneSet w 0 = ∅ := by
  ext j
  rw [mem_odone]
  simp only [Finset.notMem_empty, iff_false]
  omega

theorem odone_all (w : Fin 32) : odoneSet w 200 = oslabSet w := by
  ext j
  rw [mem_odone, mem_oslab]

theorem odone_succ (w : Fin 32) (n : Fin 200) : odoneSet w (n.val + 1) = odoneSet w n.val ∪ (oblkR w n).set := by
  ext j
  rw [Finset.mem_union, mem_odone, mem_odone, mem_oblk]
  omega

theorem odone_disjoint (w : Fin 32) (n : Fin 200) : Disjoint (odoneSet w n.val) (oblkR w n).set := by
  rw [Finset.disjoint_left]
  intro j h h'
  rw [mem_odone] at h
  rw [mem_oblk] at h'
  omega

theorem oblk_sub_rest (w : Fin 32) (n : Fin 200) : (oblkR w n).set ⊆ oslabSet w \ odoneSet w n.val := by
  intro j hj
  rw [Finset.mem_sdiff]
  refine ⟨oblk_sub_oslab w n hj, fun h => ?_⟩
  rw [mem_odone] at h
  rw [mem_oblk] at hj
  omega

theorem odone_sub_oslab (w : Fin 32) (n : Nat) (hn : n ≤ 200) : odoneSet w n ⊆ oslabSet w := by
  intro j hj
  rw [mem_odone] at hj
  rw [mem_oslab]
  omega

/-- What is left after `n` blocks is block `n` and what is left after `n + 1`. -/
theorem orest_succ (w : Fin 32) (n : Fin 200) :
    oslabSet w \ odoneSet w n.val = (oblkR w n).set ∪ (oslabSet w \ odoneSet w (n.val + 1))
      ∧ Disjoint (oblkR w n).set (oslabSet w \ odoneSet w (n.val + 1)) := by
  constructor
  · ext j
    rw [Finset.mem_union, Finset.mem_sdiff, Finset.mem_sdiff, mem_oslab, mem_odone, mem_odone, mem_oblk]
    have hn := n.isLt
    omega
  · rw [Finset.disjoint_left]
    intro j h h'
    rw [Finset.mem_sdiff, mem_odone] at h'
    rw [mem_oblk] at h
    omega

/-! ### The program's spelling of a block -/

section
variable (L : grid1.Coords)

theorem c_wid_L : (wid (cL L) (jL L)).val = 2 * (L 1).val + (L 0).val := rfl

theorem c_blk_lt (k : Fin k1_t1_loop.trips) (r : Fin 4) : 4 * k.val + r.val < 200 := by
  have := c_trips_lt k
  have := r.isLt
  omega
theorem c_last_lt (r : Fin 4) : 196 + r.val < 200 := by
  have := r.isLt
  omega

/-- The block the loop's trip `k`, slot `r`, copies out: block `4 k + r` of the subcore's slab. -/
theorem oblk_off13 (k : Fin k1_t1_loop.trips) (r : Fin 4) :
    Rect.unit (s := S819200x128) (k1_off13 L k (BitVec.ofNat 32 r.val)) S128x128.size (k1_off13_inb L k r)
      = oblkR (wid (cL L) (jL L)) ⟨4 * k.val + r.val, c_blk_lt k r⟩ := by
  unfold oblkR
  refine c_unit_congr ?_ _ _ _
  rw [k1_off13_eq L k r]
  funext a
  match a with
  | 0 => show 51200 * (L 1).val + 25600 * (L 0).val + 512 * k.val + 128 * r.val = 25600 * (2 * (L 1).val + (L 0).val) + 128 * (4 * k.val + r.val); omega
  | 1 => rfl

/-- The last four blocks, after the loop: blocks 196 … 199. -/
theorem oblk_off15 (r : Fin 4) :
    Rect.unit (s := S819200x128) (k1_off15 L (BitVec.ofNat 32 (25088 + 128 * r.val))) S128x128.size (k1_off15_inb L r)
      = oblkR (wid (cL L) (jL L)) ⟨196 + r.val, c_last_lt r⟩ := by
  unfold oblkR
  refine c_unit_congr ?_ _ _ _
  rw [k1_off15_eq L r]
  funext a
  match a with
  | 0 => show 51200 * (L 1).val + 25600 * (L 0).val + 128 * r.val + 25088 = 25600 * (2 * (L 1).val + (L 0).val) + 128 * (196 + r.val); omega
  | 1 => rfl

/-- The same in the program's own literals. -/
theorem oblk_off13_0 (k : Fin k1_t1_loop.trips) : Rect.unit (s := S819200x128) (k1_off13 L k 0#32) S128x128.size (k1_off13_inb L k 0)
    = oblkR (wid (cL L) (jL L)) ⟨4 * k.val + 0, c_blk_lt k 0⟩ := oblk_off13 L k 0
theorem oblk_off13_1 (k : Fin k1_t1_loop.trips) : Rect.unit (s := S819200x128) (k1_off13 L k 1#32) S128x128.size (k1_off13_inb L k 1)
    = oblkR (wid (cL L) (jL L)) ⟨4 * k.val + 1, c_blk_lt k 1⟩ := oblk_off13 L k 1
theorem oblk_off13_2 (k : Fin k1_t1_loop.trips) : Rect.unit (s := S819200x128) (k1_off13 L k 2#32) S128x128.size (k1_off13_inb L k 2)
    = oblkR (wid (cL L) (jL L)) ⟨4 * k.val + 2, c_blk_lt k 2⟩ := oblk_off13 L k 2
theorem oblk_off13_3 (k : Fin k1_t1_loop.trips) : Rect.unit (s := S819200x128) (k1_off13 L k 3#32) S128x128.size (k1_off13_inb L k 3)
    = oblkR (wid (cL L) (jL L)) ⟨4 * k.val + 3, c_blk_lt k 3⟩ := oblk_off13 L k 3
theorem oblk_off15_0 : Rect.unit (s := S819200x128) (k1_off15 L 25088#32) S128x128.size (k1_off15_inb L 0)
    = oblkR (wid (cL L) (jL L)) ⟨196 + 0, c_last_lt 0⟩ := oblk_off15 L 0
theorem oblk_off15_1 : Rect.unit (s := S819200x128) (k1_off15 L 25216#32) S128x128.size (k1_off15_inb L 1)
    = oblkR (wid (cL L) (jL L)) ⟨196 + 1, c_last_lt 1⟩ := oblk_off15 L 1
theorem oblk_off15_2 : Rect.unit (s := S819200x128) (k1_off15 L 25344#32) S128x128.size (k1_off15_inb L 2)
    = oblkR (wid (cL L) (jL L)) ⟨196 + 2, c_last_lt 2⟩ := oblk_off15 L 2
theorem oblk_off15_3 : Rect.unit (s := S819200x128) (k1_off15 L 25472#32) S128x128.size (k1_off15_inb L 3)
    = oblkR (wid (cL L) (jL L)) ⟨196 + 3, c_last_lt 3⟩ := oblk_off15 L 3

end

/-! ### Points-to forms -/

section
variable (d : Dev nD)

/-- What is left of the slab after `n` blocks, at any contents: block `n` and what is left after it. -/
theorem pts_orest_succ (w : Fin 32) (n : Fin 200) (q : PosShare TreeShare) (f : Buf (Elt F) (v5Loc d)) :
    (v5Loc d ↦[oslabSet w \ odoneSet w n.val]{q} f : sProp 𝕄)
      ⊣⊢ iprop((v5Loc d ↦[(oblkR w n).set]{q} f) ∗ (v5Loc d ↦[oslabSet w \ odoneSet w (n.val + 1)]{q} f)) := by
  rw [(orest_succ w n).1]
  exact pointsTo_union (orest_succ w n).2

/-- What is done after `n + 1` blocks: what was done after `n`, and block `n`. -/
theorem pts_odone_succ (w : Fin 32) (n : Fin 200) (q : PosShare TreeShare) (f : Buf (Elt F) (v5Loc d)) :
    (v5Loc d ↦[odoneSet w (n.val + 1)]{q} f : sProp 𝕄)
      ⊣⊢ iprop((v5Loc d ↦[odoneSet w n.val]{q} f) ∗ (v5Loc d ↦[(oblkR w n).set]{q} f)) := by
  rw [odone_succ w n]
  exact pointsTo_union (odone_disjoint w n)

end

/-! ## The index scratch -/

theorem c_ixrow_inb (t : Fin 200) : ∀ a, (![t.val, 0] : Fin 2 → Nat) a + S1x128.size a ≤ S200x128.size a := by
  intro a
  have ht := t.isLt
  match a with
  | 0 => show t.val + 1 ≤ 200; omega
  | 1 => show 0 + 128 ≤ 128; omega

/-- Row `t` of the index scratch. -/
def ixRowR (t : Fin 200) : Rect S200x128 := Rect.unit (s := S200x128) ![t.val, 0] S1x128.size (c_ixrow_inb t)

theorem mem_ixRow (t : Fin 200) (j : S200x128.Idx) : j ∈ (ixRowR t).set ↔ (j 0).val = t.val := by
  have h1 : (j 1).val < 128 := (j 1).isLt
  unfold ixRowR
  rw [mem_unit2]
  show ((t.val ≤ (j 0).val ∧ (j 0).val < t.val + 1) ∧ (0 ≤ (j 1).val ∧ (j 1).val < 0 + 128)) ↔ _
  omega

theorem mem_ixHd (j : S200x128.Idx) : j ∈ ixHdR.set ↔ (j 0).val < 8 := by
  have h1 : (j 1).val < 128 := (j 1).isLt
  rw [mem_unit2]
  show ((0 ≤ (j 0).val ∧ (j 0).val < 0 + 8) ∧ (0 ≤ (j 1).val ∧ (j 1).val < 0 + 128)) ↔ _
  omega

theorem mem_ixTl (j : S200x128.Idx) : j ∈ ixTlR.set ↔ 8 ≤ (j 0).val := by
  have h0 : (j 0).val < 200 := (j 0).isLt
  have h1 : (j 1).val < 128 := (j 1).isLt
  rw [mem_unit2]
  show ((8 ≤ (j 0).val ∧ (j 0).val < 8 + 192) ∧ (0 ≤ (j 1).val ∧ (j 1).val < 0 + 128)) ↔ _
  omega

theorem ixRows_disjoint : ∀ t ∈ (Finset.univ : Finset (Fin 200)), ∀ t' ∈ (Finset.univ : Finset (Fin 200)), t ≠ t' → Disjoint (ixRowR t).set (ixRowR t').set := by
  intro t _ t' _ h
  rw [Finset.disjoint_left]
  intro j hj hj'
  rw [mem_ixRow] at hj hj'
  exact h (Fin.ext (hj.symm.trans hj'))

/-- The rows that arrive first are rows 0 … 7; -/
theorem ixHd_rows : ixHdR.set = (Finset.univ.filter fun t : Fin 200 => t.val < 8).biUnion fun t => (ixRowR t).set := by
  ext j
  rw [mem_ixHd, Finset.mem_biUnion]
  constructor
  · intro h
    exact ⟨⟨(j 0).val, (j 0).isLt⟩, Finset.mem_filter.mpr ⟨Finset.mem_univ _, h⟩, (mem_ixRow _ j).mpr rfl⟩
  · rintro ⟨t, ht, hj⟩
    rw [mem_ixRow] at hj
    have := (Finset.mem_filter.mp ht).2
    omega

/-- the rest are rows 8 … 199. -/
theorem ixTl_rows : ixTlR.set = (Finset.univ.filter fun t : Fin 200 => 8 ≤ t.val).biUnion fun t => (ixRowR t).set := by
  ext j
  rw [mem_ixTl, Finset.mem_biUnion]
  constructor
  · intro h
    exact ⟨⟨(j 0).val, (j 0).isLt⟩, Finset.mem_filter.mpr ⟨Finset.mem_univ _, h⟩, (mem_ixRow _ j).mpr rfl⟩
  · rintro ⟨t, ht, hj⟩
    rw [mem_ixRow] at hj
    have := (Finset.mem_filter.mp ht).2
    omega

/-! ### The program's spelling of a row and of a chunk -/

theorem c_row4_lt (k : Fin k1_t1_loop.trips) (r : Fin 4) : 4 * k.val + r.val + 4 < 200 := by
  have := c_trips_lt k
  have := r.isLt
  omega

/-- The row the loop's trip `k`, slot `r`, gathers by next: row `4 k + r + 4`. -/
theorem ixRow_off14 (k : Fin k1_t1_loop.trips) (r : Fin 4) :
    Rect.unit (s := S200x128) (k1_off14 k (BitVec.ofNat 32 r.val)) S1x128.size (k1_off14_inb k r) = ixRowR ⟨4 * k.val + r.val + 4, c_row4_lt k r⟩ := by
  unfold ixRowR
  refine c_unit_congr ?_ _ _ _
  rw [k1_off14_eq k r]

/-- The row it has just gathered by: row `4 k + r`. -/
theorem ixRow_off12 (k : Fin k1_t1_loop.trips) (r : Fin 4) :
    Rect.unit (s := S200x128) (k1_off12 k (BitVec.ofNat 32 r.val)) S1x128.size (k1_off12_inb k r) = ixRowR ⟨4 * k.val + r.val, c_blk_lt k r⟩ := by
  unfold ixRowR
  refine c_unit_congr ?_ _ _ _
  rw [k1_off12_eq k r]

/-- Chunk `c` of row `t`: columns `16 c … 16 c + 15`. -/
theorem mem_chunk (t c : Nat) (inb) (j : S200x128.Idx) :
    j ∈ (Rect.unit (s := S200x128) ![t, 16 * c] S1x16.size inb).set ↔ (j 0).val = t ∧ 16 * c ≤ (j 1).val ∧ (j 1).val < 16 * c + 16 := by
  rw [mem_unit2]
  show ((t ≤ (j 0).val ∧ (j 0).val < t + 1) ∧ (16 * c ≤ (j 1).val ∧ (j 1).val < 16 * c + 16)) ↔ _
  omega

/-- Chunk 0 of the row the loop's trip `k`, slot `r`, rewrites: row `4 k + r + 4`, columns 0…15. -/
theorem mem_chunk_off4 (k : Fin k1_t1_loop.trips) (r : Fin 4) (j : S200x128.Idx) :
    j ∈ (Rect.unit (s := S200x128) (k1_off4 k (BitVec.ofNat 32 r.val)) S1x16.size (k1_off4_inb k r)).set
      ↔ (j 0).val = 4 * k.val + r.val + 4 ∧ 0 ≤ (j 1).val ∧ (j 1).val < 0 + 16 := by
  rw [mem_unit2, k1_off4_eq k r]
  show ((4 * k.val + r.val + 4 ≤ (j 0).val ∧ (j 0).val < 4 * k.val + r.val + 4 + 1) ∧ (0 ≤ (j 1).val ∧ (j 1).val < 0 + 16)) ↔ _
  omega
theorem chunk_off4_sub_row (k : Fin k1_t1_loop.trips) (r : Fin 4) :
    (Rect.unit (s := S200x128) (k1_off4 k (BitVec.ofNat 32 r.val)) S1x16.size (k1_off4_inb k r)).set ⊆ (ixRowR ⟨4 * k.val + r.val + 4, c_row4_lt k r⟩).set :=
  fun j hj => (mem_ixRow _ j).mpr ((mem_chunk_off4 k r j).mp hj).1
/-- Chunk 1 of the row the loop's trip `k`, slot `r`, rewrites: row `4 k + r + 4`, columns 16…31. -/
theorem mem_chunk_off5 (k : Fin k1_t1_loop.trips) (r : Fin 4) (j : S200x128.Idx) :
    j ∈ (Rect.unit (s := S200x128) (k1_off5 k (BitVec.ofNat 32 r.val)) S1x16.size (k1_off5_inb k r)).set
      ↔ (j 0).val = 4 * k.val + r.val + 4 ∧ 16 ≤ (j 1).val ∧ (j 1).val < 16 + 16 := by
  rw [mem_unit2, k1_off5_eq k r]
  show ((4 * k.val + r.val + 4 ≤ (j 0).val ∧ (j 0).val < 4 * k.val + r.val + 4 + 1) ∧ (16 ≤ (j 1).val ∧ (j 1).val < 16 + 16)) ↔ _
  omega
theorem chunk_off5_sub_row (k : Fin k1_t1_loop.trips) (r : Fin 4) :
    (Rect.unit (s := S200x128) (k1_off5 k (BitVec.ofNat 32 r.val)) S1x16.size (k1_off5_inb k r)).set ⊆ (ixRowR ⟨4 * k.val + r.val + 4, c_row4_lt k r⟩).set :=
  fun j hj => (mem_ixRow _ j).mpr ((mem_chunk_off5 k r j).mp hj).1
/-- Chunk 2 of the row the loop's trip `k`, slot `r`, rewrites: row `4 k + r + 4`, columns 32…47. -/
theorem mem_chunk_off6 (k : Fin k1_t1_loop.trips) (r : Fin 4) (j : S200x128.Idx) :
    j ∈ (Rect.unit (s := S200x128) (k1_off6 k (BitVec.ofNat 32 r.val)) S1x16.size (k1_off6_inb k r)).set
      ↔ (j 0).val = 4 * k.val + r.val + 4 ∧ 32 ≤ (j 1).val ∧ (j 1).val < 32 + 16 := by
  rw [mem_unit2, k1_off6_eq k r]
  show ((4 * k.val + r.val + 4 ≤ (j 0).val ∧ (j 0).val < 4 * k.val + r.val + 4 + 1) ∧ (32 ≤ (j 1).val ∧ (j 1).val < 32 + 16)) ↔ _
  omega
theorem chunk_off6_sub_row (k : Fin k1_t1_loop.trips) (r : Fin 4) :
    (Rect.unit (s := S200x128) (k1_off6 k (BitVec.ofNat 32 r.val)) S1x16.size (k1_off6_inb k r)).set ⊆ (ixRowR ⟨4 * k.val + r.val + 4, c_row4_lt k r⟩).set :=
  fun j hj => (mem_ixRow _ j).mpr ((mem_chunk_off6 k r j).mp hj).1
/-- Chunk 3 of the row the loop's trip `k`, slot `r`, rewrites: row `4 k + r + 4`, columns 48…63. -/
theorem mem_chunk_off7 (k : Fin k1_t1_loop.trips) (r : Fin 4) (j : S200x128.Idx) :
    j ∈ (Rect.unit (s := S200x128) (k1_off7 k (BitVec.ofNat 32 r.val)) S1x16.size (k1_off7_inb k r)).set
      ↔ (j 0).val = 4 * k.val + r.val + 4 ∧ 48 ≤ (j 1).val ∧ (j 1).val < 48 + 16 := by
  rw [mem_unit2, k1_off7_eq k r]
  show ((4 * k.val + r.val + 4 ≤ (j 0).val ∧ (j 0).val < 4 * k.val + r.val + 4 + 1) ∧ (48 ≤ (j 1).val ∧ (j 1).val < 48 + 16)) ↔ _
  omega
theorem chunk_off7_sub_row (k : Fin k1_t1_loop.trips) (r : Fin 4) :
    (Rect.unit (s := S200x128) (k1_off7 k (BitVec.ofNat 32 r.val)) S1x16.size (k1_off7_inb k r)).set ⊆ (ixRowR ⟨4 * k.val + r.val + 4, c_row4_lt k r⟩).set :=
  fun j hj => (mem_ixRow _ j).mpr ((mem_chunk_off7 k r j).mp hj).1
/-- Chunk 4 of the row the loop's trip `k`, slot `r`, rewrites: row `4 k + r + 4`, columns 64…79. -/
theorem mem_chunk_off8 (k : Fin k1_t1_loop.trips) (r : Fin 4) (j : S200x128.Idx) :
    j ∈ (Rect.unit (s := S200x128) (k1_off8 k (BitVec.ofNat 32 r.val)) S1x16.size (k1_off8_inb k r)).set
      ↔ (j 0).val = 4 * k.val + r.val + 4 ∧ 64 ≤ (j 1).val ∧ (j 1).val < 64 + 16 := by
  rw [mem_unit2, k1_off8_eq k r]
  show ((4 * k.val + r.val + 4 ≤ (j 0).val ∧ (j 0).val < 4 * k.val + r.val + 4 + 1) ∧ (64 ≤ (j 1).val ∧ (j 1).val < 64 + 16)) ↔ _
  omega
theorem chunk_off8_sub_row (k : Fin k1_t1_loop.trips) (r : Fin 4) :
    (Rect.unit (s := S200x128) (k1_off8 k (BitVec.ofNat 32 r.val)) S1x16.size (k1_off8_inb k r)).set ⊆ (ixRowR ⟨4 * k.val + r.val + 4, c_row4_lt k r⟩).set :=
  fun j hj => (mem_ixRow _ j).mpr ((mem_chunk_off8 k r j).mp hj).1
/-- Chunk 5 of the row the loop's trip `k`, slot `r`, rewrites: row `4 k + r + 4`, columns 80…95. -/
theorem mem_chunk_off9 (k : Fin k1_t1_loop.trips) (r : Fin 4) (j : S200x128.Idx) :
    j ∈ (Rect.unit (s := S200x128) (k1_off9 k (BitVec.ofNat 32 r.val)) S1x16.size (k1_off9_inb k r)).set
      ↔ (j 0).val = 4 * k.val + r.val + 4 ∧ 80 ≤ (j 1).val ∧ (j 1).val < 80 + 16 := by
  rw [mem_unit2, k1_off9_eq k r]
  show ((4 * k.val + r.val + 4 ≤ (j 0).val ∧ (j 0).val < 4 * k.val + r.val + 4 + 1) ∧ (80 ≤ (j 1).val ∧ (j 1).val < 80 + 16)) ↔ _
  omega
theorem chunk_off9_sub_row (k : Fin k1_t1_loop.trips) (r : Fin 4) :
    (Rect.unit (s := S200x128) (k1_off9 k (BitVec.ofNat 32 r.val)) S1x16.size (k1_off9_inb k r)).set ⊆ (ixRowR ⟨4 * k.val + r.val + 4, c_row4_lt k r⟩).set :=
  fun j hj => (mem_ixRow _ j).mpr ((mem_chunk_off9 k r j).mp hj).1
/-- Chunk 6 of the row the loop's trip `k`, slot `r`, rewrites: row `4 k + r + 4`, columns 96…111. -/
theorem mem_chunk_off10 (k : Fin k1_t1_loop.trips) (r : Fin 4) (j : S200x128.Idx) :
    j ∈ (Rect.unit (s := S200x128) (k1_off10 k (BitVec.ofNat 32 r.val)) S1x16.size (k1_off10_inb k r)).set
      ↔ (j 0).val = 4 * k.val + r.val + 4 ∧ 96 ≤ (j 1).val ∧ (j 1).val < 96 + 16 := by
  rw [mem_unit2, k1_off10_eq k r]
  show ((4 * k.val + r.val + 4 ≤ (j 0).val ∧ (j 0).val < 4 * k.val + r.val + 4 + 1) ∧ (96 ≤ (j 1).val ∧ (j 1).val < 96 + 16)) ↔ _
  omega
theorem chunk_off10_sub_row (k : Fin k1_t1_loop.trips) (r : Fin 4) :
    (Rect.unit (s := S200x128) (k1_off10 k (BitVec.ofNat 32 r.val)) S1x16.size (k1_off10_inb k r)).set ⊆ (ixRowR ⟨4 * k.val + r.val + 4, c_row4_lt k r⟩).set :=
  fun j hj => (mem_ixRow _ j).mpr ((mem_chunk_off10 k r j).mp hj).1
/-- Chunk 7 of the row the loop's trip `k`, slot `r`, rewrites: row `4 k + r + 4`, columns 112…127. -/
theorem mem_chunk_off11 (k : Fin k1_t1_loop.trips) (r : Fin 4) (j : S200x128.Idx) :
    j ∈ (Rect.unit (s := S200x128) (k1_off11 k (BitVec.ofNat 32 r.val)) S1x16.size (k1_off11_inb k r)).set
      ↔ (j 0).val = 4 * k.val + r.val + 4 ∧ 112 ≤ (j 1).val ∧ (j 1).val < 112 + 16 := by
  rw [mem_unit2, k1_off11_eq k r]
  show ((4 * k.val + r.val + 4 ≤ (j 0).val ∧ (j 0).val < 4 * k.val + r.val + 4 + 1) ∧ (112 ≤ (j 1).val ∧ (j 1).val < 112 + 16)) ↔ _
  omega
theorem chunk_off11_sub_row (k : Fin k1_t1_loop.trips) (r : Fin 4) :
    (Rect.unit (s := S200x128) (k1_off11 k (BitVec.ofNat 32 r.val)) S1x16.size (k1_off11_inb k r)).set ⊆ (ixRowR ⟨4 * k.val + r.val + 4, c_row4_lt k r⟩).set :=
  fun j hj => (mem_ixRow _ j).mpr ((mem_chunk_off11 k r j).mp hj).1

/-! ### Points-to forms -/

section
variable (d : Dev nD) (c : Fin τ.nSC) (i : Fin τ.nSub)

/-- The rows that arrive later, row by row. -/
theorem pts_ixTl_rows (q : PosShare TreeShare) (f : Buf (Elt F) ((V d c i).loc cc1_scratch0)) :
    ((V d c i).loc cc1_scratch0 ↦[ixTlR.set]{q} f : sProp 𝕄)
      = bigSep (Finset.univ.filter fun t : Fin 200 => 8 ≤ t.val) fun t => (V d c i).loc cc1_scratch0 ↦[(ixRowR t).set]{q} f := by
  rw [ixTl_rows]
  exact pointsTo_biUnion _ (ℓ := (V d c i).loc cc1_scratch0) (fun t : Fin 200 => (ixRowR t).set)
    (fun t _ t' _ h => ixRows_disjoint t (Finset.mem_univ _) t' (Finset.mem_univ _) h)

/-- The rows that arrive first, row by row. -/
theorem pts_ixHd_rows (q : PosShare TreeShare) (f : Buf (Elt F) ((V d c i).loc cc1_scratch0)) :
    ((V d c i).loc cc1_scratch0 ↦[ixHdR.set]{q} f : sProp 𝕄)
      = bigSep (Finset.univ.filter fun t : Fin 200 => t.val < 8) fun t => (V d c i).loc cc1_scratch0 ↦[(ixRowR t).set]{q} f := by
  rw [ixHd_rows]
  exact pointsTo_biUnion _ (ℓ := (V d c i).loc cc1_scratch0) (fun t : Fin 200 => (ixRowR t).set)
    (fun t _ t' _ h => ixRows_disjoint t (Finset.mem_univ _) t' (Finset.mem_univ _) h)

end

end Cert.Kernel.Hand

end
-- ==== Proof.KernelW.TileLemmas2.lean ====
/-
  More lemmas for one vector subcore's task: chunks inside rows, the shared table's share in four. Subcore `s` of SparseCore `c` works on slab `w = 2s + c`: it copies block `s` (rows
  16s … 16s+15) of the 256-row table into its SparseCore's shared memory, fetches the first 8 of its 200 rows of indices
  and starts the fetch of the other 192, meets the other fifteen subcores at the barrier — handing each a sixteenth of its
  block and receiving a sixteenth of every block, so that from then on it reads the whole shared table —, and then, row
  of 128 indices by row, adds the lane offsets, gathers the 128 named table rows into one of four row buffers and copies
  the buffer out to rows 25600 w + 128 t … of the result.
-/
import proofs.«214982_g87402584473731_cont_9to1c4b_667_31_alg».proof.Proof.KernelW.TileLemmas
import proofs.«214982_g87402584473731_cont_9to1c4b_667_31_alg».proof.Proof.KernelW.Blocks

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Tile

variable (d : Dev nD) (L : grid1.Coords)

/-- A 16-lane chunk of row `t` lies in the row, as the row's offset-list memref holds it. -/
theorem chunk_sub_row (t col : Nat) (inbc) (inbr) (hcol : col + 16 ≤ 128) :
    ((ixV).access (Rect.unit (s := S200x128) ![t, col] S1x16.size inbc)).set
      ⊆ (((ixV).slice (Rect.unit (s := S200x128) ![t, 0] S1x128.size inbr) (fun _ => rfl)).squeeze S128 squeezes_S1x128_S128).view.set := by
  rw [set_ixRow]
  show ((ixV).view.slice (Rect.unit (s := S200x128) ![t, col] S1x16.size inbc)).set ⊆ _
  rw [View.set_slice_whole]
  intro i hi
  rw [mem_unit2] at hi ⊢
  simp at hi ⊢
  omega

/-- Rows 0 … 3 carved out of the first eight, each as its offset-list memref holds it; rows 4 … 7 remain. -/
theorem carve_rows4 (g : Buf (Elt F) ((V d (cV L) (jV L)).loc cc1_scratch0)) :
    ((ixHd).view.loc (V d (cV L) (jV L)) ↦[(ixHd).view.set]{fullShare} g : sProp 𝕄)
      ⊣⊢ iprop(((ixRow0).view.loc (V d (cV L) (jV L)) ↦[(ixRow0).view.set]{fullShare} g) ∗ ((ixRow1).view.loc (V d (cV L) (jV L)) ↦[(ixRow1).view.set]{fullShare} g)
          ∗ ((ixRow2).view.loc (V d (cV L) (jV L)) ↦[(ixRow2).view.set]{fullShare} g) ∗ ((ixRow3).view.loc (V d (cV L) (jV L)) ↦[(ixRow3).view.set]{fullShare} g)
          ∗ ((ixHd).view.loc (V d (cV L) (jV L)) ↦[((((ixHd).view.set \ ixRow0R.set) \ ixRow1R.set) \ ixRow2R.set) \ ixRow3R.set]{fullShare} g)) := by
  have s0 : ixRow0R.set ⊆ (ixHd).view.set := ixRow_sub_hd 0 (by decide) _
  have s1 : ixRow1R.set ⊆ (ixHd).view.set \ ixRow0R.set := by
    intro i hi; rw [Finset.mem_sdiff]; refine ⟨ixRow_sub_hd 1 (by decide) _ hi, fun h0 => ?_⟩
    rw [mem_unit2] at hi h0; simp at hi h0; omega
  have s2 : ixRow2R.set ⊆ ((ixHd).view.set \ ixRow0R.set) \ ixRow1R.set := by
    intro i hi; rw [Finset.mem_sdiff, Finset.mem_sdiff]
    refine ⟨⟨ixRow_sub_hd 2 (by decide) _ hi, fun h0 => ?_⟩, fun h1 => ?_⟩
    · rw [mem_unit2] at hi h0; simp at hi h0; omega
    · rw [mem_unit2] at hi h1; simp at hi h1; omega
  have s3 : ixRow3R.set ⊆ (((ixHd).view.set \ ixRow0R.set) \ ixRow1R.set) \ ixRow2R.set := by
    intro i hi; rw [Finset.mem_sdiff, Finset.mem_sdiff, Finset.mem_sdiff]
    refine ⟨⟨⟨ixRow_sub_hd 3 (by decide) _ hi, fun h0 => ?_⟩, fun h1 => ?_⟩, fun h2 => ?_⟩
    · rw [mem_unit2] at hi h0; simp at hi h0; omega
    · rw [mem_unit2] at hi h1; simp at hi h1; omega
    · rw [mem_unit2] at hi h2; simp at hi h2; omega
  constructor
  · iintro H
    ihave H := (carve_row (F := F) d L 0 (by decide) inb_S200x128_S1x128_0_0 _ s0 g).1 $$ H
    icases H with ⟨H0, H⟩
    ihave H := (carve_row (F := F) d L 1 (by decide) inb_S200x128_S1x128_1_0 _ s1 g).1 $$ H
    icases H with ⟨H1, H⟩
    ihave H := (carve_row (F := F) d L 2 (by decide) inb_S200x128_S1x128_2_0 _ s2 g).1 $$ H
    icases H with ⟨H2, H⟩
    ihave H := (carve_row (F := F) d L 3 (by decide) inb_S200x128_S1x128_3_0 _ s3 g).1 $$ H
    icases H with ⟨H3, H⟩
    isplitl [H0]; · iexact H0
    isplitl [H1]; · iexact H1
    isplitl [H2]; · iexact H2
    isplitl [H3]; · iexact H3
    iexact H
  · iintro ⟨H0, H1, H2, H3, H⟩
    iapply (carve_row (F := F) d L 0 (by decide) inb_S200x128_S1x128_0_0 _ s0 g).2
    isplitl [H0]; · iexact H0
    iapply (carve_row (F := F) d L 1 (by decide) inb_S200x128_S1x128_1_0 _ s1 g).2
    isplitl [H1]; · iexact H1
    iapply (carve_row (F := F) d L 2 (by decide) inb_S200x128_S1x128_2_0 _ s2 g).2
    isplitl [H2]; · iexact H2
    iapply (carve_row (F := F) d L 3 (by decide) inb_S200x128_S1x128_3_0 _ s3 g).2
    isplitl [H3]; · iexact H3
    iexact H

/-- The shared table's sixteenth in four, one share per gather that may be outstanding. -/
abbrev gshare (L : grid1.Coords) (b : Fin 4) : PosShare TreeShare := leaf 2 (sixS (jL L)) b
theorem sh_four (f : Buf (Elt F) (shLoc d (cV L))) :
    ((shV).view.loc (V d (cV L) (jV L)) ↦[(shV).view.set]{sixS (jL L)} f : sProp 𝕄)
      = iprop(((shV).view.loc (V d (cV L) (jV L)) ↦[(shV).view.set]{gshare L 0} f) ∗ ((shV).view.loc (V d (cV L) (jV L)) ↦[(shV).view.set]{gshare L 1} f)
          ∗ ((shV).view.loc (V d (cV L) (jV L)) ↦[(shV).view.set]{gshare L 2} f) ∗ ((shV).view.loc (V d (cV L) (jV L)) ↦[(shV).view.set]{gshare L 3} f)) := by
  rw [leaves (ℓ := (shV).view.loc (V d (cV L) (jV L))) (shV).view.set f 2 (sixS (jL L))]
  exact bigSep_univ_eq_bigSepL [(0 : Fin 4), (1 : Fin 4), (2 : Fin 4), (3 : Fin 4)] (by decide) (by decide) _

end Tile

end Cert.Kernel.Hand

end
-- ==== Proof.KernelW.Chunks.lean ====
/-
  What each store of sixteen index words writes.

  Every row of 128 index words is rewritten in eight chunks of sixteen lanes. Chunk `c` is loaded, and stored back
  with `4 · lane + 64 · (c mod 4)` added to the word in each lane: the lane numbers 0…15 times four, plus a constant
  that depends on the chunk. All sixty-four stored values are this one function of the loaded chunk, whichever way
  the program's text is cut. Over a whole row, lane `l` of chunk `c` is column `16 c + l`, and the amount added at
  column `j` is `4 ρ(j)`, `ρ(j) = j mod 16 + 16 · ((j div 16) mod 4) < 64`: an index word below 4 becomes a row number
  below 256 of the table written 64 times over, naming a copy of the same row.
-/
import proofs.«214982_g87402584473731_cont_9to1c4b_667_31_alg».proof.Proof.KernelW.Common
import Idealize.ShloMosaic.Lib.Pipeline.Value

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- What chunk `c` adds, lane by lane. -/
def laneOff (c : Nat) : IVec S1x16 32 := fun y => BitVec.ofNat 32 (4 * (y 1).val + 64 * (c % 4))

variable [FloatOps F]

/-- The lane numbers 0…15. -/
abbrev c_iota : IVec S16 32 := iota .scVector S16 32 [0] iota_S16_d0_w32_scVector

/-- The stored value in general: the loaded chunk as sixteen words, plus four times the lane numbers plus a constant,
    as a 1 × 16 row again. -/
def c_fix (K : BitVec 32) (v11 : IVec S16 32) (vload : Vec F S1x16 .i32) : IVec S1x16 32 :=
  shapeCast S1x16 (addi (shapeCast S16 vload shapeCasts_S1x16_S16) (addi (muli v11 (broadcast S16 4#32)) (broadcast S16 K))) shapeCasts_S16_S1x16

omit [FloatOps F] in
theorem c_lane_arith (x : BitVec 32) (j c : ℕ) (hj : j < 16) :
    x + (BitVec.ofNat 32 (0 * 16 + j) * 4#32 + BitVec.ofNat 32 (64 * (c % 4))) = x + BitVec.ofNat 32 (4 * j + 64 * (c % 4)) := by
  congr 1
  apply BitVec.eq_of_toNat_eq
  simp only [BitVec.toNat_add, BitVec.toNat_mul, BitVec.toNat_ofNat, Nat.reducePow, Nat.reduceMod]
  omega

omit [FloatOps F] in
/-- Sixteen words as a 1 × 16 row, at lane `j`. -/
theorem c_unrow_apply (w : IVec S16 32) (j : Fin 16) : shapeCast S1x16 w shapeCasts_S16_S1x16 (ix2 (0 : Fin 1) j) = w (ix1 j) := by
  refine shapeCast_apply w shapeCasts_S16_S1x16 (ix2 (0 : Fin 1) j) (ix1 j) ?_
  rw [Shape.rowMajor_val_one, Shape.rowMajor_val_two]
  show j.val = 0 * 16 + j.val
  omega

omit [FloatOps F] in
/-- A 1 × 16 row as sixteen words, at lane `j`. -/
theorem c_row_apply (vload : Vec F S1x16 .i32) (j : Fin 16) : shapeCast S16 vload shapeCasts_S1x16_S16 (ix1 j) = vload (ix2 (0 : Fin 1) j) := by
  refine shapeCast_apply vload shapeCasts_S1x16_S16 (ix1 j) (ix2 (0 : Fin 1) j) ?_
  rw [Shape.rowMajor_val_one, Shape.rowMajor_val_two]
  show 0 * 16 + j.val = j.val
  omega

theorem c_fix_eq (c : ℕ) (vload : Vec F S1x16 .i32) :
    c_fix (F := F) (BitVec.ofNat 32 (64 * (c % 4))) c_iota vload = fun y => (vload y : BitVec 32) + laneOff c y := by
  funext y
  obtain ⟨a, j, rfl⟩ : ∃ (a : Fin 1) (j : Fin 16), y = ix2 a j := ⟨y 0, y 1, eq_ix2 y⟩
  obtain rfl : a = 0 := Subsingleton.elim _ _
  unfold c_fix
  rw [c_unrow_apply]
  show IntOp.addi (shapeCast S16 vload shapeCasts_S1x16_S16 (ix1 j))
      (IntOp.addi (IntOp.muli (BitVec.ofNat 32 (0 * 16 + j.val)) 4#32) (BitVec.ofNat 32 (64 * (c % 4)))) = _
  rw [c_row_apply]
  exact c_lane_arith _ _ c j.isLt

/-! ## The sixty-four stores -/

/-- Chunk 0 (columns 0…15), the loop body's row 0 of four. -/
theorem c_store_k1_pay1 (vload : Vec F S1x16 .i32) :
    k1_pay1 (F := F) c_iota vload = fun y => (vload y : BitVec 32) + laneOff 0 y := c_fix_eq 0 vload
/-- Chunk 1 (columns 16…31), the loop body's row 0 of four. -/
theorem c_store_k1_pay2 (vload : Vec F S1x16 .i32) :
    k1_pay2 (F := F) c_iota vload = fun y => (vload y : BitVec 32) + laneOff 1 y := c_fix_eq 1 vload
/-- Chunk 2 (columns 32…47), the loop body's row 0 of four. -/
theorem c_store_k1_pay3 (vload : Vec F S1x16 .i32) :
    k1_pay3 (F := F) c_iota vload = fun y => (vload y : BitVec 32) + laneOff 2 y := c_fix_eq 2 vload
/-- Chunk 3 (columns 48…63), the loop body's row 0 of four. -/
theorem c_store_k1_pay4 (vload : Vec F S1x16 .i32) :
    k1_pay4 (F := F) c_iota vload = fun y => (vload y : BitVec 32) + laneOff 3 y := c_fix_eq 3 vload
/-- Chunk 4 (columns 64…79), the loop body's row 0 of four. -/
theorem c_store_k1_pay5 (vload : Vec F S1x16 .i32) :
    k1_pay5 (F := F) c_iota vload = fun y => (vload y : BitVec 32) + laneOff 4 y := c_fix_eq 4 vload
/-- Chunk 5 (columns 80…95), the loop body's row 0 of four. -/
theorem c_store_k1_pay6 (vload : Vec F S1x16 .i32) :
    k1_pay6 (F := F) c_iota vload = fun y => (vload y : BitVec 32) + laneOff 5 y := c_fix_eq 5 vload
/-- Chunk 6 (columns 96…111), the loop body's row 0 of four. -/
theorem c_store_k1_pay8 (vload : Vec F S1x16 .i32) :
    k1_pay8 (k1_pay7 (F := F) c_iota vload) = fun y => (vload y : BitVec 32) + laneOff 6 y := c_fix_eq 6 vload
/-- Chunk 7 (columns 112…127), the loop body's row 0 of four. -/
theorem c_store_k1_pay9 (vload : Vec F S1x16 .i32) :
    k1_pay9 (F := F) c_iota vload = fun y => (vload y : BitVec 32) + laneOff 7 y := c_fix_eq 7 vload
/-- Chunk 0 (columns 0…15), the loop body's row 1 of four. -/
theorem c_store_k1_pay10 (vload : Vec F S1x16 .i32) :
    k1_pay10 (F := F) c_iota vload = fun y => (vload y : BitVec 32) + laneOff 0 y := c_fix_eq 0 vload
/-- Chunk 1 (columns 16…31), the loop body's row 1 of four. -/
theorem c_store_k1_pay12 (vload : Vec F S1x16 .i32) :
    k1_pay12 c_iota (k1_pay11 (F := F) vload) = fun y => (vload y : BitVec 32) + laneOff 1 y := c_fix_eq 1 vload
/-- Chunk 2 (columns 32…47), the loop body's row 1 of four. -/
theorem c_store_k1_pay13 (vload : Vec F S1x16 .i32) :
    k1_pay13 (F := F) c_iota vload = fun y => (vload y : BitVec 32) + laneOff 2 y := c_fix_eq 2 vload
/-- Chunk 3 (columns 48…63), the loop body's row 1 of four. -/
theorem c_store_k1_pay14 (vload : Vec F S1x16 .i32) :
    k1_pay14 (F := F) c_iota vload = fun y => (vload y : BitVec 32) + laneOff 3 y := c_fix_eq 3 vload
/-- Chunk 4 (columns 64…79), the loop body's row 1 of four. -/
theorem c_store_k1_pay16 (vload : Vec F S1x16 .i32) :
    k1_pay16 (k1_pay15 (F := F) c_iota vload) = fun y => (vload y : BitVec 32) + laneOff 4 y := c_fix_eq 4 vload
/-- Chunk 5 (columns 80…95), the loop body's row 1 of four. -/
theorem c_store_k1_pay17 (vload : Vec F S1x16 .i32) :
    k1_pay17 (F := F) c_iota vload = fun y => (vload y : BitVec 32) + laneOff 5 y := c_fix_eq 5 vload
/-- Chunk 6 (columns 96…111), the loop body's row 1 of four. -/
theorem c_store_k1_pay18 (vload : Vec F S1x16 .i32) :
    k1_pay18 (F := F) c_iota vload = fun y => (vload y : BitVec 32) + laneOff 6 y := c_fix_eq 6 vload
/-- Chunk 7 (columns 112…127), the loop body's row 1 of four. -/
theorem c_store_k1_pay19 (vload : Vec F S1x16 .i32) :
    k1_pay19 (F := F) c_iota vload = fun y => (vload y : BitVec 32) + laneOff 7 y := c_fix_eq 7 vload
/-- Chunk 0 (columns 0…15), the loop body's row 2 of four. -/
theorem c_store_k1_pay20 (vload : Vec F S1x16 .i32) :
    k1_pay20 (F := F) c_iota vload = fun y => (vload y : BitVec 32) + laneOff 0 y := c_fix_eq 0 vload
/-- Chunk 1 (columns 16…31), the loop body's row 2 of four. -/
theorem c_store_k1_pay21 (vload : Vec F S1x16 .i32) :
    k1_pay21 (F := F) c_iota vload = fun y => (vload y : BitVec 32) + laneOff 1 y := c_fix_eq 1 vload
/-- Chunk 2 (columns 32…47), the loop body's row 2 of four. -/
theorem c_store_k1_pay23 (vload : Vec F S1x16 .i32) :
    k1_pay23 (k1_pay22 (F := F) c_iota vload) = fun y => (vload y : BitVec 32) + laneOff 2 y := c_fix_eq 2 vload
/-- Chunk 3 (columns 48…63), the loop body's row 2 of four. -/
theorem c_store_k1_pay24 (vload : Vec F S1x16 .i32) :
    k1_pay24 (F := F) c_iota vload = fun y => (vload y : BitVec 32) + laneOff 3 y := c_fix_eq 3 vload
/-- Chunk 4 (columns 64…79), the loop body's row 2 of four. -/
theorem c_store_k1_pay25 (vload : Vec F S1x16 .i32) :
    k1_pay25 (F := F) c_iota vload = fun y => (vload y : BitVec 32) + laneOff 4 y := c_fix_eq 4 vload
/-- Chunk 5 (columns 80…95), the loop body's row 2 of four. -/
theorem c_store_k1_pay26 (vload : Vec F S1x16 .i32) :
    k1_pay26 (F := F) c_iota vload = fun y => (vload y : BitVec 32) + laneOff 5 y := c_fix_eq 5 vload
/-- Chunk 6 (columns 96…111), the loop body's row 2 of four. -/
theorem c_store_k1_pay29 (vload : Vec F S1x16 .i32) :
    k1_pay29 (k1_pay27 (F := F) vload) (k1_pay28 c_iota) = fun y => (vload y : BitVec 32) + laneOff 6 y := c_fix_eq 6 vload
/-- Chunk 7 (columns 112…127), the loop body's row 2 of four. -/
theorem c_store_k1_pay30 (vload : Vec F S1x16 .i32) :
    k1_pay30 (F := F) c_iota vload = fun y => (vload y : BitVec 32) + laneOff 7 y := c_fix_eq 7 vload
/-- Chunk 0 (columns 0…15), the loop body's row 3 of four. -/
theorem c_store_k1_pay31 (vload : Vec F S1x16 .i32) :
    k1_pay31 (F := F) c_iota vload = fun y => (vload y : BitVec 32) + laneOff 0 y := c_fix_eq 0 vload
/-- Chunk 1 (columns 16…31), the loop body's row 3 of four. -/
theorem c_store_k1_pay32 (vload : Vec F S1x16 .i32) :
    k1_pay32 (F := F) c_iota vload = fun y => (vload y : BitVec 32) + laneOff 1 y := c_fix_eq 1 vload
/-- Chunk 2 (columns 32…47), the loop body's row 3 of four. -/
theorem c_store_k1_pay33 (vload : Vec F S1x16 .i32) :
    k1_pay33 (F := F) c_iota vload = fun y => (vload y : BitVec 32) + laneOff 2 y := c_fix_eq 2 vload
/-- Chunk 3 (columns 48…63), the loop body's row 3 of four. -/
theorem c_store_k1_pay34 (vload : Vec F S1x16 .i32) :
    k1_pay34 (F := F) c_iota vload = fun y => (vload y : BitVec 32) + laneOff 3 y := c_fix_eq 3 vload
/-- Chunk 4 (columns 64…79), the loop body's row 3 of four. -/
theorem c_store_k1_pay38 (vload : Vec F S1x16 .i32) :
    k1_pay38 (k1_pay35 (F := F) vload) (k1_pay36 c_iota) (k1_pay37) = fun y => (vload y : BitVec 32) + laneOff 4 y := c_fix_eq 4 vload
/-- Chunk 5 (columns 80…95), the loop body's row 3 of four. -/
theorem c_store_k1_pay39 (vload : Vec F S1x16 .i32) :
    k1_pay39 (F := F) c_iota vload = fun y => (vload y : BitVec 32) + laneOff 5 y := c_fix_eq 5 vload
/-- Chunk 6 (columns 96…111), the loop body's row 3 of four. -/
theorem c_store_k1_pay40 (vload : Vec F S1x16 .i32) :
    k1_pay40 (F := F) c_iota vload = fun y => (vload y : BitVec 32) + laneOff 6 y := c_fix_eq 6 vload
/-- Chunk 7 (columns 112…127), the loop body's row 3 of four. -/
theorem c_store_k1_pay41 (vload : Vec F S1x16 .i32) :
    k1_pay41 (F := F) c_iota vload = fun y => (vload y : BitVec 32) + laneOff 7 y := c_fix_eq 7 vload
/-- Chunk 0 (columns 0…15), row 0 before the loop. -/
theorem c_store_k1_pay42 (vload : Vec F S1x16 .i32) :
    k1_pay42 (F := F) vload = fun y => (vload y : BitVec 32) + laneOff 0 y := c_fix_eq 0 vload
/-- Chunk 1 (columns 16…31), row 0 before the loop. -/
theorem c_store_k1_pay43 (vload : Vec F S1x16 .i32) :
    k1_pay43 (F := F) vload = fun y => (vload y : BitVec 32) + laneOff 1 y := c_fix_eq 1 vload
/-- Chunk 2 (columns 32…47), row 0 before the loop. -/
theorem c_store_k1_pay45 (vload : Vec F S1x16 .i32) :
    k1_pay45 (k1_pay44 (F := F) vload) = fun y => (vload y : BitVec 32) + laneOff 2 y := c_fix_eq 2 vload
/-- Chunk 3 (columns 48…63), row 0 before the loop. -/
theorem c_store_k1_pay46 (vload : Vec F S1x16 .i32) :
    k1_pay46 (F := F) c_iota vload = fun y => (vload y : BitVec 32) + laneOff 3 y := c_fix_eq 3 vload
/-- Chunk 4 (columns 64…79), row 0 before the loop. -/
theorem c_store_k1_pay47 (vload : Vec F S1x16 .i32) :
    k1_pay47 (F := F) c_iota vload = fun y => (vload y : BitVec 32) + laneOff 4 y := c_fix_eq 4 vload
/-- Chunk 5 (columns 80…95), row 0 before the loop. -/
theorem c_store_k1_pay49 (vload : Vec F S1x16 .i32) :
    k1_pay49 (k1_pay48 (F := F) c_iota vload) = fun y => (vload y : BitVec 32) + laneOff 5 y := c_fix_eq 5 vload
/-- Chunk 6 (columns 96…111), row 0 before the loop. -/
theorem c_store_k1_pay50 (vload : Vec F S1x16 .i32) :
    k1_pay50 (F := F) c_iota vload = fun y => (vload y : BitVec 32) + laneOff 6 y := c_fix_eq 6 vload
/-- Chunk 7 (columns 112…127), row 0 before the loop. -/
theorem c_store_k1_pay51 (vload : Vec F S1x16 .i32) :
    k1_pay51 (F := F) c_iota vload = fun y => (vload y : BitVec 32) + laneOff 7 y := c_fix_eq 7 vload
/-- Chunk 0 (columns 0…15), row 1 before the loop. -/
theorem c_store_k1_pay52 (vload : Vec F S1x16 .i32) :
    k1_pay52 (F := F) c_iota vload = fun y => (vload y : BitVec 32) + laneOff 0 y := c_fix_eq 0 vload
/-- Chunk 1 (columns 16…31), row 1 before the loop. -/
theorem c_store_k1_pay53 (vload : Vec F S1x16 .i32) :
    k1_pay53 (F := F) c_iota vload = fun y => (vload y : BitVec 32) + laneOff 1 y := c_fix_eq 1 vload
/-- Chunk 2 (columns 32…47), row 1 before the loop. -/
theorem c_store_k1_pay54 (vload : Vec F S1x16 .i32) :
    k1_pay54 (F := F) c_iota vload = fun y => (vload y : BitVec 32) + laneOff 2 y := c_fix_eq 2 vload
/-- Chunk 3 (columns 48…63), row 1 before the loop. -/
theorem c_store_k1_pay56 (vload : Vec F S1x16 .i32) :
    k1_pay56 c_iota (k1_pay55 (F := F) vload) 4#32 = fun y => (vload y : BitVec 32) + laneOff 3 y := c_fix_eq 3 vload
/-- Chunk 4 (columns 64…79), row 1 before the loop. -/
theorem c_store_k1_pay57 (vload : Vec F S1x16 .i32) :
    k1_pay57 (F := F) c_iota vload = fun y => (vload y : BitVec 32) + laneOff 4 y := c_fix_eq 4 vload
/-- Chunk 5 (columns 80…95), row 1 before the loop. -/
theorem c_store_k1_pay58 (vload : Vec F S1x16 .i32) :
    k1_pay58 (F := F) c_iota vload = fun y => (vload y : BitVec 32) + laneOff 5 y := c_fix_eq 5 vload
/-- Chunk 6 (columns 96…111), row 1 before the loop. -/
theorem c_store_k1_pay61 (vload : Vec F S1x16 .i32) :
    k1_pay61 (k1_pay59 (F := F) vload) (k1_pay60 c_iota) 128#32 = fun y => (vload y : BitVec 32) + laneOff 6 y := c_fix_eq 6 vload
/-- Chunk 7 (columns 112…127), row 1 before the loop. -/
theorem c_store_k1_pay62 (vload : Vec F S1x16 .i32) :
    k1_pay62 (F := F) c_iota vload = fun y => (vload y : BitVec 32) + laneOff 7 y := c_fix_eq 7 vload
/-- Chunk 0 (columns 0…15), row 2 before the loop. -/
theorem c_store_k1_pay64 (vload : Vec F S1x16 .i32) :
    k1_pay64 (k1_pay63 (F := F) c_iota vload) = fun y => (vload y : BitVec 32) + laneOff 0 y := c_fix_eq 0 vload
/-- Chunk 1 (columns 16…31), row 2 before the loop. -/
theorem c_store_k1_pay65 (vload : Vec F S1x16 .i32) :
    k1_pay65 (F := F) c_iota vload = fun y => (vload y : BitVec 32) + laneOff 1 y := c_fix_eq 1 vload
/-- Chunk 2 (columns 32…47), row 2 before the loop. -/
theorem c_store_k1_pay66 (vload : Vec F S1x16 .i32) :
    k1_pay66 (F := F) c_iota vload = fun y => (vload y : BitVec 32) + laneOff 2 y := c_fix_eq 2 vload
/-- Chunk 3 (columns 48…63), row 2 before the loop. -/
theorem c_store_k1_pay67 (vload : Vec F S1x16 .i32) :
    k1_pay67 (F := F) c_iota vload = fun y => (vload y : BitVec 32) + laneOff 3 y := c_fix_eq 3 vload
/-- Chunk 4 (columns 64…79), row 2 before the loop. -/
theorem c_store_k1_pay68 (vload : Vec F S1x16 .i32) :
    k1_pay68 (F := F) c_iota vload = fun y => (vload y : BitVec 32) + laneOff 4 y := c_fix_eq 4 vload
/-- Chunk 5 (columns 80…95), row 2 before the loop. -/
theorem c_store_k1_pay69 (vload : Vec F S1x16 .i32) :
    k1_pay69 (F := F) c_iota vload = fun y => (vload y : BitVec 32) + laneOff 5 y := c_fix_eq 5 vload
/-- Chunk 6 (columns 96…111), row 2 before the loop. -/
theorem c_store_k1_pay70 (vload : Vec F S1x16 .i32) :
    k1_pay70 (F := F) c_iota vload = fun y => (vload y : BitVec 32) + laneOff 6 y := c_fix_eq 6 vload
/-- Chunk 7 (columns 112…127), row 2 before the loop. -/
theorem c_store_k1_pay71 (vload : Vec F S1x16 .i32) :
    k1_pay71 (F := F) c_iota vload = fun y => (vload y : BitVec 32) + laneOff 7 y := c_fix_eq 7 vload
/-- Chunk 0 (columns 0…15), row 3 before the loop. -/
theorem c_store_k1_pay72 (vload : Vec F S1x16 .i32) :
    k1_pay72 (F := F) c_iota vload = fun y => (vload y : BitVec 32) + laneOff 0 y := c_fix_eq 0 vload
/-- Chunk 1 (columns 16…31), row 3 before the loop. -/
theorem c_store_k1_pay75 (vload : Vec F S1x16 .i32) :
    k1_pay75 (k1_pay73 (F := F) vload) (k1_pay74 c_iota) = fun y => (vload y : BitVec 32) + laneOff 1 y := c_fix_eq 1 vload
/-- Chunk 2 (columns 32…47), row 3 before the loop. -/
theorem c_store_k1_pay76 (vload : Vec F S1x16 .i32) :
    k1_pay76 (F := F) c_iota vload = fun y => (vload y : BitVec 32) + laneOff 2 y := c_fix_eq 2 vload
/-- Chunk 3 (columns 48…63), row 3 before the loop. -/
theorem c_store_k1_pay77 (vload : Vec F S1x16 .i32) :
    k1_pay77 (F := F) c_iota vload = fun y => (vload y : BitVec 32) + laneOff 3 y := c_fix_eq 3 vload
/-- Chunk 4 (columns 64…79), row 3 before the loop. -/
theorem c_store_k1_pay80 (vload : Vec F S1x16 .i32) :
    k1_pay80 (k1_pay78 (F := F) vload) (k1_pay79 c_iota) = fun y => (vload y : BitVec 32) + laneOff 4 y := c_fix_eq 4 vload
/-- Chunk 5 (columns 80…95), row 3 before the loop. -/
theorem c_store_k1_pay81 (vload : Vec F S1x16 .i32) :
    k1_pay81 (F := F) c_iota vload = fun y => (vload y : BitVec 32) + laneOff 5 y := c_fix_eq 5 vload
/-- Chunk 6 (columns 96…111), row 3 before the loop. -/
theorem c_store_k1_pay82 (vload : Vec F S1x16 .i32) :
    k1_pay82 (F := F) c_iota vload = fun y => (vload y : BitVec 32) + laneOff 6 y := c_fix_eq 6 vload
/-- Chunk 7 (columns 112…127), row 3 before the loop. -/
theorem c_store_k1_pay84 (vload : Vec F S1x16 .i32) :
    k1_pay84 (k1_pay83 (F := F) c_iota vload) = fun y => (vload y : BitVec 32) + laneOff 7 y := c_fix_eq 7 vload

/-! ## A whole row -/

omit [FloatOps F] in
theorem c_rho_lt (l : Fin 128) : rho l < 64 := by
  unfold rho
  have := l.isLt
  omega

omit [FloatOps F] in
/-- Column `l` is lane `l mod 16` of chunk `l div 16`, and what that chunk adds there is `4 ρ(l)`. -/
theorem c_laneOff_col (l : Fin 128) :
    laneOff (l.val / 16) (ix2 (0 : Fin 1) (⟨l.val % 16, Nat.mod_lt _ (by decide)⟩ : Fin 16)) = BitVec.ofNat 32 (4 * rho l) := by
  show BitVec.ofNat 32 (4 * (l.val % 16) + 64 * (l.val / 16 % 4)) = BitVec.ofNat 32 (4 * (l.val % 16 + 16 * (l.val / 16 % 4)))
  congr 1
  omega

omit [FloatOps F] in
/-- A row rewritten chunk by chunk is the row with `4 ρ(l)` added at every column `l`. -/
theorem c_row_fixed (r : Fin 128 → BitVec 32) :
    (fun l : Fin 128 => r l + laneOff (l.val / 16) (ix2 (0 : Fin 1) (⟨l.val % 16, Nat.mod_lt _ (by decide)⟩ : Fin 16)))
      = fun l => r l + BitVec.ofNat 32 (4 * rho l) :=
  funext fun l => by rw [c_laneOff_col]

omit [FloatOps F] in
/-- An index word below 4 with `4 ρ(l)` added: no wrap, the sum below 256, and the row it names. -/
theorem c_fixed_toNat (x : BitVec 32) (l : Fin 128) (hx : x.toNat < 4) :
    (x + BitVec.ofNat 32 (4 * rho l)).toNat = x.toNat + 4 * rho l ∧ x.toNat + 4 * rho l < 256 := by
  have h := c_rho_lt l
  refine ⟨?_, by omega⟩
  simp only [BitVec.toNat_add, BitVec.toNat_ofNat, Nat.reducePow]
  omega

omit [FloatOps F] in
theorem c_gRow_fixed (x : BitVec 32) (l : Fin 128) (h : x.toNat + 4 * rho l < 256) :
    gRow x l = (⟨x.toNat + 4 * rho l, h⟩ : Fin 256) :=
  Fin.ext (Nat.mod_eq_of_lt h)

omit [FloatOps F] in
/-- The three together, for a row whose word at `l` is below 4. -/
theorem c_row_fixed_spec (r : Fin 128 → BitVec 32) (l : Fin 128) (hx : (r l).toNat < 4) :
    (r l + BitVec.ofNat 32 (4 * rho l)).toNat = (r l).toNat + 4 * rho l ∧
      ∃ h : (r l).toNat + 4 * rho l < 256, gRow (r l) l = (⟨(r l).toNat + 4 * rho l, h⟩ : Fin 256) :=
  ⟨(c_fixed_toNat (r l) l hx).1, (c_fixed_toNat (r l) l hx).2, c_gRow_fixed (r l) l (c_fixed_toNat (r l) l hx).2⟩

end Cert.Kernel.Hand

end
-- ==== Proof.KernelW.FixRow.lean ====
/-
  One row of the index scratch rewritten, as one closed form.

  A row of 128 index words is rewritten by eight stores of sixteen lanes each: store `c` writes columns
  `16 c … 16 c + 15` of row `t` with what a load of the same sixteen words read, plus `4 · lane + 64 · (c mod 4)`.
  A store through a rectangle changes exactly the words of the rectangle, and the eight rectangles are the eight
  disjoint stretches of the row, so after the eighth store every word `(t, j)` of the row holds what it held before
  the first plus `4 ρ(j)`, `ρ(j) = j mod 16 + 16 · ((j div 16) mod 4)`, and every other word of the scratch is as it was.
-/
import proofs.«214982_g87402584473731_cont_9to1c4b_667_31_alg».proof.Proof.KernelW.Common
import proofs.«214982_g87402584473731_cont_9to1c4b_667_31_alg».proof.Proof.KernelW.Chunks
import proofs.«214982_g87402584473731_cont_9to1c4b_667_31_alg».proof.Proof.KernelW.Pieces

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## One store of sixteen words -/

section Chunk
variable (t col : Nat) (h : ∀ a, (![t, col] : Fin 2 → Nat) a + S1x16.size a ≤ S200x128.size a)
  (g : (ixV).view.ty.Contents (Elt F)) (p : IVec S1x16 32)

/-- Where the chunk's lane `x` sits in the scratch: row `t`, column `col + x`. -/
theorem a_chunk_emb (x : S1x16.Idx) (a : Fin 2) :
    ((Rect.unit (s := S200x128) ![t, col] S1x16.size h).emb x a : Nat) = (![t, col] : Fin 2 → Nat) a + 1 * (x a).val := rfl

/-- The store writes its payload at the chunk's words … -/
theorem a_write_hit (x : S1x16.Idx) :
    View.write (Elt F) ((ixV).access (Rect.unit (s := S200x128) ![t, col] S1x16.size h)) g p Finset.univ
        ((Rect.unit (s := S200x128) ![t, col] S1x16.size h).emb x) = p x :=
  View.write_emb_of_mem (v := (ixV).access (Rect.unit (s := S200x128) ![t, col] S1x16.size h)) (Val := Elt F) g p
    (M := Finset.univ) (x := x) (Finset.mem_univ _)

/-- … and leaves every other word of the scratch as it was. -/
theorem a_write_miss (i : S200x128.Idx) (hi : i ∉ (Rect.unit (s := S200x128) ![t, col] S1x16.size h).set) :
    View.write (Elt F) ((ixV).access (Rect.unit (s := S200x128) ![t, col] S1x16.size h)) g p Finset.univ i = g i :=
  View.write_of_not_mem (v := (ixV).access (Rect.unit (s := S200x128) ![t, col] S1x16.size h)) (Val := Elt F) g p Finset.univ
    (i := i) (by
      rw [View.setOn_univ]
      show i ∉ ((View.whole cc1_scratch0).slice (Rect.unit (s := S200x128) ![t, col] S1x16.size h)).set
      rw [View.set_slice_whole]; exact hi)

/-- A load of the chunk reads the scratch at the chunk's words. -/
theorem a_read_chunk (x : S1x16.Idx) :
    (View.readAt (Elt F) (ixV).view (Rect.unit (s := S200x128) ![t, col] S1x16.size h).toLoadRect g x : BitVec 32)
      = g ((Rect.unit (s := S200x128) ![t, col] S1x16.size h).emb x) := rfl

end Chunk

/-! ## The eight stores of a row -/

/-- What the scratch holds after the first `c` stores of row `t`: the row's first `16 c` words with their lane
    offsets added, everything else as at the start. -/
def a_Inv (t : Nat) (g0 : S200x128.Idx → BitVec 32) (c : Nat) (g : S200x128.Idx → BitVec 32) : Prop :=
  ∀ i : S200x128.Idx, g i = if (i 0).val = t ∧ (i 1).val < 16 * c then g0 i + BitVec.ofNat 32 (4 * rho ⟨(i 1).val, (i 1).isLt⟩) else g0 i

theorem a_inv_zero (t : Nat) (g0 : S200x128.Idx → BitVec 32) : a_Inv t g0 0 g0 :=
  fun i => (if_neg (fun h => absurd h.2 (by omega))).symm

/-- Store `c` carries the invariant on: its sixteen words are columns `16 c … 16 c + 15` of row `t`, untouched so
    far; lane `x` is column `16 c + x`, where `4 x + 64 (c mod 4) = 4 ρ(16 c + x)`. -/
theorem a_inv_step (t c : Nat) (h : ∀ a, (![t, 16 * c] : Fin 2 → Nat) a + S1x16.size a ≤ S200x128.size a)
    (g0 g g' : S200x128.Idx → BitVec 32) (p : IVec S1x16 32) (hinv : a_Inv t g0 c g)
    (e : g' = View.write (Elt F) ((ixV).access (Rect.unit (s := S200x128) ![t, 16 * c] S1x16.size h)) g p Finset.univ)
    (q : p = fun y => (View.readAt (Elt F) (ixV).view (Rect.unit (s := S200x128) ![t, 16 * c] S1x16.size h).toLoadRect g y : BitVec 32)
        + laneOff c y) :
    a_Inv t g0 (c + 1) g' := by
  intro i
  subst e
  by_cases hi : i ∈ (Rect.unit (s := S200x128) ![t, 16 * c] S1x16.size h).set
  · obtain ⟨x, -, rfl⟩ := Finset.mem_map.mp ((Rect.map_emb_univ _).symm ▸ hi)
    have e0 : ((Rect.unit (s := S200x128) ![t, 16 * c] S1x16.size h).emb x 0).val = t + 1 * (x 0).val := rfl
    have e1 : ((Rect.unit (s := S200x128) ![t, 16 * c] S1x16.size h).emb x 1).val = 16 * c + 1 * (x 1).val := rfl
    have hx0 : (x 0).val < 1 := (x 0).isLt
    have hx1 : (x 1).val < 16 := (x 1).isLt
    rw [a_write_hit, q, if_pos ⟨by omega, by omega⟩]
    show g ((Rect.unit (s := S200x128) ![t, 16 * c] S1x16.size h).emb x) + laneOff c x = _
    rw [hinv _, if_neg (fun hh => absurd hh.2 (by omega))]
    congr 1
    show BitVec.ofNat 32 (4 * (x 1).val + 64 * (c % 4))
      = BitVec.ofNat 32 (4 * (((Rect.unit (s := S200x128) ![t, 16 * c] S1x16.size h).emb x 1).val % 16
          + 16 * (((Rect.unit (s := S200x128) ![t, 16 * c] S1x16.size h).emb x 1).val / 16 % 4)))
    congr 1
    omega
  · rw [a_write_miss t (16 * c) h g p i hi, hinv i]
    have hi' := hi
    rw [mem_unit2] at hi'
    simp at hi'
    have h1 : (i 1).val < 128 := (i 1).isLt
    by_cases hr : (i 0).val = t
    · have hc : ¬(16 * c ≤ (i 1).val ∧ (i 1).val < 16 * c + 16) := fun hh => by
        have := hi' (by omega) (by omega) hh.1
        omega
      by_cases hlt : (i 1).val < 16 * c
      · rw [if_pos ⟨hr, hlt⟩, if_pos ⟨hr, by omega⟩]
      · rw [if_neg (fun hh => hlt hh.2), if_neg (fun hh => by have := hh.2; omega)]
    · rw [if_neg (fun hh => hr hh.1), if_neg (fun hh => hr hh.1)]

/-- THE ROW FIX-UP IN CLOSED FORM: after the eight stores, row `t` holds its words plus `4 ρ` of the column, and every
    other word of the scratch is as before the first store. -/
theorem fix_row_chain (t : Nat) (ht : t < 200)
    (h0 : ∀ a, (![t, 0] : Fin 2 → Nat) a + S1x16.size a ≤ S200x128.size a)
    (h1 : ∀ a, (![t, 16] : Fin 2 → Nat) a + S1x16.size a ≤ S200x128.size a)
    (h2 : ∀ a, (![t, 32] : Fin 2 → Nat) a + S1x16.size a ≤ S200x128.size a)
    (h3 : ∀ a, (![t, 48] : Fin 2 → Nat) a + S1x16.size a ≤ S200x128.size a)
    (h4 : ∀ a, (![t, 64] : Fin 2 → Nat) a + S1x16.size a ≤ S200x128.size a)
    (h5 : ∀ a, (![t, 80] : Fin 2 → Nat) a + S1x16.size a ≤ S200x128.size a)
    (h6 : ∀ a, (![t, 96] : Fin 2 → Nat) a + S1x16.size a ≤ S200x128.size a)
    (h7 : ∀ a, (![t, 112] : Fin 2 → Nat) a + S1x16.size a ≤ S200x128.size a)
    (g0 g1 g2 g3 g4 g5 g6 g7 g8 : S200x128.Idx → BitVec 32) (p0 p1 p2 p3 p4 p5 p6 p7 : IVec S1x16 32)
    (e1 : g1 = View.write (Elt F) ((ixV).access (Rect.unit (s := S200x128) ![t, 0] S1x16.size h0)) g0 p0 Finset.univ)
    (e2 : g2 = View.write (Elt F) ((ixV).access (Rect.unit (s := S200x128) ![t, 16] S1x16.size h1)) g1 p1 Finset.univ)
    (e3 : g3 = View.write (Elt F) ((ixV).access (Rect.unit (s := S200x128) ![t, 32] S1x16.size h2)) g2 p2 Finset.univ)
    (e4 : g4 = View.write (Elt F) ((ixV).access (Rect.unit (s := S200x128) ![t, 48] S1x16.size h3)) g3 p3 Finset.univ)
    (e5 : g5 = View.write (Elt F) ((ixV).access (Rect.unit (s := S200x128) ![t, 64] S1x16.size h4)) g4 p4 Finset.univ)
    (e6 : g6 = View.write (Elt F) ((ixV).access (Rect.unit (s := S200x128) ![t, 80] S1x16.size h5)) g5 p5 Finset.univ)
    (e7 : g7 = View.write (Elt F) ((ixV).access (Rect.unit (s := S200x128) ![t, 96] S1x16.size h6)) g6 p6 Finset.univ)
    (e8 : g8 = View.write (Elt F) ((ixV).access (Rect.unit (s := S200x128) ![t, 112] S1x16.size h7)) g7 p7 Finset.univ)
    (q0 : p0 = fun y => (View.readAt (Elt F) (ixV).view (Rect.unit (s := S200x128) ![t, 0] S1x16.size h0).toLoadRect g0 y : BitVec 32) + laneOff 0 y)
    (q1 : p1 = fun y => (View.readAt (Elt F) (ixV).view (Rect.unit (s := S200x128) ![t, 16] S1x16.size h1).toLoadRect g1 y : BitVec 32) + laneOff 1 y)
    (q2 : p2 = fun y => (View.readAt (Elt F) (ixV).view (Rect.unit (s := S200x128) ![t, 32] S1x16.size h2).toLoadRect g2 y : BitVec 32) + laneOff 2 y)
    (q3 : p3 = fun y => (View.readAt (Elt F) (ixV).view (Rect.unit (s := S200x128) ![t, 48] S1x16.size h3).toLoadRect g3 y : BitVec 32) + laneOff 3 y)
    (q4 : p4 = fun y => (View.readAt (Elt F) (ixV).view (Rect.unit (s := S200x128) ![t, 64] S1x16.size h4).toLoadRect g4 y : BitVec 32) + laneOff 4 y)
    (q5 : p5 = fun y => (View.readAt (Elt F) (ixV).view (Rect.unit (s := S200x128) ![t, 80] S1x16.size h5).toLoadRect g5 y : BitVec 32) + laneOff 5 y)
    (q6 : p6 = fun y => (View.readAt (Elt F) (ixV).view (Rect.unit (s := S200x128) ![t, 96] S1x16.size h6).toLoadRect g6 y : BitVec 32) + laneOff 6 y)
    (q7 : p7 = fun y => (View.readAt (Elt F) (ixV).view (Rect.unit (s := S200x128) ![t, 112] S1x16.size h7).toLoadRect g7 y : BitVec 32) + laneOff 7 y) :
    ∀ i : S200x128.Idx, g8 i = if (i 0).val = t then g0 i + BitVec.ofNat 32 (4 * rho ⟨(i 1).val, (i 1).isLt⟩) else g0 i := by
  have i1 := a_inv_step (F := F) t 0 h0 g0 g0 g1 p0 (a_inv_zero t g0) e1 q0
  have i2 := a_inv_step (F := F) t 1 h1 g0 g1 g2 p1 i1 e2 q1
  have i3 := a_inv_step (F := F) t 2 h2 g0 g2 g3 p2 i2 e3 q2
  have i4 := a_inv_step (F := F) t 3 h3 g0 g3 g4 p3 i3 e4 q3
  have i5 := a_inv_step (F := F) t 4 h4 g0 g4 g5 p4 i4 e5 q4
  have i6 := a_inv_step (F := F) t 5 h5 g0 g5 g6 p5 i5 e6 q5
  have i7 := a_inv_step (F := F) t 6 h6 g0 g6 g7 p6 i6 e7 q6
  have i8 := a_inv_step (F := F) t 7 h7 g0 g7 g8 p7 i7 e8 q7
  intro i
  have hl : (i 1).val < 128 := (i 1).isLt
  rw [i8 i]
  by_cases hr : (i 0).val = t
  · rw [if_pos ⟨hr, by omega⟩, if_pos hr]
  · rw [if_neg (fun hh => hr hh.1), if_neg hr]

/-! ## The rewritten row, as a gather's offset list reads it -/

section Row
variable (t : Nat) (ht : t < 200) (inb : ∀ a, (![t, 0] : Fin 2 → Nat) a + S1x128.size a ≤ S200x128.size a)

/-- Entry `x` of the row memref (row `t` sliced out and its unit axis dropped) is word `(t, x)` of the scratch. -/
theorem a_row_emb (x : S128.Idx) :
    (((ixV).slice (Rect.unit (s := S200x128) ![t, 0] S1x128.size inb) (fun _ => rfl)).squeeze S128 squeezes_S1x128_S128).view.emb x
      = (ix2 (⟨t, ht⟩ : Fin 200) (⟨(x 0).val, (x 0).isLt⟩ : Fin 128) : S200x128.Idx) := by
  show (Rect.unit (s := S200x128) ![t, 0] S1x128.size inb).emb (Shape.reshapeEquiv squeezes_S1x128_S128.numel_eq x) = _
  rw [Shape.reshapeEquiv_eq_of_rowMajor squeezes_S1x128_S128.numel_eq
    (y := (ix2 (0 : Fin 1) (⟨(x 0).val, (x 0).isLt⟩ : Fin 128) : S1x128.Idx)) (by
      rw [Shape.rowMajor_val_two, Shape.rowMajor_val_one]
      show 0 * 128 + (x 0).val = (x 0).val
      omega)]
  funext a
  refine Fin.ext ?_
  match a with
  | ⟨0, _⟩ => show t + 1 * 0 = t; omega
  | ⟨1, _⟩ => show 0 + 1 * (x 0).val = (x 0).val; omega

variable (g0 g8 : S200x128.Idx → BitVec 32)
  (hc : ∀ i : S200x128.Idx, g8 i = if (i 0).val = t then g0 i + BitVec.ofNat 32 (4 * rho ⟨(i 1).val, (i 1).isLt⟩) else g0 i)
include hc

/-- Read through the row memref, the rewritten scratch gives the row's old words plus `4 ρ` of the column. -/
theorem fixed_read (x : S128.Idx) :
    (View.read (Elt F) (((ixV).slice (Rect.unit (s := S200x128) ![t, 0] S1x128.size inb) (fun _ => rfl)).squeeze S128
        squeezes_S1x128_S128).view g8 x : BitVec 32)
      = g0 (ix2 (⟨t, ht⟩ : Fin 200) (⟨(x 0).val, (x 0).isLt⟩ : Fin 128)) + BitVec.ofNat 32 (4 * rho ⟨(x 0).val, (x 0).isLt⟩) := by
  show g8 ((((ixV).slice (Rect.unit (s := S200x128) ![t, 0] S1x128.size inb) (fun _ => rfl)).squeeze S128
      squeezes_S1x128_S128).view.emb x) = _
  rw [a_row_emb t ht inb x, hc, if_pos rfl]

/-- Where the row's old words are index words below 4, every offset the gather reads is below 256. -/
theorem fixed_hin (h4 : ∀ l : Fin 128, (g0 (ix2 (⟨t, ht⟩ : Fin 200) l)).toNat < 4) (x : S128.Idx) :
    (View.read (Elt F) (((ixV).slice (Rect.unit (s := S200x128) ![t, 0] S1x128.size inb) (fun _ => rfl)).squeeze S128
        squeezes_S1x128_S128).view g8 x : BitVec 32).toNat < 256 := by
  rw [fixed_read (F := F) t ht inb g0 g8 hc x]
  have h := c_fixed_toNat (g0 (ix2 (⟨t, ht⟩ : Fin 200) (⟨(x 0).val, (x 0).isLt⟩ : Fin 128))) ⟨(x 0).val, (x 0).isLt⟩ (h4 _)
  rw [h.1]
  exact h.2

end Row

/-! ## What the two fetches landed -/

section Base
variable [FloatOps F] (m : (ℓ : Loc nD τ sig) → Buf (Elt F) ℓ) (d : Dev nD) (L : grid1.Coords)

/-- The first fetch lands rows 0 … 7 of the subcore's slab of indices (slab `2 i + c` for subcore `i` of SparseCore `c`) in
    rows 0 … 7 of the scratch. -/
theorem base_read_hd (c : Fin 2) (i : Fin 16) (hc : c.val = (L 0).val) (hi : i.val = (L 1).val)
    (f : (ixHd).view.ty.Contents (Elt F)) (t : Fin 8) (l : Fin 128) :
    ((ixHd).view.writes (Elt F) f [⟨Rect.whole S8x128, ReadAs.same.apply (View.read (Elt F) (iHd L).view (I4 m d))⟩]
        (ix2 (⟨t.val, by omega⟩ : Fin 200) l : S200x128.Idx) : BitVec 32)
      = I4 m d (ix3 (wid c i) (⟨t.val, by omega⟩ : Fin 200) l) := by
  rw [View.writes_singleton]
  have hx : (ix2 (⟨t.val, by omega⟩ : Fin 200) l : S200x128.Idx)
      = ((ixHd).view.slice (Rect.whole S8x128)).emb (ix2 t l : S8x128.Idx) := by
    funext a
    refine Fin.ext ?_
    match a with
    | ⟨0, _⟩ => show t.val = 0 + 1 * (0 + 1 * t.val); omega
    | ⟨1, _⟩ => show l.val = 0 + 1 * (0 + 1 * l.val); omega
  rw [hx, View.write_emb_of_mem _ _ (Finset.mem_univ _)]
  show I4 m d ((iHd L).view.emb (ix2 t l : S8x128.Idx)) = _
  refine congrArg (I4 m d) ?_
  show (ihdK L).emb (Shape.reshapeEquiv squeezes_S1x8x128_S8x128.numel_eq (ix2 t l : S8x128.Idx)) = _
  rw [Shape.reshapeEquiv_eq_of_rowMajor squeezes_S1x8x128_S8x128.numel_eq (y := (ix3 (0 : Fin 1) t l : S1x8x128.Idx)) (by
      rw [Shape.rowMajor_val_three, Shape.rowMajor_val_two]
      show (0 * 8 + t.val) * 128 + l.val = t.val * 128 + l.val
      omega)]
  funext a
  refine Fin.ext ?_
  have hk := k1_off2_eq L
  match a with
  | ⟨0, _⟩ =>
    show k1_off2 L 0 + 1 * 0 = 2 * i.val + c.val
    rw [hk]; show 2 * (L 1).val + (L 0).val + 1 * 0 = _; omega
  | ⟨1, _⟩ =>
    show k1_off2 L 1 + 1 * t.val = t.val
    rw [hk]; show 0 + 1 * t.val = _; omega
  | ⟨2, _⟩ =>
    show k1_off2 L 2 + 1 * l.val = l.val
    rw [hk]; show 0 + 1 * l.val = _; omega

/-- The second fetch lands rows 8 … 199 of the slab in rows 8 … 199 of the scratch. -/
theorem base_read_tl (c : Fin 2) (i : Fin 16) (hc : c.val = (L 0).val) (hi : i.val = (L 1).val)
    (f : (ixTl).view.ty.Contents (Elt F)) (t : Nat) (h8 : 8 ≤ t) (ht : t < 200) (l : Fin 128) :
    ((ixTl).view.writes (Elt F) f [⟨Rect.whole S192x128, ReadAs.same.apply (View.read (Elt F) (iTl L).view (I4 m d))⟩]
        (ix2 (⟨t, ht⟩ : Fin 200) l : S200x128.Idx) : BitVec 32)
      = I4 m d (ix3 (wid c i) (⟨t, ht⟩ : Fin 200) l) := by
  rw [View.writes_singleton]
  have hx : (ix2 (⟨t, ht⟩ : Fin 200) l : S200x128.Idx)
      = ((ixTl).view.slice (Rect.whole S192x128)).emb (ix2 (⟨t - 8, by omega⟩ : Fin 192) l : S192x128.Idx) := by
    funext a
    refine Fin.ext ?_
    match a with
    | ⟨0, _⟩ => show t = 8 + 1 * (0 + 1 * (t - 8)); omega
    | ⟨1, _⟩ => show l.val = 0 + 1 * (0 + 1 * l.val); omega
  rw [hx, View.write_emb_of_mem _ _ (Finset.mem_univ _)]
  show I4 m d ((iTl L).view.emb (ix2 (⟨t - 8, by omega⟩ : Fin 192) l : S192x128.Idx)) = _
  refine congrArg (I4 m d) ?_
  show (itlK L).emb (Shape.reshapeEquiv squeezes_S1x192x128_S192x128.numel_eq (ix2 (⟨t - 8, by omega⟩ : Fin 192) l : S192x128.Idx)) = _
  rw [Shape.reshapeEquiv_eq_of_rowMajor squeezes_S1x192x128_S192x128.numel_eq
    (y := (ix3 (0 : Fin 1) (⟨t - 8, by omega⟩ : Fin 192) l : S1x192x128.Idx)) (by
      rw [Shape.rowMajor_val_three, Shape.rowMajor_val_two]
      show (0 * 192 + (t - 8)) * 128 + l.val = (t - 8) * 128 + l.val
      omega)]
  funext a
  refine Fin.ext ?_
  have hk := k1_off3_eq L
  match a with
  | ⟨0, _⟩ =>
    show k1_off3 L 0 + 1 * 0 = 2 * i.val + c.val
    rw [hk]; show 2 * (L 1).val + (L 0).val + 1 * 0 = _; omega
  | ⟨1, _⟩ =>
    show k1_off3 L 1 + 1 * (t - 8) = t
    rw [hk]; show 8 + 1 * (t - 8) = _; omega
  | ⟨2, _⟩ =>
    show k1_off3 L 2 + 1 * l.val = l.val
    rw [hk]; show 0 + 1 * l.val = _; omega

end Base

end Cert.Kernel.Hand

end
-- ==== Proof.KernelW.TileLemmas3.lean ====
/-
  More lemmas for one vector subcore's task: the index words' range. Subcore `s` of SparseCore `c` works on slab `w = 2s + c`: it copies block `s` (rows
  16s … 16s+15) of the 256-row table into its SparseCore's shared memory, fetches the first 8 of its 200 rows of indices
  and starts the fetch of the other 192, meets the other fifteen subcores at the barrier — handing each a sixteenth of its
  block and receiving a sixteenth of every block, so that from then on it reads the whole shared table —, and then, row
  of 128 indices by row, adds the lane offsets, gathers the 128 named table rows into one of four row buffers and copies
  the buffer out to rows 25600 w + 128 t … of the result.
-/
import proofs.«214982_g87402584473731_cont_9to1c4b_667_31_alg».proof.Proof.KernelW.TileLemmas2
import proofs.«214982_g87402584473731_cont_9to1c4b_667_31_alg».proof.Proof.KernelW.FixRow

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Tile

variable (d : Dev nD) (L : grid1.Coords)

/-- Under the precondition every word of the re-laid index array is one of 0, 1, 2, 3: re-laying moves words, it changes none. -/
theorem I4_lt4 (hpre : PreOK m) (j : S32x200x128.Idx) : ((I4 m d j : Elt F .i32) : BitVec 32).toNat < 4 := by
  unfold I4 shapeCast
  exact hpre d _

/-- What the first eight rows of the index scratch hold once the head fetch has landed (over whatever was there). -/
abbrev G0hd (L : grid1.Coords) (f : Buf (Elt F) ((V d (cV L) (jV L)).loc cc1_scratch0)) : Buf (Elt F) ((V d (cV L) (jV L)).loc cc1_scratch0) :=
  (ixHd).view.writes (Elt F) f [⟨Rect.whole S8x128, ReadAs.same.apply (View.read (Elt F) (iHd L).view (I4 m d))⟩]

end Tile

end Cert.Kernel.Hand

end
-- ==== Proof.KernelW.TileLemmas4.lean ====
/-
  More lemmas for one vector subcore's task: rows 4 … 7 of the index scratch, set aside under one name while rows 0 … 3 are worked on. Subcore `s` of SparseCore `c` works on slab `w = 2s + c`: it copies block `s` (rows
  16s … 16s+15) of the 256-row table into its SparseCore's shared memory, fetches the first 8 of its 200 rows of indices
  and starts the fetch of the other 192, meets the other fifteen subcores at the barrier — handing each a sixteenth of its
  block and receiving a sixteenth of every block, so that from then on it reads the whole shared table —, and then, row
  of 128 indices by row, adds the lane offsets, gathers the 128 named table rows into one of four row buffers and copies
  the buffer out to rows 25600 w + 128 t … of the result.
-/
import proofs.«214982_g87402584473731_cont_9to1c4b_667_31_alg».proof.Proof.KernelW.TileLemmas3

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Tile

variable (d : Dev nD) (L : grid1.Coords)

/-- Rows 4 … 7 of the index scratch as the head fetch landed them: what is left of the first eight rows once rows 0 … 3 are
    held apart. -/
def hdRest (fixb : Buf (Elt F) ((V d (cV L) (jV L)).loc cc1_scratch0)) : sProp 𝕄 :=
  (ixHd).view.loc (V d (cV L) (jV L)) ↦[((((ixHd).view.set \ ixRow0R.set) \ ixRow1R.set) \ ixRow2R.set) \ ixRow3R.set]{fullShare} G0hd m d L fixb

theorem hdRest_eq (fixb : Buf (Elt F) ((V d (cV L) (jV L)).loc cc1_scratch0)) :
    hdRest m d L fixb
      = ((ixHd).view.loc (V d (cV L) (jV L)) ↦[((((ixHd).view.set \ ixRow0R.set) \ ixRow1R.set) \ ixRow2R.set) \ ixRow3R.set]{fullShare} G0hd m d L fixb : sProp 𝕄) := rfl

/-- The same words under one name. -/
def G0hdO (fixb : Buf (Elt F) ((V d (cV L) (jV L)).loc cc1_scratch0)) : Buf (Elt F) ((V d (cV L) (jV L)).loc cc1_scratch0) := G0hd m d L fixb
theorem G0hdO_eq (fixb : Buf (Elt F) ((V d (cV L) (jV L)).loc cc1_scratch0)) : G0hdO m d L fixb = G0hd m d L fixb := rfl

theorem pts_G0hdO (fixb : Buf (Elt F) ((V d (cV L) (jV L)).loc cc1_scratch0)) :
    ((ixHd).view.loc (V d (cV L) (jV L)) ↦[(ixHd).view.set]{fullShare} G0hd m d L fixb : sProp 𝕄)
      = ((ixHd).view.loc (V d (cV L) (jV L)) ↦[(ixHd).view.set]{fullShare} G0hdO m d L fixb) := rfl

end Tile

end Cert.Kernel.Hand

end
-- ==== Proof.KernelW.LoopInv.lean ====
/-
  The gather loop of a vector subcore's task: what holds between its trips.

  A trip handles four rows of 128 indices, one per row buffer (slot). For slot `b` of trip `n` the gather by row `4n + b`
  of the index scratch is already in flight; the trip adds the lane offsets to row `4n + b + 4`, waits for the gather,
  copies the row buffer out to block `4n + b` of the subcore's result slab, waits for that copy, and starts the gather by
  the row just fixed. So between trips: four gathers in flight, by rows `4n … 4n + 3`; the rows below `4n` spent; the rows
  from `4n + 4` on as fetched; the first `4n` blocks of the slab written.
-/
import proofs.«214982_g87402584473731_cont_9to1c4b_667_31_alg».proof.Proof.KernelW.TileLemmas
import proofs.«214982_g87402584473731_cont_9to1c4b_667_31_alg».proof.Proof.KernelW.TileLemmas2
import proofs.«214982_g87402584473731_cont_9to1c4b_667_31_alg».proof.Proof.KernelW.Blocks
import proofs.«214982_g87402584473731_cont_9to1c4b_667_31_alg».proof.Proof.KernelW.Chunks

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Loop

variable (d : Dev nD) (L : grid1.Coords)

/-! ## The gather loop's invariant: its vocabulary -/

/-- The whole shared table, as every gather slices it. -/
abbrev b_shW : Memref sig .scVector .shared S256x128 .f32 := (shV).slice (Rect.unit (s := S256x128) ![0, 0] S256x128.size inb_S256x128_S256x128_0_0) (fun _ => rfl)
/-- Row `t` of the index scratch as a gather's offset list addresses it. -/
abbrev b_rowM (t : Fin 200) : Memref sig .scVector .vmem S128 .i32 := ((ixV).slice (ixRowR t) (fun _ => rfl)).squeeze S128 squeezes_S1x128_S128
/-- A row number below 200 (any number, folded). -/
def b_row (t : Nat) : Fin 200 := ⟨t % 200, Nat.mod_lt _ (by decide)⟩

/-- The index scratch as the two fetches land it: row `t`, lane `r` holds index `(w, t, r)` of the subcore's slab `w`. -/
def b_G0 : Buf (Elt F) ((V d (cV L) (jV L)).loc cc1_scratch0) := fun j =>
  (I4 m d (ix3 (n0 := 32) (n1 := 200) (n2 := 128) (wid (cL L) (jL L)) ⟨(j 0).val, (j 0).isLt⟩ ⟨(j 1).val, (j 1).isLt⟩) : BitVec 32)
/-- The same with every row's lane offsets added: lane `r` holds the index plus `4 ρ(r)`. -/
def b_FX : Buf (Elt F) ((V d (cV L) (jV L)).loc cc1_scratch0) := fun j =>
  BitVec.add (b_G0 m d L j) (BitVec.ofNat 32 (4 * rho ⟨(j 1).val, (j 1).isLt⟩))

/-- What the gather by list row `t` (at the words `FX`) writes into a row buffer: at `(r, l)` the shared table's row named by word `r`. -/
def b_pay (FX : Buf (Elt F) ((V d (cV L) (jV L)).loc cc1_scratch0))
    (hfx : ∀ (t : Fin 200) x, (View.read (Elt F) (b_rowM t).view FX x : BitVec 32).toNat < 256) (t : Fin 200) : S128x128.Idx → Elt F .f32 :=
  SparseCore.gatherPayload gathers_S256x128_S128x128 (View.read (Elt F) (b_shW).view (T3 m d : Buf (Elt F) (shLoc d (cV L))))
    (SparseCore.rows (View.read (Elt F) (b_rowM t).view FX) rfl (hfx t))

/-- Gather flight of slot 0, its offset list row `t` of the index scratch. -/
abbrev b_fl0 (FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256) (t : Fin 200) : sProp 𝕄 :=
  Transfers.Flight countersEmb (V d (cV L) (jV L)) (SemLoc.dma (⟨4, by decide⟩ : DmaSem sig)) (default : HIx 1) 524288
    iprop((((rwS0).view.loc (V d (cV L) (jV L)) ↦[(rwS0).view.set]{fullShare} (rwS0).view.writes (Elt F) frw [⟨Rect.whole S128x128, b_pay (m := m) d L FX hfx t⟩])
        ∗ ((b_rowM t).view.loc (V d (cV L) (jV L)) ↦[(b_rowM t).view.set]{fullShare} FX))
      ∗ ((b_shW).view.loc (V d (cV L) (jV L)) ↦[(b_shW).view.set]{gshare L 0} T3 m d))

/-- Gather flight of slot 1, its offset list row `t` of the index scratch. -/
abbrev b_fl1 (FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256) (t : Fin 200) : sProp 𝕄 :=
  Transfers.Flight countersEmb (V d (cV L) (jV L)) (SemLoc.dma (⟨5, by decide⟩ : DmaSem sig)) (default : HIx 1) 524288
    iprop((((rwS1).view.loc (V d (cV L) (jV L)) ↦[(rwS1).view.set]{fullShare} (rwS1).view.writes (Elt F) frw [⟨Rect.whole S128x128, b_pay (m := m) d L FX hfx t⟩])
        ∗ ((b_rowM t).view.loc (V d (cV L) (jV L)) ↦[(b_rowM t).view.set]{fullShare} FX))
      ∗ ((b_shW).view.loc (V d (cV L) (jV L)) ↦[(b_shW).view.set]{gshare L 1} T3 m d))

/-- Gather flight of slot 2, its offset list row `t` of the index scratch. -/
abbrev b_fl2 (FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256) (t : Fin 200) : sProp 𝕄 :=
  Transfers.Flight countersEmb (V d (cV L) (jV L)) (SemLoc.dma (⟨6, by decide⟩ : DmaSem sig)) (default : HIx 1) 524288
    iprop((((rwS2).view.loc (V d (cV L) (jV L)) ↦[(rwS2).view.set]{fullShare} (rwS2).view.writes (Elt F) frw [⟨Rect.whole S128x128, b_pay (m := m) d L FX hfx t⟩])
        ∗ ((b_rowM t).view.loc (V d (cV L) (jV L)) ↦[(b_rowM t).view.set]{fullShare} FX))
      ∗ ((b_shW).view.loc (V d (cV L) (jV L)) ↦[(b_shW).view.set]{gshare L 2} T3 m d))

/-- Gather flight of slot 3, its offset list row `t` of the index scratch. -/
abbrev b_fl3 (FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256) (t : Fin 200) : sProp 𝕄 :=
  Transfers.Flight countersEmb (V d (cV L) (jV L)) (SemLoc.dma (⟨7, by decide⟩ : DmaSem sig)) (default : HIx 1) 524288
    iprop((((rwS3).view.loc (V d (cV L) (jV L)) ↦[(rwS3).view.set]{fullShare} (rwS3).view.writes (Elt F) frw [⟨Rect.whole S128x128, b_pay (m := m) d L FX hfx t⟩])
        ∗ ((b_rowM t).view.loc (V d (cV L) (jV L)) ↦[(b_rowM t).view.set]{fullShare} FX))
      ∗ ((b_shW).view.loc (V d (cV L) (jV L)) ↦[(b_shW).view.set]{gshare L 3} T3 m d))

/-- Before trip `n` of the gather loop (`n` = 0 … 49; the carried word is not read): the waits' evidence and what the
    subcore owes; the four gathers in flight, slot `b`'s by list row `4n + b` at the fixed words `FX`, each with a quarter
    of the subcore's sixteenth of the shared table; the four write-out semaphores at zero; the index scratch's rows below
    `4n` (their gathers done) at `FX` and its rows from `4n + 4` on at the landed words `G0`; the result slab's first `4n`
    blocks at the gathered rows and the rest as launched; and whatever else the task holds across the loop (`R`). -/
def b_inv (O : CellTallies nD τ sig (HIx 1)) (W : Waits sig (HIx 1)) (G0 FX : Buf (Elt F) ((V d (cV L) (jV L)).loc cc1_scratch0))
    (frw : Buf (Elt F) ((V d (cV L) (jV L)).loc cc1_scratch1))
    (hfx : ∀ (t : Fin 200) x, (View.read (Elt F) (b_rowM t).view FX x : BitVec 32).toNat < 256) (R : sProp 𝕄) (n : Nat) (_ : BitVec 32) : sProp 𝕄 :=
  iprop(Transfers.MayWaits (V d (cV L) (jV L)) (default : HIx 1) O
    ∗ (∃ W', ⌜∀ p ∈ W', p ∈ W ∨ p.2 = none ∨ p.2 = some (0 : Fin 1)⌝ ∗ owes (V d (cV L) (jV L)) O W')
    ∗ b_fl0 m d L FX frw hfx (b_row (4 * n + 0)) ∗ b_fl1 m d L FX frw hfx (b_row (4 * n + 1))
    ∗ b_fl2 m d L FX frw hfx (b_row (4 * n + 2)) ∗ b_fl3 m d L FX frw hfx (b_row (4 * n + 3))
    ∗ semVal (dcell d (cV L) (jV L) 8) 0 ∗ semVal (dcell d (cV L) (jV L) 9) 0 ∗ semVal (dcell d (cV L) (jV L) 10) 0 ∗ semVal (dcell d (cV L) (jV L) 11) 0
    ∗ (bigSep (Finset.range (4 * n)) fun t => (V d (cV L) (jV L)).loc cc1_scratch0 ↦[(ixRowR (b_row t)).set]{fullShare} FX)
    ∗ (bigSep ((Finset.range 200).filter fun t => 4 * n + 4 ≤ t) fun t => (V d (cV L) (jV L)).loc cc1_scratch0 ↦[(ixRowR (b_row t)).set]{fullShare} G0)
    ∗ (v5Loc d ↦[odoneSet (wid (cL L) (jL L)) (4 * n)]{fullShare} O5 m d)
    ∗ (v5Loc d ↦[oslabSet (wid (cL L) (jL L)) \ odoneSet (wid (cL L) (jL L)) (4 * n)]{fullShare} m (v5Loc d))
    ∗ R)

end Loop

end Cert.Kernel.Hand

end
-- ==== Proof.KernelW.Gathered.lean ====
/-
  What a gathered row buffer holds, and what the result block it is copied to holds.

  Row `t` of slab `w`, once rewritten, holds at lane `r` the index word `x` of `(w, t, r)` plus `4 ρ(r)`. The indirect
  gather reads that list and fills row `r` of the row buffer with row `x + 4 ρ(r)` of the shared 256-row table: the
  row the result's row `25600 w + 128 t + r` is defined to be (the word is below 4, so the sum is below 256 and is
  the row number taken modulo 256). The copy-out then moves the buffer, read whole, to the 128 rows of block `t` of
  slab `w` of the result, whose row `r` is row `25600 w + 128 t + r` of the result array.
-/
import proofs.«214982_g87402584473731_cont_9to1c4b_667_31_alg».proof.Proof.KernelW.Common
import proofs.«214982_g87402584473731_cont_9to1c4b_667_31_alg».proof.Proof.KernelW.Chunks
import proofs.«214982_g87402584473731_cont_9to1c4b_667_31_alg».proof.Proof.KernelW.Blocks
import proofs.«214982_g87402584473731_cont_9to1c4b_667_31_alg».proof.Proof.KernelW.Pieces
import Idealize.ShloMosaic.Lib.SparseCore.Stream

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (d : Dev nD)

/-! ## The result's row `25600 w + 128 t + r` -/

theorem a_row_lt (w : Fin 32) (t : Fin 200) (r : Fin 128) : 25600 * w.val + 128 * t.val + r.val < 819200 := by
  have := w.isLt; have := t.isLt; have := r.isLt; omega

/-- It is the row of the 256-row table that index word `(w, t, r)` names in lane `r`. -/
theorem a_O5_at (w : Fin 32) (t : Fin 200) (r l : Fin 128) :
    O5 m d (ix2 (⟨25600 * w.val + 128 * t.val + r.val, a_row_lt w t r⟩ : Fin 819200) l)
      = T3 m d (ix2 (gRow (I4 m d (ix3 w t r) : BitVec 32) r) l) := by
  have hw := w.isLt; have ht := t.isLt; have hr := r.isLt
  have eA : (⟨(25600 * w.val + 128 * t.val + r.val) / 25600, by omega⟩ : Fin 32) = w := Fin.ext (by show _ / 25600 = w.val; omega)
  have eB : (⟨(25600 * w.val + 128 * t.val + r.val) % 25600 / 128, by omega⟩ : Fin 200) = t := Fin.ext (by show _ % 25600 / 128 = t.val; omega)
  have eC : (⟨(25600 * w.val + 128 * t.val + r.val) % 128, by omega⟩ : Fin 128) = r := Fin.ext (by show _ % 128 = r.val; omega)
  unfold O5
  show T3 m d (ix2 (gRow (I4 m d (ix3 (⟨(25600 * w.val + 128 * t.val + r.val) / 25600, _⟩ : Fin 32)
      (⟨(25600 * w.val + 128 * t.val + r.val) % 25600 / 128, _⟩ : Fin 200) (⟨(25600 * w.val + 128 * t.val + r.val) % 128, _⟩ : Fin 128)) : BitVec 32)
      (⟨(25600 * w.val + 128 * t.val + r.val) % 128, _⟩ : Fin 128)) (⟨l.val, _⟩ : Fin 128)) = _
  rw [eA, eB, eC]

/-! ## The gather's payload -/

/-- Entry `k` of a 128-word list, in row-major order, is its word at `k`. -/
theorem a_list_at (k : Fin S128.numel) : ((S128.rowMajor.symm k) 0).val = k.val := by
  have h := Shape.rowMajor_val_one (d := ![128]) (S128.rowMajor.symm k)
  rw [← h]
  exact congrArg Fin.val (S128.rowMajor.apply_symm_apply k)

/-- THE GATHERED BUFFER: where the offset list at lane `r` is index word `(w, t, r)` plus `4 ρ(r)` and the index words
    are below 4, the gather of the shared table's rows at that list is rows `25600 w + 128 t … + 127` of the result. -/
theorem gathered_eq (w : Fin 32) (t : Fin 200) (idx : S128.Idx → Elt F .i32)
    (hn : S128.numel = S128x128.size (gathers_S256x128_S128x128).axis')
    (hin : ∀ x, (idx x : BitVec 32).toNat < S256x128.size (gathers_S256x128_S128x128).axis)
    (hfo : ∀ x : S128.Idx, (idx x : BitVec 32)
        = (I4 m d (ix3 w t (⟨(x 0).val, (x 0).isLt⟩ : Fin 128)) : BitVec 32) + BitVec.ofNat 32 (4 * rho ⟨(x 0).val, (x 0).isLt⟩))
    (h4 : ∀ l : Fin 128, (I4 m d (ix3 w t l) : BitVec 32).toNat < 4) :
    SparseCore.gatherPayload gathers_S256x128_S128x128
        (View.read (Elt F) ((shV).slice (Rect.unit (s := S256x128) ![0, 0] S256x128.size inb_S256x128_S256x128_0_0) (fun _ => rfl)).view (T3 m d))
        (SparseCore.rows idx hn hin)
      = fun x : S128x128.Idx => O5 m d (ix2 (⟨25600 * w.val + 128 * t.val + (x 0).val, a_row_lt w t ⟨(x 0).val, (x 0).isLt⟩⟩ : Fin 819200)
          (⟨(x 1).val, (x 1).isLt⟩ : Fin 128)) := by
  funext x
  rw [a_O5_at m d w t ⟨(x 0).val, (x 0).isLt⟩ ⟨(x 1).val, (x 1).isLt⟩]
  have hx4 := h4 ⟨(x 0).val, (x 0).isLt⟩
  have hfix := c_fixed_toNat (I4 m d (ix3 w t (⟨(x 0).val, (x 0).isLt⟩ : Fin 128)) : BitVec 32) ⟨(x 0).val, (x 0).isLt⟩ hx4
  rw [c_gRow_fixed _ _ hfix.2]
  show T3 m d (((shV).slice (Rect.unit (s := S256x128) ![0, 0] S256x128.size inb_S256x128_S256x128_0_0) (fun _ => rfl)).view.emb
      ((gathers_S256x128_S128x128).idx (SparseCore.rows idx hn hin) x)) = _
  refine congrArg (T3 m d) (funext fun b => Fin.ext ?_)
  match b with
  | ⟨0, _⟩ =>
    show 0 + 1 * (idx (S128.rowMajor.symm (Fin.cast hn.symm (x 0))) : BitVec 32).toNat = _
    have hk : ((S128.rowMajor.symm (Fin.cast hn.symm (x 0))) 0).val = (x 0).val := a_list_at _
    have e : (⟨((S128.rowMajor.symm (Fin.cast hn.symm (x 0))) 0).val, ((S128.rowMajor.symm (Fin.cast hn.symm (x 0))) 0).isLt⟩ : Fin 128)
        = ⟨(x 0).val, (x 0).isLt⟩ := Fin.ext hk
    have hy := hfo (S128.rowMajor.symm (Fin.cast hn.symm (x 0)))
    rw [e] at hy
    rw [hy]
    have h1 := hfix.1
    show 0 + 1 * ((I4 m d (ix3 w t (⟨(x 0).val, (x 0).isLt⟩ : Fin 128)) : BitVec 32) + BitVec.ofNat 32 (4 * rho ⟨(x 0).val, (x 0).isLt⟩)).toNat
      = (I4 m d (ix3 w t (⟨(x 0).val, (x 0).isLt⟩ : Fin 128)) : BitVec 32).toNat + 4 * rho ⟨(x 0).val, (x 0).isLt⟩
    omega
  | ⟨1, _⟩ =>
    show 0 + 1 * (x 1).val = (x 1).val
    omega

/-! ## The copy-out -/

section Landed
variable (w : Fin 32) (t : Fin 200)

/-- Element `x` of block `t` of slab `w` is row `25600 w + 128 t + x₀`, column `x₁` of the result array. -/
theorem a_oblk_emb (x : S128x128.Idx) :
    ((oV).slice (oblkR w t) (fun _ => rfl)).view.emb x
      = (ix2 (⟨25600 * w.val + 128 * t.val + (x 0).val, a_row_lt w t ⟨(x 0).val, (x 0).isLt⟩⟩ : Fin 819200)
          (⟨(x 1).val, (x 1).isLt⟩ : Fin 128) : S819200x128.Idx) := by
  funext a
  refine Fin.ext ?_
  match a with
  | ⟨0, _⟩ => show 25600 * w.val + 128 * t.val + 1 * (x 0).val = 25600 * w.val + 128 * t.val + (x 0).val; omega
  | ⟨1, _⟩ => show 0 + 1 * (x 1).val = (x 1).val; omega

/-- A row buffer written whole reads back what was written, whatever it held before. -/
theorem a_buffer_read (rw : Memref sig .scVector .vmem S128x128 .f32) (frw : rw.view.ty.Contents (Elt F)) (P : S128x128.Idx → Elt F .f32) :
    View.read (Elt F) rw.view (rw.view.writes (Elt F) frw [⟨Rect.whole S128x128, P⟩]) = P :=
  funext fun x =>
    (congrArg (View.read (Elt F) rw.view (rw.view.writes (Elt F) frw [⟨Rect.whole S128x128, P⟩])) (Rect.emb_whole_apply S128x128 x).symm).trans
      (View.read_writes_cons_emb rw.view frw (Rect.whole S128x128) P [] x)

/-- The block written whole with a payload that is the result's rows `25600 w + 128 t … + 127` holds the result there,
    whatever it held before. -/
theorem block_landed_of (c : Fin τ.nSC) (j : Fin τ.nSub) (Q : S128x128.Idx → Elt F .f32)
    (hQ : Q = fun x : S128x128.Idx => O5 m d (ix2 (⟨25600 * w.val + 128 * t.val + (x 0).val, a_row_lt w t ⟨(x 0).val, (x 0).isLt⟩⟩ : Fin 819200)
        (⟨(x 1).val, (x 1).isLt⟩ : Fin 128)))
    (fprev : Buf (Elt F) (((oV).slice (oblkR w t) (fun _ => rfl)).view.loc (V d c j))) (q : PosShare TreeShare) :
    ((((oV).slice (oblkR w t) (fun _ => rfl)).view.loc (V d c j) ↦[((oV).slice (oblkR w t) (fun _ => rfl)).view.set]{q}
        ((oV).slice (oblkR w t) (fun _ => rfl)).view.writes (Elt F) fprev [⟨Rect.whole S128x128, Q⟩]) : sProp 𝕄)
      = (((oV).slice (oblkR w t) (fun _ => rfl)).view.loc (V d c j) ↦[((oV).slice (oblkR w t) (fun _ => rfl)).view.set]{q}
          (O5 m d : Buf (Elt F) (((oV).slice (oblkR w t) (fun _ => rfl)).view.loc (V d c j)))) :=
  pointsTo_congr fun i hi => by
    obtain ⟨x, -, rfl⟩ := Finset.mem_map.mp hi
    have hx : (((oV).slice (oblkR w t) (fun _ => rfl)).view.slice (Rect.whole S128x128)).emb x
        = ((oV).slice (oblkR w t) (fun _ => rfl)).view.emb x :=
      congrArg ((oV).slice (oblkR w t) (fun _ => rfl)).view.emb (Rect.emb_whole_apply S128x128 x)
    have hw := View.write_emb_of_mem (v := ((oV).slice (oblkR w t) (fun _ => rfl)).view.slice (Rect.whole S128x128)) (Val := Elt F) fprev
      Q (M := Finset.univ) (x := x) (Finset.mem_univ x)
    rw [hx] at hw
    refine hw.trans ?_
    show Q x = O5 m d (((oV).slice (oblkR w t) (fun _ => rfl)).view.emb x)
    rw [hQ]
    exact congrArg (O5 m d) (a_oblk_emb w t x).symm

/-- THE BLOCK LANDED: a row buffer holding rows `25600 w + 128 t … + 127` of the result, read whole and copied to block
    `t` of slab `w`, leaves that block holding the result there, whatever the block and the buffer held before. -/
theorem block_landed (c : Fin τ.nSC) (j : Fin τ.nSub) (rw : Memref sig .scVector .vmem S128x128 .f32)
    (frw : rw.view.ty.Contents (Elt F)) (P : S128x128.Idx → Elt F .f32)
    (hP : P = fun x : S128x128.Idx => O5 m d (ix2 (⟨25600 * w.val + 128 * t.val + (x 0).val, a_row_lt w t ⟨(x 0).val, (x 0).isLt⟩⟩ : Fin 819200)
        (⟨(x 1).val, (x 1).isLt⟩ : Fin 128)))
    (fprev : Buf (Elt F) (((oV).slice (oblkR w t) (fun _ => rfl)).view.loc (V d c j))) (q : PosShare TreeShare) :
    ((((oV).slice (oblkR w t) (fun _ => rfl)).view.loc (V d c j) ↦[((oV).slice (oblkR w t) (fun _ => rfl)).view.set]{q}
        ((oV).slice (oblkR w t) (fun _ => rfl)).view.writes (Elt F) fprev
          [⟨Rect.whole S128x128, ReadAs.same.apply (View.read (Elt F) rw.view (rw.view.writes (Elt F) frw [⟨Rect.whole S128x128, P⟩]))⟩]) : sProp 𝕄)
      = (((oV).slice (oblkR w t) (fun _ => rfl)).view.loc (V d c j) ↦[((oV).slice (oblkR w t) (fun _ => rfl)).view.set]{q}
          (O5 m d : Buf (Elt F) (((oV).slice (oblkR w t) (fun _ => rfl)).view.loc (V d c j)))) :=
  block_landed_of m d w t c j _ ((a_buffer_read rw frw P).trans hP) fprev q

/-- The block's location and element set, as the result array's. -/
theorem a_oblk_loc (c : Fin τ.nSC) (j : Fin τ.nSub) : ((oV).slice (oblkR w t) (fun _ => rfl)).view.loc (V d c j) = v5Loc d := rfl

theorem a_oblk_set : ((oV).slice (oblkR w t) (fun _ => rfl)).view.set = (oblkR w t).set := by
  show ((View.whole (main_v5_scv : Ref sig .scVector)).slice (oblkR w t)).set = _
  rw [View.set_slice]; exact Finset.map_refl

theorem a_pts_oblk (c : Fin τ.nSC) (j : Fin τ.nSub) (q : PosShare TreeShare) (f : Buf (Elt F) (v5Loc d)) :
    ((((oV).slice (oblkR w t) (fun _ => rfl)).view.loc (V d c j) ↦[((oV).slice (oblkR w t) (fun _ => rfl)).view.set]{q} f) : sProp 𝕄)
      = (v5Loc d ↦[(oblkR w t).set]{q} f) := by
  rw [a_oblk_set]

/-- `block_landed` with the block named as elements of the result array. -/
theorem block_landed_v5 (c : Fin τ.nSC) (j : Fin τ.nSub) (rw : Memref sig .scVector .vmem S128x128 .f32)
    (frw : rw.view.ty.Contents (Elt F)) (P : S128x128.Idx → Elt F .f32)
    (hP : P = fun x : S128x128.Idx => O5 m d (ix2 (⟨25600 * w.val + 128 * t.val + (x 0).val, a_row_lt w t ⟨(x 0).val, (x 0).isLt⟩⟩ : Fin 819200)
        (⟨(x 1).val, (x 1).isLt⟩ : Fin 128)))
    (fprev : Buf (Elt F) (((oV).slice (oblkR w t) (fun _ => rfl)).view.loc (V d c j))) (q : PosShare TreeShare) :
    ((((oV).slice (oblkR w t) (fun _ => rfl)).view.loc (V d c j) ↦[((oV).slice (oblkR w t) (fun _ => rfl)).view.set]{q}
        ((oV).slice (oblkR w t) (fun _ => rfl)).view.writes (Elt F) fprev
          [⟨Rect.whole S128x128, ReadAs.same.apply (View.read (Elt F) rw.view (rw.view.writes (Elt F) frw [⟨Rect.whole S128x128, P⟩]))⟩]) : sProp 𝕄)
      = (v5Loc d ↦[(oblkR w t).set]{q} O5 m d) :=
  (block_landed m d w t c j rw frw P hP fprev q).trans (a_pts_oblk d w t c j q (O5 m d))

end Landed

end Cert.Kernel.Hand

end
-- ==== Proof.KernelW.Inv0.lean ====
/-
  The loop's invariant before its first trip, piece by piece.

  When the prologue ends, the four gathers by rows 0 … 3 of the index scratch are in flight, each delivering its row
  buffer written with the gather's payload, its offset list's row and a quarter share of the shared table. The rows'
  words were rewritten by the eight stores of a row fix-up, so row `b` holds the landed index words plus `4 ρ` of the
  column: the words the invariant names. Rows 4 … 7 (of the first fetch) and 8 … 199 (of the second) hold the landed
  index words, row by row.
-/
import proofs.«214982_g87402584473731_cont_9to1c4b_667_31_alg».proof.Proof.KernelW.LoopInv
import proofs.«214982_g87402584473731_cont_9to1c4b_667_31_alg».proof.Proof.KernelW.FixRow
import proofs.«214982_g87402584473731_cont_9to1c4b_667_31_alg».proof.Proof.KernelW.Gathered
import proofs.«214982_g87402584473731_cont_9to1c4b_667_31_alg».proof.Proof.KernelW.TileLemmas3
import proofs.«214982_g87402584473731_cont_9to1c4b_667_31_alg».proof.Proof.KernelW.Blocks

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Inv0

variable (d : Dev nD) (L : grid1.Coords)

/-- Row `tb` rewritten: `g8` is `g0` with `4 ρ` of the column added along row `tb` (what the eight stores of a row
    fix-up leave: the conclusion of the row's closed form). -/
abbrev a_fixedAt (tb : Nat) (g0 g8 : S200x128.Idx → BitVec 32) : Prop :=
  ∀ i : S200x128.Idx, g8 i = if (i 0).val = tb then g0 i + BitVec.ofNat 32 (4 * rho ⟨(i 1).val, (i 1).isLt⟩) else g0 i

/-! ## The landed words -/

/-- In rows 0 … 7 the first fetch's landing is the index words of the subcore's slab. -/
theorem a_G0hd_eq (fixb : Buf (Elt F) ((V d (cV L) (jV L)).loc cc1_scratch0)) (i : S200x128.Idx) (h : (i 0).val < 8) :
    (G0hd m d L fixb i : BitVec 32) = b_G0 m d L i := by
  have e : (ix2 (⟨(i 0).val, by omega⟩ : Fin 200) (⟨(i 1).val, (i 1).isLt⟩ : Fin 128) : S200x128.Idx) = i := by
    funext a
    match a with
    | ⟨0, _⟩ => rfl
    | ⟨1, _⟩ => rfl
  have hb := base_read_hd m d L (cL L) (jL L) rfl rfl fixb ⟨(i 0).val, h⟩ ⟨(i 1).val, (i 1).isLt⟩
  rw [e] at hb
  exact hb

/-- The rows a list memref and a payload depend on only through what the list reads. -/
theorem a_rows_congr {idx idx' : S128.Idx → Elt F .i32} (e : idx = idx')
    (hn hn' : S128.numel = S128x128.size (gathers_S256x128_S128x128).axis')
    (hin : ∀ x, (idx x : BitVec 32).toNat < S256x128.size (gathers_S256x128_S128x128).axis)
    (hin' : ∀ x, (idx' x : BitVec 32).toNat < S256x128.size (gathers_S256x128_S128x128).axis) :
    SparseCore.rows idx hn hin = SparseCore.rows idx' hn' hin' := by
  subst e; rfl

/-! ## A gather in flight by one of rows 0 … 7, restated at the invariant's words -/

/-- On row `t` (one of the first eight) the rewritten scratch holds the invariant's fixed words. -/
theorem a_g8_eq_FX (fixb : Buf (Elt F) ((V d (cV L) (jV L)).loc cc1_scratch0)) (t : Fin 200) (ht : t.val < 8)
    (g8 : S200x128.Idx → BitVec 32) (hc : a_fixedAt t.val (G0hd m d L fixb) g8) (i : S200x128.Idx) (hi : i ∈ (ixRowR t).set) :
    g8 i = b_FX m d L i := by
  have h0 : (i 0).val = t.val := (mem_ixRow t i).mp hi
  rw [hc i, if_pos h0, a_G0hd_eq m d L fixb i (by omega)]
  rfl

/-- The elements a row's list memref addresses are the row's. -/
theorem a_rowM_set (t : Fin 200) : (b_rowM t).view.set = (ixRowR t).set := set_ixRow _ _

/-- The list's row memref, read over the rewritten scratch, reads the invariant's fixed words. -/
theorem a_read_row_eq (fixb : Buf (Elt F) ((V d (cV L) (jV L)).loc cc1_scratch0)) (t : Fin 200) (ht : t.val < 8)
    (g8 : S200x128.Idx → BitVec 32) (hc : a_fixedAt t.val (G0hd m d L fixb) g8) :
    View.read (Elt F) (b_rowM t).view g8 = View.read (Elt F) (b_rowM t).view (b_FX m d L) := by
  funext x
  show g8 ((b_rowM t).view.emb x) = b_FX m d L ((b_rowM t).view.emb x)
  refine a_g8_eq_FX m d L fixb t ht g8 hc _ ?_
  have hm : (b_rowM t).view.emb x ∈ (b_rowM t).view.set := Finset.mem_map_of_mem _ (Finset.mem_univ x)
  rw [a_rowM_set] at hm
  exact hm

/-- A gather in flight by list row `t` (one of the first eight) over the rewritten scratch delivers what the invariant's
    flight by row `t` delivers: the same payload (the list reads the same words), the list's row at the fixed words, the
    shared table's share. -/
theorem a_flight0 (rw : Memref sig .scVector .vmem S128x128 .f32) (sem : DmaSem sig) (q : PosShare TreeShare)
    (fixb : Buf (Elt F) ((V d (cV L) (jV L)).loc cc1_scratch0)) (frw : rw.view.ty.Contents (Elt F))
    (t : Fin 200) (ht : t.val < 8) (g8 : S200x128.Idx → BitVec 32) (hc : a_fixedAt t.val (G0hd m d L fixb) g8)
    (hn : S128.numel = S128x128.size (gathers_S256x128_S128x128).axis')
    (hin : ∀ x, (View.read (Elt F) (b_rowM t).view g8 x : BitVec 32).toNat < 256)
    (hfx : ∀ (t : Fin 200) x, (View.read (Elt F) (b_rowM t).view (b_FX m d L) x : BitVec 32).toNat < 256) :
    (Transfers.Flight countersEmb (V d (cV L) (jV L)) (SemLoc.dma sem) (default : HIx 1) 524288
        iprop(((rw.view.loc (V d (cV L) (jV L)) ↦[rw.view.set]{fullShare} rw.view.writes (Elt F) frw [⟨Rect.whole S128x128,
              SparseCore.gatherPayload gathers_S256x128_S128x128 (View.read (Elt F) (b_shW).view (T3 m d : Buf (Elt F) (shLoc d (cV L))))
                (SparseCore.rows (View.read (Elt F) (b_rowM t).view g8) hn hin)⟩])
            ∗ ((b_rowM t).view.loc (V d (cV L) (jV L)) ↦[(b_rowM t).view.set]{fullShare} g8))
          ∗ ((shV).view.loc (V d (cV L) (jV L)) ↦[(b_shW).view.set]{q} T3 m d)) : sProp 𝕄)
      ⊢ Transfers.Flight countersEmb (V d (cV L) (jV L)) (SemLoc.dma sem) (default : HIx 1) 524288
        iprop(((rw.view.loc (V d (cV L) (jV L)) ↦[rw.view.set]{fullShare} rw.view.writes (Elt F) frw [⟨Rect.whole S128x128, b_pay (m := m) d L (b_FX m d L) hfx t⟩])
            ∗ ((b_rowM t).view.loc (V d (cV L) (jV L)) ↦[(b_rowM t).view.set]{fullShare} b_FX m d L))
          ∗ ((b_shW).view.loc (V d (cV L) (jV L)) ↦[(b_shW).view.set]{q} T3 m d)) := by
  refine Transfers.Flight_mono _ _ (Entails.of_eq ?_)
  have hp : SparseCore.gatherPayload gathers_S256x128_S128x128 (View.read (Elt F) (b_shW).view (T3 m d : Buf (Elt F) (shLoc d (cV L))))
        (SparseCore.rows (View.read (Elt F) (b_rowM t).view g8) hn hin) = b_pay (m := m) d L (b_FX m d L) hfx t := by
    unfold b_pay
    rw [a_rows_congr (a_read_row_eq m d L fixb t ht g8 hc) hn rfl hin (hfx t)]
  have hl : ((b_rowM t).view.loc (V d (cV L) (jV L)) ↦[(b_rowM t).view.set]{fullShare} (g8 : Buf (Elt F) ((V d (cV L) (jV L)).loc cc1_scratch0)) : sProp 𝕄)
      = ((b_rowM t).view.loc (V d (cV L) (jV L)) ↦[(b_rowM t).view.set]{fullShare} b_FX m d L) :=
    pointsTo_congr fun i hi => by
      rw [a_rowM_set] at hi
      exact a_g8_eq_FX m d L fixb t ht g8 hc i hi
  rw [hp, hl]

/-- Slot 0: the gather by row 0, in flight when the prologue ends, is the invariant's flight of slot 0 before the first trip. -/
theorem flight0_0 (fixb : Buf (Elt F) ((V d (cV L) (jV L)).loc cc1_scratch0)) (frw : Buf (Elt F) ((V d (cV L) (jV L)).loc cc1_scratch1))
    (g8 : Buf (Elt F) ((V d (cV L) (jV L)).loc cc1_scratch0)) (hc : a_fixedAt 0 (G0hd m d L fixb) g8)
    (hn : S128.numel = S128x128.size (gathers_S256x128_S128x128).axis')
    (hin : ∀ x, (View.read (Elt F) (ixRow0).view g8 x : BitVec 32).toNat < 256)
    (hfx : ∀ (t : Fin 200) x, (View.read (Elt F) (b_rowM t).view (b_FX m d L) x : BitVec 32).toNat < 256) :
    (Transfers.Flight countersEmb (V d (cV L) (jV L)) (SemLoc.dma (⟨4, by decide⟩ : DmaSem sig)) (default : HIx 1) 524288
        iprop((((rwS0).view.loc (V d (cV L) (jV L)) ↦[(rwS0).view.set]{fullShare} (rwS0).view.writes (Elt F) frw [⟨Rect.whole S128x128,
              SparseCore.gatherPayload gathers_S256x128_S128x128 (View.read (Elt F) (b_shW).view (T3 m d : Buf (Elt F) (shLoc d (cV L))))
                (SparseCore.rows (View.read (Elt F) (ixRow0).view g8) hn hin)⟩])
            ∗ ((ixRow0).view.loc (V d (cV L) (jV L)) ↦[(ixRow0).view.set]{fullShare} g8))
          ∗ ((shV).view.loc (V d (cV L) (jV L)) ↦[(b_shW).view.set]{gshare L 0} T3 m d)) : sProp 𝕄)
      ⊢ b_fl0 m d L (b_FX m d L) frw hfx (b_row (4 * 0 + 0)) :=
  a_flight0 m d L rwS0 ⟨4, by decide⟩ (gshare L 0) fixb frw (b_row (4 * 0 + 0)) (by decide) g8 hc hn hin hfx

/-- Slot 1: the gather by row 1, in flight when the prologue ends, is the invariant's flight of slot 1 before the first trip. -/
theorem flight0_1 (fixb : Buf (Elt F) ((V d (cV L) (jV L)).loc cc1_scratch0)) (frw : Buf (Elt F) ((V d (cV L) (jV L)).loc cc1_scratch1))
    (g8 : Buf (Elt F) ((V d (cV L) (jV L)).loc cc1_scratch0)) (hc : a_fixedAt 1 (G0hd m d L fixb) g8)
    (hn : S128.numel = S128x128.size (gathers_S256x128_S128x128).axis')
    (hin : ∀ x, (View.read (Elt F) (ixRow1).view g8 x : BitVec 32).toNat < 256)
    (hfx : ∀ (t : Fin 200) x, (View.read (Elt F) (b_rowM t).view (b_FX m d L) x : BitVec 32).toNat < 256) :
    (Transfers.Flight countersEmb (V d (cV L) (jV L)) (SemLoc.dma (⟨5, by decide⟩ : DmaSem sig)) (default : HIx 1) 524288
        iprop((((rwS1).view.loc (V d (cV L) (jV L)) ↦[(rwS1).view.set]{fullShare} (rwS1).view.writes (Elt F) frw [⟨Rect.whole S128x128,
              SparseCore.gatherPayload gathers_S256x128_S128x128 (View.read (Elt F) (b_shW).view (T3 m d : Buf (Elt F) (shLoc d (cV L))))
                (SparseCore.rows (View.read (Elt F) (ixRow1).view g8) hn hin)⟩])
            ∗ ((ixRow1).view.loc (V d (cV L) (jV L)) ↦[(ixRow1).view.set]{fullShare} g8))
          ∗ ((shV).view.loc (V d (cV L) (jV L)) ↦[(b_shW).view.set]{gshare L 1} T3 m d)) : sProp 𝕄)
      ⊢ b_fl1 m d L (b_FX m d L) frw hfx (b_row (4 * 0 + 1)) :=
  a_flight0 m d L rwS1 ⟨5, by decide⟩ (gshare L 1) fixb frw (b_row (4 * 0 + 1)) (by decide) g8 hc hn hin hfx

/-- Slot 2: the gather by row 2, in flight when the prologue ends, is the invariant's flight of slot 2 before the first trip. -/
theorem flight0_2 (fixb : Buf (Elt F) ((V d (cV L) (jV L)).loc cc1_scratch0)) (frw : Buf (Elt F) ((V d (cV L) (jV L)).loc cc1_scratch1))
    (g8 : Buf (Elt F) ((V d (cV L) (jV L)).loc cc1_scratch0)) (hc : a_fixedAt 2 (G0hd m d L fixb) g8)
    (hn : S128.numel = S128x128.size (gathers_S256x128_S128x128).axis')
    (hin : ∀ x, (View.read (Elt F) (ixRow2).view g8 x : BitVec 32).toNat < 256)
    (hfx : ∀ (t : Fin 200) x, (View.read (Elt F) (b_rowM t).view (b_FX m d L) x : BitVec 32).toNat < 256) :
    (Transfers.Flight countersEmb (V d (cV L) (jV L)) (SemLoc.dma (⟨6, by decide⟩ : DmaSem sig)) (default : HIx 1) 524288
        iprop((((rwS2).view.loc (V d (cV L) (jV L)) ↦[(rwS2).view.set]{fullShare} (rwS2).view.writes (Elt F) frw [⟨Rect.whole S128x128,
              SparseCore.gatherPayload gathers_S256x128_S128x128 (View.read (Elt F) (b_shW).view (T3 m d : Buf (Elt F) (shLoc d (cV L))))
                (SparseCore.rows (View.read (Elt F) (ixRow2).view g8) hn hin)⟩])
            ∗ ((ixRow2).view.loc (V d (cV L) (jV L)) ↦[(ixRow2).view.set]{fullShare} g8))
          ∗ ((shV).view.loc (V d (cV L) (jV L)) ↦[(b_shW).view.set]{gshare L 2} T3 m d)) : sProp 𝕄)
      ⊢ b_fl2 m d L (b_FX m d L) frw hfx (b_row (4 * 0 + 2)) :=
  a_flight0 m d L rwS2 ⟨6, by decide⟩ (gshare L 2) fixb frw (b_row (4 * 0 + 2)) (by decide) g8 hc hn hin hfx

/-- Slot 3: the gather by row 3, in flight when the prologue ends, is the invariant's flight of slot 3 before the first trip. -/
theorem flight0_3 (fixb : Buf (Elt F) ((V d (cV L) (jV L)).loc cc1_scratch0)) (frw : Buf (Elt F) ((V d (cV L) (jV L)).loc cc1_scratch1))
    (g8 : Buf (Elt F) ((V d (cV L) (jV L)).loc cc1_scratch0)) (hc : a_fixedAt 3 (G0hd m d L fixb) g8)
    (hn : S128.numel = S128x128.size (gathers_S256x128_S128x128).axis')
    (hin : ∀ x, (View.read (Elt F) (ixRow3).view g8 x : BitVec 32).toNat < 256)
    (hfx : ∀ (t : Fin 200) x, (View.read (Elt F) (b_rowM t).view (b_FX m d L) x : BitVec 32).toNat < 256) :
    (Transfers.Flight countersEmb (V d (cV L) (jV L)) (SemLoc.dma (⟨7, by decide⟩ : DmaSem sig)) (default : HIx 1) 524288
        iprop((((rwS3).view.loc (V d (cV L) (jV L)) ↦[(rwS3).view.set]{fullShare} (rwS3).view.writes (Elt F) frw [⟨Rect.whole S128x128,
              SparseCore.gatherPayload gathers_S256x128_S128x128 (View.read (Elt F) (b_shW).view (T3 m d : Buf (Elt F) (shLoc d (cV L))))
                (SparseCore.rows (View.read (Elt F) (ixRow3).view g8) hn hin)⟩])
            ∗ ((ixRow3).view.loc (V d (cV L) (jV L)) ↦[(ixRow3).view.set]{fullShare} g8))
          ∗ ((shV).view.loc (V d (cV L) (jV L)) ↦[(b_shW).view.set]{gshare L 3} T3 m d)) : sProp 𝕄)
      ⊢ b_fl3 m d L (b_FX m d L) frw hfx (b_row (4 * 0 + 3)) :=
  a_flight0 m d L rwS3 ⟨7, by decide⟩ (gshare L 3) fixb frw (b_row (4 * 0 + 3)) (by decide) g8 hc hn hin hfx

/-! ## The fixed words are table rows -/

/-- (I1) Every fixed word is below 256: an index word below 4 plus `4 ρ` of its column, `ρ < 64`. -/
theorem FX_hfx (hpre : PreOK m) :
    ∀ (t : Fin 200) x, (View.read (Elt F) (b_rowM t).view (b_FX m d L) x : BitVec 32).toNat < 256 := by
  intro t x
  have h := c_fixed_toNat (b_G0 m d L ((b_rowM t).view.emb x) : BitVec 32)
    ⟨(((b_rowM t).view.emb x) 1).val, (((b_rowM t).view.emb x) 1).isLt⟩ (by unfold b_G0; exact I4_lt4 m d hpre _)
  exact lt_of_eq_of_lt h.1 h.2

/-! ## The rows not yet worked on -/

/-- A row number below 200, folded, is itself. -/
theorem a_row_val (t : Nat) (ht : t < 200) : (b_row t).val = t := Nat.mod_eq_of_lt ht

/-- What is left of the first eight rows once rows 0 … 3 are carved out, with the last 192: the rows from 4 on. -/
theorem a_rest_rows :
    (((((ixHd).view.set \ ixRow0R.set) \ ixRow1R.set) \ ixRow2R.set) \ ixRow3R.set) ∪ (ixTl).view.set
      = ((Finset.range 200).filter fun t => 4 * 0 + 4 ≤ t).biUnion fun t => (ixRowR (b_row t)).set := by
  ext i
  have h0 : (i 0).val < 200 := (i 0).isLt
  rw [Finset.mem_union, Finset.mem_sdiff, Finset.mem_sdiff, Finset.mem_sdiff, Finset.mem_sdiff, set_ixHd, set_ixTl, mem_ixHd, mem_ixTl,
    Finset.mem_biUnion]
  have r0 : i ∈ ixRow0R.set ↔ (i 0).val = 0 := by rw [mem_unit2]; simp; omega
  have r1 : i ∈ ixRow1R.set ↔ (i 0).val = 1 := by rw [mem_unit2]; simp; omega
  have r2 : i ∈ ixRow2R.set ↔ (i 0).val = 2 := by rw [mem_unit2]; simp; omega
  have r3 : i ∈ ixRow3R.set ↔ (i 0).val = 3 := by rw [mem_unit2]; simp; omega
  rw [r0, r1, r2, r3]
  constructor
  · intro h
    refine ⟨(i 0).val, Finset.mem_filter.mpr ⟨Finset.mem_range.mpr h0, by omega⟩, (mem_ixRow _ i).mpr ?_⟩
    rw [a_row_val _ h0]
  · rintro ⟨t, ht, hi⟩
    have ht' := Finset.mem_filter.mp ht
    have htl : t < 200 := Finset.mem_range.mp ht'.1
    rw [mem_ixRow, a_row_val _ htl] at hi
    have := ht'.2
    omega

theorem a_rest_disjoint :
    Disjoint (((((ixHd).view.set \ ixRow0R.set) \ ixRow1R.set) \ ixRow2R.set) \ ixRow3R.set) (ixTl).view.set := by
  rw [Finset.disjoint_left]
  intro i hi ht
  have hh : i ∈ (ixHd).view.set := (Finset.mem_sdiff.mp (Finset.mem_sdiff.mp (Finset.mem_sdiff.mp (Finset.mem_sdiff.mp hi).1).1).1).1
  rw [set_ixHd, mem_ixHd] at hh
  rw [set_ixTl, mem_ixTl] at ht
  omega

/-- In rows 8 … 199 the second fetch's landing is the index words of the subcore's slab. -/
theorem a_G0tl_eq (f : (ixTl).view.ty.Contents (Elt F)) (i : S200x128.Idx) (h : 8 ≤ (i 0).val) :
    ((ixTl).view.writes (Elt F) f [⟨Rect.whole S192x128, ReadAs.same.apply (View.read (Elt F) (iTl L).view (I4 m d))⟩] i : BitVec 32)
      = b_G0 m d L i := by
  have e : (ix2 (⟨(i 0).val, (i 0).isLt⟩ : Fin 200) (⟨(i 1).val, (i 1).isLt⟩ : Fin 128) : S200x128.Idx) = i := by
    funext a
    match a with
    | ⟨0, _⟩ => rfl
    | ⟨1, _⟩ => rfl
  have hb := base_read_tl m d L (cL L) (jL L) rfl rfl f (i 0).val h (i 0).isLt ⟨(i 1).val, (i 1).isLt⟩
  rw [e] at hb
  exact hb

/-- (I2) When the prologue ends, what it holds of the index scratch beyond rows 0 … 3 — the rest of the first fetch's
    rows and the second fetch's — is rows 4 … 199 at the landed index words, row by row. -/
theorem inv0_rows (fixb : Buf (Elt F) ((V d (cV L) (jV L)).loc cc1_scratch0)) :
    (iprop(((ixHd).view.loc (V d (cV L) (jV L)) ↦[((((ixHd).view.set \ ixRow0R.set) \ ixRow1R.set) \ ixRow2R.set) \ ixRow3R.set]{fullShare} G0hd m d L fixb)
        ∗ ((ixTl).view.loc (V d (cV L) (jV L)) ↦[(ixTl).view.set]{fullShare}
            (ixTl).view.writes (Elt F) (ixTl).view.junk [⟨Rect.whole S192x128, ReadAs.same.apply (View.read (Elt F) (iTl L).view (I4 m d))⟩])) : sProp 𝕄)
      ⊢ (bigSep ((Finset.range 200).filter fun t => 4 * 0 + 4 ≤ t) fun t =>
          (V d (cV L) (jV L)).loc cc1_scratch0 ↦[(ixRowR (b_row t)).set]{fullShare} b_G0 m d L : sProp 𝕄) := by
  have hh : ((ixHd).view.loc (V d (cV L) (jV L)) ↦[((((ixHd).view.set \ ixRow0R.set) \ ixRow1R.set) \ ixRow2R.set) \ ixRow3R.set]{fullShare}
        G0hd m d L fixb : sProp 𝕄)
      = ((V d (cV L) (jV L)).loc cc1_scratch0 ↦[((((ixHd).view.set \ ixRow0R.set) \ ixRow1R.set) \ ixRow2R.set) \ ixRow3R.set]{fullShare} b_G0 m d L) :=
    pointsTo_congr fun i hi => by
      have hm : i ∈ (ixHd).view.set := (Finset.mem_sdiff.mp (Finset.mem_sdiff.mp (Finset.mem_sdiff.mp (Finset.mem_sdiff.mp hi).1).1).1).1
      rw [set_ixHd, mem_ixHd] at hm
      exact a_G0hd_eq m d L fixb i hm
  have ht : ((ixTl).view.loc (V d (cV L) (jV L)) ↦[(ixTl).view.set]{fullShare}
        (ixTl).view.writes (Elt F) (ixTl).view.junk [⟨Rect.whole S192x128, ReadAs.same.apply (View.read (Elt F) (iTl L).view (I4 m d))⟩] : sProp 𝕄)
      = ((V d (cV L) (jV L)).loc cc1_scratch0 ↦[(ixTl).view.set]{fullShare} b_G0 m d L) :=
    pointsTo_congr fun i hi => by
      rw [set_ixTl, mem_ixTl] at hi
      exact a_G0tl_eq m d L _ i hi
  rw [hh, ht, ← pointsTo_biUnion _ _ (fun t ht t' ht' hne => ixRows_disjoint _ (Finset.mem_univ _) _ (Finset.mem_univ _) (fun e => hne (by
      have h1 := Finset.mem_range.mp (Finset.mem_filter.mp ht).1
      have h2 := Finset.mem_range.mp (Finset.mem_filter.mp ht').1
      have := congrArg Fin.val e
      rw [a_row_val _ h1, a_row_val _ h2] at this
      exact this))), ← a_rest_rows]
  exact (pointsTo_union a_rest_disjoint).2

end Inv0

end Cert.Kernel.Hand

end
-- ==== Proof.KernelW.Epilogue.lean ====
/-
  The end of a subcore's task: from the loop's exit to the last wait.

  When the loop ends, rows 0 … 195 of the subcore's 200 have been written out, and four gathers are in flight, one per
  row buffer, for rows 196 … 199. For each slot in turn the subcore waits for the gather, copies the row buffer out to
  its block of the result (blocks 196 … 199 of the slab) and waits for that copy. Afterwards it holds again the four row
  buffers, the four offset lists and the four shares of the shared table the gathers read; the four blocks hold the
  result's rows, provided what each gather left in its row buffer is those rows; and all eight semaphores are back at
  zero.
-/
import proofs.«214982_g87402584473731_cont_9to1c4b_667_31_alg».proof.Proof.KernelW.TileLemmas
import proofs.«214982_g87402584473731_cont_9to1c4b_667_31_alg».proof.Proof.KernelW.Blocks

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Epi

variable (d : Dev nD) (L : grid1.Coords)

/-- The slab's base row as the program computes it. -/
abbrev c_v2 (L : grid1.Coords) : BitVec 32 :=
  Scalar.muli (Scalar.addi (Scalar.muli (BitVec.ofNat 32 (L 1).val) 2#32) (BitVec.ofNat 32 (L 0).val)) 25600#32

local notation "c_shG" => (Memref.slice shV (Rect.unit (s := S256x128) ![0, 0] S256x128.size inb_S256x128_S256x128_0_0) (fun _ => rfl))

/-- The last four blocks of the result slab, as the program slices them. -/
local notation "c_oB0" L => (Memref.slice oV (Rect.unit (s := S819200x128) (k1_off15 L 25088#32) S128x128.size (k1_off15_inb L 0)) (fun _ => rfl))
local notation "c_oB1" L => (Memref.slice oV (Rect.unit (s := S819200x128) (k1_off15 L 25216#32) S128x128.size (k1_off15_inb L 1)) (fun _ => rfl))
local notation "c_oB2" L => (Memref.slice oV (Rect.unit (s := S819200x128) (k1_off15 L 25344#32) S128x128.size (k1_off15_inb L 2)) (fun _ => rfl))
local notation "c_oB3" L => (Memref.slice oV (Rect.unit (s := S819200x128) (k1_off15 L 25472#32) S128x128.size (k1_off15_inb L 3)) (fun _ => rfl))

/-- From the loop's exit to the end. -/
def c_epiProg (L : grid1.Coords) : Prog (TpuEff nD τ sig (Elt F) Λ₀ (.scVector ((L 0).castLE hcore1) ((L 1).castLE hsub1))) PUnit := do
  SparseCore.waitIndirectGather ((cc1_scratch3.slice (Rect.unit (s := S4) ![0] S1.size inb_S4_S1_0)).squeeze S_ squeezes_S1_S_).sem c_shG rwS0
    (View.wordExact_bits rfl) ((View.wordExact_bits rfl).reshape _ _)
  k1_part28 L iV (Memref.isWhole_whole _) tV (Memref.isWhole_whole _) oV (Memref.isWhole_whole _) ixV (Memref.isWhole_whole _) rwV (Memref.isWhole_whole _)
    shV (Memref.isWhole_whole _) cc1_scratch3 cc1_scratch4 cc1_scratch5 cc1_scoped0 cc1_scoped1 (c_v2 L) 25088#32
  k1_part29 L iV (Memref.isWhole_whole _) tV (Memref.isWhole_whole _) oV (Memref.isWhole_whole _) ixV (Memref.isWhole_whole _) rwV (Memref.isWhole_whole _)
    shV (Memref.isWhole_whole _) cc1_scratch3 cc1_scratch4 cc1_scratch5 cc1_scoped0 cc1_scoped1 (c_v2 L)
  k1_part30 L iV (Memref.isWhole_whole _) tV (Memref.isWhole_whole _) oV (Memref.isWhole_whole _) ixV (Memref.isWhole_whole _) rwV (Memref.isWhole_whole _)
    shV (Memref.isWhole_whole _) cc1_scratch3 cc1_scratch4 cc1_scratch5 cc1_scoped0 cc1_scoped1 (c_v2 L)
  Prog.lift (.waitDma2 ((cc1_scratch4.slice (Rect.unit (s := S4) ![3] S1.size inb_S4_S1_3)).squeeze S_ squeezes_S1_S_).sem rwS3 (c_oB3 L)
    ((View.wordExact_bits rfl).reshape _ _) (View.wordExact_bits rfl))
  pure ⟨⟩

/-- A gather in flight on semaphore `k`: when it lands, the row buffer at the gathered rows, the offset list, and the share of the
    shared table it read (held through the gather's own view of the shared memory). -/
abbrev c_gFlight (k : Fin 15) (dst : Memref sig .scVector .vmem S128x128 .f32) (G : Buf (Elt F) (dst.view.loc (V d (cV L) (jV L))))
    (lst : Memref sig .scVector .vmem S128 .i32) (l : Buf (Elt F) (lst.view.loc (V d (cV L) (jV L)))) (q : PosShare TreeShare) : sProp 𝕄 :=
  Transfers.Flight countersEmb (V d (cV L) (jV L)) (SemLoc.dma k) (default : HIx 1) 524288
    iprop(((dst.view.loc (V d (cV L) (jV L)) ↦[dst.view.set]{fullShare} G) ∗ (lst.view.loc (V d (cV L) (jV L)) ↦[lst.view.set]{fullShare} l))
      ∗ ((c_shG).view.loc (V d (cV L) (jV L)) ↦[(c_shG).view.set]{q} (T3 m d : Buf (Elt F) (shLoc d (cV L)))))

/-- A block of the result written whole with a payload holds, element by element, what the payload says, whatever it held before. -/
theorem c_blk_landed (off : Fin 2 → Nat) (inb : ∀ a, off a + S128x128.size a ≤ S819200x128.size a) (c : Fin τ.nSC) (j : Fin τ.nSub)
    (Q : S128x128.Idx → Elt F .f32) (f' : Buf (Elt F) (v5Loc d))
    (hQ : ∀ x : S128x128.Idx, Q x = f' ((Memref.slice oV (Rect.unit (s := S819200x128) off S128x128.size inb) (fun _ => rfl)).view.emb x))
    (fprev : Buf (Elt F) ((Memref.slice oV (Rect.unit (s := S819200x128) off S128x128.size inb) (fun _ => rfl)).view.loc (V d c j))) (q : PosShare TreeShare) :
    (((Memref.slice oV (Rect.unit (s := S819200x128) off S128x128.size inb) (fun _ => rfl)).view.loc (V d c j)
        ↦[(Memref.slice oV (Rect.unit (s := S819200x128) off S128x128.size inb) (fun _ => rfl)).view.set]{q}
        (Memref.slice oV (Rect.unit (s := S819200x128) off S128x128.size inb) (fun _ => rfl)).view.writes (Elt F) fprev [⟨Rect.whole S128x128, Q⟩]) : sProp 𝕄)
      = ((Memref.slice oV (Rect.unit (s := S819200x128) off S128x128.size inb) (fun _ => rfl)).view.loc (V d c j)
          ↦[(Memref.slice oV (Rect.unit (s := S819200x128) off S128x128.size inb) (fun _ => rfl)).view.set]{q}
          (f' : Buf (Elt F) ((Memref.slice oV (Rect.unit (s := S819200x128) off S128x128.size inb) (fun _ => rfl)).view.loc (V d c j)))) :=
  pointsTo_congr fun i hi => by
    obtain ⟨x, -, rfl⟩ := Finset.mem_map.mp hi
    have hx : ((Memref.slice oV (Rect.unit (s := S819200x128) off S128x128.size inb) (fun _ => rfl)).view.slice (Rect.whole S128x128)).emb x
        = (Memref.slice oV (Rect.unit (s := S819200x128) off S128x128.size inb) (fun _ => rfl)).view.emb x :=
      congrArg (Memref.slice oV (Rect.unit (s := S819200x128) off S128x128.size inb) (fun _ => rfl)).view.emb (Rect.emb_whole_apply S128x128 x)
    have hw := View.write_emb_of_mem (v := (Memref.slice oV (Rect.unit (s := S819200x128) off S128x128.size inb) (fun _ => rfl)).view.slice (Rect.whole S128x128))
      (Val := Elt F) fprev Q (M := Finset.univ) (x := x) (Finset.mem_univ x)
    rw [hx] at hw
    exact hw.trans (hQ x)

set_option maxHeartbeats 4000000 in
theorem c_epilogue' (O : CellTallies nD τ sig (HIx 1)) (W : Waits sig (HIx 1))
    (G0 G1 G2 G3 : Buf (Elt F) ((V d (cV L) (jV L)).loc cc1_scratch1)) (lst0 lst1 lst2 lst3 : Memref sig .scVector .vmem S128 .i32)
    (l0 : Buf (Elt F) (lst0.view.loc (V d (cV L) (jV L)))) (l1 : Buf (Elt F) (lst1.view.loc (V d (cV L) (jV L))))
    (l2 : Buf (Elt F) (lst2.view.loc (V d (cV L) (jV L)))) (l3 : Buf (Elt F) (lst3.view.loc (V d (cV L) (jV L))))
    (q0 q1 q2 q3 : PosShare TreeShare) (fo : Buf (Elt F) (v5Loc d))
    (hv0 : ∀ x : S128x128.Idx, ReadAs.same.apply (View.read (Elt F) (rwS0).view G0) x = (O5 m d : Buf (Elt F) (v5Loc d)) ((c_oB0 L).view.emb x))
    (hv1 : ∀ x : S128x128.Idx, ReadAs.same.apply (View.read (Elt F) (rwS1).view G1) x = (O5 m d : Buf (Elt F) (v5Loc d)) ((c_oB1 L).view.emb x))
    (hv2 : ∀ x : S128x128.Idx, ReadAs.same.apply (View.read (Elt F) (rwS2).view G2) x = (O5 m d : Buf (Elt F) (v5Loc d)) ((c_oB2 L).view.emb x))
    (hv3 : ∀ x : S128x128.Idx, ReadAs.same.apply (View.read (Elt F) (rwS3).view G3) x = (O5 m d : Buf (Elt F) (v5Loc d)) ((c_oB3 L).view.emb x)) :
    iprop(Transfers.MayWaits (V d (cV L) (jV L)) (default : HIx 1) O
        ∗ c_gFlight (F := F) m d L 4 rwS0 G0 lst0 l0 q0 ∗ c_gFlight (F := F) m d L 5 rwS1 G1 lst1 l1 q1 ∗ c_gFlight (F := F) m d L 6 rwS2 G2 lst2 l2 q2 ∗ c_gFlight (F := F) m d L 7 rwS3 G3 lst3 l3 q3
        ∗ semVal (dcell d (cV L) (jV L) 8) 0 ∗ semVal (dcell d (cV L) (jV L) 9) 0 ∗ semVal (dcell d (cV L) (jV L) 10) 0 ∗ semVal (dcell d (cV L) (jV L) 11) 0
        ∗ ((c_oB0 L).view.loc (V d (cV L) (jV L)) ↦[(c_oB0 L).view.set]{fullShare} fo)
        ∗ ((c_oB1 L).view.loc (V d (cV L) (jV L)) ↦[(c_oB1 L).view.set]{fullShare} fo)
        ∗ ((c_oB2 L).view.loc (V d (cV L) (jV L)) ↦[(c_oB2 L).view.set]{fullShare} fo)
        ∗ ((c_oB3 L).view.loc (V d (cV L) (jV L)) ↦[(c_oB3 L).view.set]{fullShare} fo)
        ∗ owes (V d (cV L) (jV L)) O W)
      ⊢ wp frame (wpE (defs₀ (F := F)) 𝒱₀ (V d (cV L) (jV L)) none) Set.univ (c_epiProg (F := F) L) fun _ =>
          iprop(((rwS0).view.loc (V d (cV L) (jV L)) ↦[(rwS0).view.set]{fullShare} G0) ∗ ((rwS1).view.loc (V d (cV L) (jV L)) ↦[(rwS1).view.set]{fullShare} G1)
            ∗ ((rwS2).view.loc (V d (cV L) (jV L)) ↦[(rwS2).view.set]{fullShare} G2) ∗ ((rwS3).view.loc (V d (cV L) (jV L)) ↦[(rwS3).view.set]{fullShare} G3)
            ∗ (lst0.view.loc (V d (cV L) (jV L)) ↦[lst0.view.set]{fullShare} l0) ∗ (lst1.view.loc (V d (cV L) (jV L)) ↦[lst1.view.set]{fullShare} l1)
            ∗ (lst2.view.loc (V d (cV L) (jV L)) ↦[lst2.view.set]{fullShare} l2) ∗ (lst3.view.loc (V d (cV L) (jV L)) ↦[lst3.view.set]{fullShare} l3)
            ∗ ((c_shG).view.loc (V d (cV L) (jV L)) ↦[(c_shG).view.set]{q0} (T3 m d : Buf (Elt F) (shLoc d (cV L))))
            ∗ ((c_shG).view.loc (V d (cV L) (jV L)) ↦[(c_shG).view.set]{q1} (T3 m d : Buf (Elt F) (shLoc d (cV L))))
            ∗ ((c_shG).view.loc (V d (cV L) (jV L)) ↦[(c_shG).view.set]{q2} (T3 m d : Buf (Elt F) (shLoc d (cV L))))
            ∗ ((c_shG).view.loc (V d (cV L) (jV L)) ↦[(c_shG).view.set]{q3} (T3 m d : Buf (Elt F) (shLoc d (cV L))))
            ∗ ((c_oB0 L).view.loc (V d (cV L) (jV L)) ↦[(c_oB0 L).view.set]{fullShare} (O5 m d : Buf (Elt F) (v5Loc d)))
            ∗ ((c_oB1 L).view.loc (V d (cV L) (jV L)) ↦[(c_oB1 L).view.set]{fullShare} (O5 m d : Buf (Elt F) (v5Loc d)))
            ∗ ((c_oB2 L).view.loc (V d (cV L) (jV L)) ↦[(c_oB2 L).view.set]{fullShare} (O5 m d : Buf (Elt F) (v5Loc d)))
            ∗ ((c_oB3 L).view.loc (V d (cV L) (jV L)) ↦[(c_oB3 L).view.set]{fullShare} (O5 m d : Buf (Elt F) (v5Loc d)))
            ∗ semVal (dcell d (cV L) (jV L) 4) 0 ∗ semVal (dcell d (cV L) (jV L) 5) 0 ∗ semVal (dcell d (cV L) (jV L) 6) 0 ∗ semVal (dcell d (cV L) (jV L) 7) 0
            ∗ semVal (dcell d (cV L) (jV L) 8) 0 ∗ semVal (dcell d (cV L) (jV L) 9) 0 ∗ semVal (dcell d (cV L) (jV L) 10) 0 ∗ semVal (dcell d (cV L) (jV L) 11) 0
            ∗ ∃ W', ⌜∀ p ∈ W', p ∈ W ∨ p.2 = none⌝ ∗ owes (V d (cV L) (jV L)) O W') := by
  unfold c_epiProg
  rw [k1_part28_eq_skeleton, k1_part29_eq_skeleton, k1_part30_eq_skeleton]; unfold k1_part28_skel k1_part29_skel k1_part30_skel
  unfold c_gFlight
  iintro ⟨#Hmw2, Hf4, Hf5, Hf6, Hf7, Hs8, Hs9, Hs10, Hs11, Hb0, Hb1, Hb2, Hb3, HO⟩
  sl_exec
  icases Hf4_dst with ⟨Hrw0, Hl0⟩
  sl_exec
  icases Hf5_dst with ⟨Hrw1, Hl1⟩
  sl_exec
  icases Hf6_dst with ⟨Hrw2, Hl2⟩
  sl_exec
  icases Hf7_dst with ⟨Hrw3, Hl3⟩
  sl_exec
  sl_unfold_run_names
  sl_step
  isplitl [Hrw0]; · iexact Hrw0
  isplitl [Hrw1]; · iexact Hrw1
  isplitl [Hrw2]; · iexact Hrw2
  isplitl [Hrw3]; · iexact Hrw3
  isplitl [Hl0]; · iexact Hl0
  isplitl [Hl1]; · iexact Hl1
  isplitl [Hl2]; · iexact Hl2
  isplitl [Hl3]; · iexact Hl3
  isplitl [Hf4_src]; · iexact Hf4_src
  isplitl [Hf5_src]; · iexact Hf5_src
  isplitl [Hf6_src]; · iexact Hf6_src
  isplitl [Hf7_src]; · iexact Hf7_src
  isplitl [Hb0]; · iapply (Entails.of_eq (c_blk_landed (F := F) d (k1_off15 L 25088#32) (k1_off15_inb L 0) (cV L) (jV L) _ (O5 m d) hv0 fo fullShare)); iexact Hb0
  isplitl [Hb1]; · iapply (Entails.of_eq (c_blk_landed (F := F) d (k1_off15 L 25216#32) (k1_off15_inb L 1) (cV L) (jV L) _ (O5 m d) hv1 fo fullShare)); iexact Hb1
  isplitl [Hb2]; · iapply (Entails.of_eq (c_blk_landed (F := F) d (k1_off15 L 25344#32) (k1_off15_inb L 2) (cV L) (jV L) _ (O5 m d) hv2 fo fullShare)); iexact Hb2
  isplitl [Hb3]; · iapply (Entails.of_eq (c_blk_landed (F := F) d (k1_off15 L 25472#32) (k1_off15_inb L 3) (cV L) (jV L) _ (O5 m d) hv3 fo fullShare)); iexact Hb3
  isplitl [Hf4]; · iexact Hf4
  isplitl [Hf5]; · iexact Hf5
  isplitl [Hf6]; · iexact Hf6
  isplitl [Hf7]; · iexact Hf7
  isplitl [Hs8]; · iexact Hs8
  isplitl [Hs9]; · iexact Hs9
  isplitl [Hs10]; · iexact Hs10
  isplitl [Hs11]; · iexact Hs11
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The same from the levels: the waits' evidence is theirs. -/
theorem c_epilogue (O : CellTallies nD τ sig (HIx 1)) (W : Waits sig (HIx 1)) (hO : ∀ g, O g none = 0)
    (G0 G1 G2 G3 : Buf (Elt F) ((V d (cV L) (jV L)).loc cc1_scratch1)) (lst0 lst1 lst2 lst3 : Memref sig .scVector .vmem S128 .i32)
    (l0 : Buf (Elt F) (lst0.view.loc (V d (cV L) (jV L)))) (l1 : Buf (Elt F) (lst1.view.loc (V d (cV L) (jV L))))
    (l2 : Buf (Elt F) (lst2.view.loc (V d (cV L) (jV L)))) (l3 : Buf (Elt F) (lst3.view.loc (V d (cV L) (jV L))))
    (q0 q1 q2 q3 : PosShare TreeShare) (fo : Buf (Elt F) (v5Loc d))
    (hv0 : ∀ x : S128x128.Idx, ReadAs.same.apply (View.read (Elt F) (rwS0).view G0) x = (O5 m d : Buf (Elt F) (v5Loc d)) ((c_oB0 L).view.emb x))
    (hv1 : ∀ x : S128x128.Idx, ReadAs.same.apply (View.read (Elt F) (rwS1).view G1) x = (O5 m d : Buf (Elt F) (v5Loc d)) ((c_oB1 L).view.emb x))
    (hv2 : ∀ x : S128x128.Idx, ReadAs.same.apply (View.read (Elt F) (rwS2).view G2) x = (O5 m d : Buf (Elt F) (v5Loc d)) ((c_oB2 L).view.emb x))
    (hv3 : ∀ x : S128x128.Idx, ReadAs.same.apply (View.read (Elt F) (rwS3).view G3) x = (O5 m d : Buf (Elt F) (v5Loc d)) ((c_oB3 L).view.emb x)) :
    iprop(levAts (K (F := F)).L (K (F := F)).lev
        ∗ c_gFlight (F := F) m d L 4 rwS0 G0 lst0 l0 q0 ∗ c_gFlight (F := F) m d L 5 rwS1 G1 lst1 l1 q1 ∗ c_gFlight (F := F) m d L 6 rwS2 G2 lst2 l2 q2 ∗ c_gFlight (F := F) m d L 7 rwS3 G3 lst3 l3 q3
        ∗ semVal (dcell d (cV L) (jV L) 8) 0 ∗ semVal (dcell d (cV L) (jV L) 9) 0 ∗ semVal (dcell d (cV L) (jV L) 10) 0 ∗ semVal (dcell d (cV L) (jV L) 11) 0
        ∗ ((c_oB0 L).view.loc (V d (cV L) (jV L)) ↦[(c_oB0 L).view.set]{fullShare} fo)
        ∗ ((c_oB1 L).view.loc (V d (cV L) (jV L)) ↦[(c_oB1 L).view.set]{fullShare} fo)
        ∗ ((c_oB2 L).view.loc (V d (cV L) (jV L)) ↦[(c_oB2 L).view.set]{fullShare} fo)
        ∗ ((c_oB3 L).view.loc (V d (cV L) (jV L)) ↦[(c_oB3 L).view.set]{fullShare} fo)
        ∗ owes (V d (cV L) (jV L)) O W)
      ⊢ wp frame (wpE (defs₀ (F := F)) 𝒱₀ (V d (cV L) (jV L)) none) Set.univ (c_epiProg (F := F) L) fun _ =>
          iprop(((rwS0).view.loc (V d (cV L) (jV L)) ↦[(rwS0).view.set]{fullShare} G0) ∗ ((rwS1).view.loc (V d (cV L) (jV L)) ↦[(rwS1).view.set]{fullShare} G1)
            ∗ ((rwS2).view.loc (V d (cV L) (jV L)) ↦[(rwS2).view.set]{fullShare} G2) ∗ ((rwS3).view.loc (V d (cV L) (jV L)) ↦[(rwS3).view.set]{fullShare} G3)
            ∗ (lst0.view.loc (V d (cV L) (jV L)) ↦[lst0.view.set]{fullShare} l0) ∗ (lst1.view.loc (V d (cV L) (jV L)) ↦[lst1.view.set]{fullShare} l1)
            ∗ (lst2.view.loc (V d (cV L) (jV L)) ↦[lst2.view.set]{fullShare} l2) ∗ (lst3.view.loc (V d (cV L) (jV L)) ↦[lst3.view.set]{fullShare} l3)
            ∗ ((c_shG).view.loc (V d (cV L) (jV L)) ↦[(c_shG).view.set]{q0} (T3 m d : Buf (Elt F) (shLoc d (cV L))))
            ∗ ((c_shG).view.loc (V d (cV L) (jV L)) ↦[(c_shG).view.set]{q1} (T3 m d : Buf (Elt F) (shLoc d (cV L))))
            ∗ ((c_shG).view.loc (V d (cV L) (jV L)) ↦[(c_shG).view.set]{q2} (T3 m d : Buf (Elt F) (shLoc d (cV L))))
            ∗ ((c_shG).view.loc (V d (cV L) (jV L)) ↦[(c_shG).view.set]{q3} (T3 m d : Buf (Elt F) (shLoc d (cV L))))
            ∗ ((c_oB0 L).view.loc (V d (cV L) (jV L)) ↦[(c_oB0 L).view.set]{fullShare} (O5 m d : Buf (Elt F) (v5Loc d)))
            ∗ ((c_oB1 L).view.loc (V d (cV L) (jV L)) ↦[(c_oB1 L).view.set]{fullShare} (O5 m d : Buf (Elt F) (v5Loc d)))
            ∗ ((c_oB2 L).view.loc (V d (cV L) (jV L)) ↦[(c_oB2 L).view.set]{fullShare} (O5 m d : Buf (Elt F) (v5Loc d)))
            ∗ ((c_oB3 L).view.loc (V d (cV L) (jV L)) ↦[(c_oB3 L).view.set]{fullShare} (O5 m d : Buf (Elt F) (v5Loc d)))
            ∗ semVal (dcell d (cV L) (jV L) 4) 0 ∗ semVal (dcell d (cV L) (jV L) 5) 0 ∗ semVal (dcell d (cV L) (jV L) 6) 0 ∗ semVal (dcell d (cV L) (jV L) 7) 0
            ∗ semVal (dcell d (cV L) (jV L) 8) 0 ∗ semVal (dcell d (cV L) (jV L) 9) 0 ∗ semVal (dcell d (cV L) (jV L) 10) 0 ∗ semVal (dcell d (cV L) (jV L) 11) 0
            ∗ ∃ W', ⌜∀ p ∈ W', p ∈ W ∨ p.2 = none⌝ ∗ owes (V d (cV L) (jV L)) O W') := by
  iintro ⟨#Hlv, H⟩
  ihave Hmw2 := (show levAts (K (F := F)).L (K (F := F)).lev ⊢ Transfers.MayWaits (V d (cV L) (jV L)) (default : HIx 1) O from
    (K (F := F)).mayWaits_none (thr := V d (cV L) (jV L)) hO) $$ Hlv
  iapply (c_epilogue' (F := F) m d L O W G0 G1 G2 G3 lst0 lst1 lst2 lst3 l0 l1 l2 l3 q0 q1 q2 q3 fo hv0 hv1 hv2 hv3)
  isplitr; · iexact Hmw2
  iexact H

end Epi

end Cert.Kernel.Hand

end
-- ==== Proof.KernelW.Reasm.lean ====
/-
  Putting a subcore's buffers back together at the end of its task.

  The four row buffers, each holding whatever its last gather left, are the row-buffer scratch whole at some
  contents; the 200 rows of the index scratch (or its first 8 rows and its other 192), each piece at contents of its
  own, are the index scratch whole at some contents; the result slab is what is done and what is left; a share is
  its four quarters.
-/
import proofs.«214982_g87402584473731_cont_9to1c4b_667_31_alg».proof.Proof.KernelW.TileLemmas
import proofs.«214982_g87402584473731_cont_9to1c4b_667_31_alg».proof.Proof.KernelW.Blocks

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Epi

variable (d : Dev nD) (L : grid1.Coords)

/-! ## The four row buffers back to one scratch -/

section
variable (c : Fin τ.nSC) (i : Fin τ.nSub)

omit [FloatOps F] in
/-- The four row buffers, each at contents of its own, are the row-buffer scratch whole at some contents. -/
theorem c_rw_join (G0 G1 G2 G3 : Buf (Elt F) ((V d c i).loc cc1_scratch1)) :
    iprop(((rwS0).view.loc (V d c i) ↦[(rwS0).view.set]{fullShare} G0) ∗ ((rwS1).view.loc (V d c i) ↦[(rwS1).view.set]{fullShare} G1)
        ∗ ((rwS2).view.loc (V d c i) ↦[(rwS2).view.set]{fullShare} G2) ∗ ((rwS3).view.loc (V d c i) ↦[(rwS3).view.set]{fullShare} G3))
      ⊢ (iprop(∃ f, (V d c i).loc cc1_scratch1 ↦{fullShare} f) : sProp 𝕄) := by
  rw [set_rwS0, set_rwS1, set_rwS2, set_rwS3]
  show iprop(((V d c i).loc cc1_scratch1 ↦[rwR0.set]{fullShare} G0) ∗ ((V d c i).loc cc1_scratch1 ↦[rwR1.set]{fullShare} G1)
        ∗ ((V d c i).loc cc1_scratch1 ↦[rwR2.set]{fullShare} G2) ∗ ((V d c i).loc cc1_scratch1 ↦[rwR3.set]{fullShare} G3)) ⊢ _
  iintro ⟨H0, H1, H2, H3⟩
  ihave H23 := (pointsTo_join (ℓ := (V d c i).loc cc1_scratch1) rw_slots.2.2.2) $$ [H2 H3]
  · isplitl [H2] <;> iassumption
  ihave H123 := (pointsTo_join (ℓ := (V d c i).loc cc1_scratch1) rw_slots.2.2.1) $$ [H1 H23]
  · isplitl [H1] <;> iassumption
  ihave H := (pointsTo_join (ℓ := (V d c i).loc cc1_scratch1) rw_slots.2.1) $$ [H0 H123]
  · isplitl [H0] <;> iassumption
  iexists _
  show _ ⊢ ((V d c i).loc cc1_scratch1 ↦[Finset.univ]{fullShare} _ : sProp 𝕄)
  rw [rw_slots.1]

omit [FloatOps F] in
theorem c_ixRows_cover : (Finset.univ : Finset (Fin 200)).biUnion (fun t => (ixRowR t).set) = (Finset.univ : Finset S200x128.Idx) := by
  refine Finset.eq_univ_of_forall fun j => ?_
  exact Finset.mem_biUnion.mpr ⟨⟨(j 0).val, (j 0).isLt⟩, Finset.mem_univ _, (mem_ixRow _ j).mpr rfl⟩

omit [FloatOps F] in
/-- The 200 rows of the index scratch, each at contents of its own, are the scratch whole at some contents. -/
theorem c_ix_join_rows (g : Fin 200 → Buf (Elt F) ((V d c i).loc cc1_scratch0)) :
    (bigSep Finset.univ fun t : Fin 200 => (V d c i).loc cc1_scratch0 ↦[(ixRowR t).set]{fullShare} g t)
      ⊢ (iprop(∃ f, (V d c i).loc cc1_scratch0 ↦{fullShare} f) : sProp 𝕄) := by
  iintro H
  ihave H' := (pointsTo_biUnion_join (ℓ := (V d c i).loc cc1_scratch0) (q := fullShare) (Val := Elt F) Finset.univ (fun t : Fin 200 => (ixRowR t).set) g (g ⟨0, by decide⟩)
    ixRows_disjoint) $$ H
  icases H' with ⟨%f, -, Hf⟩
  rw [c_ixRows_cover]
  iexists f; iexact Hf

omit [FloatOps F] in
/-- Head and tail of the index scratch, each at contents of its own, are the scratch whole at some contents. -/
theorem c_ix_join_hd_tl (gh gt : Buf (Elt F) ((V d c i).loc cc1_scratch0)) :
    iprop(((ixHd).view.loc (V d c i) ↦[(ixHd).view.set]{fullShare} gh) ∗ ((ixTl).view.loc (V d c i) ↦[(ixTl).view.set]{fullShare} gt))
      ⊢ (iprop(∃ f, (V d c i).loc cc1_scratch0 ↦{fullShare} f) : sProp 𝕄) := by
  rw [set_ixHd, set_ixTl]
  show iprop(((V d c i).loc cc1_scratch0 ↦[ixHdR.set]{fullShare} gh) ∗ ((V d c i).loc cc1_scratch0 ↦[ixTlR.set]{fullShare} gt)) ⊢ _
  iintro H
  ihave H' := (pointsTo_join (ℓ := (V d c i).loc cc1_scratch0) ix_hd_tl.2) $$ H
  iexists _
  show _ ⊢ ((V d c i).loc cc1_scratch0 ↦[Finset.univ]{fullShare} _ : sProp 𝕄)
  rw [ix_hd_tl.1]

end

/-! ## The result slab: what is done and what is left -/

omit [FloatOps F] in
theorem c_pts_done_rest (w : Fin 32) (n : Nat) (hn : n ≤ 200) (q : PosShare TreeShare) (f : Buf (Elt F) (v5Loc d)) :
    (v5Loc d ↦[oslabSet w]{q} f : sProp 𝕄) ⊣⊢ iprop((v5Loc d ↦[odoneSet w n]{q} f) ∗ (v5Loc d ↦[oslabSet w \ odoneSet w n]{q} f)) :=
  pointsTo_split_subset (odone_sub_oslab w n hn)

omit [FloatOps F] in
/-- After all 200 blocks nothing is left. -/
theorem c_orest_all (w : Fin 32) : oslabSet w \ odoneSet w 200 = ∅ := by
  rw [odone_all]; exact Finset.sdiff_self _

/-! ## A share in quarters -/

omit [FloatOps F] in
/-- A points-to at a share is its four quarters'. -/
theorem c_pts_quarters {ℓ : Loc nD τ sig} (I : Finset (Idx ℓ)) (q : PosShare TreeShare) (f : Buf (Elt F) ℓ) :
    (ℓ ↦[I]{q} f : sProp 𝕄) ⊣⊢ iprop((ℓ ↦[I]{q.left.left} f) ∗ (ℓ ↦[I]{q.left.right} f) ∗ (ℓ ↦[I]{q.right.left} f) ∗ (ℓ ↦[I]{q.right.right} f)) := by
  constructor
  · iintro H
    ihave H := (pointsTo_share (PosShare.mem_left_op_right q)).1 $$ H
    icases H with ⟨Hl, Hr⟩
    ihave Hl := (pointsTo_share (PosShare.mem_left_op_right q.left)).1 $$ Hl
    icases Hl with ⟨Hll, Hlr⟩
    ihave Hr := (pointsTo_share (PosShare.mem_left_op_right q.right)).1 $$ Hr
    icases Hr with ⟨Hrl, Hrr⟩
    isplitl [Hll]; · iexact Hll
    isplitl [Hlr]; · iexact Hlr
    isplitl [Hrl]; · iexact Hrl
    iexact Hrr
  · iintro ⟨Hll, Hlr, Hrl, Hrr⟩
    iapply (pointsTo_share (PosShare.mem_left_op_right q)).2
    isplitl [Hll Hlr]
    · iapply (pointsTo_share (PosShare.mem_left_op_right q.left)).2
      isplitl [Hll] <;> iassumption
    · iapply (pointsTo_share (PosShare.mem_left_op_right q.right)).2
      isplitl [Hrl] <;> iassumption

end Epi

end Cert.Kernel.Hand

end
-- ==== Proof.KernelW.PostLoop.lean ====
/-
  From the loop's exit to the end of a subcore's task.

  When the loop ends the subcore holds: four gathers in flight, by the fixed rows 196 … 199 of its index scratch, one per
  row buffer, each with a quarter of its sixteenth of the shared table; rows 0 … 195 of the index scratch, spent; the
  first 196 blocks of its result slab written and the last four as launched; and, untouched by the loop, its block of
  the table, its slab of the indices, the rest of its buffers and semaphores. The last four blocks are waited for,
  copied out and waited for again; what each gather left in its row buffer is the result's rows of that block. Then
  everything is put back together: the result slab from its 200 blocks, the index scratch from its 200 rows, the row
  buffers from the four slots, the sixteenth of the shared table from its quarters, the index slab from its two pieces.
-/
import proofs.«214982_g87402584473731_cont_9to1c4b_667_31_alg».proof.Proof.KernelW.Epilogue
import proofs.«214982_g87402584473731_cont_9to1c4b_667_31_alg».proof.Proof.KernelW.Reasm
import proofs.«214982_g87402584473731_cont_9to1c4b_667_31_alg».proof.Proof.KernelW.LoopInv
import proofs.«214982_g87402584473731_cont_9to1c4b_667_31_alg».proof.Proof.KernelW.Gathered
import proofs.«214982_g87402584473731_cont_9to1c4b_667_31_alg».proof.Proof.KernelW.Inv0

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section PostLoop

variable (d : Dev nD) (L : grid1.Coords)

local notation "c_shG" => (Memref.slice shV (Rect.unit (s := S256x128) ![0, 0] S256x128.size inb_S256x128_S256x128_0_0) (fun _ => rfl))
local notation "c_oB0" L => (Memref.slice oV (Rect.unit (s := S819200x128) (k1_off15 L 25088#32) S128x128.size (k1_off15_inb L 0)) (fun _ => rfl))
local notation "c_oB1" L => (Memref.slice oV (Rect.unit (s := S819200x128) (k1_off15 L 25216#32) S128x128.size (k1_off15_inb L 1)) (fun _ => rfl))
local notation "c_oB2" L => (Memref.slice oV (Rect.unit (s := S819200x128) (k1_off15 L 25344#32) S128x128.size (k1_off15_inb L 2)) (fun _ => rfl))
local notation "c_oB3" L => (Memref.slice oV (Rect.unit (s := S819200x128) (k1_off15 L 25472#32) S128x128.size (k1_off15_inb L 3)) (fun _ => rfl))
local notation "c_w" L => (wid (cL L) (jL L))

/-! ## The index scratch: the rows below `n` -/

omit [FloatOps F] in
theorem c_b_row_val (t : Nat) (ht : t < 200) : (b_row t).val = t := Nat.mod_eq_of_lt ht

/-- The rows below `n` of the index scratch. -/
def c_ixBelow (n : Nat) : Finset S200x128.Idx := Finset.univ.filter fun j => (j 0).val < n

omit [FloatOps F] in
theorem c_mem_ixBelow (n : Nat) (j : S200x128.Idx) : j ∈ c_ixBelow n ↔ (j 0).val < n := by
  unfold c_ixBelow; rw [Finset.mem_filter]; exact ⟨fun h => h.2, fun h => ⟨Finset.mem_univ _, h⟩⟩

omit [FloatOps F] in
theorem c_ixBelow_zero : c_ixBelow 0 = ∅ := by
  ext j; rw [c_mem_ixBelow]; simp

omit [FloatOps F] in
theorem c_ixBelow_all : c_ixBelow 200 = Finset.univ := by
  ext j; rw [c_mem_ixBelow]; have h : (j 0).val < 200 := (j 0).isLt; simp only [Finset.mem_univ, iff_true]; exact h

omit [FloatOps F] in
theorem c_ixBelow_succ (n : Nat) (hn : n < 200) :
    c_ixBelow (n + 1) = c_ixBelow n ∪ (ixRowR (b_row n)).set ∧ Disjoint (c_ixBelow n) (ixRowR (b_row n)).set := by
  have hv := c_b_row_val n hn
  constructor
  · ext j
    rw [Finset.mem_union, c_mem_ixBelow, c_mem_ixBelow, mem_ixRow, hv]
    omega
  · rw [Finset.disjoint_left]
    intro j h h'
    rw [c_mem_ixBelow] at h
    rw [mem_ixRow, hv] at h'
    omega

section
variable (c : Fin τ.nSC) (i : Fin τ.nSub)

omit [FloatOps F] in
theorem c_pts_below_succ (n : Nat) (hn : n < 200) (q : PosShare TreeShare) (f : Buf (Elt F) ((V d c i).loc cc1_scratch0)) :
    ((V d c i).loc cc1_scratch0 ↦[c_ixBelow (n + 1)]{q} f : sProp 𝕄)
      ⊣⊢ iprop(((V d c i).loc cc1_scratch0 ↦[c_ixBelow n]{q} f) ∗ ((V d c i).loc cc1_scratch0 ↦[(ixRowR (b_row n)).set]{q} f)) := by
  rw [(c_ixBelow_succ n hn).1]
  exact pointsTo_union (c_ixBelow_succ n hn).2

omit [FloatOps F] in
/-- The first `n` rows, each held by its own elements at one contents, are the rows below `n` at that contents. -/
theorem c_rows_below (q : PosShare TreeShare) (f : Buf (Elt F) ((V d c i).loc cc1_scratch0)) :
    ∀ n : Nat, n ≤ 200 → (bigSep (Finset.range n) fun t => ((V d c i).loc cc1_scratch0 ↦[(ixRowR (b_row t)).set]{q} f : sProp 𝕄))
      ⊢ ((V d c i).loc cc1_scratch0 ↦[c_ixBelow n]{q} f : sProp 𝕄)
  | 0, _ => by
    rw [Finset.range_zero, bigSep_empty, c_ixBelow_zero, pointsTo_empty]
    exact BI.Entails.refl _
  | n + 1, hn => by
    rw [Finset.range_add_one, SparseCore.bigSep_insert' Finset.notMem_range_self]
    iintro ⟨Hn, Hrest⟩
    iapply (c_pts_below_succ (F := F) d c i n (by omega) q f).2
    isplitl [Hrest]
    · iapply (c_rows_below q f n (by omega)); iexact Hrest
    · iexact Hn

omit [FloatOps F] in
/-- A row as a gather's offset list holds it is the row by its own elements. -/
theorem c_pts_rowM (t : Fin 200) (q : PosShare TreeShare) (f : Buf (Elt F) ((V d c i).loc cc1_scratch0)) :
    ((b_rowM t).view.loc (V d c i) ↦[(b_rowM t).view.set]{q} f : sProp 𝕄) = ((V d c i).loc cc1_scratch0 ↦[(ixRowR t).set]{q} f) := by
  rw [show (b_rowM t).view.set = (ixRowR t).set from set_ixRow ![t.val, 0] (c_ixrow_inb t)]

end

/-! ## The shared table through the gathers' view of it -/

omit [FloatOps F] in
theorem c_shW_set : (b_shW).view.set = (shV).view.set := by
  rw [show (shV).view.set = Finset.univ from by simp only [Memref.view_whole, View.set_whole]]
  rw [show (b_shW).view.set = (Rect.unit (s := S256x128) ![0, 0] S256x128.size inb_S256x128_S256x128_0_0).set from View.set_slice_whole _ _]
  ext j
  have h0 : (j 0).val < 256 := (j 0).isLt
  have h1 : (j 1).val < 128 := (j 1).isLt
  rw [mem_unit2]
  simp only [Finset.mem_univ, iff_true]
  show (0 ≤ (j 0).val ∧ (j 0).val < 0 + 256) ∧ (0 ≤ (j 1).val ∧ (j 1).val < 0 + 128)
  omega

omit [FloatOps F] in
theorem c_pts_shW (q : PosShare TreeShare) (f : Buf (Elt F) (shLoc d (cV L))) :
    ((b_shW).view.loc (V d (cV L) (jV L)) ↦[(b_shW).view.set]{q} f : sProp 𝕄) = ((shV).view.loc (V d (cV L) (jV L)) ↦[(shV).view.set]{q} f) := by
  rw [c_shW_set]

/-! ## The last four blocks, and what the gathers left for them -/

omit [FloatOps F] in
theorem c_off15 (r : Fin 4) : k1_off15 L (BitVec.ofNat 32 (25088 + 128 * r.val)) = ![25600 * (c_w L).val + 128 * (196 + r.val), 0] := by
  rw [k1_off15_eq L r]
  funext a
  match a with
  | 0 => show 51200 * (L 1).val + 25600 * (L 0).val + 128 * r.val + 25088 = 25600 * (2 * (L 1).val + (L 0).val) + 128 * (196 + r.val); omega
  | 1 => rfl

omit [FloatOps F] in
theorem c_emb_off (off off' : Fin 2 → Nat) (h : off = off') (inb inb') (x : S128x128.Idx) :
    (Memref.slice oV (Rect.unit (s := S819200x128) off S128x128.size inb) (fun _ => rfl)).view.emb x
      = (Memref.slice oV (Rect.unit (s := S819200x128) off' S128x128.size inb') (fun _ => rfl)).view.emb x := by
  subst h; rfl

/-- What a gather by the fixed list row `t` left in a row buffer is the result's rows of block `t`. -/
theorem c_val_at (FX : Buf (Elt F) ((V d (cV L) (jV L)).loc cc1_scratch0))
    (hfx : ∀ (t : Fin 200) x, (View.read (Elt F) (b_rowM t).view FX x : BitVec 32).toNat < 256)
    (hFX : ∀ (t : Fin 200) (x : S128.Idx), (View.read (Elt F) (b_rowM t).view FX x : BitVec 32)
        = (I4 m d (ix3 (c_w L) t (⟨(x 0).val, (x 0).isLt⟩ : Fin 128)) : BitVec 32) + BitVec.ofNat 32 (4 * rho ⟨(x 0).val, (x 0).isLt⟩))
    (h4 : ∀ (t : Fin 200) (l : Fin 128), (I4 m d (ix3 (c_w L) t l) : BitVec 32).toNat < 4)
    (t : Fin 200) (rw : Memref sig .scVector .vmem S128x128 .f32) (frw : rw.view.ty.Contents (Elt F)) (x : S128x128.Idx) :
    ReadAs.same.apply (View.read (Elt F) rw.view (rw.view.writes (Elt F) frw [⟨Rect.whole S128x128, b_pay (m := m) d L FX hfx t⟩])) x
      = (O5 m d : Buf (Elt F) (v5Loc d)) (((oV).slice (oblkR (c_w L) t) (fun _ => rfl)).view.emb x) := by
  rw [a_buffer_read]
  show b_pay (m := m) d L FX hfx t x = _
  unfold b_pay
  rw [gathered_eq m d (c_w L) t (View.read (Elt F) (b_rowM t).view FX) rfl (hfx t) (hFX t) (h4 t), a_oblk_emb]

/-! ## The result slab's last four blocks -/

omit [FloatOps F] in
theorem c_last4 (w : Fin 32) :
    oslabSet w \ odoneSet w 196 = (oblkR w ⟨196, by decide⟩).set ∪ ((oblkR w ⟨197, by decide⟩).set ∪ ((oblkR w ⟨198, by decide⟩).set ∪ (oblkR w ⟨199, by decide⟩).set))
      ∧ Disjoint (oblkR w ⟨196, by decide⟩).set ((oblkR w ⟨197, by decide⟩).set ∪ ((oblkR w ⟨198, by decide⟩).set ∪ (oblkR w ⟨199, by decide⟩).set))
      ∧ Disjoint (oblkR w ⟨197, by decide⟩).set ((oblkR w ⟨198, by decide⟩).set ∪ (oblkR w ⟨199, by decide⟩).set)
      ∧ Disjoint (oblkR w ⟨198, by decide⟩).set (oblkR w ⟨199, by decide⟩).set := by
  refine ⟨?_, ?_, ?_, ?_⟩
  · ext j
    simp only [Finset.mem_sdiff, Finset.mem_union, mem_oslab, mem_odone, mem_oblk]
    omega
  all_goals
    rw [Finset.disjoint_left]
    intro j h h'
    simp only [Finset.mem_union, mem_oblk] at h h'
    omega

omit [FloatOps F] in
theorem c_pts_last4 (w : Fin 32) (q : PosShare TreeShare) (f : Buf (Elt F) (v5Loc d)) :
    (v5Loc d ↦[oslabSet w \ odoneSet w 196]{q} f : sProp 𝕄)
      ⊣⊢ iprop((v5Loc d ↦[(oblkR w ⟨196, by decide⟩).set]{q} f) ∗ (v5Loc d ↦[(oblkR w ⟨197, by decide⟩).set]{q} f)
        ∗ (v5Loc d ↦[(oblkR w ⟨198, by decide⟩).set]{q} f) ∗ (v5Loc d ↦[(oblkR w ⟨199, by decide⟩).set]{q} f)) := by
  rw [(c_last4 w).1]
  constructor
  · iintro H
    ihave Ha := (pointsTo_union (ℓ := v5Loc d) (c_last4 w).2.1).1 $$ H
    icases Ha with ⟨H0, Ha⟩
    ihave Hb := (pointsTo_union (ℓ := v5Loc d) (c_last4 w).2.2.1).1 $$ Ha
    icases Hb with ⟨H1, Hb⟩
    ihave Hc := (pointsTo_union (ℓ := v5Loc d) (c_last4 w).2.2.2).1 $$ Hb
    icases Hc with ⟨H2, H3⟩
    isplitl [H0]; · iexact H0
    isplitl [H1]; · iexact H1
    isplitl [H2]; · iexact H2
    iexact H3
  · iintro ⟨H0, H1, H2, H3⟩
    iapply (pointsTo_union (ℓ := v5Loc d) (c_last4 w).2.1).2
    isplitl [H0]; · iexact H0
    iapply (pointsTo_union (ℓ := v5Loc d) (c_last4 w).2.2.1).2
    isplitl [H1]; · iexact H1
    iapply (pointsTo_union (ℓ := v5Loc d) (c_last4 w).2.2.2).2
    isplitl [H2]; · iexact H2
    iexact H3

omit [FloatOps F] in
theorem c_pts_oB0 (q : PosShare TreeShare) (f : Buf (Elt F) (v5Loc d)) :
    ((c_oB0 L).view.loc (V d (cV L) (jV L)) ↦[(c_oB0 L).view.set]{q} f : sProp 𝕄) = (v5Loc d ↦[(oblkR (c_w L) ⟨196, by decide⟩).set]{q} f) := by
  rw [show (c_oB0 L).view.set = (oblkR (c_w L) ⟨196, by decide⟩).set from (View.set_slice_whole _ _).trans (congrArg (fun R : Rect S819200x128 => R.set) (oblk_off15_0 L))]
omit [FloatOps F] in
theorem c_pts_oB1 (q : PosShare TreeShare) (f : Buf (Elt F) (v5Loc d)) :
    ((c_oB1 L).view.loc (V d (cV L) (jV L)) ↦[(c_oB1 L).view.set]{q} f : sProp 𝕄) = (v5Loc d ↦[(oblkR (c_w L) ⟨197, by decide⟩).set]{q} f) := by
  rw [show (c_oB1 L).view.set = (oblkR (c_w L) ⟨197, by decide⟩).set from (View.set_slice_whole _ _).trans (congrArg (fun R : Rect S819200x128 => R.set) (oblk_off15_1 L))]
omit [FloatOps F] in
theorem c_pts_oB2 (q : PosShare TreeShare) (f : Buf (Elt F) (v5Loc d)) :
    ((c_oB2 L).view.loc (V d (cV L) (jV L)) ↦[(c_oB2 L).view.set]{q} f : sProp 𝕄) = (v5Loc d ↦[(oblkR (c_w L) ⟨198, by decide⟩).set]{q} f) := by
  rw [show (c_oB2 L).view.set = (oblkR (c_w L) ⟨198, by decide⟩).set from (View.set_slice_whole _ _).trans (congrArg (fun R : Rect S819200x128 => R.set) (oblk_off15_2 L))]
omit [FloatOps F] in
theorem c_pts_oB3 (q : PosShare TreeShare) (f : Buf (Elt F) (v5Loc d)) :
    ((c_oB3 L).view.loc (V d (cV L) (jV L)) ↦[(c_oB3 L).view.set]{q} f : sProp 𝕄) = (v5Loc d ↦[(oblkR (c_w L) ⟨199, by decide⟩).set]{q} f) := by
  rw [show (c_oB3 L).view.set = (oblkR (c_w L) ⟨199, by decide⟩).set from (View.set_slice_whole _ _).trans (congrArg (fun R : Rect S819200x128 => R.set) (oblk_off15_3 L))]

section
variable (c : Fin τ.nSC) (i : Fin τ.nSub)
omit [FloatOps F] in
/-- The rows below 196 and rows 196 … 199, at one contents, are the index scratch whole. -/
theorem c_ix_all (f : Buf (Elt F) ((V d c i).loc cc1_scratch0)) :
    iprop(((V d c i).loc cc1_scratch0 ↦[c_ixBelow 196]{fullShare} f) ∗ ((V d c i).loc cc1_scratch0 ↦[(ixRowR (b_row 196)).set]{fullShare} f)
        ∗ ((V d c i).loc cc1_scratch0 ↦[(ixRowR (b_row 197)).set]{fullShare} f) ∗ ((V d c i).loc cc1_scratch0 ↦[(ixRowR (b_row 198)).set]{fullShare} f)
        ∗ ((V d c i).loc cc1_scratch0 ↦[(ixRowR (b_row 199)).set]{fullShare} f))
      ⊢ ((V d c i).loc cc1_scratch0 ↦{fullShare} f : sProp 𝕄) := by
  iintro ⟨H, H0, H1, H2, H3⟩
  ihave Ha := (c_pts_below_succ (F := F) d c i 196 (by decide) fullShare f).2 $$ [H H0]
  · isplitl [H] <;> iassumption
  ihave Hb := (c_pts_below_succ (F := F) d c i 197 (by decide) fullShare f).2 $$ [Ha H1]
  · isplitl [Ha] <;> iassumption
  ihave Hc := (c_pts_below_succ (F := F) d c i 198 (by decide) fullShare f).2 $$ [Hb H2]
  · isplitl [Hb] <;> iassumption
  ihave Hd := (c_pts_below_succ (F := F) d c i 199 (by decide) fullShare f).2 $$ [Hc H3]
  · isplitl [Hc] <;> iassumption
  show _ ⊢ ((V d c i).loc cc1_scratch0 ↦[Finset.univ]{fullShare} f : sProp 𝕄)
  rw [← c_ixBelow_all]
end

/-! ## From the loop's exit to the task's postcondition -/

/-- What the task holds across the loop and the loop does not touch. -/
def c_untouched : sProp 𝕄 :=
  iprop((bigSep (((ownRefs (τ := τ) (.scVector (cV L) (jV L))).erase (ixRef L)).erase (rwRef L)) fun b => iprop(∃ f, ((d, b) : Loc nD τ sig) ↦{fullShare} f))
    ∗ (bigSep (ownCells (V d (cV L) (jV L)) \ myCells d (cV L) (jV L)) fun g => semVal g 0)
    ∗ semVal (dcell d (cV L) (jV L) 12) 0 ∗ semVal (dcell d (cV L) (jV L) 13) 0 ∗ semVal (dcell d (cV L) (jV L) 14) 0
    ∗ ((tSlK L).view.loc (V d (cV L) (jV L)) ↦[(tSlK L).view.set]{halfS (cL L)} (T3 m d : Buf (Elt F) (v3Loc d)))
    ∗ ((iHd L).view.loc (V d (cV L) (jV L)) ↦[(iHd L).view.set]{fullShare} (I4 m d : Buf (Elt F) (v4Loc d)))
    ∗ ((iTl L).view.loc (V d (cV L) (jV L)) ↦[(iTl L).view.set]{fullShare} (I4 m d : Buf (Elt F) (v4Loc d))))

set_option maxHeartbeats 4000000 in
theorem c_postLoop (O : CellTallies nD τ sig (HIx 1)) (W W₀ : Waits sig (HIx 1))
    (hW₀ : ∀ p ∈ W₀, p ∈ W ∨ p.2 = none ∨ p.2 = some (0 : Fin 1))
    (G0 FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256)
    (hFX : ∀ (t : Fin 200) (x : S128.Idx), (View.read (Elt F) (b_rowM t).view FX x : BitVec 32)
        = (I4 m d (ix3 (c_w L) t (⟨(x 0).val, (x 0).isLt⟩ : Fin 128)) : BitVec 32) + BitVec.ofNat 32 (4 * rho ⟨(x 0).val, (x 0).isLt⟩))
    (h4 : ∀ (t : Fin 200) (l : Fin 128), (I4 m d (ix3 (c_w L) t l) : BitVec 32).toNat < 4)
    (R : sProp 𝕄) (v : BitVec 32) :
    iprop(b_inv (F := F) m d L O W₀ G0 FX frw hfx R 49 v ∗ c_untouched (F := F) m d L)
      ⊢ wp frame (wpE (defs₀ (F := F)) 𝒱₀ (V d (cV L) (jV L)) none) Set.univ (c_epiProg (F := F) L) fun _ =>
          iprop(tdC m d (cL L) (cV L) (jL L)
            ∗ ((∃ f, (V d (cV L) (jV L)).loc cc1_scratch0 ↦{fullShare} f) ∗ (∃ f, (V d (cV L) (jV L)).loc cc1_scratch1 ↦{fullShare} f)
                ∗ bigSep (((ownRefs (τ := τ) (.scVector (cV L) (jV L))).erase (ixRef L)).erase (rwRef L)) fun b => iprop(∃ f, ((d, b) : Loc nD τ sig) ↦{fullShare} f))
            ∗ ((semVal (dcell d (cV L) (jV L) 4) 0 ∗ semVal (dcell d (cV L) (jV L) 5) 0 ∗ semVal (dcell d (cV L) (jV L) 6) 0 ∗ semVal (dcell d (cV L) (jV L) 7) 0
                  ∗ semVal (dcell d (cV L) (jV L) 8) 0 ∗ semVal (dcell d (cV L) (jV L) 9) 0 ∗ semVal (dcell d (cV L) (jV L) 10) 0 ∗ semVal (dcell d (cV L) (jV L) 11) 0
                  ∗ semVal (dcell d (cV L) (jV L) 12) 0 ∗ semVal (dcell d (cV L) (jV L) 13) 0 ∗ semVal (dcell d (cV L) (jV L) 14) 0)
                ∗ bigSep (ownCells (V d (cV L) (jV L)) \ myCells d (cV L) (jV L)) fun g => semVal g 0)
            ∗ ∃ W', ⌜∀ p ∈ W', p ∈ W ∨ p.2 = none ∨ p.2 = some (0 : Fin 1)⌝ ∗ owes (V d (cV L) (jV L)) O W') := by
  unfold b_inv c_untouched tdC
  simp only [Nat.reduceMul, Nat.reduceAdd]
  iintro ⟨⟨#Hmw, ⟨%W', %hW', HO⟩, Hf0, Hf1, Hf2, Hf3, Hs8, Hs9, Hs10, Hs11, Hrows, -, Hdone, Hrest, -⟩, Hbufs, Hsems, Hs12, Hs13, Hs14, Ht', Hihd, Hitl⟩
  -- the last four blocks out of what is left of the slab, each as the program slices it
  ihave H := (c_pts_last4 (F := F) d (c_w L) fullShare (m (v5Loc d))).1 $$ Hrest
  icases H with ⟨Hb0, Hb1, Hb2, Hb3⟩
  ihave Hb0 := (Entails.of_eq (c_pts_oB0 (F := F) d L fullShare (m (v5Loc d))).symm) $$ Hb0
  ihave Hb1 := (Entails.of_eq (c_pts_oB1 (F := F) d L fullShare (m (v5Loc d))).symm) $$ Hb1
  ihave Hb2 := (Entails.of_eq (c_pts_oB2 (F := F) d L fullShare (m (v5Loc d))).symm) $$ Hb2
  ihave Hb3 := (Entails.of_eq (c_pts_oB3 (F := F) d L fullShare (m (v5Loc d))).symm) $$ Hb3
  iapply (wp_wand_r frame _ Set.univ)
  isplitl [Hf0 Hf1 Hf2 Hf3 Hs8 Hs9 Hs10 Hs11 Hb0 Hb1 Hb2 Hb3 HO]
  · iapply (c_epilogue' (F := F) m d L O W'
      ((rwS0).view.writes (Elt F) frw [⟨Rect.whole S128x128, b_pay (m := m) d L FX hfx (b_row 196)⟩])
      ((rwS1).view.writes (Elt F) frw [⟨Rect.whole S128x128, b_pay (m := m) d L FX hfx (b_row 197)⟩])
      ((rwS2).view.writes (Elt F) frw [⟨Rect.whole S128x128, b_pay (m := m) d L FX hfx (b_row 198)⟩])
      ((rwS3).view.writes (Elt F) frw [⟨Rect.whole S128x128, b_pay (m := m) d L FX hfx (b_row 199)⟩])
      (b_rowM (b_row 196)) (b_rowM (b_row 197)) (b_rowM (b_row 198)) (b_rowM (b_row 199)) FX FX FX FX
      (gshare L 0) (gshare L 1) (gshare L 2) (gshare L 3) (m (v5Loc d))
      (fun x => (c_val_at (F := F) m d L FX hfx hFX h4 (b_row 196) rwS0 frw x).trans
        (congrArg (O5 m d) (c_emb_off _ _ (c_off15 L 0).symm _ _ x)))
      (fun x => (c_val_at (F := F) m d L FX hfx hFX h4 (b_row 197) rwS1 frw x).trans
        (congrArg (O5 m d) (c_emb_off _ _ (c_off15 L 1).symm _ _ x)))
      (fun x => (c_val_at (F := F) m d L FX hfx hFX h4 (b_row 198) rwS2 frw x).trans
        (congrArg (O5 m d) (c_emb_off _ _ (c_off15 L 2).symm _ _ x)))
      (fun x => (c_val_at (F := F) m d L FX hfx hFX h4 (b_row 199) rwS3 frw x).trans
        (congrArg (O5 m d) (c_emb_off _ _ (c_off15 L 3).symm _ _ x))))
    isplitr; · iexact Hmw
    isplitl [Hf0]; · iexact Hf0
    isplitl [Hf1]; · iexact Hf1
    isplitl [Hf2]; · iexact Hf2
    isplitl [Hf3]; · iexact Hf3
    isplitl [Hs8]; · iexact Hs8
    isplitl [Hs9]; · iexact Hs9
    isplitl [Hs10]; · iexact Hs10
    isplitl [Hs11]; · iexact Hs11
    isplitl [Hb0]; · iexact Hb0
    isplitl [Hb1]; · iexact Hb1
    isplitl [Hb2]; · iexact Hb2
    isplitl [Hb3]; · iexact Hb3
    iexact HO
  iintro %x ⟨Hrw0, Hrw1, Hrw2, Hrw3, Hl0, Hl1, Hl2, Hl3, Hq0, Hq1, Hq2, Hq3, Hb0, Hb1, Hb2, Hb3, Hs4, Hs5, Hs6, Hs7, Hs8, Hs9, Hs10, Hs11, %W'', %hW'', HO⟩
  isplitl [Ht' Hihd Hitl Hdone Hb0 Hb1 Hb2 Hb3 Hq0 Hq1 Hq2 Hq3]
  · -- what the sequencer gets back
    isplitl [Ht']; · iapply (Entails.of_eq (pts_tSlK (F := F) d L _ _)); iexact Ht'
    isplitl [Hihd Hitl]
    · iapply (pts_islab (F := F) d L _).2
      isplitl [Hihd] <;> iassumption
    isplitl [Hdone Hb0 Hb1 Hb2 Hb3]
    · iapply (c_pts_done_rest (F := F) d (c_w L) 196 (by decide) fullShare (O5 m d)).2
      isplitl [Hdone]; · iexact Hdone
      iapply (c_pts_last4 (F := F) d (c_w L) fullShare (O5 m d)).2
      isplitl [Hb0]; · iapply (Entails.of_eq (c_pts_oB0 (F := F) d L fullShare (O5 m d))); iexact Hb0
      isplitl [Hb1]; · iapply (Entails.of_eq (c_pts_oB1 (F := F) d L fullShare (O5 m d))); iexact Hb1
      isplitl [Hb2]; · iapply (Entails.of_eq (c_pts_oB2 (F := F) d L fullShare (O5 m d))); iexact Hb2
      iapply (Entails.of_eq (c_pts_oB3 (F := F) d L fullShare (O5 m d))); iexact Hb3
    · iapply (Entails.of_eq (pts_shV (F := F) d L _ _))
      iapply (Entails.of_eq (sh_four (F := F) d L (T3 m d)).symm)
      isplitl [Hq0]; · iapply (Entails.of_eq (c_pts_shW (F := F) d L _ _)); iexact Hq0
      isplitl [Hq1]; · iapply (Entails.of_eq (c_pts_shW (F := F) d L _ _)); iexact Hq1
      isplitl [Hq2]; · iapply (Entails.of_eq (c_pts_shW (F := F) d L _ _)); iexact Hq2
      iapply (Entails.of_eq (c_pts_shW (F := F) d L _ _)); iexact Hq3
  isplitl [Hrows Hl0 Hl1 Hl2 Hl3 Hrw0 Hrw1 Hrw2 Hrw3 Hbufs]
  · -- the subcore's own buffers, whole again
    isplitl [Hrows Hl0 Hl1 Hl2 Hl3]
    · iexists FX
      iapply (c_ix_all (F := F) d (cV L) (jV L) FX)
      isplitl [Hrows]; · iapply (c_rows_below (F := F) d (cV L) (jV L) fullShare FX 196 (by decide)); iexact Hrows
      isplitl [Hl0]; · iapply (Entails.of_eq (c_pts_rowM (F := F) d (cV L) (jV L) _ _ _)); iexact Hl0
      isplitl [Hl1]; · iapply (Entails.of_eq (c_pts_rowM (F := F) d (cV L) (jV L) _ _ _)); iexact Hl1
      isplitl [Hl2]; · iapply (Entails.of_eq (c_pts_rowM (F := F) d (cV L) (jV L) _ _ _)); iexact Hl2
      iapply (Entails.of_eq (c_pts_rowM (F := F) d (cV L) (jV L) _ _ _)); iexact Hl3
    isplitl [Hrw0 Hrw1 Hrw2 Hrw3]
    · iapply (c_rw_join (F := F) d (cV L) (jV L) _ _ _ _)
      isplitl [Hrw0]; · iexact Hrw0
      isplitl [Hrw1]; · iexact Hrw1
      isplitl [Hrw2]; · iexact Hrw2
      iexact Hrw3
    iexact Hbufs
  isplitl [Hs4 Hs5 Hs6 Hs7 Hs8 Hs9 Hs10 Hs11 Hs12 Hs13 Hs14 Hsems]
  · isplitl [Hs4 Hs5 Hs6 Hs7 Hs8 Hs9 Hs10 Hs11 Hs12 Hs13 Hs14]
    · isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      iexact Hs14
    iexact Hsems
  iexists W''; isplitr
  swap; · iexact HO
  ipureintro; intro p hp
  rcases hW'' p hp with h | h
  · rcases hW' p h with h | h
    · exact hW₀ p h
    · exact .inr h
  · exact .inr (.inl h)

/-- Every fixed word, as a gather's offset list reads it: the index word of its place plus `4 ρ` of its lane. -/
theorem c_hFX (t : Fin 200) (x : S128.Idx) :
    (View.read (Elt F) (b_rowM t).view (b_FX m d L) x : BitVec 32)
      = (I4 m d (ix3 (c_w L) t (⟨(x 0).val, (x 0).isLt⟩ : Fin 128)) : BitVec 32) + BitVec.ofNat 32 (4 * rho ⟨(x 0).val, (x 0).isLt⟩) := by
  show b_FX m d L ((b_rowM t).view.emb x) = _
  have e : (b_rowM t).view.emb x = (ix2 (⟨t.val, t.isLt⟩ : Fin 200) (⟨(x 0).val, (x 0).isLt⟩ : Fin 128) : S200x128.Idx) :=
    a_row_emb t.val t.isLt (c_ixrow_inb t) x
  rw [e]
  rfl

/-- The same at the loop's own words: the index scratch as fetched, and with every row's lane offsets added. -/
theorem c_postLoop' (hpre : PreOK m) (O : CellTallies nD τ sig (HIx 1)) (W : Waits sig (HIx 1))
    (frw : Buf (Elt F) ((V d (cV L) (jV L)).loc cc1_scratch1)) (v : BitVec 32) :
    iprop(b_inv (F := F) m d L O W (b_G0 m d L) (b_FX m d L) frw (FX_hfx m d L hpre) iprop(emp) 49 v ∗ c_untouched (F := F) m d L)
      ⊢ wp frame (wpE (defs₀ (F := F)) 𝒱₀ (V d (cV L) (jV L)) none) Set.univ (c_epiProg (F := F) L) fun _ =>
          iprop(tdC m d (cL L) (cV L) (jL L)
            ∗ ((∃ f, (V d (cV L) (jV L)).loc cc1_scratch0 ↦{fullShare} f) ∗ (∃ f, (V d (cV L) (jV L)).loc cc1_scratch1 ↦{fullShare} f)
                ∗ bigSep (((ownRefs (τ := τ) (.scVector (cV L) (jV L))).erase (ixRef L)).erase (rwRef L)) fun b => iprop(∃ f, ((d, b) : Loc nD τ sig) ↦{fullShare} f))
            ∗ ((semVal (dcell d (cV L) (jV L) 4) 0 ∗ semVal (dcell d (cV L) (jV L) 5) 0 ∗ semVal (dcell d (cV L) (jV L) 6) 0 ∗ semVal (dcell d (cV L) (jV L) 7) 0
                  ∗ semVal (dcell d (cV L) (jV L) 8) 0 ∗ semVal (dcell d (cV L) (jV L) 9) 0 ∗ semVal (dcell d (cV L) (jV L) 10) 0 ∗ semVal (dcell d (cV L) (jV L) 11) 0
                  ∗ semVal (dcell d (cV L) (jV L) 12) 0 ∗ semVal (dcell d (cV L) (jV L) 13) 0 ∗ semVal (dcell d (cV L) (jV L) 14) 0)
                ∗ bigSep (ownCells (V d (cV L) (jV L)) \ myCells d (cV L) (jV L)) fun g => semVal g 0)
            ∗ ∃ W', ⌜∀ p ∈ W', p ∈ W ∨ p.2 = none ∨ p.2 = some (0 : Fin 1)⌝ ∗ owes (V d (cV L) (jV L)) O W') :=
  c_postLoop (F := F) m d L O W W (fun _ h => .inl h) (b_G0 m d L) (b_FX m d L) frw (FX_hfx m d L hpre) (c_hFX (F := F) m d L)
    (fun t l => I4_lt4 m d hpre (ix3 _ t l)) iprop(emp) v

end PostLoop

end Cert.Kernel.Hand

end
-- ==== Proof.KernelW.LoopLemmas.lean ====
/-
  The gather loop: the pieces one trip works on, in the two spellings they take.

  The invariant names rows of the index scratch and blocks of the result slab as sets of elements of their buffers; the
  program addresses the same rows and blocks through memrefs sliced at the loop counter's offsets. This module states
  the equations between the two, the four-at-a-time splittings of the families the invariant carries (rows not yet
  fixed, rows spent, blocks written, blocks left), and how what the run leaves of a gather and of a written block is
  what the invariant says of them: a buffer written whole holds what was written whatever it held, so earlier writes
  drop out.
-/
import proofs.«214982_g87402584473731_cont_9to1c4b_667_31_alg».proof.Proof.KernelW.TileLemmas
import proofs.«214982_g87402584473731_cont_9to1c4b_667_31_alg».proof.Proof.KernelW.TileLemmas2
import proofs.«214982_g87402584473731_cont_9to1c4b_667_31_alg».proof.Proof.KernelW.Blocks
import proofs.«214982_g87402584473731_cont_9to1c4b_667_31_alg».proof.Proof.KernelW.Chunks
import proofs.«214982_g87402584473731_cont_9to1c4b_667_31_alg».proof.Proof.KernelW.LoopInv
import proofs.«214982_g87402584473731_cont_9to1c4b_667_31_alg».proof.Proof.KernelW.Gathered

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Loop

variable (d : Dev nD) (L : grid1.Coords)

abbrev b_rowN0 (k : Fin k1_t1_loop.trips) : Memref sig .scVector .vmem S128 .i32 :=
  ((ixV).slice (Rect.unit (s := S200x128) (k1_off14 k 0#32) S1x128.size (k1_off14_inb k 0)) (fun _ => rfl)).squeeze S128 squeezes_S1x128_S128
abbrev b_oblk0 (L : grid1.Coords) (k : Fin k1_t1_loop.trips) : Memref sig .scVector .hbm S128x128 .f32 :=
  (oV).slice (Rect.unit (s := S819200x128) (k1_off13 L k 0#32) S128x128.size (k1_off13_inb L k 0)) (fun _ => rfl)

abbrev b_rowN1 (k : Fin k1_t1_loop.trips) : Memref sig .scVector .vmem S128 .i32 :=
  ((ixV).slice (Rect.unit (s := S200x128) (k1_off14 k 1#32) S1x128.size (k1_off14_inb k 1)) (fun _ => rfl)).squeeze S128 squeezes_S1x128_S128
abbrev b_oblk1 (L : grid1.Coords) (k : Fin k1_t1_loop.trips) : Memref sig .scVector .hbm S128x128 .f32 :=
  (oV).slice (Rect.unit (s := S819200x128) (k1_off13 L k 1#32) S128x128.size (k1_off13_inb L k 1)) (fun _ => rfl)

abbrev b_rowN2 (k : Fin k1_t1_loop.trips) : Memref sig .scVector .vmem S128 .i32 :=
  ((ixV).slice (Rect.unit (s := S200x128) (k1_off14 k 2#32) S1x128.size (k1_off14_inb k 2)) (fun _ => rfl)).squeeze S128 squeezes_S1x128_S128
abbrev b_oblk2 (L : grid1.Coords) (k : Fin k1_t1_loop.trips) : Memref sig .scVector .hbm S128x128 .f32 :=
  (oV).slice (Rect.unit (s := S819200x128) (k1_off13 L k 2#32) S128x128.size (k1_off13_inb L k 2)) (fun _ => rfl)

abbrev b_rowN3 (k : Fin k1_t1_loop.trips) : Memref sig .scVector .vmem S128 .i32 :=
  ((ixV).slice (Rect.unit (s := S200x128) (k1_off14 k 3#32) S1x128.size (k1_off14_inb k 3)) (fun _ => rfl)).squeeze S128 squeezes_S1x128_S128
abbrev b_oblk3 (L : grid1.Coords) (k : Fin k1_t1_loop.trips) : Memref sig .scVector .hbm S128x128 .f32 :=
  (oV).slice (Rect.unit (s := S819200x128) (k1_off13 L k 3#32) S128x128.size (k1_off13_inb L k 3)) (fun _ => rfl)

omit [FloatOps F] in
/-- A 16-lane chunk of a row lies in the row, whatever spells the two offsets. -/
theorem b_chunk_sub {off offr : Fin 2 → Nat} (t col : Nat) (e0 : off = ![t, col]) (er : offr = ![t, 0]) (hcol : col + 16 ≤ 128) (inbc) (inbr) :
    ((ixV).access (Rect.unit (s := S200x128) off S1x16.size inbc)).set
      ⊆ (((ixV).slice (Rect.unit (s := S200x128) offr S1x128.size inbr) (fun _ => rfl)).squeeze S128 squeezes_S1x128_S128).view.set := by
  subst e0 er; exact chunk_sub_row t col _ _ hcol

omit [FloatOps F] in
theorem b_set_rowM (t : Fin 200) : (b_rowM t).view.set = (ixRowR t).set := by
  show (((ixV).slice (Rect.unit (s := S200x128) ![t.val, 0] S1x128.size (c_ixrow_inb t)) (fun _ => rfl)).squeeze S128 squeezes_S1x128_S128).view.set = _
  exact (set_ixRow _ _).trans rfl
omit [FloatOps F] in
theorem b_pts_rowM (t : Fin 200) (q : PosShare TreeShare) (f : Buf (Elt F) ((V d (cV L) (jV L)).loc cc1_scratch0)) :
    ((b_rowM t).view.loc (V d (cV L) (jV L)) ↦[(b_rowM t).view.set]{q} f : sProp 𝕄)
      = ((V d (cV L) (jV L)).loc cc1_scratch0 ↦[(ixRowR t).set]{q} f) := by
  rw [b_set_rowM]
omit [FloatOps F] in
/-- Two spellings of one row of the index scratch as an offset list. -/
theorem b_row_congr {off off' : Fin 2 → Nat} (h : off = off') (inb) (inb') :
    (((ixV).slice (Rect.unit (s := S200x128) off S1x128.size inb) (fun _ => rfl)).squeeze S128 squeezes_S1x128_S128)
      = (((ixV).slice (Rect.unit (s := S200x128) off' S1x128.size inb') (fun _ => rfl)).squeeze S128 squeezes_S1x128_S128) := by
  subst h; rfl

omit [FloatOps F] in
theorem b_set_oblk0 (k : Fin k1_t1_loop.trips) : (b_oblk0 L k).view.set = (oblkR (wid (cL L) (jL L)) ⟨4 * k.val + 0, c_blk_lt k 0⟩).set := by
  show ((oV).view.slice (Rect.unit (s := S819200x128) (k1_off13 L k 0#32) S128x128.size (k1_off13_inb L k 0))).set = _
  rw [View.set_slice_whole, oblk_off13_0]
omit [FloatOps F] in
theorem b_pts_oblk0 (k : Fin k1_t1_loop.trips) (q : PosShare TreeShare) (f : Buf (Elt F) (v5Loc d)) :
    ((b_oblk0 L k).view.loc (V d (cV L) (jV L)) ↦[(b_oblk0 L k).view.set]{q} f : sProp 𝕄)
      = (v5Loc d ↦[(oblkR (wid (cL L) (jL L)) ⟨4 * k.val + 0, c_blk_lt k 0⟩).set]{q} f) := by
  rw [b_set_oblk0]
omit [FloatOps F] in
theorem b_set_rowN0 (k : Fin k1_t1_loop.trips) : (b_rowN0 k).view.set = (ixRowR ⟨4 * k.val + 0 + 4, c_row4_lt k 0⟩).set := by
  show (((ixV).slice (Rect.unit (s := S200x128) (k1_off14 k 0#32) S1x128.size (k1_off14_inb k 0)) (fun _ => rfl)).squeeze S128 squeezes_S1x128_S128).view.set = _
  rw [set_ixRow]; exact congrArg (fun R : Rect S200x128 => R.set) (ixRow_off14 k 0)
omit [FloatOps F] in
theorem b_pts_rowN0 (k : Fin k1_t1_loop.trips) (q : PosShare TreeShare) (f : Buf (Elt F) ((V d (cV L) (jV L)).loc cc1_scratch0)) :
    ((b_rowN0 k).view.loc (V d (cV L) (jV L)) ↦[(b_rowN0 k).view.set]{q} f : sProp 𝕄)
      = ((V d (cV L) (jV L)).loc cc1_scratch0 ↦[(ixRowR ⟨4 * k.val + 0 + 4, c_row4_lt k 0⟩).set]{q} f) := by
  rw [b_set_rowN0]

omit [FloatOps F] in
theorem b_set_oblk1 (k : Fin k1_t1_loop.trips) : (b_oblk1 L k).view.set = (oblkR (wid (cL L) (jL L)) ⟨4 * k.val + 1, c_blk_lt k 1⟩).set := by
  show ((oV).view.slice (Rect.unit (s := S819200x128) (k1_off13 L k 1#32) S128x128.size (k1_off13_inb L k 1))).set = _
  rw [View.set_slice_whole, oblk_off13_1]
omit [FloatOps F] in
theorem b_pts_oblk1 (k : Fin k1_t1_loop.trips) (q : PosShare TreeShare) (f : Buf (Elt F) (v5Loc d)) :
    ((b_oblk1 L k).view.loc (V d (cV L) (jV L)) ↦[(b_oblk1 L k).view.set]{q} f : sProp 𝕄)
      = (v5Loc d ↦[(oblkR (wid (cL L) (jL L)) ⟨4 * k.val + 1, c_blk_lt k 1⟩).set]{q} f) := by
  rw [b_set_oblk1]
omit [FloatOps F] in
theorem b_set_rowN1 (k : Fin k1_t1_loop.trips) : (b_rowN1 k).view.set = (ixRowR ⟨4 * k.val + 1 + 4, c_row4_lt k 1⟩).set := by
  show (((ixV).slice (Rect.unit (s := S200x128) (k1_off14 k 1#32) S1x128.size (k1_off14_inb k 1)) (fun _ => rfl)).squeeze S128 squeezes_S1x128_S128).view.set = _
  rw [set_ixRow]; exact congrArg (fun R : Rect S200x128 => R.set) (ixRow_off14 k 1)
omit [FloatOps F] in
theorem b_pts_rowN1 (k : Fin k1_t1_loop.trips) (q : PosShare TreeShare) (f : Buf (Elt F) ((V d (cV L) (jV L)).loc cc1_scratch0)) :
    ((b_rowN1 k).view.loc (V d (cV L) (jV L)) ↦[(b_rowN1 k).view.set]{q} f : sProp 𝕄)
      = ((V d (cV L) (jV L)).loc cc1_scratch0 ↦[(ixRowR ⟨4 * k.val + 1 + 4, c_row4_lt k 1⟩).set]{q} f) := by
  rw [b_set_rowN1]

omit [FloatOps F] in
theorem b_set_oblk2 (k : Fin k1_t1_loop.trips) : (b_oblk2 L k).view.set = (oblkR (wid (cL L) (jL L)) ⟨4 * k.val + 2, c_blk_lt k 2⟩).set := by
  show ((oV).view.slice (Rect.unit (s := S819200x128) (k1_off13 L k 2#32) S128x128.size (k1_off13_inb L k 2))).set = _
  rw [View.set_slice_whole, oblk_off13_2]
omit [FloatOps F] in
theorem b_pts_oblk2 (k : Fin k1_t1_loop.trips) (q : PosShare TreeShare) (f : Buf (Elt F) (v5Loc d)) :
    ((b_oblk2 L k).view.loc (V d (cV L) (jV L)) ↦[(b_oblk2 L k).view.set]{q} f : sProp 𝕄)
      = (v5Loc d ↦[(oblkR (wid (cL L) (jL L)) ⟨4 * k.val + 2, c_blk_lt k 2⟩).set]{q} f) := by
  rw [b_set_oblk2]
omit [FloatOps F] in
theorem b_set_rowN2 (k : Fin k1_t1_loop.trips) : (b_rowN2 k).view.set = (ixRowR ⟨4 * k.val + 2 + 4, c_row4_lt k 2⟩).set := by
  show (((ixV).slice (Rect.unit (s := S200x128) (k1_off14 k 2#32) S1x128.size (k1_off14_inb k 2)) (fun _ => rfl)).squeeze S128 squeezes_S1x128_S128).view.set = _
  rw [set_ixRow]; exact congrArg (fun R : Rect S200x128 => R.set) (ixRow_off14 k 2)
omit [FloatOps F] in
theorem b_pts_rowN2 (k : Fin k1_t1_loop.trips) (q : PosShare TreeShare) (f : Buf (Elt F) ((V d (cV L) (jV L)).loc cc1_scratch0)) :
    ((b_rowN2 k).view.loc (V d (cV L) (jV L)) ↦[(b_rowN2 k).view.set]{q} f : sProp 𝕄)
      = ((V d (cV L) (jV L)).loc cc1_scratch0 ↦[(ixRowR ⟨4 * k.val + 2 + 4, c_row4_lt k 2⟩).set]{q} f) := by
  rw [b_set_rowN2]

omit [FloatOps F] in
theorem b_set_oblk3 (k : Fin k1_t1_loop.trips) : (b_oblk3 L k).view.set = (oblkR (wid (cL L) (jL L)) ⟨4 * k.val + 3, c_blk_lt k 3⟩).set := by
  show ((oV).view.slice (Rect.unit (s := S819200x128) (k1_off13 L k 3#32) S128x128.size (k1_off13_inb L k 3))).set = _
  rw [View.set_slice_whole, oblk_off13_3]
omit [FloatOps F] in
theorem b_pts_oblk3 (k : Fin k1_t1_loop.trips) (q : PosShare TreeShare) (f : Buf (Elt F) (v5Loc d)) :
    ((b_oblk3 L k).view.loc (V d (cV L) (jV L)) ↦[(b_oblk3 L k).view.set]{q} f : sProp 𝕄)
      = (v5Loc d ↦[(oblkR (wid (cL L) (jL L)) ⟨4 * k.val + 3, c_blk_lt k 3⟩).set]{q} f) := by
  rw [b_set_oblk3]
omit [FloatOps F] in
theorem b_set_rowN3 (k : Fin k1_t1_loop.trips) : (b_rowN3 k).view.set = (ixRowR ⟨4 * k.val + 3 + 4, c_row4_lt k 3⟩).set := by
  show (((ixV).slice (Rect.unit (s := S200x128) (k1_off14 k 3#32) S1x128.size (k1_off14_inb k 3)) (fun _ => rfl)).squeeze S128 squeezes_S1x128_S128).view.set = _
  rw [set_ixRow]; exact congrArg (fun R : Rect S200x128 => R.set) (ixRow_off14 k 3)
omit [FloatOps F] in
theorem b_pts_rowN3 (k : Fin k1_t1_loop.trips) (q : PosShare TreeShare) (f : Buf (Elt F) ((V d (cV L) (jV L)).loc cc1_scratch0)) :
    ((b_rowN3 k).view.loc (V d (cV L) (jV L)) ↦[(b_rowN3 k).view.set]{q} f : sProp 𝕄)
      = ((V d (cV L) (jV L)).loc cc1_scratch0 ↦[(ixRowR ⟨4 * k.val + 3 + 4, c_row4_lt k 3⟩).set]{q} f) := by
  rw [b_set_rowN3]

omit [FloatOps F] in
theorem b_rowN0_eq (k : Fin k1_t1_loop.trips) : b_rowN0 k = b_rowM ⟨4 * k.val + 0 + 4, c_row4_lt k 0⟩ :=
  b_row_congr (k1_off14_eq k 0) _ _

omit [FloatOps F] in
theorem b_rowN1_eq (k : Fin k1_t1_loop.trips) : b_rowN1 k = b_rowM ⟨4 * k.val + 1 + 4, c_row4_lt k 1⟩ :=
  b_row_congr (k1_off14_eq k 1) _ _

omit [FloatOps F] in
theorem b_rowN2_eq (k : Fin k1_t1_loop.trips) : b_rowN2 k = b_rowM ⟨4 * k.val + 2 + 4, c_row4_lt k 2⟩ :=
  b_row_congr (k1_off14_eq k 2) _ _

omit [FloatOps F] in
theorem b_rowN3_eq (k : Fin k1_t1_loop.trips) : b_rowN3 k = b_rowM ⟨4 * k.val + 3 + 4, c_row4_lt k 3⟩ :=
  b_row_congr (k1_off14_eq k 3) _ _

/-! ## Families over row numbers, four at a time -/

omit [FloatOps F] in
theorem b_row_of_lt {t : Nat} (h : t < 200) : b_row t = ⟨t, h⟩ := Fin.ext (Nat.mod_eq_of_lt h)

omit [FloatOps F] in
theorem b_filter_step (a : Nat) (ha : a < 200) :
    (Finset.range 200).filter (fun t => a ≤ t) = insert a ((Finset.range 200).filter fun t => a + 1 ≤ t) := by
  ext t
  simp only [Finset.mem_filter, Finset.mem_range, Finset.mem_insert]
  omega

omit [FloatOps F] in
theorem b_take1 (Φ : Nat → sProp 𝕄) (a : Nat) (ha : a < 200) :
    bigSep ((Finset.range 200).filter fun t => a ≤ t) Φ = iprop(Φ a ∗ bigSep ((Finset.range 200).filter fun t => a + 1 ≤ t) Φ) := by
  rw [b_filter_step a ha, SparseCore.bigSep_insert' (by simp)]

omit [FloatOps F] in
theorem b_take4 (Φ : Nat → sProp 𝕄) (a : Nat) (ha : a + 3 < 200) :
    bigSep ((Finset.range 200).filter fun t => a ≤ t) Φ
      = iprop(Φ a ∗ Φ (a + 1) ∗ Φ (a + 2) ∗ Φ (a + 3) ∗ bigSep ((Finset.range 200).filter fun t => a + 4 ≤ t) Φ) := by
  rw [b_take1 Φ a (by omega), b_take1 Φ (a + 1) (by omega), b_take1 Φ (a + 2) (by omega), b_take1 Φ (a + 3) (by omega)]

omit [FloatOps F] in
theorem b_put4 (Φ : Nat → sProp 𝕄) (n : Nat) :
    bigSep (Finset.range (n + 4)) Φ = iprop(Φ (n + 3) ∗ Φ (n + 2) ∗ Φ (n + 1) ∗ Φ n ∗ bigSep (Finset.range n) Φ) := by
  rw [show n + 4 = (n + 3) + 1 from rfl, Finset.range_add_one, SparseCore.bigSep_insert' Finset.notMem_range_self,
    show n + 3 = (n + 2) + 1 from rfl, Finset.range_add_one, SparseCore.bigSep_insert' Finset.notMem_range_self,
    show n + 2 = (n + 1) + 1 from rfl, Finset.range_add_one, SparseCore.bigSep_insert' Finset.notMem_range_self,
    Finset.range_add_one, SparseCore.bigSep_insert' Finset.notMem_range_self]

/-! ## Four blocks of the result slab at a time -/

omit [FloatOps F] in
theorem b_rest4 (k : Fin k1_t1_loop.trips) (q : PosShare TreeShare) (f : Buf (Elt F) (v5Loc d)) :
    (v5Loc d ↦[oslabSet (wid (cL L) (jL L)) \ odoneSet (wid (cL L) (jL L)) (4 * k.val)]{q} f : sProp 𝕄)
      ⊣⊢ iprop((v5Loc d ↦[(oblkR (wid (cL L) (jL L)) ⟨4 * k.val + 0, c_blk_lt k 0⟩).set]{q} f)
          ∗ (v5Loc d ↦[(oblkR (wid (cL L) (jL L)) ⟨4 * k.val + 1, c_blk_lt k 1⟩).set]{q} f)
          ∗ (v5Loc d ↦[(oblkR (wid (cL L) (jL L)) ⟨4 * k.val + 2, c_blk_lt k 2⟩).set]{q} f)
          ∗ (v5Loc d ↦[(oblkR (wid (cL L) (jL L)) ⟨4 * k.val + 3, c_blk_lt k 3⟩).set]{q} f)
          ∗ (v5Loc d ↦[oslabSet (wid (cL L) (jL L)) \ odoneSet (wid (cL L) (jL L)) (4 * k.val + 4)]{q} f)) := by
  have s0 := pts_orest_succ (F := F) d (wid (cL L) (jL L)) ⟨4 * k.val + 0, c_blk_lt k 0⟩ q f
  have s1 := pts_orest_succ (F := F) d (wid (cL L) (jL L)) ⟨4 * k.val + 1, c_blk_lt k 1⟩ q f
  have s2 := pts_orest_succ (F := F) d (wid (cL L) (jL L)) ⟨4 * k.val + 2, c_blk_lt k 2⟩ q f
  have s3 := pts_orest_succ (F := F) d (wid (cL L) (jL L)) ⟨4 * k.val + 3, c_blk_lt k 3⟩ q f
  constructor
  · iintro H
    ihave H := s0.1 $$ H
    icases H with ⟨B0, H⟩
    ihave H := s1.1 $$ H
    icases H with ⟨B1, H⟩
    ihave H := s2.1 $$ H
    icases H with ⟨B2, H⟩
    ihave H := s3.1 $$ H
    icases H with ⟨B3, H⟩
    isplitl [B0]; · iexact B0
    isplitl [B1]; · iexact B1
    isplitl [B2]; · iexact B2
    isplitl [B3]; · iexact B3
    iexact H
  · iintro ⟨B0, B1, B2, B3, H⟩
    iapply s0.2
    isplitl [B0]; · iexact B0
    iapply s1.2
    isplitl [B1]; · iexact B1
    iapply s2.2
    isplitl [B2]; · iexact B2
    iapply s3.2
    isplitl [B3]; · iexact B3
    iexact H

omit [FloatOps F] in
theorem b_done4 (k : Fin k1_t1_loop.trips) (q : PosShare TreeShare) (f : Buf (Elt F) (v5Loc d)) :
    iprop((v5Loc d ↦[odoneSet (wid (cL L) (jL L)) (4 * k.val)]{q} f)
          ∗ (v5Loc d ↦[(oblkR (wid (cL L) (jL L)) ⟨4 * k.val + 0, c_blk_lt k 0⟩).set]{q} f)
          ∗ (v5Loc d ↦[(oblkR (wid (cL L) (jL L)) ⟨4 * k.val + 1, c_blk_lt k 1⟩).set]{q} f)
          ∗ (v5Loc d ↦[(oblkR (wid (cL L) (jL L)) ⟨4 * k.val + 2, c_blk_lt k 2⟩).set]{q} f)
          ∗ (v5Loc d ↦[(oblkR (wid (cL L) (jL L)) ⟨4 * k.val + 3, c_blk_lt k 3⟩).set]{q} f))
      ⊢ (v5Loc d ↦[odoneSet (wid (cL L) (jL L)) (4 * k.val + 4)]{q} f : sProp 𝕄) := by
  have s0 := pts_odone_succ (F := F) d (wid (cL L) (jL L)) ⟨4 * k.val + 0, c_blk_lt k 0⟩ q f
  have s1 := pts_odone_succ (F := F) d (wid (cL L) (jL L)) ⟨4 * k.val + 1, c_blk_lt k 1⟩ q f
  have s2 := pts_odone_succ (F := F) d (wid (cL L) (jL L)) ⟨4 * k.val + 2, c_blk_lt k 2⟩ q f
  have s3 := pts_odone_succ (F := F) d (wid (cL L) (jL L)) ⟨4 * k.val + 3, c_blk_lt k 3⟩ q f
  iintro ⟨H, B0, B1, B2, B3⟩
  iapply s3.2
  isplitr [B3]; swap; · iexact B3
  iapply s2.2
  isplitr [B2]; swap; · iexact B2
  iapply s1.2
  isplitr [B1]; swap; · iexact B1
  iapply s0.2
  isplitl [H]; · iexact H
  iexact B0

/-! ## Restating what the run leaves -/

omit [FloatOps F] in
/-- After a store through the whole shape, LAST, a view's elements read the same whatever came before. -/
theorem b_writes_whole_cover {sig' : RefSig} {κ : Kind} {sp : Space} {S' : Shape} {e : EltTy} {Val : EltTy → Type}
    (v : View sig' κ sp S' e) (f f' : v.ty.Contents Val) (p : S'.Idx → Val e) (Lw Lw' : List (View.Piece Val S' e)) :
    ∀ i ∈ v.set, v.writes Val f ((⟨Rect.whole S', p⟩ : View.Piece Val S' e) :: Lw) i = v.writes Val f' ((⟨Rect.whole S', p⟩ : View.Piece Val S' e) :: Lw') i := by
  intro i hi
  obtain ⟨x, -, rfl⟩ := Finset.mem_map.mp hi
  have hx : (v.slice (Rect.whole S')).emb x = v.emb x := by
    rw [View.emb_slice]
    show v.emb ((Rect.whole S').emb x) = _
    rw [Rect.emb_whole_apply]
  rw [View.writes_cons, View.writes_cons]
  conv_lhs => rw [← hx]
  conv_rhs => rw [← hx]
  rw [View.write_emb_of_mem _ _ (Finset.mem_univ x), View.write_emb_of_mem _ _ (Finset.mem_univ x)]

omit [FloatOps F] in
theorem b_off13_0 (k : Fin k1_t1_loop.trips) :
    k1_off13 L k 0#32 = ![25600 * (wid (cL L) (jL L)).val + 128 * (4 * k.val + 0), 0] := by
  rw [show k1_off13 L k 0#32 = _ from k1_off13_eq L k 0]
  funext a
  match a with
  | 0 => show 51200 * (L 1).val + 25600 * (L 0).val + 512 * k.val + 128 * 0 = 25600 * (2 * (L 1).val + (L 0).val) + 128 * (4 * k.val + 0); omega
  | 1 => rfl

omit [FloatOps F] in
theorem b_off13_1 (k : Fin k1_t1_loop.trips) :
    k1_off13 L k 1#32 = ![25600 * (wid (cL L) (jL L)).val + 128 * (4 * k.val + 1), 0] := by
  rw [show k1_off13 L k 1#32 = _ from k1_off13_eq L k 1]
  funext a
  match a with
  | 0 => show 51200 * (L 1).val + 25600 * (L 0).val + 512 * k.val + 128 * 1 = 25600 * (2 * (L 1).val + (L 0).val) + 128 * (4 * k.val + 1); omega
  | 1 => rfl

omit [FloatOps F] in
theorem b_off13_2 (k : Fin k1_t1_loop.trips) :
    k1_off13 L k 2#32 = ![25600 * (wid (cL L) (jL L)).val + 128 * (4 * k.val + 2), 0] := by
  rw [show k1_off13 L k 2#32 = _ from k1_off13_eq L k 2]
  funext a
  match a with
  | 0 => show 51200 * (L 1).val + 25600 * (L 0).val + 512 * k.val + 128 * 2 = 25600 * (2 * (L 1).val + (L 0).val) + 128 * (4 * k.val + 2); omega
  | 1 => rfl

omit [FloatOps F] in
theorem b_off13_3 (k : Fin k1_t1_loop.trips) :
    k1_off13 L k 3#32 = ![25600 * (wid (cL L) (jL L)).val + 128 * (4 * k.val + 3), 0] := by
  rw [show k1_off13 L k 3#32 = _ from k1_off13_eq L k 3]
  funext a
  match a with
  | 0 => show 51200 * (L 1).val + 25600 * (L 0).val + 512 * k.val + 128 * 3 = 25600 * (2 * (L 1).val + (L 0).val) + 128 * (4 * k.val + 3); omega
  | 1 => rfl

/-- A block of the slab written whole from a row buffer that a gather wrote whole holds the result's rows there. -/
theorem b_blk_landed (w : Fin 32) (t : Fin 200) (off : Fin 2 → Nat) (inb : ∀ a, off a + S128x128.size a ≤ S819200x128.size a)
    (e : off = ![25600 * w.val + 128 * t.val, 0])
    (rw : Memref sig .scVector .vmem S128x128 .f32) (frw : rw.view.ty.Contents (Elt F)) (P : S128x128.Idx → Elt F .f32)
    (hP : P = fun x : S128x128.Idx => O5 m d (ix2 (⟨25600 * w.val + 128 * t.val + (x 0).val, a_row_lt w t ⟨(x 0).val, (x 0).isLt⟩⟩ : Fin 819200)
        (⟨(x 1).val, (x 1).isLt⟩ : Fin 128)))
    (c : Fin τ.nSC) (j : Fin τ.nSub)
    (fprev : Buf (Elt F) (((oV).slice (Rect.unit (s := S819200x128) off S128x128.size inb) (fun _ => rfl)).view.loc (V d c j))) (q : PosShare TreeShare) :
    (((((oV).slice (Rect.unit (s := S819200x128) off S128x128.size inb) (fun _ => rfl)).view.loc (V d c j)
        ↦[((oV).slice (Rect.unit (s := S819200x128) off S128x128.size inb) (fun _ => rfl)).view.set]{q}
        ((oV).slice (Rect.unit (s := S819200x128) off S128x128.size inb) (fun _ => rfl)).view.writes (Elt F) fprev
          [⟨Rect.whole S128x128, ReadAs.same.apply (View.read (Elt F) rw.view (rw.view.writes (Elt F) frw [⟨Rect.whole S128x128, P⟩]))⟩])) : sProp 𝕄)
      = (v5Loc d ↦[(oblkR w t).set]{q} O5 m d) := by
  subst e
  exact block_landed_v5 m d w t c j rw frw P hP fprev q

/-- Slot 0's gather as the run leaves it — the row buffer's earlier writes still listed, the list spelt by the loop's
    offsets — is the flight the invariant names. -/
theorem b_fl0_restate (FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256) (t : Fin 200)
    (off : Fin 2 → Nat) (inb : ∀ a, off a + S1x128.size a ≤ S200x128.size a) (e : off = ![t.val, 0])
    (hin : ∀ x, (View.read (Elt F) (((ixV).slice (Rect.unit (s := S200x128) off S1x128.size inb) (fun _ => rfl)).squeeze S128 squeezes_S1x128_S128).view FX x : BitVec 32).toNat < 256)
    (pold : S128x128.Idx → Elt F .f32) :
    Transfers.Flight countersEmb (V d (cV L) (jV L)) (SemLoc.dma (⟨4, by decide⟩ : DmaSem sig)) (default : HIx 1) 524288
        iprop((((rwS0).view.loc (V d (cV L) (jV L)) ↦[(rwS0).view.set]{fullShare} (rwS0).view.writes (Elt F) frw
              [⟨Rect.whole S128x128, SparseCore.gatherPayload gathers_S256x128_S128x128 (View.read (Elt F) (b_shW).view (T3 m d : Buf (Elt F) (shLoc d (cV L))))
                  (SparseCore.rows (View.read (Elt F) (((ixV).slice (Rect.unit (s := S200x128) off S1x128.size inb) (fun _ => rfl)).squeeze S128 squeezes_S1x128_S128).view FX) rfl hin)⟩,
                ⟨Rect.whole S128x128, pold⟩])
            ∗ ((((ixV).slice (Rect.unit (s := S200x128) off S1x128.size inb) (fun _ => rfl)).squeeze S128 squeezes_S1x128_S128).view.loc (V d (cV L) (jV L))
                ↦[(((ixV).slice (Rect.unit (s := S200x128) off S1x128.size inb) (fun _ => rfl)).squeeze S128 squeezes_S1x128_S128).view.set]{fullShare} FX))
          ∗ ((b_shW).view.loc (V d (cV L) (jV L)) ↦[(b_shW).view.set]{gshare L 0} T3 m d))
      ⊢ b_fl0 m d L FX frw hfx t := by
  subst e
  have hc : (((rwS0).view.loc (V d (cV L) (jV L)) ↦[(rwS0).view.set]{fullShare} (rwS0).view.writes (Elt F) frw
        [⟨Rect.whole S128x128, b_pay (m := m) d L FX hfx t⟩, ⟨Rect.whole S128x128, pold⟩]) : sProp 𝕄)
      = ((rwS0).view.loc (V d (cV L) (jV L)) ↦[(rwS0).view.set]{fullShare} (rwS0).view.writes (Elt F) frw [⟨Rect.whole S128x128, b_pay (m := m) d L FX hfx t⟩]) :=
    pointsTo_congr (b_writes_whole_cover (rwS0).view frw frw (b_pay (m := m) d L FX hfx t) [⟨Rect.whole S128x128, pold⟩] [])
  refine Transfers.Flight_mono countersEmb _ ?_
  iintro ⟨⟨Hd, Hl⟩, Hs⟩
  isplitl [Hd Hl]
  · isplitl [Hd]
    · iapply (Entails.of_eq hc)
      iexact Hd
    · iexact Hl
  · iexact Hs

/-- Slot 1's gather as the run leaves it — the row buffer's earlier writes still listed, the list spelt by the loop's
    offsets — is the flight the invariant names. -/
theorem b_fl1_restate (FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256) (t : Fin 200)
    (off : Fin 2 → Nat) (inb : ∀ a, off a + S1x128.size a ≤ S200x128.size a) (e : off = ![t.val, 0])
    (hin : ∀ x, (View.read (Elt F) (((ixV).slice (Rect.unit (s := S200x128) off S1x128.size inb) (fun _ => rfl)).squeeze S128 squeezes_S1x128_S128).view FX x : BitVec 32).toNat < 256)
    (pold : S128x128.Idx → Elt F .f32) :
    Transfers.Flight countersEmb (V d (cV L) (jV L)) (SemLoc.dma (⟨5, by decide⟩ : DmaSem sig)) (default : HIx 1) 524288
        iprop((((rwS1).view.loc (V d (cV L) (jV L)) ↦[(rwS1).view.set]{fullShare} (rwS1).view.writes (Elt F) frw
              [⟨Rect.whole S128x128, SparseCore.gatherPayload gathers_S256x128_S128x128 (View.read (Elt F) (b_shW).view (T3 m d : Buf (Elt F) (shLoc d (cV L))))
                  (SparseCore.rows (View.read (Elt F) (((ixV).slice (Rect.unit (s := S200x128) off S1x128.size inb) (fun _ => rfl)).squeeze S128 squeezes_S1x128_S128).view FX) rfl hin)⟩,
                ⟨Rect.whole S128x128, pold⟩])
            ∗ ((((ixV).slice (Rect.unit (s := S200x128) off S1x128.size inb) (fun _ => rfl)).squeeze S128 squeezes_S1x128_S128).view.loc (V d (cV L) (jV L))
                ↦[(((ixV).slice (Rect.unit (s := S200x128) off S1x128.size inb) (fun _ => rfl)).squeeze S128 squeezes_S1x128_S128).view.set]{fullShare} FX))
          ∗ ((b_shW).view.loc (V d (cV L) (jV L)) ↦[(b_shW).view.set]{gshare L 1} T3 m d))
      ⊢ b_fl1 m d L FX frw hfx t := by
  subst e
  have hc : (((rwS1).view.loc (V d (cV L) (jV L)) ↦[(rwS1).view.set]{fullShare} (rwS1).view.writes (Elt F) frw
        [⟨Rect.whole S128x128, b_pay (m := m) d L FX hfx t⟩, ⟨Rect.whole S128x128, pold⟩]) : sProp 𝕄)
      = ((rwS1).view.loc (V d (cV L) (jV L)) ↦[(rwS1).view.set]{fullShare} (rwS1).view.writes (Elt F) frw [⟨Rect.whole S128x128, b_pay (m := m) d L FX hfx t⟩]) :=
    pointsTo_congr (b_writes_whole_cover (rwS1).view frw frw (b_pay (m := m) d L FX hfx t) [⟨Rect.whole S128x128, pold⟩] [])
  refine Transfers.Flight_mono countersEmb _ ?_
  iintro ⟨⟨Hd, Hl⟩, Hs⟩
  isplitl [Hd Hl]
  · isplitl [Hd]
    · iapply (Entails.of_eq hc)
      iexact Hd
    · iexact Hl
  · iexact Hs

/-- Slot 2's gather as the run leaves it — the row buffer's earlier writes still listed, the list spelt by the loop's
    offsets — is the flight the invariant names. -/
theorem b_fl2_restate (FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256) (t : Fin 200)
    (off : Fin 2 → Nat) (inb : ∀ a, off a + S1x128.size a ≤ S200x128.size a) (e : off = ![t.val, 0])
    (hin : ∀ x, (View.read (Elt F) (((ixV).slice (Rect.unit (s := S200x128) off S1x128.size inb) (fun _ => rfl)).squeeze S128 squeezes_S1x128_S128).view FX x : BitVec 32).toNat < 256)
    (pold : S128x128.Idx → Elt F .f32) :
    Transfers.Flight countersEmb (V d (cV L) (jV L)) (SemLoc.dma (⟨6, by decide⟩ : DmaSem sig)) (default : HIx 1) 524288
        iprop((((rwS2).view.loc (V d (cV L) (jV L)) ↦[(rwS2).view.set]{fullShare} (rwS2).view.writes (Elt F) frw
              [⟨Rect.whole S128x128, SparseCore.gatherPayload gathers_S256x128_S128x128 (View.read (Elt F) (b_shW).view (T3 m d : Buf (Elt F) (shLoc d (cV L))))
                  (SparseCore.rows (View.read (Elt F) (((ixV).slice (Rect.unit (s := S200x128) off S1x128.size inb) (fun _ => rfl)).squeeze S128 squeezes_S1x128_S128).view FX) rfl hin)⟩,
                ⟨Rect.whole S128x128, pold⟩])
            ∗ ((((ixV).slice (Rect.unit (s := S200x128) off S1x128.size inb) (fun _ => rfl)).squeeze S128 squeezes_S1x128_S128).view.loc (V d (cV L) (jV L))
                ↦[(((ixV).slice (Rect.unit (s := S200x128) off S1x128.size inb) (fun _ => rfl)).squeeze S128 squeezes_S1x128_S128).view.set]{fullShare} FX))
          ∗ ((b_shW).view.loc (V d (cV L) (jV L)) ↦[(b_shW).view.set]{gshare L 2} T3 m d))
      ⊢ b_fl2 m d L FX frw hfx t := by
  subst e
  have hc : (((rwS2).view.loc (V d (cV L) (jV L)) ↦[(rwS2).view.set]{fullShare} (rwS2).view.writes (Elt F) frw
        [⟨Rect.whole S128x128, b_pay (m := m) d L FX hfx t⟩, ⟨Rect.whole S128x128, pold⟩]) : sProp 𝕄)
      = ((rwS2).view.loc (V d (cV L) (jV L)) ↦[(rwS2).view.set]{fullShare} (rwS2).view.writes (Elt F) frw [⟨Rect.whole S128x128, b_pay (m := m) d L FX hfx t⟩]) :=
    pointsTo_congr (b_writes_whole_cover (rwS2).view frw frw (b_pay (m := m) d L FX hfx t) [⟨Rect.whole S128x128, pold⟩] [])
  refine Transfers.Flight_mono countersEmb _ ?_
  iintro ⟨⟨Hd, Hl⟩, Hs⟩
  isplitl [Hd Hl]
  · isplitl [Hd]
    · iapply (Entails.of_eq hc)
      iexact Hd
    · iexact Hl
  · iexact Hs

/-- Slot 3's gather as the run leaves it — the row buffer's earlier writes still listed, the list spelt by the loop's
    offsets — is the flight the invariant names. -/
theorem b_fl3_restate (FX : Buf (Elt F) ((V d (cV L) (jV L)).loc cc1_scratch0)) (frw : Buf (Elt F) ((V d (cV L) (jV L)).loc cc1_scratch1))
    (hfx : ∀ (t : Fin 200) x, (View.read (Elt F) (b_rowM t).view FX x : BitVec 32).toNat < 256) (t : Fin 200)
    (off : Fin 2 → Nat) (inb : ∀ a, off a + S1x128.size a ≤ S200x128.size a) (e : off = ![t.val, 0])
    (hin : ∀ x, (View.read (Elt F) (((ixV).slice (Rect.unit (s := S200x128) off S1x128.size inb) (fun _ => rfl)).squeeze S128 squeezes_S1x128_S128).view FX x : BitVec 32).toNat < 256)
    (pold : S128x128.Idx → Elt F .f32) :
    Transfers.Flight countersEmb (V d (cV L) (jV L)) (SemLoc.dma (⟨7, by decide⟩ : DmaSem sig)) (default : HIx 1) 524288
        iprop((((rwS3).view.loc (V d (cV L) (jV L)) ↦[(rwS3).view.set]{fullShare} (rwS3).view.writes (Elt F) frw
              [⟨Rect.whole S128x128, SparseCore.gatherPayload gathers_S256x128_S128x128 (View.read (Elt F) (b_shW).view (T3 m d : Buf (Elt F) (shLoc d (cV L))))
                  (SparseCore.rows (View.read (Elt F) (((ixV).slice (Rect.unit (s := S200x128) off S1x128.size inb) (fun _ => rfl)).squeeze S128 squeezes_S1x128_S128).view FX) rfl hin)⟩,
                ⟨Rect.whole S128x128, pold⟩])
            ∗ ((((ixV).slice (Rect.unit (s := S200x128) off S1x128.size inb) (fun _ => rfl)).squeeze S128 squeezes_S1x128_S128).view.loc (V d (cV L) (jV L))
                ↦[(((ixV).slice (Rect.unit (s := S200x128) off S1x128.size inb) (fun _ => rfl)).squeeze S128 squeezes_S1x128_S128).view.set]{fullShare} FX))
          ∗ ((b_shW).view.loc (V d (cV L) (jV L)) ↦[(b_shW).view.set]{gshare L 3} T3 m d))
      ⊢ b_fl3 m d L FX frw hfx t := by
  subst e
  have hc : (((rwS3).view.loc (V d (cV L) (jV L)) ↦[(rwS3).view.set]{fullShare} (rwS3).view.writes (Elt F) frw
        [⟨Rect.whole S128x128, b_pay (m := m) d L FX hfx t⟩, ⟨Rect.whole S128x128, pold⟩]) : sProp 𝕄)
      = ((rwS3).view.loc (V d (cV L) (jV L)) ↦[(rwS3).view.set]{fullShare} (rwS3).view.writes (Elt F) frw [⟨Rect.whole S128x128, b_pay (m := m) d L FX hfx t⟩]) :=
    pointsTo_congr (b_writes_whole_cover (rwS3).view frw frw (b_pay (m := m) d L FX hfx t) [⟨Rect.whole S128x128, pold⟩] [])
  refine Transfers.Flight_mono countersEmb _ ?_
  iintro ⟨⟨Hd, Hl⟩, Hs⟩
  isplitl [Hd Hl]
  · isplitl [Hd]
    · iapply (Entails.of_eq hc)
      iexact Hd
    · iexact Hl
  · iexact Hs

omit [FloatOps F] in
/-- The offsets in range for a row's list, whatever spells the row's offsets. -/
theorem b_hin_off (FX : Buf (Elt F) ((V d (cV L) (jV L)).loc cc1_scratch0))
    (hfx : ∀ (t : Fin 200) x, (View.read (Elt F) (b_rowM t).view FX x : BitVec 32).toNat < 256) (t : Fin 200)
    (off : Fin 2 → Nat) (inb : ∀ a, off a + S1x128.size a ≤ S200x128.size a) (e : off = ![t.val, 0]) :
    ∀ x, (View.read (Elt F) (((ixV).slice (Rect.unit (s := S200x128) off S1x128.size inb) (fun _ => rfl)).squeeze S128 squeezes_S1x128_S128).view FX x : BitVec 32).toNat < 256 := by
  subst e; exact hfx t

/-! ## What a trip works on, what it leaves, what it does not touch -/

/-- Out of the invariant before trip `k`: the four gathers in flight (lists rows `4k … 4k+3`), the write-out semaphores,
    the four rows to fix (`4k+4 … 4k+7`) as landed, the four blocks to write (`4k … 4k+3`) as launched. -/
def b_pre (O : CellTallies nD τ sig (HIx 1)) (W : Waits sig (HIx 1)) (G0 FX : Buf (Elt F) ((V d (cV L) (jV L)).loc cc1_scratch0))
    (frw : Buf (Elt F) ((V d (cV L) (jV L)).loc cc1_scratch1))
    (hfx : ∀ (t : Fin 200) x, (View.read (Elt F) (b_rowM t).view FX x : BitVec 32).toNat < 256) (k : Fin k1_t1_loop.trips) : sProp 𝕄 :=
  iprop(Transfers.MayWaits (V d (cV L) (jV L)) (default : HIx 1) O
    ∗ (∃ W', ⌜∀ p ∈ W', p ∈ W ∨ p.2 = none ∨ p.2 = some (0 : Fin 1)⌝ ∗ owes (V d (cV L) (jV L)) O W')
    ∗ b_fl0 m d L FX frw hfx ⟨4 * k.val + 0, c_blk_lt k 0⟩ ∗ b_fl1 m d L FX frw hfx ⟨4 * k.val + 1, c_blk_lt k 1⟩
    ∗ b_fl2 m d L FX frw hfx ⟨4 * k.val + 2, c_blk_lt k 2⟩ ∗ b_fl3 m d L FX frw hfx ⟨4 * k.val + 3, c_blk_lt k 3⟩
    ∗ semVal (dcell d (cV L) (jV L) 8) 0 ∗ semVal (dcell d (cV L) (jV L) 9) 0 ∗ semVal (dcell d (cV L) (jV L) 10) 0 ∗ semVal (dcell d (cV L) (jV L) 11) 0
    ∗ ((V d (cV L) (jV L)).loc cc1_scratch0 ↦[(ixRowR ⟨4 * k.val + 0 + 4, c_row4_lt k 0⟩).set]{fullShare} G0)
    ∗ ((V d (cV L) (jV L)).loc cc1_scratch0 ↦[(ixRowR ⟨4 * k.val + 1 + 4, c_row4_lt k 1⟩).set]{fullShare} G0)
    ∗ ((V d (cV L) (jV L)).loc cc1_scratch0 ↦[(ixRowR ⟨4 * k.val + 2 + 4, c_row4_lt k 2⟩).set]{fullShare} G0)
    ∗ ((V d (cV L) (jV L)).loc cc1_scratch0 ↦[(ixRowR ⟨4 * k.val + 3 + 4, c_row4_lt k 3⟩).set]{fullShare} G0)
    ∗ (v5Loc d ↦[(oblkR (wid (cL L) (jL L)) ⟨4 * k.val + 0, c_blk_lt k 0⟩).set]{fullShare} m (v5Loc d))
    ∗ (v5Loc d ↦[(oblkR (wid (cL L) (jL L)) ⟨4 * k.val + 1, c_blk_lt k 1⟩).set]{fullShare} m (v5Loc d))
    ∗ (v5Loc d ↦[(oblkR (wid (cL L) (jL L)) ⟨4 * k.val + 2, c_blk_lt k 2⟩).set]{fullShare} m (v5Loc d))
    ∗ (v5Loc d ↦[(oblkR (wid (cL L) (jL L)) ⟨4 * k.val + 3, c_blk_lt k 3⟩).set]{fullShare} m (v5Loc d)))

/-- After trip `k`: the next four gathers in flight (lists rows `4k+4 … 4k+7`), the write-out semaphores back at zero,
    the four spent rows at the fixed words, the four blocks at the gathered rows. -/
def b_post (O : CellTallies nD τ sig (HIx 1)) (W : Waits sig (HIx 1)) (FX : Buf (Elt F) ((V d (cV L) (jV L)).loc cc1_scratch0))
    (frw : Buf (Elt F) ((V d (cV L) (jV L)).loc cc1_scratch1))
    (hfx : ∀ (t : Fin 200) x, (View.read (Elt F) (b_rowM t).view FX x : BitVec 32).toNat < 256) (k : Fin k1_t1_loop.trips) : sProp 𝕄 :=
  iprop(Transfers.MayWaits (V d (cV L) (jV L)) (default : HIx 1) O
    ∗ (∃ W', ⌜∀ p ∈ W', p ∈ W ∨ p.2 = none ∨ p.2 = some (0 : Fin 1)⌝ ∗ owes (V d (cV L) (jV L)) O W')
    ∗ b_fl0 m d L FX frw hfx ⟨4 * k.val + 0 + 4, c_row4_lt k 0⟩ ∗ b_fl1 m d L FX frw hfx ⟨4 * k.val + 1 + 4, c_row4_lt k 1⟩
    ∗ b_fl2 m d L FX frw hfx ⟨4 * k.val + 2 + 4, c_row4_lt k 2⟩ ∗ b_fl3 m d L FX frw hfx ⟨4 * k.val + 3 + 4, c_row4_lt k 3⟩
    ∗ semVal (dcell d (cV L) (jV L) 8) 0 ∗ semVal (dcell d (cV L) (jV L) 9) 0 ∗ semVal (dcell d (cV L) (jV L) 10) 0 ∗ semVal (dcell d (cV L) (jV L) 11) 0
    ∗ ((V d (cV L) (jV L)).loc cc1_scratch0 ↦[(ixRowR ⟨4 * k.val + 0, c_blk_lt k 0⟩).set]{fullShare} FX)
    ∗ ((V d (cV L) (jV L)).loc cc1_scratch0 ↦[(ixRowR ⟨4 * k.val + 1, c_blk_lt k 1⟩).set]{fullShare} FX)
    ∗ ((V d (cV L) (jV L)).loc cc1_scratch0 ↦[(ixRowR ⟨4 * k.val + 2, c_blk_lt k 2⟩).set]{fullShare} FX)
    ∗ ((V d (cV L) (jV L)).loc cc1_scratch0 ↦[(ixRowR ⟨4 * k.val + 3, c_blk_lt k 3⟩).set]{fullShare} FX)
    ∗ (v5Loc d ↦[(oblkR (wid (cL L) (jL L)) ⟨4 * k.val + 0, c_blk_lt k 0⟩).set]{fullShare} O5 m d)
    ∗ (v5Loc d ↦[(oblkR (wid (cL L) (jL L)) ⟨4 * k.val + 1, c_blk_lt k 1⟩).set]{fullShare} O5 m d)
    ∗ (v5Loc d ↦[(oblkR (wid (cL L) (jL L)) ⟨4 * k.val + 2, c_blk_lt k 2⟩).set]{fullShare} O5 m d)
    ∗ (v5Loc d ↦[(oblkR (wid (cL L) (jL L)) ⟨4 * k.val + 3, c_blk_lt k 3⟩).set]{fullShare} O5 m d))

end Loop

end Cert.Kernel.Hand

end
-- ==== Proof.KernelW.FixRowLoop.lean ====
/-
  The row fix-up in the loop's spelling.

  Inside the gather loop, trip `k` rewrites for each of its four slots `r` the row `4 k + r + 4` of the index scratch;
  the program computes each store's offsets from the loop counter, and they are the literals `(4 k + r + 4, 16 c)`.
  So the row's closed form holds with the rectangles spelt by the computed offsets, and on the row — as the next
  gather's offset list addresses it — the rewritten scratch holds the loop invariant's fixed words.
-/
import proofs.«214982_g87402584473731_cont_9to1c4b_667_31_alg».proof.Proof.KernelW.FixRow
import proofs.«214982_g87402584473731_cont_9to1c4b_667_31_alg».proof.Proof.KernelW.Blocks
import proofs.«214982_g87402584473731_cont_9to1c4b_667_31_alg».proof.Proof.KernelW.TileLemmas

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The row's closed form with each store's rectangle spelt by any offsets that ARE the literals `(t, 16 c)`. -/
theorem a_fix_row_chain_offs (t : Nat) (ht : t < 200) (o0 o1 o2 o3 o4 o5 o6 o7 : Fin 2 → Nat)
    (ho0 : o0 = ![t, 0])
    (ho1 : o1 = ![t, 16])
    (ho2 : o2 = ![t, 32])
    (ho3 : o3 = ![t, 48])
    (ho4 : o4 = ![t, 64])
    (ho5 : o5 = ![t, 80])
    (ho6 : o6 = ![t, 96])
    (ho7 : o7 = ![t, 112])
    (hb0 : ∀ a, o0 a + S1x16.size a ≤ S200x128.size a)
    (hb1 : ∀ a, o1 a + S1x16.size a ≤ S200x128.size a)
    (hb2 : ∀ a, o2 a + S1x16.size a ≤ S200x128.size a)
    (hb3 : ∀ a, o3 a + S1x16.size a ≤ S200x128.size a)
    (hb4 : ∀ a, o4 a + S1x16.size a ≤ S200x128.size a)
    (hb5 : ∀ a, o5 a + S1x16.size a ≤ S200x128.size a)
    (hb6 : ∀ a, o6 a + S1x16.size a ≤ S200x128.size a)
    (hb7 : ∀ a, o7 a + S1x16.size a ≤ S200x128.size a)
    (g0 g1 g2 g3 g4 g5 g6 g7 g8 : S200x128.Idx → BitVec 32) (p0 p1 p2 p3 p4 p5 p6 p7 : IVec S1x16 32)
    (e1 : g1 = View.write (Elt F) ((ixV).access (Rect.unit (s := S200x128) o0 S1x16.size hb0)) g0 p0 Finset.univ)
    (e2 : g2 = View.write (Elt F) ((ixV).access (Rect.unit (s := S200x128) o1 S1x16.size hb1)) g1 p1 Finset.univ)
    (e3 : g3 = View.write (Elt F) ((ixV).access (Rect.unit (s := S200x128) o2 S1x16.size hb2)) g2 p2 Finset.univ)
    (e4 : g4 = View.write (Elt F) ((ixV).access (Rect.unit (s := S200x128) o3 S1x16.size hb3)) g3 p3 Finset.univ)
    (e5 : g5 = View.write (Elt F) ((ixV).access (Rect.unit (s := S200x128) o4 S1x16.size hb4)) g4 p4 Finset.univ)
    (e6 : g6 = View.write (Elt F) ((ixV).access (Rect.unit (s := S200x128) o5 S1x16.size hb5)) g5 p5 Finset.univ)
    (e7 : g7 = View.write (Elt F) ((ixV).access (Rect.unit (s := S200x128) o6 S1x16.size hb6)) g6 p6 Finset.univ)
    (e8 : g8 = View.write (Elt F) ((ixV).access (Rect.unit (s := S200x128) o7 S1x16.size hb7)) g7 p7 Finset.univ)
    (q0 : p0 = fun y => (View.readAt (Elt F) (ixV).view (Rect.unit (s := S200x128) o0 S1x16.size hb0).toLoadRect g0 y : BitVec 32) + laneOff 0 y)
    (q1 : p1 = fun y => (View.readAt (Elt F) (ixV).view (Rect.unit (s := S200x128) o1 S1x16.size hb1).toLoadRect g1 y : BitVec 32) + laneOff 1 y)
    (q2 : p2 = fun y => (View.readAt (Elt F) (ixV).view (Rect.unit (s := S200x128) o2 S1x16.size hb2).toLoadRect g2 y : BitVec 32) + laneOff 2 y)
    (q3 : p3 = fun y => (View.readAt (Elt F) (ixV).view (Rect.unit (s := S200x128) o3 S1x16.size hb3).toLoadRect g3 y : BitVec 32) + laneOff 3 y)
    (q4 : p4 = fun y => (View.readAt (Elt F) (ixV).view (Rect.unit (s := S200x128) o4 S1x16.size hb4).toLoadRect g4 y : BitVec 32) + laneOff 4 y)
    (q5 : p5 = fun y => (View.readAt (Elt F) (ixV).view (Rect.unit (s := S200x128) o5 S1x16.size hb5).toLoadRect g5 y : BitVec 32) + laneOff 5 y)
    (q6 : p6 = fun y => (View.readAt (Elt F) (ixV).view (Rect.unit (s := S200x128) o6 S1x16.size hb6).toLoadRect g6 y : BitVec 32) + laneOff 6 y)
    (q7 : p7 = fun y => (View.readAt (Elt F) (ixV).view (Rect.unit (s := S200x128) o7 S1x16.size hb7).toLoadRect g7 y : BitVec 32) + laneOff 7 y) :
    ∀ i : S200x128.Idx, g8 i = if (i 0).val = t then g0 i + BitVec.ofNat 32 (4 * rho ⟨(i 1).val, (i 1).isLt⟩) else g0 i := by
  subst ho0 ho1 ho2 ho3 ho4 ho5 ho6 ho7
  exact fix_row_chain (F := F) t ht hb0 hb1 hb2 hb3 hb4 hb5 hb6 hb7 g0 g1 g2 g3 g4 g5 g6 g7 g8 p0 p1 p2 p3 p4 p5 p6 p7
    e1 e2 e3 e4 e5 e6 e7 e8 q0 q1 q2 q3 q4 q5 q6 q7

/-- THE ROW FIX-UP OF TRIP `k`, SLOT `r`, in the program's spelling: after its eight stores, row `4 k + r + 4` holds
    its words plus `4 ρ` of the column, every other word as before. -/
theorem fix_row_chain_off (k : Fin k1_t1_loop.trips) (r : Fin 4)
    (g0 g1 g2 g3 g4 g5 g6 g7 g8 : S200x128.Idx → BitVec 32) (p0 p1 p2 p3 p4 p5 p6 p7 : IVec S1x16 32)
    (e1 : g1 = View.write (Elt F) ((ixV).access (Rect.unit (s := S200x128) (k1_off4 k (BitVec.ofNat 32 r.val)) S1x16.size (k1_off4_inb k r))) g0 p0 Finset.univ)
    (e2 : g2 = View.write (Elt F) ((ixV).access (Rect.unit (s := S200x128) (k1_off5 k (BitVec.ofNat 32 r.val)) S1x16.size (k1_off5_inb k r))) g1 p1 Finset.univ)
    (e3 : g3 = View.write (Elt F) ((ixV).access (Rect.unit (s := S200x128) (k1_off6 k (BitVec.ofNat 32 r.val)) S1x16.size (k1_off6_inb k r))) g2 p2 Finset.univ)
    (e4 : g4 = View.write (Elt F) ((ixV).access (Rect.unit (s := S200x128) (k1_off7 k (BitVec.ofNat 32 r.val)) S1x16.size (k1_off7_inb k r))) g3 p3 Finset.univ)
    (e5 : g5 = View.write (Elt F) ((ixV).access (Rect.unit (s := S200x128) (k1_off8 k (BitVec.ofNat 32 r.val)) S1x16.size (k1_off8_inb k r))) g4 p4 Finset.univ)
    (e6 : g6 = View.write (Elt F) ((ixV).access (Rect.unit (s := S200x128) (k1_off9 k (BitVec.ofNat 32 r.val)) S1x16.size (k1_off9_inb k r))) g5 p5 Finset.univ)
    (e7 : g7 = View.write (Elt F) ((ixV).access (Rect.unit (s := S200x128) (k1_off10 k (BitVec.ofNat 32 r.val)) S1x16.size (k1_off10_inb k r))) g6 p6 Finset.univ)
    (e8 : g8 = View.write (Elt F) ((ixV).access (Rect.unit (s := S200x128) (k1_off11 k (BitVec.ofNat 32 r.val)) S1x16.size (k1_off11_inb k r))) g7 p7 Finset.univ)
    (q0 : p0 = fun y => (View.readAt (Elt F) (ixV).view (Rect.unit (s := S200x128) (k1_off4 k (BitVec.ofNat 32 r.val)) S1x16.size (k1_off4_inb k r)).toLoadRect g0 y : BitVec 32) + laneOff 0 y)
    (q1 : p1 = fun y => (View.readAt (Elt F) (ixV).view (Rect.unit (s := S200x128) (k1_off5 k (BitVec.ofNat 32 r.val)) S1x16.size (k1_off5_inb k r)).toLoadRect g1 y : BitVec 32) + laneOff 1 y)
    (q2 : p2 = fun y => (View.readAt (Elt F) (ixV).view (Rect.unit (s := S200x128) (k1_off6 k (BitVec.ofNat 32 r.val)) S1x16.size (k1_off6_inb k r)).toLoadRect g2 y : BitVec 32) + laneOff 2 y)
    (q3 : p3 = fun y => (View.readAt (Elt F) (ixV).view (Rect.unit (s := S200x128) (k1_off7 k (BitVec.ofNat 32 r.val)) S1x16.size (k1_off7_inb k r)).toLoadRect g3 y : BitVec 32) + laneOff 3 y)
    (q4 : p4 = fun y => (View.readAt (Elt F) (ixV).view (Rect.unit (s := S200x128) (k1_off8 k (BitVec.ofNat 32 r.val)) S1x16.size (k1_off8_inb k r)).toLoadRect g4 y : BitVec 32) + laneOff 4 y)
    (q5 : p5 = fun y => (View.readAt (Elt F) (ixV).view (Rect.unit (s := S200x128) (k1_off9 k (BitVec.ofNat 32 r.val)) S1x16.size (k1_off9_inb k r)).toLoadRect g5 y : BitVec 32) + laneOff 5 y)
    (q6 : p6 = fun y => (View.readAt (Elt F) (ixV).view (Rect.unit (s := S200x128) (k1_off10 k (BitVec.ofNat 32 r.val)) S1x16.size (k1_off10_inb k r)).toLoadRect g6 y : BitVec 32) + laneOff 6 y)
    (q7 : p7 = fun y => (View.readAt (Elt F) (ixV).view (Rect.unit (s := S200x128) (k1_off11 k (BitVec.ofNat 32 r.val)) S1x16.size (k1_off11_inb k r)).toLoadRect g7 y : BitVec 32) + laneOff 7 y) :
    ∀ i : S200x128.Idx, g8 i = if (i 0).val = 4 * k.val + r.val + 4 then g0 i + BitVec.ofNat 32 (4 * rho ⟨(i 1).val, (i 1).isLt⟩) else g0 i :=
  a_fix_row_chain_offs (F := F) (4 * k.val + r.val + 4) (c_row4_lt k r)
    (k1_off4 k (BitVec.ofNat 32 r.val)) (k1_off5 k (BitVec.ofNat 32 r.val)) (k1_off6 k (BitVec.ofNat 32 r.val)) (k1_off7 k (BitVec.ofNat 32 r.val)) (k1_off8 k (BitVec.ofNat 32 r.val)) (k1_off9 k (BitVec.ofNat 32 r.val)) (k1_off10 k (BitVec.ofNat 32 r.val)) (k1_off11 k (BitVec.ofNat 32 r.val))
    (k1_off4_eq k r) (k1_off5_eq k r) (k1_off6_eq k r) (k1_off7_eq k r) (k1_off8_eq k r) (k1_off9_eq k r) (k1_off10_eq k r) (k1_off11_eq k r)
    (k1_off4_inb k r) (k1_off5_inb k r) (k1_off6_inb k r) (k1_off7_inb k r) (k1_off8_inb k r) (k1_off9_inb k r) (k1_off10_inb k r) (k1_off11_inb k r)
    g0 g1 g2 g3 g4 g5 g6 g7 g8 p0 p1 p2 p3 p4 p5 p6 p7 e1 e2 e3 e4 e5 e6 e7 e8 q0 q1 q2 q3 q4 q5 q6 q7

/-- On the rewritten row, as the slot's next gather addresses it, the scratch holds the fixed words. -/
theorem fixed_on_row_off (k : Fin k1_t1_loop.trips) (r : Fin 4) (G0 FX g8 : S200x128.Idx → BitVec 32)
    (hFG : ∀ i : S200x128.Idx, FX i = BitVec.add (G0 i) (BitVec.ofNat 32 (4 * rho ⟨(i 1).val, (i 1).isLt⟩)))
    (hc : ∀ i : S200x128.Idx, g8 i = if (i 0).val = 4 * k.val + r.val + 4 then G0 i + BitVec.ofNat 32 (4 * rho ⟨(i 1).val, (i 1).isLt⟩) else G0 i) :
    ∀ i ∈ (((ixV).slice (Rect.unit (s := S200x128) (k1_off14 k (BitVec.ofNat 32 r.val)) S1x128.size (k1_off14_inb k r)) (fun _ => rfl)).squeeze S128
        squeezes_S1x128_S128).view.set, g8 i = FX i := by
  intro (i : S200x128.Idx) hi
  rw [set_ixRow] at hi
  have hi' : i ∈ (ixRowR ⟨4 * k.val + r.val + 4, c_row4_lt k r⟩).set := (congrArg (fun R : Rect S200x128 => i ∈ R.set) (ixRow_off14 k r)).mp hi
  rw [mem_ixRow] at hi'
  rw [hc i, if_pos hi', hFG i]
  rfl

/-- The two together: from the eight stores of trip `k`, slot `r`, over the landed words `G0`, to the fixed words on the row. -/
theorem fix_row_loop (k : Fin k1_t1_loop.trips) (r : Fin 4) (G0 FX : S200x128.Idx → BitVec 32)
    (hFG : ∀ i : S200x128.Idx, FX i = BitVec.add (G0 i) (BitVec.ofNat 32 (4 * rho ⟨(i 1).val, (i 1).isLt⟩)))
    (g1 g2 g3 g4 g5 g6 g7 g8 : S200x128.Idx → BitVec 32) (p0 p1 p2 p3 p4 p5 p6 p7 : IVec S1x16 32)
    (e1 : g1 = View.write (Elt F) ((ixV).access (Rect.unit (s := S200x128) (k1_off4 k (BitVec.ofNat 32 r.val)) S1x16.size (k1_off4_inb k r))) G0 p0 Finset.univ)
    (e2 : g2 = View.write (Elt F) ((ixV).access (Rect.unit (s := S200x128) (k1_off5 k (BitVec.ofNat 32 r.val)) S1x16.size (k1_off5_inb k r))) g1 p1 Finset.univ)
    (e3 : g3 = View.write (Elt F) ((ixV).access (Rect.unit (s := S200x128) (k1_off6 k (BitVec.ofNat 32 r.val)) S1x16.size (k1_off6_inb k r))) g2 p2 Finset.univ)
    (e4 : g4 = View.write (Elt F) ((ixV).access (Rect.unit (s := S200x128) (k1_off7 k (BitVec.ofNat 32 r.val)) S1x16.size (k1_off7_inb k r))) g3 p3 Finset.univ)
    (e5 : g5 = View.write (Elt F) ((ixV).access (Rect.unit (s := S200x128) (k1_off8 k (BitVec.ofNat 32 r.val)) S1x16.size (k1_off8_inb k r))) g4 p4 Finset.univ)
    (e6 : g6 = View.write (Elt F) ((ixV).access (Rect.unit (s := S200x128) (k1_off9 k (BitVec.ofNat 32 r.val)) S1x16.size (k1_off9_inb k r))) g5 p5 Finset.univ)
    (e7 : g7 = View.write (Elt F) ((ixV).access (Rect.unit (s := S200x128) (k1_off10 k (BitVec.ofNat 32 r.val)) S1x16.size (k1_off10_inb k r))) g6 p6 Finset.univ)
    (e8 : g8 = View.write (Elt F) ((ixV).access (Rect.unit (s := S200x128) (k1_off11 k (BitVec.ofNat 32 r.val)) S1x16.size (k1_off11_inb k r))) g7 p7 Finset.univ)
    (q0 : p0 = fun y => (View.readAt (Elt F) (ixV).view (Rect.unit (s := S200x128) (k1_off4 k (BitVec.ofNat 32 r.val)) S1x16.size (k1_off4_inb k r)).toLoadRect G0 y : BitVec 32) + laneOff 0 y)
    (q1 : p1 = fun y => (View.readAt (Elt F) (ixV).view (Rect.unit (s := S200x128) (k1_off5 k (BitVec.ofNat 32 r.val)) S1x16.size (k1_off5_inb k r)).toLoadRect g1 y : BitVec 32) + laneOff 1 y)
    (q2 : p2 = fun y => (View.readAt (Elt F) (ixV).view (Rect.unit (s := S200x128) (k1_off6 k (BitVec.ofNat 32 r.val)) S1x16.size (k1_off6_inb k r)).toLoadRect g2 y : BitVec 32) + laneOff 2 y)
    (q3 : p3 = fun y => (View.readAt (Elt F) (ixV).view (Rect.unit (s := S200x128) (k1_off7 k (BitVec.ofNat 32 r.val)) S1x16.size (k1_off7_inb k r)).toLoadRect g3 y : BitVec 32) + laneOff 3 y)
    (q4 : p4 = fun y => (View.readAt (Elt F) (ixV).view (Rect.unit (s := S200x128) (k1_off8 k (BitVec.ofNat 32 r.val)) S1x16.size (k1_off8_inb k r)).toLoadRect g4 y : BitVec 32) + laneOff 4 y)
    (q5 : p5 = fun y => (View.readAt (Elt F) (ixV).view (Rect.unit (s := S200x128) (k1_off9 k (BitVec.ofNat 32 r.val)) S1x16.size (k1_off9_inb k r)).toLoadRect g5 y : BitVec 32) + laneOff 5 y)
    (q6 : p6 = fun y => (View.readAt (Elt F) (ixV).view (Rect.unit (s := S200x128) (k1_off10 k (BitVec.ofNat 32 r.val)) S1x16.size (k1_off10_inb k r)).toLoadRect g6 y : BitVec 32) + laneOff 6 y)
    (q7 : p7 = fun y => (View.readAt (Elt F) (ixV).view (Rect.unit (s := S200x128) (k1_off11 k (BitVec.ofNat 32 r.val)) S1x16.size (k1_off11_inb k r)).toLoadRect g7 y : BitVec 32) + laneOff 7 y) :
    ∀ i ∈ (((ixV).slice (Rect.unit (s := S200x128) (k1_off14 k (BitVec.ofNat 32 r.val)) S1x128.size (k1_off14_inb k r)) (fun _ => rfl)).squeeze S128
        squeezes_S1x128_S128).view.set, g8 i = FX i :=
  fixed_on_row_off k r G0 FX g8 hFG
    (fix_row_chain_off (F := F) k r G0 g1 g2 g3 g4 g5 g6 g7 g8 p0 p1 p2 p3 p4 p5 p6 p7 e1 e2 e3 e4 e5 e6 e7 e8 q0 q1 q2 q3 q4 q5 q6 q7)

end Cert.Kernel.Hand

end
-- ==== Proof.KernelW.Loop.lean ====
/-
  One trip of the gather loop of a vector subcore's task.

  For each of the four row buffers in turn the trip adds the lane offsets to the next row of indices for that buffer
  (eight chunks of sixteen words: load, add, store), waits for the buffer's gather (which was started a trip earlier, or
  before the loop), copies the buffer out to its block of the result slab and waits for the copy, and starts the buffer's
  next gather with the row just fixed as its offset list. The gathered rows are the rows of the 256-row table that the
  fixed index words name, which is what the result holds at that block; the row buffer is written whole by each gather,
  so what it held before drops out. The trip is first run on exactly the pieces it works on (four flights, four rows,
  four blocks, four semaphores); the invariant before the trip opens into those pieces and what the trip does not touch,
  and what the trip leaves closes with the untouched part into the invariant before the next trip.
-/
import proofs.«214982_g87402584473731_cont_9to1c4b_667_31_alg».proof.Proof.KernelW.TileLemmas
import proofs.«214982_g87402584473731_cont_9to1c4b_667_31_alg».proof.Proof.KernelW.TileLemmas2
import proofs.«214982_g87402584473731_cont_9to1c4b_667_31_alg».proof.Proof.KernelW.Blocks
import proofs.«214982_g87402584473731_cont_9to1c4b_667_31_alg».proof.Proof.KernelW.Chunks
import proofs.«214982_g87402584473731_cont_9to1c4b_667_31_alg».proof.Proof.KernelW.LoopInv
import proofs.«214982_g87402584473731_cont_9to1c4b_667_31_alg».proof.Proof.KernelW.Gathered
import proofs.«214982_g87402584473731_cont_9to1c4b_667_31_alg».proof.Proof.KernelW.LoopLemmas
import proofs.«214982_g87402584473731_cont_9to1c4b_667_31_alg».proof.Proof.KernelW.FixRowLoop

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Loop

variable (d : Dev nD) (L : grid1.Coords)

omit [FloatOps F] in
theorem b_row_val_eq {t : Nat} {s : Fin 200} (h : t = s.val) : b_row t = s :=
  Fin.ext (by show t % 200 = s.val; rw [h]; exact Nat.mod_eq_of_lt s.isLt)

/-- What a trip does not touch: the rows spent before it, the rows beyond the four it fixes, the blocks written before
    it, the blocks beyond the four it writes, and the rest of what the task holds. -/
def b_frame (G0 FX : Buf (Elt F) ((V d (cV L) (jV L)).loc cc1_scratch0)) (R : sProp 𝕄) (k : Fin k1_t1_loop.trips) : sProp 𝕄 :=
  iprop((bigSep (Finset.range (4 * k.val)) fun t => (V d (cV L) (jV L)).loc cc1_scratch0 ↦[(ixRowR (b_row t)).set]{fullShare} FX)
    ∗ (bigSep ((Finset.range 200).filter fun t => 4 * k.val + 4 + 4 ≤ t) fun t => (V d (cV L) (jV L)).loc cc1_scratch0 ↦[(ixRowR (b_row t)).set]{fullShare} G0)
    ∗ (v5Loc d ↦[odoneSet (wid (cL L) (jL L)) (4 * k.val)]{fullShare} O5 m d)
    ∗ (v5Loc d ↦[oslabSet (wid (cL L) (jL L)) \ odoneSet (wid (cL L) (jL L)) (4 * k.val + 4)]{fullShare} m (v5Loc d))
    ∗ R)

theorem b_inv_open (O : CellTallies nD τ sig (HIx 1)) (W : Waits sig (HIx 1)) (G0 FX : Buf (Elt F) ((V d (cV L) (jV L)).loc cc1_scratch0))
    (frw : Buf (Elt F) ((V d (cV L) (jV L)).loc cc1_scratch1))
    (hfx : ∀ (t : Fin 200) x, (View.read (Elt F) (b_rowM t).view FX x : BitVec 32).toNat < 256) (R : sProp 𝕄)
    (k : Fin k1_t1_loop.trips) (c : BitVec 32) :
    b_inv m d L O W G0 FX frw hfx R k.val c ⊢ iprop(b_pre m d L O W G0 FX frw hfx k ∗ b_frame m d L G0 FX R k) := by
  have hk := c_trips_lt k
  unfold b_inv b_pre b_frame
  rw [b_take4 _ (4 * k.val + 4) (by omega)]
  beta_reduce
  rw [b_row_val_eq (t := 4 * k.val + 0) (s := ⟨4 * k.val + 0, c_blk_lt k 0⟩) rfl,
    b_row_val_eq (t := 4 * k.val + 1) (s := ⟨4 * k.val + 1, c_blk_lt k 1⟩) rfl,
    b_row_val_eq (t := 4 * k.val + 2) (s := ⟨4 * k.val + 2, c_blk_lt k 2⟩) rfl,
    b_row_val_eq (t := 4 * k.val + 3) (s := ⟨4 * k.val + 3, c_blk_lt k 3⟩) rfl,
    b_row_val_eq (t := 4 * k.val + 4) (s := ⟨4 * k.val + 0 + 4, c_row4_lt k 0⟩) (by show _ = 4 * k.val + 0 + 4; omega),
    b_row_val_eq (t := 4 * k.val + 4 + 1) (s := ⟨4 * k.val + 1 + 4, c_row4_lt k 1⟩) (by show _ = 4 * k.val + 1 + 4; omega),
    b_row_val_eq (t := 4 * k.val + 4 + 2) (s := ⟨4 * k.val + 2 + 4, c_row4_lt k 2⟩) (by show _ = 4 * k.val + 2 + 4; omega),
    b_row_val_eq (t := 4 * k.val + 4 + 3) (s := ⟨4 * k.val + 3 + 4, c_row4_lt k 3⟩) (by show _ = 4 * k.val + 3 + 4; omega)]
  iintro ⟨#Hmw, HO, Hf0, Hf1, Hf2, Hf3, Hs8, Hs9, Hs10, Hs11, Hjunk, ⟨Hn0, Hn1, Hn2, Hn3, Hfut⟩, Hdone, Hrest, HR⟩
  ihave Hr := (b_rest4 (F := F) d L k fullShare (m (v5Loc d))).1 $$ Hrest
  icases Hr with ⟨Hb0, Hb1, Hb2, Hb3, Hrest⟩
  isplitl [HO Hf0 Hf1 Hf2 Hf3 Hs8 Hs9 Hs10 Hs11 Hn0 Hn1 Hn2 Hn3 Hb0 Hb1 Hb2 Hb3]
  · isplitr; · iexact Hmw
    isplitl [HO]; · iexact HO
    isplitl [Hf0]; · iexact Hf0
    isplitl [Hf1]; · iexact Hf1
    isplitl [Hf2]; · iexact Hf2
    isplitl [Hf3]; · iexact Hf3
    isplitl [Hs8]; · iexact Hs8
    isplitl [Hs9]; · iexact Hs9
    isplitl [Hs10]; · iexact Hs10
    isplitl [Hs11]; · iexact Hs11
    isplitl [Hn0]; · iexact Hn0
    isplitl [Hn1]; · iexact Hn1
    isplitl [Hn2]; · iexact Hn2
    isplitl [Hn3]; · iexact Hn3
    isplitl [Hb0]; · iexact Hb0
    isplitl [Hb1]; · iexact Hb1
    isplitl [Hb2]; · iexact Hb2
    iexact Hb3
  · isplitl [Hjunk]; · iexact Hjunk
    isplitl [Hfut]; · iexact Hfut
    isplitl [Hdone]; · iexact Hdone
    isplitl [Hrest]; · iexact Hrest
    iexact HR

theorem b_inv_close (O : CellTallies nD τ sig (HIx 1)) (W : Waits sig (HIx 1)) (G0 FX : Buf (Elt F) ((V d (cV L) (jV L)).loc cc1_scratch0))
    (frw : Buf (Elt F) ((V d (cV L) (jV L)).loc cc1_scratch1))
    (hfx : ∀ (t : Fin 200) x, (View.read (Elt F) (b_rowM t).view FX x : BitVec 32).toNat < 256) (R : sProp 𝕄)
    (k : Fin k1_t1_loop.trips) (c : BitVec 32) :
    iprop(b_post m d L O W FX frw hfx k ∗ b_frame m d L G0 FX R k) ⊢ b_inv m d L O W G0 FX frw hfx R (k.val + 1) c := by
  have hk := c_trips_lt k
  unfold b_inv b_post b_frame
  rw [show 4 * (k.val + 1) = 4 * k.val + 4 from by omega, b_put4 _ (4 * k.val)]
  beta_reduce
  rw [b_row_val_eq (t := 4 * k.val + 4 + 0) (s := ⟨4 * k.val + 0 + 4, c_row4_lt k 0⟩) (by show _ = 4 * k.val + 0 + 4; omega),
    b_row_val_eq (t := 4 * k.val + 4 + 1) (s := ⟨4 * k.val + 1 + 4, c_row4_lt k 1⟩) (by show _ = 4 * k.val + 1 + 4; omega),
    b_row_val_eq (t := 4 * k.val + 4 + 2) (s := ⟨4 * k.val + 2 + 4, c_row4_lt k 2⟩) (by show _ = 4 * k.val + 2 + 4; omega),
    b_row_val_eq (t := 4 * k.val + 4 + 3) (s := ⟨4 * k.val + 3 + 4, c_row4_lt k 3⟩) (by show _ = 4 * k.val + 3 + 4; omega),
    b_row_val_eq (t := 4 * k.val + 3) (s := ⟨4 * k.val + 3, c_blk_lt k 3⟩) rfl,
    b_row_val_eq (t := 4 * k.val + 2) (s := ⟨4 * k.val + 2, c_blk_lt k 2⟩) rfl,
    b_row_val_eq (t := 4 * k.val + 1) (s := ⟨4 * k.val + 1, c_blk_lt k 1⟩) rfl,
    b_row_val_eq (t := 4 * k.val) (s := ⟨4 * k.val + 0, c_blk_lt k 0⟩) rfl]
  iintro ⟨⟨#Hmw, HO, Hf0, Hf1, Hf2, Hf3, Hs8, Hs9, Hs10, Hs11, Hr0, Hr1, Hr2, Hr3, Hb0, Hb1, Hb2, Hb3⟩, Hjunk, Hfut, Hdone, Hrest, HR⟩
  isplitr; · iexact Hmw
  isplitl [HO]; · iexact HO
  isplitl [Hf0]; · iexact Hf0
  isplitl [Hf1]; · iexact Hf1
  isplitl [Hf2]; · iexact Hf2
  isplitl [Hf3]; · iexact Hf3
  isplitl [Hs8]; · iexact Hs8
  isplitl [Hs9]; · iexact Hs9
  isplitl [Hs10]; · iexact Hs10
  isplitl [Hs11]; · iexact Hs11
  isplitl [Hr0 Hr1 Hr2 Hr3 Hjunk]
  · isplitl [Hr3]; · iexact Hr3
    isplitl [Hr2]; · iexact Hr2
    isplitl [Hr1]; · iexact Hr1
    isplitl [Hr0]; · iexact Hr0
    iexact Hjunk
  isplitl [Hfut]; · iexact Hfut
  isplitl [Hdone Hb0 Hb1 Hb2 Hb3]
  · iapply (b_done4 (F := F) d L k fullShare (O5 m d))
    isplitl [Hdone]; · iexact Hdone
    isplitl [Hb0]; · iexact Hb0
    isplitl [Hb1]; · iexact Hb1
    isplitl [Hb2]; · iexact Hb2
    iexact Hb3
  isplitl [Hrest]; · iexact Hrest
  iexact HR

set_option maxHeartbeats 4000000 in
/-- One trip of the gather loop on the pieces it works on. -/
theorem b_trip_core (O : CellTallies nD τ sig (HIx 1)) (W : Waits sig (HIx 1)) (G0 FX : Buf (Elt F) ((V d (cV L) (jV L)).loc cc1_scratch0))
    (frw : Buf (Elt F) ((V d (cV L) (jV L)).loc cc1_scratch1))
    (hfx : ∀ (t : Fin 200) x, (View.read (Elt F) (b_rowM t).view FX x : BitVec 32).toNat < 256)
    (hpay : ∀ t : Fin 200, b_pay (m := m) d L FX hfx t = fun x : S128x128.Idx =>
      O5 m d (ix2 (⟨25600 * (wid (cL L) (jL L)).val + 128 * t.val + (x 0).val, a_row_lt (wid (cL L) (jL L)) t ⟨(x 0).val, (x 0).isLt⟩⟩ : Fin 819200) (⟨(x 1).val, (x 1).isLt⟩ : Fin 128)))
    (hFG : ∀ i, FX i = BitVec.add (G0 i) (BitVec.ofNat 32 (4 * rho ⟨(i 1).val, (i 1).isLt⟩)))
    (k : Fin k1_t1_loop.trips) (v2 : BitVec 32) (v11 v412 : IVec S16 32) (hv11 : v11 = c_iota) (arg12 : BitVec 32) :
    b_pre m d L O W G0 FX frw hfx k
      ⊢ wp frame (wpE (defs₀ (F := F)) 𝒱₀ (V d (cV L) (jV L)) none) Set.univ
          (k1_t1_body L iV (Memref.isWhole_whole _) tV (Memref.isWhole_whole _) oV (Memref.isWhole_whole _)
            ixV (Memref.isWhole_whole _) rwV (Memref.isWhole_whole _) shV (Memref.isWhole_whole _)
            cc1_scratch3 cc1_scratch4 cc1_scratch5 cc1_scoped0 cc1_scoped1 v2 v11 v412 k arg12)
          fun _ => b_post m d L O W FX frw hfx k := by
  unfold k1_t1_body
  simp only [k1_part1_eq_skeleton]; unfold k1_part1_skel
  unfold b_pre b_fl0 b_fl1 b_fl2 b_fl3
  iintro ⟨#Hmw, ⟨%W', %hW', HO⟩, Hf0, Hf1, Hf2, Hf3, Hs8, Hs9, Hs10, Hs11, Hn0, Hn1, Hn2, Hn3, Hb0, Hb1, Hb2, Hb3⟩
  ihave Hn0 := (Entails.of_eq (b_pts_rowN0 (F := F) d L k fullShare G0).symm) $$ Hn0
  ihave Hn1 := (Entails.of_eq (b_pts_rowN1 (F := F) d L k fullShare G0).symm) $$ Hn1
  ihave Hn2 := (Entails.of_eq (b_pts_rowN2 (F := F) d L k fullShare G0).symm) $$ Hn2
  ihave Hn3 := (Entails.of_eq (b_pts_rowN3 (F := F) d L k fullShare G0).symm) $$ Hn3
  ihave Hb0 := (Entails.of_eq (b_pts_oblk0 (F := F) d L k fullShare (m (v5Loc d))).symm) $$ Hb0
  ihave Hb1 := (Entails.of_eq (b_pts_oblk1 (F := F) d L k fullShare (m (v5Loc d))).symm) $$ Hb1
  ihave Hb2 := (Entails.of_eq (b_pts_oblk2 (F := F) d L k fullShare (m (v5Loc d))).symm) $$ Hb2
  ihave Hb3 := (Entails.of_eq (b_pts_oblk3 (F := F) d L k fullShare (m (v5Loc d))).symm) $$ Hb3
  have hc0_4 : ((ixV).access (Rect.unit (s := S200x128) (k1_off4 k 0#32) S1x16.size (k1_off4_inb k 0))).set ⊆ (b_rowN0 k).view.set :=
    b_chunk_sub (4 * k.val + 0 + 4) 0 (k1_off4_eq k 0) (k1_off14_eq k 0) (by decide) _ _
  have hc0_5 : ((ixV).access (Rect.unit (s := S200x128) (k1_off5 k 0#32) S1x16.size (k1_off5_inb k 0))).set ⊆ (b_rowN0 k).view.set :=
    b_chunk_sub (4 * k.val + 0 + 4) 16 (k1_off5_eq k 0) (k1_off14_eq k 0) (by decide) _ _
  have hc0_6 : ((ixV).access (Rect.unit (s := S200x128) (k1_off6 k 0#32) S1x16.size (k1_off6_inb k 0))).set ⊆ (b_rowN0 k).view.set :=
    b_chunk_sub (4 * k.val + 0 + 4) 32 (k1_off6_eq k 0) (k1_off14_eq k 0) (by decide) _ _
  have hc0_7 : ((ixV).access (Rect.unit (s := S200x128) (k1_off7 k 0#32) S1x16.size (k1_off7_inb k 0))).set ⊆ (b_rowN0 k).view.set :=
    b_chunk_sub (4 * k.val + 0 + 4) 48 (k1_off7_eq k 0) (k1_off14_eq k 0) (by decide) _ _
  have hc0_8 : ((ixV).access (Rect.unit (s := S200x128) (k1_off8 k 0#32) S1x16.size (k1_off8_inb k 0))).set ⊆ (b_rowN0 k).view.set :=
    b_chunk_sub (4 * k.val + 0 + 4) 64 (k1_off8_eq k 0) (k1_off14_eq k 0) (by decide) _ _
  have hc0_9 : ((ixV).access (Rect.unit (s := S200x128) (k1_off9 k 0#32) S1x16.size (k1_off9_inb k 0))).set ⊆ (b_rowN0 k).view.set :=
    b_chunk_sub (4 * k.val + 0 + 4) 80 (k1_off9_eq k 0) (k1_off14_eq k 0) (by decide) _ _
  have hc0_10 : ((ixV).access (Rect.unit (s := S200x128) (k1_off10 k 0#32) S1x16.size (k1_off10_inb k 0))).set ⊆ (b_rowN0 k).view.set :=
    b_chunk_sub (4 * k.val + 0 + 4) 96 (k1_off10_eq k 0) (k1_off14_eq k 0) (by decide) _ _
  have hc0_11 : ((ixV).access (Rect.unit (s := S200x128) (k1_off11 k 0#32) S1x16.size (k1_off11_inb k 0))).set ⊆ (b_rowN0 k).view.set :=
    b_chunk_sub (4 * k.val + 0 + 4) 112 (k1_off11_eq k 0) (k1_off14_eq k 0) (by decide) _ _
  have hc1_4 : ((ixV).access (Rect.unit (s := S200x128) (k1_off4 k 1#32) S1x16.size (k1_off4_inb k 1))).set ⊆ (b_rowN1 k).view.set :=
    b_chunk_sub (4 * k.val + 1 + 4) 0 (k1_off4_eq k 1) (k1_off14_eq k 1) (by decide) _ _
  have hc1_5 : ((ixV).access (Rect.unit (s := S200x128) (k1_off5 k 1#32) S1x16.size (k1_off5_inb k 1))).set ⊆ (b_rowN1 k).view.set :=
    b_chunk_sub (4 * k.val + 1 + 4) 16 (k1_off5_eq k 1) (k1_off14_eq k 1) (by decide) _ _
  have hc1_6 : ((ixV).access (Rect.unit (s := S200x128) (k1_off6 k 1#32) S1x16.size (k1_off6_inb k 1))).set ⊆ (b_rowN1 k).view.set :=
    b_chunk_sub (4 * k.val + 1 + 4) 32 (k1_off6_eq k 1) (k1_off14_eq k 1) (by decide) _ _
  have hc1_7 : ((ixV).access (Rect.unit (s := S200x128) (k1_off7 k 1#32) S1x16.size (k1_off7_inb k 1))).set ⊆ (b_rowN1 k).view.set :=
    b_chunk_sub (4 * k.val + 1 + 4) 48 (k1_off7_eq k 1) (k1_off14_eq k 1) (by decide) _ _
  have hc1_8 : ((ixV).access (Rect.unit (s := S200x128) (k1_off8 k 1#32) S1x16.size (k1_off8_inb k 1))).set ⊆ (b_rowN1 k).view.set :=
    b_chunk_sub (4 * k.val + 1 + 4) 64 (k1_off8_eq k 1) (k1_off14_eq k 1) (by decide) _ _
  have hc1_9 : ((ixV).access (Rect.unit (s := S200x128) (k1_off9 k 1#32) S1x16.size (k1_off9_inb k 1))).set ⊆ (b_rowN1 k).view.set :=
    b_chunk_sub (4 * k.val + 1 + 4) 80 (k1_off9_eq k 1) (k1_off14_eq k 1) (by decide) _ _
  have hc1_10 : ((ixV).access (Rect.unit (s := S200x128) (k1_off10 k 1#32) S1x16.size (k1_off10_inb k 1))).set ⊆ (b_rowN1 k).view.set :=
    b_chunk_sub (4 * k.val + 1 + 4) 96 (k1_off10_eq k 1) (k1_off14_eq k 1) (by decide) _ _
  have hc1_11 : ((ixV).access (Rect.unit (s := S200x128) (k1_off11 k 1#32) S1x16.size (k1_off11_inb k 1))).set ⊆ (b_rowN1 k).view.set :=
    b_chunk_sub (4 * k.val + 1 + 4) 112 (k1_off11_eq k 1) (k1_off14_eq k 1) (by decide) _ _
  have hc2_4 : ((ixV).access (Rect.unit (s := S200x128) (k1_off4 k 2#32) S1x16.size (k1_off4_inb k 2))).set ⊆ (b_rowN2 k).view.set :=
    b_chunk_sub (4 * k.val + 2 + 4) 0 (k1_off4_eq k 2) (k1_off14_eq k 2) (by decide) _ _
  have hc2_5 : ((ixV).access (Rect.unit (s := S200x128) (k1_off5 k 2#32) S1x16.size (k1_off5_inb k 2))).set ⊆ (b_rowN2 k).view.set :=
    b_chunk_sub (4 * k.val + 2 + 4) 16 (k1_off5_eq k 2) (k1_off14_eq k 2) (by decide) _ _
  have hc2_6 : ((ixV).access (Rect.unit (s := S200x128) (k1_off6 k 2#32) S1x16.size (k1_off6_inb k 2))).set ⊆ (b_rowN2 k).view.set :=
    b_chunk_sub (4 * k.val + 2 + 4) 32 (k1_off6_eq k 2) (k1_off14_eq k 2) (by decide) _ _
  have hc2_7 : ((ixV).access (Rect.unit (s := S200x128) (k1_off7 k 2#32) S1x16.size (k1_off7_inb k 2))).set ⊆ (b_rowN2 k).view.set :=
    b_chunk_sub (4 * k.val + 2 + 4) 48 (k1_off7_eq k 2) (k1_off14_eq k 2) (by decide) _ _
  have hc2_8 : ((ixV).access (Rect.unit (s := S200x128) (k1_off8 k 2#32) S1x16.size (k1_off8_inb k 2))).set ⊆ (b_rowN2 k).view.set :=
    b_chunk_sub (4 * k.val + 2 + 4) 64 (k1_off8_eq k 2) (k1_off14_eq k 2) (by decide) _ _
  have hc2_9 : ((ixV).access (Rect.unit (s := S200x128) (k1_off9 k 2#32) S1x16.size (k1_off9_inb k 2))).set ⊆ (b_rowN2 k).view.set :=
    b_chunk_sub (4 * k.val + 2 + 4) 80 (k1_off9_eq k 2) (k1_off14_eq k 2) (by decide) _ _
  have hc2_10 : ((ixV).access (Rect.unit (s := S200x128) (k1_off10 k 2#32) S1x16.size (k1_off10_inb k 2))).set ⊆ (b_rowN2 k).view.set :=
    b_chunk_sub (4 * k.val + 2 + 4) 96 (k1_off10_eq k 2) (k1_off14_eq k 2) (by decide) _ _
  have hc2_11 : ((ixV).access (Rect.unit (s := S200x128) (k1_off11 k 2#32) S1x16.size (k1_off11_inb k 2))).set ⊆ (b_rowN2 k).view.set :=
    b_chunk_sub (4 * k.val + 2 + 4) 112 (k1_off11_eq k 2) (k1_off14_eq k 2) (by decide) _ _
  have hc3_4 : ((ixV).access (Rect.unit (s := S200x128) (k1_off4 k 3#32) S1x16.size (k1_off4_inb k 3))).set ⊆ (b_rowN3 k).view.set :=
    b_chunk_sub (4 * k.val + 3 + 4) 0 (k1_off4_eq k 3) (k1_off14_eq k 3) (by decide) _ _
  have hc3_5 : ((ixV).access (Rect.unit (s := S200x128) (k1_off5 k 3#32) S1x16.size (k1_off5_inb k 3))).set ⊆ (b_rowN3 k).view.set :=
    b_chunk_sub (4 * k.val + 3 + 4) 16 (k1_off5_eq k 3) (k1_off14_eq k 3) (by decide) _ _
  have hc3_6 : ((ixV).access (Rect.unit (s := S200x128) (k1_off6 k 3#32) S1x16.size (k1_off6_inb k 3))).set ⊆ (b_rowN3 k).view.set :=
    b_chunk_sub (4 * k.val + 3 + 4) 32 (k1_off6_eq k 3) (k1_off14_eq k 3) (by decide) _ _
  have hc3_7 : ((ixV).access (Rect.unit (s := S200x128) (k1_off7 k 3#32) S1x16.size (k1_off7_inb k 3))).set ⊆ (b_rowN3 k).view.set :=
    b_chunk_sub (4 * k.val + 3 + 4) 48 (k1_off7_eq k 3) (k1_off14_eq k 3) (by decide) _ _
  have hc3_8 : ((ixV).access (Rect.unit (s := S200x128) (k1_off8 k 3#32) S1x16.size (k1_off8_inb k 3))).set ⊆ (b_rowN3 k).view.set :=
    b_chunk_sub (4 * k.val + 3 + 4) 64 (k1_off8_eq k 3) (k1_off14_eq k 3) (by decide) _ _
  have hc3_9 : ((ixV).access (Rect.unit (s := S200x128) (k1_off9 k 3#32) S1x16.size (k1_off9_inb k 3))).set ⊆ (b_rowN3 k).view.set :=
    b_chunk_sub (4 * k.val + 3 + 4) 80 (k1_off9_eq k 3) (k1_off14_eq k 3) (by decide) _ _
  have hc3_10 : ((ixV).access (Rect.unit (s := S200x128) (k1_off10 k 3#32) S1x16.size (k1_off10_inb k 3))).set ⊆ (b_rowN3 k).view.set :=
    b_chunk_sub (4 * k.val + 3 + 4) 96 (k1_off10_eq k 3) (k1_off14_eq k 3) (by decide) _ _
  have hc3_11 : ((ixV).access (Rect.unit (s := S200x128) (k1_off11 k 3#32) S1x16.size (k1_off11_inb k 3))).set ⊆ (b_rowN3 k).view.set :=
    b_chunk_sub (4 * k.val + 3 + 4) 112 (k1_off11_eq k 3) (k1_off14_eq k 3) (by decide) _ _

  -- slot 0: the row fixed, the gather waited
  sl_exec
  icases Hf0_dst with ⟨Hrw0, Hrd0⟩
  -- the row buffer copied out, the copy waited
  sl_exec
  -- the row just fixed holds the fixed words
  have hfix0 : ∀ i ∈ (b_rowN0 k).view.set, (b_trip_core.sl.Hn0_w8 d L G0 k v11) i = FX i := by
    sl_unfold_run_names
    subst hv11
    exact fix_row_loop (F := F) k 0 G0 FX hFG _ _ _ _ _ _ _ _ _ _ _ _ _ _ _ _ rfl rfl rfl rfl rfl rfl rfl rfl
      (c_store_k1_pay1 _) (c_store_k1_pay2 _) (c_store_k1_pay3 _) (c_store_k1_pay4 _) (c_store_k1_pay5 _) (c_store_k1_pay6 _) (c_store_k1_pay8 _) (c_store_k1_pay9 _)
  ihave Hn0 := (show ((b_rowN0 k).view.loc (V d (cV L) (jV L)) ↦[(b_rowN0 k).view.set]{fullShare} _ : sProp 𝕄)
      ⊢ ((b_rowN0 k).view.loc (V d (cV L) (jV L)) ↦[(b_rowN0 k).view.set]{fullShare} FX) from Entails.of_eq (pointsTo_congr hfix0)) $$ Hn0
  -- the next gather, by that row
  have hin0 : ∀ x, (View.read (Elt F) (b_rowN0 k).view FX x : BitVec 32).toNat < 256 :=
    b_hin_off d L FX hfx ⟨4 * k.val + 0 + 4, c_row4_lt k 0⟩ _ _ (k1_off14_eq k 0)

  -- slot 1: the row fixed, the gather waited
  sl_exec
  icases Hf1_dst with ⟨Hrw1, Hrd1⟩
  -- the row buffer copied out, the copy waited
  sl_exec
  -- the row just fixed holds the fixed words
  have hfix1 : ∀ i ∈ (b_rowN1 k).view.set, (b_trip_core.sl.Hn1_w8 d L G0 k v11) i = FX i := by
    sl_unfold_run_names
    subst hv11
    exact fix_row_loop (F := F) k 1 G0 FX hFG _ _ _ _ _ _ _ _ _ _ _ _ _ _ _ _ rfl rfl rfl rfl rfl rfl rfl rfl
      (c_store_k1_pay10 _) (c_store_k1_pay12 _) (c_store_k1_pay13 _) (c_store_k1_pay14 _) (c_store_k1_pay16 _) (c_store_k1_pay17 _) (c_store_k1_pay18 _) (c_store_k1_pay19 _)
  ihave Hn1 := (show ((b_rowN1 k).view.loc (V d (cV L) (jV L)) ↦[(b_rowN1 k).view.set]{fullShare} _ : sProp 𝕄)
      ⊢ ((b_rowN1 k).view.loc (V d (cV L) (jV L)) ↦[(b_rowN1 k).view.set]{fullShare} FX) from Entails.of_eq (pointsTo_congr hfix1)) $$ Hn1
  -- the next gather, by that row
  have hin1 : ∀ x, (View.read (Elt F) (b_rowN1 k).view FX x : BitVec 32).toNat < 256 :=
    b_hin_off d L FX hfx ⟨4 * k.val + 1 + 4, c_row4_lt k 1⟩ _ _ (k1_off14_eq k 1)

  -- slot 2: the row fixed, the gather waited
  sl_exec
  icases Hf2_dst with ⟨Hrw2, Hrd2⟩
  -- the row buffer copied out, the copy waited
  sl_exec
  -- the row just fixed holds the fixed words
  have hfix2 : ∀ i ∈ (b_rowN2 k).view.set, (b_trip_core.sl.Hn2_w8 d L G0 k v11) i = FX i := by
    sl_unfold_run_names
    subst hv11
    exact fix_row_loop (F := F) k 2 G0 FX hFG _ _ _ _ _ _ _ _ _ _ _ _ _ _ _ _ rfl rfl rfl rfl rfl rfl rfl rfl
      (c_store_k1_pay20 _) (c_store_k1_pay21 _) (c_store_k1_pay23 _) (c_store_k1_pay24 _) (c_store_k1_pay25 _) (c_store_k1_pay26 _) (c_store_k1_pay29 _) (c_store_k1_pay30 _)
  ihave Hn2 := (show ((b_rowN2 k).view.loc (V d (cV L) (jV L)) ↦[(b_rowN2 k).view.set]{fullShare} _ : sProp 𝕄)
      ⊢ ((b_rowN2 k).view.loc (V d (cV L) (jV L)) ↦[(b_rowN2 k).view.set]{fullShare} FX) from Entails.of_eq (pointsTo_congr hfix2)) $$ Hn2
  -- the next gather, by that row
  have hin2 : ∀ x, (View.read (Elt F) (b_rowN2 k).view FX x : BitVec 32).toNat < 256 :=
    b_hin_off d L FX hfx ⟨4 * k.val + 2 + 4, c_row4_lt k 2⟩ _ _ (k1_off14_eq k 2)

  -- slot 3: the row fixed, the gather waited
  sl_exec
  icases Hf3_dst with ⟨Hrw3, Hrd3⟩
  -- the row buffer copied out, the copy waited
  sl_exec
  -- the row just fixed holds the fixed words
  have hfix3 : ∀ i ∈ (b_rowN3 k).view.set, (b_trip_core.sl.Hn3_w8 d L G0 k v11) i = FX i := by
    sl_unfold_run_names
    subst hv11
    exact fix_row_loop (F := F) k 3 G0 FX hFG _ _ _ _ _ _ _ _ _ _ _ _ _ _ _ _ rfl rfl rfl rfl rfl rfl rfl rfl
      (c_store_k1_pay31 _) (c_store_k1_pay32 _) (c_store_k1_pay33 _) (c_store_k1_pay34 _) (c_store_k1_pay38 _) (c_store_k1_pay39 _) (c_store_k1_pay40 _) (c_store_k1_pay41 _)
  ihave Hn3 := (show ((b_rowN3 k).view.loc (V d (cV L) (jV L)) ↦[(b_rowN3 k).view.set]{fullShare} _ : sProp 𝕄)
      ⊢ ((b_rowN3 k).view.loc (V d (cV L) (jV L)) ↦[(b_rowN3 k).view.set]{fullShare} FX) from Entails.of_eq (pointsTo_congr hfix3)) $$ Hn3
  -- the next gather, by that row
  have hin3 : ∀ x, (View.read (Elt F) (b_rowN3 k).view FX x : BitVec 32).toNat < 256 :=
    b_hin_off d L FX hfx ⟨4 * k.val + 3 + 4, c_row4_lt k 3⟩ _ _ (k1_off14_eq k 3)

  sl_exec
  sl_step
  unfold b_post
  isplitr; · iexact Hmw
  isplitl [HO]
  · iexists _; isplitr
    swap; · iexact HO
    ipureintro
    intro p hp
    repeat (rcases Finset.mem_insert.mp hp with rfl | hp; · exact Or.inr (Or.inl rfl))
    exact hW' p hp

  isplitl [Hf0]
  · iapply (b_fl0_restate m d L FX frw hfx ⟨4 * k.val + 0 + 4, c_row4_lt k 0⟩ _ _ (k1_off14_eq k 0) hin0 _)
    iexact Hf0
  isplitl [Hf1]
  · iapply (b_fl1_restate m d L FX frw hfx ⟨4 * k.val + 1 + 4, c_row4_lt k 1⟩ _ _ (k1_off14_eq k 1) hin1 _)
    iexact Hf1
  isplitl [Hf2]
  · iapply (b_fl2_restate m d L FX frw hfx ⟨4 * k.val + 2 + 4, c_row4_lt k 2⟩ _ _ (k1_off14_eq k 2) hin2 _)
    iexact Hf2
  isplitl [Hf3]
  · iapply (b_fl3_restate m d L FX frw hfx ⟨4 * k.val + 3 + 4, c_row4_lt k 3⟩ _ _ (k1_off14_eq k 3) hin3 _)
    iexact Hf3
  isplitl [Hs8]; · iexact Hs8
  isplitl [Hs9]; · iexact Hs9
  isplitl [Hs10]; · iexact Hs10
  isplitl [Hs11]; · iexact Hs11
  isplitl [Hrd0]; · iapply (Entails.of_eq (b_pts_rowM (F := F) d L ⟨4 * k.val + 0, c_blk_lt k 0⟩ fullShare FX)); iexact Hrd0
  isplitl [Hrd1]; · iapply (Entails.of_eq (b_pts_rowM (F := F) d L ⟨4 * k.val + 1, c_blk_lt k 1⟩ fullShare FX)); iexact Hrd1
  isplitl [Hrd2]; · iapply (Entails.of_eq (b_pts_rowM (F := F) d L ⟨4 * k.val + 2, c_blk_lt k 2⟩ fullShare FX)); iexact Hrd2
  isplitl [Hrd3]; · iapply (Entails.of_eq (b_pts_rowM (F := F) d L ⟨4 * k.val + 3, c_blk_lt k 3⟩ fullShare FX)); iexact Hrd3
  isplitl [Hb0]
  · iapply (Entails.of_eq (b_blk_landed m d (wid (cL L) (jL L)) ⟨4 * k.val + 0, c_blk_lt k 0⟩ _ _ (b_off13_0 L k) rwS0 frw _ (hpay _) (cV L) (jV L) _ fullShare)); iexact Hb0
  isplitl [Hb1]
  · iapply (Entails.of_eq (b_blk_landed m d (wid (cL L) (jL L)) ⟨4 * k.val + 1, c_blk_lt k 1⟩ _ _ (b_off13_1 L k) rwS1 frw _ (hpay _) (cV L) (jV L) _ fullShare)); iexact Hb1
  isplitl [Hb2]
  · iapply (Entails.of_eq (b_blk_landed m d (wid (cL L) (jL L)) ⟨4 * k.val + 2, c_blk_lt k 2⟩ _ _ (b_off13_2 L k) rwS2 frw _ (hpay _) (cV L) (jV L) _ fullShare)); iexact Hb2
  iapply (Entails.of_eq (b_blk_landed m d (wid (cL L) (jL L)) ⟨4 * k.val + 3, c_blk_lt k 3⟩ _ _ (b_off13_3 L k) rwS3 frw _ (hpay _) (cV L) (jV L) _ fullShare)); iexact Hb3

/-- **One trip of the gather loop**: from the invariant before trip `k` to the invariant before trip `k + 1`. -/
theorem b_trip (O : CellTallies nD τ sig (HIx 1)) (W : Waits sig (HIx 1)) (G0 FX : Buf (Elt F) ((V d (cV L) (jV L)).loc cc1_scratch0))
    (frw : Buf (Elt F) ((V d (cV L) (jV L)).loc cc1_scratch1))
    (hfx : ∀ (t : Fin 200) x, (View.read (Elt F) (b_rowM t).view FX x : BitVec 32).toNat < 256)
    (hpay : ∀ t : Fin 200, b_pay (m := m) d L FX hfx t = fun x : S128x128.Idx =>
      O5 m d (ix2 (⟨25600 * (wid (cL L) (jL L)).val + 128 * t.val + (x 0).val, a_row_lt (wid (cL L) (jL L)) t ⟨(x 0).val, (x 0).isLt⟩⟩ : Fin 819200) (⟨(x 1).val, (x 1).isLt⟩ : Fin 128)))
    (hFG : ∀ i, FX i = BitVec.add (G0 i) (BitVec.ofNat 32 (4 * rho ⟨(i 1).val, (i 1).isLt⟩)))
    (R : sProp 𝕄) (k : Fin k1_t1_loop.trips) (v2 : BitVec 32) (v11 v412 : IVec S16 32) (hv11 : v11 = c_iota) (arg12 : BitVec 32) :
    b_inv m d L O W G0 FX frw hfx R k.val arg12
      ⊢ wp frame (wpE (defs₀ (F := F)) 𝒱₀ (V d (cV L) (jV L)) none) Set.univ
          (k1_t1_body L iV (Memref.isWhole_whole _) tV (Memref.isWhole_whole _) oV (Memref.isWhole_whole _)
            ixV (Memref.isWhole_whole _) rwV (Memref.isWhole_whole _) shV (Memref.isWhole_whole _)
            cc1_scratch3 cc1_scratch4 cc1_scratch5 cc1_scoped0 cc1_scoped1 v2 v11 v412 k arg12)
          fun c => b_inv m d L O W G0 FX frw hfx R (k.val + 1) c :=
  (b_inv_open m d L O W G0 FX frw hfx R k arg12).trans
    ((sep_mono (b_trip_core m d L O W G0 FX frw hfx hpay hFG k v2 v11 v412 hv11 arg12) .rfl).trans
      ((wp_frame_r Idealize.ShloMosaic.frame _ Set.univ).trans
        (wp_mono Idealize.ShloMosaic.frame _ Set.univ fun c => b_inv_close m d L O W G0 FX frw hfx R k c)))

end Loop

end Cert.Kernel.Hand

end
-- ==== Proof.KernelW.Tile.lean ====
/-
  One vector subcore's task. Subcore `s` of SparseCore `c` works on slab `w = 2s + c`: it copies block `s` (rows
  16s … 16s+15) of the 256-row table into its SparseCore's shared memory, fetches the first 8 of its 200 rows of indices
  and starts the fetch of the other 192, meets the other fifteen subcores at the barrier — handing each a sixteenth of its
  block and receiving a sixteenth of every block, so that from then on it reads the whole shared table —, and then, row
  of 128 indices by row, adds the lane offsets, gathers the 128 named table rows into one of four row buffers and copies
  the buffer out to rows 25600 w + 128 t … of the result.
-/
import proofs.«214982_g87402584473731_cont_9to1c4b_667_31_alg».proof.Proof.KernelW.TileLemmas4
import proofs.«214982_g87402584473731_cont_9to1c4b_667_31_alg».proof.Proof.KernelW.LoopInv
import proofs.«214982_g87402584473731_cont_9to1c4b_667_31_alg».proof.Proof.KernelW.Inv0
import proofs.«214982_g87402584473731_cont_9to1c4b_667_31_alg».proof.Proof.KernelW.PostLoop
import proofs.«214982_g87402584473731_cont_9to1c4b_667_31_alg».proof.Proof.KernelW.Loop

noncomputable section

namespace Cert.Kernel.Hand

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

section Tile

variable (d : Dev nD) (L : grid1.Coords)

set_option maxHeartbeats 4000000 in
theorem tile_body (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ goC m d (cL L) (cV L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__gather_body L iV (Memref.isWhole_whole _) tV (Memref.isWhole_whole _) oV (Memref.isWhole_whole _)
            ixV (Memref.isWhole_whole _) rwV (Memref.isWhole_whole _) shV (Memref.isWhole_whole _)
            cc1_scratch3 cc1_scratch4 cc1_scratch5 cc1_scoped0 cc1_scoped1)
          fun _ => iprop(tdC m d (cL L) (cV L) (jL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1__gather_body_eq_skeleton]; unfold cc1__gather_body_skel
  simp only [k1_part15_eq_skeleton]; unfold k1_part15_skel
  simp only [k1_part16_eq_skeleton]; unfold k1_part16_skel
  rw [(K (F := F)).scopedBufs_V hF d (cV L) (jV L), SparseCore.Cfg.scopedSems0_V (Val := Elt F) d (cV L) (jV L), ownSems0_V, myK_chain, ownBufs_V]
  unfold bkit goC
  iintro ⟨#Hlv, ⟨⟨%κ, #Hinv⟩, Htoks, #Hrch, Hat, Hcred⟩, ⟨Ht, Hi, Ho, %fsh, Hsh⟩, ⟨⟨%fixb, Hix⟩, ⟨%frw, Hrw⟩, Hbufs⟩, ⟨⟨Hs4, Hs5, Hs6, Hs7, Hs8, Hs9, Hs10, Hs11, Hs12, Hs13, Hs14⟩, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tSlK (F := F) d L _ _).symm) $$ Ht
  ihave Hsh' := (Entails.of_eq (pts_shSlK (F := F) d L _ _).symm) $$ Hsh
  ihave Hi' := (pts_islab (F := F) d L _).1 $$ Hi
  icases Hi' with ⟨Hihd, Hitl⟩
  ihave Hix' := (pts_ix_split (F := F) d (cV L) (jV L) _).1 $$ Hix
  icases Hix' with ⟨Hixh, Hixt⟩
  ihave Hrw' := (Entails.of_eq (pts_rwV (F := F) d L _).symm) $$ Hrw
  sl_exec
  -- the barrier: a sixteenth of the block to every subcore's round, a sixteenth of every block from the subcore's own
  sl_unfold_run_names
  ihave Hsh2 := (Entails.of_eq (sh_landed (F := F) m d L _ _)) $$ Hsh'
  ihave Hsh3 := (Entails.of_eq (pts_shSlK (F := F) d L _ _)) $$ Hsh2
  ihave Hpays := (pays_intro (F := F) m d L) $$ Hsh3
  rw [wp_bind]
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hshw := (pays_elim (F := F) m d L) $$ Hgot
  -- past the barrier: the shared table whole at a sixteenth, split for the four gathers; the four row buffers apart;
  -- rows 0 … 3 of the index scratch apart, each as its gather's offset list addresses it
  ihave Hshw' := (Entails.of_eq (pts_shV (F := F) d L _ _).symm) $$ Hshw
  ihave Hsh4 := (Entails.of_eq (sh_four (F := F) d L _)) $$ Hshw'
  icases Hsh4 with ⟨Hsh0, Hsh1, Hsh2, Hsh3⟩
  ihave Hrw2 := (Entails.of_eq (pts_rwV (F := F) d L _)) $$ Hrw'
  ihave Hrw3 := (pts_rw_split (F := F) d (cV L) (jV L) _).1 $$ Hrw2
  icases Hrw3 with ⟨Hrw0, Hrw1, Hrw2, Hrw3⟩
  ihave Hixh := (Entails.of_eq (pts_G0hdO (F := F) m d L fixb)) $$ Hixh
  ihave Hr4 := (carve_rows4 (F := F) d L (G0hdO m d L fixb)).1 $$ Hixh
  icases Hr4 with ⟨Hrow0, Hrow1, Hrow2, Hrow3, Hixh⟩
  have hc0_0 := chunk_sub_row 0 0 inb_S200x128_S1x16_0_0 inb_S200x128_S1x128_0_0 (by decide)
  have hc0_1 := chunk_sub_row 0 16 inb_S200x128_S1x16_0_16 inb_S200x128_S1x128_0_0 (by decide)
  have hc0_2 := chunk_sub_row 0 32 inb_S200x128_S1x16_0_32 inb_S200x128_S1x128_0_0 (by decide)
  have hc0_3 := chunk_sub_row 0 48 inb_S200x128_S1x16_0_48 inb_S200x128_S1x128_0_0 (by decide)
  have hc0_4 := chunk_sub_row 0 64 inb_S200x128_S1x16_0_64 inb_S200x128_S1x128_0_0 (by decide)
  have hc0_5 := chunk_sub_row 0 80 inb_S200x128_S1x16_0_80 inb_S200x128_S1x128_0_0 (by decide)
  have hc0_6 := chunk_sub_row 0 96 inb_S200x128_S1x16_0_96 inb_S200x128_S1x128_0_0 (by decide)
  have hc0_7 := chunk_sub_row 0 112 inb_S200x128_S1x16_0_112 inb_S200x128_S1x128_0_0 (by decide)
  have hc1_0 := chunk_sub_row 1 0 inb_S200x128_S1x16_1_0 inb_S200x128_S1x128_1_0 (by decide)
  have hc1_1 := chunk_sub_row 1 16 inb_S200x128_S1x16_1_16 inb_S200x128_S1x128_1_0 (by decide)
  have hc1_2 := chunk_sub_row 1 32 inb_S200x128_S1x16_1_32 inb_S200x128_S1x128_1_0 (by decide)
  have hc1_3 := chunk_sub_row 1 48 inb_S200x128_S1x16_1_48 inb_S200x128_S1x128_1_0 (by decide)
  have hc1_4 := chunk_sub_row 1 64 inb_S200x128_S1x16_1_64 inb_S200x128_S1x128_1_0 (by decide)
  have hc1_5 := chunk_sub_row 1 80 inb_S200x128_S1x16_1_80 inb_S200x128_S1x128_1_0 (by decide)
  have hc1_6 := chunk_sub_row 1 96 inb_S200x128_S1x16_1_96 inb_S200x128_S1x128_1_0 (by decide)
  have hc1_7 := chunk_sub_row 1 112 inb_S200x128_S1x16_1_112 inb_S200x128_S1x128_1_0 (by decide)
  have hc2_0 := chunk_sub_row 2 0 inb_S200x128_S1x16_2_0 inb_S200x128_S1x128_2_0 (by decide)
  have hc2_1 := chunk_sub_row 2 16 inb_S200x128_S1x16_2_16 inb_S200x128_S1x128_2_0 (by decide)
  have hc2_2 := chunk_sub_row 2 32 inb_S200x128_S1x16_2_32 inb_S200x128_S1x128_2_0 (by decide)
  have hc2_3 := chunk_sub_row 2 48 inb_S200x128_S1x16_2_48 inb_S200x128_S1x128_2_0 (by decide)
  have hc2_4 := chunk_sub_row 2 64 inb_S200x128_S1x16_2_64 inb_S200x128_S1x128_2_0 (by decide)
  have hc2_5 := chunk_sub_row 2 80 inb_S200x128_S1x16_2_80 inb_S200x128_S1x128_2_0 (by decide)
  have hc2_6 := chunk_sub_row 2 96 inb_S200x128_S1x16_2_96 inb_S200x128_S1x128_2_0 (by decide)
  have hc2_7 := chunk_sub_row 2 112 inb_S200x128_S1x16_2_112 inb_S200x128_S1x128_2_0 (by decide)
  have hc3_0 := chunk_sub_row 3 0 inb_S200x128_S1x16_3_0 inb_S200x128_S1x128_3_0 (by decide)
  have hc3_1 := chunk_sub_row 3 16 inb_S200x128_S1x16_3_16 inb_S200x128_S1x128_3_0 (by decide)
  have hc3_2 := chunk_sub_row 3 32 inb_S200x128_S1x16_3_32 inb_S200x128_S1x128_3_0 (by decide)
  have hc3_3 := chunk_sub_row 3 48 inb_S200x128_S1x16_3_48 inb_S200x128_S1x128_3_0 (by decide)
  have hc3_4 := chunk_sub_row 3 64 inb_S200x128_S1x16_3_64 inb_S200x128_S1x128_3_0 (by decide)
  have hc3_5 := chunk_sub_row 3 80 inb_S200x128_S1x16_3_80 inb_S200x128_S1x128_3_0 (by decide)
  have hc3_6 := chunk_sub_row 3 96 inb_S200x128_S1x16_3_96 inb_S200x128_S1x128_3_0 (by decide)
  have hc3_7 := chunk_sub_row 3 112 inb_S200x128_S1x16_3_112 inb_S200x128_S1x128_3_0 (by decide)
  sl_exec
  have hch0 := fix_row_chain (F := F) 0 (by decide) inb_S200x128_S1x16_0_0 inb_S200x128_S1x16_0_16 inb_S200x128_S1x16_0_32 inb_S200x128_S1x16_0_48 inb_S200x128_S1x16_0_64 inb_S200x128_S1x16_0_80 inb_S200x128_S1x16_0_96 inb_S200x128_S1x16_0_112
      (G0hdO m d L fixb) (tile_body.sl.Hrow0_w1 m d L fixb) (tile_body.sl.Hrow0_w2 m d L fixb) (tile_body.sl.Hrow0_w3 m d L fixb) (tile_body.sl.Hrow0_w4 m d L fixb) (tile_body.sl.Hrow0_w5 m d L fixb) (tile_body.sl.Hrow0_w6 m d L fixb) (tile_body.sl.Hrow0_w7 m d L fixb) (tile_body.sl.Hrow0_w8 m d L fixb) _ _ _ _ _ _ _ _ rfl rfl rfl rfl rfl rfl rfl rfl
      (c_store_k1_pay42 _) (c_store_k1_pay43 _) (c_store_k1_pay45 _) (c_store_k1_pay46 _) (c_store_k1_pay47 _) (c_store_k1_pay49 _) (c_store_k1_pay50 _) (c_store_k1_pay51 _)
  have hin0 : ∀ x, (View.read (Elt F) (ixRow0).view (tile_body.sl.Hrow0_w8 m d L fixb) x).toNat < 256 :=
    fixed_hin (F := F) 0 (by decide) inb_S200x128_S1x128_0_0 _ _ hch0 (fun l => by
      rw [show ((G0hdO m d L fixb) (ix2 (⟨0, by decide⟩ : Fin 200) l) : BitVec 32) = _ from base_read_hd (F := F) m d L (cL L) (jL L) rfl rfl fixb ⟨0, by decide⟩ l]
      exact I4_lt4 (F := F) m d hpre _)
  sl_exec
  have hch1 := fix_row_chain (F := F) 1 (by decide) inb_S200x128_S1x16_1_0 inb_S200x128_S1x16_1_16 inb_S200x128_S1x16_1_32 inb_S200x128_S1x16_1_48 inb_S200x128_S1x16_1_64 inb_S200x128_S1x16_1_80 inb_S200x128_S1x16_1_96 inb_S200x128_S1x16_1_112
      (G0hdO m d L fixb) (tile_body.sl.Hrow1_w1 m d L fixb) (tile_body.sl.Hrow1_w2 m d L fixb) (tile_body.sl.Hrow1_w3 m d L fixb) (tile_body.sl.Hrow1_w4 m d L fixb) (tile_body.sl.Hrow1_w5 m d L fixb) (tile_body.sl.Hrow1_w6 m d L fixb) (tile_body.sl.Hrow1_w7 m d L fixb) (tile_body.sl.Hrow1_w8 m d L fixb) _ _ _ _ _ _ _ _ rfl rfl rfl rfl rfl rfl rfl rfl
      (c_store_k1_pay52 _) (c_store_k1_pay53 _) (c_store_k1_pay54 _) (c_store_k1_pay56 _) (c_store_k1_pay57 _) (c_store_k1_pay58 _) (c_store_k1_pay61 _) (c_store_k1_pay62 _)
  have hin1 : ∀ x, (View.read (Elt F) (ixRow1).view (tile_body.sl.Hrow1_w8 m d L fixb) x).toNat < 256 :=
    fixed_hin (F := F) 1 (by decide) inb_S200x128_S1x128_1_0 _ _ hch1 (fun l => by
      rw [show ((G0hdO m d L fixb) (ix2 (⟨1, by decide⟩ : Fin 200) l) : BitVec 32) = _ from base_read_hd (F := F) m d L (cL L) (jL L) rfl rfl fixb ⟨1, by decide⟩ l]
      exact I4_lt4 (F := F) m d hpre _)
  sl_exec
  have hch2 := fix_row_chain (F := F) 2 (by decide) inb_S200x128_S1x16_2_0 inb_S200x128_S1x16_2_16 inb_S200x128_S1x16_2_32 inb_S200x128_S1x16_2_48 inb_S200x128_S1x16_2_64 inb_S200x128_S1x16_2_80 inb_S200x128_S1x16_2_96 inb_S200x128_S1x16_2_112
      (G0hdO m d L fixb) (tile_body.sl.Hrow2_w1 m d L fixb) (tile_body.sl.Hrow2_w2 m d L fixb) (tile_body.sl.Hrow2_w3 m d L fixb) (tile_body.sl.Hrow2_w4 m d L fixb) (tile_body.sl.Hrow2_w5 m d L fixb) (tile_body.sl.Hrow2_w6 m d L fixb) (tile_body.sl.Hrow2_w7 m d L fixb) (tile_body.sl.Hrow2_w8 m d L fixb) _ _ _ _ _ _ _ _ rfl rfl rfl rfl rfl rfl rfl rfl
      (c_store_k1_pay64 _) (c_store_k1_pay65 _) (c_store_k1_pay66 _) (c_store_k1_pay67 _) (c_store_k1_pay68 _) (c_store_k1_pay69 _) (c_store_k1_pay70 _) (c_store_k1_pay71 _)
  have hin2 : ∀ x, (View.read (Elt F) (ixRow2).view (tile_body.sl.Hrow2_w8 m d L fixb) x).toNat < 256 :=
    fixed_hin (F := F) 2 (by decide) inb_S200x128_S1x128_2_0 _ _ hch2 (fun l => by
      rw [show ((G0hdO m d L fixb) (ix2 (⟨2, by decide⟩ : Fin 200) l) : BitVec 32) = _ from base_read_hd (F := F) m d L (cL L) (jL L) rfl rfl fixb ⟨2, by decide⟩ l]
      exact I4_lt4 (F := F) m d hpre _)
  sl_exec
  have hch3 := fix_row_chain (F := F) 3 (by decide) inb_S200x128_S1x16_3_0 inb_S200x128_S1x16_3_16 inb_S200x128_S1x16_3_32 inb_S200x128_S1x16_3_48 inb_S200x128_S1x16_3_64 inb_S200x128_S1x16_3_80 inb_S200x128_S1x16_3_96 inb_S200x128_S1x16_3_112
      (G0hdO m d L fixb) (tile_body.sl.Hrow3_w1 m d L fixb) (tile_body.sl.Hrow3_w2 m d L fixb) (tile_body.sl.Hrow3_w3 m d L fixb) (tile_body.sl.Hrow3_w4 m d L fixb) (tile_body.sl.Hrow3_w5 m d L fixb) (tile_body.sl.Hrow3_w6 m d L fixb) (tile_body.sl.Hrow3_w7 m d L fixb) (tile_body.sl.Hrow3_w8 m d L fixb) _ _ _ _ _ _ _ _ rfl rfl rfl rfl rfl rfl rfl rfl
      (c_store_k1_pay72 _) (c_store_k1_pay75 _) (c_store_k1_pay76 _) (c_store_k1_pay77 _) (c_store_k1_pay80 _) (c_store_k1_pay81 _) (c_store_k1_pay82 _) (c_store_k1_pay84 _)
  have hin3 : ∀ x, (View.read (Elt F) (ixRow3).view (tile_body.sl.Hrow3_w8 m d L fixb) x).toNat < 256 :=
    fixed_hin (F := F) 3 (by decide) inb_S200x128_S1x128_3_0 _ _ hch3 (fun l => by
      rw [show ((G0hdO m d L fixb) (ix2 (⟨3, by decide⟩ : Fin 200) l) : BitVec 32) = _ from base_read_hd (F := F) m d L (cL L) (jL L) rfl rfl fixb ⟨3, by decide⟩ l]
      exact I4_lt4 (F := F) m d hpre _)
  sl_exec
  -- the gather loop, at the invariant of LoopInv.lean
  have hfx := FX_hfx (F := F) m d L hpre
  sl_for (b_inv m d L O W (b_G0 m d L) (b_FX m d L) frw hfx iprop(emp)) $$ [Hmw2 HO Hs4 Hs5 Hs6 Hs7 Hs8 Hs9 Hs10 Hs11 Hixh Hixt Ho]
  case region =>
    intro k x
    exact b_trip (F := F) m d L O W (b_G0 m d L) (b_FX m d L) frw hfx
      (fun t => gathered_eq (F := F) m d (wid (cL L) (jL L)) t (View.read (Elt F) (b_rowM t).view (b_FX m d L)) rfl (hfx t)
        (c_hFX (F := F) m d L t) (fun l => I4_lt4 (F := F) m d hpre _))
      (fun _ => rfl) iprop(emp) k _ _ c_iota rfl x
  · -- the invariant holds at the loop's entry
    unfold b_inv
    isplitr; · iexact Hmw2
    isplitl [HO]
    · iexists _; isplitr
      swap; · iexact HO
      ipureintro; intro p hp
      rcases Finset.mem_insert.mp hp with hp | hp; · exact .inr (.inl (hp ▸ rfl))
      rcases Finset.mem_insert.mp hp with hp | hp; · exact .inr (.inr (hp ▸ rfl))
      rcases Finset.mem_insert.mp hp with hp | hp; · exact .inr (.inl (hp ▸ rfl))
      rcases Finset.mem_insert.mp hp with hp | hp; · exact .inr (.inl (hp ▸ rfl))
      exact .inl hp
    isplitl [Hs4]; · iapply (flight0_0 (F := F) m d L fixb frw _ hch0 _ hin0 hfx); iexact Hs4
    isplitl [Hs5]; · iapply (flight0_1 (F := F) m d L fixb frw _ hch1 _ hin1 hfx); iexact Hs5
    isplitl [Hs6]; · iapply (flight0_2 (F := F) m d L fixb frw _ hch2 _ hin2 hfx); iexact Hs6
    isplitl [Hs7]; · iapply (flight0_3 (F := F) m d L fixb frw _ hch3 _ hin3 hfx); iexact Hs7
    isplitl [Hs8]; · iexact Hs8
    isplitl [Hs9]; · iexact Hs9
    isplitl [Hs10]; · iexact Hs10
    isplitl [Hs11]; · iexact Hs11
    isplitr
    · rw [Nat.mul_zero, Finset.range_zero, bigSep_empty]; iempintro
    isplitl [Hixh Hixt]
    · iapply (inv0_rows (F := F) m d L fixb)
      isplitl [Hixh]; · iexact Hixh
      iexact Hixt
    isplitr
    · rw [Nat.mul_zero, odone_zero, pointsTo_empty]; iempintro
    isplitl [Ho]
    · rw [Nat.mul_zero, odone_zero, Finset.sdiff_empty]; iexact Ho
    iempintro
  iintro %x HI
  -- past the loop: the last four gathers' waits and write-outs, then everything handed back
  rw [← wp_bind]
  iapply (c_postLoop' (F := F) m d L hpre O W frw x)
  unfold c_untouched
  isplitl [HI]; · iexact HI
  isplitl [Hbufs]; · iexact Hbufs
  isplitl [Hsems]; · iexact Hsems
  isplitl [Hs12]; · iexact Hs12
  isplitl [Hs13]; · iexact Hs13
  isplitl [Hs14]; · iexact Hs14
  isplitl [Ht']; · iexact Ht'
  isplitl [Hihd]; · iexact Hihd
  iexact Hitl

end Tile

/-- One vector subcore's task, for every device, subcore and what the launch has it owe. -/
theorem tileBody (hpre : PreOK m) : TileBodySpec m :=
  fun d L hF O W hO hOlev => tile_body m d L hF hpre O W hO hOlev

end Cert.Kernel.Hand

end
-- ==== Proof.lean ====
/-
  The certificate's claim, assembled.

  Both programs compute one function of the four arguments (Proof/Spec.lean): position (p, q) of the 4096 × 200 index
  array names one of the table's four rows, and the result's row there is that table row normalised over its 128 entries,
  scaled by gamma and shifted by beta. The reference indexes first and normalises each of the 819200 rows (its run and
  its value: Proof/RefRun.lean, Proof/RefValue.lean; equal to the specification where the table is finite and every index
  is 0, 1, 2 or 3, which the precondition states: Proof/PreFacts.lean). The kernel normalises the four rows once on the
  TensorCore, writes them 64 times over as a 256-row table, and lets the 32 vector subcores of the two SparseCores gather
  rows of that table: each adds to the index in lane r the offset 4 ρ(r), ρ(r) < 64, which names another copy of the same
  normalised row (Proof/KValue.lean: the gathered result is the specification by unfolding, no finiteness needed). That
  the kernel's threads run to the end, fault nowhere and leave the arguments unchanged is the launch of Proof/Run.lean
  over the TensorCore's @main (Proof/Main.lean), the split of a SparseCore's operands among its subcores
  (Proof/Split.lean), the launch element (Proof/LaunchElem.lean) and one subcore's task (Proof/Tile.lean: copies, the
  subcore barrier carrying the shared table's blocks, the gather loop of Proof/LoopInv.lean and Proof/Loop.lean, the last
  write-outs of Proof/Epilogue.lean) — stated once for both readings of the floats; the word-level program is the same text
  under another name (Proof/KernelW/). Proof/Assembly.lean puts the five conjuncts together.
-/
import proofs.«214982_g87402584473731_cont_9to1c4b_667_31_alg».proof.Defs
import proofs.«214982_g87402584473731_cont_9to1c4b_667_31_alg».proof.Proof.Gen.Kernel
import proofs.«214982_g87402584473731_cont_9to1c4b_667_31_alg».proof.Proof.Gen.KernelIdeal
import proofs.«214982_g87402584473731_cont_9to1c4b_667_31_alg».proof.Proof.Gen.ReferenceIdeal
import proofs.«214982_g87402584473731_cont_9to1c4b_667_31_alg».proof.Proof.Gen.Pre_input_domain
import proofs.«214982_g87402584473731_cont_9to1c4b_667_31_alg».proof.Proof.Assembly
import proofs.«214982_g87402584473731_cont_9to1c4b_667_31_alg».proof.Proof.Tile
import proofs.«214982_g87402584473731_cont_9to1c4b_667_31_alg».proof.Proof.KernelW.Tile

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Assembly.frame_k (fun m h => Cert.Kernel.Hand.tileBody m h),
    Assembly.frame_ki (fun m h => Cert.KernelIdeal.Hand.tileBody m h),
    Assembly.frame_ri, Assembly.preserves,
    Assembly.algebraic (fun m h => Cert.KernelIdeal.Hand.tileBody m h)⟩

end Cert.Proof

end
